-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v301)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v301) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v365) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S4x128x128 : Shape := ⟨3, ![4, 128, 128]⟩
abbrev S4x128 : Shape := ⟨2, ![4, 128]⟩
abbrev S5x128x10 : Shape := ⟨3, ![5, 128, 10]⟩
abbrev S5x10 : Shape := ⟨2, ![5, 10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S5x128x10 : S_.BroadcastsInDim S5x128x10 (![] : Fin 0 → Fin S5x128x10.rank)
  reducesTo_S5x128x10_S_d0_1_2 : S5x128x10.ReducesTo [0, 1, 2] S_
  bcast_S_S5x10 : S_.BroadcastsInDim S5x10 (![] : Fin 0 → Fin S5x10.rank)
  reducesTo_S5x10_S_d0_1 : S5x10.ReducesTo [0, 1] S_

variable [Facts]

def fn_part3 {F : FTy → Type} [FloatOps F] (main_v48 : IVec S_ 1) (main_v49 : FVec F S5x10 .f32) (main_v50 : FVec F S5x10 .f32) : IVec S_ 1 :=
  let main_v51 : IVec S5x10 1 := cmpf .olt main_v49 main_v50
  let main_c_19 : IVec S_ 1 := constantI S_ 1 1#1
  let main_v52 : IVec S_ 1 := (fun x v => Host.reduce IntOp.andi x v reducesTo_S5x10_S_d0_1 h_S_) main_v51 main_c_19
  let main_v53 : IVec S_ 1 := andi main_v48 main_v52
  main_v53

def fn_part2 {F : FTy → Type} [FloatOps F] (main_arg9 : FVec F S4x128 .f32) (main_arg10 : FVec F S4x128 .f32) (main_arg11 : FVec F S5x128x10 .f32) (main_arg12 : FVec F S5x10 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg10
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S5x128x10 .f32 := Host.absf main_arg11
  let main_cst_16 : FVec F S_ .f32 := constant S_ .f32 0x7F800000#32
  let main_v45 : FVec F S5x128x10 .f32 := broadcastInDim S5x128x10 ![] bcast_S_S5x128x10 main_cst_16
  let main_v46 : IVec S5x128x10 1 := cmpf .olt main_v44 main_v45
  let main_c_17 : IVec S_ 1 := constantI S_ 1 1#1
  let main_v47 : IVec S_ 1 := (fun x v => Host.reduce IntOp.andi x v reducesTo_S5x128x10_S_d0_1_2 h_S_) main_v46 main_c_17
  let main_v48 : IVec S_ 1 := andi main_v43 main_v47
  let main_v49 : FVec F S5x10 .f32 := Host.absf main_arg12
  let main_cst_18 : FVec F S_ .f32 := constant S_ .f32 0x7F800000#32
  let main_v50 : FVec F S5x10 .f32 := broadcastInDim S5x10 ![] bcast_S_S5x10 main_cst_18
  fn_part3 (F := F) main_v48 main_v49 main_v50

def fn_part1 {F : FTy → Type} [FloatOps F] (main_arg6 : FVec F S4x128 .f32) (main_arg7 : FVec F S4x128 .f32) (main_arg8 : FVec F S4x128 .f32) (main_arg9 : FVec F S4x128 .f32) (main_arg10 : FVec F S4x128 .f32) (main_arg11 : FVec F S5x128x10 .f32) (main_arg12 : FVec F S5x10 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x600000 32) (main_arg2 : IVec S50000 32) (main_arg3 : FVec F S4x128x128 .f32) (main_arg4 : FVec F S4x128 .f32) (main_arg5 : FVec F S4x128x128 .f32) (main_arg6 : FVec F S4x128 .f32) (main_arg7 : FVec F S4x128 .f32) (main_arg8 : FVec F S4x128 .f32) (main_arg9 : FVec F S4x128 .f32) (main_arg10 : FVec F S4x128 .f32) (main_arg11 : FVec F S5x128x10 .f32) (main_arg12 : FVec F S5x10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S4x128x128 : Shape := ⟨3, ![4, 128, 128]⟩
abbrev S4x128 : Shape := ⟨2, ![4, 128]⟩
abbrev S5x128x10 : Shape := ⟨3, ![5, 128, 10]⟩
abbrev S5x10 : Shape := ⟨2, ![5, 10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S512x10 : Shape := ⟨2, ![512, 10]⟩
abbrev S512x128 : Shape := ⟨2, ![512, 128]⟩
abbrev S50000x1 : Shape := ⟨2, ![50000, 1]⟩
abbrev S1x128x10 : Shape := ⟨3, ![1, 128, 10]⟩
abbrev S128x10 : Shape := ⟨2, ![128, 10]⟩
abbrev S1x10 : Shape := ⟨2, ![1, 10]⟩
abbrev S10 : Shape := ⟨1, ![10]⟩
abbrev S512 : Shape := ⟨1, ![512]⟩
abbrev S512x1 : Shape := ⟨2, ![512, 1]⟩

abbrev nBuf : Space → Nat
  | .hbm => 387
  | .vmem => 120
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S4x128x128, .f32⟩
  | 4 => ⟨S4x128, .f32⟩
  | 5 => ⟨S4x128x128, .f32⟩
  | 6 => ⟨S4x128, .f32⟩
  | 7 => ⟨S4x128, .f32⟩
  | 8 => ⟨S4x128, .f32⟩
  | 9 => ⟨S4x128, .f32⟩
  | 10 => ⟨S4x128, .f32⟩
  | 11 => ⟨S5x128x10, .f32⟩
  | 12 => ⟨S5x10, .f32⟩
  | 13 => ⟨S1x600000, .i32⟩
  | 14 => ⟨S600000, .i32⟩
  | 15 => ⟨S1x600000, .i32⟩
  | 16 => ⟨S600000, .i32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S50000x128, .f32⟩
  | 28 => ⟨S600000x1, .i32⟩
  | 29 => ⟨S50000x128, .f32⟩
  | 30 => ⟨S1x128x128, .f32⟩
  | 31 => ⟨S128x128, .f32⟩
  | 32 => ⟨S1x128, .f32⟩
  | 33 => ⟨S128, .f32⟩
  | 34 => ⟨S1x128, .f32⟩
  | 35 => ⟨S50000x128, .f32⟩
  | 36 => ⟨S1x128, .f32⟩
  | 37 => ⟨S1x128, .f32⟩
  | 38 => ⟨S_, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S1x128, .f32⟩
  | 45 => ⟨S1x128, .f32⟩
  | 46 => ⟨S1x128, .f32⟩
  | 47 => ⟨S128, .f32⟩
  | 48 => ⟨S1x128, .f32⟩
  | 49 => ⟨S_, .f32⟩
  | 50 => ⟨S1x128, .f32⟩
  | 51 => ⟨S1x128, .f32⟩
  | 52 => ⟨S1x128, .f32⟩
  | 53 => ⟨S1x128, .f32⟩
  | 54 => ⟨S1x128, .f32⟩
  | 55 => ⟨S128, .f32⟩
  | 56 => ⟨S1x128, .f32⟩
  | 57 => ⟨S1x128, .f32⟩
  | 58 => ⟨S1x128, .f32⟩
  | 59 => ⟨S1x128x128, .f32⟩
  | 60 => ⟨S128x128, .f32⟩
  | 61 => ⟨S1x128, .f32⟩
  | 62 => ⟨S128, .f32⟩
  | 63 => ⟨S1x128, .f32⟩
  | 64 => ⟨S50000x128, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S_, .f32⟩
  | 71 => ⟨S1x128, .f32⟩
  | 72 => ⟨S1x128, .f32⟩
  | 73 => ⟨S1x128, .f32⟩
  | 74 => ⟨S1x128, .f32⟩
  | 75 => ⟨S1x128, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S1x128, .f32⟩
  | 83 => ⟨S1x128, .f32⟩
  | 84 => ⟨S128, .f32⟩
  | 85 => ⟨S1x128, .f32⟩
  | 86 => ⟨S1x128, .f32⟩
  | 87 => ⟨S1x128, .f32⟩
  | 88 => ⟨S50000x128, .f32⟩
  | 89 => ⟨S_, .i32⟩
  | 90 => ⟨S600000, .i32⟩
  | 91 => ⟨S600000, .i1⟩
  | 92 => ⟨S_, .i32⟩
  | 93 => ⟨S600000, .i32⟩
  | 94 => ⟨S600000, .i32⟩
  | 95 => ⟨S600000, .i32⟩
  | 96 => ⟨S600000x1, .i32⟩
  | 97 => ⟨S600000x128, .f32⟩
  | 98 => ⟨S_, .f32⟩
  | 99 => ⟨S50000x128, .f32⟩
  | 100 => ⟨S600000x1, .i32⟩
  | 101 => ⟨S50000x128, .f32⟩
  | 102 => ⟨S1x128x128, .f32⟩
  | 103 => ⟨S128x128, .f32⟩
  | 104 => ⟨S1x128, .f32⟩
  | 105 => ⟨S128, .f32⟩
  | 106 => ⟨S1x128, .f32⟩
  | 107 => ⟨S50000x128, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S1x128, .f32⟩
  | 125 => ⟨S1x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128x128, .f32⟩
  | 4 => ⟨S128x128, .f32⟩
  | 5 => ⟨S1x128, .f32⟩
  | 6 => ⟨S128, .f32⟩
  | 7 => ⟨S1x128, .f32⟩
  | 8 => ⟨S50000x128, .f32⟩
  | 9 => ⟨S1x128, .f32⟩
  | 10 => ⟨S1x128, .f32⟩
  | 11 => ⟨S_, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S1x128, .f32⟩
  | 18 => ⟨S1x128, .f32⟩
  | 19 => ⟨S1x128, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S1x128, .f32⟩
  | 26 => ⟨S1x128, .f32⟩
  | 27 => ⟨S1x128, .f32⟩
  | 28 => ⟨S128, .f32⟩
  | 29 => ⟨S1x128, .f32⟩
  | 30 => ⟨S1x128, .f32⟩
  | 31 => ⟨S1x128, .f32⟩
  | 32 => ⟨S50000x128, .f32⟩
  | 33 => ⟨S_, .i32⟩
  | 34 => ⟨S600000, .i32⟩
  | 35 => ⟨S600000, .i1⟩
  | 36 => ⟨S_, .i32⟩
  | 37 => ⟨S600000, .i32⟩
  | 38 => ⟨S600000, .i32⟩
  | 39 => ⟨S600000, .i32⟩
  | 40 => ⟨S600000x1, .i32⟩
  | 41 => ⟨S600000x128, .f32⟩
  | 42 => ⟨S_, .f32⟩
  | 43 => ⟨S50000x128, .f32⟩
  | 44 => ⟨S600000x1, .i32⟩
  | 45 => ⟨S50000x128, .f32⟩
  | 46 => ⟨S1x128x128, .f32⟩
  | 47 => ⟨S128x128, .f32⟩
  | 48 => ⟨S1x128, .f32⟩
  | 49 => ⟨S128, .f32⟩
  | 50 => ⟨S1x128, .f32⟩
  | 51 => ⟨S50000x128, .f32⟩
  | 52 => ⟨S1x128, .f32⟩
  | 53 => ⟨S1x128, .f32⟩
  | 54 => ⟨S_, .f32⟩
  | 55 => ⟨S1x128, .f32⟩
  | 56 => ⟨S1x128, .f32⟩
  | 57 => ⟨S_, .f32⟩
  | 58 => ⟨S1x128, .f32⟩
  | 59 => ⟨S1x128, .f32⟩
  | 60 => ⟨S1x128, .f32⟩
  | 61 => ⟨S1x128, .f32⟩
  | 62 => ⟨S1x128, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S1x128, .f32⟩
  | 69 => ⟨S1x128, .f32⟩
  | 70 => ⟨S1x128, .f32⟩
  | 71 => ⟨S128, .f32⟩
  | 72 => ⟨S1x128, .f32⟩
  | 73 => ⟨S1x128, .f32⟩
  | 74 => ⟨S1x128, .f32⟩
  | 75 => ⟨S1x128x128, .f32⟩
  | 76 => ⟨S128x128, .f32⟩
  | 77 => ⟨S1x128, .f32⟩
  | 78 => ⟨S128, .f32⟩
  | 79 => ⟨S1x128, .f32⟩
  | 80 => ⟨S50000x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S_, .f32⟩
  | 87 => ⟨S1x128, .f32⟩
  | 88 => ⟨S1x128, .f32⟩
  | 89 => ⟨S1x128, .f32⟩
  | 90 => ⟨S1x128, .f32⟩
  | 91 => ⟨S1x128, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S1x128, .f32⟩
  | 98 => ⟨S1x128, .f32⟩
  | 99 => ⟨S1x128, .f32⟩
  | 100 => ⟨S128, .f32⟩
  | 101 => ⟨S1x128, .f32⟩
  | 102 => ⟨S1x128, .f32⟩
  | 103 => ⟨S1x128, .f32⟩
  | 104 => ⟨S50000x128, .f32⟩
  | 105 => ⟨S_, .i32⟩
  | 106 => ⟨S600000, .i32⟩
  | 107 => ⟨S600000, .i1⟩
  | 108 => ⟨S_, .i32⟩
  | 109 => ⟨S600000, .i32⟩
  | 110 => ⟨S600000, .i32⟩
  | 111 => ⟨S600000, .i32⟩
  | 112 => ⟨S600000x1, .i32⟩
  | 113 => ⟨S600000x128, .f32⟩
  | 114 => ⟨S_, .f32⟩
  | 115 => ⟨S50000x128, .f32⟩
  | 116 => ⟨S600000x1, .i32⟩
  | 117 => ⟨S50000x128, .f32⟩
  | 118 => ⟨S1x128x128, .f32⟩
  | 119 => ⟨S128x128, .f32⟩
  | 120 => ⟨S1x128, .f32⟩
  | 121 => ⟨S128, .f32⟩
  | 122 => ⟨S1x128, .f32⟩
  | 123 => ⟨S50000x128, .f32⟩
  | 124 => ⟨S1x128, .f32⟩
  | 125 => ⟨S1x128, .f32⟩
  | 126 => ⟨S_, .f32⟩
  | 127 => ⟨S1x128, .f32⟩
  | _ => ⟨S50000x128, .f32⟩

abbrev hbmTy0_2 (i : Nat) : BufTy := match i % 128 with
  | 0 => ⟨S1x128, .f32⟩
  | 1 => ⟨S_, .f32⟩
  | 2 => ⟨S1x128, .f32⟩
  | 3 => ⟨S1x128, .f32⟩
  | 4 => ⟨S1x128, .f32⟩
  | 5 => ⟨S1x128, .f32⟩
  | 6 => ⟨S1x128, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S1x128, .f32⟩
  | 13 => ⟨S1x128, .f32⟩
  | 14 => ⟨S1x128, .f32⟩
  | 15 => ⟨S128, .f32⟩
  | 16 => ⟨S1x128, .f32⟩
  | 17 => ⟨S1x128, .f32⟩
  | 18 => ⟨S1x128, .f32⟩
  | 19 => ⟨S1x128x128, .f32⟩
  | 20 => ⟨S128x128, .f32⟩
  | 21 => ⟨S1x128, .f32⟩
  | 22 => ⟨S128, .f32⟩
  | 23 => ⟨S1x128, .f32⟩
  | 24 => ⟨S50000x128, .f32⟩
  | 25 => ⟨S1x128, .f32⟩
  | 26 => ⟨S1x128, .f32⟩
  | 27 => ⟨S_, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S1x128, .f32⟩
  | 42 => ⟨S1x128, .f32⟩
  | 43 => ⟨S1x128, .f32⟩
  | 44 => ⟨S128, .f32⟩
  | 45 => ⟨S1x128, .f32⟩
  | 46 => ⟨S1x128, .f32⟩
  | 47 => ⟨S1x128, .f32⟩
  | 48 => ⟨S50000x128, .f32⟩
  | 49 => ⟨S_, .f32⟩
  | 50 => ⟨S512x10, .f32⟩
  | 51 => ⟨S_, .f32⟩
  | 52 => ⟨S512x128, .f32⟩
  | 53 => ⟨S50000x1, .i32⟩
  | 54 => ⟨S512x128, .f32⟩
  | 55 => ⟨S1x128x10, .f32⟩
  | 56 => ⟨S128x10, .f32⟩
  | 57 => ⟨S512x10, .f32⟩
  | 58 => ⟨S512x10, .f32⟩
  | 59 => ⟨S1x10, .f32⟩
  | 60 => ⟨S10, .f32⟩
  | 61 => ⟨S1x10, .f32⟩
  | 62 => ⟨S512x10, .f32⟩
  | 63 => ⟨S512x10, .f32⟩
  | 64 => ⟨S_, .f32⟩
  | 65 => ⟨S512x128, .f32⟩
  | 66 => ⟨S50000x1, .i32⟩
  | 67 => ⟨S512x128, .f32⟩
  | 68 => ⟨S1x128x10, .f32⟩
  | 69 => ⟨S128x10, .f32⟩
  | 70 => ⟨S512x10, .f32⟩
  | 71 => ⟨S512x10, .f32⟩
  | 72 => ⟨S1x10, .f32⟩
  | 73 => ⟨S10, .f32⟩
  | 74 => ⟨S1x10, .f32⟩
  | 75 => ⟨S512x10, .f32⟩
  | 76 => ⟨S512x10, .f32⟩
  | 77 => ⟨S_, .f32⟩
  | 78 => ⟨S512x128, .f32⟩
  | 79 => ⟨S50000x1, .i32⟩
  | 80 => ⟨S512x128, .f32⟩
  | 81 => ⟨S1x128x10, .f32⟩
  | 82 => ⟨S128x10, .f32⟩
  | 83 => ⟨S512x10, .f32⟩
  | 84 => ⟨S512x10, .f32⟩
  | 85 => ⟨S1x10, .f32⟩
  | 86 => ⟨S10, .f32⟩
  | 87 => ⟨S1x10, .f32⟩
  | 88 => ⟨S512x10, .f32⟩
  | 89 => ⟨S512x10, .f32⟩
  | 90 => ⟨S_, .f32⟩
  | 91 => ⟨S512x128, .f32⟩
  | 92 => ⟨S50000x1, .i32⟩
  | 93 => ⟨S512x128, .f32⟩
  | 94 => ⟨S1x128x10, .f32⟩
  | 95 => ⟨S128x10, .f32⟩
  | 96 => ⟨S512x10, .f32⟩
  | 97 => ⟨S512x10, .f32⟩
  | 98 => ⟨S1x10, .f32⟩
  | 99 => ⟨S10, .f32⟩
  | 100 => ⟨S1x10, .f32⟩
  | 101 => ⟨S512x10, .f32⟩
  | 102 => ⟨S512x10, .f32⟩
  | 103 => ⟨S_, .f32⟩
  | 104 => ⟨S512x128, .f32⟩
  | 105 => ⟨S50000x1, .i32⟩
  | 106 => ⟨S512x128, .f32⟩
  | 107 => ⟨S1x128x10, .f32⟩
  | 108 => ⟨S128x10, .f32⟩
  | 109 => ⟨S512x10, .f32⟩
  | 110 => ⟨S512x10, .f32⟩
  | 111 => ⟨S1x10, .f32⟩
  | 112 => ⟨S10, .f32⟩
  | 113 => ⟨S1x10, .f32⟩
  | 114 => ⟨S512x10, .f32⟩
  | 115 => ⟨S512x10, .f32⟩
  | 116 => ⟨S_, .f32⟩
  | 117 => ⟨S512, .f32⟩
  | 118 => ⟨S_, .f32⟩
  | 119 => ⟨S512, .f32⟩
  | 120 => ⟨S512, .f32⟩
  | 121 => ⟨S512x1, .f32⟩
  | 122 => ⟨S512x10, .f32⟩
  | 123 => ⟨S512x10, .f32⟩
  | 124 => ⟨S512x10, .f32⟩
  | 125 => ⟨S_, .f32⟩
  | 126 => ⟨S512, .f32⟩
  | 127 => ⟨S512x1, .f32⟩
  | _ => ⟨S50000x128, .f32⟩

abbrev hbmTy0_3 (i : Nat) : BufTy := match i % 128 with
  | 0 => ⟨S512x1, .f32⟩
  | 1 => ⟨S512x10, .f32⟩
  | 2 => ⟨S512x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S128x128, .f32⟩
  | .local _ .vmem, ⟨65, _⟩ => ⟨S1x128, .f32⟩
  | .local _ .vmem, ⟨66, _⟩ => ⟨S5000x128, .f32⟩
  | .local _ .vmem, ⟨67, _⟩ => ⟨S5000x128, .f32⟩
  | .local _ .vmem, ⟨68, _⟩ => ⟨S1x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | .local _ .vmem, ⟨74, _⟩ => ⟨S1x128, .f32⟩
  | .local _ .vmem, ⟨75, _⟩ => ⟨S1x128, .f32⟩
  | .local _ .vmem, ⟨76, _⟩ => ⟨S128x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S1x128, .f32⟩
  | .local _ .vmem, ⟨81, _⟩ => ⟨S1x128, .f32⟩
  | .local _ .vmem, ⟨82, _⟩ => ⟨S1x128, .f32⟩
  | .local _ .vmem, ⟨83, _⟩ => ⟨S1x128, .f32⟩
  | .local _ .vmem, ⟨84, _⟩ => ⟨S5000x128, .f32⟩
  | .local _ .vmem, ⟨85, _⟩ => ⟨S5000x128, .f32⟩
  | .local _ .vmem, ⟨86, _⟩ => ⟨S1x128, .f32⟩
  | .local _ .vmem, ⟨87, _⟩ => ⟨S1x128, .f32⟩
  | .local _ .vmem, ⟨88, _⟩ => ⟨S5000x128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | .local _ .vmem, ⟨92, _⟩ => ⟨S5000x128, .f32⟩
  | .local _ .vmem, ⟨93, _⟩ => ⟨S5000x128, .f32⟩
  | .local _ .vmem, ⟨94, _⟩ => ⟨S128x128, .f32⟩
  | .local _ .vmem, ⟨95, _⟩ => ⟨S1x128, .f32⟩
  | .local _ .vmem, ⟨96, _⟩ => ⟨S5000x128, .f32⟩
  | .local _ .vmem, ⟨97, _⟩ => ⟨S5000x128, .f32⟩
  | .local _ .vmem, ⟨98, _⟩ => ⟨S1x128, .f32⟩
  | .local _ .vmem, ⟨99, _⟩ => ⟨S1x128, .f32⟩
  | .local _ .vmem, ⟨100, _⟩ => ⟨S1x128, .f32⟩
  | .local _ .vmem, ⟨101, _⟩ => ⟨S1x128, .f32⟩
  | .local _ .vmem, ⟨102, _⟩ => ⟨S5000x128, .f32⟩
  | .local _ .vmem, ⟨103, _⟩ => ⟨S5000x128, .f32⟩
  | .local _ .vmem, ⟨104, _⟩ => ⟨S1x128, .f32⟩
  | .local _ .vmem, ⟨105, _⟩ => ⟨S1x128, .f32⟩
  | .local _ .vmem, ⟨106, _⟩ => ⟨S128x128, .f32⟩
  | .local _ .vmem, ⟨107, _⟩ => ⟨S1x128, .f32⟩
  | .local _ .vmem, ⟨108, _⟩ => ⟨S5000x128, .f32⟩
  | .local _ .vmem, ⟨109, _⟩ => ⟨S5000x128, .f32⟩
  | .local _ .vmem, ⟨110, _⟩ => ⟨S1x128, .f32⟩
  | .local _ .vmem, ⟨111, _⟩ => ⟨S1x128, .f32⟩
  | .local _ .vmem, ⟨112, _⟩ => ⟨S1x128, .f32⟩
  | .local _ .vmem, ⟨113, _⟩ => ⟨S1x128, .f32⟩
  | .local _ .vmem, ⟨114, _⟩ => ⟨S5000x128, .f32⟩
  | .local _ .vmem, ⟨115, _⟩ => ⟨S5000x128, .f32⟩
  | .local _ .vmem, ⟨116, _⟩ => ⟨S1x128, .f32⟩
  | .local _ .vmem, ⟨117, _⟩ => ⟨S1x128, .f32⟩
  | .local _ .vmem, ⟨118, _⟩ => ⟨S5000x128, .f32⟩
  | .local _ .vmem, ⟨119, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTc nBuf bufTy 0 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43_0 : Ref sig .tc := ⟨.hbm, 64, rfl⟩
abbrev main_v43_1 : Ref sig .tc := ⟨.hbm, 65, rfl⟩
abbrev main_v43_2 : Ref sig .tc := ⟨.hbm, 66, rfl⟩
abbrev main_cst_4 : Ref sig .tc := ⟨.hbm, 67, rfl⟩
abbrev main_v44 : Ref sig .tc := ⟨.hbm, 68, rfl⟩
abbrev main_v45 : Ref sig .tc := ⟨.hbm, 69, rfl⟩
abbrev main_cst_5 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_6 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_7 : Ref sig .tc := ⟨.hbm, 89, rfl⟩
abbrev main_v63 : Ref sig .tc := ⟨.hbm, 90, rfl⟩
abbrev main_v64 : Ref sig .tc := ⟨.hbm, 91, rfl⟩
abbrev main_c_8 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_9 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78_0 : Ref sig .tc := ⟨.hbm, 107, rfl⟩
abbrev main_v78_1 : Ref sig .tc := ⟨.hbm, 108, rfl⟩
abbrev main_v78_2 : Ref sig .tc := ⟨.hbm, 109, rfl⟩
abbrev main_cst_10 : Ref sig .tc := ⟨.hbm, 110, rfl⟩
abbrev main_v79 : Ref sig .tc := ⟨.hbm, 111, rfl⟩
abbrev main_v80 : Ref sig .tc := ⟨.hbm, 112, rfl⟩
abbrev main_cst_11 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_12 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102_0 : Ref sig .tc := ⟨.hbm, 136, rfl⟩
abbrev main_v102_1 : Ref sig .tc := ⟨.hbm, 137, rfl⟩
abbrev main_v102_2 : Ref sig .tc := ⟨.hbm, 138, rfl⟩
abbrev main_cst_13 : Ref sig .tc := ⟨.hbm, 139, rfl⟩
abbrev main_v103 : Ref sig .tc := ⟨.hbm, 140, rfl⟩
abbrev main_v104 : Ref sig .tc := ⟨.hbm, 141, rfl⟩
abbrev main_cst_14 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_15 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_c_16 : Ref sig .tc := ⟨.hbm, 161, rfl⟩
abbrev main_v122 : Ref sig .tc := ⟨.hbm, 162, rfl⟩
abbrev main_v123 : Ref sig .tc := ⟨.hbm, 163, rfl⟩
abbrev main_c_17 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_18 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137_0 : Ref sig .tc := ⟨.hbm, 179, rfl⟩
abbrev main_v137_1 : Ref sig .tc := ⟨.hbm, 180, rfl⟩
abbrev main_v137_2 : Ref sig .tc := ⟨.hbm, 181, rfl⟩
abbrev main_cst_19 : Ref sig .tc := ⟨.hbm, 182, rfl⟩
abbrev main_v138 : Ref sig .tc := ⟨.hbm, 183, rfl⟩
abbrev main_v139 : Ref sig .tc := ⟨.hbm, 184, rfl⟩
abbrev main_cst_20 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_21 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161_0 : Ref sig .tc := ⟨.hbm, 208, rfl⟩
abbrev main_v161_1 : Ref sig .tc := ⟨.hbm, 209, rfl⟩
abbrev main_v161_2 : Ref sig .tc := ⟨.hbm, 210, rfl⟩
abbrev main_cst_22 : Ref sig .tc := ⟨.hbm, 211, rfl⟩
abbrev main_v162 : Ref sig .tc := ⟨.hbm, 212, rfl⟩
abbrev main_v163 : Ref sig .tc := ⟨.hbm, 213, rfl⟩
abbrev main_cst_23 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_cst_24 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_c_25 : Ref sig .tc := ⟨.hbm, 233, rfl⟩
abbrev main_v181 : Ref sig .tc := ⟨.hbm, 234, rfl⟩
abbrev main_v182 : Ref sig .tc := ⟨.hbm, 235, rfl⟩
abbrev main_c_26 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_cst_27 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196_0 : Ref sig .tc := ⟨.hbm, 251, rfl⟩
abbrev main_v196_1 : Ref sig .tc := ⟨.hbm, 252, rfl⟩
abbrev main_v196_2 : Ref sig .tc := ⟨.hbm, 253, rfl⟩
abbrev main_cst_28 : Ref sig .tc := ⟨.hbm, 254, rfl⟩
abbrev main_v197 : Ref sig .tc := ⟨.hbm, 255, rfl⟩
abbrev main_v198 : Ref sig .tc := ⟨.hbm, 256, rfl⟩
abbrev main_cst_29 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_cst_30 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220_0 : Ref sig .tc := ⟨.hbm, 280, rfl⟩
abbrev main_v220_1 : Ref sig .tc := ⟨.hbm, 281, rfl⟩
abbrev main_v220_2 : Ref sig .tc := ⟨.hbm, 282, rfl⟩
abbrev main_cst_31 : Ref sig .tc := ⟨.hbm, 283, rfl⟩
abbrev main_v221 : Ref sig .tc := ⟨.hbm, 284, rfl⟩
abbrev main_v222 : Ref sig .tc := ⟨.hbm, 285, rfl⟩
abbrev main_cst_32 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_cst_33 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_cst_34 : Ref sig .tc := ⟨.hbm, 305, rfl⟩
abbrev main_v240 : Ref sig .tc := ⟨.hbm, 306, rfl⟩
abbrev main_cst_35 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_cst_36 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_cst_37 : Ref sig .tc := ⟨.hbm, 333, rfl⟩
abbrev main_v265 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_v273 : Ref sig .tc := ⟨.hbm, 342, rfl⟩
abbrev main_v274 : Ref sig .tc := ⟨.hbm, 343, rfl⟩
abbrev main_v275 : Ref sig .tc := ⟨.hbm, 344, rfl⟩
abbrev main_v276 : Ref sig .tc := ⟨.hbm, 345, rfl⟩
abbrev main_cst_38 : Ref sig .tc := ⟨.hbm, 346, rfl⟩
abbrev main_v277 : Ref sig .tc := ⟨.hbm, 347, rfl⟩
abbrev main_v278 : Ref sig .tc := ⟨.hbm, 348, rfl⟩
abbrev main_v279 : Ref sig .tc := ⟨.hbm, 349, rfl⟩
abbrev main_v280 : Ref sig .tc := ⟨.hbm, 350, rfl⟩
abbrev main_v281 : Ref sig .tc := ⟨.hbm, 351, rfl⟩
abbrev main_v282 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_cst_39 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_call0_cst : Ref sig .tc := ⟨.hbm, 372, rfl⟩
abbrev main_call0_v0 : Ref sig .tc := ⟨.hbm, 373, rfl⟩
abbrev main_call0_cst_0 : Ref sig .tc := ⟨.hbm, 374, rfl⟩
abbrev main_call0_v1 : Ref sig .tc := ⟨.hbm, 375, rfl⟩
abbrev main_call0_v2 : Ref sig .tc := ⟨.hbm, 376, rfl⟩
abbrev main_call0_v3 : Ref sig .tc := ⟨.hbm, 377, rfl⟩
abbrev main_call0_v4 : Ref sig .tc := ⟨.hbm, 378, rfl⟩
abbrev main_call0_v5 : Ref sig .tc := ⟨.hbm, 379, rfl⟩
abbrev main_call0_v6 : Ref sig .tc := ⟨.hbm, 380, rfl⟩
abbrev main_call0_cst_1 : Ref sig .tc := ⟨.hbm, 381, rfl⟩
abbrev main_call0_v7 : Ref sig .tc := ⟨.hbm, 382, rfl⟩
abbrev main_call0_v8 : Ref sig .tc := ⟨.hbm, 383, rfl⟩
abbrev main_call0_v9 : Ref sig .tc := ⟨.hbm, 384, rfl⟩
abbrev main_call0_v10 : Ref sig .tc := ⟨.hbm, 385, rfl⟩
abbrev main_v301 : Ref sig .tc := ⟨.hbm, 386, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg6_0 : Ref sig .tc := ⟨.vmem, 39, rfl⟩
abbrev cc3_scratch0 : Ref sig .tc := ⟨.vmem, 40, rfl⟩
abbrev cc3_scratch1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg5_1 : Ref sig .tc := ⟨.vmem, 49, rfl⟩
abbrev cc4_stg6_0 : Ref sig .tc := ⟨.vmem, 50, rfl⟩
abbrev cc4_stg7_0 : Ref sig .tc := ⟨.vmem, 51, rfl⟩
abbrev cc4_scratch0 : Ref sig .tc := ⟨.vmem, 52, rfl⟩
abbrev cc4_scratch1 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg3_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg4_1 : Ref sig .tc := ⟨.vmem, 67, rfl⟩
abbrev cc6_stg5_0 : Ref sig .tc := ⟨.vmem, 68, rfl⟩
abbrev cc6_stg6_0 : Ref sig .tc := ⟨.vmem, 69, rfl⟩
abbrev cc6_scratch0 : Ref sig .tc := ⟨.vmem, 70, rfl⟩
abbrev cc6_scratch1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg5_1 : Ref sig .tc := ⟨.vmem, 79, rfl⟩
abbrev cc7_stg6_0 : Ref sig .tc := ⟨.vmem, 80, rfl⟩
abbrev cc7_stg7_0 : Ref sig .tc := ⟨.vmem, 81, rfl⟩
abbrev cc7_scratch0 : Ref sig .tc := ⟨.vmem, 82, rfl⟩
abbrev cc7_scratch1 : Ref sig .tc := ⟨.vmem, 83, rfl⟩
abbrev cc8_stg0_0 : Ref sig .tc := ⟨.vmem, 84, rfl⟩
abbrev cc8_stg0_1 : Ref sig .tc := ⟨.vmem, 85, rfl⟩
abbrev cc8_stg1_0 : Ref sig .tc := ⟨.vmem, 86, rfl⟩
abbrev cc8_stg2_0 : Ref sig .tc := ⟨.vmem, 87, rfl⟩
abbrev cc8_stg3_0 : Ref sig .tc := ⟨.vmem, 88, rfl⟩
abbrev cc8_stg3_1 : Ref sig .tc := ⟨.vmem, 89, rfl⟩
abbrev cc9_stg0_0 : Ref sig .tc := ⟨.vmem, 90, rfl⟩
abbrev cc9_stg0_1 : Ref sig .tc := ⟨.vmem, 91, rfl⟩
abbrev cc9_stg1_0 : Ref sig .tc := ⟨.vmem, 92, rfl⟩
abbrev cc9_stg1_1 : Ref sig .tc := ⟨.vmem, 93, rfl⟩
abbrev cc9_stg2_0 : Ref sig .tc := ⟨.vmem, 94, rfl⟩
abbrev cc9_stg3_0 : Ref sig .tc := ⟨.vmem, 95, rfl⟩
abbrev cc9_stg4_0 : Ref sig .tc := ⟨.vmem, 96, rfl⟩
abbrev cc9_stg4_1 : Ref sig .tc := ⟨.vmem, 97, rfl⟩
abbrev cc9_stg5_0 : Ref sig .tc := ⟨.vmem, 98, rfl⟩
abbrev cc9_stg6_0 : Ref sig .tc := ⟨.vmem, 99, rfl⟩
abbrev cc9_scratch0 : Ref sig .tc := ⟨.vmem, 100, rfl⟩
abbrev cc9_scratch1 : Ref sig .tc := ⟨.vmem, 101, rfl⟩
abbrev cc10_stg0_0 : Ref sig .tc := ⟨.vmem, 102, rfl⟩
abbrev cc10_stg0_1 : Ref sig .tc := ⟨.vmem, 103, rfl⟩
abbrev cc10_stg1_0 : Ref sig .tc := ⟨.vmem, 104, rfl⟩
abbrev cc10_stg2_0 : Ref sig .tc := ⟨.vmem, 105, rfl⟩
abbrev cc10_stg3_0 : Ref sig .tc := ⟨.vmem, 106, rfl⟩
abbrev cc10_stg4_0 : Ref sig .tc := ⟨.vmem, 107, rfl⟩
abbrev cc10_stg5_0 : Ref sig .tc := ⟨.vmem, 108, rfl⟩
abbrev cc10_stg5_1 : Ref sig .tc := ⟨.vmem, 109, rfl⟩
abbrev cc10_stg6_0 : Ref sig .tc := ⟨.vmem, 110, rfl⟩
abbrev cc10_stg7_0 : Ref sig .tc := ⟨.vmem, 111, rfl⟩
abbrev cc10_scratch0 : Ref sig .tc := ⟨.vmem, 112, rfl⟩
abbrev cc10_scratch1 : Ref sig .tc := ⟨.vmem, 113, rfl⟩
abbrev cc11_stg0_0 : Ref sig .tc := ⟨.vmem, 114, rfl⟩
abbrev cc11_stg0_1 : Ref sig .tc := ⟨.vmem, 115, rfl⟩
abbrev cc11_stg1_0 : Ref sig .tc := ⟨.vmem, 116, rfl⟩
abbrev cc11_stg2_0 : Ref sig .tc := ⟨.vmem, 117, rfl⟩
abbrev cc11_stg3_0 : Ref sig .tc := ⟨.vmem, 118, rfl⟩
abbrev cc11_stg3_1 : Ref sig .tc := ⟨.vmem, 119, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem7_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33
abbrev cc3_sem5_0 : DmaSem sig := 34
abbrev cc3_sem6_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem3_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem4_0 : DmaSem sig := 58
abbrev cc6_sem4_1 : DmaSem sig := 59
abbrev cc6_sem5_0 : DmaSem sig := 60
abbrev cc6_sem6_0 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem4_0 : DmaSem sig := 67
abbrev cc7_sem5_0 : DmaSem sig := 68
abbrev cc7_sem5_1 : DmaSem sig := 69
abbrev cc7_sem6_0 : DmaSem sig := 70
abbrev cc7_sem7_0 : DmaSem sig := 71
abbrev cc8_sem0_0 : DmaSem sig := 72
abbrev cc8_sem0_1 : DmaSem sig := 73
abbrev cc8_sem1_0 : DmaSem sig := 74
abbrev cc8_sem2_0 : DmaSem sig := 75
abbrev cc8_sem3_0 : DmaSem sig := 76
abbrev cc8_sem3_1 : DmaSem sig := 77
abbrev cc9_sem0_0 : DmaSem sig := 78
abbrev cc9_sem0_1 : DmaSem sig := 79
abbrev cc9_sem1_0 : DmaSem sig := 80
abbrev cc9_sem1_1 : DmaSem sig := 81
abbrev cc9_sem2_0 : DmaSem sig := 82
abbrev cc9_sem3_0 : DmaSem sig := 83
abbrev cc9_sem4_0 : DmaSem sig := 84
abbrev cc9_sem4_1 : DmaSem sig := 85
abbrev cc9_sem5_0 : DmaSem sig := 86
abbrev cc9_sem6_0 : DmaSem sig := 87
abbrev cc10_sem0_0 : DmaSem sig := 88
abbrev cc10_sem0_1 : DmaSem sig := 89
abbrev cc10_sem1_0 : DmaSem sig := 90
abbrev cc10_sem2_0 : DmaSem sig := 91
abbrev cc10_sem3_0 : DmaSem sig := 92
abbrev cc10_sem4_0 : DmaSem sig := 93
abbrev cc10_sem5_0 : DmaSem sig := 94
abbrev cc10_sem5_1 : DmaSem sig := 95
abbrev cc10_sem6_0 : DmaSem sig := 96
abbrev cc10_sem7_0 : DmaSem sig := 97
abbrev cc11_sem0_0 : DmaSem sig := 98
abbrev cc11_sem0_1 : DmaSem sig := 99
abbrev cc11_sem1_0 : DmaSem sig := 100
abbrev cc11_sem2_0 : DmaSem sig := 101
abbrev cc11_sem3_0 : DmaSem sig := 102
abbrev cc11_sem3_1 : DmaSem sig := 103

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v32 : BitVec 1 := Scalar.cmpi .eq arg0 c9_i32
  let v33 : BitVec 32 := Scalar.extui v32
  let c0_i32_20 : BitVec 32 := 0#32
  let v34 : BitVec 1 := Scalar.cmpi .ne v33 c0_i32_20
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v40 : BitVec 1 := Scalar.cmpi .eq arg0 c9_i32
  let v41 : BitVec 32 := Scalar.extui v40
  let c0_i32_23 : BitVec 32 := 0#32
  let v42 : BitVec 1 := Scalar.cmpi .ne v41 c0_i32_23
  v42

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_20 : BitVec 32 := 0#32
  let v35 : BitVec 1 := Scalar.cmpi .ne v34 c0_i32_20
  v35

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v40 : BitVec 1 := Scalar.cmpi .eq arg0 c9_i32
  let v41 : BitVec 32 := Scalar.extui v40
  let c0_i32_23 : BitVec 32 := 0#32
  let v42 : BitVec 1 := Scalar.cmpi .ne v41 c0_i32_23
  v42

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_20 : BitVec 32 := 0#32
  let v35 : BitVec 1 := Scalar.cmpi .ne v34 c0_i32_20
  v35

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v40 : BitVec 1 := Scalar.cmpi .eq arg0 c9_i32
  let v41 : BitVec 32 := Scalar.extui v40
  let c0_i32_23 : BitVec 32 := 0#32
  let v42 : BitVec 1 := Scalar.cmpi .ne v41 c0_i32_23
  v42

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def k9_cond2 (i : grid9.Coords) : BitVec 1 :=
  let arg0 : BitVec 32 := BitVec.ofNat 32 (i 0).val
  let c9_i32 : BitVec 32 := 9#32
  let v33 : BitVec 1 := Scalar.cmpi .eq arg0 c9_i32
  let v34 : BitVec 32 := Scalar.extui v33
  let c0_i32_20 : BitVec 32 := 0#32
  let v35 : BitVec 1 := Scalar.cmpi .ne v34 c0_i32_20
  v35

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S5000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 1 → Memref sig .tc .vmem S1x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev grid10 : Pipeline.Grid := ⟨1, ![10], ![false]⟩

def k10_cond2 (i : grid10.Coords) : BitVec 1 :=
  let arg0 : BitVec 32 := BitVec.ofNat 32 (i 0).val
  let c9_i32 : BitVec 32 := 9#32
  let v40 : BitVec 1 := Scalar.cmpi .eq arg0 c9_i32
  let v41 : BitVec 32 := Scalar.extui v40
  let c0_i32_23 : BitVec 32 := 0#32
  let v42 : BitVec 1 := Scalar.cmpi .ne v41 c0_i32_23
  v42

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S5000x128 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x10 : S_.BroadcastsInDim S512x10 (![] : Fin 0 → Fin S512x10.rank)
  bcast_S_S512x128 : S_.BroadcastsInDim S512x128 (![] : Fin 0 → Fin S512x128.rank)
  bcast_S50000_S50000x1_0 : S50000.BroadcastsInDim S50000x1 (![0] : Fin 1 → Fin S50000x1.rank)
  slices_S5x128x10_S1x128x10_0_0_0 : S5x128x10.Slices ![0, 0, 0] S1x128x10
  shapeCasts_S1x128x10_S128x10 : S1x128x10.ShapeCasts S128x10
  slices_S5x10_S1x10_0_0 : S5x10.Slices ![0, 0] S1x10
  shapeCasts_S1x10_S10 : S1x10.ShapeCasts S10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  slices_S5x128x10_S1x128x10_1_0_0 : S5x128x10.Slices ![1, 0, 0] S1x128x10
  slices_S5x10_S1x10_1_0 : S5x10.Slices ![1, 0] S1x10
  slices_S5x128x10_S1x128x10_2_0_0 : S5x128x10.Slices ![2, 0, 0] S1x128x10
  slices_S5x10_S1x10_2_0 : S5x10.Slices ![2, 0] S1x10
  slices_S5x128x10_S1x128x10_3_0_0 : S5x128x10.Slices ![3, 0, 0] S1x128x10
  slices_S5x10_S1x10_3_0 : S5x10.Slices ![3, 0] S1x10
  slices_S5x128x10_S1x128x10_4_0_0 : S5x128x10.Slices ![4, 0, 0] S1x128x10
  slices_S5x10_S1x10_4_0 : S5x10.Slices ![4, 0] S1x10
  reducesTo_S512x10_S512_d1 : S512x10.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S50000x128.size a
  hwx6_4 : ∀ i : grid6.Coords, EltTy.bits .f32 = 32 ∨ (Rect.block (s := S50000x128) S5000x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S50000x128.size a
  hwx7_5 : ∀ i : grid7.Coords, EltTy.bits .f32 = 32 ∨ (Rect.block (s := S50000x128) S5000x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S50000x128.size a
  hwx8_3 : ∀ i : grid8.Coords, EltTy.bits .f32 = 32 ∨ (Rect.block (s := S50000x128) S5000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S5000x128.size a ≤ S50000x128.size a
  hwx9_4 : ∀ i : grid9.Coords, EltTy.bits .f32 = 32 ∨ (Rect.block (s := S50000x128) S5000x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x128.size a ≤ S1x128.size a
  hwx9_5 : ∀ i : grid9.Coords, EltTy.bits .f32 = 32 ∨ (Rect.block (s := S1x128) S1x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x128.size a ≤ S128x128.size a
  hwx10_3 : ∀ i : grid10.Coords, EltTy.bits .f32 = 32 ∨ (Rect.block (s := S128x128) S128x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S5000x128.size a ≤ S50000x128.size a
  hwx10_5 : ∀ i : grid10.Coords, EltTy.bits .f32 = 32 ∨ (Rect.block (s := S50000x128) S5000x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x128.size a ≤ S1x128.size a
  hwx10_7 : ∀ i : grid10.Coords, EltTy.bits .f32 = 32 ∨ (Rect.block (s := S1x128) S1x128.size (cc10_transform_7 i) (hinb10_7 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S50000x128.size a
  hwx11_0 : ∀ i : grid11.Coords, EltTy.bits .f32 = 32 ∨ (Rect.block (s := S50000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x128.size a ≤ S50000x128.size a
  hwx11_3 : ∀ i : grid11.Coords, EltTy.bits .f32 = 32 ∨ (Rect.block (s := S50000x128) S5000x128.size (cc11_transform_3 i) (hinb11_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v19_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v43_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v43_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78_0) S5000x128.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v78_1) S1x128.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v78_2) S1x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

abbrev win4_0 : Pipeline.Window sig grid4 :=
  Pipeline.Window.ofSpec (Memref.whole main_v78_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v98) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v101) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v102_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v102_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v102_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond2 i == 1#1) | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v102_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v115) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v120) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v121) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v121) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v131) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v133) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v136) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v137_0) S5000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v137_1) S1x128.size cc6_transform_5 reads6_5 true true 1 stage6_5 sem6_5
    hrank6 hreads6_5 hinb6_5 nbuf6_5 (Memref.isWhole_whole _) hwx6_5 hstage6_5

abbrev win6_6 : Pipeline.Window sig grid6 :=
  Pipeline.Window.ofSpec (Memref.whole main_v137_2) S1x128.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev idle6 : Fin 7 → grid6.Coords → Bool := fun | 0 => fun _ => false | 1 => fun _ => false | 2 => fun _ => false | 3 => fun _ => false | 4 => fun _ => false | 5 => fun i => !(k6_cond2 i == 1#1) | 6 => fun i => !(k6_cond2 i == 1#1) | ⟨_ + 7, h⟩ => absurd h (Nat.not_lt.2 (Nat.le_add_left _ _))

abbrev win7_0 : Pipeline.Window sig grid7 :=
  Pipeline.Window.ofSpec (Memref.whole main_v137_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v150) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v155) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v157) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v160) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v161_0) S5000x128.size cc7_transform_5 reads7_5 true false 2 stage7_5 sem7_5
    hrank7 hreads7_5 hinb7_5 nbuf7_5 (Memref.isWhole_whole _) hwx7_5 hstage7_5

abbrev win7_6 : Pipeline.Window sig grid7 :=
  Pipeline.Window.ofSpec (Memref.whole main_v161_1) S1x128.size cc7_transform_6 reads7_6 true true 1 stage7_6 sem7_6
    hrank7 hreads7_6 hinb7_6 nbuf7_6 (Memref.isWhole_whole _) hwx7_6 hstage7_6

abbrev win7_7 : Pipeline.Window sig grid7 :=
  Pipeline.Window.ofSpec (Memref.whole main_v161_2) S1x128.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev idle7 : Fin 8 → grid7.Coords → Bool := fun | 0 => fun _ => false | 1 => fun _ => false | 2 => fun _ => false | 3 => fun _ => false | 4 => fun _ => false | 5 => fun _ => false | 6 => fun i => !(k7_cond2 i == 1#1) | 7 => fun i => !(k7_cond2 i == 1#1) | ⟨_ + 8, h⟩ => absurd h (Nat.not_lt.2 (Nat.le_add_left _ _))

abbrev win8_0 : Pipeline.Window sig grid8 :=
  Pipeline.Window.ofSpec (Memref.whole main_v161_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v174) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v179) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v180) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v180) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v190) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v192) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v195) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v196_0) S5000x128.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v196_1) S1x128.size cc9_transform_5 reads9_5 true true 1 stage9_5 sem9_5
    hrank9 hreads9_5 hinb9_5 nbuf9_5 (Memref.isWhole_whole _) hwx9_5 hstage9_5

abbrev win9_6 : Pipeline.Window sig grid9 :=
  Pipeline.Window.ofSpec (Memref.whole main_v196_2) S1x128.size cc9_transform_6 reads9_6 true true 1 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

abbrev idle9 : Fin 7 → grid9.Coords → Bool := fun | 0 => fun _ => false | 1 => fun _ => false | 2 => fun _ => false | 3 => fun _ => false | 4 => fun _ => false | 5 => fun i => !(k9_cond2 i == 1#1) | 6 => fun i => !(k9_cond2 i == 1#1) | ⟨_ + 7, h⟩ => absurd h (Nat.not_lt.2 (Nat.le_add_left _ _))

abbrev win10_0 : Pipeline.Window sig grid10 :=
  Pipeline.Window.ofSpec (Memref.whole main_v196_0) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v209) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v214) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v216) S128x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v219) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v220_0) S5000x128.size cc10_transform_5 reads10_5 true false 2 stage10_5 sem10_5
    hrank10 hreads10_5 hinb10_5 nbuf10_5 (Memref.isWhole_whole _) hwx10_5 hstage10_5

abbrev win10_6 : Pipeline.Window sig grid10 :=
  Pipeline.Window.ofSpec (Memref.whole main_v220_1) S1x128.size cc10_transform_6 reads10_6 true true 1 stage10_6 sem10_6
    hrank10 hreads10_6 hinb10_6 nbuf10_6 (Memref.isWhole_whole _) hwx10_6 hstage10_6

abbrev win10_7 : Pipeline.Window sig grid10 :=
  Pipeline.Window.ofSpec (Memref.whole main_v220_2) S1x128.size cc10_transform_7 reads10_7 true true 1 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev idle10 : Fin 8 → grid10.Coords → Bool := fun | 0 => fun _ => false | 1 => fun _ => false | 2 => fun _ => false | 3 => fun _ => false | 4 => fun _ => false | 5 => fun _ => false | 6 => fun i => !(k10_cond2 i == 1#1) | 7 => fun i => !(k10_cond2 i == 1#1) | ⟨_ + 8, h⟩ => absurd h (Nat.not_lt.2 (Nat.le_add_left _ _))

abbrev win11_0 : Pipeline.Window sig grid11 :=
  Pipeline.Window.ofSpec (Memref.whole main_v220_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v233) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v238) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v239) S5000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S4x128x128 : Shape := ⟨3, ![4, 128, 128]⟩
abbrev S4x128 : Shape := ⟨2, ![4, 128]⟩
abbrev S5x128x10 : Shape := ⟨3, ![5, 128, 10]⟩
abbrev S5x10 : Shape := ⟨2, ![5, 10]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S512x10 : Shape := ⟨2, ![512, 10]⟩
abbrev S512x128 : Shape := ⟨2, ![512, 128]⟩
abbrev S50000x1 : Shape := ⟨2, ![50000, 1]⟩
abbrev S1x128x10 : Shape := ⟨3, ![1, 128, 10]⟩
abbrev S128x10 : Shape := ⟨2, ![128, 10]⟩
abbrev S1x10 : Shape := ⟨2, ![1, 10]⟩
abbrev S10 : Shape := ⟨1, ![10]⟩
abbrev S512 : Shape := ⟨1, ![512]⟩
abbrev S512x1 : Shape := ⟨2, ![512, 1]⟩

abbrev nBuf : Space → Nat
  | .hbm => 627
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S4x128x128, .f32⟩
  | 4 => ⟨S4x128, .f32⟩
  | 5 => ⟨S4x128x128, .f32⟩
  | 6 => ⟨S4x128, .f32⟩
  | 7 => ⟨S4x128, .f32⟩
  | 8 => ⟨S4x128, .f32⟩
  | 9 => ⟨S4x128, .f32⟩
  | 10 => ⟨S4x128, .f32⟩
  | 11 => ⟨S5x128x10, .f32⟩
  | 12 => ⟨S5x10, .f32⟩
  | 13 => ⟨S1x600000, .i32⟩
  | 14 => ⟨S600000, .i32⟩
  | 15 => ⟨S1x600000, .i32⟩
  | 16 => ⟨S600000, .i32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S50000x128, .f32⟩
  | 28 => ⟨S600000x1, .i32⟩
  | 29 => ⟨S50000x128, .f32⟩
  | 30 => ⟨S50000x128, .f32⟩
  | 31 => ⟨S1x128x128, .f32⟩
  | 32 => ⟨S128x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S1x128, .f32⟩
  | 40 => ⟨S128, .f32⟩
  | 41 => ⟨S1x128, .f32⟩
  | 42 => ⟨S128, .f32⟩
  | 43 => ⟨S_, .f32⟩
  | 44 => ⟨S128, .f32⟩
  | 45 => ⟨S_, .f32⟩
  | 46 => ⟨S128, .f32⟩
  | 47 => ⟨S128, .f32⟩
  | 48 => ⟨S_, .i32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S50000x128, .f32⟩
  | 56 => ⟨S50000x128, .f32⟩
  | 57 => ⟨S50000x128, .f32⟩
  | 58 => ⟨S_, .f32⟩
  | 59 => ⟨S_, .f32⟩
  | 60 => ⟨S_, .f32⟩
  | 61 => ⟨S_, .f32⟩
  | 62 => ⟨S128, .f32⟩
  | 63 => ⟨S128, .f32⟩
  | 64 => ⟨S128, .f32⟩
  | 65 => ⟨S_, .f32⟩
  | 66 => ⟨S_, .i1⟩
  | 67 => ⟨S_, .f32⟩
  | 68 => ⟨S_, .f32⟩
  | 69 => ⟨S128, .f32⟩
  | 70 => ⟨S128, .f32⟩
  | 71 => ⟨S1x128, .f32⟩
  | 72 => ⟨S50000x128, .f32⟩
  | 73 => ⟨S50000x128, .f32⟩
  | 74 => ⟨S_, .f32⟩
  | 75 => ⟨S128, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S1x128x128, .f32⟩
  | 91 => ⟨S128x128, .f32⟩
  | 92 => ⟨S50000x128, .f32⟩
  | 93 => ⟨S1x128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S128, .f32⟩
  | 100 => ⟨S1x128, .f32⟩
  | 101 => ⟨S128, .f32⟩
  | 102 => ⟨S_, .f32⟩
  | 103 => ⟨S128, .f32⟩
  | 104 => ⟨S_, .f32⟩
  | 105 => ⟨S128, .f32⟩
  | 106 => ⟨S128, .f32⟩
  | 107 => ⟨S_, .i32⟩
  | 108 => ⟨S_, .f32⟩
  | 109 => ⟨S128, .f32⟩
  | 110 => ⟨S1x128, .f32⟩
  | 111 => ⟨S_, .f32⟩
  | 112 => ⟨S1x128, .f32⟩
  | 113 => ⟨S1x128, .f32⟩
  | 114 => ⟨S50000x128, .f32⟩
  | 115 => ⟨S50000x128, .f32⟩
  | 116 => ⟨S50000x128, .f32⟩
  | 117 => ⟨S_, .f32⟩
  | 118 => ⟨S_, .f32⟩
  | 119 => ⟨S_, .f32⟩
  | 120 => ⟨S_, .f32⟩
  | 121 => ⟨S128, .f32⟩
  | 122 => ⟨S128, .f32⟩
  | 123 => ⟨S128, .f32⟩
  | 124 => ⟨S_, .f32⟩
  | 125 => ⟨S_, .i1⟩
  | 126 => ⟨S_, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S_, .f32⟩
  | 6 => ⟨S128, .f32⟩
  | 7 => ⟨S128, .f32⟩
  | 8 => ⟨S128, .f32⟩
  | 9 => ⟨S1x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x128, .f32⟩
  | 30 => ⟨S_, .f32⟩
  | 31 => ⟨S50000x128, .f32⟩
  | 32 => ⟨S600000x1, .i32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S1x128, .f32⟩
  | 44 => ⟨S128, .f32⟩
  | 45 => ⟨S1x128, .f32⟩
  | 46 => ⟨S128, .f32⟩
  | 47 => ⟨S_, .f32⟩
  | 48 => ⟨S128, .f32⟩
  | 49 => ⟨S_, .f32⟩
  | 50 => ⟨S128, .f32⟩
  | 51 => ⟨S128, .f32⟩
  | 52 => ⟨S_, .i32⟩
  | 53 => ⟨S_, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S50000x128, .f32⟩
  | 60 => ⟨S50000x128, .f32⟩
  | 61 => ⟨S50000x128, .f32⟩
  | 62 => ⟨S_, .f32⟩
  | 63 => ⟨S_, .f32⟩
  | 64 => ⟨S_, .f32⟩
  | 65 => ⟨S_, .f32⟩
  | 66 => ⟨S128, .f32⟩
  | 67 => ⟨S128, .f32⟩
  | 68 => ⟨S128, .f32⟩
  | 69 => ⟨S_, .f32⟩
  | 70 => ⟨S_, .i1⟩
  | 71 => ⟨S_, .f32⟩
  | 72 => ⟨S_, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S_, .f32⟩
  | 79 => ⟨S128, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S1x128, .f32⟩
  | 86 => ⟨S50000x128, .f32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S1x128x128, .f32⟩
  | 95 => ⟨S128x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S128, .f32⟩
  | 104 => ⟨S1x128, .f32⟩
  | 105 => ⟨S128, .f32⟩
  | 106 => ⟨S_, .f32⟩
  | 107 => ⟨S128, .f32⟩
  | 108 => ⟨S_, .f32⟩
  | 109 => ⟨S128, .f32⟩
  | 110 => ⟨S128, .f32⟩
  | 111 => ⟨S_, .i32⟩
  | 112 => ⟨S_, .f32⟩
  | 113 => ⟨S128, .f32⟩
  | 114 => ⟨S1x128, .f32⟩
  | 115 => ⟨S_, .f32⟩
  | 116 => ⟨S1x128, .f32⟩
  | 117 => ⟨S1x128, .f32⟩
  | 118 => ⟨S50000x128, .f32⟩
  | 119 => ⟨S50000x128, .f32⟩
  | 120 => ⟨S50000x128, .f32⟩
  | 121 => ⟨S_, .f32⟩
  | 122 => ⟨S_, .f32⟩
  | 123 => ⟨S_, .f32⟩
  | 124 => ⟨S_, .f32⟩
  | 125 => ⟨S128, .f32⟩
  | 126 => ⟨S128, .f32⟩
  | 127 => ⟨S128, .f32⟩
  | _ => ⟨S50000x128, .f32⟩

abbrev hbmTy0_2 (i : Nat) : BufTy := match i % 128 with
  | 0 => ⟨S_, .f32⟩
  | 1 => ⟨S_, .i1⟩
  | 2 => ⟨S_, .f32⟩
  | 3 => ⟨S_, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S_, .f32⟩
  | 10 => ⟨S128, .f32⟩
  | 11 => ⟨S128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S_, .f32⟩
  | 35 => ⟨S50000x128, .f32⟩
  | 36 => ⟨S600000x1, .i32⟩
  | 37 => ⟨S50000x128, .f32⟩
  | 38 => ⟨S50000x128, .f32⟩
  | 39 => ⟨S1x128x128, .f32⟩
  | 40 => ⟨S128x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S128, .f32⟩
  | 49 => ⟨S1x128, .f32⟩
  | 50 => ⟨S128, .f32⟩
  | 51 => ⟨S_, .f32⟩
  | 52 => ⟨S128, .f32⟩
  | 53 => ⟨S_, .f32⟩
  | 54 => ⟨S128, .f32⟩
  | 55 => ⟨S128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S50000x128, .f32⟩
  | 64 => ⟨S50000x128, .f32⟩
  | 65 => ⟨S50000x128, .f32⟩
  | 66 => ⟨S_, .f32⟩
  | 67 => ⟨S_, .f32⟩
  | 68 => ⟨S_, .f32⟩
  | 69 => ⟨S_, .f32⟩
  | 70 => ⟨S128, .f32⟩
  | 71 => ⟨S128, .f32⟩
  | 72 => ⟨S128, .f32⟩
  | 73 => ⟨S_, .f32⟩
  | 74 => ⟨S_, .i1⟩
  | 75 => ⟨S_, .f32⟩
  | 76 => ⟨S_, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S1x128x128, .f32⟩
  | 99 => ⟨S128x128, .f32⟩
  | 100 => ⟨S50000x128, .f32⟩
  | 101 => ⟨S1x128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S128, .f32⟩
  | 108 => ⟨S1x128, .f32⟩
  | 109 => ⟨S128, .f32⟩
  | 110 => ⟨S_, .f32⟩
  | 111 => ⟨S128, .f32⟩
  | 112 => ⟨S_, .f32⟩
  | 113 => ⟨S128, .f32⟩
  | 114 => ⟨S128, .f32⟩
  | 115 => ⟨S_, .i32⟩
  | 116 => ⟨S_, .f32⟩
  | 117 => ⟨S128, .f32⟩
  | 118 => ⟨S1x128, .f32⟩
  | 119 => ⟨S_, .f32⟩
  | 120 => ⟨S1x128, .f32⟩
  | 121 => ⟨S1x128, .f32⟩
  | 122 => ⟨S50000x128, .f32⟩
  | 123 => ⟨S50000x128, .f32⟩
  | 124 => ⟨S50000x128, .f32⟩
  | 125 => ⟨S_, .f32⟩
  | 126 => ⟨S_, .f32⟩
  | 127 => ⟨S_, .f32⟩
  | _ => ⟨S50000x128, .f32⟩

abbrev hbmTy0_3 (i : Nat) : BufTy := match i % 128 with
  | 0 => ⟨S_, .f32⟩
  | 1 => ⟨S128, .f32⟩
  | 2 => ⟨S128, .f32⟩
  | 3 => ⟨S128, .f32⟩
  | 4 => ⟨S_, .f32⟩
  | 5 => ⟨S_, .i1⟩
  | 6 => ⟨S_, .f32⟩
  | 7 => ⟨S_, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S_, .f32⟩
  | 14 => ⟨S128, .f32⟩
  | 15 => ⟨S128, .f32⟩
  | 16 => ⟨S128, .f32⟩
  | 17 => ⟨S1x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S_, .f32⟩
  | 39 => ⟨S50000x128, .f32⟩
  | 40 => ⟨S600000x1, .i32⟩
  | 41 => ⟨S50000x128, .f32⟩
  | 42 => ⟨S50000x128, .f32⟩
  | 43 => ⟨S1x128x128, .f32⟩
  | 44 => ⟨S128x128, .f32⟩
  | 45 => ⟨S50000x128, .f32⟩
  | 46 => ⟨S1x128, .f32⟩
  | 47 => ⟨S128, .f32⟩
  | 48 => ⟨S1x128, .f32⟩
  | 49 => ⟨S50000x128, .f32⟩
  | 50 => ⟨S50000x128, .f32⟩
  | 51 => ⟨S1x128, .f32⟩
  | 52 => ⟨S128, .f32⟩
  | 53 => ⟨S1x128, .f32⟩
  | 54 => ⟨S128, .f32⟩
  | 55 => ⟨S_, .f32⟩
  | 56 => ⟨S128, .f32⟩
  | 57 => ⟨S_, .f32⟩
  | 58 => ⟨S128, .f32⟩
  | 59 => ⟨S128, .f32⟩
  | 60 => ⟨S_, .i32⟩
  | 61 => ⟨S_, .f32⟩
  | 62 => ⟨S128, .f32⟩
  | 63 => ⟨S1x128, .f32⟩
  | 64 => ⟨S_, .f32⟩
  | 65 => ⟨S1x128, .f32⟩
  | 66 => ⟨S1x128, .f32⟩
  | 67 => ⟨S50000x128, .f32⟩
  | 68 => ⟨S50000x128, .f32⟩
  | 69 => ⟨S50000x128, .f32⟩
  | 70 => ⟨S_, .f32⟩
  | 71 => ⟨S_, .f32⟩
  | 72 => ⟨S_, .f32⟩
  | 73 => ⟨S_, .f32⟩
  | 74 => ⟨S128, .f32⟩
  | 75 => ⟨S128, .f32⟩
  | 76 => ⟨S128, .f32⟩
  | 77 => ⟨S_, .f32⟩
  | 78 => ⟨S_, .i1⟩
  | 79 => ⟨S_, .f32⟩
  | 80 => ⟨S_, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S_, .f32⟩
  | 87 => ⟨S128, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S1x128x128, .f32⟩
  | 103 => ⟨S128x128, .f32⟩
  | 104 => ⟨S50000x128, .f32⟩
  | 105 => ⟨S1x128, .f32⟩
  | 106 => ⟨S128, .f32⟩
  | 107 => ⟨S1x128, .f32⟩
  | 108 => ⟨S50000x128, .f32⟩
  | 109 => ⟨S50000x128, .f32⟩
  | 110 => ⟨S1x128, .f32⟩
  | 111 => ⟨S128, .f32⟩
  | 112 => ⟨S1x128, .f32⟩
  | 113 => ⟨S128, .f32⟩
  | 114 => ⟨S_, .f32⟩
  | 115 => ⟨S128, .f32⟩
  | 116 => ⟨S_, .f32⟩
  | 117 => ⟨S128, .f32⟩
  | 118 => ⟨S128, .f32⟩
  | 119 => ⟨S_, .i32⟩
  | 120 => ⟨S_, .f32⟩
  | 121 => ⟨S128, .f32⟩
  | 122 => ⟨S1x128, .f32⟩
  | 123 => ⟨S_, .f32⟩
  | 124 => ⟨S1x128, .f32⟩
  | 125 => ⟨S1x128, .f32⟩
  | 126 => ⟨S50000x128, .f32⟩
  | 127 => ⟨S50000x128, .f32⟩
  | _ => ⟨S50000x128, .f32⟩

abbrev hbmTy0_4 (i : Nat) : BufTy := match i % 128 with
  | 0 => ⟨S50000x128, .f32⟩
  | 1 => ⟨S_, .f32⟩
  | 2 => ⟨S_, .f32⟩
  | 3 => ⟨S_, .f32⟩
  | 4 => ⟨S_, .f32⟩
  | 5 => ⟨S128, .f32⟩
  | 6 => ⟨S128, .f32⟩
  | 7 => ⟨S128, .f32⟩
  | 8 => ⟨S_, .f32⟩
  | 9 => ⟨S_, .i1⟩
  | 10 => ⟨S_, .f32⟩
  | 11 => ⟨S_, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S_, .f32⟩
  | 18 => ⟨S128, .f32⟩
  | 19 => ⟨S128, .f32⟩
  | 20 => ⟨S128, .f32⟩
  | 21 => ⟨S1x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S_, .f32⟩
  | 34 => ⟨S512x10, .f32⟩
  | 35 => ⟨S_, .f32⟩
  | 36 => ⟨S512x128, .f32⟩
  | 37 => ⟨S50000x1, .i32⟩
  | 38 => ⟨S512x128, .f32⟩
  | 39 => ⟨S1x128x10, .f32⟩
  | 40 => ⟨S128x10, .f32⟩
  | 41 => ⟨S512x10, .f32⟩
  | 42 => ⟨S512x10, .f32⟩
  | 43 => ⟨S1x10, .f32⟩
  | 44 => ⟨S10, .f32⟩
  | 45 => ⟨S1x10, .f32⟩
  | 46 => ⟨S512x10, .f32⟩
  | 47 => ⟨S512x10, .f32⟩
  | 48 => ⟨S_, .f32⟩
  | 49 => ⟨S512x128, .f32⟩
  | 50 => ⟨S50000x1, .i32⟩
  | 51 => ⟨S512x128, .f32⟩
  | 52 => ⟨S1x128x10, .f32⟩
  | 53 => ⟨S128x10, .f32⟩
  | 54 => ⟨S512x10, .f32⟩
  | 55 => ⟨S512x10, .f32⟩
  | 56 => ⟨S1x10, .f32⟩
  | 57 => ⟨S10, .f32⟩
  | 58 => ⟨S1x10, .f32⟩
  | 59 => ⟨S512x10, .f32⟩
  | 60 => ⟨S512x10, .f32⟩
  | 61 => ⟨S_, .f32⟩
  | 62 => ⟨S512x128, .f32⟩
  | 63 => ⟨S50000x1, .i32⟩
  | 64 => ⟨S512x128, .f32⟩
  | 65 => ⟨S1x128x10, .f32⟩
  | 66 => ⟨S128x10, .f32⟩
  | 67 => ⟨S512x10, .f32⟩
  | 68 => ⟨S512x10, .f32⟩
  | 69 => ⟨S1x10, .f32⟩
  | 70 => ⟨S10, .f32⟩
  | 71 => ⟨S1x10, .f32⟩
  | 72 => ⟨S512x10, .f32⟩
  | 73 => ⟨S512x10, .f32⟩
  | 74 => ⟨S_, .f32⟩
  | 75 => ⟨S512x128, .f32⟩
  | 76 => ⟨S50000x1, .i32⟩
  | 77 => ⟨S512x128, .f32⟩
  | 78 => ⟨S1x128x10, .f32⟩
  | 79 => ⟨S128x10, .f32⟩
  | 80 => ⟨S512x10, .f32⟩
  | 81 => ⟨S512x10, .f32⟩
  | 82 => ⟨S1x10, .f32⟩
  | 83 => ⟨S10, .f32⟩
  | 84 => ⟨S1x10, .f32⟩
  | 85 => ⟨S512x10, .f32⟩
  | 86 => ⟨S512x10, .f32⟩
  | 87 => ⟨S_, .f32⟩
  | 88 => ⟨S512x128, .f32⟩
  | 89 => ⟨S50000x1, .i32⟩
  | 90 => ⟨S512x128, .f32⟩
  | 91 => ⟨S1x128x10, .f32⟩
  | 92 => ⟨S128x10, .f32⟩
  | 93 => ⟨S512x10, .f32⟩
  | 94 => ⟨S512x10, .f32⟩
  | 95 => ⟨S1x10, .f32⟩
  | 96 => ⟨S10, .f32⟩
  | 97 => ⟨S1x10, .f32⟩
  | 98 => ⟨S512x10, .f32⟩
  | 99 => ⟨S512x10, .f32⟩
  | 100 => ⟨S_, .f32⟩
  | 101 => ⟨S512, .f32⟩
  | 102 => ⟨S_, .f32⟩
  | 103 => ⟨S512, .f32⟩
  | 104 => ⟨S512, .f32⟩
  | 105 => ⟨S512x1, .f32⟩
  | 106 => ⟨S512x10, .f32⟩
  | 107 => ⟨S512x10, .f32⟩
  | 108 => ⟨S512x10, .f32⟩
  | 109 => ⟨S_, .f32⟩
  | 110 => ⟨S512, .f32⟩
  | 111 => ⟨S512x1, .f32⟩
  | 112 => ⟨S512x1, .f32⟩
  | 113 => ⟨S512x10, .f32⟩
  | 114 => ⟨S512x10, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_c_3 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_cst_0 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_v7 : Ref sig .tc := ⟨.hbm, 58, rfl⟩
abbrev main_call0_cst_1 : Ref sig .tc := ⟨.hbm, 59, rfl⟩
abbrev main_call0_v8 : Ref sig .tc := ⟨.hbm, 60, rfl⟩
abbrev main_call0_cst_2 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_cst_3 : Ref sig .tc := ⟨.hbm, 65, rfl⟩
abbrev main_call0_v12 : Ref sig .tc := ⟨.hbm, 66, rfl⟩
abbrev main_call0_cst_4 : Ref sig .tc := ⟨.hbm, 67, rfl⟩
abbrev main_call0_call0_v0 : Ref sig .tc := ⟨.hbm, 68, rfl⟩
abbrev main_call0_call0_v1 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_4 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_call1_cst : Ref sig .tc := ⟨.hbm, 87, rfl⟩
abbrev main_call1_v0 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_5 : Ref sig .tc := ⟨.hbm, 102, rfl⟩
abbrev main_v59 : Ref sig .tc := ⟨.hbm, 103, rfl⟩
abbrev main_cst_6 : Ref sig .tc := ⟨.hbm, 104, rfl⟩
abbrev main_v60 : Ref sig .tc := ⟨.hbm, 105, rfl⟩
abbrev main_v61 : Ref sig .tc := ⟨.hbm, 106, rfl⟩
abbrev main_c_7 : Ref sig .tc := ⟨.hbm, 107, rfl⟩
abbrev main_call2_cst : Ref sig .tc := ⟨.hbm, 108, rfl⟩
abbrev main_call2_v0 : Ref sig .tc := ⟨.hbm, 109, rfl⟩
abbrev main_call2_v1 : Ref sig .tc := ⟨.hbm, 110, rfl⟩
abbrev main_call2_cst_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_v7 : Ref sig .tc := ⟨.hbm, 117, rfl⟩
abbrev main_call2_cst_1 : Ref sig .tc := ⟨.hbm, 118, rfl⟩
abbrev main_call2_v8 : Ref sig .tc := ⟨.hbm, 119, rfl⟩
abbrev main_call2_cst_2 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_cst_3 : Ref sig .tc := ⟨.hbm, 124, rfl⟩
abbrev main_call2_v12 : Ref sig .tc := ⟨.hbm, 125, rfl⟩
abbrev main_call2_cst_4 : Ref sig .tc := ⟨.hbm, 126, rfl⟩
abbrev main_call2_call0_v0 : Ref sig .tc := ⟨.hbm, 127, rfl⟩
abbrev main_call2_call0_v1 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_cst_8 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_call3_cst : Ref sig .tc := ⟨.hbm, 146, rfl⟩
abbrev main_call3_v0 : Ref sig .tc := ⟨.hbm, 147, rfl⟩
abbrev main_v78 : Ref sig .tc := ⟨.hbm, 148, rfl⟩
abbrev main_c_9 : Ref sig .tc := ⟨.hbm, 149, rfl⟩
abbrev main_v79 : Ref sig .tc := ⟨.hbm, 150, rfl⟩
abbrev main_v80 : Ref sig .tc := ⟨.hbm, 151, rfl⟩
abbrev main_c_10 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_11 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_cst_12 : Ref sig .tc := ⟨.hbm, 175, rfl⟩
abbrev main_v102 : Ref sig .tc := ⟨.hbm, 176, rfl⟩
abbrev main_cst_13 : Ref sig .tc := ⟨.hbm, 177, rfl⟩
abbrev main_v103 : Ref sig .tc := ⟨.hbm, 178, rfl⟩
abbrev main_v104 : Ref sig .tc := ⟨.hbm, 179, rfl⟩
abbrev main_c_14 : Ref sig .tc := ⟨.hbm, 180, rfl⟩
abbrev main_call4_cst : Ref sig .tc := ⟨.hbm, 181, rfl⟩
abbrev main_call4_v0 : Ref sig .tc := ⟨.hbm, 182, rfl⟩
abbrev main_call4_v1 : Ref sig .tc := ⟨.hbm, 183, rfl⟩
abbrev main_call4_cst_0 : Ref sig .tc := ⟨.hbm, 184, rfl⟩
abbrev main_call4_v2 : Ref sig .tc := ⟨.hbm, 185, rfl⟩
abbrev main_call4_v3 : Ref sig .tc := ⟨.hbm, 186, rfl⟩
abbrev main_call4_v4 : Ref sig .tc := ⟨.hbm, 187, rfl⟩
abbrev main_call4_v5 : Ref sig .tc := ⟨.hbm, 188, rfl⟩
abbrev main_call4_v6 : Ref sig .tc := ⟨.hbm, 189, rfl⟩
abbrev main_call4_v7 : Ref sig .tc := ⟨.hbm, 190, rfl⟩
abbrev main_call4_cst_1 : Ref sig .tc := ⟨.hbm, 191, rfl⟩
abbrev main_call4_v8 : Ref sig .tc := ⟨.hbm, 192, rfl⟩
abbrev main_call4_cst_2 : Ref sig .tc := ⟨.hbm, 193, rfl⟩
abbrev main_call4_v9 : Ref sig .tc := ⟨.hbm, 194, rfl⟩
abbrev main_call4_v10 : Ref sig .tc := ⟨.hbm, 195, rfl⟩
abbrev main_call4_v11 : Ref sig .tc := ⟨.hbm, 196, rfl⟩
abbrev main_call4_cst_3 : Ref sig .tc := ⟨.hbm, 197, rfl⟩
abbrev main_call4_v12 : Ref sig .tc := ⟨.hbm, 198, rfl⟩
abbrev main_call4_cst_4 : Ref sig .tc := ⟨.hbm, 199, rfl⟩
abbrev main_call4_call0_v0 : Ref sig .tc := ⟨.hbm, 200, rfl⟩
abbrev main_call4_call0_v1 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_cst_15 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_call5_cst : Ref sig .tc := ⟨.hbm, 219, rfl⟩
abbrev main_call5_v0 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_cst_16 : Ref sig .tc := ⟨.hbm, 234, rfl⟩
abbrev main_v134 : Ref sig .tc := ⟨.hbm, 235, rfl⟩
abbrev main_cst_17 : Ref sig .tc := ⟨.hbm, 236, rfl⟩
abbrev main_v135 : Ref sig .tc := ⟨.hbm, 237, rfl⟩
abbrev main_v136 : Ref sig .tc := ⟨.hbm, 238, rfl⟩
abbrev main_c_18 : Ref sig .tc := ⟨.hbm, 239, rfl⟩
abbrev main_call6_cst : Ref sig .tc := ⟨.hbm, 240, rfl⟩
abbrev main_call6_v0 : Ref sig .tc := ⟨.hbm, 241, rfl⟩
abbrev main_call6_v1 : Ref sig .tc := ⟨.hbm, 242, rfl⟩
abbrev main_call6_cst_0 : Ref sig .tc := ⟨.hbm, 243, rfl⟩
abbrev main_call6_v2 : Ref sig .tc := ⟨.hbm, 244, rfl⟩
abbrev main_call6_v3 : Ref sig .tc := ⟨.hbm, 245, rfl⟩
abbrev main_call6_v4 : Ref sig .tc := ⟨.hbm, 246, rfl⟩
abbrev main_call6_v5 : Ref sig .tc := ⟨.hbm, 247, rfl⟩
abbrev main_call6_v6 : Ref sig .tc := ⟨.hbm, 248, rfl⟩
abbrev main_call6_v7 : Ref sig .tc := ⟨.hbm, 249, rfl⟩
abbrev main_call6_cst_1 : Ref sig .tc := ⟨.hbm, 250, rfl⟩
abbrev main_call6_v8 : Ref sig .tc := ⟨.hbm, 251, rfl⟩
abbrev main_call6_cst_2 : Ref sig .tc := ⟨.hbm, 252, rfl⟩
abbrev main_call6_v9 : Ref sig .tc := ⟨.hbm, 253, rfl⟩
abbrev main_call6_v10 : Ref sig .tc := ⟨.hbm, 254, rfl⟩
abbrev main_call6_v11 : Ref sig .tc := ⟨.hbm, 255, rfl⟩
abbrev main_call6_cst_3 : Ref sig .tc := ⟨.hbm, 256, rfl⟩
abbrev main_call6_v12 : Ref sig .tc := ⟨.hbm, 257, rfl⟩
abbrev main_call6_cst_4 : Ref sig .tc := ⟨.hbm, 258, rfl⟩
abbrev main_call6_call0_v0 : Ref sig .tc := ⟨.hbm, 259, rfl⟩
abbrev main_call6_call0_v1 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_cst_19 : Ref sig .tc := ⟨.hbm, 265, rfl⟩
abbrev main_v141 : Ref sig .tc := ⟨.hbm, 266, rfl⟩
abbrev main_v142 : Ref sig .tc := ⟨.hbm, 267, rfl⟩
abbrev main_v143 : Ref sig .tc := ⟨.hbm, 268, rfl⟩
abbrev main_v144 : Ref sig .tc := ⟨.hbm, 269, rfl⟩
abbrev main_v145 : Ref sig .tc := ⟨.hbm, 270, rfl⟩
abbrev main_v146 : Ref sig .tc := ⟨.hbm, 271, rfl⟩
abbrev main_v147 : Ref sig .tc := ⟨.hbm, 272, rfl⟩
abbrev main_v148 : Ref sig .tc := ⟨.hbm, 273, rfl⟩
abbrev main_v149 : Ref sig .tc := ⟨.hbm, 274, rfl⟩
abbrev main_v150 : Ref sig .tc := ⟨.hbm, 275, rfl⟩
abbrev main_v151 : Ref sig .tc := ⟨.hbm, 276, rfl⟩
abbrev main_v152 : Ref sig .tc := ⟨.hbm, 277, rfl⟩
abbrev main_call7_cst : Ref sig .tc := ⟨.hbm, 278, rfl⟩
abbrev main_call7_v0 : Ref sig .tc := ⟨.hbm, 279, rfl⟩
abbrev main_v153 : Ref sig .tc := ⟨.hbm, 280, rfl⟩
abbrev main_c_20 : Ref sig .tc := ⟨.hbm, 281, rfl⟩
abbrev main_v154 : Ref sig .tc := ⟨.hbm, 282, rfl⟩
abbrev main_v155 : Ref sig .tc := ⟨.hbm, 283, rfl⟩
abbrev main_c_21 : Ref sig .tc := ⟨.hbm, 284, rfl⟩
abbrev main_v156 : Ref sig .tc := ⟨.hbm, 285, rfl⟩
abbrev main_v157 : Ref sig .tc := ⟨.hbm, 286, rfl⟩
abbrev main_v158 : Ref sig .tc := ⟨.hbm, 287, rfl⟩
abbrev main_v159 : Ref sig .tc := ⟨.hbm, 288, rfl⟩
abbrev main_v160 : Ref sig .tc := ⟨.hbm, 289, rfl⟩
abbrev main_cst_22 : Ref sig .tc := ⟨.hbm, 290, rfl⟩
abbrev main_v161 : Ref sig .tc := ⟨.hbm, 291, rfl⟩
abbrev main_v162 : Ref sig .tc := ⟨.hbm, 292, rfl⟩
abbrev main_v163 : Ref sig .tc := ⟨.hbm, 293, rfl⟩
abbrev main_v164 : Ref sig .tc := ⟨.hbm, 294, rfl⟩
abbrev main_v165 : Ref sig .tc := ⟨.hbm, 295, rfl⟩
abbrev main_v166 : Ref sig .tc := ⟨.hbm, 296, rfl⟩
abbrev main_v167 : Ref sig .tc := ⟨.hbm, 297, rfl⟩
abbrev main_v168 : Ref sig .tc := ⟨.hbm, 298, rfl⟩
abbrev main_v169 : Ref sig .tc := ⟨.hbm, 299, rfl⟩
abbrev main_v170 : Ref sig .tc := ⟨.hbm, 300, rfl⟩
abbrev main_v171 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_cst_23 : Ref sig .tc := ⟨.hbm, 307, rfl⟩
abbrev main_v177 : Ref sig .tc := ⟨.hbm, 308, rfl⟩
abbrev main_cst_24 : Ref sig .tc := ⟨.hbm, 309, rfl⟩
abbrev main_v178 : Ref sig .tc := ⟨.hbm, 310, rfl⟩
abbrev main_v179 : Ref sig .tc := ⟨.hbm, 311, rfl⟩
abbrev main_c_25 : Ref sig .tc := ⟨.hbm, 312, rfl⟩
abbrev main_call8_cst : Ref sig .tc := ⟨.hbm, 313, rfl⟩
abbrev main_call8_v0 : Ref sig .tc := ⟨.hbm, 314, rfl⟩
abbrev main_call8_v1 : Ref sig .tc := ⟨.hbm, 315, rfl⟩
abbrev main_call8_cst_0 : Ref sig .tc := ⟨.hbm, 316, rfl⟩
abbrev main_call8_v2 : Ref sig .tc := ⟨.hbm, 317, rfl⟩
abbrev main_call8_v3 : Ref sig .tc := ⟨.hbm, 318, rfl⟩
abbrev main_call8_v4 : Ref sig .tc := ⟨.hbm, 319, rfl⟩
abbrev main_call8_v5 : Ref sig .tc := ⟨.hbm, 320, rfl⟩
abbrev main_call8_v6 : Ref sig .tc := ⟨.hbm, 321, rfl⟩
abbrev main_call8_v7 : Ref sig .tc := ⟨.hbm, 322, rfl⟩
abbrev main_call8_cst_1 : Ref sig .tc := ⟨.hbm, 323, rfl⟩
abbrev main_call8_v8 : Ref sig .tc := ⟨.hbm, 324, rfl⟩
abbrev main_call8_cst_2 : Ref sig .tc := ⟨.hbm, 325, rfl⟩
abbrev main_call8_v9 : Ref sig .tc := ⟨.hbm, 326, rfl⟩
abbrev main_call8_v10 : Ref sig .tc := ⟨.hbm, 327, rfl⟩
abbrev main_call8_v11 : Ref sig .tc := ⟨.hbm, 328, rfl⟩
abbrev main_call8_cst_3 : Ref sig .tc := ⟨.hbm, 329, rfl⟩
abbrev main_call8_v12 : Ref sig .tc := ⟨.hbm, 330, rfl⟩
abbrev main_call8_cst_4 : Ref sig .tc := ⟨.hbm, 331, rfl⟩
abbrev main_call8_call0_v0 : Ref sig .tc := ⟨.hbm, 332, rfl⟩
abbrev main_call8_call0_v1 : Ref sig .tc := ⟨.hbm, 333, rfl⟩
abbrev main_v180 : Ref sig .tc := ⟨.hbm, 334, rfl⟩
abbrev main_v181 : Ref sig .tc := ⟨.hbm, 335, rfl⟩
abbrev main_v182 : Ref sig .tc := ⟨.hbm, 336, rfl⟩
abbrev main_v183 : Ref sig .tc := ⟨.hbm, 337, rfl⟩
abbrev main_cst_26 : Ref sig .tc := ⟨.hbm, 338, rfl⟩
abbrev main_v184 : Ref sig .tc := ⟨.hbm, 339, rfl⟩
abbrev main_v185 : Ref sig .tc := ⟨.hbm, 340, rfl⟩
abbrev main_v186 : Ref sig .tc := ⟨.hbm, 341, rfl⟩
abbrev main_v187 : Ref sig .tc := ⟨.hbm, 342, rfl⟩
abbrev main_v188 : Ref sig .tc := ⟨.hbm, 343, rfl⟩
abbrev main_v189 : Ref sig .tc := ⟨.hbm, 344, rfl⟩
abbrev main_v190 : Ref sig .tc := ⟨.hbm, 345, rfl⟩
abbrev main_v191 : Ref sig .tc := ⟨.hbm, 346, rfl⟩
abbrev main_v192 : Ref sig .tc := ⟨.hbm, 347, rfl⟩
abbrev main_v193 : Ref sig .tc := ⟨.hbm, 348, rfl⟩
abbrev main_v194 : Ref sig .tc := ⟨.hbm, 349, rfl⟩
abbrev main_v195 : Ref sig .tc := ⟨.hbm, 350, rfl⟩
abbrev main_call9_cst : Ref sig .tc := ⟨.hbm, 351, rfl⟩
abbrev main_call9_v0 : Ref sig .tc := ⟨.hbm, 352, rfl⟩
abbrev main_v196 : Ref sig .tc := ⟨.hbm, 353, rfl⟩
abbrev main_v197 : Ref sig .tc := ⟨.hbm, 354, rfl⟩
abbrev main_v198 : Ref sig .tc := ⟨.hbm, 355, rfl⟩
abbrev main_v199 : Ref sig .tc := ⟨.hbm, 356, rfl⟩
abbrev main_v200 : Ref sig .tc := ⟨.hbm, 357, rfl⟩
abbrev main_v201 : Ref sig .tc := ⟨.hbm, 358, rfl⟩
abbrev main_v202 : Ref sig .tc := ⟨.hbm, 359, rfl⟩
abbrev main_v203 : Ref sig .tc := ⟨.hbm, 360, rfl⟩
abbrev main_v204 : Ref sig .tc := ⟨.hbm, 361, rfl⟩
abbrev main_v205 : Ref sig .tc := ⟨.hbm, 362, rfl⟩
abbrev main_v206 : Ref sig .tc := ⟨.hbm, 363, rfl⟩
abbrev main_v207 : Ref sig .tc := ⟨.hbm, 364, rfl⟩
abbrev main_v208 : Ref sig .tc := ⟨.hbm, 365, rfl⟩
abbrev main_cst_27 : Ref sig .tc := ⟨.hbm, 366, rfl⟩
abbrev main_v209 : Ref sig .tc := ⟨.hbm, 367, rfl⟩
abbrev main_cst_28 : Ref sig .tc := ⟨.hbm, 368, rfl⟩
abbrev main_v210 : Ref sig .tc := ⟨.hbm, 369, rfl⟩
abbrev main_v211 : Ref sig .tc := ⟨.hbm, 370, rfl⟩
abbrev main_c_29 : Ref sig .tc := ⟨.hbm, 371, rfl⟩
abbrev main_call10_cst : Ref sig .tc := ⟨.hbm, 372, rfl⟩
abbrev main_call10_v0 : Ref sig .tc := ⟨.hbm, 373, rfl⟩
abbrev main_call10_v1 : Ref sig .tc := ⟨.hbm, 374, rfl⟩
abbrev main_call10_cst_0 : Ref sig .tc := ⟨.hbm, 375, rfl⟩
abbrev main_call10_v2 : Ref sig .tc := ⟨.hbm, 376, rfl⟩
abbrev main_call10_v3 : Ref sig .tc := ⟨.hbm, 377, rfl⟩
abbrev main_call10_v4 : Ref sig .tc := ⟨.hbm, 378, rfl⟩
abbrev main_call10_v5 : Ref sig .tc := ⟨.hbm, 379, rfl⟩
abbrev main_call10_v6 : Ref sig .tc := ⟨.hbm, 380, rfl⟩
abbrev main_call10_v7 : Ref sig .tc := ⟨.hbm, 381, rfl⟩
abbrev main_call10_cst_1 : Ref sig .tc := ⟨.hbm, 382, rfl⟩
abbrev main_call10_v8 : Ref sig .tc := ⟨.hbm, 383, rfl⟩
abbrev main_call10_cst_2 : Ref sig .tc := ⟨.hbm, 384, rfl⟩
abbrev main_call10_v9 : Ref sig .tc := ⟨.hbm, 385, rfl⟩
abbrev main_call10_v10 : Ref sig .tc := ⟨.hbm, 386, rfl⟩
abbrev main_call10_v11 : Ref sig .tc := ⟨.hbm, 387, rfl⟩
abbrev main_call10_cst_3 : Ref sig .tc := ⟨.hbm, 388, rfl⟩
abbrev main_call10_v12 : Ref sig .tc := ⟨.hbm, 389, rfl⟩
abbrev main_call10_cst_4 : Ref sig .tc := ⟨.hbm, 390, rfl⟩
abbrev main_call10_call0_v0 : Ref sig .tc := ⟨.hbm, 391, rfl⟩
abbrev main_call10_call0_v1 : Ref sig .tc := ⟨.hbm, 392, rfl⟩
abbrev main_v212 : Ref sig .tc := ⟨.hbm, 393, rfl⟩
abbrev main_v213 : Ref sig .tc := ⟨.hbm, 394, rfl⟩
abbrev main_v214 : Ref sig .tc := ⟨.hbm, 395, rfl⟩
abbrev main_v215 : Ref sig .tc := ⟨.hbm, 396, rfl⟩
abbrev main_cst_30 : Ref sig .tc := ⟨.hbm, 397, rfl⟩
abbrev main_v216 : Ref sig .tc := ⟨.hbm, 398, rfl⟩
abbrev main_v217 : Ref sig .tc := ⟨.hbm, 399, rfl⟩
abbrev main_v218 : Ref sig .tc := ⟨.hbm, 400, rfl⟩
abbrev main_v219 : Ref sig .tc := ⟨.hbm, 401, rfl⟩
abbrev main_v220 : Ref sig .tc := ⟨.hbm, 402, rfl⟩
abbrev main_v221 : Ref sig .tc := ⟨.hbm, 403, rfl⟩
abbrev main_v222 : Ref sig .tc := ⟨.hbm, 404, rfl⟩
abbrev main_v223 : Ref sig .tc := ⟨.hbm, 405, rfl⟩
abbrev main_v224 : Ref sig .tc := ⟨.hbm, 406, rfl⟩
abbrev main_v225 : Ref sig .tc := ⟨.hbm, 407, rfl⟩
abbrev main_v226 : Ref sig .tc := ⟨.hbm, 408, rfl⟩
abbrev main_v227 : Ref sig .tc := ⟨.hbm, 409, rfl⟩
abbrev main_call11_cst : Ref sig .tc := ⟨.hbm, 410, rfl⟩
abbrev main_call11_v0 : Ref sig .tc := ⟨.hbm, 411, rfl⟩
abbrev main_v228 : Ref sig .tc := ⟨.hbm, 412, rfl⟩
abbrev main_c_31 : Ref sig .tc := ⟨.hbm, 413, rfl⟩
abbrev main_v229 : Ref sig .tc := ⟨.hbm, 414, rfl⟩
abbrev main_v230 : Ref sig .tc := ⟨.hbm, 415, rfl⟩
abbrev main_c_32 : Ref sig .tc := ⟨.hbm, 416, rfl⟩
abbrev main_v231 : Ref sig .tc := ⟨.hbm, 417, rfl⟩
abbrev main_v232 : Ref sig .tc := ⟨.hbm, 418, rfl⟩
abbrev main_v233 : Ref sig .tc := ⟨.hbm, 419, rfl⟩
abbrev main_v234 : Ref sig .tc := ⟨.hbm, 420, rfl⟩
abbrev main_v235 : Ref sig .tc := ⟨.hbm, 421, rfl⟩
abbrev main_cst_33 : Ref sig .tc := ⟨.hbm, 422, rfl⟩
abbrev main_v236 : Ref sig .tc := ⟨.hbm, 423, rfl⟩
abbrev main_v237 : Ref sig .tc := ⟨.hbm, 424, rfl⟩
abbrev main_v238 : Ref sig .tc := ⟨.hbm, 425, rfl⟩
abbrev main_v239 : Ref sig .tc := ⟨.hbm, 426, rfl⟩
abbrev main_v240 : Ref sig .tc := ⟨.hbm, 427, rfl⟩
abbrev main_v241 : Ref sig .tc := ⟨.hbm, 428, rfl⟩
abbrev main_v242 : Ref sig .tc := ⟨.hbm, 429, rfl⟩
abbrev main_v243 : Ref sig .tc := ⟨.hbm, 430, rfl⟩
abbrev main_v244 : Ref sig .tc := ⟨.hbm, 431, rfl⟩
abbrev main_v245 : Ref sig .tc := ⟨.hbm, 432, rfl⟩
abbrev main_v246 : Ref sig .tc := ⟨.hbm, 433, rfl⟩
abbrev main_v247 : Ref sig .tc := ⟨.hbm, 434, rfl⟩
abbrev main_v248 : Ref sig .tc := ⟨.hbm, 435, rfl⟩
abbrev main_v249 : Ref sig .tc := ⟨.hbm, 436, rfl⟩
abbrev main_v250 : Ref sig .tc := ⟨.hbm, 437, rfl⟩
abbrev main_v251 : Ref sig .tc := ⟨.hbm, 438, rfl⟩
abbrev main_cst_34 : Ref sig .tc := ⟨.hbm, 439, rfl⟩
abbrev main_v252 : Ref sig .tc := ⟨.hbm, 440, rfl⟩
abbrev main_cst_35 : Ref sig .tc := ⟨.hbm, 441, rfl⟩
abbrev main_v253 : Ref sig .tc := ⟨.hbm, 442, rfl⟩
abbrev main_v254 : Ref sig .tc := ⟨.hbm, 443, rfl⟩
abbrev main_c_36 : Ref sig .tc := ⟨.hbm, 444, rfl⟩
abbrev main_call12_cst : Ref sig .tc := ⟨.hbm, 445, rfl⟩
abbrev main_call12_v0 : Ref sig .tc := ⟨.hbm, 446, rfl⟩
abbrev main_call12_v1 : Ref sig .tc := ⟨.hbm, 447, rfl⟩
abbrev main_call12_cst_0 : Ref sig .tc := ⟨.hbm, 448, rfl⟩
abbrev main_call12_v2 : Ref sig .tc := ⟨.hbm, 449, rfl⟩
abbrev main_call12_v3 : Ref sig .tc := ⟨.hbm, 450, rfl⟩
abbrev main_call12_v4 : Ref sig .tc := ⟨.hbm, 451, rfl⟩
abbrev main_call12_v5 : Ref sig .tc := ⟨.hbm, 452, rfl⟩
abbrev main_call12_v6 : Ref sig .tc := ⟨.hbm, 453, rfl⟩
abbrev main_call12_v7 : Ref sig .tc := ⟨.hbm, 454, rfl⟩
abbrev main_call12_cst_1 : Ref sig .tc := ⟨.hbm, 455, rfl⟩
abbrev main_call12_v8 : Ref sig .tc := ⟨.hbm, 456, rfl⟩
abbrev main_call12_cst_2 : Ref sig .tc := ⟨.hbm, 457, rfl⟩
abbrev main_call12_v9 : Ref sig .tc := ⟨.hbm, 458, rfl⟩
abbrev main_call12_v10 : Ref sig .tc := ⟨.hbm, 459, rfl⟩
abbrev main_call12_v11 : Ref sig .tc := ⟨.hbm, 460, rfl⟩
abbrev main_call12_cst_3 : Ref sig .tc := ⟨.hbm, 461, rfl⟩
abbrev main_call12_v12 : Ref sig .tc := ⟨.hbm, 462, rfl⟩
abbrev main_call12_cst_4 : Ref sig .tc := ⟨.hbm, 463, rfl⟩
abbrev main_call12_call0_v0 : Ref sig .tc := ⟨.hbm, 464, rfl⟩
abbrev main_call12_call0_v1 : Ref sig .tc := ⟨.hbm, 465, rfl⟩
abbrev main_v255 : Ref sig .tc := ⟨.hbm, 466, rfl⟩
abbrev main_v256 : Ref sig .tc := ⟨.hbm, 467, rfl⟩
abbrev main_v257 : Ref sig .tc := ⟨.hbm, 468, rfl⟩
abbrev main_v258 : Ref sig .tc := ⟨.hbm, 469, rfl⟩
abbrev main_cst_37 : Ref sig .tc := ⟨.hbm, 470, rfl⟩
abbrev main_v259 : Ref sig .tc := ⟨.hbm, 471, rfl⟩
abbrev main_v260 : Ref sig .tc := ⟨.hbm, 472, rfl⟩
abbrev main_v261 : Ref sig .tc := ⟨.hbm, 473, rfl⟩
abbrev main_v262 : Ref sig .tc := ⟨.hbm, 474, rfl⟩
abbrev main_v263 : Ref sig .tc := ⟨.hbm, 475, rfl⟩
abbrev main_v264 : Ref sig .tc := ⟨.hbm, 476, rfl⟩
abbrev main_v265 : Ref sig .tc := ⟨.hbm, 477, rfl⟩
abbrev main_v266 : Ref sig .tc := ⟨.hbm, 478, rfl⟩
abbrev main_v267 : Ref sig .tc := ⟨.hbm, 479, rfl⟩
abbrev main_v268 : Ref sig .tc := ⟨.hbm, 480, rfl⟩
abbrev main_v269 : Ref sig .tc := ⟨.hbm, 481, rfl⟩
abbrev main_v270 : Ref sig .tc := ⟨.hbm, 482, rfl⟩
abbrev main_call13_cst : Ref sig .tc := ⟨.hbm, 483, rfl⟩
abbrev main_call13_v0 : Ref sig .tc := ⟨.hbm, 484, rfl⟩
abbrev main_v271 : Ref sig .tc := ⟨.hbm, 485, rfl⟩
abbrev main_v272 : Ref sig .tc := ⟨.hbm, 486, rfl⟩
abbrev main_v273 : Ref sig .tc := ⟨.hbm, 487, rfl⟩
abbrev main_v274 : Ref sig .tc := ⟨.hbm, 488, rfl⟩
abbrev main_v275 : Ref sig .tc := ⟨.hbm, 489, rfl⟩
abbrev main_v276 : Ref sig .tc := ⟨.hbm, 490, rfl⟩
abbrev main_v277 : Ref sig .tc := ⟨.hbm, 491, rfl⟩
abbrev main_v278 : Ref sig .tc := ⟨.hbm, 492, rfl⟩
abbrev main_v279 : Ref sig .tc := ⟨.hbm, 493, rfl⟩
abbrev main_v280 : Ref sig .tc := ⟨.hbm, 494, rfl⟩
abbrev main_v281 : Ref sig .tc := ⟨.hbm, 495, rfl⟩
abbrev main_v282 : Ref sig .tc := ⟨.hbm, 496, rfl⟩
abbrev main_v283 : Ref sig .tc := ⟨.hbm, 497, rfl⟩
abbrev main_cst_38 : Ref sig .tc := ⟨.hbm, 498, rfl⟩
abbrev main_v284 : Ref sig .tc := ⟨.hbm, 499, rfl⟩
abbrev main_cst_39 : Ref sig .tc := ⟨.hbm, 500, rfl⟩
abbrev main_v285 : Ref sig .tc := ⟨.hbm, 501, rfl⟩
abbrev main_v286 : Ref sig .tc := ⟨.hbm, 502, rfl⟩
abbrev main_c_40 : Ref sig .tc := ⟨.hbm, 503, rfl⟩
abbrev main_call14_cst : Ref sig .tc := ⟨.hbm, 504, rfl⟩
abbrev main_call14_v0 : Ref sig .tc := ⟨.hbm, 505, rfl⟩
abbrev main_call14_v1 : Ref sig .tc := ⟨.hbm, 506, rfl⟩
abbrev main_call14_cst_0 : Ref sig .tc := ⟨.hbm, 507, rfl⟩
abbrev main_call14_v2 : Ref sig .tc := ⟨.hbm, 508, rfl⟩
abbrev main_call14_v3 : Ref sig .tc := ⟨.hbm, 509, rfl⟩
abbrev main_call14_v4 : Ref sig .tc := ⟨.hbm, 510, rfl⟩
abbrev main_call14_v5 : Ref sig .tc := ⟨.hbm, 511, rfl⟩
abbrev main_call14_v6 : Ref sig .tc := ⟨.hbm, 512, rfl⟩
abbrev main_call14_v7 : Ref sig .tc := ⟨.hbm, 513, rfl⟩
abbrev main_call14_cst_1 : Ref sig .tc := ⟨.hbm, 514, rfl⟩
abbrev main_call14_v8 : Ref sig .tc := ⟨.hbm, 515, rfl⟩
abbrev main_call14_cst_2 : Ref sig .tc := ⟨.hbm, 516, rfl⟩
abbrev main_call14_v9 : Ref sig .tc := ⟨.hbm, 517, rfl⟩
abbrev main_call14_v10 : Ref sig .tc := ⟨.hbm, 518, rfl⟩
abbrev main_call14_v11 : Ref sig .tc := ⟨.hbm, 519, rfl⟩
abbrev main_call14_cst_3 : Ref sig .tc := ⟨.hbm, 520, rfl⟩
abbrev main_call14_v12 : Ref sig .tc := ⟨.hbm, 521, rfl⟩
abbrev main_call14_cst_4 : Ref sig .tc := ⟨.hbm, 522, rfl⟩
abbrev main_call14_call0_v0 : Ref sig .tc := ⟨.hbm, 523, rfl⟩
abbrev main_call14_call0_v1 : Ref sig .tc := ⟨.hbm, 524, rfl⟩
abbrev main_v287 : Ref sig .tc := ⟨.hbm, 525, rfl⟩
abbrev main_v288 : Ref sig .tc := ⟨.hbm, 526, rfl⟩
abbrev main_v289 : Ref sig .tc := ⟨.hbm, 527, rfl⟩
abbrev main_v290 : Ref sig .tc := ⟨.hbm, 528, rfl⟩
abbrev main_cst_41 : Ref sig .tc := ⟨.hbm, 529, rfl⟩
abbrev main_v291 : Ref sig .tc := ⟨.hbm, 530, rfl⟩
abbrev main_v292 : Ref sig .tc := ⟨.hbm, 531, rfl⟩
abbrev main_v293 : Ref sig .tc := ⟨.hbm, 532, rfl⟩
abbrev main_v294 : Ref sig .tc := ⟨.hbm, 533, rfl⟩
abbrev main_v295 : Ref sig .tc := ⟨.hbm, 534, rfl⟩
abbrev main_v296 : Ref sig .tc := ⟨.hbm, 535, rfl⟩
abbrev main_v297 : Ref sig .tc := ⟨.hbm, 536, rfl⟩
abbrev main_v298 : Ref sig .tc := ⟨.hbm, 537, rfl⟩
abbrev main_v299 : Ref sig .tc := ⟨.hbm, 538, rfl⟩
abbrev main_v300 : Ref sig .tc := ⟨.hbm, 539, rfl⟩
abbrev main_v301 : Ref sig .tc := ⟨.hbm, 540, rfl⟩
abbrev main_v302 : Ref sig .tc := ⟨.hbm, 541, rfl⟩
abbrev main_call15_cst : Ref sig .tc := ⟨.hbm, 542, rfl⟩
abbrev main_call15_v0 : Ref sig .tc := ⟨.hbm, 543, rfl⟩
abbrev main_v303 : Ref sig .tc := ⟨.hbm, 544, rfl⟩
abbrev main_cst_42 : Ref sig .tc := ⟨.hbm, 545, rfl⟩
abbrev main_v304 : Ref sig .tc := ⟨.hbm, 546, rfl⟩
abbrev main_cst_43 : Ref sig .tc := ⟨.hbm, 547, rfl⟩
abbrev main_v305 : Ref sig .tc := ⟨.hbm, 548, rfl⟩
abbrev main_v306 : Ref sig .tc := ⟨.hbm, 549, rfl⟩
abbrev main_v307 : Ref sig .tc := ⟨.hbm, 550, rfl⟩
abbrev main_v308 : Ref sig .tc := ⟨.hbm, 551, rfl⟩
abbrev main_v309 : Ref sig .tc := ⟨.hbm, 552, rfl⟩
abbrev main_v310 : Ref sig .tc := ⟨.hbm, 553, rfl⟩
abbrev main_v311 : Ref sig .tc := ⟨.hbm, 554, rfl⟩
abbrev main_v312 : Ref sig .tc := ⟨.hbm, 555, rfl⟩
abbrev main_v313 : Ref sig .tc := ⟨.hbm, 556, rfl⟩
abbrev main_v314 : Ref sig .tc := ⟨.hbm, 557, rfl⟩
abbrev main_v315 : Ref sig .tc := ⟨.hbm, 558, rfl⟩
abbrev main_v316 : Ref sig .tc := ⟨.hbm, 559, rfl⟩
abbrev main_cst_44 : Ref sig .tc := ⟨.hbm, 560, rfl⟩
abbrev main_v317 : Ref sig .tc := ⟨.hbm, 561, rfl⟩
abbrev main_v318 : Ref sig .tc := ⟨.hbm, 562, rfl⟩
abbrev main_v319 : Ref sig .tc := ⟨.hbm, 563, rfl⟩
abbrev main_v320 : Ref sig .tc := ⟨.hbm, 564, rfl⟩
abbrev main_v321 : Ref sig .tc := ⟨.hbm, 565, rfl⟩
abbrev main_v322 : Ref sig .tc := ⟨.hbm, 566, rfl⟩
abbrev main_v323 : Ref sig .tc := ⟨.hbm, 567, rfl⟩
abbrev main_v324 : Ref sig .tc := ⟨.hbm, 568, rfl⟩
abbrev main_v325 : Ref sig .tc := ⟨.hbm, 569, rfl⟩
abbrev main_v326 : Ref sig .tc := ⟨.hbm, 570, rfl⟩
abbrev main_v327 : Ref sig .tc := ⟨.hbm, 571, rfl⟩
abbrev main_v328 : Ref sig .tc := ⟨.hbm, 572, rfl⟩
abbrev main_cst_45 : Ref sig .tc := ⟨.hbm, 573, rfl⟩
abbrev main_v329 : Ref sig .tc := ⟨.hbm, 574, rfl⟩
abbrev main_v330 : Ref sig .tc := ⟨.hbm, 575, rfl⟩
abbrev main_v331 : Ref sig .tc := ⟨.hbm, 576, rfl⟩
abbrev main_v332 : Ref sig .tc := ⟨.hbm, 577, rfl⟩
abbrev main_v333 : Ref sig .tc := ⟨.hbm, 578, rfl⟩
abbrev main_v334 : Ref sig .tc := ⟨.hbm, 579, rfl⟩
abbrev main_v335 : Ref sig .tc := ⟨.hbm, 580, rfl⟩
abbrev main_v336 : Ref sig .tc := ⟨.hbm, 581, rfl⟩
abbrev main_v337 : Ref sig .tc := ⟨.hbm, 582, rfl⟩
abbrev main_v338 : Ref sig .tc := ⟨.hbm, 583, rfl⟩
abbrev main_v339 : Ref sig .tc := ⟨.hbm, 584, rfl⟩
abbrev main_v340 : Ref sig .tc := ⟨.hbm, 585, rfl⟩
abbrev main_cst_46 : Ref sig .tc := ⟨.hbm, 586, rfl⟩
abbrev main_v341 : Ref sig .tc := ⟨.hbm, 587, rfl⟩
abbrev main_v342 : Ref sig .tc := ⟨.hbm, 588, rfl⟩
abbrev main_v343 : Ref sig .tc := ⟨.hbm, 589, rfl⟩
abbrev main_v344 : Ref sig .tc := ⟨.hbm, 590, rfl⟩
abbrev main_v345 : Ref sig .tc := ⟨.hbm, 591, rfl⟩
abbrev main_v346 : Ref sig .tc := ⟨.hbm, 592, rfl⟩
abbrev main_v347 : Ref sig .tc := ⟨.hbm, 593, rfl⟩
abbrev main_v348 : Ref sig .tc := ⟨.hbm, 594, rfl⟩
abbrev main_v349 : Ref sig .tc := ⟨.hbm, 595, rfl⟩
abbrev main_v350 : Ref sig .tc := ⟨.hbm, 596, rfl⟩
abbrev main_v351 : Ref sig .tc := ⟨.hbm, 597, rfl⟩
abbrev main_v352 : Ref sig .tc := ⟨.hbm, 598, rfl⟩
abbrev main_cst_47 : Ref sig .tc := ⟨.hbm, 599, rfl⟩
abbrev main_v353 : Ref sig .tc := ⟨.hbm, 600, rfl⟩
abbrev main_v354 : Ref sig .tc := ⟨.hbm, 601, rfl⟩
abbrev main_v355 : Ref sig .tc := ⟨.hbm, 602, rfl⟩
abbrev main_v356 : Ref sig .tc := ⟨.hbm, 603, rfl⟩
abbrev main_v357 : Ref sig .tc := ⟨.hbm, 604, rfl⟩
abbrev main_v358 : Ref sig .tc := ⟨.hbm, 605, rfl⟩
abbrev main_v359 : Ref sig .tc := ⟨.hbm, 606, rfl⟩
abbrev main_v360 : Ref sig .tc := ⟨.hbm, 607, rfl⟩
abbrev main_v361 : Ref sig .tc := ⟨.hbm, 608, rfl⟩
abbrev main_v362 : Ref sig .tc := ⟨.hbm, 609, rfl⟩
abbrev main_v363 : Ref sig .tc := ⟨.hbm, 610, rfl⟩
abbrev main_v364 : Ref sig .tc := ⟨.hbm, 611, rfl⟩
abbrev main_call16_cst : Ref sig .tc := ⟨.hbm, 612, rfl⟩
abbrev main_call16_v0 : Ref sig .tc := ⟨.hbm, 613, rfl⟩
abbrev main_call16_cst_0 : Ref sig .tc := ⟨.hbm, 614, rfl⟩
abbrev main_call16_v1 : Ref sig .tc := ⟨.hbm, 615, rfl⟩
abbrev main_call16_v2 : Ref sig .tc := ⟨.hbm, 616, rfl⟩
abbrev main_call16_v3 : Ref sig .tc := ⟨.hbm, 617, rfl⟩
abbrev main_call16_v4 : Ref sig .tc := ⟨.hbm, 618, rfl⟩
abbrev main_call16_v5 : Ref sig .tc := ⟨.hbm, 619, rfl⟩
abbrev main_call16_v6 : Ref sig .tc := ⟨.hbm, 620, rfl⟩
abbrev main_call16_cst_1 : Ref sig .tc := ⟨.hbm, 621, rfl⟩
abbrev main_call16_v7 : Ref sig .tc := ⟨.hbm, 622, rfl⟩
abbrev main_call16_v8 : Ref sig .tc := ⟨.hbm, 623, rfl⟩
abbrev main_call16_v9 : Ref sig .tc := ⟨.hbm, 624, rfl⟩
abbrev main_call16_v10 : Ref sig .tc := ⟨.hbm, 625, rfl⟩
abbrev main_v365 : Ref sig .tc := ⟨.hbm, 626, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x10 : S_.BroadcastsInDim S512x10 (![] : Fin 0 → Fin S512x10.rank)
  bcast_S_S512x128 : S_.BroadcastsInDim S512x128 (![] : Fin 0 → Fin S512x128.rank)
  bcast_S50000_S50000x1_0 : S50000.BroadcastsInDim S50000x1 (![0] : Fin 1 → Fin S50000x1.rank)
  slices_S5x128x10_S1x128x10_0_0_0 : S5x128x10.Slices ![0, 0, 0] S1x128x10
  shapeCasts_S1x128x10_S128x10 : S1x128x10.ShapeCasts S128x10
  slices_S5x10_S1x10_0_0 : S5x10.Slices ![0, 0] S1x10
  shapeCasts_S1x10_S10 : S1x10.ShapeCasts S10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  slices_S5x128x10_S1x128x10_1_0_0 : S5x128x10.Slices ![1, 0, 0] S1x128x10
  slices_S5x10_S1x10_1_0 : S5x10.Slices ![1, 0] S1x10
  slices_S5x128x10_S1x128x10_2_0_0 : S5x128x10.Slices ![2, 0, 0] S1x128x10
  slices_S5x10_S1x10_2_0 : S5x10.Slices ![2, 0] S1x10
  slices_S5x128x10_S1x128x10_3_0_0 : S5x128x10.Slices ![3, 0, 0] S1x128x10
  slices_S5x10_S1x10_3_0 : S5x10.Slices ![3, 0] S1x10
  slices_S5x128x10_S1x128x10_4_0_0 : S5x128x10.Slices ![4, 0, 0] S1x128x10
  slices_S5x10_S1x10_4_0 : S5x10.Slices ![4, 0] S1x10
  reducesTo_S512x10_S512_d1 : S512x10.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  dot_S512x128_S128x10_S512x10_1_0_0_1_n_n_wf : DotDims.WF S512x128 S128x10 S512x10 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.K.Host.lean ====
/-
  The host stretches of @main between the kernel regions: no operation of a stretch allocates a buffer, and each
  stretch writes only the buffers of its own results (so every other buffer, the thirteen argument arrays among
  them, is carried through a stretch unchanged).
-/
import proofs.«102976_j3633542332749_1_alg».proof.Proof.Gen.Kernel.Launch
import Idealize.ShloMosaic.Lib.Pipeline.RegionsLoop

set_option maxRecDepth 16384

noncomputable section

namespace Cert.Kernel.Hand

open Cert.Kernel Cert.Kernel.Gen
open Idealize.ShloMosaic Idealize.ShloMosaic.TcCoe

variable {F : FTy → Type} [FloatOps F]

/-- No operation of `hostOps0` allocates a buffer. -/
theorem hostOps0_fresh : (hostOps0 : List (HloOp τ sig (Elt F))).Forall fun op => op.fresh = ∅ := by
  simp only [List.Forall]; repeat' constructor
/-- The buffers the operations of `hostOps0` write: one per operation, its result. -/
abbrev hostOps0_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18]
theorem hostOps0_writes : (hostOps0 : List (HloOp τ sig (Elt F))).Forall fun op => op.writes ⊆ ((hostOps0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps1` allocates a buffer. -/
theorem hostOps1_fresh : (hostOps1 : List (HloOp τ sig (Elt F))).Forall fun op => op.fresh = ∅ := by
  simp only [List.Forall]; repeat' constructor
/-- The buffers the operations of `hostOps1` write: one per operation, its result. -/
abbrev hostOps1_W : List (Ref sig .tc) := [main_cst_1, main_v20, main_v21, main_cst_2, main_v22, main_v23, main_v24, main_v25, main_v26, main_v27, main_v28, main_cst_3, main_v29, main_v30, main_v31, main_v32, main_v33, main_v34, main_v35, main_v36, main_v37, main_v38, main_v39, main_v40, main_v41, main_v42]
theorem hostOps1_writes : (hostOps1 : List (HloOp τ sig (Elt F))).Forall fun op => op.writes ⊆ ((hostOps1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps2` allocates a buffer. -/
theorem hostOps2_fresh : (hostOps2 : List (HloOp τ sig (Elt F))).Forall fun op => op.fresh = ∅ := by
  simp only [List.Forall]; repeat' constructor
/-- The buffers the operations of `hostOps2` write: one per operation, its result. -/
abbrev hostOps2_W : List (Ref sig .tc) := [main_cst_4, main_v44, main_v45, main_cst_5, main_v46, main_v47, main_v48, main_v49, main_v50, main_v51, main_v52, main_cst_6, main_v53, main_v54, main_v55, main_v56, main_v57, main_v58, main_v59, main_v60, main_v61]
theorem hostOps2_writes : (hostOps2 : List (HloOp τ sig (Elt F))).Forall fun op => op.writes ⊆ ((hostOps2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps3` allocates a buffer. -/
theorem hostOps3_fresh : (hostOps3 : List (HloOp τ sig (Elt F))).Forall fun op => op.fresh = ∅ := by
  simp only [List.Forall]; repeat' constructor
/-- The buffers the operations of `hostOps3` write: one per operation, its result. -/
abbrev hostOps3_W : List (Ref sig .tc) := [main_c_7, main_v63, main_v64, main_c_8, main_v65, main_v66, main_v67, main_v68, main_v69, main_cst_9, main_v70, main_v71, main_v72, main_v73, main_v74, main_v75, main_v76, main_v77]
theorem hostOps3_writes : (hostOps3 : List (HloOp τ sig (Elt F))).Forall fun op => op.writes ⊆ ((hostOps3_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps4` allocates a buffer. -/
theorem hostOps4_fresh : (hostOps4 : List (HloOp τ sig (Elt F))).Forall fun op => op.fresh = ∅ := by
  simp only [List.Forall]; repeat' constructor
/-- The buffers the operations of `hostOps4` write: one per operation, its result. -/
abbrev hostOps4_W : List (Ref sig .tc) := [main_cst_10, main_v79, main_v80, main_cst_11, main_v81, main_v82, main_v83, main_v84, main_v85, main_v86, main_v87, main_cst_12, main_v88, main_v89, main_v90, main_v91, main_v92, main_v93, main_v94, main_v95, main_v96, main_v97, main_v98, main_v99, main_v100, main_v101]
theorem hostOps4_writes : (hostOps4 : List (HloOp τ sig (Elt F))).Forall fun op => op.writes ⊆ ((hostOps4_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps5` allocates a buffer. -/
theorem hostOps5_fresh : (hostOps5 : List (HloOp τ sig (Elt F))).Forall fun op => op.fresh = ∅ := by
  simp only [List.Forall]; repeat' constructor
/-- The buffers the operations of `hostOps5` write: one per operation, its result. -/
abbrev hostOps5_W : List (Ref sig .tc) := [main_cst_13, main_v103, main_v104, main_cst_14, main_v105, main_v106, main_v107, main_v108, main_v109, main_v110, main_v111, main_cst_15, main_v112, main_v113, main_v114, main_v115, main_v116, main_v117, main_v118, main_v119, main_v120]
theorem hostOps5_writes : (hostOps5 : List (HloOp τ sig (Elt F))).Forall fun op => op.writes ⊆ ((hostOps5_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps6` allocates a buffer. -/
theorem hostOps6_fresh : (hostOps6 : List (HloOp τ sig (Elt F))).Forall fun op => op.fresh = ∅ := by
  simp only [List.Forall]; repeat' constructor
/-- The buffers the operations of `hostOps6` write: one per operation, its result. -/
abbrev hostOps6_W : List (Ref sig .tc) := [main_c_16, main_v122, main_v123, main_c_17, main_v124, main_v125, main_v126, main_v127, main_v128, main_cst_18, main_v129, main_v130, main_v131, main_v132, main_v133, main_v134, main_v135, main_v136]
theorem hostOps6_writes : (hostOps6 : List (HloOp τ sig (Elt F))).Forall fun op => op.writes ⊆ ((hostOps6_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps7` allocates a buffer. -/
theorem hostOps7_fresh : (hostOps7 : List (HloOp τ sig (Elt F))).Forall fun op => op.fresh = ∅ := by
  simp only [List.Forall]; repeat' constructor
/-- The buffers the operations of `hostOps7` write: one per operation, its result. -/
abbrev hostOps7_W : List (Ref sig .tc) := [main_cst_19, main_v138, main_v139, main_cst_20, main_v140, main_v141, main_v142, main_v143, main_v144, main_v145, main_v146, main_cst_21, main_v147, main_v148, main_v149, main_v150, main_v151, main_v152, main_v153, main_v154, main_v155, main_v156, main_v157, main_v158, main_v159, main_v160]
theorem hostOps7_writes : (hostOps7 : List (HloOp τ sig (Elt F))).Forall fun op => op.writes ⊆ ((hostOps7_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps8` allocates a buffer. -/
theorem hostOps8_fresh : (hostOps8 : List (HloOp τ sig (Elt F))).Forall fun op => op.fresh = ∅ := by
  simp only [List.Forall]; repeat' constructor
/-- The buffers the operations of `hostOps8` write: one per operation, its result. -/
abbrev hostOps8_W : List (Ref sig .tc) := [main_cst_22, main_v162, main_v163, main_cst_23, main_v164, main_v165, main_v166, main_v167, main_v168, main_v169, main_v170, main_cst_24, main_v171, main_v172, main_v173, main_v174, main_v175, main_v176, main_v177, main_v178, main_v179]
theorem hostOps8_writes : (hostOps8 : List (HloOp τ sig (Elt F))).Forall fun op => op.writes ⊆ ((hostOps8_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps9` allocates a buffer. -/
theorem hostOps9_fresh : (hostOps9 : List (HloOp τ sig (Elt F))).Forall fun op => op.fresh = ∅ := by
  simp only [List.Forall]; repeat' constructor
/-- The buffers the operations of `hostOps9` write: one per operation, its result. -/
abbrev hostOps9_W : List (Ref sig .tc) := [main_c_25, main_v181, main_v182, main_c_26, main_v183, main_v184, main_v185, main_v186, main_v187, main_cst_27, main_v188, main_v189, main_v190, main_v191, main_v192, main_v193, main_v194, main_v195]
theorem hostOps9_writes : (hostOps9 : List (HloOp τ sig (Elt F))).Forall fun op => op.writes ⊆ ((hostOps9_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps10` allocates a buffer. -/
theorem hostOps10_fresh : (hostOps10 : List (HloOp τ sig (Elt F))).Forall fun op => op.fresh = ∅ := by
  simp only [List.Forall]; repeat' constructor
/-- The buffers the operations of `hostOps10` write: one per operation, its result. -/
abbrev hostOps10_W : List (Ref sig .tc) := [main_cst_28, main_v197, main_v198, main_cst_29, main_v199, main_v200, main_v201, main_v202, main_v203, main_v204, main_v205, main_cst_30, main_v206, main_v207, main_v208, main_v209, main_v210, main_v211, main_v212, main_v213, main_v214, main_v215, main_v216, main_v217, main_v218, main_v219]
theorem hostOps10_writes : (hostOps10 : List (HloOp τ sig (Elt F))).Forall fun op => op.writes ⊆ ((hostOps10_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps11` allocates a buffer. -/
theorem hostOps11_fresh : (hostOps11 : List (HloOp τ sig (Elt F))).Forall fun op => op.fresh = ∅ := by
  simp only [List.Forall]; repeat' constructor
/-- The buffers the operations of `hostOps11` write: one per operation, its result. -/
abbrev hostOps11_W : List (Ref sig .tc) := [main_cst_31, main_v221, main_v222, main_cst_32, main_v223, main_v224, main_v225, main_v226, main_v227, main_v228, main_v229, main_cst_33, main_v230, main_v231, main_v232, main_v233, main_v234, main_v235, main_v236, main_v237, main_v238]
theorem hostOps11_writes : (hostOps11 : List (HloOp τ sig (Elt F))).Forall fun op => op.writes ⊆ ((hostOps11_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps12` allocates a buffer. -/
theorem hostOps12_fresh : (hostOps12 : List (HloOp τ sig (Elt F))).Forall fun op => op.fresh = ∅ := by
  simp only [List.Forall]; repeat' constructor
/-- The buffers the operations of `hostOps12` write: one per operation, its result. -/
abbrev hostOps12_W : List (Ref sig .tc) := [main_cst_34, main_v240, main_cst_35, main_v241, main_v242, main_v243, main_v244, main_v245, main_v246, main_v247, main_v248, main_v249, main_v250, main_v251, main_v252, main_cst_36, main_v253, main_v254, main_v255, main_v256, main_v257, main_v258, main_v259, main_v260, main_v261, main_v262, main_v263, main_v264, main_cst_37, main_v265, main_v266, main_v267, main_v268, main_v269, main_v270, main_v271, main_v272, main_v273, main_v274, main_v275, main_v276, main_cst_38, main_v277, main_v278, main_v279, main_v280, main_v281, main_v282, main_v283, main_v284, main_v285, main_v286, main_v287, main_v288, main_cst_39, main_v289, main_v290, main_v291, main_v292, main_v293, main_v294, main_v295, main_v296, main_v297, main_v298, main_v299, main_v300]
theorem hostOps12_writes : (hostOps12 : List (HloOp τ sig (Elt F))).Forall fun op => op.writes ⊆ ((hostOps12_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps12_1` allocates a buffer. -/
theorem hostOps12_1_fresh : (hostOps12_1 : List (HloOp τ sig (Elt F))).Forall fun op => op.fresh = ∅ := by
  simp only [List.Forall]; repeat' constructor
/-- The buffers the operations of `hostOps12_1` write: one per operation, its result. -/
abbrev hostOps12_1_W : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v301]
theorem hostOps12_1_writes : (hostOps12_1 : List (HloOp τ sig (Elt F))).Forall fun op => op.writes ⊆ ((hostOps12_1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

end Cert.Kernel.Hand

end
-- ==== Proof.K.ALib.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Whole-buffer accesses

Every load and store of the linear layer's body goes through the rectangle that is the whole buffer; these three facts
are all that is needed about them. -/

/-- A two-axis offset of zeros is the zero offset. -/
theorem hz_A : (![0, 0] : Fin 2 → ℕ) = fun _ => 0 := by funext a; fin_cases a <;> rfl

section Whole
variable {sig' : RefSig} {κ' : Kind} {sp' : Space} {S : Shape} {e : EltTy} {Val : EltTy → Type} [∀ e, Nonempty (Val e)]

/-- A store through the whole-buffer rectangle, made last, leaves exactly its payload, whatever came before. -/
theorem read_writes_whole_last_A (v : View sig' κ' sp' S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, by
    subst h; show y ∈ (Rect.whole S).set; rw [Rect.set_whole]; exact Finset.mem_univ y⟩), View.canon_cons_unit_zero h inb w L]

/-- A load through the whole-buffer rectangle reads the buffer's contents. -/
theorem readAt_whole_A (v : View sig' κ' sp' S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld]; exact View.ld_unit_zero h inb _
end Whole

end Cert.Kernel.Hand
end
-- ==== Proof.K.A0Run.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import proofs.«102976_j3633542332749_1_alg».proof.Proof.K.ALib
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of custom_call 0: one row block of the linear layer, with running column sums

At grid point `i` the body reads a block `x0` of the features, the matching block `x1` of the aggregated
neighbours, the weight matrix `x2` and the bias row `x3`, stores the block `z = (x0 + x1)·x2 + x3` into the
fifth operand, and adds the column sums of `z` and of `z²` to two accumulator rows (the last two operands), which
it first zeroes at the first point; at the last point it copies the two accumulators into the sixth and seventh
operands. Three control cases over the grid: first, middle, last. -/

/-- The first `pl.when`: the grid coordinate is 0 (the accumulators are zeroed). -/
abbrev cond0_first (i : grid0.Coords) : Prop := (Scalar.cmpi .ne (Scalar.extui (Scalar.cmpi .eq (BitVec.ofNat 32 (i 0).val) 0#32)) 0#32) = 1#1
/-- It holds at point 0 only. -/
theorem hcond0_first : ∀ t : Fin cfg0.N, cond0_first (grid0.coords t) ↔ t.val = 0 :=
  (by decide +kernel : ∀ t : Fin grid0.N, cond0_first (grid0.coords t) ↔ t.val = 0)
/-- The second `pl.when`: the grid coordinate is the last (the accumulators are copied out). -/
abbrev cond0_last (i : grid0.Coords) : Prop := k0_cond2 i = 1#1
/-- It holds at point 9 only. -/
theorem hcond0_last : ∀ t : Fin cfg0.N, cond0_last (grid0.coords t) ↔ t.val = 9 :=
  (by decide +kernel : ∀ t : Fin grid0.N, cond0_last (grid0.coords t) ↔ t.val = 9)

/-- A buffer's contents after a last whole-buffer store are that store's payload, a load after such a store reads
    the payload back, and a whole-buffer load reads the contents. -/
local macro "close_whole" : tactic => `(tactic| (
  (try sl_unfold_run_names)
  rw [read_writes_whole_last_A _ _ hz_A]
  (try rw [View.readCov_unit_zero _ hz_A])
  (try simp only [readAt_whole_A (S := S5000x128) _ _ hz_A, readAt_whole_A (S := S128x128) _ _ hz_A, readAt_whole_A (S := S1x128) _ _ hz_A])))

set_option maxHeartbeats 1000000 in
/-- The body at the FIRST point: the accumulators, whatever they held, are zeroed and then advanced by the block's
    column sums; the block `z` stored; the two statistics operands untouched. -/
theorem run0_first (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond0_first i) (hc1 : ¬cond0_last i)
    (x0 x1 : Vec F S5000x128 .f32) (x2 : Vec F S128x128 .f32) (x3 : Vec F S1x128 .f32) (y5 y6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay3 x0 x1 x2 x3) ∗ owns (c : Thread nD τ) arg6 fullShare y5 ∗ owns (c : Thread nD τ) arg7 fullShare y6
            ∗ owns (c : Thread nD τ) arg8 fullShare (k0_pay4 x0 x1 x2 x3 k0_pay1) ∗ owns (c : Thread nD τ) arg9 fullShare (k0_pay5 x0 x1 x2 x3 k0_pay2)) -∗ K ⟨⟩))
      ⊢ wp frame (wpE (defs₀ (F := F)) Variants.none c none) E (cc0__kernelA i arg1 harg1 arg2 harg2 arg3 harg3 arg4 harg4 arg5 harg5 arg6 harg6 arg7 harg7 arg8 harg8 arg9 harg9) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d8, %f8, -, H8⟩, ⟨%d9, %f9, -, H9⟩, Hk⟩
  subst hf0; subst hf1; subst hf2; subst hf3; subst hf5; subst hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at a MIDDLE point: the block `z` stored, each accumulator advanced by the block's column sums; the two
    statistics operands untouched. -/
theorem run0_mid (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond0_first i) (hc1 : ¬cond0_last i)
    (x0 x1 : Vec F S5000x128 .f32) (x2 : Vec F S128x128 .f32) (x3 : Vec F S1x128 .f32) (y5 y6 s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay3 x0 x1 x2 x3) ∗ owns (c : Thread nD τ) arg6 fullShare y5 ∗ owns (c : Thread nD τ) arg7 fullShare y6
            ∗ owns (c : Thread nD τ) arg8 fullShare (k0_pay4 x0 x1 x2 x3 s8) ∗ owns (c : Thread nD τ) arg9 fullShare (k0_pay5 x0 x1 x2 x3 s9)) -∗ K ⟨⟩))
      ⊢ wp frame (wpE (defs₀ (F := F)) Variants.none c none) E (cc0__kernelA i arg1 harg1 arg2 harg2 arg3 harg3 arg4 harg4 arg5 harg5 arg6 harg6 arg7 harg7 arg8 harg8 arg9 harg9) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f8, %hf8, H8⟩, ⟨%f9, %hf9, H9⟩, Hk⟩
  subst hf0; subst hf1; subst hf2; subst hf3; subst hf5; subst hf6; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at the LAST point: the block `z` stored, each accumulator advanced, and the two statistics operands,
    whatever they held, overwritten with the advanced accumulators. -/
theorem run0_last (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond0_first i) (hc1 : cond0_last i)
    (x0 x1 : Vec F S5000x128 .f32) (x2 : Vec F S128x128 .f32) (x3 : Vec F S1x128 .f32) (s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay3 x0 x1 x2 x3) ∗ owns (c : Thread nD τ) arg6 fullShare (k0_pay4 x0 x1 x2 x3 s8) ∗ owns (c : Thread nD τ) arg7 fullShare (k0_pay5 x0 x1 x2 x3 s9)
            ∗ owns (c : Thread nD τ) arg8 fullShare (k0_pay4 x0 x1 x2 x3 s8) ∗ owns (c : Thread nD τ) arg9 fullShare (k0_pay5 x0 x1 x2 x3 s9)) -∗ K ⟨⟩))
      ⊢ wp frame (wpE (defs₀ (F := F)) Variants.none c none) E (cc0__kernelA i arg1 harg1 arg2 harg2 arg3 harg3 arg4 harg4 arg5 harg5 arg6 harg6 arg7 harg7 arg8 harg8 arg9 harg9) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f8, %hf8, H8⟩, ⟨%f9, %hf9, H9⟩, Hk⟩
  subst hf0; subst hf1; subst hf2; subst hf3; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]
  · iexists _; isplitr
    swap; · iexact H5
    ipureintro
    close_whole
  isplitl [H6]
  · iexists _; isplitr
    swap; · iexact H6
    ipureintro
    close_whole
  isplitl [H8]
  · iexists _; isplitr
    swap; · iexact H8
    ipureintro
    close_whole
  iexists _; isplitr
  swap; · iexact H9
  ipureintro
  close_whole

end Cert.Kernel.Hand
end
-- ==== Proof.K.A0.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import proofs.«102976_j3633542332749_1_alg».proof.Proof.K.A0Run
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The region of custom_call 0: the linear layer `z = (h + agg)·W + b` by row blocks, with the column sums of
`z` and of `z²`

Stated at the contents `V` the region finds in the core's buffers. Windows 0–3 are the inputs (a row block of the
features, the matching row block of the aggregated neighbours, the weight matrix, the bias row: the last two fetched
once, their block index never moving); window 4 receives the row block of `z` at every point; windows 5 and 6
receive the two accumulated rows at the last point only and are idle before it. The two accumulators live in scratch
buffers of the call's own, carried from point to point by the invariant. -/

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves -/

/-- The row block of `z` at point `t`. -/
def zAt0 (c : Dev nD) (t : Fin cfg0.N) : Vec F S5000x128 .f32 :=
  k0_pay3 (iblk0 V c 0 t) (iblk0 V c 1 t) (iblk0 V c 2 t) (iblk0 V c 3 t)
/-- The column-sum accumulator after point `t`, from its contents `s` before: `s` plus the column sums of the block of `z`. -/
def sumStep0 (c : Dev nD) (t : Fin cfg0.N) (s : Vec F S1x128 .f32) : Vec F S1x128 .f32 :=
  k0_pay4 (iblk0 V c 0 t) (iblk0 V c 1 t) (iblk0 V c 2 t) (iblk0 V c 3 t) s
/-- The accumulator of squares after point `t`, from its contents `s` before: `s` plus the column sums of the block of `z²`. -/
def sqStep0 (c : Dev nD) (t : Fin cfg0.N) (s : Vec F S1x128 .f32) : Vec F S1x128 .f32 :=
  k0_pay5 (iblk0 V c 0 t) (iblk0 V c 1 t) (iblk0 V c 2 t) (iblk0 V c 3 t) s

/-- THE ACCUMULATION: the two accumulators (sums, sums of squares) after the body at position `n`, by recursion on
    the position: zeroed and advanced at the first, advanced from what the position before left at the others. -/
def accAt0 (c : Dev nD) : (n : ℕ) → n < cfg0.N → Vec F S1x128 .f32 × Vec F S1x128 .f32
  | 0, hn => (sumStep0 V c ⟨0, hn⟩ k0_pay1, sqStep0 V c ⟨0, hn⟩ k0_pay2)
  | n + 1, hn => (sumStep0 V c ⟨n + 1, hn⟩ (accAt0 c n (Nat.lt_of_succ_lt hn)).1, sqStep0 V c ⟨n + 1, hn⟩ (accAt0 c n (Nat.lt_of_succ_lt hn)).2)

theorem accAt0_zero (c : Dev nD) (t : Fin cfg0.N) (h : t.val = 0) :
    accAt0 V c t.val t.isLt = (sumStep0 V c t k0_pay1, sqStep0 V c t k0_pay2) := by
  obtain ⟨n, hn⟩ := t
  cases n with
  | zero => rfl
  | succ n => exact absurd h (Nat.succ_ne_zero n)

theorem accAt0_pos (c : Dev nD) (t : Fin cfg0.N) (h : t.val ≠ 0) :
    accAt0 V c t.val t.isLt = (sumStep0 V c t (accAt0 V c (t.val - 1) (Nat.lt_of_le_of_lt (Nat.sub_le _ _) t.isLt)).1,
      sqStep0 V c t (accAt0 V c (t.val - 1) (Nat.lt_of_le_of_lt (Nat.sub_le _ _) t.isLt)).2) := by
  obtain ⟨n, hn⟩ := t
  cases n with
  | zero => exact absurd rfl h
  | succ n => rfl

/-! ## The invariant: the two accumulators between points -/

/-- The call's two scratch operands, whole scoped buffers of its own. -/
abbrev scM0_0 : Memref sig .tc .vmem S1x128 .f32 := Memref.whole cc0_scratch0
abbrev scM0_1 : Memref sig .tc .vmem S1x128 .f32 := Memref.whole cc0_scratch1

/-- The region invariant before position `n`: before the first point every scoped buffer at anything and the generator
    register at some state; afterwards the two accumulators at what the point before left, the other scoped buffers at
    anything, the register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (accAt0 V c n hn).1 ∗ owns (c : Thread nD τ) scM0_1 fullShare (accAt0 V c n hn).2)
      ∗ Pipeline.scopedRestBut (Ix := Unit) (Name := ℕ) (U := UR sig nD τ) (Lvl := ℕ) (Val := Elt F) spec0 c [cc0_scratch0, cc0_scratch1]) ∗ ∃ r, prngReg c r)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accAt0 V c n hn).1 ∗ owns (c : Thread nD τ) scM0_1 fullShare (accAt0 V c n hn).2)
      ∗ Pipeline.scopedRestBut (Ix := Unit) (Name := ℕ) (U := UR sig nD τ) (Lvl := ℕ) (Val := Elt F) spec0 c [cc0_scratch0, cc0_scratch1]) ∗ ∃ r, prngReg c r) := rfl

theorem PhiS0_pos (c : Dev nD) (n : ℕ) (h : n ≤ cfg0.N) (hz : n ≠ 0) :
    PhiS0 V c n h = iprop(iprop(iprop(owns (c : Thread nD τ) scM0_0 fullShare (accAt0 V c (n - 1) (by omega)).1 ∗ owns (c : Thread nD τ) scM0_1 fullShare (accAt0 V c (n - 1) (by omega)).2)
      ∗ Pipeline.scopedRestBut (Ix := Unit) (Name := ℕ) (U := UR sig nD τ) (Lvl := ℕ) (Val := Elt F) spec0 c [cc0_scratch0, cc0_scratch1]) ∗ ∃ r, prngReg c r) := by
  cases n with
  | zero => exact absurd rfl hz
  | succ n => rfl

/-- The scoped rest with the two accumulators taken out, each at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ ∃ r, prngReg c r) := by
  unfold Pipeline.ΦA; rw [scopedRest0_split]; simp only [scM0_0, scM0_1, owns_whole]; try rfl

/-! ## The proof data -/

/-- The proof data of the call on core `c`: the arrays as the region finds them; after the body at point `t` each
    input's buffer at its block, window 4's at the block of `z`, windows 5 and 6 at the two accumulators after `t`
    (consulted at the last point only: before it the windows are idle); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => zAt0 V c t
    | ⟨5, _⟩ => (accAt0 V c t.val t.isLt).1
    | ⟨6, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = zAt0 V c t := by dsimp only [dat0]
theorem after0_5 (c : Dev nD) (t : Fin cfg0.N) : (dat0 V c).after 5 t = (accAt0 V c t.val t.isLt).1 := by dsimp only [dat0]
theorem after0_6 (c : Dev nD) (t : Fin cfg0.N) : (dat0 V c).after 6 t = (accAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- Before the last point window 5 is idle and not written back; at the last point it is live. -/
theorem idleAt0_5 : ∀ t : Fin cfg0.N, ¬cond0_last (grid0.coords t) → cfg0.idle 5 (grid0.coords t) = true := by decide +kernel
theorem noFlush0_5 : ∀ t : Fin cfg0.N, ¬cond0_last (grid0.coords t) → (cfg0.win 5).flush t = false := by decide +kernel
theorem liveAt0_5 : ∀ t : Fin cfg0.N, cond0_last (grid0.coords t) → cfg0.idle 5 (grid0.coords t) = false := by decide +kernel
/-- Before the last point window 6 is idle and not written back; at the last point it is live. -/
theorem idleAt0_6 : ∀ t : Fin cfg0.N, ¬cond0_last (grid0.coords t) → cfg0.idle 6 (grid0.coords t) = true := by decide +kernel
theorem noFlush0_6 : ∀ t : Fin cfg0.N, ¬cond0_last (grid0.coords t) → (cfg0.win 6).flush t = false := by decide +kernel
theorem liveAt0_6 : ∀ t : Fin cfg0.N, cond0_last (grid0.coords t) → cfg0.idle 6 (grid0.coords t) = false := by decide +kernel

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the inputs' buffers hold their blocks; the point is the first, a middle one or the last, and
    that case's run applies; the invariant hands the body the two accumulators at what the point before left (at
    anything at the first point) and takes them back advanced; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  unfold zAt0
  have hN : t.val < 10 := lt_of_lt_of_eq t.isLt (show cfg0.N = 10 from N_0)
  by_cases h0 : t.val = 0
  · have hcf : cond0_first (grid0.coords t) := (hcond0_first t).mpr h0
    have hcl : ¬cond0_last (grid0.coords t) := fun h => by have := (hcond0_last t).mp h; omega
    rw [Dat.leavesExact_idle (dat0 V c) 5 t (idleAt0_5 t hcl) (noFlush0_5 t hcl),
      Dat.leavesExact_idle (dat0 V c) 6 t (idleAt0_6 t hcl) (noFlush0_6 t hcl)]
    rw [PhiS0_castSucc V c t, PhiS0_zero V c _ _ h0, PhiA0_eq, accAt0_zero V c t h0]
    dsimp only; unfold sumStep0 sqStep0
    iintro ⟨⟨⟨⟨⟨%d8, HS0⟩, ⟨%d9, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run0_first c Set.univ (grid0.coords t) _ _ _ _ _ _ _ _ _ _ _ _ _ _ _ _ _ _ hcf hcl (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexists _; iexact HS0
    isplitl [HS1]; · iexists _; iexact HS1
    iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hcf : ¬cond0_first (grid0.coords t) := fun h => h0 ((hcond0_first t).mp h)
    rw [PhiS0_castSucc V c t, PhiS0_pos V c _ _ h0, accAt0_pos V c t h0]
    by_cases h9 : t.val = 9
    · have hcl : cond0_last (grid0.coords t) := (hcond0_last t).mpr h9
      rw [show (dat0 V c).leavesExact 5 t = owns (c : Thread nD τ) (st0_5 t) fullShare ((dat0 V c).after 5 t) from by
        unfold Dat.leavesExact; rw [liveAt0_5 t hcl], after0_5]
      rw [show (dat0 V c).leavesExact 6 t = owns (c : Thread nD τ) (st0_6 t) fullShare ((dat0 V c).after 6 t) from by
        unfold Dat.leavesExact; rw [liveAt0_6 t hcl], after0_6]
      rw [accAt0_pos V c t h0]
      dsimp only; unfold sumStep0 sqStep0
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_last c Set.univ (grid0.coords t) _ _ _ _ _ _ _ _ _ _ _ _ _ _ _ _ _ _ hcf hcl (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hcl : ¬cond0_last (grid0.coords t) := fun h => h9 ((hcond0_last t).mp h)
      rw [Dat.leavesExact_idle (dat0 V c) 5 t (idleAt0_5 t hcl) (noFlush0_5 t hcl),
        Dat.leavesExact_idle (dat0 V c) 6 t (idleAt0_6 t hcl) (noFlush0_6 t hcl)]
      dsimp only; unfold sumStep0 sqStep0
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_mid c Set.univ (grid0.coords t) _ _ _ _ _ _ _ _ _ _ _ _ _ _ _ _ _ _ hcf hcl (iblk0 V c 0 t) (iblk0 V c 1 t) (iblk0 V c 2 t) (iblk0 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the region is entered with (the generator register at some state, every scoped buffer at anything) is the
    invariant before the first point. -/
theorem Phi_first0 (c : Dev nD) :
    iprop((∃ r, prngReg c r) ∗ Pipeline.scopedRest (Ix := Unit) (Name := ℕ) (U := UR sig nD τ) (Lvl := ℕ) (Val := Elt F) spec0 c) ⊢ ((dat0 V c).Φ 0 : sProp 𝕄) := by
  rw [show (dat0 V c).Φ 0 = Pipeline.ΦA spec0 c from rfl]; unfold Pipeline.ΦA
  iintro ⟨Hp, Hr⟩
  isplitl [Hr]; · iexact Hr
  iexact Hp

/-- After any point but the first the invariant gives the scoped rest back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point, in the form the region's exit takes it. -/
theorem Phi_last0 (c : Dev nD) :
    ((dat0 V c).Φ (Fin.last cfg0.N) : sProp 𝕄) ⊢ iprop((∃ r, prngReg c r) ∗ Pipeline.scopedRest (Ix := Unit) (Name := ℕ) (U := UR sig nD τ) (Lvl := ℕ) (Val := Elt F) spec0 c) := by
  refine (Phi_out0 V c _ (by rw [Fin.val_last]; have : cfg0.N = 10 := N_0; omega)).trans ?_
  unfold Pipeline.ΦA
  iintro ⟨Hr, Hp⟩
  isplitl [Hp]; · iexact Hp
  iexact Hr

end Cert.Kernel.Hand
end
-- ==== Proof.K.BLib.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 whole-buffer access. -/
theorem zeros2_B : (![0, 0] : Fin 2 → Nat) = fun _ => 0 := funext fun a => by fin_cases a <;> rfl

/-- After writes the LAST of which stores `w` through the whole-shape rectangle at zero offsets, a buffer reads `w`,
    whatever the earlier writes and the prior contents were. -/
theorem read_writes_head_whole_B {sig : RefSig} {κ : Kind} {sp : Space} {S : Shape} {e : EltTy}
    (v : View sig κ sp S e) (f : v.ty.Contents (Elt F)) {off : Fin S.rank → Nat} (hoff : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero hoff inb y⟩),
    View.canon_cons_unit_zero hoff inb]

end Cert.Kernel.Hand
-- ==== Proof.K.B1.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«102976_j3633542332749_1_alg».proof.Proof.K.BLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the point is the grid's first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The second: the point is the grid's last. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

/-! ## The body's triple, in its three control cases

The body on whole staging memrefs: the five inputs at read contents, the z2 window at anything, the two scratch
accumulators; it leaves the inputs as they were, the z2 window at the block of z2 (the skeleton's `k1_pay4`), the
accumulators with this block's column sums added (`k1_pay5`, `k1_pay1`). At the first point the accumulators
are zeroed first (`k1_pay2`, `k1_pay3`); at the last the two sums' windows receive the accumulators; at the
other points those windows are not touched. -/

set_option maxHeartbeats 1000000 in
theorem kernelB1_first (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond1_0 i) (hc1 : ¬cond1_1 i)
    (x0 : Vec F S5000x128 .f32) (x1 x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay4 x0 x1 x2 x3 x4)
            ∗ owns (c : Thread nD τ) arg9 fullShare (k1_pay5 x0 x1 x2 x3 x4 k1_pay2)
            ∗ owns (c : Thread nD τ) arg10 fullShare (k1_pay1 (k1_pay4 x0 x1 x2 x3 x4) k1_pay3)) -∗ K ⟨⟩))
      ⊢ wp frame (wpE (defs₀ (F := F)) Variants.none c none) E (cc1__kernelB i arg1 harg1 arg2 harg2 arg3 harg3 arg4 harg4 arg5 harg5 arg6 harg6 arg7 harg7 arg8 harg8 arg9 harg9 arg10 harg10) K := by
  simp only [cc1__kernelB_eq_skeleton]; unfold cc1__kernelB_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread,
    View.ld_unit_zero (S := S5000x128) zeros2_B, View.ld_unit_zero (S := S1x128) zeros2_B, View.ld_unit_zero (S := S128x128) zeros2_B]

set_option maxHeartbeats 1000000 in
theorem kernelB1_mid (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond1_0 i) (hc1 : ¬cond1_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay4 x0 x1 x2 x3 x4)
            ∗ owns (c : Thread nD τ) arg9 fullShare (k1_pay5 x0 x1 x2 x3 x4 s0)
            ∗ owns (c : Thread nD τ) arg10 fullShare (k1_pay1 (k1_pay4 x0 x1 x2 x3 x4) s1)) -∗ K ⟨⟩))
      ⊢ wp frame (wpE (defs₀ (F := F)) Variants.none c none) E (cc1__kernelB i arg1 harg1 arg2 harg2 arg3 harg3 arg4 harg4 arg5 harg5 arg6 harg6 arg7 harg7 arg8 harg8 arg9 harg9 arg10 harg10) K := by
  simp only [cc1__kernelB_eq_skeleton]; unfold cc1__kernelB_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

set_option maxHeartbeats 1000000 in
theorem kernelB1_last (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond1_0 i) (hc1 : cond1_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay4 x0 x1 x2 x3 x4)
            ∗ owns (c : Thread nD τ) arg7 fullShare (k1_pay5 x0 x1 x2 x3 x4 s0)
            ∗ owns (c : Thread nD τ) arg8 fullShare (k1_pay1 (k1_pay4 x0 x1 x2 x3 x4) s1)
            ∗ owns (c : Thread nD τ) arg9 fullShare (k1_pay5 x0 x1 x2 x3 x4 s0)
            ∗ owns (c : Thread nD τ) arg10 fullShare (k1_pay1 (k1_pay4 x0 x1 x2 x3 x4) s1)) -∗ K ⟨⟩))
      ⊢ wp frame (wpE (defs₀ (F := F)) Variants.none c none) E (cc1__kernelB i arg1 harg1 arg2 harg2 arg3 harg3 arg4 harg4 arg5 harg5 arg6 harg6 arg7 harg7 arg8 harg8 arg9 harg9 arg10 harg10) K := by
  simp only [cc1__kernelB_eq_skeleton]; unfold cc1__kernelB_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H6]
  · iexists _; isplitr
    swap; · iexact H6
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H7]
  · iexists _; isplitr
    swap; · iexact H7
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body computes, point by point -/

/-- The block of z2 = max(z1·scale + shift, 0)·W + b the body stores at point `t`. -/
def z2blk1 (c : Dev nD) (t : Fin cfg1.N) : Vec F S5000x128 .f32 :=
  k1_pay4 (iblk1 V c 0 t) (iblk1 V c 1 t) (iblk1 V c 2 t) (iblk1 V c 3 t) (iblk1 V c 4 t)

/-- The running column sums of z2 after point `n`: zero, then each point's block added in order. -/
def sum1 (c : Dev nD) : (n : ℕ) → n < cfg1.N → Vec F S1x128 .f32
  | 0, h => k1_pay5 (iblk1 V c 0 ⟨0, h⟩) (iblk1 V c 1 ⟨0, h⟩) (iblk1 V c 2 ⟨0, h⟩) (iblk1 V c 3 ⟨0, h⟩) (iblk1 V c 4 ⟨0, h⟩) k1_pay2
  | n + 1, h => k1_pay5 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩)
      (sum1 c n (Nat.lt_of_succ_lt h))

/-- The running column sums of z2² after point `n`. -/
def sumsq1 (c : Dev nD) : (n : ℕ) → n < cfg1.N → Vec F S1x128 .f32
  | 0, h => k1_pay1 (z2blk1 V c ⟨0, h⟩) k1_pay3
  | n + 1, h => k1_pay1 (z2blk1 V c ⟨n + 1, h⟩) (sumsq1 c n (Nat.lt_of_succ_lt h))

theorem sum1_first (c : Dev nD) (t : Fin cfg1.N) (h0 : t.val = 0) :
    sum1 V c t.val t.isLt = k1_pay5 (iblk1 V c 0 t) (iblk1 V c 1 t) (iblk1 V c 2 t) (iblk1 V c 3 t) (iblk1 V c 4 t) k1_pay2 := by
  obtain ⟨n, hn⟩ := t
  cases n with
  | zero => rfl
  | succ n => exact absurd h0 (Nat.succ_ne_zero n)

theorem sum1_next (c : Dev nD) (t : Fin cfg1.N) (h0 : t.val ≠ 0) :
    sum1 V c t.val t.isLt = k1_pay5 (iblk1 V c 0 t) (iblk1 V c 1 t) (iblk1 V c 2 t) (iblk1 V c 3 t) (iblk1 V c 4 t)
      (sum1 V c (t.val - 1) (Nat.lt_of_le_of_lt (Nat.sub_le _ _) t.isLt)) := by
  obtain ⟨n, hn⟩ := t
  cases n with
  | zero => exact absurd rfl h0
  | succ n => rfl

theorem sumsq1_first (c : Dev nD) (t : Fin cfg1.N) (h0 : t.val = 0) :
    sumsq1 V c t.val t.isLt = k1_pay1 (z2blk1 V c t) k1_pay3 := by
  obtain ⟨n, hn⟩ := t
  cases n with
  | zero => rfl
  | succ n => exact absurd h0 (Nat.succ_ne_zero n)

theorem sumsq1_next (c : Dev nD) (t : Fin cfg1.N) (h0 : t.val ≠ 0) :
    sumsq1 V c t.val t.isLt = k1_pay1 (z2blk1 V c t) (sumsq1 V c (t.val - 1) (Nat.lt_of_le_of_lt (Nat.sub_le _ _) t.isLt)) := by
  obtain ⟨n, hn⟩ := t
  cases n with
  | zero => exact absurd rfl h0
  | succ n => rfl

/-! ## The region invariant -/

/-- The two accumulators the kernel keeps in scratch between points, as memrefs. -/
abbrev sc1_0 : Memref sig .tc .vmem S1x128 .f32 := Memref.whole cc1_scratch0
abbrev sc1_1 : Memref sig .tc .vmem S1x128 .f32 := Memref.whole cc1_scratch1

/-- The class invariant with the two accumulators taken out of the scoped rest, each at some contents. -/
theorem PhiA1_eq (c : Dev nD) :
    (Pipeline.ΦA spec1 c : sProp 𝕄)
      = iprop(iprop(iprop((∃ d, owns (c : Thread nD τ) sc1_0 fullShare d) ∗ (∃ d, owns (c : Thread nD τ) sc1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [sc1_0, sc1_1, owns_whole]; try rfl

/-- The invariant before position `n`: before the first point the class's; afterwards the two accumulators at the
    running sums after the point before, the other scoped buffers at anything, the generator register at some state. -/
def Phi1 (c : Dev nD) : (n : ℕ) → n ≤ cfg1.N → sProp 𝕄
  | 0, _ => Pipeline.ΦA spec1 c
  | n + 1, hn => iprop(iprop(iprop(owns (c : Thread nD τ) sc1_0 fullShare (sum1 V c n hn) ∗ owns (c : Thread nD τ) sc1_1 fullShare (sumsq1 V c n hn))
          ∗ Pipeline.scopedRestBut (Ix := Unit) (Name := ℕ) (U := UR sig nD τ) (Lvl := ℕ) (Val := Elt F) spec1 c [cc1_scratch0, cc1_scratch1])
          ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(iprop(owns (c : Thread nD τ) sc1_0 fullShare (sum1 V c n hn) ∗ owns (c : Thread nD τ) sc1_1 fullShare (sumsq1 V c n hn))
          ∗ Pipeline.scopedRestBut (Ix := Unit) (Name := ℕ) (U := UR sig nD τ) (Lvl := ℕ) (Val := Elt F) spec1 c [cc1_scratch0, cc1_scratch1])
          ∗ (∃ r, prngReg c r)) := rfl

theorem Phi1_pos (c : Dev nD) (n : ℕ) (h : n ≤ cfg1.N) (hz : n ≠ 0) :
    Phi1 V c n h = iprop(iprop(iprop(owns (c : Thread nD τ) sc1_0 fullShare (sum1 V c (n - 1) (by omega)) ∗ owns (c : Thread nD τ) sc1_1 fullShare (sumsq1 V c (n - 1) (by omega)))
          ∗ Pipeline.scopedRestBut (Ix := Unit) (Name := ℕ) (U := UR sig nD τ) (Lvl := ℕ) (Val := Elt F) spec1 c [cc1_scratch0, cc1_scratch1])
          ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block, the z2 window at the point's block of z2, the two sums' windows at the running
    sums; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => z2blk1 V c t
    | ⟨6, _⟩ => sum1 V c t.val t.isLt
    | ⟨7, _⟩ => sumsq1 V c t.val t.isLt
  Φ t := Phi1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = z2blk1 V c t := by dsimp only [dat1]
theorem after1_6 (c : Dev nD) (t : Fin cfg1.N) : (dat1 V c).after 6 t = sum1 V c t.val t.isLt := by dsimp only [dat1]
theorem after1_7 (c : Dev nD) (t : Fin cfg1.N) : (dat1 V c).after 7 t = sumsq1 V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- The invariant at a point's start, restated at `t.val`. -/
theorem Phi1_castSucc (c : Dev nD) (t : Fin cfg1.N) :
    (dat1 V c).Φ t.castSucc = Phi1 V c t.val (Nat.le_of_lt t.isLt) := by
  dsimp only [dat1]; simp only [Fin.coe_castSucc]

/-- and at its end. -/
theorem Phi1_fsucc (c : Dev nD) (t : Fin cfg1.N) :
    (dat1 V c).Φ t.succ = Phi1 V c (t.val + 1) t.isLt := by
  dsimp only [dat1]; simp only [Fin.val_succ]

/-! ## Where the sums' windows are idle -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
theorem live1_5 : ∀ t : Fin cfg1.N, cfg1.idle 5 (grid1.coords t) = false := fun _ => rfl
theorem idle1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem live1_6 : ∀ t : Fin cfg1.N, cond1_1 (grid1.coords t) → cfg1.idle 6 (grid1.coords t) = false := by decide +kernel
theorem idle1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem live1_7 : ∀ t : Fin cfg1.N, cond1_1 (grid1.coords t) → cfg1.idle 7 (grid1.coords t) = false := by decide +kernel

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at any point: the inputs' memrefs hold their blocks; the point is the first, the last or neither; the
    invariant hands the body the two accumulators (at anything at the first point, at the running sums after the point
    before otherwise) and takes them back at this point's running sums; the sums' windows are left untouched except at
    the last point, where they receive the accumulators; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [Phi1_fsucc, Phi1_succ, Phi1_castSucc]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  rw [show (dat1 V c).leavesExact 3 t = owns (c : Thread nD τ) (st1_3 t) fullShare ((dat1 V c).after 3 t) from by
    unfold Dat.leavesExact; rw [live1_3 t], after1_3]
  rw [show (dat1 V c).leavesExact 4 t = owns (c : Thread nD τ) (st1_4 t) fullShare ((dat1 V c).after 4 t) from by
    unfold Dat.leavesExact; rw [live1_4 t], after1_4]
  rw [show (dat1 V c).leavesExact 5 t = owns (c : Thread nD τ) (st1_5 t) fullShare ((dat1 V c).after 5 t) from by
    unfold Dat.leavesExact; rw [live1_5 t], after1_5]
  have hN : t.val < 10 := lt_of_lt_of_eq t.isLt (show cfg1.N = 10 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 6 t (idle1_6 t hc1) (noFlush1_6 t hc1),
      Dat.leavesExact_idle (dat1 V c) 7 t (idle1_7 t hc1) (noFlush1_7 t hc1)]
    rw [Phi1_zero V c _ _ h0, PhiA1_eq, sum1_first V c t h0, sumsq1_first V c t h0]
    unfold z2blk1
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
    iapply (kernelB1_first c Set.univ (grid1.coords t) _ _ _ _ _ _ _ _ _ _ _ _ _ _ _ _ _ _ _ _ hc0 hc1 (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h9 : t.val = 9
    · have hc0 : ¬cond1_0 (grid1.coords t) := fun h => h0 ((hcond1_0 t).mp h)
      have hc1 : cond1_1 (grid1.coords t) := (hcond1_1 t).mpr h9
      rw [show (dat1 V c).leavesExact 6 t = owns (c : Thread nD τ) (st1_6 t) fullShare ((dat1 V c).after 6 t) from by
        unfold Dat.leavesExact; rw [live1_6 t hc1], after1_6]
      rw [show (dat1 V c).leavesExact 7 t = owns (c : Thread nD τ) (st1_7 t) fullShare ((dat1 V c).after 7 t) from by
        unfold Dat.leavesExact; rw [live1_7 t hc1], after1_7]
      rw [Phi1_pos V c _ _ h0, sum1_next V c t h0, sumsq1_next V c t h0]
      unfold z2blk1
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelB1_last c Set.univ (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc0 : ¬cond1_0 (grid1.coords t) := fun h => h0 ((hcond1_0 t).mp h)
      have hc1 : ¬cond1_1 (grid1.coords t) := fun h => h9 ((hcond1_1 t).mp h)
      rw [Dat.leavesExact_idle (dat1 V c) 6 t (idle1_6 t hc1) (noFlush1_6 t hc1),
        Dat.leavesExact_idle (dat1 V c) 7 t (idle1_7 t hc1) (noFlush1_7 t hc1)]
      rw [Phi1_pos V c _ _ h0, sum1_next V c t h0, sumsq1_next V c t h0]
      unfold z2blk1
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
      iapply (kernelB1_mid c Set.univ (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the launch hands the region is the invariant before the first point. -/
theorem Phi_first1 (c : Dev nD) : iprop((∃ r, prngReg c r) ∗ Pipeline.scopedRest spec1 c) ⊢ ((dat1 V c).Φ 0 : sProp 𝕄) := by
  rw [show (dat1 V c).Φ 0 = Phi1 V c 0 (Nat.zero_le _) from rfl, Phi1_zero V c 0 _ rfl]; unfold Pipeline.ΦA
  iintro ⟨Hp, Hr⟩
  isplitl [Hr]; · iexact Hr
  iexact Hp

/-- After the last point the invariant gives the scoped rest back: the accumulators' named contents are forgotten. -/
theorem Phi_last1 (c : Dev nD) : ((dat1 V c).Φ (Fin.last cfg1.N) : sProp 𝕄) ⊢ iprop((∃ r, prngReg c r) ∗ Pipeline.scopedRest spec1 c) := by
  have e : (iprop((∃ r, prngReg c r) ∗ Pipeline.scopedRest spec1 c) : sProp 𝕄) = iprop((∃ r, prngReg c r) ∗ iprop(iprop((∃ d, owns (c : Thread nD τ) sc1_0 fullShare d) ∗ (∃ d, owns (c : Thread nD τ) sc1_1 fullShare d))
          ∗ Pipeline.scopedRestBut (Ix := Unit) (Name := ℕ) (U := UR sig nD τ) (Lvl := ℕ) (Val := Elt F) spec1 c [cc1_scratch0, cc1_scratch1])) := by
    rw [scopedRest1_split]; simp only [sc1_0, sc1_1, owns_whole]; try rfl
  rw [e, show (dat1 V c).Φ (Fin.last cfg1.N) = Phi1 V c (Fin.last cfg1.N).val (Nat.le_of_lt_succ (Fin.last cfg1.N).isLt) from rfl,
    Phi1_pos V c _ _ (by rw [Fin.val_last]; have : cfg1.N = 10 := N_1; omega)]
  iintro ⟨⟨⟨HS0, HS1⟩, Hrest⟩, Hg⟩
  isplitl [Hg]; · iexact Hg
  isplitl [HS0 HS1]
  · isplitl [HS0]
    · iexists _; iexact HS0
    iexists _; iexact HS1
  iexact Hrest

end Cert.Kernel.Hand

end
-- ==== Proof.K.C2.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

/-! # The normalise-and-rectify call number 2: one row block per grid point

The call maps a block `z` of 5000 rows by 128 features, a row of 128 scales `s` and a row of 128 shifts `b` to
`max (z * s + b) 0`, entry by entry, the two rows repeated down the block. Its grid has ten points; point `t` reads rows
`5000 t … 5000 t + 4999` of the array and writes the same rows of the result; the two rows are the same block at every
point. This file states, for arbitrary contents `V` of the buffers when the call is entered, what each window's
staging buffer holds before and after the body at every point, and proves that the body run on those buffers returns
them so. -/

-- membership in a rectangle with an axis of 5000 rows: the elaborator's structural look recurses once per coordinate of
-- the long axis (5000 deep, never once per entry)
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: everything below is stated at this parameter
variable (V : (c : Dev nD) → (b : Ref sig .tc) → Buf (Elt F) ((c : Thread nD τ).loc b))

/-! ## The windows' blocks -/

/-- Window `w`'s block at point `t`, read off its array as the call finds it (`V`): for window 0 the rows
    `5000 t …` of the pre-activation, for windows 1 and 2 the whole row of scales and of shifts. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block window's current staging buffer holds its block at every point, for any proof data whose array is
    `V`'s (`hA`) and whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The scale row's staging buffer holds the row at every point: fetched at the first point, and at a later point the
    block index has not moved, so what the body left is still that row. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The shift row's staging buffer holds the row at every point, for the same reason. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 5000 by 128 block, as the rectangle the body loads and stores. -/
abbrev r2_blk : Rect S5000x128 := Rect.unit (s := S5000x128) ![0, 0] S5000x128.size inb_S5000x128_S5000x128_0_0
/-- The whole 1 by 128 row, as the rectangle the body loads. -/
abbrev r2_row : Rect S1x128 := Rect.unit (s := S1x128) ![0, 0] S1x128.size inb_S1x128_S1x128_0_0

/-! ## What the body leaves in the output window's buffer -/

/-- The output block after the body, from the three input blocks: one store of the whole block, whose value is
    `max (z * s + b) 0` of the block, the scale row and the shift row (`k2_pay1`). -/
def out2_3 (x0 : Vec F S5000x128 .f32) (x1 : Vec F S1x128 .f32) (x2 : Vec F S1x128 .f32) : Vec F S5000x128 .f32 :=
  View.canon [⟨r2_blk, k2_pay1 (View.ld x0 r2_blk) (View.ld x1 r2_row) (View.ld x2 r2_row)⟩]

/-- The one store is the whole block, so it covers it. -/
theorem cover2_3 (p0 : Vec F S5000x128 .f32) (y : S5000x128.Idx) :
    ∃ pc ∈ ([⟨r2_blk, p0⟩] : List (View.Piece (Elt F) S5000x128 .f32)), y ∈ pc.1.set :=
  View.cover_of_tiled [⟨r2_blk, p0⟩] S5000x128.size (by rfl) y

/-! ## The body's triple -/

set_option maxHeartbeats 1000000 in
/-- The body on whole staging memrefs, the three inputs' at contents `x0`, `x1`, `x2` and the output's at anything,
    runs to the continuation holding the inputs' as they were and the output's at `out2_3 x0 x1 x2`. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__kernelC i arg1 harg1 arg2 harg2 arg3 harg3 arg4 harg4) K := by
  simp only [cc2__kernelC_eq_skeleton]; unfold cc2__kernelC_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The call's proof data -/

/-- The proof data of call 2 on core `c`: the arrays as the call finds them (`V`); after the body at point `t` each
    input's buffer still at its block and the output's at `out2_3` of the three input blocks; the invariant is the
    untouched rest; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_w`), so `sound_kernel2` applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the launch theorems, at every point. -/
theorem body_obligation2 (c : Dev nD) : BodyObligation (dat2 (F := F) V c) (defs₀ (F := F)) Variants.none () Set.univ := fun t => by
  rw [bigSep_W2, bigSep_W2]
  exact sound_body2 V c t

/-! ## The invariant at the first and at the last point -/

/-- The invariant at the first point is made of the generator register and the scoped buffers no window stages, -/
theorem Phi_first2 (c : Dev nD) :
    iprop((∃ r, prngReg c r) ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Pipeline.ΦA spec2 c from rfl]; unfold Pipeline.ΦA
  iintro ⟨Hp, Hr⟩
  isplitl [Hr]; · iexact Hr
  iexact Hp

/-- and at the last point it gives both back. -/
theorem Phi_last2 (c : Dev nD) :
    ((dat2 V c).Φ (Fin.last cfg2.N) : sProp 𝕄)
      ⊢ iprop((∃ r, prngReg c r) ∗ Pipeline.scopedRest (Ix := Unit) (Name := ℕ) (U := UR sig nD τ) (Lvl := ℕ) (Val := Elt F) spec2 c) := by
  rw [show (dat2 V c).Φ (Fin.last _) = Pipeline.ΦA spec2 c from rfl]; unfold Pipeline.ΦA
  iintro ⟨Hr, Hp⟩
  isplitl [Hp]; · iexact Hp
  iexact Hr

end Cert.Kernel.Hand
-- ==== Proof.K.A3Run.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import proofs.«102976_j3633542332749_1_alg».proof.Proof.K.ALib
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of custom_call 3: one row block of the linear layer, with running column sums

At grid point `i` the body reads a block `x0` of the features, the matching block `x1` of the aggregated
neighbours, the weight matrix `x2` and the bias row `x3`, stores the block `z = (x0 + x1)·x2 + x3` into the
fifth operand, and adds the column sums of `z` and of `z²` to two accumulator rows (the last two operands), which
it first zeroes at the first point; at the last point it copies the two accumulators into the sixth and seventh
operands. Three control cases over the grid: first, middle, last. -/

/-- The first `pl.when`: the grid coordinate is 0 (the accumulators are zeroed). -/
abbrev cond3_first (i : grid3.Coords) : Prop := (Scalar.cmpi .ne (Scalar.extui (Scalar.cmpi .eq (BitVec.ofNat 32 (i 0).val) 0#32)) 0#32) = 1#1
/-- It holds at point 0 only. -/
theorem hcond3_first : ∀ t : Fin cfg3.N, cond3_first (grid3.coords t) ↔ t.val = 0 :=
  (by decide +kernel : ∀ t : Fin grid3.N, cond3_first (grid3.coords t) ↔ t.val = 0)
/-- The second `pl.when`: the grid coordinate is the last (the accumulators are copied out). -/
abbrev cond3_last (i : grid3.Coords) : Prop := k3_cond2 i = 1#1
/-- It holds at point 9 only. -/
theorem hcond3_last : ∀ t : Fin cfg3.N, cond3_last (grid3.coords t) ↔ t.val = 9 :=
  (by decide +kernel : ∀ t : Fin grid3.N, cond3_last (grid3.coords t) ↔ t.val = 9)

/-- A buffer's contents after a last whole-buffer store are that store's payload, a load after such a store reads
    the payload back, and a whole-buffer load reads the contents. -/
local macro "close_whole" : tactic => `(tactic| (
  (try sl_unfold_run_names)
  rw [read_writes_whole_last_A _ _ hz_A]
  (try rw [View.readCov_unit_zero _ hz_A])
  (try simp only [readAt_whole_A (S := S5000x128) _ _ hz_A, readAt_whole_A (S := S128x128) _ _ hz_A, readAt_whole_A (S := S1x128) _ _ hz_A])))

set_option maxHeartbeats 1000000 in
/-- The body at the FIRST point: the accumulators, whatever they held, are zeroed and then advanced by the block's
    column sums; the block `z` stored; the two statistics operands untouched. -/
theorem run3_first (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond3_first i) (hc1 : ¬cond3_last i)
    (x0 x1 : Vec F S5000x128 .f32) (x2 : Vec F S128x128 .f32) (x3 : Vec F S1x128 .f32) (y5 y6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k3_pay3 x0 x1 x2 x3) ∗ owns (c : Thread nD τ) arg6 fullShare y5 ∗ owns (c : Thread nD τ) arg7 fullShare y6
            ∗ owns (c : Thread nD τ) arg8 fullShare (k3_pay4 x0 x1 x2 x3 k3_pay1) ∗ owns (c : Thread nD τ) arg9 fullShare (k3_pay5 x0 x1 x2 x3 k3_pay2)) -∗ K ⟨⟩))
      ⊢ wp frame (wpE (defs₀ (F := F)) Variants.none c none) E (cc3__kernelA i arg1 harg1 arg2 harg2 arg3 harg3 arg4 harg4 arg5 harg5 arg6 harg6 arg7 harg7 arg8 harg8 arg9 harg9) K := by
  simp only [cc3__kernelA_eq_skeleton]; unfold cc3__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d8, %f8, -, H8⟩, ⟨%d9, %f9, -, H9⟩, Hk⟩
  subst hf0; subst hf1; subst hf2; subst hf3; subst hf5; subst hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at a MIDDLE point: the block `z` stored, each accumulator advanced by the block's column sums; the two
    statistics operands untouched. -/
theorem run3_mid (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond3_first i) (hc1 : ¬cond3_last i)
    (x0 x1 : Vec F S5000x128 .f32) (x2 : Vec F S128x128 .f32) (x3 : Vec F S1x128 .f32) (y5 y6 s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k3_pay3 x0 x1 x2 x3) ∗ owns (c : Thread nD τ) arg6 fullShare y5 ∗ owns (c : Thread nD τ) arg7 fullShare y6
            ∗ owns (c : Thread nD τ) arg8 fullShare (k3_pay4 x0 x1 x2 x3 s8) ∗ owns (c : Thread nD τ) arg9 fullShare (k3_pay5 x0 x1 x2 x3 s9)) -∗ K ⟨⟩))
      ⊢ wp frame (wpE (defs₀ (F := F)) Variants.none c none) E (cc3__kernelA i arg1 harg1 arg2 harg2 arg3 harg3 arg4 harg4 arg5 harg5 arg6 harg6 arg7 harg7 arg8 harg8 arg9 harg9) K := by
  simp only [cc3__kernelA_eq_skeleton]; unfold cc3__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f8, %hf8, H8⟩, ⟨%f9, %hf9, H9⟩, Hk⟩
  subst hf0; subst hf1; subst hf2; subst hf3; subst hf5; subst hf6; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at the LAST point: the block `z` stored, each accumulator advanced, and the two statistics operands,
    whatever they held, overwritten with the advanced accumulators. -/
theorem run3_last (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond3_first i) (hc1 : cond3_last i)
    (x0 x1 : Vec F S5000x128 .f32) (x2 : Vec F S128x128 .f32) (x3 : Vec F S1x128 .f32) (s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k3_pay3 x0 x1 x2 x3) ∗ owns (c : Thread nD τ) arg6 fullShare (k3_pay4 x0 x1 x2 x3 s8) ∗ owns (c : Thread nD τ) arg7 fullShare (k3_pay5 x0 x1 x2 x3 s9)
            ∗ owns (c : Thread nD τ) arg8 fullShare (k3_pay4 x0 x1 x2 x3 s8) ∗ owns (c : Thread nD τ) arg9 fullShare (k3_pay5 x0 x1 x2 x3 s9)) -∗ K ⟨⟩))
      ⊢ wp frame (wpE (defs₀ (F := F)) Variants.none c none) E (cc3__kernelA i arg1 harg1 arg2 harg2 arg3 harg3 arg4 harg4 arg5 harg5 arg6 harg6 arg7 harg7 arg8 harg8 arg9 harg9) K := by
  simp only [cc3__kernelA_eq_skeleton]; unfold cc3__kernelA_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f8, %hf8, H8⟩, ⟨%f9, %hf9, H9⟩, Hk⟩
  subst hf0; subst hf1; subst hf2; subst hf3; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]
  · iexists _; isplitr
    swap; · iexact H5
    ipureintro
    close_whole
  isplitl [H6]
  · iexists _; isplitr
    swap; · iexact H6
    ipureintro
    close_whole
  isplitl [H8]
  · iexists _; isplitr
    swap; · iexact H8
    ipureintro
    close_whole
  iexists _; isplitr
  swap; · iexact H9
  ipureintro
  close_whole

end Cert.Kernel.Hand
end
-- ==== Proof.K.A3.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import proofs.«102976_j3633542332749_1_alg».proof.Proof.K.A3Run
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The region of custom_call 3: the linear layer `z = (h + agg)·W + b` by row blocks, with the column sums of
`z` and of `z²`

Stated at the contents `V` the region finds in the core's buffers. Windows 0–3 are the inputs (a row block of the
features, the matching row block of the aggregated neighbours, the weight matrix, the bias row: the last two fetched
once, their block index never moving); window 4 receives the row block of `z` at every point; windows 5 and 6
receive the two accumulated rows at the last point only and are idle before it. The two accumulators live in scratch
buffers of the call's own, carried from point to point by the invariant. -/

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves -/

/-- The row block of `z` at point `t`. -/
def zAt3 (c : Dev nD) (t : Fin cfg3.N) : Vec F S5000x128 .f32 :=
  k3_pay3 (iblk3 V c 0 t) (iblk3 V c 1 t) (iblk3 V c 2 t) (iblk3 V c 3 t)
/-- The column-sum accumulator after point `t`, from its contents `s` before: `s` plus the column sums of the block of `z`. -/
def sumStep3 (c : Dev nD) (t : Fin cfg3.N) (s : Vec F S1x128 .f32) : Vec F S1x128 .f32 :=
  k3_pay4 (iblk3 V c 0 t) (iblk3 V c 1 t) (iblk3 V c 2 t) (iblk3 V c 3 t) s
/-- The accumulator of squares after point `t`, from its contents `s` before: `s` plus the column sums of the block of `z²`. -/
def sqStep3 (c : Dev nD) (t : Fin cfg3.N) (s : Vec F S1x128 .f32) : Vec F S1x128 .f32 :=
  k3_pay5 (iblk3 V c 0 t) (iblk3 V c 1 t) (iblk3 V c 2 t) (iblk3 V c 3 t) s

/-- THE ACCUMULATION: the two accumulators (sums, sums of squares) after the body at position `n`, by recursion on
    the position: zeroed and advanced at the first, advanced from what the position before left at the others. -/
def accAt3 (c : Dev nD) : (n : ℕ) → n < cfg3.N → Vec F S1x128 .f32 × Vec F S1x128 .f32
  | 0, hn => (sumStep3 V c ⟨0, hn⟩ k3_pay1, sqStep3 V c ⟨0, hn⟩ k3_pay2)
  | n + 1, hn => (sumStep3 V c ⟨n + 1, hn⟩ (accAt3 c n (Nat.lt_of_succ_lt hn)).1, sqStep3 V c ⟨n + 1, hn⟩ (accAt3 c n (Nat.lt_of_succ_lt hn)).2)

theorem accAt3_zero (c : Dev nD) (t : Fin cfg3.N) (h : t.val = 0) :
    accAt3 V c t.val t.isLt = (sumStep3 V c t k3_pay1, sqStep3 V c t k3_pay2) := by
  obtain ⟨n, hn⟩ := t
  cases n with
  | zero => rfl
  | succ n => exact absurd h (Nat.succ_ne_zero n)

theorem accAt3_pos (c : Dev nD) (t : Fin cfg3.N) (h : t.val ≠ 0) :
    accAt3 V c t.val t.isLt = (sumStep3 V c t (accAt3 V c (t.val - 1) (Nat.lt_of_le_of_lt (Nat.sub_le _ _) t.isLt)).1,
      sqStep3 V c t (accAt3 V c (t.val - 1) (Nat.lt_of_le_of_lt (Nat.sub_le _ _) t.isLt)).2) := by
  obtain ⟨n, hn⟩ := t
  cases n with
  | zero => exact absurd rfl h
  | succ n => rfl

/-! ## The invariant: the two accumulators between points -/

/-- The call's two scratch operands, whole scoped buffers of its own. -/
abbrev scM3_0 : Memref sig .tc .vmem S1x128 .f32 := Memref.whole cc3_scratch0
abbrev scM3_1 : Memref sig .tc .vmem S1x128 .f32 := Memref.whole cc3_scratch1

/-- The region invariant before position `n`: before the first point every scoped buffer at anything and the generator
    register at some state; afterwards the two accumulators at what the point before left, the other scoped buffers at
    anything, the register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (accAt3 V c n hn).1 ∗ owns (c : Thread nD τ) scM3_1 fullShare (accAt3 V c n hn).2)
      ∗ Pipeline.scopedRestBut (Ix := Unit) (Name := ℕ) (U := UR sig nD τ) (Lvl := ℕ) (Val := Elt F) spec3 c [cc3_scratch0, cc3_scratch1]) ∗ ∃ r, prngReg c r)

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (accAt3 V c n hn).1 ∗ owns (c : Thread nD τ) scM3_1 fullShare (accAt3 V c n hn).2)
      ∗ Pipeline.scopedRestBut (Ix := Unit) (Name := ℕ) (U := UR sig nD τ) (Lvl := ℕ) (Val := Elt F) spec3 c [cc3_scratch0, cc3_scratch1]) ∗ ∃ r, prngReg c r) := rfl

theorem PhiS3_pos (c : Dev nD) (n : ℕ) (h : n ≤ cfg3.N) (hz : n ≠ 0) :
    PhiS3 V c n h = iprop(iprop(iprop(owns (c : Thread nD τ) scM3_0 fullShare (accAt3 V c (n - 1) (by omega)).1 ∗ owns (c : Thread nD τ) scM3_1 fullShare (accAt3 V c (n - 1) (by omega)).2)
      ∗ Pipeline.scopedRestBut (Ix := Unit) (Name := ℕ) (U := UR sig nD τ) (Lvl := ℕ) (Val := Elt F) spec3 c [cc3_scratch0, cc3_scratch1]) ∗ ∃ r, prngReg c r) := by
  cases n with
  | zero => exact absurd rfl hz
  | succ n => rfl

/-- The scoped rest with the two accumulators taken out, each at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ ∃ r, prngReg c r) := by
  unfold Pipeline.ΦA; rw [scopedRest3_split]; simp only [scM3_0, scM3_1, owns_whole]; try rfl

/-! ## The proof data -/

/-- The proof data of the call on core `c`: the arrays as the region finds them; after the body at point `t` each
    input's buffer at its block, window 4's at the block of `z`, windows 5 and 6 at the two accumulators after `t`
    (consulted at the last point only: before it the windows are idle); the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => zAt3 V c t
    | ⟨5, _⟩ => (accAt3 V c t.val t.isLt).1
    | ⟨6, _⟩ => (accAt3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = zAt3 V c t := by dsimp only [dat3]
theorem after3_5 (c : Dev nD) (t : Fin cfg3.N) : (dat3 V c).after 5 t = (accAt3 V c t.val t.isLt).1 := by dsimp only [dat3]
theorem after3_6 (c : Dev nD) (t : Fin cfg3.N) : (dat3 V c).after 6 t = (accAt3 V c t.val t.isLt).2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
/-- Before the last point window 5 is idle and not written back; at the last point it is live. -/
theorem idleAt3_5 : ∀ t : Fin cfg3.N, ¬cond3_last (grid3.coords t) → cfg3.idle 5 (grid3.coords t) = true := by decide +kernel
theorem noFlush3_5 : ∀ t : Fin cfg3.N, ¬cond3_last (grid3.coords t) → (cfg3.win 5).flush t = false := by decide +kernel
theorem liveAt3_5 : ∀ t : Fin cfg3.N, cond3_last (grid3.coords t) → cfg3.idle 5 (grid3.coords t) = false := by decide +kernel
/-- Before the last point window 6 is idle and not written back; at the last point it is live. -/
theorem idleAt3_6 : ∀ t : Fin cfg3.N, ¬cond3_last (grid3.coords t) → cfg3.idle 6 (grid3.coords t) = true := by decide +kernel
theorem noFlush3_6 : ∀ t : Fin cfg3.N, ¬cond3_last (grid3.coords t) → (cfg3.win 6).flush t = false := by decide +kernel
theorem liveAt3_6 : ∀ t : Fin cfg3.N, cond3_last (grid3.coords t) → cfg3.idle 6 (grid3.coords t) = false := by decide +kernel

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point: the inputs' buffers hold their blocks; the point is the first, a middle one or the last, and
    that case's run applies; the invariant hands the body the two accumulators at what the point before left (at
    anything at the first point) and takes them back advanced; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  unfold zAt3
  have hN : t.val < 10 := lt_of_lt_of_eq t.isLt (show cfg3.N = 10 from N_3)
  by_cases h0 : t.val = 0
  · have hcf : cond3_first (grid3.coords t) := (hcond3_first t).mpr h0
    have hcl : ¬cond3_last (grid3.coords t) := fun h => by have := (hcond3_last t).mp h; omega
    rw [Dat.leavesExact_idle (dat3 V c) 5 t (idleAt3_5 t hcl) (noFlush3_5 t hcl),
      Dat.leavesExact_idle (dat3 V c) 6 t (idleAt3_6 t hcl) (noFlush3_6 t hcl)]
    rw [PhiS3_castSucc V c t, PhiS3_zero V c _ _ h0, PhiA3_eq, accAt3_zero V c t h0]
    dsimp only; unfold sumStep3 sqStep3
    iintro ⟨⟨⟨⟨⟨%d8, HS0⟩, ⟨%d9, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run3_first c Set.univ (grid3.coords t) _ _ _ _ _ _ _ _ _ _ _ _ _ _ _ _ _ _ hcf hcl (iblk3 V c 0 t) (iblk3 V c 1 t) (iblk3 V c 2 t) (iblk3 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexists _; iexact HS0
    isplitl [HS1]; · iexists _; iexact HS1
    iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hcf : ¬cond3_first (grid3.coords t) := fun h => h0 ((hcond3_first t).mp h)
    rw [PhiS3_castSucc V c t, PhiS3_pos V c _ _ h0, accAt3_pos V c t h0]
    by_cases h9 : t.val = 9
    · have hcl : cond3_last (grid3.coords t) := (hcond3_last t).mpr h9
      rw [show (dat3 V c).leavesExact 5 t = owns (c : Thread nD τ) (st3_5 t) fullShare ((dat3 V c).after 5 t) from by
        unfold Dat.leavesExact; rw [liveAt3_5 t hcl], after3_5]
      rw [show (dat3 V c).leavesExact 6 t = owns (c : Thread nD τ) (st3_6 t) fullShare ((dat3 V c).after 6 t) from by
        unfold Dat.leavesExact; rw [liveAt3_6 t hcl], after3_6]
      rw [accAt3_pos V c t h0]
      dsimp only; unfold sumStep3 sqStep3
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run3_last c Set.univ (grid3.coords t) _ _ _ _ _ _ _ _ _ _ _ _ _ _ _ _ _ _ hcf hcl (iblk3 V c 0 t) (iblk3 V c 1 t) (iblk3 V c 2 t) (iblk3 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hcl : ¬cond3_last (grid3.coords t) := fun h => h9 ((hcond3_last t).mp h)
      rw [Dat.leavesExact_idle (dat3 V c) 5 t (idleAt3_5 t hcl) (noFlush3_5 t hcl),
        Dat.leavesExact_idle (dat3 V c) 6 t (idleAt3_6 t hcl) (noFlush3_6 t hcl)]
      dsimp only; unfold sumStep3 sqStep3
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run3_mid c Set.univ (grid3.coords t) _ _ _ _ _ _ _ _ _ _ _ _ _ _ _ _ _ _ hcf hcl (iblk3 V c 0 t) (iblk3 V c 1 t) (iblk3 V c 2 t) (iblk3 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- What the region is entered with (the generator register at some state, every scoped buffer at anything) is the
    invariant before the first point. -/
theorem Phi_first3 (c : Dev nD) :
    iprop((∃ r, prngReg c r) ∗ Pipeline.scopedRest (Ix := Unit) (Name := ℕ) (U := UR sig nD τ) (Lvl := ℕ) (Val := Elt F) spec3 c) ⊢ ((dat3 V c).Φ 0 : sProp 𝕄) := by
  rw [show (dat3 V c).Φ 0 = Pipeline.ΦA spec3 c from rfl]; unfold Pipeline.ΦA
  iintro ⟨Hp, Hr⟩
  isplitl [Hr]; · iexact Hr
  iexact Hp

/-- After any point but the first the invariant gives the scoped rest back: the accumulators' contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point, in the form the region's exit takes it. -/
theorem Phi_last3 (c : Dev nD) :
    ((dat3 V c).Φ (Fin.last cfg3.N) : sProp 𝕄) ⊢ iprop((∃ r, prngReg c r) ∗ Pipeline.scopedRest (Ix := Unit) (Name := ℕ) (U := UR sig nD τ) (Lvl := ℕ) (Val := Elt F) spec3 c) := by
  refine (Phi_out3 V c _ (by rw [Fin.val_last]; have : cfg3.N = 10 := N_3; omega)).trans ?_
  unfold Pipeline.ΦA
  iintro ⟨Hr, Hp⟩
  isplitl [Hp]; · iexact Hp
  iexact Hr

end Cert.Kernel.Hand
end
-- ==== Proof.K.B4.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«102976_j3633542332749_1_alg».proof.Proof.K.BLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the point is the grid's first. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- The second: the point is the grid's last. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-! ## The body's triple, in its three control cases

The body on whole staging memrefs: the five inputs at read contents, the z2 window at anything, the two scratch
accumulators; it leaves the inputs as they were, the z2 window at the block of z2 (the skeleton's `k4_pay4`), the
accumulators with this block's column sums added (`k4_pay5`, `k4_pay1`). At the first point the accumulators
are zeroed first (`k4_pay2`, `k4_pay3`); at the last the two sums' windows receive the accumulators; at the
other points those windows are not touched. -/

set_option maxHeartbeats 1000000 in
theorem kernelB4_first (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond4_0 i) (hc1 : ¬cond4_1 i)
    (x0 : Vec F S5000x128 .f32) (x1 x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k4_pay4 x0 x1 x2 x3 x4)
            ∗ owns (c : Thread nD τ) arg9 fullShare (k4_pay5 x0 x1 x2 x3 x4 k4_pay2)
            ∗ owns (c : Thread nD τ) arg10 fullShare (k4_pay1 (k4_pay4 x0 x1 x2 x3 x4) k4_pay3)) -∗ K ⟨⟩))
      ⊢ wp frame (wpE (defs₀ (F := F)) Variants.none c none) E (cc4__kernelB i arg1 harg1 arg2 harg2 arg3 harg3 arg4 harg4 arg5 harg5 arg6 harg6 arg7 harg7 arg8 harg8 arg9 harg9 arg10 harg10) K := by
  simp only [cc4__kernelB_eq_skeleton]; unfold cc4__kernelB_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread,
    View.ld_unit_zero (S := S5000x128) zeros2_B, View.ld_unit_zero (S := S1x128) zeros2_B, View.ld_unit_zero (S := S128x128) zeros2_B]

set_option maxHeartbeats 1000000 in
theorem kernelB4_mid (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond4_0 i) (hc1 : ¬cond4_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k4_pay4 x0 x1 x2 x3 x4)
            ∗ owns (c : Thread nD τ) arg9 fullShare (k4_pay5 x0 x1 x2 x3 x4 s0)
            ∗ owns (c : Thread nD τ) arg10 fullShare (k4_pay1 (k4_pay4 x0 x1 x2 x3 x4) s1)) -∗ K ⟨⟩))
      ⊢ wp frame (wpE (defs₀ (F := F)) Variants.none c none) E (cc4__kernelB i arg1 harg1 arg2 harg2 arg3 harg3 arg4 harg4 arg5 harg5 arg6 harg6 arg7 harg7 arg8 harg8 arg9 harg9 arg10 harg10) K := by
  simp only [cc4__kernelB_eq_skeleton]; unfold cc4__kernelB_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

set_option maxHeartbeats 1000000 in
theorem kernelB4_last (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond4_0 i) (hc1 : cond4_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k4_pay4 x0 x1 x2 x3 x4)
            ∗ owns (c : Thread nD τ) arg7 fullShare (k4_pay5 x0 x1 x2 x3 x4 s0)
            ∗ owns (c : Thread nD τ) arg8 fullShare (k4_pay1 (k4_pay4 x0 x1 x2 x3 x4) s1)
            ∗ owns (c : Thread nD τ) arg9 fullShare (k4_pay5 x0 x1 x2 x3 x4 s0)
            ∗ owns (c : Thread nD τ) arg10 fullShare (k4_pay1 (k4_pay4 x0 x1 x2 x3 x4) s1)) -∗ K ⟨⟩))
      ⊢ wp frame (wpE (defs₀ (F := F)) Variants.none c none) E (cc4__kernelB i arg1 harg1 arg2 harg2 arg3 harg3 arg4 harg4 arg5 harg5 arg6 harg6 arg7 harg7 arg8 harg8 arg9 harg9 arg10 harg10) K := by
  simp only [cc4__kernelB_eq_skeleton]; unfold cc4__kernelB_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H6]
  · iexists _; isplitr
    swap; · iexact H6
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H7]
  · iexists _; isplitr
    swap; · iexact H7
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## What the body computes, point by point -/

/-- The block of z2 = max(z1·scale + shift, 0)·W + b the body stores at point `t`. -/
def z2blk4 (c : Dev nD) (t : Fin cfg4.N) : Vec F S5000x128 .f32 :=
  k4_pay4 (iblk4 V c 0 t) (iblk4 V c 1 t) (iblk4 V c 2 t) (iblk4 V c 3 t) (iblk4 V c 4 t)

/-- The running column sums of z2 after point `n`: zero, then each point's block added in order. -/
def sum4 (c : Dev nD) : (n : ℕ) → n < cfg4.N → Vec F S1x128 .f32
  | 0, h => k4_pay5 (iblk4 V c 0 ⟨0, h⟩) (iblk4 V c 1 ⟨0, h⟩) (iblk4 V c 2 ⟨0, h⟩) (iblk4 V c 3 ⟨0, h⟩) (iblk4 V c 4 ⟨0, h⟩) k4_pay2
  | n + 1, h => k4_pay5 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩)
      (sum4 c n (Nat.lt_of_succ_lt h))

/-- The running column sums of z2² after point `n`. -/
def sumsq4 (c : Dev nD) : (n : ℕ) → n < cfg4.N → Vec F S1x128 .f32
  | 0, h => k4_pay1 (z2blk4 V c ⟨0, h⟩) k4_pay3
  | n + 1, h => k4_pay1 (z2blk4 V c ⟨n + 1, h⟩) (sumsq4 c n (Nat.lt_of_succ_lt h))

theorem sum4_first (c : Dev nD) (t : Fin cfg4.N) (h0 : t.val = 0) :
    sum4 V c t.val t.isLt = k4_pay5 (iblk4 V c 0 t) (iblk4 V c 1 t) (iblk4 V c 2 t) (iblk4 V c 3 t) (iblk4 V c 4 t) k4_pay2 := by
  obtain ⟨n, hn⟩ := t
  cases n with
  | zero => rfl
  | succ n => exact absurd h0 (Nat.succ_ne_zero n)

theorem sum4_next (c : Dev nD) (t : Fin cfg4.N) (h0 : t.val ≠ 0) :
    sum4 V c t.val t.isLt = k4_pay5 (iblk4 V c 0 t) (iblk4 V c 1 t) (iblk4 V c 2 t) (iblk4 V c 3 t) (iblk4 V c 4 t)
      (sum4 V c (t.val - 1) (Nat.lt_of_le_of_lt (Nat.sub_le _ _) t.isLt)) := by
  obtain ⟨n, hn⟩ := t
  cases n with
  | zero => exact absurd rfl h0
  | succ n => rfl

theorem sumsq4_first (c : Dev nD) (t : Fin cfg4.N) (h0 : t.val = 0) :
    sumsq4 V c t.val t.isLt = k4_pay1 (z2blk4 V c t) k4_pay3 := by
  obtain ⟨n, hn⟩ := t
  cases n with
  | zero => rfl
  | succ n => exact absurd h0 (Nat.succ_ne_zero n)

theorem sumsq4_next (c : Dev nD) (t : Fin cfg4.N) (h0 : t.val ≠ 0) :
    sumsq4 V c t.val t.isLt = k4_pay1 (z2blk4 V c t) (sumsq4 V c (t.val - 1) (Nat.lt_of_le_of_lt (Nat.sub_le _ _) t.isLt)) := by
  obtain ⟨n, hn⟩ := t
  cases n with
  | zero => exact absurd rfl h0
  | succ n => rfl

/-! ## The region invariant -/

/-- The two accumulators the kernel keeps in scratch between points, as memrefs. -/
abbrev sc4_0 : Memref sig .tc .vmem S1x128 .f32 := Memref.whole cc4_scratch0
abbrev sc4_1 : Memref sig .tc .vmem S1x128 .f32 := Memref.whole cc4_scratch1

/-- The class invariant with the two accumulators taken out of the scoped rest, each at some contents. -/
theorem PhiA4_eq (c : Dev nD) :
    (Pipeline.ΦA spec4 c : sProp 𝕄)
      = iprop(iprop(iprop((∃ d, owns (c : Thread nD τ) sc4_0 fullShare d) ∗ (∃ d, owns (c : Thread nD τ) sc4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [sc4_0, sc4_1, owns_whole]; try rfl

/-- The invariant before position `n`: before the first point the class's; afterwards the two accumulators at the
    running sums after the point before, the other scoped buffers at anything, the generator register at some state. -/
def Phi4 (c : Dev nD) : (n : ℕ) → n ≤ cfg4.N → sProp 𝕄
  | 0, _ => Pipeline.ΦA spec4 c
  | n + 1, hn => iprop(iprop(iprop(owns (c : Thread nD τ) sc4_0 fullShare (sum4 V c n hn) ∗ owns (c : Thread nD τ) sc4_1 fullShare (sumsq4 V c n hn))
          ∗ Pipeline.scopedRestBut (Ix := Unit) (Name := ℕ) (U := UR sig nD τ) (Lvl := ℕ) (Val := Elt F) spec4 c [cc4_scratch0, cc4_scratch1])
          ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(iprop(owns (c : Thread nD τ) sc4_0 fullShare (sum4 V c n hn) ∗ owns (c : Thread nD τ) sc4_1 fullShare (sumsq4 V c n hn))
          ∗ Pipeline.scopedRestBut (Ix := Unit) (Name := ℕ) (U := UR sig nD τ) (Lvl := ℕ) (Val := Elt F) spec4 c [cc4_scratch0, cc4_scratch1])
          ∗ (∃ r, prngReg c r)) := rfl

theorem Phi4_pos (c : Dev nD) (n : ℕ) (h : n ≤ cfg4.N) (hz : n ≠ 0) :
    Phi4 V c n h = iprop(iprop(iprop(owns (c : Thread nD τ) sc4_0 fullShare (sum4 V c (n - 1) (by omega)) ∗ owns (c : Thread nD τ) sc4_1 fullShare (sumsq4 V c (n - 1) (by omega)))
          ∗ Pipeline.scopedRestBut (Ix := Unit) (Name := ℕ) (U := UR sig nD τ) (Lvl := ℕ) (Val := Elt F) spec4 c [cc4_scratch0, cc4_scratch1])
          ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block, the z2 window at the point's block of z2, the two sums' windows at the running
    sums; the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => z2blk4 V c t
    | ⟨6, _⟩ => sum4 V c t.val t.isLt
    | ⟨7, _⟩ => sumsq4 V c t.val t.isLt
  Φ t := Phi4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = z2blk4 V c t := by dsimp only [dat4]
theorem after4_6 (c : Dev nD) (t : Fin cfg4.N) : (dat4 V c).after 6 t = sum4 V c t.val t.isLt := by dsimp only [dat4]
theorem after4_7 (c : Dev nD) (t : Fin cfg4.N) : (dat4 V c).after 7 t = sumsq4 V c t.val t.isLt := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- The invariant at a point's start, restated at `t.val`. -/
theorem Phi4_castSucc (c : Dev nD) (t : Fin cfg4.N) :
    (dat4 V c).Φ t.castSucc = Phi4 V c t.val (Nat.le_of_lt t.isLt) := by
  dsimp only [dat4]; simp only [Fin.coe_castSucc]

/-- and at its end. -/
theorem Phi4_fsucc (c : Dev nD) (t : Fin cfg4.N) :
    (dat4 V c).Φ t.succ = Phi4 V c (t.val + 1) t.isLt := by
  dsimp only [dat4]; simp only [Fin.val_succ]

/-! ## Where the sums' windows are idle -/

theorem live4_0 : ∀ t : Fin cfg4.N, cfg4.idle 0 (grid4.coords t) = false := fun _ => rfl
theorem live4_1 : ∀ t : Fin cfg4.N, cfg4.idle 1 (grid4.coords t) = false := fun _ => rfl
theorem live4_2 : ∀ t : Fin cfg4.N, cfg4.idle 2 (grid4.coords t) = false := fun _ => rfl
theorem live4_3 : ∀ t : Fin cfg4.N, cfg4.idle 3 (grid4.coords t) = false := fun _ => rfl
theorem live4_4 : ∀ t : Fin cfg4.N, cfg4.idle 4 (grid4.coords t) = false := fun _ => rfl
theorem live4_5 : ∀ t : Fin cfg4.N, cfg4.idle 5 (grid4.coords t) = false := fun _ => rfl
theorem idle4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem live4_6 : ∀ t : Fin cfg4.N, cond4_1 (grid4.coords t) → cfg4.idle 6 (grid4.coords t) = false := by decide +kernel
theorem idle4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem live4_7 : ∀ t : Fin cfg4.N, cond4_1 (grid4.coords t) → cfg4.idle 7 (grid4.coords t) = false := by decide +kernel

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4000000 in
/-- The body at any point: the inputs' memrefs hold their blocks; the point is the first, the last or neither; the
    invariant hands the body the two accumulators (at anything at the first point, at the running sums after the point
    before otherwise) and takes them back at this point's running sums; the sums' windows are left untouched except at
    the last point, where they receive the accumulators; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [Phi4_fsucc, Phi4_succ, Phi4_castSucc]
  rw [show (dat4 V c).leavesExact 0 t = owns (c : Thread nD τ) (st4_0 t) fullShare ((dat4 V c).after 0 t) from by
    unfold Dat.leavesExact; rw [live4_0 t], after4_0]
  rw [show (dat4 V c).leavesExact 1 t = owns (c : Thread nD τ) (st4_1 t) fullShare ((dat4 V c).after 1 t) from by
    unfold Dat.leavesExact; rw [live4_1 t], after4_1]
  rw [show (dat4 V c).leavesExact 2 t = owns (c : Thread nD τ) (st4_2 t) fullShare ((dat4 V c).after 2 t) from by
    unfold Dat.leavesExact; rw [live4_2 t], after4_2]
  rw [show (dat4 V c).leavesExact 3 t = owns (c : Thread nD τ) (st4_3 t) fullShare ((dat4 V c).after 3 t) from by
    unfold Dat.leavesExact; rw [live4_3 t], after4_3]
  rw [show (dat4 V c).leavesExact 4 t = owns (c : Thread nD τ) (st4_4 t) fullShare ((dat4 V c).after 4 t) from by
    unfold Dat.leavesExact; rw [live4_4 t], after4_4]
  rw [show (dat4 V c).leavesExact 5 t = owns (c : Thread nD τ) (st4_5 t) fullShare ((dat4 V c).after 5 t) from by
    unfold Dat.leavesExact; rw [live4_5 t], after4_5]
  have hN : t.val < 10 := lt_of_lt_of_eq t.isLt (show cfg4.N = 10 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 6 t (idle4_6 t hc1) (noFlush4_6 t hc1),
      Dat.leavesExact_idle (dat4 V c) 7 t (idle4_7 t hc1) (noFlush4_7 t hc1)]
    rw [Phi4_zero V c _ _ h0, PhiA4_eq, sum4_first V c t h0, sumsq4_first V c t h0]
    unfold z2blk4
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
    iapply (kernelB4_first c Set.univ (grid4.coords t) _ _ _ _ _ _ _ _ _ _ _ _ _ _ _ _ _ _ _ _ hc0 hc1 (iblk4 V c 0 t) (iblk4 V c 1 t) (iblk4 V c 2 t) (iblk4 V c 3 t) (iblk4 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h9 : t.val = 9
    · have hc0 : ¬cond4_0 (grid4.coords t) := fun h => h0 ((hcond4_0 t).mp h)
      have hc1 : cond4_1 (grid4.coords t) := (hcond4_1 t).mpr h9
      rw [show (dat4 V c).leavesExact 6 t = owns (c : Thread nD τ) (st4_6 t) fullShare ((dat4 V c).after 6 t) from by
        unfold Dat.leavesExact; rw [live4_6 t hc1], after4_6]
      rw [show (dat4 V c).leavesExact 7 t = owns (c : Thread nD τ) (st4_7 t) fullShare ((dat4 V c).after 7 t) from by
        unfold Dat.leavesExact; rw [live4_7 t hc1], after4_7]
      rw [Phi4_pos V c _ _ h0, sum4_next V c t h0, sumsq4_next V c t h0]
      unfold z2blk4
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelB4_last c Set.univ (grid4.coords t) _ _ _ _ _ _ _ _ _ _ _ _ _ _ _ _ _ _ _ _ hc0 hc1 (iblk4 V c 0 t) (iblk4 V c 1 t) (iblk4 V c 2 t) (iblk4 V c 3 t) (iblk4 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc0 : ¬cond4_0 (grid4.coords t) := fun h => h0 ((hcond4_0 t).mp h)
      have hc1 : ¬cond4_1 (grid4.coords t) := fun h => h9 ((hcond4_1 t).mp h)
      rw [Dat.leavesExact_idle (dat4 V c) 6 t (idle4_6 t hc1) (noFlush4_6 t hc1),
        Dat.leavesExact_idle (dat4 V c) 7 t (idle4_7 t hc1) (noFlush4_7 t hc1)]
      rw [Phi4_pos V c _ _ h0, sum4_next V c t h0, sumsq4_next V c t h0]
      unfold z2blk4
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
      iapply (kernelB4_mid c Set.univ (grid4.coords t) _ _ _ _ _ _ _ _ _ _ _ _ _ _ _ _ _ _ _ _ hc0 hc1 (iblk4 V c 0 t) (iblk4 V c 1 t) (iblk4 V c 2 t) (iblk4 V c 3 t) (iblk4 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- What the launch hands the region is the invariant before the first point. -/
theorem Phi_first4 (c : Dev nD) : iprop((∃ r, prngReg c r) ∗ Pipeline.scopedRest spec4 c) ⊢ ((dat4 V c).Φ 0 : sProp 𝕄) := by
  rw [show (dat4 V c).Φ 0 = Phi4 V c 0 (Nat.zero_le _) from rfl, Phi4_zero V c 0 _ rfl]; unfold Pipeline.ΦA
  iintro ⟨Hp, Hr⟩
  isplitl [Hr]; · iexact Hr
  iexact Hp

/-- After the last point the invariant gives the scoped rest back: the accumulators' named contents are forgotten. -/
theorem Phi_last4 (c : Dev nD) : ((dat4 V c).Φ (Fin.last cfg4.N) : sProp 𝕄) ⊢ iprop((∃ r, prngReg c r) ∗ Pipeline.scopedRest spec4 c) := by
  have e : (iprop((∃ r, prngReg c r) ∗ Pipeline.scopedRest spec4 c) : sProp 𝕄) = iprop((∃ r, prngReg c r) ∗ iprop(iprop((∃ d, owns (c : Thread nD τ) sc4_0 fullShare d) ∗ (∃ d, owns (c : Thread nD τ) sc4_1 fullShare d))
          ∗ Pipeline.scopedRestBut (Ix := Unit) (Name := ℕ) (U := UR sig nD τ) (Lvl := ℕ) (Val := Elt F) spec4 c [cc4_scratch0, cc4_scratch1])) := by
    rw [scopedRest4_split]; simp only [sc4_0, sc4_1, owns_whole]; try rfl
  rw [e, show (dat4 V c).Φ (Fin.last cfg4.N) = Phi4 V c (Fin.last cfg4.N).val (Nat.le_of_lt_succ (Fin.last cfg4.N).isLt) from rfl,
    Phi4_pos V c _ _ (by rw [Fin.val_last]; have : cfg4.N = 10 := N_4; omega)]
  iintro ⟨⟨⟨HS0, HS1⟩, Hrest⟩, Hg⟩
  isplitl [Hg]; · iexact Hg
  isplitl [HS0 HS1]
  · isplitl [HS0]
    · iexists _; iexact HS0
    iexists _; iexact HS1
  iexact Hrest

end Cert.Kernel.Hand

end
-- ==== Proof.K.C5.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

/-! # The normalise-and-rectify call number 5: one row block per grid point

The call maps a block `z` of 5000 rows by 128 features, a row of 128 scales `s` and a row of 128 shifts `b` to
`max (z * s + b) 0`, entry by entry, the two rows repeated down the block. Its grid has ten points; point `t` reads rows
`5000 t … 5000 t + 4999` of the array and writes the same rows of the result; the two rows are the same block at every
point. This file states, for arbitrary contents `V` of the buffers when the call is entered, what each window's
staging buffer holds before and after the body at every point, and proves that the body run on those buffers returns
them so. -/

-- membership in a rectangle with an axis of 5000 rows: the elaborator's structural look recurses once per coordinate of
-- the long axis (5000 deep, never once per entry)
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: everything below is stated at this parameter
variable (V : (c : Dev nD) → (b : Ref sig .tc) → Buf (Elt F) ((c : Thread nD τ).loc b))

/-! ## The windows' blocks -/

/-- Window `w`'s block at point `t`, read off its array as the call finds it (`V`): for window 0 the rows
    `5000 t …` of the pre-activation, for windows 1 and 2 the whole row of scales and of shifts. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row-block window's current staging buffer holds its block at every point, for any proof data whose array is
    `V`'s (`hA`) and whose body leaves the block in place (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The scale row's staging buffer holds the row at every point: fetched at the first point, and at a later point the
    block index has not moved, so what the body left is still that row. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The shift row's staging buffer holds the row at every point, for the same reason. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 5000 by 128 block, as the rectangle the body loads and stores. -/
abbrev r5_blk : Rect S5000x128 := Rect.unit (s := S5000x128) ![0, 0] S5000x128.size inb_S5000x128_S5000x128_0_0
/-- The whole 1 by 128 row, as the rectangle the body loads. -/
abbrev r5_row : Rect S1x128 := Rect.unit (s := S1x128) ![0, 0] S1x128.size inb_S1x128_S1x128_0_0

/-! ## What the body leaves in the output window's buffer -/

/-- The output block after the body, from the three input blocks: one store of the whole block, whose value is
    `max (z * s + b) 0` of the block, the scale row and the shift row (`k5_pay1`). -/
def out5_3 (x0 : Vec F S5000x128 .f32) (x1 : Vec F S1x128 .f32) (x2 : Vec F S1x128 .f32) : Vec F S5000x128 .f32 :=
  View.canon [⟨r5_blk, k5_pay1 (View.ld x0 r5_blk) (View.ld x1 r5_row) (View.ld x2 r5_row)⟩]

/-- The one store is the whole block, so it covers it. -/
theorem cover5_3 (p0 : Vec F S5000x128 .f32) (y : S5000x128.Idx) :
    ∃ pc ∈ ([⟨r5_blk, p0⟩] : List (View.Piece (Elt F) S5000x128 .f32)), y ∈ pc.1.set :=
  View.cover_of_tiled [⟨r5_blk, p0⟩] S5000x128.size (by rfl) y

/-! ## The body's triple -/

set_option maxHeartbeats 1000000 in
/-- The body on whole staging memrefs, the three inputs' at contents `x0`, `x1`, `x2` and the output's at anything,
    runs to the continuation holding the inputs' as they were and the output's at `out5_3 x0 x1 x2`. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__kernelC i arg1 harg1 arg2 harg2 arg3 harg3 arg4 harg4) K := by
  simp only [cc5__kernelC_eq_skeleton]; unfold cc5__kernelC_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The call's proof data -/

/-- The proof data of call 5 on core `c`: the arrays as the call finds them (`V`); after the body at point `t` each
    input's buffer still at its block and the output's at `out5_3` of the three input blocks; the invariant is the
    untouched rest; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_w`), so `sound_kernel5` applies; the
    invariant and the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the launch theorems, at every point. -/
theorem body_obligation5 (c : Dev nD) : BodyObligation (dat5 (F := F) V c) (defs₀ (F := F)) Variants.none () Set.univ := fun t => by
  rw [bigSep_W5, bigSep_W5]
  exact sound_body5 V c t

/-! ## The invariant at the first and at the last point -/

/-- The invariant at the first point is made of the generator register and the scoped buffers no window stages, -/
theorem Phi_first5 (c : Dev nD) :
    iprop((∃ r, prngReg c r) ∗ Pipeline.scopedRest (Ix := Unit) (Name := ℕ) (U := UR sig nD τ) (Lvl := ℕ) (Val := Elt F) spec5 c)
      ⊢ ((dat5 V c).Φ 0 : sProp 𝕄) := by
  rw [show (dat5 V c).Φ 0 = Pipeline.ΦA spec5 c from rfl]; unfold Pipeline.ΦA
  iintro ⟨Hp, Hr⟩
  isplitl [Hr]; · iexact Hr
  iexact Hp

/-- and at the last point it gives both back. -/
theorem Phi_last5 (c : Dev nD) :
    ((dat5 V c).Φ (Fin.last cfg5.N) : sProp 𝕄)
      ⊢ iprop((∃ r, prngReg c r) ∗ Pipeline.scopedRest (Ix := Unit) (Name := ℕ) (U := UR sig nD τ) (Lvl := ℕ) (Val := Elt F) spec5 c) := by
  rw [show (dat5 V c).Φ (Fin.last _) = Pipeline.ΦA spec5 c from rfl]; unfold Pipeline.ΦA
  iintro ⟨Hr, Hp⟩
  isplitl [Hp]; · iexact Hp
  iexact Hr

end Cert.Kernel.Hand
-- ==== Proof.K.A6Run.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import proofs.«102976_j3633542332749_1_alg».proof.Proof.K.ALib
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of custom_call 6: one row block of the linear layer, with running column sums

At grid point `i` the body reads a block `x0` of the features, the matching block `x1` of the aggregated
neighbours, the weight matrix `x2` and the bias row `x3`, stores the block `z = (x0 + x1)·x2 + x3` into the
fifth operand, and adds the column sums of `z` and of `z²` to two accumulator rows (the last two operands), which
it first zeroes at the first point; at the last point it copies the two accumulators into the sixth and seventh
operands. Three control cases over the grid: first, middle, last. -/

/-- The first `pl.when`: the grid coordinate is 0 (the accumulators are zeroed). -/
abbrev cond6_first (i : grid6.Coords) : Prop := (Scalar.cmpi .ne (Scalar.extui (Scalar.cmpi .eq (BitVec.ofNat 32 (i 0).val) 0#32)) 0#32) = 1#1
/-- It holds at point 0 only. -/
theorem hcond6_first : ∀ t : Fin cfg6.N, cond6_first (grid6.coords t) ↔ t.val = 0 :=
  (by decide +kernel : ∀ t : Fin grid6.N, cond6_first (grid6.coords t) ↔ t.val = 0)
/-- The second `pl.when`: the grid coordinate is the last (the accumulators are copied out). -/
abbrev cond6_last (i : grid6.Coords) : Prop := k6_cond2 i = 1#1
/-- It holds at point 9 only. -/
theorem hcond6_last : ∀ t : Fin cfg6.N, cond6_last (grid6.coords t) ↔ t.val = 9 :=
  (by decide +kernel : ∀ t : Fin grid6.N, cond6_last (grid6.coords t) ↔ t.val = 9)

/-- A buffer's contents after a last whole-buffer store are that store's payload, a load after such a store reads
    the payload back, and a whole-buffer load reads the contents. -/
local macro "close_whole" : tactic => `(tactic| (
  (try sl_unfold_run_names)
  rw [read_writes_whole_last_A _ _ hz_A]
  (try rw [View.readCov_unit_zero _ hz_A])
  (try simp only [readAt_whole_A (S := S5000x128) _ _ hz_A, readAt_whole_A (S := S128x128) _ _ hz_A, readAt_whole_A (S := S1x128) _ _ hz_A])))

set_option maxHeartbeats 1000000 in
/-- The body at the FIRST point: the accumulators, whatever they held, are zeroed and then advanced by the block's
    column sums; the block `z` stored; the two statistics operands untouched. -/
theorem run6_first (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond6_first i) (hc1 : ¬cond6_last i)
    (x0 x1 : Vec F S5000x128 .f32) (x2 : Vec F S128x128 .f32) (x3 : Vec F S1x128 .f32) (y5 y6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k6_pay3 x0 x1 x2 x3) ∗ owns (c : Thread nD τ) arg6 fullShare y5 ∗ owns (c : Thread nD τ) arg7 fullShare y6
            ∗ owns (c : Thread nD τ) arg8 fullShare (k6_pay4 x0 x1 x2 x3 k6_pay1) ∗ owns (c : Thread nD τ) arg9 fullShare (k6_pay5 x0 x1 x2 x3 k6_pay2)) -∗ K ⟨⟩))
      ⊢ wp frame (wpE (defs₀ (F := F)) Variants.none c none) E (cc6__kernelA i arg1 harg1 arg2 harg2 arg3 harg3 arg4 harg4 arg5 harg5 arg6 harg6 arg7 harg7 arg8 harg8 arg9 harg9) K := by
  simp only [cc6__kernelA_eq_skeleton]; unfold cc6__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d8, %f8, -, H8⟩, ⟨%d9, %f9, -, H9⟩, Hk⟩
  subst hf0; subst hf1; subst hf2; subst hf3; subst hf5; subst hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at a MIDDLE point: the block `z` stored, each accumulator advanced by the block's column sums; the two
    statistics operands untouched. -/
theorem run6_mid (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond6_first i) (hc1 : ¬cond6_last i)
    (x0 x1 : Vec F S5000x128 .f32) (x2 : Vec F S128x128 .f32) (x3 : Vec F S1x128 .f32) (y5 y6 s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k6_pay3 x0 x1 x2 x3) ∗ owns (c : Thread nD τ) arg6 fullShare y5 ∗ owns (c : Thread nD τ) arg7 fullShare y6
            ∗ owns (c : Thread nD τ) arg8 fullShare (k6_pay4 x0 x1 x2 x3 s8) ∗ owns (c : Thread nD τ) arg9 fullShare (k6_pay5 x0 x1 x2 x3 s9)) -∗ K ⟨⟩))
      ⊢ wp frame (wpE (defs₀ (F := F)) Variants.none c none) E (cc6__kernelA i arg1 harg1 arg2 harg2 arg3 harg3 arg4 harg4 arg5 harg5 arg6 harg6 arg7 harg7 arg8 harg8 arg9 harg9) K := by
  simp only [cc6__kernelA_eq_skeleton]; unfold cc6__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f8, %hf8, H8⟩, ⟨%f9, %hf9, H9⟩, Hk⟩
  subst hf0; subst hf1; subst hf2; subst hf3; subst hf5; subst hf6; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at the LAST point: the block `z` stored, each accumulator advanced, and the two statistics operands,
    whatever they held, overwritten with the advanced accumulators. -/
theorem run6_last (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond6_first i) (hc1 : cond6_last i)
    (x0 x1 : Vec F S5000x128 .f32) (x2 : Vec F S128x128 .f32) (x3 : Vec F S1x128 .f32) (s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k6_pay3 x0 x1 x2 x3) ∗ owns (c : Thread nD τ) arg6 fullShare (k6_pay4 x0 x1 x2 x3 s8) ∗ owns (c : Thread nD τ) arg7 fullShare (k6_pay5 x0 x1 x2 x3 s9)
            ∗ owns (c : Thread nD τ) arg8 fullShare (k6_pay4 x0 x1 x2 x3 s8) ∗ owns (c : Thread nD τ) arg9 fullShare (k6_pay5 x0 x1 x2 x3 s9)) -∗ K ⟨⟩))
      ⊢ wp frame (wpE (defs₀ (F := F)) Variants.none c none) E (cc6__kernelA i arg1 harg1 arg2 harg2 arg3 harg3 arg4 harg4 arg5 harg5 arg6 harg6 arg7 harg7 arg8 harg8 arg9 harg9) K := by
  simp only [cc6__kernelA_eq_skeleton]; unfold cc6__kernelA_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f8, %hf8, H8⟩, ⟨%f9, %hf9, H9⟩, Hk⟩
  subst hf0; subst hf1; subst hf2; subst hf3; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]
  · iexists _; isplitr
    swap; · iexact H5
    ipureintro
    close_whole
  isplitl [H6]
  · iexists _; isplitr
    swap; · iexact H6
    ipureintro
    close_whole
  isplitl [H8]
  · iexists _; isplitr
    swap; · iexact H8
    ipureintro
    close_whole
  iexists _; isplitr
  swap; · iexact H9
  ipureintro
  close_whole

end Cert.Kernel.Hand
end
-- ==== Proof.K.A6.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import proofs.«102976_j3633542332749_1_alg».proof.Proof.K.A6Run
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The region of custom_call 6: the linear layer `z = (h + agg)·W + b` by row blocks, with the column sums of
`z` and of `z²`

Stated at the contents `V` the region finds in the core's buffers. Windows 0–3 are the inputs (a row block of the
features, the matching row block of the aggregated neighbours, the weight matrix, the bias row: the last two fetched
once, their block index never moving); window 4 receives the row block of `z` at every point; windows 5 and 6
receive the two accumulated rows at the last point only and are idle before it. The two accumulators live in scratch
buffers of the call's own, carried from point to point by the invariant. -/

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not (unfetched, the
    block index has not moved), for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## What the body leaves -/

/-- The row block of `z` at point `t`. -/
def zAt6 (c : Dev nD) (t : Fin cfg6.N) : Vec F S5000x128 .f32 :=
  k6_pay3 (iblk6 V c 0 t) (iblk6 V c 1 t) (iblk6 V c 2 t) (iblk6 V c 3 t)
/-- The column-sum accumulator after point `t`, from its contents `s` before: `s` plus the column sums of the block of `z`. -/
def sumStep6 (c : Dev nD) (t : Fin cfg6.N) (s : Vec F S1x128 .f32) : Vec F S1x128 .f32 :=
  k6_pay4 (iblk6 V c 0 t) (iblk6 V c 1 t) (iblk6 V c 2 t) (iblk6 V c 3 t) s
/-- The accumulator of squares after point `t`, from its contents `s` before: `s` plus the column sums of the block of `z²`. -/
def sqStep6 (c : Dev nD) (t : Fin cfg6.N) (s : Vec F S1x128 .f32) : Vec F S1x128 .f32 :=
  k6_pay5 (iblk6 V c 0 t) (iblk6 V c 1 t) (iblk6 V c 2 t) (iblk6 V c 3 t) s

/-- THE ACCUMULATION: the two accumulators (sums, sums of squares) after the body at position `n`, by recursion on
    the position: zeroed and advanced at the first, advanced from what the position before left at the others. -/
def accAt6 (c : Dev nD) : (n : ℕ) → n < cfg6.N → Vec F S1x128 .f32 × Vec F S1x128 .f32
  | 0, hn => (sumStep6 V c ⟨0, hn⟩ k6_pay1, sqStep6 V c ⟨0, hn⟩ k6_pay2)
  | n + 1, hn => (sumStep6 V c ⟨n + 1, hn⟩ (accAt6 c n (Nat.lt_of_succ_lt hn)).1, sqStep6 V c ⟨n + 1, hn⟩ (accAt6 c n (Nat.lt_of_succ_lt hn)).2)

theorem accAt6_zero (c : Dev nD) (t : Fin cfg6.N) (h : t.val = 0) :
    accAt6 V c t.val t.isLt = (sumStep6 V c t k6_pay1, sqStep6 V c t k6_pay2) := by
  obtain ⟨n, hn⟩ := t
  cases n with
  | zero => rfl
  | succ n => exact absurd h (Nat.succ_ne_zero n)

theorem accAt6_pos (c : Dev nD) (t : Fin cfg6.N) (h : t.val ≠ 0) :
    accAt6 V c t.val t.isLt = (sumStep6 V c t (accAt6 V c (t.val - 1) (Nat.lt_of_le_of_lt (Nat.sub_le _ _) t.isLt)).1,
      sqStep6 V c t (accAt6 V c (t.val - 1) (Nat.lt_of_le_of_lt (Nat.sub_le _ _) t.isLt)).2) := by
  obtain ⟨n, hn⟩ := t
  cases n with
  | zero => exact absurd rfl h
  | succ n => rfl

/-! ## The invariant: the two accumulators between points -/

/-- The call's two scratch operands, whole scoped buffers of its own. -/
abbrev scM6_0 : Memref sig .tc .vmem S1x128 .f32 := Memref.whole cc6_scratch0
abbrev scM6_1 : Memref sig .tc .vmem S1x128 .f32 := Memref.whole cc6_scratch1

/-- The region invariant before position `n`: before the first point every scoped buffer at anything and the generator
    register at some state; afterwards the two accumulators at what the point before left, the other scoped buffers at
    anything, the register at some state. -/
def PhiS6 (c : Dev nD) : (n : ℕ) → n ≤ cfg6.N → sProp 𝕄
  | 0, _ => Pipeline.ΦA spec6 c
  | n + 1, hn => iprop(iprop(iprop(owns (c : Thread nD τ) scM6_0 fullShare (accAt6 V c n hn).1 ∗ owns (c : Thread nD τ) scM6_1 fullShare (accAt6 V c n hn).2)
      ∗ Pipeline.scopedRestBut (Ix := Unit) (Name := ℕ) (U := UR sig nD τ) (Lvl := ℕ) (Val := Elt F) spec6 c [cc6_scratch0, cc6_scratch1]) ∗ ∃ r, prngReg c r)

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (accAt6 V c n hn).1 ∗ owns (c : Thread nD τ) scM6_1 fullShare (accAt6 V c n hn).2)
      ∗ Pipeline.scopedRestBut (Ix := Unit) (Name := ℕ) (U := UR sig nD τ) (Lvl := ℕ) (Val := Elt F) spec6 c [cc6_scratch0, cc6_scratch1]) ∗ ∃ r, prngReg c r) := rfl

theorem PhiS6_pos (c : Dev nD) (n : ℕ) (h : n ≤ cfg6.N) (hz : n ≠ 0) :
    PhiS6 V c n h = iprop(iprop(iprop(owns (c : Thread nD τ) scM6_0 fullShare (accAt6 V c (n - 1) (by omega)).1 ∗ owns (c : Thread nD τ) scM6_1 fullShare (accAt6 V c (n - 1) (by omega)).2)
      ∗ Pipeline.scopedRestBut (Ix := Unit) (Name := ℕ) (U := UR sig nD τ) (Lvl := ℕ) (Val := Elt F) spec6 c [cc6_scratch0, cc6_scratch1]) ∗ ∃ r, prngReg c r) := by
  cases n with
  | zero => exact absurd rfl hz
  | succ n => rfl

/-- The scoped rest with the two accumulators taken out, each at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ ∃ r, prngReg c r) := by
  unfold Pipeline.ΦA; rw [scopedRest6_split]; simp only [scM6_0, scM6_1, owns_whole]; try rfl

/-! ## The proof data -/

/-- The proof data of the call on core `c`: the arrays as the region finds them; after the body at point `t` each
    input's buffer at its block, window 4's at the block of `z`, windows 5 and 6 at the two accumulators after `t`
    (consulted at the last point only: before it the windows are idle); the invariant above; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => zAt6 V c t
    | ⟨5, _⟩ => (accAt6 V c t.val t.isLt).1
    | ⟨6, _⟩ => (accAt6 V c t.val t.isLt).2
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = zAt6 V c t := by dsimp only [dat6]
theorem after6_5 (c : Dev nD) (t : Fin cfg6.N) : (dat6 V c).after 5 t = (accAt6 V c t.val t.isLt).1 := by dsimp only [dat6]
theorem after6_6 (c : Dev nD) (t : Fin cfg6.N) : (dat6 V c).after 6 t = (accAt6 V c t.val t.isLt).2 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## Where the windows are idle -/

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl
theorem liveAt6_4 : ∀ t : Fin cfg6.N, cfg6.idle 4 (grid6.coords t) = false := fun _ => rfl
/-- Before the last point window 5 is idle and not written back; at the last point it is live. -/
theorem idleAt6_5 : ∀ t : Fin cfg6.N, ¬cond6_last (grid6.coords t) → cfg6.idle 5 (grid6.coords t) = true := by decide +kernel
theorem noFlush6_5 : ∀ t : Fin cfg6.N, ¬cond6_last (grid6.coords t) → (cfg6.win 5).flush t = false := by decide +kernel
theorem liveAt6_5 : ∀ t : Fin cfg6.N, cond6_last (grid6.coords t) → cfg6.idle 5 (grid6.coords t) = false := by decide +kernel
/-- Before the last point window 6 is idle and not written back; at the last point it is live. -/
theorem idleAt6_6 : ∀ t : Fin cfg6.N, ¬cond6_last (grid6.coords t) → cfg6.idle 6 (grid6.coords t) = true := by decide +kernel
theorem noFlush6_6 : ∀ t : Fin cfg6.N, ¬cond6_last (grid6.coords t) → (cfg6.win 6).flush t = false := by decide +kernel
theorem liveAt6_6 : ∀ t : Fin cfg6.N, cond6_last (grid6.coords t) → cfg6.idle 6 (grid6.coords t) = false := by decide +kernel

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

set_option maxHeartbeats 4800000 in
/-- The body at any point: the inputs' buffers hold their blocks; the point is the first, a middle one or the last, and
    that case's run applies; the invariant hands the body the two accumulators at what the point before left (at
    anything at the first point) and takes them back advanced; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  rw [show (dat6 V c).leavesExact 3 t = owns (c : Thread nD τ) (st6_3 t) fullShare ((dat6 V c).after 3 t) from by
    unfold Dat.leavesExact; rw [liveAt6_3 t], after6_3]
  rw [show (dat6 V c).leavesExact 4 t = owns (c : Thread nD τ) (st6_4 t) fullShare ((dat6 V c).after 4 t) from by
    unfold Dat.leavesExact; rw [liveAt6_4 t], after6_4]
  unfold zAt6
  have hN : t.val < 10 := lt_of_lt_of_eq t.isLt (show cfg6.N = 10 from N_6)
  by_cases h0 : t.val = 0
  · have hcf : cond6_first (grid6.coords t) := (hcond6_first t).mpr h0
    have hcl : ¬cond6_last (grid6.coords t) := fun h => by have := (hcond6_last t).mp h; omega
    rw [Dat.leavesExact_idle (dat6 V c) 5 t (idleAt6_5 t hcl) (noFlush6_5 t hcl),
      Dat.leavesExact_idle (dat6 V c) 6 t (idleAt6_6 t hcl) (noFlush6_6 t hcl)]
    rw [PhiS6_castSucc V c t, PhiS6_zero V c _ _ h0, PhiA6_eq, accAt6_zero V c t h0]
    dsimp only; unfold sumStep6 sqStep6
    iintro ⟨⟨⟨⟨⟨%d8, HS0⟩, ⟨%d9, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run6_first c Set.univ (grid6.coords t) _ _ _ _ _ _ _ _ _ _ _ _ _ _ _ _ _ _ hcf hcl (iblk6 V c 0 t) (iblk6 V c 1 t) (iblk6 V c 2 t) (iblk6 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexists _; iexact HS0
    isplitl [HS1]; · iexists _; iexact HS1
    iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hcf : ¬cond6_first (grid6.coords t) := fun h => h0 ((hcond6_first t).mp h)
    rw [PhiS6_castSucc V c t, PhiS6_pos V c _ _ h0, accAt6_pos V c t h0]
    by_cases h9 : t.val = 9
    · have hcl : cond6_last (grid6.coords t) := (hcond6_last t).mpr h9
      rw [show (dat6 V c).leavesExact 5 t = owns (c : Thread nD τ) (st6_5 t) fullShare ((dat6 V c).after 5 t) from by
        unfold Dat.leavesExact; rw [liveAt6_5 t hcl], after6_5]
      rw [show (dat6 V c).leavesExact 6 t = owns (c : Thread nD τ) (st6_6 t) fullShare ((dat6 V c).after 6 t) from by
        unfold Dat.leavesExact; rw [liveAt6_6 t hcl], after6_6]
      rw [accAt6_pos V c t h0]
      dsimp only; unfold sumStep6 sqStep6
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run6_last c Set.univ (grid6.coords t) _ _ _ _ _ _ _ _ _ _ _ _ _ _ _ _ _ _ hcf hcl (iblk6 V c 0 t) (iblk6 V c 1 t) (iblk6 V c 2 t) (iblk6 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hcl : ¬cond6_last (grid6.coords t) := fun h => h9 ((hcond6_last t).mp h)
      rw [Dat.leavesExact_idle (dat6 V c) 5 t (idleAt6_5 t hcl) (noFlush6_5 t hcl),
        Dat.leavesExact_idle (dat6 V c) 6 t (idleAt6_6 t hcl) (noFlush6_6 t hcl)]
      dsimp only; unfold sumStep6 sqStep6
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run6_mid c Set.univ (grid6.coords t) _ _ _ _ _ _ _ _ _ _ _ _ _ _ _ _ _ _ hcf hcl (iblk6 V c 0 t) (iblk6 V c 1 t) (iblk6 V c 2 t) (iblk6 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's two ends -/

/-- What the region is entered with (the generator register at some state, every scoped buffer at anything) is the
    invariant before the first point. -/
theorem Phi_first6 (c : Dev nD) :
    iprop((∃ r, prngReg c r) ∗ Pipeline.scopedRest (Ix := Unit) (Name := ℕ) (U := UR sig nD τ) (Lvl := ℕ) (Val := Elt F) spec6 c) ⊢ ((dat6 V c).Φ 0 : sProp 𝕄) := by
  rw [show (dat6 V c).Φ 0 = Pipeline.ΦA spec6 c from rfl]; unfold Pipeline.ΦA
  iintro ⟨Hp, Hr⟩
  isplitl [Hr]; · iexact Hr
  iexact Hp

/-- After any point but the first the invariant gives the scoped rest back: the accumulators' contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point, in the form the region's exit takes it. -/
theorem Phi_last6 (c : Dev nD) :
    ((dat6 V c).Φ (Fin.last cfg6.N) : sProp 𝕄) ⊢ iprop((∃ r, prngReg c r) ∗ Pipeline.scopedRest (Ix := Unit) (Name := ℕ) (U := UR sig nD τ) (Lvl := ℕ) (Val := Elt F) spec6 c) := by
  refine (Phi_out6 V c _ (by rw [Fin.val_last]; have : cfg6.N = 10 := N_6; omega)).trans ?_
  unfold Pipeline.ΦA
  iintro ⟨Hr, Hp⟩
  isplitl [Hp]; · iexact Hp
  iexact Hr

end Cert.Kernel.Hand
end
-- ==== Proof.K.B7.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«102976_j3633542332749_1_alg».proof.Proof.K.BLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the point is the grid's first. -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)
/-- The second: the point is the grid's last. -/
abbrev cond7_1 (i : grid7.Coords) : Prop := k7_cond2 i = 1#1
theorem hcond7_1 : ∀ t : Fin cfg7.N, cond7_1 (grid7.coords t) ↔ t.val = 9 :=
  (by decide +kernel : ∀ t : Fin grid7.N, cond7_1 (grid7.coords t) ↔ t.val = 9)

/-! ## The body's triple, in its three control cases

The body on whole staging memrefs: the five inputs at read contents, the z2 window at anything, the two scratch
accumulators; it leaves the inputs as they were, the z2 window at the block of z2 (the skeleton's `k7_pay4`), the
accumulators with this block's column sums added (`k7_pay5`, `k7_pay1`). At the first point the accumulators
are zeroed first (`k7_pay2`, `k7_pay3`); at the last the two sums' windows receive the accumulators; at the
other points those windows are not touched. -/

set_option maxHeartbeats 1000000 in
theorem kernelB7_first (c : Dev nD) (E : Set ℕ) (i : grid7.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond7_0 i) (hc1 : ¬cond7_1 i)
    (x0 : Vec F S5000x128 .f32) (x1 x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k7_pay4 x0 x1 x2 x3 x4)
            ∗ owns (c : Thread nD τ) arg9 fullShare (k7_pay5 x0 x1 x2 x3 x4 k7_pay2)
            ∗ owns (c : Thread nD τ) arg10 fullShare (k7_pay1 (k7_pay4 x0 x1 x2 x3 x4) k7_pay3)) -∗ K ⟨⟩))
      ⊢ wp frame (wpE (defs₀ (F := F)) Variants.none c none) E (cc7__kernelB i arg1 harg1 arg2 harg2 arg3 harg3 arg4 harg4 arg5 harg5 arg6 harg6 arg7 harg7 arg8 harg8 arg9 harg9 arg10 harg10) K := by
  simp only [cc7__kernelB_eq_skeleton]; unfold cc7__kernelB_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread,
    View.ld_unit_zero (S := S5000x128) zeros2_B, View.ld_unit_zero (S := S1x128) zeros2_B, View.ld_unit_zero (S := S128x128) zeros2_B]

set_option maxHeartbeats 1000000 in
theorem kernelB7_mid (c : Dev nD) (E : Set ℕ) (i : grid7.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond7_0 i) (hc1 : ¬cond7_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k7_pay4 x0 x1 x2 x3 x4)
            ∗ owns (c : Thread nD τ) arg9 fullShare (k7_pay5 x0 x1 x2 x3 x4 s0)
            ∗ owns (c : Thread nD τ) arg10 fullShare (k7_pay1 (k7_pay4 x0 x1 x2 x3 x4) s1)) -∗ K ⟨⟩))
      ⊢ wp frame (wpE (defs₀ (F := F)) Variants.none c none) E (cc7__kernelB i arg1 harg1 arg2 harg2 arg3 harg3 arg4 harg4 arg5 harg5 arg6 harg6 arg7 harg7 arg8 harg8 arg9 harg9 arg10 harg10) K := by
  simp only [cc7__kernelB_eq_skeleton]; unfold cc7__kernelB_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

set_option maxHeartbeats 1000000 in
theorem kernelB7_last (c : Dev nD) (E : Set ℕ) (i : grid7.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond7_0 i) (hc1 : cond7_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k7_pay4 x0 x1 x2 x3 x4)
            ∗ owns (c : Thread nD τ) arg7 fullShare (k7_pay5 x0 x1 x2 x3 x4 s0)
            ∗ owns (c : Thread nD τ) arg8 fullShare (k7_pay1 (k7_pay4 x0 x1 x2 x3 x4) s1)
            ∗ owns (c : Thread nD τ) arg9 fullShare (k7_pay5 x0 x1 x2 x3 x4 s0)
            ∗ owns (c : Thread nD τ) arg10 fullShare (k7_pay1 (k7_pay4 x0 x1 x2 x3 x4) s1)) -∗ K ⟨⟩))
      ⊢ wp frame (wpE (defs₀ (F := F)) Variants.none c none) E (cc7__kernelB i arg1 harg1 arg2 harg2 arg3 harg3 arg4 harg4 arg5 harg5 arg6 harg6 arg7 harg7 arg8 harg8 arg9 harg9 arg10 harg10) K := by
  simp only [cc7__kernelB_eq_skeleton]; unfold cc7__kernelB_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H6]
  · iexists _; isplitr
    swap; · iexact H6
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H7]
  · iexists _; isplitr
    swap; · iexact H7
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## What the body computes, point by point -/

/-- The block of z2 = max(z1·scale + shift, 0)·W + b the body stores at point `t`. -/
def z2blk7 (c : Dev nD) (t : Fin cfg7.N) : Vec F S5000x128 .f32 :=
  k7_pay4 (iblk7 V c 0 t) (iblk7 V c 1 t) (iblk7 V c 2 t) (iblk7 V c 3 t) (iblk7 V c 4 t)

/-- The running column sums of z2 after point `n`: zero, then each point's block added in order. -/
def sum7 (c : Dev nD) : (n : ℕ) → n < cfg7.N → Vec F S1x128 .f32
  | 0, h => k7_pay5 (iblk7 V c 0 ⟨0, h⟩) (iblk7 V c 1 ⟨0, h⟩) (iblk7 V c 2 ⟨0, h⟩) (iblk7 V c 3 ⟨0, h⟩) (iblk7 V c 4 ⟨0, h⟩) k7_pay2
  | n + 1, h => k7_pay5 (iblk7 V c 0 ⟨n + 1, h⟩) (iblk7 V c 1 ⟨n + 1, h⟩) (iblk7 V c 2 ⟨n + 1, h⟩) (iblk7 V c 3 ⟨n + 1, h⟩) (iblk7 V c 4 ⟨n + 1, h⟩)
      (sum7 c n (Nat.lt_of_succ_lt h))

/-- The running column sums of z2² after point `n`. -/
def sumsq7 (c : Dev nD) : (n : ℕ) → n < cfg7.N → Vec F S1x128 .f32
  | 0, h => k7_pay1 (z2blk7 V c ⟨0, h⟩) k7_pay3
  | n + 1, h => k7_pay1 (z2blk7 V c ⟨n + 1, h⟩) (sumsq7 c n (Nat.lt_of_succ_lt h))

theorem sum7_first (c : Dev nD) (t : Fin cfg7.N) (h0 : t.val = 0) :
    sum7 V c t.val t.isLt = k7_pay5 (iblk7 V c 0 t) (iblk7 V c 1 t) (iblk7 V c 2 t) (iblk7 V c 3 t) (iblk7 V c 4 t) k7_pay2 := by
  obtain ⟨n, hn⟩ := t
  cases n with
  | zero => rfl
  | succ n => exact absurd h0 (Nat.succ_ne_zero n)

theorem sum7_next (c : Dev nD) (t : Fin cfg7.N) (h0 : t.val ≠ 0) :
    sum7 V c t.val t.isLt = k7_pay5 (iblk7 V c 0 t) (iblk7 V c 1 t) (iblk7 V c 2 t) (iblk7 V c 3 t) (iblk7 V c 4 t)
      (sum7 V c (t.val - 1) (Nat.lt_of_le_of_lt (Nat.sub_le _ _) t.isLt)) := by
  obtain ⟨n, hn⟩ := t
  cases n with
  | zero => exact absurd rfl h0
  | succ n => rfl

theorem sumsq7_first (c : Dev nD) (t : Fin cfg7.N) (h0 : t.val = 0) :
    sumsq7 V c t.val t.isLt = k7_pay1 (z2blk7 V c t) k7_pay3 := by
  obtain ⟨n, hn⟩ := t
  cases n with
  | zero => rfl
  | succ n => exact absurd h0 (Nat.succ_ne_zero n)

theorem sumsq7_next (c : Dev nD) (t : Fin cfg7.N) (h0 : t.val ≠ 0) :
    sumsq7 V c t.val t.isLt = k7_pay1 (z2blk7 V c t) (sumsq7 V c (t.val - 1) (Nat.lt_of_le_of_lt (Nat.sub_le _ _) t.isLt)) := by
  obtain ⟨n, hn⟩ := t
  cases n with
  | zero => exact absurd rfl h0
  | succ n => rfl

/-! ## The region invariant -/

/-- The two accumulators the kernel keeps in scratch between points, as memrefs. -/
abbrev sc7_0 : Memref sig .tc .vmem S1x128 .f32 := Memref.whole cc7_scratch0
abbrev sc7_1 : Memref sig .tc .vmem S1x128 .f32 := Memref.whole cc7_scratch1

/-- The class invariant with the two accumulators taken out of the scoped rest, each at some contents. -/
theorem PhiA7_eq (c : Dev nD) :
    (Pipeline.ΦA spec7 c : sProp 𝕄)
      = iprop(iprop(iprop((∃ d, owns (c : Thread nD τ) sc7_0 fullShare d) ∗ (∃ d, owns (c : Thread nD τ) sc7_1 fullShare d))
          ∗ Pipeline.scopedRestBut (Ix := Unit) (Name := ℕ) (U := UR sig nD τ) (Lvl := ℕ) (Val := Elt F) spec7 c [cc7_scratch0, cc7_scratch1])
          ∗ (∃ r, prngReg c r)) := by
  unfold Pipeline.ΦA; rw [scopedRest7_split]; simp only [sc7_0, sc7_1, owns_whole]; try rfl

/-- The invariant before position `n`: before the first point the class's; afterwards the two accumulators at the
    running sums after the point before, the other scoped buffers at anything, the generator register at some state. -/
def Phi7 (c : Dev nD) : (n : ℕ) → n ≤ cfg7.N → sProp 𝕄
  | 0, _ => Pipeline.ΦA spec7 c
  | n + 1, hn => iprop(iprop(iprop(owns (c : Thread nD τ) sc7_0 fullShare (sum7 V c n hn) ∗ owns (c : Thread nD τ) sc7_1 fullShare (sumsq7 V c n hn))
          ∗ Pipeline.scopedRestBut (Ix := Unit) (Name := ℕ) (U := UR sig nD τ) (Lvl := ℕ) (Val := Elt F) spec7 c [cc7_scratch0, cc7_scratch1])
          ∗ (∃ r, prngReg c r))

theorem Phi7_zero (c : Dev nD) (n : ℕ) (h : n ≤ cfg7.N) (hz : n = 0) : Phi7 V c n h = Pipeline.ΦA spec7 c := by
  subst hz; rfl

theorem Phi7_succ (c : Dev nD) (n : ℕ) (hn : n < cfg7.N) :
    Phi7 V c (n + 1) hn = iprop(iprop(iprop(owns (c : Thread nD τ) sc7_0 fullShare (sum7 V c n hn) ∗ owns (c : Thread nD τ) sc7_1 fullShare (sumsq7 V c n hn))
          ∗ Pipeline.scopedRestBut (Ix := Unit) (Name := ℕ) (U := UR sig nD τ) (Lvl := ℕ) (Val := Elt F) spec7 c [cc7_scratch0, cc7_scratch1])
          ∗ (∃ r, prngReg c r)) := rfl

theorem Phi7_pos (c : Dev nD) (n : ℕ) (h : n ≤ cfg7.N) (hz : n ≠ 0) :
    Phi7 V c n h = iprop(iprop(iprop(owns (c : Thread nD τ) sc7_0 fullShare (sum7 V c (n - 1) (by omega)) ∗ owns (c : Thread nD τ) sc7_1 fullShare (sumsq7 V c (n - 1) (by omega)))
          ∗ Pipeline.scopedRestBut (Ix := Unit) (Name := ℕ) (U := UR sig nD τ) (Lvl := ℕ) (Val := Elt F) spec7 c [cc7_scratch0, cc7_scratch1])
          ∗ (∃ r, prngReg c r)) := by
  cases n with
  | zero => exact absurd rfl hz
  | succ n => rfl

/-! ## The pipeline's proof data -/

/-- The proof data of pipeline 7 on core `c`: the arrays as the region finds them (`V`); after the body at point `t`
    each input's buffer at its block, the z2 window at the point's block of z2, the two sums' windows at the running
    sums; the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => z2blk7 V c t
    | ⟨6, _⟩ => sum7 V c t.val t.isLt
    | ⟨7, _⟩ => sumsq7 V c t.val t.isLt
  Φ t := Phi7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = z2blk7 V c t := by dsimp only [dat7]
theorem after7_6 (c : Dev nD) (t : Fin cfg7.N) : (dat7 V c).after 6 t = sum7 V c t.val t.isLt := by dsimp only [dat7]
theorem after7_7 (c : Dev nD) (t : Fin cfg7.N) : (dat7 V c).after 7 t = sumsq7 V c t.val t.isLt := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- The invariant at a point's start, restated at `t.val`. -/
theorem Phi7_castSucc (c : Dev nD) (t : Fin cfg7.N) :
    (dat7 V c).Φ t.castSucc = Phi7 V c t.val (Nat.le_of_lt t.isLt) := by
  dsimp only [dat7]; simp only [Fin.coe_castSucc]

/-- and at its end. -/
theorem Phi7_fsucc (c : Dev nD) (t : Fin cfg7.N) :
    (dat7 V c).Φ t.succ = Phi7 V c (t.val + 1) t.isLt := by
  dsimp only [dat7]; simp only [Fin.val_succ]

/-! ## Where the sums' windows are idle -/

theorem live7_0 : ∀ t : Fin cfg7.N, cfg7.idle 0 (grid7.coords t) = false := fun _ => rfl
theorem live7_1 : ∀ t : Fin cfg7.N, cfg7.idle 1 (grid7.coords t) = false := fun _ => rfl
theorem live7_2 : ∀ t : Fin cfg7.N, cfg7.idle 2 (grid7.coords t) = false := fun _ => rfl
theorem live7_3 : ∀ t : Fin cfg7.N, cfg7.idle 3 (grid7.coords t) = false := fun _ => rfl
theorem live7_4 : ∀ t : Fin cfg7.N, cfg7.idle 4 (grid7.coords t) = false := fun _ => rfl
theorem live7_5 : ∀ t : Fin cfg7.N, cfg7.idle 5 (grid7.coords t) = false := fun _ => rfl
theorem idle7_6 : ∀ t : Fin cfg7.N, ¬cond7_1 (grid7.coords t) → cfg7.idle 6 (grid7.coords t) = true := by decide +kernel
theorem noFlush7_6 : ∀ t : Fin cfg7.N, ¬cond7_1 (grid7.coords t) → (cfg7.win 6).flush t = false := by decide +kernel
theorem live7_6 : ∀ t : Fin cfg7.N, cond7_1 (grid7.coords t) → cfg7.idle 6 (grid7.coords t) = false := by decide +kernel
theorem idle7_7 : ∀ t : Fin cfg7.N, ¬cond7_1 (grid7.coords t) → cfg7.idle 7 (grid7.coords t) = true := by decide +kernel
theorem noFlush7_7 : ∀ t : Fin cfg7.N, ¬cond7_1 (grid7.coords t) → (cfg7.win 7).flush t = false := by decide +kernel
theorem live7_7 : ∀ t : Fin cfg7.N, cond7_1 (grid7.coords t) → cfg7.idle 7 (grid7.coords t) = false := by decide +kernel

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t)

set_option maxHeartbeats 4000000 in
/-- The body at any point: the inputs' memrefs hold their blocks; the point is the first, the last or neither; the
    invariant hands the body the two accumulators (at anything at the first point, at the running sums after the point
    before otherwise) and takes them back at this point's running sums; the sums' windows are left untouched except at
    the last point, where they receive the accumulators; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [Phi7_fsucc, Phi7_succ, Phi7_castSucc]
  rw [show (dat7 V c).leavesExact 0 t = owns (c : Thread nD τ) (st7_0 t) fullShare ((dat7 V c).after 0 t) from by
    unfold Dat.leavesExact; rw [live7_0 t], after7_0]
  rw [show (dat7 V c).leavesExact 1 t = owns (c : Thread nD τ) (st7_1 t) fullShare ((dat7 V c).after 1 t) from by
    unfold Dat.leavesExact; rw [live7_1 t], after7_1]
  rw [show (dat7 V c).leavesExact 2 t = owns (c : Thread nD τ) (st7_2 t) fullShare ((dat7 V c).after 2 t) from by
    unfold Dat.leavesExact; rw [live7_2 t], after7_2]
  rw [show (dat7 V c).leavesExact 3 t = owns (c : Thread nD τ) (st7_3 t) fullShare ((dat7 V c).after 3 t) from by
    unfold Dat.leavesExact; rw [live7_3 t], after7_3]
  rw [show (dat7 V c).leavesExact 4 t = owns (c : Thread nD τ) (st7_4 t) fullShare ((dat7 V c).after 4 t) from by
    unfold Dat.leavesExact; rw [live7_4 t], after7_4]
  rw [show (dat7 V c).leavesExact 5 t = owns (c : Thread nD τ) (st7_5 t) fullShare ((dat7 V c).after 5 t) from by
    unfold Dat.leavesExact; rw [live7_5 t], after7_5]
  have hN : t.val < 10 := lt_of_lt_of_eq t.isLt (show cfg7.N = 10 from N_7)
  by_cases h0 : t.val = 0
  · have hc0 : cond7_0 (grid7.coords t) := (hcond7_0 t).mpr h0
    have hc1 : ¬cond7_1 (grid7.coords t) := fun h => by have := (hcond7_1 t).mp h; omega
    rw [Dat.leavesExact_idle (dat7 V c) 6 t (idle7_6 t hc1) (noFlush7_6 t hc1),
      Dat.leavesExact_idle (dat7 V c) 7 t (idle7_7 t hc1) (noFlush7_7 t hc1)]
    rw [Phi7_zero V c _ _ h0, PhiA7_eq, sum7_first V c t h0, sumsq7_first V c t h0]
    unfold z2blk7
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
    iapply (kernelB7_first c Set.univ (grid7.coords t) _ _ _ _ _ _ _ _ _ _ _ _ _ _ _ _ _ _ _ _ hc0 hc1 (iblk7 V c 0 t) (iblk7 V c 1 t) (iblk7 V c 2 t) (iblk7 V c 3 t) (iblk7 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h9 : t.val = 9
    · have hc0 : ¬cond7_0 (grid7.coords t) := fun h => h0 ((hcond7_0 t).mp h)
      have hc1 : cond7_1 (grid7.coords t) := (hcond7_1 t).mpr h9
      rw [show (dat7 V c).leavesExact 6 t = owns (c : Thread nD τ) (st7_6 t) fullShare ((dat7 V c).after 6 t) from by
        unfold Dat.leavesExact; rw [live7_6 t hc1], after7_6]
      rw [show (dat7 V c).leavesExact 7 t = owns (c : Thread nD τ) (st7_7 t) fullShare ((dat7 V c).after 7 t) from by
        unfold Dat.leavesExact; rw [live7_7 t hc1], after7_7]
      rw [Phi7_pos V c _ _ h0, sum7_next V c t h0, sumsq7_next V c t h0]
      unfold z2blk7
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelB7_last c Set.univ (grid7.coords t) _ _ _ _ _ _ _ _ _ _ _ _ _ _ _ _ _ _ _ _ hc0 hc1 (iblk7 V c 0 t) (iblk7 V c 1 t) (iblk7 V c 2 t) (iblk7 V c 3 t) (iblk7 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc0 : ¬cond7_0 (grid7.coords t) := fun h => h0 ((hcond7_0 t).mp h)
      have hc1 : ¬cond7_1 (grid7.coords t) := fun h => h9 ((hcond7_1 t).mp h)
      rw [Dat.leavesExact_idle (dat7 V c) 6 t (idle7_6 t hc1) (noFlush7_6 t hc1),
        Dat.leavesExact_idle (dat7 V c) 7 t (idle7_7 t hc1) (noFlush7_7 t hc1)]
      rw [Phi7_pos V c _ _ h0, sum7_next V c t h0, sumsq7_next V c t h0]
      unfold z2blk7
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
      iapply (kernelB7_mid c Set.univ (grid7.coords t) _ _ _ _ _ _ _ _ _ _ _ _ _ _ _ _ _ _ _ _ hc0 hc1 (iblk7 V c 0 t) (iblk7 V c 1 t) (iblk7 V c 2 t) (iblk7 V c 3 t) (iblk7 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's ends -/

/-- What the launch hands the region is the invariant before the first point. -/
theorem Phi_first7 (c : Dev nD) : iprop((∃ r, prngReg c r) ∗ Pipeline.scopedRest spec7 c) ⊢ ((dat7 V c).Φ 0 : sProp 𝕄) := by
  rw [show (dat7 V c).Φ 0 = Phi7 V c 0 (Nat.zero_le _) from rfl, Phi7_zero V c 0 _ rfl]; unfold Pipeline.ΦA
  iintro ⟨Hp, Hr⟩
  isplitl [Hr]; · iexact Hr
  iexact Hp

/-- After the last point the invariant gives the scoped rest back: the accumulators' named contents are forgotten. -/
theorem Phi_last7 (c : Dev nD) : ((dat7 V c).Φ (Fin.last cfg7.N) : sProp 𝕄) ⊢ iprop((∃ r, prngReg c r) ∗ Pipeline.scopedRest spec7 c) := by
  have e : (iprop((∃ r, prngReg c r) ∗ Pipeline.scopedRest spec7 c) : sProp 𝕄) = iprop((∃ r, prngReg c r) ∗ iprop(iprop((∃ d, owns (c : Thread nD τ) sc7_0 fullShare d) ∗ (∃ d, owns (c : Thread nD τ) sc7_1 fullShare d))
          ∗ Pipeline.scopedRestBut (Ix := Unit) (Name := ℕ) (U := UR sig nD τ) (Lvl := ℕ) (Val := Elt F) spec7 c [cc7_scratch0, cc7_scratch1])) := by
    rw [scopedRest7_split]; simp only [sc7_0, sc7_1, owns_whole]; try rfl
  rw [e, show (dat7 V c).Φ (Fin.last cfg7.N) = Phi7 V c (Fin.last cfg7.N).val (Nat.le_of_lt_succ (Fin.last cfg7.N).isLt) from rfl,
    Phi7_pos V c _ _ (by rw [Fin.val_last]; have : cfg7.N = 10 := N_7; omega)]
  iintro ⟨⟨⟨HS0, HS1⟩, Hrest⟩, Hg⟩
  isplitl [Hg]; · iexact Hg
  isplitl [HS0 HS1]
  · isplitl [HS0]
    · iexists _; iexact HS0
    iexists _; iexact HS1
  iexact Hrest

end Cert.Kernel.Hand

end
-- ==== Proof.K.C8.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

/-! # The normalise-and-rectify call number 8: one row block per grid point

The call maps a block `z` of 5000 rows by 128 features, a row of 128 scales `s` and a row of 128 shifts `b` to
`max (z * s + b) 0`, entry by entry, the two rows repeated down the block. Its grid has ten points; point `t` reads rows
`5000 t … 5000 t + 4999` of the array and writes the same rows of the result; the two rows are the same block at every
point. This file states, for arbitrary contents `V` of the buffers when the call is entered, what each window's
staging buffer holds before and after the body at every point, and proves that the body run on those buffers returns
them so. -/

-- membership in a rectangle with an axis of 5000 rows: the elaborator's structural look recurses once per coordinate of
-- the long axis (5000 deep, never once per entry)
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: everything below is stated at this parameter
variable (V : (c : Dev nD) → (b : Ref sig .tc) → Buf (Elt F) ((c : Thread nD τ).loc b))

/-! ## The windows' blocks -/

/-- Window `w`'s block at point `t`, read off its array as the call finds it (`V`): for window 0 the rows
    `5000 t …` of the pre-activation, for windows 1 and 2 the whole row of scales and of shifts. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The row-block window's current staging buffer holds its block at every point, for any proof data whose array is
    `V`'s (`hA`) and whose body leaves the block in place (`hafter`). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The scale row's staging buffer holds the row at every point: fetched at the first point, and at a later point the
    block index has not moved, so what the body left is still that row. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- The shift row's staging buffer holds the row at every point, for the same reason. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole 5000 by 128 block, as the rectangle the body loads and stores. -/
abbrev r8_blk : Rect S5000x128 := Rect.unit (s := S5000x128) ![0, 0] S5000x128.size inb_S5000x128_S5000x128_0_0
/-- The whole 1 by 128 row, as the rectangle the body loads. -/
abbrev r8_row : Rect S1x128 := Rect.unit (s := S1x128) ![0, 0] S1x128.size inb_S1x128_S1x128_0_0

/-! ## What the body leaves in the output window's buffer -/

/-- The output block after the body, from the three input blocks: one store of the whole block, whose value is
    `max (z * s + b) 0` of the block, the scale row and the shift row (`k8_pay1`). -/
def out8_3 (x0 : Vec F S5000x128 .f32) (x1 : Vec F S1x128 .f32) (x2 : Vec F S1x128 .f32) : Vec F S5000x128 .f32 :=
  View.canon [⟨r8_blk, k8_pay1 (View.ld x0 r8_blk) (View.ld x1 r8_row) (View.ld x2 r8_row)⟩]

/-- The one store is the whole block, so it covers it. -/
theorem cover8_3 (p0 : Vec F S5000x128 .f32) (y : S5000x128.Idx) :
    ∃ pc ∈ ([⟨r8_blk, p0⟩] : List (View.Piece (Elt F) S5000x128 .f32)), y ∈ pc.1.set :=
  View.cover_of_tiled [⟨r8_blk, p0⟩] S5000x128.size (by rfl) y

/-! ## The body's triple -/

set_option maxHeartbeats 1000000 in
/-- The body on whole staging memrefs, the three inputs' at contents `x0`, `x1`, `x2` and the output's at anything,
    runs to the continuation holding the inputs' as they were and the output's at `out8_3 x0 x1 x2`. -/
theorem sound_kernel8 (c : Dev nD) (E : Set ℕ) (i : grid8.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__kernelC i arg1 harg1 arg2 harg2 arg3 harg3 arg4 harg4) K := by
  simp only [cc8__kernelC_eq_skeleton]; unfold cc8__kernelC_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The call's proof data -/

/-- The proof data of call 8 on core `c`: the arrays as the call finds them (`V`); after the body at point `t` each
    input's buffer still at its block and the output's at `out8_3` of the three input blocks; the invariant is the
    untouched rest; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks (`before8_w`), so `sound_kernel8` applies; the
    invariant and the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the launch theorems, at every point. -/
theorem body_obligation8 (c : Dev nD) : BodyObligation (dat8 (F := F) V c) (defs₀ (F := F)) Variants.none () Set.univ := fun t => by
  rw [bigSep_W8, bigSep_W8]
  exact sound_body8 V c t

/-! ## The invariant at the first and at the last point -/

/-- The invariant at the first point is made of the generator register and the scoped buffers no window stages, -/
theorem Phi_first8 (c : Dev nD) :
    iprop((∃ r, prngReg c r) ∗ Pipeline.scopedRest (Ix := Unit) (Name := ℕ) (U := UR sig nD τ) (Lvl := ℕ) (Val := Elt F) spec8 c)
      ⊢ ((dat8 V c).Φ 0 : sProp 𝕄) := by
  rw [show (dat8 V c).Φ 0 = Pipeline.ΦA spec8 c from rfl]; unfold Pipeline.ΦA
  iintro ⟨Hp, Hr⟩
  isplitl [Hr]; · iexact Hr
  iexact Hp

/-- and at the last point it gives both back. -/
theorem Phi_last8 (c : Dev nD) :
    ((dat8 V c).Φ (Fin.last cfg8.N) : sProp 𝕄)
      ⊢ iprop((∃ r, prngReg c r) ∗ Pipeline.scopedRest (Ix := Unit) (Name := ℕ) (U := UR sig nD τ) (Lvl := ℕ) (Val := Elt F) spec8 c) := by
  rw [show (dat8 V c).Φ (Fin.last _) = Pipeline.ΦA spec8 c from rfl]; unfold Pipeline.ΦA
  iintro ⟨Hr, Hp⟩
  isplitl [Hp]; · iexact Hp
  iexact Hr

end Cert.Kernel.Hand
-- ==== Proof.K.A9Run.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import proofs.«102976_j3633542332749_1_alg».proof.Proof.K.ALib
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of custom_call 9: one row block of the linear layer, with running column sums

At grid point `i` the body reads a block `x0` of the features, the matching block `x1` of the aggregated
neighbours, the weight matrix `x2` and the bias row `x3`, stores the block `z = (x0 + x1)·x2 + x3` into the
fifth operand, and adds the column sums of `z` and of `z²` to two accumulator rows (the last two operands), which
it first zeroes at the first point; at the last point it copies the two accumulators into the sixth and seventh
operands. Three control cases over the grid: first, middle, last. -/

/-- The first `pl.when`: the grid coordinate is 0 (the accumulators are zeroed). -/
abbrev cond9_first (i : grid9.Coords) : Prop := (Scalar.cmpi .ne (Scalar.extui (Scalar.cmpi .eq (BitVec.ofNat 32 (i 0).val) 0#32)) 0#32) = 1#1
/-- It holds at point 0 only. -/
theorem hcond9_first : ∀ t : Fin cfg9.N, cond9_first (grid9.coords t) ↔ t.val = 0 :=
  (by decide +kernel : ∀ t : Fin grid9.N, cond9_first (grid9.coords t) ↔ t.val = 0)
/-- The second `pl.when`: the grid coordinate is the last (the accumulators are copied out). -/
abbrev cond9_last (i : grid9.Coords) : Prop := k9_cond2 i = 1#1
/-- It holds at point 9 only. -/
theorem hcond9_last : ∀ t : Fin cfg9.N, cond9_last (grid9.coords t) ↔ t.val = 9 :=
  (by decide +kernel : ∀ t : Fin grid9.N, cond9_last (grid9.coords t) ↔ t.val = 9)

/-- A buffer's contents after a last whole-buffer store are that store's payload, a load after such a store reads
    the payload back, and a whole-buffer load reads the contents. -/
local macro "close_whole" : tactic => `(tactic| (
  (try sl_unfold_run_names)
  rw [read_writes_whole_last_A _ _ hz_A]
  (try rw [View.readCov_unit_zero _ hz_A])
  (try simp only [readAt_whole_A (S := S5000x128) _ _ hz_A, readAt_whole_A (S := S128x128) _ _ hz_A, readAt_whole_A (S := S1x128) _ _ hz_A])))

set_option maxHeartbeats 1000000 in
/-- The body at the FIRST point: the accumulators, whatever they held, are zeroed and then advanced by the block's
    column sums; the block `z` stored; the two statistics operands untouched. -/
theorem run9_first (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond9_first i) (hc1 : ¬cond9_last i)
    (x0 x1 : Vec F S5000x128 .f32) (x2 : Vec F S128x128 .f32) (x3 : Vec F S1x128 .f32) (y5 y6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k9_pay3 x0 x1 x2 x3) ∗ owns (c : Thread nD τ) arg6 fullShare y5 ∗ owns (c : Thread nD τ) arg7 fullShare y6
            ∗ owns (c : Thread nD τ) arg8 fullShare (k9_pay4 x0 x1 x2 x3 k9_pay1) ∗ owns (c : Thread nD τ) arg9 fullShare (k9_pay5 x0 x1 x2 x3 k9_pay2)) -∗ K ⟨⟩))
      ⊢ wp frame (wpE (defs₀ (F := F)) Variants.none c none) E (cc9__kernelA i arg1 harg1 arg2 harg2 arg3 harg3 arg4 harg4 arg5 harg5 arg6 harg6 arg7 harg7 arg8 harg8 arg9 harg9) K := by
  simp only [cc9__kernelA_eq_skeleton]; unfold cc9__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d8, %f8, -, H8⟩, ⟨%d9, %f9, -, H9⟩, Hk⟩
  subst hf0; subst hf1; subst hf2; subst hf3; subst hf5; subst hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at a MIDDLE point: the block `z` stored, each accumulator advanced by the block's column sums; the two
    statistics operands untouched. -/
theorem run9_mid (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond9_first i) (hc1 : ¬cond9_last i)
    (x0 x1 : Vec F S5000x128 .f32) (x2 : Vec F S128x128 .f32) (x3 : Vec F S1x128 .f32) (y5 y6 s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k9_pay3 x0 x1 x2 x3) ∗ owns (c : Thread nD τ) arg6 fullShare y5 ∗ owns (c : Thread nD τ) arg7 fullShare y6
            ∗ owns (c : Thread nD τ) arg8 fullShare (k9_pay4 x0 x1 x2 x3 s8) ∗ owns (c : Thread nD τ) arg9 fullShare (k9_pay5 x0 x1 x2 x3 s9)) -∗ K ⟨⟩))
      ⊢ wp frame (wpE (defs₀ (F := F)) Variants.none c none) E (cc9__kernelA i arg1 harg1 arg2 harg2 arg3 harg3 arg4 harg4 arg5 harg5 arg6 harg6 arg7 harg7 arg8 harg8 arg9 harg9) K := by
  simp only [cc9__kernelA_eq_skeleton]; unfold cc9__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f8, %hf8, H8⟩, ⟨%f9, %hf9, H9⟩, Hk⟩
  subst hf0; subst hf1; subst hf2; subst hf3; subst hf5; subst hf6; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at the LAST point: the block `z` stored, each accumulator advanced, and the two statistics operands,
    whatever they held, overwritten with the advanced accumulators. -/
theorem run9_last (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond9_first i) (hc1 : cond9_last i)
    (x0 x1 : Vec F S5000x128 .f32) (x2 : Vec F S128x128 .f32) (x3 : Vec F S1x128 .f32) (s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k9_pay3 x0 x1 x2 x3) ∗ owns (c : Thread nD τ) arg6 fullShare (k9_pay4 x0 x1 x2 x3 s8) ∗ owns (c : Thread nD τ) arg7 fullShare (k9_pay5 x0 x1 x2 x3 s9)
            ∗ owns (c : Thread nD τ) arg8 fullShare (k9_pay4 x0 x1 x2 x3 s8) ∗ owns (c : Thread nD τ) arg9 fullShare (k9_pay5 x0 x1 x2 x3 s9)) -∗ K ⟨⟩))
      ⊢ wp frame (wpE (defs₀ (F := F)) Variants.none c none) E (cc9__kernelA i arg1 harg1 arg2 harg2 arg3 harg3 arg4 harg4 arg5 harg5 arg6 harg6 arg7 harg7 arg8 harg8 arg9 harg9) K := by
  simp only [cc9__kernelA_eq_skeleton]; unfold cc9__kernelA_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f8, %hf8, H8⟩, ⟨%f9, %hf9, H9⟩, Hk⟩
  subst hf0; subst hf1; subst hf2; subst hf3; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]
  · iexists _; isplitr
    swap; · iexact H5
    ipureintro
    close_whole
  isplitl [H6]
  · iexists _; isplitr
    swap; · iexact H6
    ipureintro
    close_whole
  isplitl [H8]
  · iexists _; isplitr
    swap; · iexact H8
    ipureintro
    close_whole
  iexists _; isplitr
  swap; · iexact H9
  ipureintro
  close_whole

end Cert.Kernel.Hand
end
-- ==== Proof.K.A9.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import proofs.«102976_j3633542332749_1_alg».proof.Proof.K.A9Run
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The region of custom_call 9: the linear layer `z = (h + agg)·W + b` by row blocks, with the column sums of
`z` and of `z²`

Stated at the contents `V` the region finds in the core's buffers. Windows 0–3 are the inputs (a row block of the
features, the matching row block of the aggregated neighbours, the weight matrix, the bias row: the last two fetched
once, their block index never moving); window 4 receives the row block of `z` at every point; windows 5 and 6
receive the two accumulated rows at the last point only and are idle before it. The two accumulators live in scratch
buffers of the call's own, carried from point to point by the invariant. -/

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not (unfetched, the
    block index has not moved), for any proof data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## What the body leaves -/

/-- The row block of `z` at point `t`. -/
def zAt9 (c : Dev nD) (t : Fin cfg9.N) : Vec F S5000x128 .f32 :=
  k9_pay3 (iblk9 V c 0 t) (iblk9 V c 1 t) (iblk9 V c 2 t) (iblk9 V c 3 t)
/-- The column-sum accumulator after point `t`, from its contents `s` before: `s` plus the column sums of the block of `z`. -/
def sumStep9 (c : Dev nD) (t : Fin cfg9.N) (s : Vec F S1x128 .f32) : Vec F S1x128 .f32 :=
  k9_pay4 (iblk9 V c 0 t) (iblk9 V c 1 t) (iblk9 V c 2 t) (iblk9 V c 3 t) s
/-- The accumulator of squares after point `t`, from its contents `s` before: `s` plus the column sums of the block of `z²`. -/
def sqStep9 (c : Dev nD) (t : Fin cfg9.N) (s : Vec F S1x128 .f32) : Vec F S1x128 .f32 :=
  k9_pay5 (iblk9 V c 0 t) (iblk9 V c 1 t) (iblk9 V c 2 t) (iblk9 V c 3 t) s

/-- THE ACCUMULATION: the two accumulators (sums, sums of squares) after the body at position `n`, by recursion on
    the position: zeroed and advanced at the first, advanced from what the position before left at the others. -/
def accAt9 (c : Dev nD) : (n : ℕ) → n < cfg9.N → Vec F S1x128 .f32 × Vec F S1x128 .f32
  | 0, hn => (sumStep9 V c ⟨0, hn⟩ k9_pay1, sqStep9 V c ⟨0, hn⟩ k9_pay2)
  | n + 1, hn => (sumStep9 V c ⟨n + 1, hn⟩ (accAt9 c n (Nat.lt_of_succ_lt hn)).1, sqStep9 V c ⟨n + 1, hn⟩ (accAt9 c n (Nat.lt_of_succ_lt hn)).2)

theorem accAt9_zero (c : Dev nD) (t : Fin cfg9.N) (h : t.val = 0) :
    accAt9 V c t.val t.isLt = (sumStep9 V c t k9_pay1, sqStep9 V c t k9_pay2) := by
  obtain ⟨n, hn⟩ := t
  cases n with
  | zero => rfl
  | succ n => exact absurd h (Nat.succ_ne_zero n)

theorem accAt9_pos (c : Dev nD) (t : Fin cfg9.N) (h : t.val ≠ 0) :
    accAt9 V c t.val t.isLt = (sumStep9 V c t (accAt9 V c (t.val - 1) (Nat.lt_of_le_of_lt (Nat.sub_le _ _) t.isLt)).1,
      sqStep9 V c t (accAt9 V c (t.val - 1) (Nat.lt_of_le_of_lt (Nat.sub_le _ _) t.isLt)).2) := by
  obtain ⟨n, hn⟩ := t
  cases n with
  | zero => exact absurd rfl h
  | succ n => rfl

/-! ## The invariant: the two accumulators between points -/

/-- The call's two scratch operands, whole scoped buffers of its own. -/
abbrev scM9_0 : Memref sig .tc .vmem S1x128 .f32 := Memref.whole cc9_scratch0
abbrev scM9_1 : Memref sig .tc .vmem S1x128 .f32 := Memref.whole cc9_scratch1

/-- The region invariant before position `n`: before the first point every scoped buffer at anything and the generator
    register at some state; afterwards the two accumulators at what the point before left, the other scoped buffers at
    anything, the register at some state. -/
def PhiS9 (c : Dev nD) : (n : ℕ) → n ≤ cfg9.N → sProp 𝕄
  | 0, _ => Pipeline.ΦA spec9 c
  | n + 1, hn => iprop(iprop(iprop(owns (c : Thread nD τ) scM9_0 fullShare (accAt9 V c n hn).1 ∗ owns (c : Thread nD τ) scM9_1 fullShare (accAt9 V c n hn).2)
      ∗ Pipeline.scopedRestBut (Ix := Unit) (Name := ℕ) (U := UR sig nD τ) (Lvl := ℕ) (Val := Elt F) spec9 c [cc9_scratch0, cc9_scratch1]) ∗ ∃ r, prngReg c r)

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(iprop(owns (c : Thread nD τ) scM9_0 fullShare (accAt9 V c n hn).1 ∗ owns (c : Thread nD τ) scM9_1 fullShare (accAt9 V c n hn).2)
      ∗ Pipeline.scopedRestBut (Ix := Unit) (Name := ℕ) (U := UR sig nD τ) (Lvl := ℕ) (Val := Elt F) spec9 c [cc9_scratch0, cc9_scratch1]) ∗ ∃ r, prngReg c r) := rfl

theorem PhiS9_pos (c : Dev nD) (n : ℕ) (h : n ≤ cfg9.N) (hz : n ≠ 0) :
    PhiS9 V c n h = iprop(iprop(iprop(owns (c : Thread nD τ) scM9_0 fullShare (accAt9 V c (n - 1) (by omega)).1 ∗ owns (c : Thread nD τ) scM9_1 fullShare (accAt9 V c (n - 1) (by omega)).2)
      ∗ Pipeline.scopedRestBut (Ix := Unit) (Name := ℕ) (U := UR sig nD τ) (Lvl := ℕ) (Val := Elt F) spec9 c [cc9_scratch0, cc9_scratch1]) ∗ ∃ r, prngReg c r) := by
  cases n with
  | zero => exact absurd rfl hz
  | succ n => rfl

/-- The scoped rest with the two accumulators taken out, each at some contents. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d))
          ∗ Pipeline.scopedRestBut (Ix := Unit) (Name := ℕ) (U := UR sig nD τ) (Lvl := ℕ) (Val := Elt F) spec9 c [cc9_scratch0, cc9_scratch1]) ∗ ∃ r, prngReg c r) := by
  unfold Pipeline.ΦA; rw [scopedRest9_split]; simp only [scM9_0, scM9_1, owns_whole]; try rfl

/-! ## The proof data -/

/-- The proof data of the call on core `c`: the arrays as the region finds them; after the body at point `t` each
    input's buffer at its block, window 4's at the block of `z`, windows 5 and 6 at the two accumulators after `t`
    (consulted at the last point only: before it the windows are idle); the invariant above; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => zAt9 V c t
    | ⟨5, _⟩ => (accAt9 V c t.val t.isLt).1
    | ⟨6, _⟩ => (accAt9 V c t.val t.isLt).2
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = zAt9 V c t := by dsimp only [dat9]
theorem after9_5 (c : Dev nD) (t : Fin cfg9.N) : (dat9 V c).after 5 t = (accAt9 V c t.val t.isLt).1 := by dsimp only [dat9]
theorem after9_6 (c : Dev nD) (t : Fin cfg9.N) : (dat9 V c).after 6 t = (accAt9 V c t.val t.isLt).2 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## Where the windows are idle -/

theorem liveAt9_0 : ∀ t : Fin cfg9.N, cfg9.idle 0 (grid9.coords t) = false := fun _ => rfl
theorem liveAt9_1 : ∀ t : Fin cfg9.N, cfg9.idle 1 (grid9.coords t) = false := fun _ => rfl
theorem liveAt9_2 : ∀ t : Fin cfg9.N, cfg9.idle 2 (grid9.coords t) = false := fun _ => rfl
theorem liveAt9_3 : ∀ t : Fin cfg9.N, cfg9.idle 3 (grid9.coords t) = false := fun _ => rfl
theorem liveAt9_4 : ∀ t : Fin cfg9.N, cfg9.idle 4 (grid9.coords t) = false := fun _ => rfl
/-- Before the last point window 5 is idle and not written back; at the last point it is live. -/
theorem idleAt9_5 : ∀ t : Fin cfg9.N, ¬cond9_last (grid9.coords t) → cfg9.idle 5 (grid9.coords t) = true := by decide +kernel
theorem noFlush9_5 : ∀ t : Fin cfg9.N, ¬cond9_last (grid9.coords t) → (cfg9.win 5).flush t = false := by decide +kernel
theorem liveAt9_5 : ∀ t : Fin cfg9.N, cond9_last (grid9.coords t) → cfg9.idle 5 (grid9.coords t) = false := by decide +kernel
/-- Before the last point window 6 is idle and not written back; at the last point it is live. -/
theorem idleAt9_6 : ∀ t : Fin cfg9.N, ¬cond9_last (grid9.coords t) → cfg9.idle 6 (grid9.coords t) = true := by decide +kernel
theorem noFlush9_6 : ∀ t : Fin cfg9.N, ¬cond9_last (grid9.coords t) → (cfg9.win 6).flush t = false := by decide +kernel
theorem liveAt9_6 : ∀ t : Fin cfg9.N, cond9_last (grid9.coords t) → cfg9.idle 6 (grid9.coords t) = false := by decide +kernel

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t
    ∗ (dat9 V c).leavesExact 5 t
    ∗ (dat9 V c).leavesExact 6 t)

set_option maxHeartbeats 4800000 in
/-- The body at any point: the inputs' buffers hold their blocks; the point is the first, a middle one or the last, and
    that case's run applies; the invariant hands the body the two accumulators at what the point before left (at
    anything at the first point) and takes them back advanced; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (st9_0 t) fullShare ((dat9 V c).after 0 t) from by
    unfold Dat.leavesExact; rw [liveAt9_0 t], after9_0]
  rw [show (dat9 V c).leavesExact 1 t = owns (c : Thread nD τ) (st9_1 t) fullShare ((dat9 V c).after 1 t) from by
    unfold Dat.leavesExact; rw [liveAt9_1 t], after9_1]
  rw [show (dat9 V c).leavesExact 2 t = owns (c : Thread nD τ) (st9_2 t) fullShare ((dat9 V c).after 2 t) from by
    unfold Dat.leavesExact; rw [liveAt9_2 t], after9_2]
  rw [show (dat9 V c).leavesExact 3 t = owns (c : Thread nD τ) (st9_3 t) fullShare ((dat9 V c).after 3 t) from by
    unfold Dat.leavesExact; rw [liveAt9_3 t], after9_3]
  rw [show (dat9 V c).leavesExact 4 t = owns (c : Thread nD τ) (st9_4 t) fullShare ((dat9 V c).after 4 t) from by
    unfold Dat.leavesExact; rw [liveAt9_4 t], after9_4]
  unfold zAt9
  have hN : t.val < 10 := lt_of_lt_of_eq t.isLt (show cfg9.N = 10 from N_9)
  by_cases h0 : t.val = 0
  · have hcf : cond9_first (grid9.coords t) := (hcond9_first t).mpr h0
    have hcl : ¬cond9_last (grid9.coords t) := fun h => by have := (hcond9_last t).mp h; omega
    rw [Dat.leavesExact_idle (dat9 V c) 5 t (idleAt9_5 t hcl) (noFlush9_5 t hcl),
      Dat.leavesExact_idle (dat9 V c) 6 t (idleAt9_6 t hcl) (noFlush9_6 t hcl)]
    rw [PhiS9_castSucc V c t, PhiS9_zero V c _ _ h0, PhiA9_eq, accAt9_zero V c t h0]
    dsimp only; unfold sumStep9 sqStep9
    iintro ⟨⟨⟨⟨⟨%d8, HS0⟩, ⟨%d9, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run9_first c Set.univ (grid9.coords t) _ _ _ _ _ _ _ _ _ _ _ _ _ _ _ _ _ _ hcf hcl (iblk9 V c 0 t) (iblk9 V c 1 t) (iblk9 V c 2 t) (iblk9 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexists _; iexact HS0
    isplitl [HS1]; · iexists _; iexact HS1
    iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hcf : ¬cond9_first (grid9.coords t) := fun h => h0 ((hcond9_first t).mp h)
    rw [PhiS9_castSucc V c t, PhiS9_pos V c _ _ h0, accAt9_pos V c t h0]
    by_cases h9 : t.val = 9
    · have hcl : cond9_last (grid9.coords t) := (hcond9_last t).mpr h9
      rw [show (dat9 V c).leavesExact 5 t = owns (c : Thread nD τ) (st9_5 t) fullShare ((dat9 V c).after 5 t) from by
        unfold Dat.leavesExact; rw [liveAt9_5 t hcl], after9_5]
      rw [show (dat9 V c).leavesExact 6 t = owns (c : Thread nD τ) (st9_6 t) fullShare ((dat9 V c).after 6 t) from by
        unfold Dat.leavesExact; rw [liveAt9_6 t hcl], after9_6]
      rw [accAt9_pos V c t h0]
      dsimp only; unfold sumStep9 sqStep9
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run9_last c Set.univ (grid9.coords t) _ _ _ _ _ _ _ _ _ _ _ _ _ _ _ _ _ _ hcf hcl (iblk9 V c 0 t) (iblk9 V c 1 t) (iblk9 V c 2 t) (iblk9 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hcl : ¬cond9_last (grid9.coords t) := fun h => h9 ((hcond9_last t).mp h)
      rw [Dat.leavesExact_idle (dat9 V c) 5 t (idleAt9_5 t hcl) (noFlush9_5 t hcl),
        Dat.leavesExact_idle (dat9 V c) 6 t (idleAt9_6 t hcl) (noFlush9_6 t hcl)]
      dsimp only; unfold sumStep9 sqStep9
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run9_mid c Set.univ (grid9.coords t) _ _ _ _ _ _ _ _ _ _ _ _ _ _ _ _ _ _ hcf hcl (iblk9 V c 0 t) (iblk9 V c 1 t) (iblk9 V c 2 t) (iblk9 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's two ends -/

/-- What the region is entered with (the generator register at some state, every scoped buffer at anything) is the
    invariant before the first point. -/
theorem Phi_first9 (c : Dev nD) :
    iprop((∃ r, prngReg c r) ∗ Pipeline.scopedRest (Ix := Unit) (Name := ℕ) (U := UR sig nD τ) (Lvl := ℕ) (Val := Elt F) spec9 c) ⊢ ((dat9 V c).Φ 0 : sProp 𝕄) := by
  rw [show (dat9 V c).Φ 0 = Pipeline.ΦA spec9 c from rfl]; unfold Pipeline.ΦA
  iintro ⟨Hp, Hr⟩
  isplitl [Hr]; · iexact Hr
  iexact Hp

/-- After any point but the first the invariant gives the scoped rest back: the accumulators' contents are forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point, in the form the region's exit takes it. -/
theorem Phi_last9 (c : Dev nD) :
    ((dat9 V c).Φ (Fin.last cfg9.N) : sProp 𝕄) ⊢ iprop((∃ r, prngReg c r) ∗ Pipeline.scopedRest (Ix := Unit) (Name := ℕ) (U := UR sig nD τ) (Lvl := ℕ) (Val := Elt F) spec9 c) := by
  refine (Phi_out9 V c _ (by rw [Fin.val_last]; have : cfg9.N = 10 := N_9; omega)).trans ?_
  unfold Pipeline.ΦA
  iintro ⟨Hr, Hp⟩
  isplitl [Hp]; · iexact Hp
  iexact Hr

end Cert.Kernel.Hand
end
-- ==== Proof.K.B10.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«102976_j3633542332749_1_alg».proof.Proof.K.BLib

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the point is the grid's first. -/
abbrev cond10_0 (i : grid10.Coords) : Prop := (Scalar.cmpi .ne (Scalar.extui (Scalar.cmpi .eq (BitVec.ofNat 32 (i 0).val) 0#32)) 0#32) = 1#1
theorem hcond10_0 : ∀ t : Fin cfg10.N, cond10_0 (grid10.coords t) ↔ t.val = 0 :=
  (by decide +kernel : ∀ t : Fin grid10.N, cond10_0 (grid10.coords t) ↔ t.val = 0)
/-- The second: the point is the grid's last. -/
abbrev cond10_1 (i : grid10.Coords) : Prop := k10_cond2 i = 1#1
theorem hcond10_1 : ∀ t : Fin cfg10.N, cond10_1 (grid10.coords t) ↔ t.val = 9 :=
  (by decide +kernel : ∀ t : Fin grid10.N, cond10_1 (grid10.coords t) ↔ t.val = 9)

/-! ## The body's triple, in its three control cases

The body on whole staging memrefs: the five inputs at read contents, the z2 window at anything, the two scratch
accumulators; it leaves the inputs as they were, the z2 window at the block of z2 (the skeleton's `k10_pay4`), the
accumulators with this block's column sums added (`k10_pay5`, `k10_pay1`). At the first point the accumulators
are zeroed first (`k10_pay2`, `k10_pay3`); at the last the two sums' windows receive the accumulators; at the
other points those windows are not touched. -/

set_option maxHeartbeats 1000000 in
theorem kernelB10_first (c : Dev nD) (E : Set ℕ) (i : grid10.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond10_0 i) (hc1 : ¬cond10_1 i)
    (x0 : Vec F S5000x128 .f32) (x1 x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k10_pay4 x0 x1 x2 x3 x4)
            ∗ owns (c : Thread nD τ) arg9 fullShare (k10_pay5 x0 x1 x2 x3 x4 k10_pay2)
            ∗ owns (c : Thread nD τ) arg10 fullShare (k10_pay1 (k10_pay4 x0 x1 x2 x3 x4) k10_pay3)) -∗ K ⟨⟩))
      ⊢ wp frame (wpE (defs₀ (F := F)) Variants.none c none) E (cc10__kernelB i arg1 harg1 arg2 harg2 arg3 harg3 arg4 harg4 arg5 harg5 arg6 harg6 arg7 harg7 arg8 harg8 arg9 harg9 arg10 harg10) K := by
  simp only [cc10__kernelB_eq_skeleton]; unfold cc10__kernelB_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread,
    View.ld_unit_zero (S := S5000x128) zeros2_B, View.ld_unit_zero (S := S1x128) zeros2_B, View.ld_unit_zero (S := S128x128) zeros2_B]

set_option maxHeartbeats 1000000 in
theorem kernelB10_mid (c : Dev nD) (E : Set ℕ) (i : grid10.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond10_0 i) (hc1 : ¬cond10_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k10_pay4 x0 x1 x2 x3 x4)
            ∗ owns (c : Thread nD τ) arg9 fullShare (k10_pay5 x0 x1 x2 x3 x4 s0)
            ∗ owns (c : Thread nD τ) arg10 fullShare (k10_pay1 (k10_pay4 x0 x1 x2 x3 x4) s1)) -∗ K ⟨⟩))
      ⊢ wp frame (wpE (defs₀ (F := F)) Variants.none c none) E (cc10__kernelB i arg1 harg1 arg2 harg2 arg3 harg3 arg4 harg4 arg5 harg5 arg6 harg6 arg7 harg7 arg8 harg8 arg9 harg9 arg10 harg10) K := by
  simp only [cc10__kernelB_eq_skeleton]; unfold cc10__kernelB_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

set_option maxHeartbeats 1000000 in
theorem kernelB10_last (c : Dev nD) (E : Set ℕ) (i : grid10.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond10_0 i) (hc1 : cond10_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k10_pay4 x0 x1 x2 x3 x4)
            ∗ owns (c : Thread nD τ) arg7 fullShare (k10_pay5 x0 x1 x2 x3 x4 s0)
            ∗ owns (c : Thread nD τ) arg8 fullShare (k10_pay1 (k10_pay4 x0 x1 x2 x3 x4) s1)
            ∗ owns (c : Thread nD τ) arg9 fullShare (k10_pay5 x0 x1 x2 x3 x4 s0)
            ∗ owns (c : Thread nD τ) arg10 fullShare (k10_pay1 (k10_pay4 x0 x1 x2 x3 x4) s1)) -∗ K ⟨⟩))
      ⊢ wp frame (wpE (defs₀ (F := F)) Variants.none c none) E (cc10__kernelB i arg1 harg1 arg2 harg2 arg3 harg3 arg4 harg4 arg5 harg5 arg6 harg6 arg7 harg7 arg8 harg8 arg9 harg9 arg10 harg10) K := by
  simp only [cc10__kernelB_eq_skeleton]; unfold cc10__kernelB_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H6]
  · iexists _; isplitr
    swap; · iexact H6
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H7]
  · iexists _; isplitr
    swap; · iexact H7
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## What the body computes, point by point -/

/-- The block of z2 = max(z1·scale + shift, 0)·W + b the body stores at point `t`. -/
def z2blk10 (c : Dev nD) (t : Fin cfg10.N) : Vec F S5000x128 .f32 :=
  k10_pay4 (iblk10 V c 0 t) (iblk10 V c 1 t) (iblk10 V c 2 t) (iblk10 V c 3 t) (iblk10 V c 4 t)

/-- The running column sums of z2 after point `n`: zero, then each point's block added in order. -/
def sum10 (c : Dev nD) : (n : ℕ) → n < cfg10.N → Vec F S1x128 .f32
  | 0, h => k10_pay5 (iblk10 V c 0 ⟨0, h⟩) (iblk10 V c 1 ⟨0, h⟩) (iblk10 V c 2 ⟨0, h⟩) (iblk10 V c 3 ⟨0, h⟩) (iblk10 V c 4 ⟨0, h⟩) k10_pay2
  | n + 1, h => k10_pay5 (iblk10 V c 0 ⟨n + 1, h⟩) (iblk10 V c 1 ⟨n + 1, h⟩) (iblk10 V c 2 ⟨n + 1, h⟩) (iblk10 V c 3 ⟨n + 1, h⟩) (iblk10 V c 4 ⟨n + 1, h⟩)
      (sum10 c n (Nat.lt_of_succ_lt h))

/-- The running column sums of z2² after point `n`. -/
def sumsq10 (c : Dev nD) : (n : ℕ) → n < cfg10.N → Vec F S1x128 .f32
  | 0, h => k10_pay1 (z2blk10 V c ⟨0, h⟩) k10_pay3
  | n + 1, h => k10_pay1 (z2blk10 V c ⟨n + 1, h⟩) (sumsq10 c n (Nat.lt_of_succ_lt h))

theorem sum10_first (c : Dev nD) (t : Fin cfg10.N) (h0 : t.val = 0) :
    sum10 V c t.val t.isLt = k10_pay5 (iblk10 V c 0 t) (iblk10 V c 1 t) (iblk10 V c 2 t) (iblk10 V c 3 t) (iblk10 V c 4 t) k10_pay2 := by
  obtain ⟨n, hn⟩ := t
  cases n with
  | zero => rfl
  | succ n => exact absurd h0 (Nat.succ_ne_zero n)

theorem sum10_next (c : Dev nD) (t : Fin cfg10.N) (h0 : t.val ≠ 0) :
    sum10 V c t.val t.isLt = k10_pay5 (iblk10 V c 0 t) (iblk10 V c 1 t) (iblk10 V c 2 t) (iblk10 V c 3 t) (iblk10 V c 4 t)
      (sum10 V c (t.val - 1) (Nat.lt_of_le_of_lt (Nat.sub_le _ _) t.isLt)) := by
  obtain ⟨n, hn⟩ := t
  cases n with
  | zero => exact absurd rfl h0
  | succ n => rfl

theorem sumsq10_first (c : Dev nD) (t : Fin cfg10.N) (h0 : t.val = 0) :
    sumsq10 V c t.val t.isLt = k10_pay1 (z2blk10 V c t) k10_pay3 := by
  obtain ⟨n, hn⟩ := t
  cases n with
  | zero => rfl
  | succ n => exact absurd h0 (Nat.succ_ne_zero n)

theorem sumsq10_next (c : Dev nD) (t : Fin cfg10.N) (h0 : t.val ≠ 0) :
    sumsq10 V c t.val t.isLt = k10_pay1 (z2blk10 V c t) (sumsq10 V c (t.val - 1) (Nat.lt_of_le_of_lt (Nat.sub_le _ _) t.isLt)) := by
  obtain ⟨n, hn⟩ := t
  cases n with
  | zero => exact absurd rfl h0
  | succ n => rfl

/-! ## The region invariant -/

/-- The two accumulators the kernel keeps in scratch between points, as memrefs. -/
abbrev sc10_0 : Memref sig .tc .vmem S1x128 .f32 := Memref.whole cc10_scratch0
abbrev sc10_1 : Memref sig .tc .vmem S1x128 .f32 := Memref.whole cc10_scratch1

/-- The class invariant with the two accumulators taken out of the scoped rest, each at some contents. -/
theorem PhiA10_eq (c : Dev nD) :
    (Pipeline.ΦA spec10 c : sProp 𝕄)
      = iprop(iprop(iprop((∃ d, owns (c : Thread nD τ) sc10_0 fullShare d) ∗ (∃ d, owns (c : Thread nD τ) sc10_1 fullShare d))
          ∗ Pipeline.scopedRestBut (Ix := Unit) (Name := ℕ) (U := UR sig nD τ) (Lvl := ℕ) (Val := Elt F) spec10 c [cc10_scratch0, cc10_scratch1])
          ∗ (∃ r, prngReg c r)) := by
  unfold Pipeline.ΦA; rw [scopedRest10_split]; simp only [sc10_0, sc10_1, owns_whole]; try rfl

/-- The invariant before position `n`: before the first point the class's; afterwards the two accumulators at the
    running sums after the point before, the other scoped buffers at anything, the generator register at some state. -/
def Phi10 (c : Dev nD) : (n : ℕ) → n ≤ cfg10.N → sProp 𝕄
  | 0, _ => Pipeline.ΦA spec10 c
  | n + 1, hn => iprop(iprop(iprop(owns (c : Thread nD τ) sc10_0 fullShare (sum10 V c n hn) ∗ owns (c : Thread nD τ) sc10_1 fullShare (sumsq10 V c n hn))
          ∗ Pipeline.scopedRestBut (Ix := Unit) (Name := ℕ) (U := UR sig nD τ) (Lvl := ℕ) (Val := Elt F) spec10 c [cc10_scratch0, cc10_scratch1])
          ∗ (∃ r, prngReg c r))

theorem Phi10_zero (c : Dev nD) (n : ℕ) (h : n ≤ cfg10.N) (hz : n = 0) : Phi10 V c n h = Pipeline.ΦA spec10 c := by
  subst hz; rfl

theorem Phi10_succ (c : Dev nD) (n : ℕ) (hn : n < cfg10.N) :
    Phi10 V c (n + 1) hn = iprop(iprop(iprop(owns (c : Thread nD τ) sc10_0 fullShare (sum10 V c n hn) ∗ owns (c : Thread nD τ) sc10_1 fullShare (sumsq10 V c n hn))
          ∗ Pipeline.scopedRestBut (Ix := Unit) (Name := ℕ) (U := UR sig nD τ) (Lvl := ℕ) (Val := Elt F) spec10 c [cc10_scratch0, cc10_scratch1])
          ∗ (∃ r, prngReg c r)) := rfl

theorem Phi10_pos (c : Dev nD) (n : ℕ) (h : n ≤ cfg10.N) (hz : n ≠ 0) :
    Phi10 V c n h = iprop(iprop(iprop(owns (c : Thread nD τ) sc10_0 fullShare (sum10 V c (n - 1) (by omega)) ∗ owns (c : Thread nD τ) sc10_1 fullShare (sumsq10 V c (n - 1) (by omega)))
          ∗ Pipeline.scopedRestBut (Ix := Unit) (Name := ℕ) (U := UR sig nD τ) (Lvl := ℕ) (Val := Elt F) spec10 c [cc10_scratch0, cc10_scratch1])
          ∗ (∃ r, prngReg c r)) := by
  cases n with
  | zero => exact absurd rfl hz
  | succ n => rfl

/-! ## The pipeline's proof data -/

/-- The proof data of pipeline 10 on core `c`: the arrays as the region finds them (`V`); after the body at point `t`
    each input's buffer at its block, the z2 window at the point's block of z2, the two sums' windows at the running
    sums; the invariant `Phi10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => z2blk10 V c t
    | ⟨6, _⟩ => sum10 V c t.val t.isLt
    | ⟨7, _⟩ => sumsq10 V c t.val t.isLt
  Φ t := Phi10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = z2blk10 V c t := by dsimp only [dat10]
theorem after10_6 (c : Dev nD) (t : Fin cfg10.N) : (dat10 V c).after 6 t = sum10 V c t.val t.isLt := by dsimp only [dat10]
theorem after10_7 (c : Dev nD) (t : Fin cfg10.N) : (dat10 V c).after 7 t = sumsq10 V c t.val t.isLt := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-- The invariant at a point's start, restated at `t.val`. -/
theorem Phi10_castSucc (c : Dev nD) (t : Fin cfg10.N) :
    (dat10 V c).Φ t.castSucc = Phi10 V c t.val (Nat.le_of_lt t.isLt) := by
  dsimp only [dat10]; simp only [Fin.coe_castSucc]

/-- and at its end. -/
theorem Phi10_fsucc (c : Dev nD) (t : Fin cfg10.N) :
    (dat10 V c).Φ t.succ = Phi10 V c (t.val + 1) t.isLt := by
  dsimp only [dat10]; simp only [Fin.val_succ]

/-! ## Where the sums' windows are idle -/

theorem live10_0 : ∀ t : Fin cfg10.N, cfg10.idle 0 (grid10.coords t) = false := fun _ => rfl
theorem live10_1 : ∀ t : Fin cfg10.N, cfg10.idle 1 (grid10.coords t) = false := fun _ => rfl
theorem live10_2 : ∀ t : Fin cfg10.N, cfg10.idle 2 (grid10.coords t) = false := fun _ => rfl
theorem live10_3 : ∀ t : Fin cfg10.N, cfg10.idle 3 (grid10.coords t) = false := fun _ => rfl
theorem live10_4 : ∀ t : Fin cfg10.N, cfg10.idle 4 (grid10.coords t) = false := fun _ => rfl
theorem live10_5 : ∀ t : Fin cfg10.N, cfg10.idle 5 (grid10.coords t) = false := fun _ => rfl
theorem idle10_6 : ∀ t : Fin cfg10.N, ¬cond10_1 (grid10.coords t) → cfg10.idle 6 (grid10.coords t) = true := by decide +kernel
theorem noFlush10_6 : ∀ t : Fin cfg10.N, ¬cond10_1 (grid10.coords t) → (cfg10.win 6).flush t = false := by decide +kernel
theorem live10_6 : ∀ t : Fin cfg10.N, cond10_1 (grid10.coords t) → cfg10.idle 6 (grid10.coords t) = false := by decide +kernel
theorem idle10_7 : ∀ t : Fin cfg10.N, ¬cond10_1 (grid10.coords t) → cfg10.idle 7 (grid10.coords t) = true := by decide +kernel
theorem noFlush10_7 : ∀ t : Fin cfg10.N, ¬cond10_1 (grid10.coords t) → (cfg10.win 7).flush t = false := by decide +kernel
theorem live10_7 : ∀ t : Fin cfg10.N, cond10_1 (grid10.coords t) → cfg10.idle 7 (grid10.coords t) = false := by decide +kernel

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t
    ∗ (dat10 V c).leavesExact 7 t)

set_option maxHeartbeats 4000000 in
/-- The body at any point: the inputs' memrefs hold their blocks; the point is the first, the last or neither; the
    invariant hands the body the two accumulators (at anything at the first point, at the running sums after the point
    before otherwise) and takes them back at this point's running sums; the sums' windows are left untouched except at
    the last point, where they receive the accumulators; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).owesAt () t.succ = (dat10 V c).owesAt () t.castSucc from rfl]
  rw [Phi10_fsucc, Phi10_succ, Phi10_castSucc]
  rw [show (dat10 V c).leavesExact 0 t = owns (c : Thread nD τ) (st10_0 t) fullShare ((dat10 V c).after 0 t) from by
    unfold Dat.leavesExact; rw [live10_0 t], after10_0]
  rw [show (dat10 V c).leavesExact 1 t = owns (c : Thread nD τ) (st10_1 t) fullShare ((dat10 V c).after 1 t) from by
    unfold Dat.leavesExact; rw [live10_1 t], after10_1]
  rw [show (dat10 V c).leavesExact 2 t = owns (c : Thread nD τ) (st10_2 t) fullShare ((dat10 V c).after 2 t) from by
    unfold Dat.leavesExact; rw [live10_2 t], after10_2]
  rw [show (dat10 V c).leavesExact 3 t = owns (c : Thread nD τ) (st10_3 t) fullShare ((dat10 V c).after 3 t) from by
    unfold Dat.leavesExact; rw [live10_3 t], after10_3]
  rw [show (dat10 V c).leavesExact 4 t = owns (c : Thread nD τ) (st10_4 t) fullShare ((dat10 V c).after 4 t) from by
    unfold Dat.leavesExact; rw [live10_4 t], after10_4]
  rw [show (dat10 V c).leavesExact 5 t = owns (c : Thread nD τ) (st10_5 t) fullShare ((dat10 V c).after 5 t) from by
    unfold Dat.leavesExact; rw [live10_5 t], after10_5]
  have hN : t.val < 10 := lt_of_lt_of_eq t.isLt (show cfg10.N = 10 from N_10)
  by_cases h0 : t.val = 0
  · have hc0 : cond10_0 (grid10.coords t) := (hcond10_0 t).mpr h0
    have hc1 : ¬cond10_1 (grid10.coords t) := fun h => by have := (hcond10_1 t).mp h; omega
    rw [Dat.leavesExact_idle (dat10 V c) 6 t (idle10_6 t hc1) (noFlush10_6 t hc1),
      Dat.leavesExact_idle (dat10 V c) 7 t (idle10_7 t hc1) (noFlush10_7 t hc1)]
    rw [Phi10_zero V c _ _ h0, PhiA10_eq, sum10_first V c t h0, sumsq10_first V c t h0]
    unfold z2blk10
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
    iapply (kernelB10_first c Set.univ (grid10.coords t) _ _ _ _ _ _ _ _ _ _ _ _ _ _ _ _ _ _ _ _ hc0 hc1 (iblk10 V c 0 t) (iblk10 V c 1 t) (iblk10 V c 2 t) (iblk10 V c 3 t) (iblk10 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h9 : t.val = 9
    · have hc0 : ¬cond10_0 (grid10.coords t) := fun h => h0 ((hcond10_0 t).mp h)
      have hc1 : cond10_1 (grid10.coords t) := (hcond10_1 t).mpr h9
      rw [show (dat10 V c).leavesExact 6 t = owns (c : Thread nD τ) (st10_6 t) fullShare ((dat10 V c).after 6 t) from by
        unfold Dat.leavesExact; rw [live10_6 t hc1], after10_6]
      rw [show (dat10 V c).leavesExact 7 t = owns (c : Thread nD τ) (st10_7 t) fullShare ((dat10 V c).after 7 t) from by
        unfold Dat.leavesExact; rw [live10_7 t hc1], after10_7]
      rw [Phi10_pos V c _ _ h0, sum10_next V c t h0, sumsq10_next V c t h0]
      unfold z2blk10
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelB10_last c Set.univ (grid10.coords t) _ _ _ _ _ _ _ _ _ _ _ _ _ _ _ _ _ _ _ _ hc0 hc1 (iblk10 V c 0 t) (iblk10 V c 1 t) (iblk10 V c 2 t) (iblk10 V c 3 t) (iblk10 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc0 : ¬cond10_0 (grid10.coords t) := fun h => h0 ((hcond10_0 t).mp h)
      have hc1 : ¬cond10_1 (grid10.coords t) := fun h => h9 ((hcond10_1 t).mp h)
      rw [Dat.leavesExact_idle (dat10 V c) 6 t (idle10_6 t hc1) (noFlush10_6 t hc1),
        Dat.leavesExact_idle (dat10 V c) 7 t (idle10_7 t hc1) (noFlush10_7 t hc1)]
      rw [Phi10_pos V c _ _ h0, sum10_next V c t h0, sumsq10_next V c t h0]
      unfold z2blk10
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
      iapply (kernelB10_mid c Set.univ (grid10.coords t) _ _ _ _ _ _ _ _ _ _ _ _ _ _ _ _ _ _ _ _ hc0 hc1 (iblk10 V c 0 t) (iblk10 V c 1 t) (iblk10 V c 2 t) (iblk10 V c 3 t) (iblk10 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## The invariant at the region's ends -/

/-- What the launch hands the region is the invariant before the first point. -/
theorem Phi_first10 (c : Dev nD) : iprop((∃ r, prngReg c r) ∗ Pipeline.scopedRest spec10 c) ⊢ ((dat10 V c).Φ 0 : sProp 𝕄) := by
  rw [show (dat10 V c).Φ 0 = Phi10 V c 0 (Nat.zero_le _) from rfl, Phi10_zero V c 0 _ rfl]; unfold Pipeline.ΦA
  iintro ⟨Hp, Hr⟩
  isplitl [Hr]; · iexact Hr
  iexact Hp

/-- After the last point the invariant gives the scoped rest back: the accumulators' named contents are forgotten. -/
theorem Phi_last10 (c : Dev nD) : ((dat10 V c).Φ (Fin.last cfg10.N) : sProp 𝕄) ⊢ iprop((∃ r, prngReg c r) ∗ Pipeline.scopedRest spec10 c) := by
  have e : (iprop((∃ r, prngReg c r) ∗ Pipeline.scopedRest spec10 c) : sProp 𝕄) = iprop((∃ r, prngReg c r) ∗ iprop(iprop((∃ d, owns (c : Thread nD τ) sc10_0 fullShare d) ∗ (∃ d, owns (c : Thread nD τ) sc10_1 fullShare d))
          ∗ Pipeline.scopedRestBut (Ix := Unit) (Name := ℕ) (U := UR sig nD τ) (Lvl := ℕ) (Val := Elt F) spec10 c [cc10_scratch0, cc10_scratch1])) := by
    rw [scopedRest10_split]; simp only [sc10_0, sc10_1, owns_whole]; try rfl
  rw [e, show (dat10 V c).Φ (Fin.last cfg10.N) = Phi10 V c (Fin.last cfg10.N).val (Nat.le_of_lt_succ (Fin.last cfg10.N).isLt) from rfl,
    Phi10_pos V c _ _ (by rw [Fin.val_last]; have : cfg10.N = 10 := N_10; omega)]
  iintro ⟨⟨⟨HS0, HS1⟩, Hrest⟩, Hg⟩
  isplitl [Hg]; · iexact Hg
  isplitl [HS0 HS1]
  · isplitl [HS0]
    · iexists _; iexact HS0
    iexists _; iexact HS1
  iexact Hrest

end Cert.Kernel.Hand

end
-- ==== Proof.K.C11.lean ====
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

/-! # The normalise-and-rectify call number 11: one row block per grid point

The call maps a block `z` of 5000 rows by 128 features, a row of 128 scales `s` and a row of 128 shifts `b` to
`max (z * s + b) 0`, entry by entry, the two rows repeated down the block. Its grid has ten points; point `t` reads rows
`5000 t … 5000 t + 4999` of the array and writes the same rows of the result; the two rows are the same block at every
point. This file states, for arbitrary contents `V` of the buffers when the call is entered, what each window's
staging buffer holds before and after the body at every point, and proves that the body run on those buffers returns
them so. -/

-- membership in a rectangle with an axis of 5000 rows: the elaborator's structural look recurses once per coordinate of
-- the long axis (5000 deep, never once per entry)
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: everything below is stated at this parameter
variable (V : (c : Dev nD) → (b : Ref sig .tc) → Buf (Elt F) ((c : Thread nD τ).loc b))

/-! ## The windows' blocks -/

/-- Window `w`'s block at point `t`, read off its array as the call finds it (`V`): for window 0 the rows
    `5000 t …` of the pre-activation, for windows 1 and 2 the whole row of scales and of shifts. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The row-block window's current staging buffer holds its block at every point, for any proof data whose array is
    `V`'s (`hA`) and whose body leaves the block in place (`hafter`). -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- The scale row's staging buffer holds the row at every point: fetched at the first point, and at a later point the
    block index has not moved, so what the body left is still that row. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- The shift row's staging buffer holds the row at every point, for the same reason. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

/-- The whole 5000 by 128 block, as the rectangle the body loads and stores. -/
abbrev r11_blk : Rect S5000x128 := Rect.unit (s := S5000x128) ![0, 0] S5000x128.size inb_S5000x128_S5000x128_0_0
/-- The whole 1 by 128 row, as the rectangle the body loads. -/
abbrev r11_row : Rect S1x128 := Rect.unit (s := S1x128) ![0, 0] S1x128.size inb_S1x128_S1x128_0_0

/-! ## What the body leaves in the output window's buffer -/

/-- The output block after the body, from the three input blocks: one store of the whole block, whose value is
    `max (z * s + b) 0` of the block, the scale row and the shift row (`k11_pay1`). -/
def out11_3 (x0 : Vec F S5000x128 .f32) (x1 : Vec F S1x128 .f32) (x2 : Vec F S1x128 .f32) : Vec F S5000x128 .f32 :=
  View.canon [⟨r11_blk, k11_pay1 (View.ld x0 r11_blk) (View.ld x1 r11_row) (View.ld x2 r11_row)⟩]

/-- The one store is the whole block, so it covers it. -/
theorem cover11_3 (p0 : Vec F S5000x128 .f32) (y : S5000x128.Idx) :
    ∃ pc ∈ ([⟨r11_blk, p0⟩] : List (View.Piece (Elt F) S5000x128 .f32)), y ∈ pc.1.set :=
  View.cover_of_tiled [⟨r11_blk, p0⟩] S5000x128.size (by rfl) y

/-! ## The body's triple -/

set_option maxHeartbeats 1000000 in
/-- The body on whole staging memrefs, the three inputs' at contents `x0`, `x1`, `x2` and the output's at anything,
    runs to the continuation holding the inputs' as they were and the output's at `out11_3 x0 x1 x2`. -/
theorem sound_kernel11 (c : Dev nD) (E : Set ℕ) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out11_3 x0 x1 x2)) -∗ K ⟨⟩))
      ⊢ wp frame (wpE (defs₀ (F := F)) Variants.none c none) E (cc11__kernelC i arg1 harg1 arg2 harg2 arg3 harg3 arg4 harg4) K := by
  simp only [cc11__kernelC_eq_skeleton]; unfold cc11__kernelC_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-! ## The call's proof data -/

/-- The proof data of call 11 on core `c`: the arrays as the call finds them (`V`); after the body at point `t` each
    input's buffer still at its block and the output's at `out11_3` of the three input blocks; the invariant is the
    untouched rest; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- The proof data's arrays are the entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks (`before11_w`), so `sound_kernel11` applies; the
    invariant and the core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ (grid11.coords t) _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the launch theorems, at every point. -/
theorem body_obligation11 (c : Dev nD) : BodyObligation (dat11 (F := F) V c) (defs₀ (F := F)) Variants.none () Set.univ := fun t => by
  rw [bigSep_W11, bigSep_W11]
  exact sound_body11 V c t

/-! ## The invariant at the first and at the last point -/

/-- The invariant at the first point is made of the generator register and the scoped buffers no window stages, -/
theorem Phi_first11 (c : Dev nD) :
    iprop((∃ r, prngReg c r) ∗ Pipeline.scopedRest (Ix := Unit) (Name := ℕ) (U := UR sig nD τ) (Lvl := ℕ) (Val := Elt F) spec11 c)
      ⊢ ((dat11 V c).Φ 0 : sProp 𝕄) := by
  rw [show (dat11 V c).Φ 0 = Pipeline.ΦA spec11 c from rfl]; unfold Pipeline.ΦA
  iintro ⟨Hp, Hr⟩
  isplitl [Hr]; · iexact Hr
  iexact Hp

/-- and at the last point it gives both back. -/
theorem Phi_last11 (c : Dev nD) :
    ((dat11 V c).Φ (Fin.last cfg11.N) : sProp 𝕄)
      ⊢ iprop((∃ r, prngReg c r) ∗ Pipeline.scopedRest (Ix := Unit) (Name := ℕ) (U := UR sig nD τ) (Lvl := ℕ) (Val := Elt F) spec11 c) := by
  rw [show (dat11 V c).Φ (Fin.last _) = Pipeline.ΦA spec11 c from rfl]; unfold Pipeline.ΦA
  iintro ⟨Hr, Hp⟩
  isplitl [Hp]; · iexact Hp
  iexact Hr

end Cert.Kernel.Hand
-- ==== Proof.K.Run.lean ====
/-
  The run of @main as its 26 items — fourteen stretches of host operations and the twelve kernel regions between them —
  over one thread state: every unscoped buffer held at the contents of the boundary (a fold from the launch memory: a
  stretch applies its operations, a region replaces its arrays by what its write-backs leave), the generator register
  and nothing owed beside it. Every argument array is carried through all 26 items, and the result buffer ends at the
  last boundary's contents.
-/
import proofs.«102976_j3633542332749_1_alg».proof.Proof.Gen.Kernel.Launch
import proofs.«102976_j3633542332749_1_alg».proof.Proof.Gen.Kernel.Skeleton
import proofs.«102976_j3633542332749_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102976_j3633542332749_1_alg».proof.Proof.K.Host
import proofs.«102976_j3633542332749_1_alg».proof.Proof.K.A0
import proofs.«102976_j3633542332749_1_alg».proof.Proof.K.B1
import proofs.«102976_j3633542332749_1_alg».proof.Proof.K.C2
import proofs.«102976_j3633542332749_1_alg».proof.Proof.K.A3
import proofs.«102976_j3633542332749_1_alg».proof.Proof.K.B4
import proofs.«102976_j3633542332749_1_alg».proof.Proof.K.C5
import proofs.«102976_j3633542332749_1_alg».proof.Proof.K.A6
import proofs.«102976_j3633542332749_1_alg».proof.Proof.K.B7
import proofs.«102976_j3633542332749_1_alg».proof.Proof.K.C8
import proofs.«102976_j3633542332749_1_alg».proof.Proof.K.A9
import proofs.«102976_j3633542332749_1_alg».proof.Proof.K.B10
import proofs.«102976_j3633542332749_1_alg».proof.Proof.K.C11
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of @main: a fold from the launch memory -/

/-- The buffers at launch. -/
abbrev W0 : Dev nD → Valuation τ sig (Elt F) := fun c b => (s₀ m ρ).mem ((c : Dev nD), b)

/-- After the host stretch `hostOps0`: what kernel region 0 is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After kernel region 0: its arrays at what its write-backs leave, every other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: what kernel region 1 is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After kernel region 1: its arrays at what its write-backs leave, every other buffer as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: what kernel region 2 is entered with. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After kernel region 2: its arrays at what its write-backs leave, every other buffer as the region found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: what kernel region 3 is entered with. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After kernel region 3: its arrays at what its write-backs leave, every other buffer as the region found it. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`: what kernel region 4 is entered with. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- After kernel region 4: its arrays at what its write-backs leave, every other buffer as the region found it. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch `hostOps5`: what kernel region 5 is entered with. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- After kernel region 5: its arrays at what its write-backs leave, every other buffer as the region found it. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch `hostOps6`: what kernel region 6 is entered with. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- After kernel region 6: its arrays at what its write-backs leave, every other buffer as the region found it. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch `hostOps7`: what kernel region 7 is entered with. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- After kernel region 7: its arrays at what its write-backs leave, every other buffer as the region found it. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After the host stretch `hostOps8`: what kernel region 8 is entered with. -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- After kernel region 8: its arrays at what its write-backs leave, every other buffer as the region found it. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After the host stretch `hostOps9`: what kernel region 9 is entered with. -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- After kernel region 9: its arrays at what its write-backs leave, every other buffer as the region found it. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After the host stretch `hostOps10`: what kernel region 10 is entered with. -/
abbrev W21 : Dev nD → Valuation τ sig (Elt F) := fun c => StableHlo.after hostOps10 (W20 m ρ c)
abbrev V21 : (c : Dev nD) → (b : Ref sig .tc) → Buf (Elt F) ((c : Thread nD τ).loc b) := fun c b => W21 m ρ c b
/-- After kernel region 10: its arrays at what its write-backs leave, every other buffer as the region found it. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After the host stretch `hostOps11`: what kernel region 11 is entered with. -/
abbrev W23 : Dev nD → Valuation τ sig (Elt F) := fun c => StableHlo.after hostOps11 (W22 m ρ c)
abbrev V23 : (c : Dev nD) → (b : Ref sig .tc) → Buf (Elt F) ((c : Thread nD τ).loc b) := fun c b => W23 m ρ c b
/-- After kernel region 11: its arrays at what its write-backs leave, every other buffer as the region found it. -/
def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
abbrev V24 : (c : Dev nD) → (b : Ref sig .tc) → Buf (Elt F) ((c : Thread nD τ).loc b) := fun c b => W24 m ρ c b
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)

/-- After the pooling and classifier stretch `hostOps12`. -/
abbrev W25 : Dev nD → Valuation τ sig (Elt F) := fun c => StableHlo.after hostOps12 (W24 m ρ c)
/-- After the closing log-softmax stretch `hostOps12_1`: the contents @main returns with. -/
abbrev W26 : Dev nD → Valuation τ sig (Elt F) := fun c => StableHlo.after hostOps12_1 (W25 m ρ c)

/-! ## The thirteen argument arrays are carried through every item: no host stretch writes one, and a region
    either does not touch it or reads it through an input window, whose array ends as it was entered -/

abbrev argsL : List (Ref sig .tc) := [main_arg0, main_arg1, main_arg2, main_arg3, main_arg4, main_arg5, main_arg6, main_arg7, main_arg8, main_arg9, main_arg10, main_arg11, main_arg12]
theorem W1_keep (c : Dev nD) (r : Ref sig .tc) (hr : r ∈ argsL) : W1 m ρ c (Proc.devRef .tc r) = W0 m ρ c (Proc.devRef .tc r) :=
  StableHlo.after_of_writes_sub hostOps0 _ hostOps0_writes ((by decide : ∀ r ∈ argsL, r ∉ hostOps0_W) r hr)
theorem W2_keep (c : Dev nD) (r : Ref sig .tc) (hr : r ∈ argsL) : W2 m ρ c (Proc.devRef .tc r) = W1 m ρ c (Proc.devRef .tc r) := by
  by_cases h : r = main_arg0
  · subst h
    exact (W2_arr m ρ c 0).trans (((dat0 (V1 m ρ) c).arrAt_in 0 rfl _).trans (A_eq0 (V1 m ρ) c 0))
  · exact W2_of_ne m ρ c r ((by decide : ∀ r ∈ argsL, r ≠ main_arg0 → ∀ w, Pipeline.arrRef spec0 w ≠ r) r hr h)
theorem W3_keep (c : Dev nD) (r : Ref sig .tc) (hr : r ∈ argsL) : W3 m ρ c (Proc.devRef .tc r) = W2 m ρ c (Proc.devRef .tc r) :=
  StableHlo.after_of_writes_sub hostOps1 _ hostOps1_writes ((by decide : ∀ r ∈ argsL, r ∉ hostOps1_W) r hr)
theorem W4_keep (c : Dev nD) (r : Ref sig .tc) (hr : r ∈ argsL) : W4 m ρ c (Proc.devRef .tc r) = W3 m ρ c (Proc.devRef .tc r) :=
  W4_of_ne m ρ c r ((by decide : ∀ r ∈ argsL, ∀ w, Pipeline.arrRef spec1 w ≠ r) r hr)
theorem W5_keep (c : Dev nD) (r : Ref sig .tc) (hr : r ∈ argsL) : W5 m ρ c (Proc.devRef .tc r) = W4 m ρ c (Proc.devRef .tc r) :=
  StableHlo.after_of_writes_sub hostOps2 _ hostOps2_writes ((by decide : ∀ r ∈ argsL, r ∉ hostOps2_W) r hr)
theorem W6_keep (c : Dev nD) (r : Ref sig .tc) (hr : r ∈ argsL) : W6 m ρ c (Proc.devRef .tc r) = W5 m ρ c (Proc.devRef .tc r) :=
  W6_of_ne m ρ c r ((by decide : ∀ r ∈ argsL, ∀ w, Pipeline.arrRef spec2 w ≠ r) r hr)
theorem W7_keep (c : Dev nD) (r : Ref sig .tc) (hr : r ∈ argsL) : W7 m ρ c (Proc.devRef .tc r) = W6 m ρ c (Proc.devRef .tc r) :=
  StableHlo.after_of_writes_sub hostOps3 _ hostOps3_writes ((by decide : ∀ r ∈ argsL, r ∉ hostOps3_W) r hr)
theorem W8_keep (c : Dev nD) (r : Ref sig .tc) (hr : r ∈ argsL) : W8 m ρ c (Proc.devRef .tc r) = W7 m ρ c (Proc.devRef .tc r) :=
  W8_of_ne m ρ c r ((by decide : ∀ r ∈ argsL, ∀ w, Pipeline.arrRef spec3 w ≠ r) r hr)
theorem W9_keep (c : Dev nD) (r : Ref sig .tc) (hr : r ∈ argsL) : W9 m ρ c (Proc.devRef .tc r) = W8 m ρ c (Proc.devRef .tc r) :=
  StableHlo.after_of_writes_sub hostOps4 _ hostOps4_writes ((by decide : ∀ r ∈ argsL, r ∉ hostOps4_W) r hr)
theorem W10_keep (c : Dev nD) (r : Ref sig .tc) (hr : r ∈ argsL) : W10 m ρ c (Proc.devRef .tc r) = W9 m ρ c (Proc.devRef .tc r) :=
  W10_of_ne m ρ c r ((by decide : ∀ r ∈ argsL, ∀ w, Pipeline.arrRef spec4 w ≠ r) r hr)
theorem W11_keep (c : Dev nD) (r : Ref sig .tc) (hr : r ∈ argsL) : W11 m ρ c (Proc.devRef .tc r) = W10 m ρ c (Proc.devRef .tc r) :=
  StableHlo.after_of_writes_sub hostOps5 _ hostOps5_writes ((by decide : ∀ r ∈ argsL, r ∉ hostOps5_W) r hr)
theorem W12_keep (c : Dev nD) (r : Ref sig .tc) (hr : r ∈ argsL) : W12 m ρ c (Proc.devRef .tc r) = W11 m ρ c (Proc.devRef .tc r) :=
  W12_of_ne m ρ c r ((by decide : ∀ r ∈ argsL, ∀ w, Pipeline.arrRef spec5 w ≠ r) r hr)
theorem W13_keep (c : Dev nD) (r : Ref sig .tc) (hr : r ∈ argsL) : W13 m ρ c (Proc.devRef .tc r) = W12 m ρ c (Proc.devRef .tc r) :=
  StableHlo.after_of_writes_sub hostOps6 _ hostOps6_writes ((by decide : ∀ r ∈ argsL, r ∉ hostOps6_W) r hr)
theorem W14_keep (c : Dev nD) (r : Ref sig .tc) (hr : r ∈ argsL) : W14 m ρ c (Proc.devRef .tc r) = W13 m ρ c (Proc.devRef .tc r) :=
  W14_of_ne m ρ c r ((by decide : ∀ r ∈ argsL, ∀ w, Pipeline.arrRef spec6 w ≠ r) r hr)
theorem W15_keep (c : Dev nD) (r : Ref sig .tc) (hr : r ∈ argsL) : W15 m ρ c (Proc.devRef .tc r) = W14 m ρ c (Proc.devRef .tc r) :=
  StableHlo.after_of_writes_sub hostOps7 _ hostOps7_writes ((by decide : ∀ r ∈ argsL, r ∉ hostOps7_W) r hr)
theorem W16_keep (c : Dev nD) (r : Ref sig .tc) (hr : r ∈ argsL) : W16 m ρ c (Proc.devRef .tc r) = W15 m ρ c (Proc.devRef .tc r) :=
  W16_of_ne m ρ c r ((by decide : ∀ r ∈ argsL, ∀ w, Pipeline.arrRef spec7 w ≠ r) r hr)
theorem W17_keep (c : Dev nD) (r : Ref sig .tc) (hr : r ∈ argsL) : W17 m ρ c (Proc.devRef .tc r) = W16 m ρ c (Proc.devRef .tc r) :=
  StableHlo.after_of_writes_sub hostOps8 _ hostOps8_writes ((by decide : ∀ r ∈ argsL, r ∉ hostOps8_W) r hr)
theorem W18_keep (c : Dev nD) (r : Ref sig .tc) (hr : r ∈ argsL) : W18 m ρ c (Proc.devRef .tc r) = W17 m ρ c (Proc.devRef .tc r) :=
  W18_of_ne m ρ c r ((by decide : ∀ r ∈ argsL, ∀ w, Pipeline.arrRef spec8 w ≠ r) r hr)
theorem W19_keep (c : Dev nD) (r : Ref sig .tc) (hr : r ∈ argsL) : W19 m ρ c (Proc.devRef .tc r) = W18 m ρ c (Proc.devRef .tc r) :=
  StableHlo.after_of_writes_sub hostOps9 _ hostOps9_writes ((by decide : ∀ r ∈ argsL, r ∉ hostOps9_W) r hr)
theorem W20_keep (c : Dev nD) (r : Ref sig .tc) (hr : r ∈ argsL) : W20 m ρ c (Proc.devRef .tc r) = W19 m ρ c (Proc.devRef .tc r) :=
  W20_of_ne m ρ c r ((by decide : ∀ r ∈ argsL, ∀ w, Pipeline.arrRef spec9 w ≠ r) r hr)
theorem W21_keep (c : Dev nD) (r : Ref sig .tc) (hr : r ∈ argsL) : W21 m ρ c (Proc.devRef .tc r) = W20 m ρ c (Proc.devRef .tc r) :=
  StableHlo.after_of_writes_sub hostOps10 _ hostOps10_writes ((by decide : ∀ r ∈ argsL, r ∉ hostOps10_W) r hr)
theorem W22_keep (c : Dev nD) (r : Ref sig .tc) (hr : r ∈ argsL) : W22 m ρ c (Proc.devRef .tc r) = W21 m ρ c (Proc.devRef .tc r) :=
  W22_of_ne m ρ c r ((by decide : ∀ r ∈ argsL, ∀ w, Pipeline.arrRef spec10 w ≠ r) r hr)
theorem W23_keep (c : Dev nD) (r : Ref sig .tc) (hr : r ∈ argsL) : W23 m ρ c (Proc.devRef .tc r) = W22 m ρ c (Proc.devRef .tc r) :=
  StableHlo.after_of_writes_sub hostOps11 _ hostOps11_writes ((by decide : ∀ r ∈ argsL, r ∉ hostOps11_W) r hr)
theorem W24_keep (c : Dev nD) (r : Ref sig .tc) (hr : r ∈ argsL) : W24 m ρ c (Proc.devRef .tc r) = W23 m ρ c (Proc.devRef .tc r) :=
  W24_of_ne m ρ c r ((by decide : ∀ r ∈ argsL, ∀ w, Pipeline.arrRef spec11 w ≠ r) r hr)
theorem W25_keep (c : Dev nD) (r : Ref sig .tc) (hr : r ∈ argsL) : W25 m ρ c (Proc.devRef .tc r) = W24 m ρ c (Proc.devRef .tc r) :=
  StableHlo.after_of_writes_sub hostOps12 _ hostOps12_writes ((by decide : ∀ r ∈ argsL, r ∉ hostOps12_W) r hr)
theorem W26_keep (c : Dev nD) (r : Ref sig .tc) (hr : r ∈ argsL) : W26 m ρ c (Proc.devRef .tc r) = W25 m ρ c (Proc.devRef .tc r) :=
  StableHlo.after_of_writes_sub hostOps12_1 _ hostOps12_1_writes ((by decide : ∀ r ∈ argsL, r ∉ hostOps12_1_W) r hr)
/-- Each argument array's buffer holds at the end what it held at launch. -/
theorem W26_arg (c : Dev nD) (r : Ref sig .tc) (hr : r ∈ argsL) : W26 m ρ c (Proc.devRef .tc r) = m ((c : Thread nD τ).loc r) :=
  (W26_keep m ρ c r hr).trans <| (W25_keep m ρ c r hr).trans <| (W24_keep m ρ c r hr).trans <| (W23_keep m ρ c r hr).trans <| (W22_keep m ρ c r hr).trans <| (W21_keep m ρ c r hr).trans <| (W20_keep m ρ c r hr).trans <| (W19_keep m ρ c r hr).trans <| (W18_keep m ρ c r hr).trans <| (W17_keep m ρ c r hr).trans <| (W16_keep m ρ c r hr).trans <| (W15_keep m ρ c r hr).trans <| (W14_keep m ρ c r hr).trans <| (W13_keep m ρ c r hr).trans <| (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl

/-! ## The proof data of the twelve regions, each at the contents its region is entered with -/

/-- No pallas_call here has a prefetched table. -/
abbrev adm : (p : Fin 12) → (pcfgs (F := F) p).Adm := fun p => (cfgs p).toPCfg_adm
/-- Every region's proof data, a literal match on the call's number. -/
def pdats : (p : Fin 12) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W26 m ρ c) ∗ ∃ r, prngReg c r)

/-! ## The regions as segments: entered from every unscoped buffer at the entry contents, left at the exit contents -/

set_option backward.isDefEq.respectTransparency.types false in
/-- Region 0: its arrays split out of the unscoped buffers at `W1` and put back at `W2`; the generator register and
    the scoped buffers no window stages go into the body's invariant at the first point and come back at the last. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (Phi_first0 (V1 m ρ) c)
    isplitl [Hp]; · iexact Hp
    iexact Hr
  hout c := by
    rw [Pipeline.ownSems0_none, show (pdats m ρ 0 c).Φ (Fin.last _) = (dat0 (V1 m ρ) c).Φ (Fin.last cfg0.N) from rfl]
    iintro H
    ihave H' := (Phi_last0 (V1 m ρ) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: its arrays split out of the unscoped buffers at `W3` and put back at `W4`; the generator register and
    the scoped buffers no window stages go into the body's invariant at the first point and come back at the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (Phi_first1 (V3 m ρ) c)
    isplitl [Hp]; · iexact Hp
    iexact Hr
  hout c := by
    rw [Pipeline.ownSems0_none, show (pdats m ρ 1 c).Φ (Fin.last _) = (dat1 (V3 m ρ) c).Φ (Fin.last cfg1.N) from rfl]
    iintro H
    ihave H' := (Phi_last1 (V3 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: its arrays split out of the unscoped buffers at `W5` and put back at `W6`; the generator register and
    the scoped buffers no window stages go into the body's invariant at the first point and come back at the last. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    iintro ⟨Hp, -, Hr⟩
    iapply (Phi_first2 (V5 m ρ) c)
    isplitl [Hp]; · iexact Hp
    iexact Hr
  hout c := by
    rw [Pipeline.ownSems0_none, show (pdats m ρ 2 c).Φ (Fin.last _) = (dat2 (V5 m ρ) c).Φ (Fin.last cfg2.N) from rfl]
    iintro H
    ihave H' := (Phi_last2 (V5 m ρ) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: its arrays split out of the unscoped buffers at `W7` and put back at `W8`; the generator register and
    the scoped buffers no window stages go into the body's invariant at the first point and come back at the last. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    iintro ⟨Hp, -, Hr⟩
    iapply (Phi_first3 (V7 m ρ) c)
    isplitl [Hp]; · iexact Hp
    iexact Hr
  hout c := by
    rw [Pipeline.ownSems0_none, show (pdats m ρ 3 c).Φ (Fin.last _) = (dat3 (V7 m ρ) c).Φ (Fin.last cfg3.N) from rfl]
    iintro H
    ihave H' := (Phi_last3 (V7 m ρ) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: its arrays split out of the unscoped buffers at `W9` and put back at `W10`; the generator register and
    the scoped buffers no window stages go into the body's invariant at the first point and come back at the last. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    iintro ⟨Hp, -, Hr⟩
    iapply (Phi_first4 (V9 m ρ) c)
    isplitl [Hp]; · iexact Hp
    iexact Hr
  hout c := by
    rw [Pipeline.ownSems0_none, show (pdats m ρ 4 c).Φ (Fin.last _) = (dat4 (V9 m ρ) c).Φ (Fin.last cfg4.N) from rfl]
    iintro H
    ihave H' := (Phi_last4 (V9 m ρ) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: its arrays split out of the unscoped buffers at `W11` and put back at `W12`; the generator register and
    the scoped buffers no window stages go into the body's invariant at the first point and come back at the last. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V11 m ρ) c).Φ 0 from rfl]
    iintro ⟨Hp, -, Hr⟩
    iapply (Phi_first5 (V11 m ρ) c)
    isplitl [Hp]; · iexact Hp
    iexact Hr
  hout c := by
    rw [Pipeline.ownSems0_none, show (pdats m ρ 5 c).Φ (Fin.last _) = (dat5 (V11 m ρ) c).Φ (Fin.last cfg5.N) from rfl]
    iintro H
    ihave H' := (Phi_last5 (V11 m ρ) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: its arrays split out of the unscoped buffers at `W13` and put back at `W14`; the generator register and
    the scoped buffers no window stages go into the body's invariant at the first point and come back at the last. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V13 m ρ) c).Φ 0 from rfl]
    iintro ⟨Hp, -, Hr⟩
    iapply (Phi_first6 (V13 m ρ) c)
    isplitl [Hp]; · iexact Hp
    iexact Hr
  hout c := by
    rw [Pipeline.ownSems0_none, show (pdats m ρ 6 c).Φ (Fin.last _) = (dat6 (V13 m ρ) c).Φ (Fin.last cfg6.N) from rfl]
    iintro H
    ihave H' := (Phi_last6 (V13 m ρ) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: its arrays split out of the unscoped buffers at `W15` and put back at `W16`; the generator register and
    the scoped buffers no window stages go into the body's invariant at the first point and come back at the last. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V15 m ρ) c).Φ 0 from rfl]
    iintro ⟨Hp, -, Hr⟩
    iapply (Phi_first7 (V15 m ρ) c)
    isplitl [Hp]; · iexact Hp
    iexact Hr
  hout c := by
    rw [Pipeline.ownSems0_none, show (pdats m ρ 7 c).Φ (Fin.last _) = (dat7 (V15 m ρ) c).Φ (Fin.last cfg7.N) from rfl]
    iintro H
    ihave H' := (Phi_last7 (V15 m ρ) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: its arrays split out of the unscoped buffers at `W17` and put back at `W18`; the generator register and
    the scoped buffers no window stages go into the body's invariant at the first point and come back at the last. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (V17 m ρ) c).Φ 0 from rfl]
    iintro ⟨Hp, -, Hr⟩
    iapply (Phi_first8 (V17 m ρ) c)
    isplitl [Hp]; · iexact Hp
    iexact Hr
  hout c := by
    rw [Pipeline.ownSems0_none, show (pdats m ρ 8 c).Φ (Fin.last _) = (dat8 (V17 m ρ) c).Φ (Fin.last cfg8.N) from rfl]
    iintro H
    ihave H' := (Phi_last8 (V17 m ρ) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: its arrays split out of the unscoped buffers at `W19` and put back at `W20`; the generator register and
    the scoped buffers no window stages go into the body's invariant at the first point and come back at the last. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = (dat9 (V19 m ρ) c).Φ 0 from rfl]
    iintro ⟨Hp, -, Hr⟩
    iapply (Phi_first9 (V19 m ρ) c)
    isplitl [Hp]; · iexact Hp
    iexact Hr
  hout c := by
    rw [Pipeline.ownSems0_none, show (pdats m ρ 9 c).Φ (Fin.last _) = (dat9 (V19 m ρ) c).Φ (Fin.last cfg9.N) from rfl]
    iintro H
    ihave H' := (Phi_last9 (V19 m ρ) c) $$ H
    icases H' with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10: its arrays split out of the unscoped buffers at `W21` and put back at `W22`; the generator register and
    the scoped buffers no window stages go into the body's invariant at the first point and come back at the last. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = (dat10 (V21 m ρ) c).Φ 0 from rfl]
    iintro ⟨Hp, -, Hr⟩
    iapply (Phi_first10 (V21 m ρ) c)
    isplitl [Hp]; · iexact Hp
    iexact Hr
  hout c := by
    rw [Pipeline.ownSems0_none, show (pdats m ρ 10 c).Φ (Fin.last _) = (dat10 (V21 m ρ) c).Φ (Fin.last cfg10.N) from rfl]
    iintro H
    ihave H' := (Phi_last10 (V21 m ρ) c) $$ H
    icases H' with ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11: its arrays split out of the unscoped buffers at `W23` and put back at `W24`; the generator register and
    the scoped buffers no window stages go into the body's invariant at the first point and come back at the last. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = (dat11 (V23 m ρ) c).Φ 0 from rfl]
    iintro ⟨Hp, -, Hr⟩
    iapply (Phi_first11 (V23 m ρ) c)
    isplitl [Hp]; · iexact Hp
    iexact Hr
  hout c := by
    rw [Pipeline.ownSems0_none, show (pdats m ρ 11 c).Φ (Fin.last _) = (dat11 (V23 m ρ) c).Φ (Fin.last cfg11.N) from rfl]
    iintro H
    ihave H' := (Phi_last11 (V23 m ρ) c) $$ H
    icases H' with ⟨Hp, Hr⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last item's state, regrouped: the buffers and the generator register on one side, nothing owed on the other. -/
theorem last_state (c : Dev nD) : (iprop(StableHlo.held (c : Thread nD τ) (Pipeline.ucRefs τ sig) (W26 m ρ c) ∗ R c) : sProp 𝕄)
    ⊢ iprop(Tₙ m ρ c ∗ ∃ Wt, owes (c : Thread nD τ) (0 : CellTallies nD τ sig Unit) Wt) := sep_assoc'

/-! ## @main as segments, and the launch -/

/-- @main's 26 items in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .host (hseg hostOps12 hostOps12_sub hostOps12_fresh (W24 m ρ)),
    .host (hseg hostOps12_1 hostOps12_1_sub hostOps12_1_fresh (W25 m ρ)) ]
/-- @main is the run of the segments. -/
theorem main_run (c : Dev nD) : main (F := F) c = Pipeline.Seg.run (segs m ρ) := (main_chain c).trans (by chain_rfl)

set_option backward.isDefEq.respectTransparency.types false in
/-- THE RUN, at any `F`: from any memory with zero counters every weakly fair execution of @main terminates, nothing
    faulting, with the result buffer at the last boundary's contents and the thirteen argument arrays as launched. -/
theorem run : θ_run defs (onTc (τ := τ) (main (F := F))) ⟨m, fun _ => 0, ρ⟩ (fun r => ∀ c : Dev nD,
      r.2.mem ((c.tc : Thread nD τ).loc main_v301) = W26 m ρ c (Proc.devRef .tc main_v301)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v301 (by decide)),
       (h c _ (mem_uc main_arg0 (by decide))).trans (W26_arg m ρ c main_arg0 (by decide)),
       (h c _ (mem_uc main_arg1 (by decide))).trans (W26_arg m ρ c main_arg1 (by decide)),
       (h c _ (mem_uc main_arg2 (by decide))).trans (W26_arg m ρ c main_arg2 (by decide)),
       (h c _ (mem_uc main_arg3 (by decide))).trans (W26_arg m ρ c main_arg3 (by decide)),
       (h c _ (mem_uc main_arg4 (by decide))).trans (W26_arg m ρ c main_arg4 (by decide)),
       (h c _ (mem_uc main_arg5 (by decide))).trans (W26_arg m ρ c main_arg5 (by decide)),
       (h c _ (mem_uc main_arg6 (by decide))).trans (W26_arg m ρ c main_arg6 (by decide)),
       (h c _ (mem_uc main_arg7 (by decide))).trans (W26_arg m ρ c main_arg7 (by decide)),
       (h c _ (mem_uc main_arg8 (by decide))).trans (W26_arg m ρ c main_arg8 (by decide)),
       (h c _ (mem_uc main_arg9 (by decide))).trans (W26_arg m ρ c main_arg9 (by decide)),
       (h c _ (mem_uc main_arg10 (by decide))).trans (W26_arg m ρ c main_arg10 (by decide)),
       (h c _ (mem_uc main_arg11 (by decide))).trans (W26_arg m ρ c main_arg11 (by decide)),
       (h c _ (mem_uc main_arg12 (by decide))).trans (W26_arg m ρ c main_arg12 (by decide))⟩)

end Cert.Kernel.Hand

end
-- ==== Proof.KI.Host.lean ====
/-
  The host stretches of @main between the kernel regions: no operation of a stretch allocates a buffer, and each
  stretch writes only the buffers of its own results (so every other buffer, the thirteen argument arrays among
  them, is carried through a stretch unchanged).
-/
import proofs.«102976_j3633542332749_1_alg».proof.Proof.Gen.KernelIdeal.Launch
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- No operation of `hostOps0` allocates a buffer. -/
theorem hostOps0_fresh : (hostOps0 : List (HloOp τ sig (Elt F))).Forall fun op => op.fresh = ∅ := by
  simp only [List.Forall]; repeat' constructor
/-- The buffers the operations of `hostOps0` write: one per operation, its result. -/
abbrev hostOps0_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18]
theorem hostOps0_writes : (hostOps0 : List (HloOp τ sig (Elt F))).Forall fun op => op.writes ⊆ ((hostOps0_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps1` allocates a buffer. -/
theorem hostOps1_fresh : (hostOps1 : List (HloOp τ sig (Elt F))).Forall fun op => op.fresh = ∅ := by
  simp only [List.Forall]; repeat' constructor
/-- The buffers the operations of `hostOps1` write: one per operation, its result. -/
abbrev hostOps1_W : List (Ref sig .tc) := [main_cst_1, main_v20, main_v21, main_cst_2, main_v22, main_v23, main_v24, main_v25, main_v26, main_v27, main_v28, main_cst_3, main_v29, main_v30, main_v31, main_v32, main_v33, main_v34, main_v35, main_v36, main_v37, main_v38, main_v39, main_v40, main_v41, main_v42]
theorem hostOps1_writes : (hostOps1 : List (HloOp τ sig (Elt F))).Forall fun op => op.writes ⊆ ((hostOps1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps2` allocates a buffer. -/
theorem hostOps2_fresh : (hostOps2 : List (HloOp τ sig (Elt F))).Forall fun op => op.fresh = ∅ := by
  simp only [List.Forall]; repeat' constructor
/-- The buffers the operations of `hostOps2` write: one per operation, its result. -/
abbrev hostOps2_W : List (Ref sig .tc) := [main_cst_4, main_v44, main_v45, main_cst_5, main_v46, main_v47, main_v48, main_v49, main_v50, main_v51, main_v52, main_cst_6, main_v53, main_v54, main_v55, main_v56, main_v57, main_v58, main_v59, main_v60, main_v61]
theorem hostOps2_writes : (hostOps2 : List (HloOp τ sig (Elt F))).Forall fun op => op.writes ⊆ ((hostOps2_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps3` allocates a buffer. -/
theorem hostOps3_fresh : (hostOps3 : List (HloOp τ sig (Elt F))).Forall fun op => op.fresh = ∅ := by
  simp only [List.Forall]; repeat' constructor
/-- The buffers the operations of `hostOps3` write: one per operation, its result. -/
abbrev hostOps3_W : List (Ref sig .tc) := [main_c_7, main_v63, main_v64, main_c_8, main_v65, main_v66, main_v67, main_v68, main_v69, main_cst_9, main_v70, main_v71, main_v72, main_v73, main_v74, main_v75, main_v76, main_v77]
theorem hostOps3_writes : (hostOps3 : List (HloOp τ sig (Elt F))).Forall fun op => op.writes ⊆ ((hostOps3_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps4` allocates a buffer. -/
theorem hostOps4_fresh : (hostOps4 : List (HloOp τ sig (Elt F))).Forall fun op => op.fresh = ∅ := by
  simp only [List.Forall]; repeat' constructor
/-- The buffers the operations of `hostOps4` write: one per operation, its result. -/
abbrev hostOps4_W : List (Ref sig .tc) := [main_cst_10, main_v79, main_v80, main_cst_11, main_v81, main_v82, main_v83, main_v84, main_v85, main_v86, main_v87, main_cst_12, main_v88, main_v89, main_v90, main_v91, main_v92, main_v93, main_v94, main_v95, main_v96, main_v97, main_v98, main_v99, main_v100, main_v101]
theorem hostOps4_writes : (hostOps4 : List (HloOp τ sig (Elt F))).Forall fun op => op.writes ⊆ ((hostOps4_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps5` allocates a buffer. -/
theorem hostOps5_fresh : (hostOps5 : List (HloOp τ sig (Elt F))).Forall fun op => op.fresh = ∅ := by
  simp only [List.Forall]; repeat' constructor
/-- The buffers the operations of `hostOps5` write: one per operation, its result. -/
abbrev hostOps5_W : List (Ref sig .tc) := [main_cst_13, main_v103, main_v104, main_cst_14, main_v105, main_v106, main_v107, main_v108, main_v109, main_v110, main_v111, main_cst_15, main_v112, main_v113, main_v114, main_v115, main_v116, main_v117, main_v118, main_v119, main_v120]
theorem hostOps5_writes : (hostOps5 : List (HloOp τ sig (Elt F))).Forall fun op => op.writes ⊆ ((hostOps5_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps6` allocates a buffer. -/
theorem hostOps6_fresh : (hostOps6 : List (HloOp τ sig (Elt F))).Forall fun op => op.fresh = ∅ := by
  simp only [List.Forall]; repeat' constructor
/-- The buffers the operations of `hostOps6` write: one per operation, its result. -/
abbrev hostOps6_W : List (Ref sig .tc) := [main_c_16, main_v122, main_v123, main_c_17, main_v124, main_v125, main_v126, main_v127, main_v128, main_cst_18, main_v129, main_v130, main_v131, main_v132, main_v133, main_v134, main_v135, main_v136]
theorem hostOps6_writes : (hostOps6 : List (HloOp τ sig (Elt F))).Forall fun op => op.writes ⊆ ((hostOps6_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps7` allocates a buffer. -/
theorem hostOps7_fresh : (hostOps7 : List (HloOp τ sig (Elt F))).Forall fun op => op.fresh = ∅ := by
  simp only [List.Forall]; repeat' constructor
/-- The buffers the operations of `hostOps7` write: one per operation, its result. -/
abbrev hostOps7_W : List (Ref sig .tc) := [main_cst_19, main_v138, main_v139, main_cst_20, main_v140, main_v141, main_v142, main_v143, main_v144, main_v145, main_v146, main_cst_21, main_v147, main_v148, main_v149, main_v150, main_v151, main_v152, main_v153, main_v154, main_v155, main_v156, main_v157, main_v158, main_v159, main_v160]
theorem hostOps7_writes : (hostOps7 : List (HloOp τ sig (Elt F))).Forall fun op => op.writes ⊆ ((hostOps7_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps8` allocates a buffer. -/
theorem hostOps8_fresh : (hostOps8 : List (HloOp τ sig (Elt F))).Forall fun op => op.fresh = ∅ := by
  simp only [List.Forall]; repeat' constructor
/-- The buffers the operations of `hostOps8` write: one per operation, its result. -/
abbrev hostOps8_W : List (Ref sig .tc) := [main_cst_22, main_v162, main_v163, main_cst_23, main_v164, main_v165, main_v166, main_v167, main_v168, main_v169, main_v170, main_cst_24, main_v171, main_v172, main_v173, main_v174, main_v175, main_v176, main_v177, main_v178, main_v179]
theorem hostOps8_writes : (hostOps8 : List (HloOp τ sig (Elt F))).Forall fun op => op.writes ⊆ ((hostOps8_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps9` allocates a buffer. -/
theorem hostOps9_fresh : (hostOps9 : List (HloOp τ sig (Elt F))).Forall fun op => op.fresh = ∅ := by
  simp only [List.Forall]; repeat' constructor
/-- The buffers the operations of `hostOps9` write: one per operation, its result. -/
abbrev hostOps9_W : List (Ref sig .tc) := [main_c_25, main_v181, main_v182, main_c_26, main_v183, main_v184, main_v185, main_v186, main_v187, main_cst_27, main_v188, main_v189, main_v190, main_v191, main_v192, main_v193, main_v194, main_v195]
theorem hostOps9_writes : (hostOps9 : List (HloOp τ sig (Elt F))).Forall fun op => op.writes ⊆ ((hostOps9_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps10` allocates a buffer. -/
theorem hostOps10_fresh : (hostOps10 : List (HloOp τ sig (Elt F))).Forall fun op => op.fresh = ∅ := by
  simp only [List.Forall]; repeat' constructor
/-- The buffers the operations of `hostOps10` write: one per operation, its result. -/
abbrev hostOps10_W : List (Ref sig .tc) := [main_cst_28, main_v197, main_v198, main_cst_29, main_v199, main_v200, main_v201, main_v202, main_v203, main_v204, main_v205, main_cst_30, main_v206, main_v207, main_v208, main_v209, main_v210, main_v211, main_v212, main_v213, main_v214, main_v215, main_v216, main_v217, main_v218, main_v219]
theorem hostOps10_writes : (hostOps10 : List (HloOp τ sig (Elt F))).Forall fun op => op.writes ⊆ ((hostOps10_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps11` allocates a buffer. -/
theorem hostOps11_fresh : (hostOps11 : List (HloOp τ sig (Elt F))).Forall fun op => op.fresh = ∅ := by
  simp only [List.Forall]; repeat' constructor
/-- The buffers the operations of `hostOps11` write: one per operation, its result. -/
abbrev hostOps11_W : List (Ref sig .tc) := [main_cst_31, main_v221, main_v222, main_cst_32, main_v223, main_v224, main_v225, main_v226, main_v227, main_v228, main_v229, main_cst_33, main_v230, main_v231, main_v232, main_v233, main_v234, main_v235, main_v236, main_v237, main_v238]
theorem hostOps11_writes : (hostOps11 : List (HloOp τ sig (Elt F))).Forall fun op => op.writes ⊆ ((hostOps11_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps12` allocates a buffer. -/
theorem hostOps12_fresh : (hostOps12 : List (HloOp τ sig (Elt F))).Forall fun op => op.fresh = ∅ := by
  simp only [List.Forall]; repeat' constructor
/-- The buffers the operations of `hostOps12` write: one per operation, its result. -/
abbrev hostOps12_W : List (Ref sig .tc) := [main_cst_34, main_v240, main_cst_35, main_v241, main_v242, main_v243, main_v244, main_v245, main_v246, main_v247, main_v248, main_v249, main_v250, main_v251, main_v252, main_cst_36, main_v253, main_v254, main_v255, main_v256, main_v257, main_v258, main_v259, main_v260, main_v261, main_v262, main_v263, main_v264, main_cst_37, main_v265, main_v266, main_v267, main_v268, main_v269, main_v270, main_v271, main_v272, main_v273, main_v274, main_v275, main_v276, main_cst_38, main_v277, main_v278, main_v279, main_v280, main_v281, main_v282, main_v283, main_v284, main_v285, main_v286, main_v287, main_v288, main_cst_39, main_v289, main_v290, main_v291, main_v292, main_v293, main_v294, main_v295, main_v296, main_v297, main_v298, main_v299, main_v300]
theorem hostOps12_writes : (hostOps12 : List (HloOp τ sig (Elt F))).Forall fun op => op.writes ⊆ ((hostOps12_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- No operation of `hostOps12_1` allocates a buffer. -/
theorem hostOps12_1_fresh : (hostOps12_1 : List (HloOp τ sig (Elt F))).Forall fun op => op.fresh = ∅ := by
  simp only [List.Forall]; repeat' constructor
/-- The buffers the operations of `hostOps12_1` write: one per operation, its result. -/
abbrev hostOps12_1_W : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v301]
theorem hostOps12_1_writes : (hostOps12_1 : List (HloOp τ sig (Elt F))).Forall fun op => op.writes ⊆ ((hostOps12_1_W).map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

end Cert.KernelIdeal.Hand

end
-- ==== Proof.KI.ALib.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Whole-buffer accesses

Every load and store of the linear layer's body goes through the rectangle that is the whole buffer; these three facts
are all that is needed about them. -/

/-- A two-axis offset of zeros is the zero offset. -/
theorem hz_A : (![0, 0] : Fin 2 → ℕ) = fun _ => 0 := by funext a; fin_cases a <;> rfl

section Whole
variable {sig' : RefSig} {κ' : Kind} {sp' : Space} {S : Shape} {e : EltTy} {Val : EltTy → Type} [∀ e, Nonempty (Val e)]

/-- A store through the whole-buffer rectangle, made last, leaves exactly its payload, whatever came before. -/
theorem read_writes_whole_last_A (v : View sig' κ' sp' S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, by
    subst h; show y ∈ (Rect.whole S).set; rw [Rect.set_whole]; exact Finset.mem_univ y⟩), View.canon_cons_unit_zero h inb w L]

/-- A load through the whole-buffer rectangle reads the buffer's contents. -/
theorem readAt_whole_A (v : View sig' κ' sp' S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld]; exact View.ld_unit_zero h inb _
end Whole

end Cert.KernelIdeal.Hand
end
-- ==== Proof.KI.A0Run.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import proofs.«102976_j3633542332749_1_alg».proof.Proof.KI.ALib
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of custom_call 0: one row block of the linear layer, with running column sums

At grid point `i` the body reads a block `x0` of the features, the matching block `x1` of the aggregated
neighbours, the weight matrix `x2` and the bias row `x3`, stores the block `z = (x0 + x1)·x2 + x3` into the
fifth operand, and adds the column sums of `z` and of `z²` to two accumulator rows (the last two operands), which
it first zeroes at the first point; at the last point it copies the two accumulators into the sixth and seventh
operands. Three control cases over the grid: first, middle, last. -/

/-- The first `pl.when`: the grid coordinate is 0 (the accumulators are zeroed). -/
abbrev cond0_first (i : grid0.Coords) : Prop := (Scalar.cmpi .ne (Scalar.extui (Scalar.cmpi .eq (BitVec.ofNat 32 (i 0).val) 0#32)) 0#32) = 1#1
/-- It holds at point 0 only. -/
theorem hcond0_first : ∀ t : Fin cfg0.N, cond0_first (grid0.coords t) ↔ t.val = 0 :=
  (by decide +kernel : ∀ t : Fin grid0.N, cond0_first (grid0.coords t) ↔ t.val = 0)
/-- The second `pl.when`: the grid coordinate is the last (the accumulators are copied out). -/
abbrev cond0_last (i : grid0.Coords) : Prop := k0_cond2 i = 1#1
/-- It holds at point 9 only. -/
theorem hcond0_last : ∀ t : Fin cfg0.N, cond0_last (grid0.coords t) ↔ t.val = 9 :=
  (by decide +kernel : ∀ t : Fin grid0.N, cond0_last (grid0.coords t) ↔ t.val = 9)

/-- A buffer's contents after a last whole-buffer store are that store's payload, a load after such a store reads
    the payload back, and a whole-buffer load reads the contents. -/
local macro "close_whole" : tactic => `(tactic| (
  (try sl_unfold_run_names)
  rw [read_writes_whole_last_A _ _ hz_A]
  (try rw [View.readCov_unit_zero _ hz_A])
  (try simp only [readAt_whole_A (S := S5000x128) _ _ hz_A, readAt_whole_A (S := S128x128) _ _ hz_A, readAt_whole_A (S := S1x128) _ _ hz_A])))

set_option maxHeartbeats 1000000 in
/-- The body at the FIRST point: the accumulators, whatever they held, are zeroed and then advanced by the block's
    column sums; the block `z` stored; the two statistics operands untouched. -/
theorem run0_first (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond0_first i) (hc1 : ¬cond0_last i)
    (x0 x1 : Vec F S5000x128 .f32) (x2 : Vec F S128x128 .f32) (x3 : Vec F S1x128 .f32) (y5 y6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay3 x0 x1 x2 x3) ∗ owns (c : Thread nD τ) arg6 fullShare y5 ∗ owns (c : Thread nD τ) arg7 fullShare y6
            ∗ owns (c : Thread nD τ) arg8 fullShare (k0_pay4 x0 x1 x2 x3 k0_pay1) ∗ owns (c : Thread nD τ) arg9 fullShare (k0_pay5 x0 x1 x2 x3 k0_pay2)) -∗ K ⟨⟩))
      ⊢ wp frame (wpE (defs₀ (F := F)) Variants.none c none) E (cc0__kernelA i arg1 harg1 arg2 harg2 arg3 harg3 arg4 harg4 arg5 harg5 arg6 harg6 arg7 harg7 arg8 harg8 arg9 harg9) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d8, %f8, -, H8⟩, ⟨%d9, %f9, -, H9⟩, Hk⟩
  subst hf0; subst hf1; subst hf2; subst hf3; subst hf5; subst hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at a MIDDLE point: the block `z` stored, each accumulator advanced by the block's column sums; the two
    statistics operands untouched. -/
theorem run0_mid (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond0_first i) (hc1 : ¬cond0_last i)
    (x0 x1 : Vec F S5000x128 .f32) (x2 : Vec F S128x128 .f32) (x3 : Vec F S1x128 .f32) (y5 y6 s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay3 x0 x1 x2 x3) ∗ owns (c : Thread nD τ) arg6 fullShare y5 ∗ owns (c : Thread nD τ) arg7 fullShare y6
            ∗ owns (c : Thread nD τ) arg8 fullShare (k0_pay4 x0 x1 x2 x3 s8) ∗ owns (c : Thread nD τ) arg9 fullShare (k0_pay5 x0 x1 x2 x3 s9)) -∗ K ⟨⟩))
      ⊢ wp frame (wpE (defs₀ (F := F)) Variants.none c none) E (cc0__kernelA i arg1 harg1 arg2 harg2 arg3 harg3 arg4 harg4 arg5 harg5 arg6 harg6 arg7 harg7 arg8 harg8 arg9 harg9) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f8, %hf8, H8⟩, ⟨%f9, %hf9, H9⟩, Hk⟩
  subst hf0; subst hf1; subst hf2; subst hf3; subst hf5; subst hf6; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at the LAST point: the block `z` stored, each accumulator advanced, and the two statistics operands,
    whatever they held, overwritten with the advanced accumulators. -/
theorem run0_last (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond0_first i) (hc1 : cond0_last i)
    (x0 x1 : Vec F S5000x128 .f32) (x2 : Vec F S128x128 .f32) (x3 : Vec F S1x128 .f32) (s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k0_pay3 x0 x1 x2 x3) ∗ owns (c : Thread nD τ) arg6 fullShare (k0_pay4 x0 x1 x2 x3 s8) ∗ owns (c : Thread nD τ) arg7 fullShare (k0_pay5 x0 x1 x2 x3 s9)
            ∗ owns (c : Thread nD τ) arg8 fullShare (k0_pay4 x0 x1 x2 x3 s8) ∗ owns (c : Thread nD τ) arg9 fullShare (k0_pay5 x0 x1 x2 x3 s9)) -∗ K ⟨⟩))
      ⊢ wp frame (wpE (defs₀ (F := F)) Variants.none c none) E (cc0__kernelA i arg1 harg1 arg2 harg2 arg3 harg3 arg4 harg4 arg5 harg5 arg6 harg6 arg7 harg7 arg8 harg8 arg9 harg9) K := by
  simp only [cc0__kernelA_eq_skeleton]; unfold cc0__kernelA_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f8, %hf8, H8⟩, ⟨%f9, %hf9, H9⟩, Hk⟩
  subst hf0; subst hf1; subst hf2; subst hf3; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]
  · iexists _; isplitr
    swap; · iexact H5
    ipureintro
    close_whole
  isplitl [H6]
  · iexists _; isplitr
    swap; · iexact H6
    ipureintro
    close_whole
  isplitl [H8]
  · iexists _; isplitr
    swap; · iexact H8
    ipureintro
    close_whole
  iexists _; isplitr
  swap; · iexact H9
  ipureintro
  close_whole

end Cert.KernelIdeal.Hand
end
-- ==== Proof.KI.A0.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import proofs.«102976_j3633542332749_1_alg».proof.Proof.KI.A0Run
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The region of custom_call 0: the linear layer `z = (h + agg)·W + b` by row blocks, with the column sums of
`z` and of `z²`

Stated at the contents `V` the region finds in the core's buffers. Windows 0–3 are the inputs (a row block of the
features, the matching row block of the aggregated neighbours, the weight matrix, the bias row: the last two fetched
once, their block index never moving); window 4 receives the row block of `z` at every point; windows 5 and 6
receive the two accumulated rows at the last point only and are idle before it. The two accumulators live in scratch
buffers of the call's own, carried from point to point by the invariant. -/

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves -/

/-- The row block of `z` at point `t`. -/
def zAt0 (c : Dev nD) (t : Fin cfg0.N) : Vec F S5000x128 .f32 :=
  k0_pay3 (iblk0 V c 0 t) (iblk0 V c 1 t) (iblk0 V c 2 t) (iblk0 V c 3 t)
/-- The column-sum accumulator after point `t`, from its contents `s` before: `s` plus the column sums of the block of `z`. -/
def sumStep0 (c : Dev nD) (t : Fin cfg0.N) (s : Vec F S1x128 .f32) : Vec F S1x128 .f32 :=
  k0_pay4 (iblk0 V c 0 t) (iblk0 V c 1 t) (iblk0 V c 2 t) (iblk0 V c 3 t) s
/-- The accumulator of squares after point `t`, from its contents `s` before: `s` plus the column sums of the block of `z²`. -/
def sqStep0 (c : Dev nD) (t : Fin cfg0.N) (s : Vec F S1x128 .f32) : Vec F S1x128 .f32 :=
  k0_pay5 (iblk0 V c 0 t) (iblk0 V c 1 t) (iblk0 V c 2 t) (iblk0 V c 3 t) s

/-- THE ACCUMULATION: the two accumulators (sums, sums of squares) after the body at position `n`, by recursion on
    the position: zeroed and advanced at the first, advanced from what the position before left at the others. -/
def accAt0 (c : Dev nD) : (n : ℕ) → n < cfg0.N → Vec F S1x128 .f32 × Vec F S1x128 .f32
  | 0, hn => (sumStep0 V c ⟨0, hn⟩ k0_pay1, sqStep0 V c ⟨0, hn⟩ k0_pay2)
  | n + 1, hn => (sumStep0 V c ⟨n + 1, hn⟩ (accAt0 c n (Nat.lt_of_succ_lt hn)).1, sqStep0 V c ⟨n + 1, hn⟩ (accAt0 c n (Nat.lt_of_succ_lt hn)).2)

theorem accAt0_zero (c : Dev nD) (t : Fin cfg0.N) (h : t.val = 0) :
    accAt0 V c t.val t.isLt = (sumStep0 V c t k0_pay1, sqStep0 V c t k0_pay2) := by
  obtain ⟨n, hn⟩ := t
  cases n with
  | zero => rfl
  | succ n => exact absurd h (Nat.succ_ne_zero n)

theorem accAt0_pos (c : Dev nD) (t : Fin cfg0.N) (h : t.val ≠ 0) :
    accAt0 V c t.val t.isLt = (sumStep0 V c t (accAt0 V c (t.val - 1) (Nat.lt_of_le_of_lt (Nat.sub_le _ _) t.isLt)).1,
      sqStep0 V c t (accAt0 V c (t.val - 1) (Nat.lt_of_le_of_lt (Nat.sub_le _ _) t.isLt)).2) := by
  obtain ⟨n, hn⟩ := t
  cases n with
  | zero => exact absurd rfl h
  | succ n => rfl

/-! ## The invariant: the two accumulators between points -/

/-- The call's two scratch operands, whole scoped buffers of its own. -/
abbrev scM0_0 : Memref sig .tc .vmem S1x128 .f32 := Memref.whole cc0_scratch0
abbrev scM0_1 : Memref sig .tc .vmem S1x128 .f32 := Memref.whole cc0_scratch1

/-- The region invariant before position `n`: before the first point every scoped buffer at anything and the generator
    register at some state; afterwards the two accumulators at what the point before left, the other scoped buffers at
    anything, the register at some state. -/
def PhiS0 (c : Dev nD) : (n : ℕ) → n ≤ cfg0.N → sProp 𝕄
  | 0, _ => Pipeline.ΦA spec0 c
  | n + 1, hn => iprop(iprop(iprop(owns (c : Thread nD τ) scM0_0 fullShare (accAt0 V c n hn).1 ∗ owns (c : Thread nD τ) scM0_1 fullShare (accAt0 V c n hn).2)
      ∗ Pipeline.scopedRestBut (Ix := Unit) (Name := ℕ) (U := UR sig nD τ) (Lvl := ℕ) (Val := Elt F) spec0 c [cc0_scratch0, cc0_scratch1]) ∗ ∃ r, prngReg c r)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accAt0 V c n hn).1 ∗ owns (c : Thread nD τ) scM0_1 fullShare (accAt0 V c n hn).2)
      ∗ Pipeline.scopedRestBut (Ix := Unit) (Name := ℕ) (U := UR sig nD τ) (Lvl := ℕ) (Val := Elt F) spec0 c [cc0_scratch0, cc0_scratch1]) ∗ ∃ r, prngReg c r) := rfl

theorem PhiS0_pos (c : Dev nD) (n : ℕ) (h : n ≤ cfg0.N) (hz : n ≠ 0) :
    PhiS0 V c n h = iprop(iprop(iprop(owns (c : Thread nD τ) scM0_0 fullShare (accAt0 V c (n - 1) (by omega)).1 ∗ owns (c : Thread nD τ) scM0_1 fullShare (accAt0 V c (n - 1) (by omega)).2)
      ∗ Pipeline.scopedRestBut (Ix := Unit) (Name := ℕ) (U := UR sig nD τ) (Lvl := ℕ) (Val := Elt F) spec0 c [cc0_scratch0, cc0_scratch1]) ∗ ∃ r, prngReg c r) := by
  cases n with
  | zero => exact absurd rfl hz
  | succ n => rfl

/-- The scoped rest with the two accumulators taken out, each at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ ∃ r, prngReg c r) := by
  unfold Pipeline.ΦA; rw [scopedRest0_split]; simp only [scM0_0, scM0_1, owns_whole]; try rfl

/-! ## The proof data -/

/-- The proof data of the call on core `c`: the arrays as the region finds them; after the body at point `t` each
    input's buffer at its block, window 4's at the block of `z`, windows 5 and 6 at the two accumulators after `t`
    (consulted at the last point only: before it the windows are idle); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => zAt0 V c t
    | ⟨5, _⟩ => (accAt0 V c t.val t.isLt).1
    | ⟨6, _⟩ => (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = zAt0 V c t := by dsimp only [dat0]
theorem after0_5 (c : Dev nD) (t : Fin cfg0.N) : (dat0 V c).after 5 t = (accAt0 V c t.val t.isLt).1 := by dsimp only [dat0]
theorem after0_6 (c : Dev nD) (t : Fin cfg0.N) : (dat0 V c).after 6 t = (accAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- Before the last point window 5 is idle and not written back; at the last point it is live. -/
theorem idleAt0_5 : ∀ t : Fin cfg0.N, ¬cond0_last (grid0.coords t) → cfg0.idle 5 (grid0.coords t) = true := by decide +kernel
theorem noFlush0_5 : ∀ t : Fin cfg0.N, ¬cond0_last (grid0.coords t) → (cfg0.win 5).flush t = false := by decide +kernel
theorem liveAt0_5 : ∀ t : Fin cfg0.N, cond0_last (grid0.coords t) → cfg0.idle 5 (grid0.coords t) = false := by decide +kernel
/-- Before the last point window 6 is idle and not written back; at the last point it is live. -/
theorem idleAt0_6 : ∀ t : Fin cfg0.N, ¬cond0_last (grid0.coords t) → cfg0.idle 6 (grid0.coords t) = true := by decide +kernel
theorem noFlush0_6 : ∀ t : Fin cfg0.N, ¬cond0_last (grid0.coords t) → (cfg0.win 6).flush t = false := by decide +kernel
theorem liveAt0_6 : ∀ t : Fin cfg0.N, cond0_last (grid0.coords t) → cfg0.idle 6 (grid0.coords t) = false := by decide +kernel

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point: the inputs' buffers hold their blocks; the point is the first, a middle one or the last, and
    that case's run applies; the invariant hands the body the two accumulators at what the point before left (at
    anything at the first point) and takes them back advanced; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  unfold zAt0
  have hN : t.val < 10 := lt_of_lt_of_eq t.isLt (show cfg0.N = 10 from N_0)
  by_cases h0 : t.val = 0
  · have hcf : cond0_first (grid0.coords t) := (hcond0_first t).mpr h0
    have hcl : ¬cond0_last (grid0.coords t) := fun h => by have := (hcond0_last t).mp h; omega
    rw [Dat.leavesExact_idle (dat0 V c) 5 t (idleAt0_5 t hcl) (noFlush0_5 t hcl),
      Dat.leavesExact_idle (dat0 V c) 6 t (idleAt0_6 t hcl) (noFlush0_6 t hcl)]
    rw [PhiS0_castSucc V c t, PhiS0_zero V c _ _ h0, PhiA0_eq, accAt0_zero V c t h0]
    dsimp only; unfold sumStep0 sqStep0
    iintro ⟨⟨⟨⟨⟨%d8, HS0⟩, ⟨%d9, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run0_first c Set.univ (grid0.coords t) _ _ _ _ _ _ _ _ _ _ _ _ _ _ _ _ _ _ hcf hcl (iblk0 V c 0 t) (iblk0 V c 1 t) (iblk0 V c 2 t) (iblk0 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexists _; iexact HS0
    isplitl [HS1]; · iexists _; iexact HS1
    iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hcf : ¬cond0_first (grid0.coords t) := fun h => h0 ((hcond0_first t).mp h)
    rw [PhiS0_castSucc V c t, PhiS0_pos V c _ _ h0, accAt0_pos V c t h0]
    by_cases h9 : t.val = 9
    · have hcl : cond0_last (grid0.coords t) := (hcond0_last t).mpr h9
      rw [show (dat0 V c).leavesExact 5 t = owns (c : Thread nD τ) (st0_5 t) fullShare ((dat0 V c).after 5 t) from by
        unfold Dat.leavesExact; rw [liveAt0_5 t hcl], after0_5]
      rw [show (dat0 V c).leavesExact 6 t = owns (c : Thread nD τ) (st0_6 t) fullShare ((dat0 V c).after 6 t) from by
        unfold Dat.leavesExact; rw [liveAt0_6 t hcl], after0_6]
      rw [accAt0_pos V c t h0]
      dsimp only; unfold sumStep0 sqStep0
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_last c Set.univ (grid0.coords t) _ _ _ _ _ _ _ _ _ _ _ _ _ _ _ _ _ _ hcf hcl (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hcl : ¬cond0_last (grid0.coords t) := fun h => h9 ((hcond0_last t).mp h)
      rw [Dat.leavesExact_idle (dat0 V c) 5 t (idleAt0_5 t hcl) (noFlush0_5 t hcl),
        Dat.leavesExact_idle (dat0 V c) 6 t (idleAt0_6 t hcl) (noFlush0_6 t hcl)]
      dsimp only; unfold sumStep0 sqStep0
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run0_mid c Set.univ (grid0.coords t) _ _ _ _ _ _ _ _ _ _ _ _ _ _ _ _ _ _ hcf hcl (iblk0 V c 0 t) (iblk0 V c 1 t) (iblk0 V c 2 t) (iblk0 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the region is entered with (the generator register at some state, every scoped buffer at anything) is the
    invariant before the first point. -/
theorem Phi_first0 (c : Dev nD) :
    iprop((∃ r, prngReg c r) ∗ Pipeline.scopedRest (Ix := Unit) (Name := ℕ) (U := UR sig nD τ) (Lvl := ℕ) (Val := Elt F) spec0 c) ⊢ ((dat0 V c).Φ 0 : sProp 𝕄) := by
  rw [show (dat0 V c).Φ 0 = Pipeline.ΦA spec0 c from rfl]; unfold Pipeline.ΦA
  iintro ⟨Hp, Hr⟩
  isplitl [Hr]; · iexact Hr
  iexact Hp

/-- After any point but the first the invariant gives the scoped rest back: the accumulators' contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point, in the form the region's exit takes it. -/
theorem Phi_last0 (c : Dev nD) :
    ((dat0 V c).Φ (Fin.last cfg0.N) : sProp 𝕄) ⊢ iprop((∃ r, prngReg c r) ∗ Pipeline.scopedRest (Ix := Unit) (Name := ℕ) (U := UR sig nD τ) (Lvl := ℕ) (Val := Elt F) spec0 c) := by
  refine (Phi_out0 V c _ (by rw [Fin.val_last]; have : cfg0.N = 10 := N_0; omega)).trans ?_
  unfold Pipeline.ΦA
  iintro ⟨Hr, Hp⟩
  isplitl [Hp]; · iexact Hp
  iexact Hr

end Cert.KernelIdeal.Hand
end
-- ==== Proof.KI.BLib.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 whole-buffer access. -/
theorem zeros2_B : (![0, 0] : Fin 2 → Nat) = fun _ => 0 := funext fun a => by fin_cases a <;> rfl

/-- After writes the LAST of which stores `w` through the whole-shape rectangle at zero offsets, a buffer reads `w`,
    whatever the earlier writes and the prior contents were. -/
theorem read_writes_head_whole_B {sig : RefSig} {κ : Kind} {sp : Space} {S : Shape} {e : EltTy}
    (v : View sig κ sp S e) (f : v.ty.Contents (Elt F)) {off : Fin S.rank → Nat} (hoff : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero hoff inb y⟩),
    View.canon_cons_unit_zero hoff inb]

end Cert.KernelIdeal.Hand
-- ==== Proof.KI.B1.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«102976_j3633542332749_1_alg».proof.Proof.KI.BLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the point is the grid's first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- The second: the point is the grid's last. -/
abbrev cond1_1 (i : grid1.Coords) : Prop := k1_cond2 i = 1#1
theorem hcond1_1 : ∀ t : Fin cfg1.N, cond1_1 (grid1.coords t) ↔ t.val = 9 :=
  (by decide +kernel : ∀ t : Fin grid1.N, cond1_1 (grid1.coords t) ↔ t.val = 9)

/-! ## The body's triple, in its three control cases

The body on whole staging memrefs: the five inputs at read contents, the z2 window at anything, the two scratch
accumulators; it leaves the inputs as they were, the z2 window at the block of z2 (the skeleton's `k1_pay4`), the
accumulators with this block's column sums added (`k1_pay5`, `k1_pay1`). At the first point the accumulators
are zeroed first (`k1_pay2`, `k1_pay3`); at the last the two sums' windows receive the accumulators; at the
other points those windows are not touched. -/

set_option maxHeartbeats 1000000 in
theorem kernelB1_first (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond1_0 i) (hc1 : ¬cond1_1 i)
    (x0 : Vec F S5000x128 .f32) (x1 x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay4 x0 x1 x2 x3 x4)
            ∗ owns (c : Thread nD τ) arg9 fullShare (k1_pay5 x0 x1 x2 x3 x4 k1_pay2)
            ∗ owns (c : Thread nD τ) arg10 fullShare (k1_pay1 (k1_pay4 x0 x1 x2 x3 x4) k1_pay3)) -∗ K ⟨⟩))
      ⊢ wp frame (wpE (defs₀ (F := F)) Variants.none c none) E (cc1__kernelB i arg1 harg1 arg2 harg2 arg3 harg3 arg4 harg4 arg5 harg5 arg6 harg6 arg7 harg7 arg8 harg8 arg9 harg9 arg10 harg10) K := by
  simp only [cc1__kernelB_eq_skeleton]; unfold cc1__kernelB_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread,
    View.ld_unit_zero (S := S5000x128) zeros2_B, View.ld_unit_zero (S := S1x128) zeros2_B, View.ld_unit_zero (S := S128x128) zeros2_B]

set_option maxHeartbeats 1000000 in
theorem kernelB1_mid (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond1_0 i) (hc1 : ¬cond1_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay4 x0 x1 x2 x3 x4)
            ∗ owns (c : Thread nD τ) arg9 fullShare (k1_pay5 x0 x1 x2 x3 x4 s0)
            ∗ owns (c : Thread nD τ) arg10 fullShare (k1_pay1 (k1_pay4 x0 x1 x2 x3 x4) s1)) -∗ K ⟨⟩))
      ⊢ wp frame (wpE (defs₀ (F := F)) Variants.none c none) E (cc1__kernelB i arg1 harg1 arg2 harg2 arg3 harg3 arg4 harg4 arg5 harg5 arg6 harg6 arg7 harg7 arg8 harg8 arg9 harg9 arg10 harg10) K := by
  simp only [cc1__kernelB_eq_skeleton]; unfold cc1__kernelB_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

set_option maxHeartbeats 1000000 in
theorem kernelB1_last (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond1_0 i) (hc1 : cond1_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k1_pay4 x0 x1 x2 x3 x4)
            ∗ owns (c : Thread nD τ) arg7 fullShare (k1_pay5 x0 x1 x2 x3 x4 s0)
            ∗ owns (c : Thread nD τ) arg8 fullShare (k1_pay1 (k1_pay4 x0 x1 x2 x3 x4) s1)
            ∗ owns (c : Thread nD τ) arg9 fullShare (k1_pay5 x0 x1 x2 x3 x4 s0)
            ∗ owns (c : Thread nD τ) arg10 fullShare (k1_pay1 (k1_pay4 x0 x1 x2 x3 x4) s1)) -∗ K ⟨⟩))
      ⊢ wp frame (wpE (defs₀ (F := F)) Variants.none c none) E (cc1__kernelB i arg1 harg1 arg2 harg2 arg3 harg3 arg4 harg4 arg5 harg5 arg6 harg6 arg7 harg7 arg8 harg8 arg9 harg9 arg10 harg10) K := by
  simp only [cc1__kernelB_eq_skeleton]; unfold cc1__kernelB_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H6]
  · iexists _; isplitr
    swap; · iexact H6
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H7]
  · iexists _; isplitr
    swap; · iexact H7
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What the body computes, point by point -/

/-- The block of z2 = max(z1·scale + shift, 0)·W + b the body stores at point `t`. -/
def z2blk1 (c : Dev nD) (t : Fin cfg1.N) : Vec F S5000x128 .f32 :=
  k1_pay4 (iblk1 V c 0 t) (iblk1 V c 1 t) (iblk1 V c 2 t) (iblk1 V c 3 t) (iblk1 V c 4 t)

/-- The running column sums of z2 after point `n`: zero, then each point's block added in order. -/
def sum1 (c : Dev nD) : (n : ℕ) → n < cfg1.N → Vec F S1x128 .f32
  | 0, h => k1_pay5 (iblk1 V c 0 ⟨0, h⟩) (iblk1 V c 1 ⟨0, h⟩) (iblk1 V c 2 ⟨0, h⟩) (iblk1 V c 3 ⟨0, h⟩) (iblk1 V c 4 ⟨0, h⟩) k1_pay2
  | n + 1, h => k1_pay5 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩)
      (sum1 c n (Nat.lt_of_succ_lt h))

/-- The running column sums of z2² after point `n`. -/
def sumsq1 (c : Dev nD) : (n : ℕ) → n < cfg1.N → Vec F S1x128 .f32
  | 0, h => k1_pay1 (z2blk1 V c ⟨0, h⟩) k1_pay3
  | n + 1, h => k1_pay1 (z2blk1 V c ⟨n + 1, h⟩) (sumsq1 c n (Nat.lt_of_succ_lt h))

theorem sum1_first (c : Dev nD) (t : Fin cfg1.N) (h0 : t.val = 0) :
    sum1 V c t.val t.isLt = k1_pay5 (iblk1 V c 0 t) (iblk1 V c 1 t) (iblk1 V c 2 t) (iblk1 V c 3 t) (iblk1 V c 4 t) k1_pay2 := by
  obtain ⟨n, hn⟩ := t
  cases n with
  | zero => rfl
  | succ n => exact absurd h0 (Nat.succ_ne_zero n)

theorem sum1_next (c : Dev nD) (t : Fin cfg1.N) (h0 : t.val ≠ 0) :
    sum1 V c t.val t.isLt = k1_pay5 (iblk1 V c 0 t) (iblk1 V c 1 t) (iblk1 V c 2 t) (iblk1 V c 3 t) (iblk1 V c 4 t)
      (sum1 V c (t.val - 1) (Nat.lt_of_le_of_lt (Nat.sub_le _ _) t.isLt)) := by
  obtain ⟨n, hn⟩ := t
  cases n with
  | zero => exact absurd rfl h0
  | succ n => rfl

theorem sumsq1_first (c : Dev nD) (t : Fin cfg1.N) (h0 : t.val = 0) :
    sumsq1 V c t.val t.isLt = k1_pay1 (z2blk1 V c t) k1_pay3 := by
  obtain ⟨n, hn⟩ := t
  cases n with
  | zero => rfl
  | succ n => exact absurd h0 (Nat.succ_ne_zero n)

theorem sumsq1_next (c : Dev nD) (t : Fin cfg1.N) (h0 : t.val ≠ 0) :
    sumsq1 V c t.val t.isLt = k1_pay1 (z2blk1 V c t) (sumsq1 V c (t.val - 1) (Nat.lt_of_le_of_lt (Nat.sub_le _ _) t.isLt)) := by
  obtain ⟨n, hn⟩ := t
  cases n with
  | zero => exact absurd rfl h0
  | succ n => rfl

/-! ## The region invariant -/

/-- The two accumulators the kernel keeps in scratch between points, as memrefs. -/
abbrev sc1_0 : Memref sig .tc .vmem S1x128 .f32 := Memref.whole cc1_scratch0
abbrev sc1_1 : Memref sig .tc .vmem S1x128 .f32 := Memref.whole cc1_scratch1

/-- The class invariant with the two accumulators taken out of the scoped rest, each at some contents. -/
theorem PhiA1_eq (c : Dev nD) :
    (Pipeline.ΦA spec1 c : sProp 𝕄)
      = iprop(iprop(iprop((∃ d, owns (c : Thread nD τ) sc1_0 fullShare d) ∗ (∃ d, owns (c : Thread nD τ) sc1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [sc1_0, sc1_1, owns_whole]; try rfl

/-- The invariant before position `n`: before the first point the class's; afterwards the two accumulators at the
    running sums after the point before, the other scoped buffers at anything, the generator register at some state. -/
def Phi1 (c : Dev nD) : (n : ℕ) → n ≤ cfg1.N → sProp 𝕄
  | 0, _ => Pipeline.ΦA spec1 c
  | n + 1, hn => iprop(iprop(iprop(owns (c : Thread nD τ) sc1_0 fullShare (sum1 V c n hn) ∗ owns (c : Thread nD τ) sc1_1 fullShare (sumsq1 V c n hn))
          ∗ Pipeline.scopedRestBut (Ix := Unit) (Name := ℕ) (U := UR sig nD τ) (Lvl := ℕ) (Val := Elt F) spec1 c [cc1_scratch0, cc1_scratch1])
          ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(iprop(owns (c : Thread nD τ) sc1_0 fullShare (sum1 V c n hn) ∗ owns (c : Thread nD τ) sc1_1 fullShare (sumsq1 V c n hn))
          ∗ Pipeline.scopedRestBut (Ix := Unit) (Name := ℕ) (U := UR sig nD τ) (Lvl := ℕ) (Val := Elt F) spec1 c [cc1_scratch0, cc1_scratch1])
          ∗ (∃ r, prngReg c r)) := rfl

theorem Phi1_pos (c : Dev nD) (n : ℕ) (h : n ≤ cfg1.N) (hz : n ≠ 0) :
    Phi1 V c n h = iprop(iprop(iprop(owns (c : Thread nD τ) sc1_0 fullShare (sum1 V c (n - 1) (by omega)) ∗ owns (c : Thread nD τ) sc1_1 fullShare (sumsq1 V c (n - 1) (by omega)))
          ∗ Pipeline.scopedRestBut (Ix := Unit) (Name := ℕ) (U := UR sig nD τ) (Lvl := ℕ) (Val := Elt F) spec1 c [cc1_scratch0, cc1_scratch1])
          ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block, the z2 window at the point's block of z2, the two sums' windows at the running
    sums; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => z2blk1 V c t
    | ⟨6, _⟩ => sum1 V c t.val t.isLt
    | ⟨7, _⟩ => sumsq1 V c t.val t.isLt
  Φ t := Phi1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = z2blk1 V c t := by dsimp only [dat1]
theorem after1_6 (c : Dev nD) (t : Fin cfg1.N) : (dat1 V c).after 6 t = sum1 V c t.val t.isLt := by dsimp only [dat1]
theorem after1_7 (c : Dev nD) (t : Fin cfg1.N) : (dat1 V c).after 7 t = sumsq1 V c t.val t.isLt := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- The invariant at a point's start, restated at `t.val`. -/
theorem Phi1_castSucc (c : Dev nD) (t : Fin cfg1.N) :
    (dat1 V c).Φ t.castSucc = Phi1 V c t.val (Nat.le_of_lt t.isLt) := by
  dsimp only [dat1]; simp only [Fin.coe_castSucc]

/-- and at its end. -/
theorem Phi1_fsucc (c : Dev nD) (t : Fin cfg1.N) :
    (dat1 V c).Φ t.succ = Phi1 V c (t.val + 1) t.isLt := by
  dsimp only [dat1]; simp only [Fin.val_succ]

/-! ## Where the sums' windows are idle -/

theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
theorem live1_5 : ∀ t : Fin cfg1.N, cfg1.idle 5 (grid1.coords t) = false := fun _ => rfl
theorem idle1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem live1_6 : ∀ t : Fin cfg1.N, cond1_1 (grid1.coords t) → cfg1.idle 6 (grid1.coords t) = false := by decide +kernel
theorem idle1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem live1_7 : ∀ t : Fin cfg1.N, cond1_1 (grid1.coords t) → cfg1.idle 7 (grid1.coords t) = false := by decide +kernel

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at any point: the inputs' memrefs hold their blocks; the point is the first, the last or neither; the
    invariant hands the body the two accumulators (at anything at the first point, at the running sums after the point
    before otherwise) and takes them back at this point's running sums; the sums' windows are left untouched except at
    the last point, where they receive the accumulators; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [Phi1_fsucc, Phi1_succ, Phi1_castSucc]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  rw [show (dat1 V c).leavesExact 2 t = owns (c : Thread nD τ) (st1_2 t) fullShare ((dat1 V c).after 2 t) from by
    unfold Dat.leavesExact; rw [live1_2 t], after1_2]
  rw [show (dat1 V c).leavesExact 3 t = owns (c : Thread nD τ) (st1_3 t) fullShare ((dat1 V c).after 3 t) from by
    unfold Dat.leavesExact; rw [live1_3 t], after1_3]
  rw [show (dat1 V c).leavesExact 4 t = owns (c : Thread nD τ) (st1_4 t) fullShare ((dat1 V c).after 4 t) from by
    unfold Dat.leavesExact; rw [live1_4 t], after1_4]
  rw [show (dat1 V c).leavesExact 5 t = owns (c : Thread nD τ) (st1_5 t) fullShare ((dat1 V c).after 5 t) from by
    unfold Dat.leavesExact; rw [live1_5 t], after1_5]
  have hN : t.val < 10 := lt_of_lt_of_eq t.isLt (show cfg1.N = 10 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 6 t (idle1_6 t hc1) (noFlush1_6 t hc1),
      Dat.leavesExact_idle (dat1 V c) 7 t (idle1_7 t hc1) (noFlush1_7 t hc1)]
    rw [Phi1_zero V c _ _ h0, PhiA1_eq, sum1_first V c t h0, sumsq1_first V c t h0]
    unfold z2blk1
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
    iapply (kernelB1_first c Set.univ (grid1.coords t) _ _ _ _ _ _ _ _ _ _ _ _ _ _ _ _ _ _ _ _ hc0 hc1 (iblk1 V c 0 t) (iblk1 V c 1 t) (iblk1 V c 2 t) (iblk1 V c 3 t) (iblk1 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h9 : t.val = 9
    · have hc0 : ¬cond1_0 (grid1.coords t) := fun h => h0 ((hcond1_0 t).mp h)
      have hc1 : cond1_1 (grid1.coords t) := (hcond1_1 t).mpr h9
      rw [show (dat1 V c).leavesExact 6 t = owns (c : Thread nD τ) (st1_6 t) fullShare ((dat1 V c).after 6 t) from by
        unfold Dat.leavesExact; rw [live1_6 t hc1], after1_6]
      rw [show (dat1 V c).leavesExact 7 t = owns (c : Thread nD τ) (st1_7 t) fullShare ((dat1 V c).after 7 t) from by
        unfold Dat.leavesExact; rw [live1_7 t hc1], after1_7]
      rw [Phi1_pos V c _ _ h0, sum1_next V c t h0, sumsq1_next V c t h0]
      unfold z2blk1
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelB1_last c Set.univ (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc0 : ¬cond1_0 (grid1.coords t) := fun h => h0 ((hcond1_0 t).mp h)
      have hc1 : ¬cond1_1 (grid1.coords t) := fun h => h9 ((hcond1_1 t).mp h)
      rw [Dat.leavesExact_idle (dat1 V c) 6 t (idle1_6 t hc1) (noFlush1_6 t hc1),
        Dat.leavesExact_idle (dat1 V c) 7 t (idle1_7 t hc1) (noFlush1_7 t hc1)]
      rw [Phi1_pos V c _ _ h0, sum1_next V c t h0, sumsq1_next V c t h0]
      unfold z2blk1
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
      iapply (kernelB1_mid c Set.univ (grid1.coords t) _ _ _ _ _ _ _ _ _ _ _ _ _ _ _ _ _ _ _ _ hc0 hc1 (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's ends -/

/-- What the launch hands the region is the invariant before the first point. -/
theorem Phi_first1 (c : Dev nD) : iprop((∃ r, prngReg c r) ∗ Pipeline.scopedRest spec1 c) ⊢ ((dat1 V c).Φ 0 : sProp 𝕄) := by
  rw [show (dat1 V c).Φ 0 = Phi1 V c 0 (Nat.zero_le _) from rfl, Phi1_zero V c 0 _ rfl]; unfold Pipeline.ΦA
  iintro ⟨Hp, Hr⟩
  isplitl [Hr]; · iexact Hr
  iexact Hp

/-- After the last point the invariant gives the scoped rest back: the accumulators' named contents are forgotten. -/
theorem Phi_last1 (c : Dev nD) : ((dat1 V c).Φ (Fin.last cfg1.N) : sProp 𝕄) ⊢ iprop((∃ r, prngReg c r) ∗ Pipeline.scopedRest spec1 c) := by
  have e : (iprop((∃ r, prngReg c r) ∗ Pipeline.scopedRest spec1 c) : sProp 𝕄) = iprop((∃ r, prngReg c r) ∗ iprop(iprop((∃ d, owns (c : Thread nD τ) sc1_0 fullShare d) ∗ (∃ d, owns (c : Thread nD τ) sc1_1 fullShare d))
          ∗ Pipeline.scopedRestBut (Ix := Unit) (Name := ℕ) (U := UR sig nD τ) (Lvl := ℕ) (Val := Elt F) spec1 c [cc1_scratch0, cc1_scratch1])) := by
    rw [scopedRest1_split]; simp only [sc1_0, sc1_1, owns_whole]; try rfl
  rw [e, show (dat1 V c).Φ (Fin.last cfg1.N) = Phi1 V c (Fin.last cfg1.N).val (Nat.le_of_lt_succ (Fin.last cfg1.N).isLt) from rfl,
    Phi1_pos V c _ _ (by rw [Fin.val_last]; have : cfg1.N = 10 := N_1; omega)]
  iintro ⟨⟨⟨HS0, HS1⟩, Hrest⟩, Hg⟩
  isplitl [Hg]; · iexact Hg
  isplitl [HS0 HS1]
  · isplitl [HS0]
    · iexists _; iexact HS0
    iexists _; iexact HS1
  iexact Hrest

end Cert.KernelIdeal.Hand

end
-- ==== Proof.KI.C2.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

/-! # The normalise-and-rectify call number 2: one row block per grid point

The call maps a block `z` of 5000 rows by 128 features, a row of 128 scales `s` and a row of 128 shifts `b` to
`max (z * s + b) 0`, entry by entry, the two rows repeated down the block. Its grid has ten points; point `t` reads rows
`5000 t … 5000 t + 4999` of the array and writes the same rows of the result; the two rows are the same block at every
point. This file states, for arbitrary contents `V` of the buffers when the call is entered, what each window's
staging buffer holds before and after the body at every point, and proves that the body run on those buffers returns
them so. -/

-- membership in a rectangle with an axis of 5000 rows: the elaborator's structural look recurses once per coordinate of
-- the long axis (5000 deep, never once per entry)
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: everything below is stated at this parameter
variable (V : (c : Dev nD) → (b : Ref sig .tc) → Buf (Elt F) ((c : Thread nD τ).loc b))

/-! ## The windows' blocks -/

/-- Window `w`'s block at point `t`, read off its array as the call finds it (`V`): for window 0 the rows
    `5000 t …` of the pre-activation, for windows 1 and 2 the whole row of scales and of shifts. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block window's current staging buffer holds its block at every point, for any proof data whose array is
    `V`'s (`hA`) and whose body leaves the block in place (`hafter`). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The scale row's staging buffer holds the row at every point: fetched at the first point, and at a later point the
    block index has not moved, so what the body left is still that row. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The shift row's staging buffer holds the row at every point, for the same reason. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 5000 by 128 block, as the rectangle the body loads and stores. -/
abbrev r2_blk : Rect S5000x128 := Rect.unit (s := S5000x128) ![0, 0] S5000x128.size inb_S5000x128_S5000x128_0_0
/-- The whole 1 by 128 row, as the rectangle the body loads. -/
abbrev r2_row : Rect S1x128 := Rect.unit (s := S1x128) ![0, 0] S1x128.size inb_S1x128_S1x128_0_0

/-! ## What the body leaves in the output window's buffer -/

/-- The output block after the body, from the three input blocks: one store of the whole block, whose value is
    `max (z * s + b) 0` of the block, the scale row and the shift row (`k2_pay1`). -/
def out2_3 (x0 : Vec F S5000x128 .f32) (x1 : Vec F S1x128 .f32) (x2 : Vec F S1x128 .f32) : Vec F S5000x128 .f32 :=
  View.canon [⟨r2_blk, k2_pay1 (View.ld x0 r2_blk) (View.ld x1 r2_row) (View.ld x2 r2_row)⟩]

/-- The one store is the whole block, so it covers it. -/
theorem cover2_3 (p0 : Vec F S5000x128 .f32) (y : S5000x128.Idx) :
    ∃ pc ∈ ([⟨r2_blk, p0⟩] : List (View.Piece (Elt F) S5000x128 .f32)), y ∈ pc.1.set :=
  View.cover_of_tiled [⟨r2_blk, p0⟩] S5000x128.size (by rfl) y

/-! ## The body's triple -/

set_option maxHeartbeats 1000000 in
/-- The body on whole staging memrefs, the three inputs' at contents `x0`, `x1`, `x2` and the output's at anything,
    runs to the continuation holding the inputs' as they were and the output's at `out2_3 x0 x1 x2`. -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__kernelC i arg1 harg1 arg2 harg2 arg3 harg3 arg4 harg4) K := by
  simp only [cc2__kernelC_eq_skeleton]; unfold cc2__kernelC_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The call's proof data -/

/-- The proof data of call 2 on core `c`: the arrays as the call finds them (`V`); after the body at point `t` each
    input's buffer still at its block and the output's at `out2_3` of the three input blocks; the invariant is the
    untouched rest; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_w`), so `sound_kernel2` applies; the
    invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the launch theorems, at every point. -/
theorem body_obligation2 (c : Dev nD) : BodyObligation (dat2 (F := F) V c) (defs₀ (F := F)) Variants.none () Set.univ := fun t => by
  rw [bigSep_W2, bigSep_W2]
  exact sound_body2 V c t

/-! ## The invariant at the first and at the last point -/

/-- The invariant at the first point is made of the generator register and the scoped buffers no window stages, -/
theorem Phi_first2 (c : Dev nD) :
    iprop((∃ r, prngReg c r) ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Pipeline.ΦA spec2 c from rfl]; unfold Pipeline.ΦA
  iintro ⟨Hp, Hr⟩
  isplitl [Hr]; · iexact Hr
  iexact Hp

/-- and at the last point it gives both back. -/
theorem Phi_last2 (c : Dev nD) :
    ((dat2 V c).Φ (Fin.last cfg2.N) : sProp 𝕄)
      ⊢ iprop((∃ r, prngReg c r) ∗ Pipeline.scopedRest (Ix := Unit) (Name := ℕ) (U := UR sig nD τ) (Lvl := ℕ) (Val := Elt F) spec2 c) := by
  rw [show (dat2 V c).Φ (Fin.last _) = Pipeline.ΦA spec2 c from rfl]; unfold Pipeline.ΦA
  iintro ⟨Hr, Hp⟩
  isplitl [Hp]; · iexact Hp
  iexact Hr

end Cert.KernelIdeal.Hand
-- ==== Proof.KI.A3Run.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import proofs.«102976_j3633542332749_1_alg».proof.Proof.KI.ALib
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of custom_call 3: one row block of the linear layer, with running column sums

At grid point `i` the body reads a block `x0` of the features, the matching block `x1` of the aggregated
neighbours, the weight matrix `x2` and the bias row `x3`, stores the block `z = (x0 + x1)·x2 + x3` into the
fifth operand, and adds the column sums of `z` and of `z²` to two accumulator rows (the last two operands), which
it first zeroes at the first point; at the last point it copies the two accumulators into the sixth and seventh
operands. Three control cases over the grid: first, middle, last. -/

/-- The first `pl.when`: the grid coordinate is 0 (the accumulators are zeroed). -/
abbrev cond3_first (i : grid3.Coords) : Prop := (Scalar.cmpi .ne (Scalar.extui (Scalar.cmpi .eq (BitVec.ofNat 32 (i 0).val) 0#32)) 0#32) = 1#1
/-- It holds at point 0 only. -/
theorem hcond3_first : ∀ t : Fin cfg3.N, cond3_first (grid3.coords t) ↔ t.val = 0 :=
  (by decide +kernel : ∀ t : Fin grid3.N, cond3_first (grid3.coords t) ↔ t.val = 0)
/-- The second `pl.when`: the grid coordinate is the last (the accumulators are copied out). -/
abbrev cond3_last (i : grid3.Coords) : Prop := k3_cond2 i = 1#1
/-- It holds at point 9 only. -/
theorem hcond3_last : ∀ t : Fin cfg3.N, cond3_last (grid3.coords t) ↔ t.val = 9 :=
  (by decide +kernel : ∀ t : Fin grid3.N, cond3_last (grid3.coords t) ↔ t.val = 9)

/-- A buffer's contents after a last whole-buffer store are that store's payload, a load after such a store reads
    the payload back, and a whole-buffer load reads the contents. -/
local macro "close_whole" : tactic => `(tactic| (
  (try sl_unfold_run_names)
  rw [read_writes_whole_last_A _ _ hz_A]
  (try rw [View.readCov_unit_zero _ hz_A])
  (try simp only [readAt_whole_A (S := S5000x128) _ _ hz_A, readAt_whole_A (S := S128x128) _ _ hz_A, readAt_whole_A (S := S1x128) _ _ hz_A])))

set_option maxHeartbeats 1000000 in
/-- The body at the FIRST point: the accumulators, whatever they held, are zeroed and then advanced by the block's
    column sums; the block `z` stored; the two statistics operands untouched. -/
theorem run3_first (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond3_first i) (hc1 : ¬cond3_last i)
    (x0 x1 : Vec F S5000x128 .f32) (x2 : Vec F S128x128 .f32) (x3 : Vec F S1x128 .f32) (y5 y6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k3_pay3 x0 x1 x2 x3) ∗ owns (c : Thread nD τ) arg6 fullShare y5 ∗ owns (c : Thread nD τ) arg7 fullShare y6
            ∗ owns (c : Thread nD τ) arg8 fullShare (k3_pay4 x0 x1 x2 x3 k3_pay1) ∗ owns (c : Thread nD τ) arg9 fullShare (k3_pay5 x0 x1 x2 x3 k3_pay2)) -∗ K ⟨⟩))
      ⊢ wp frame (wpE (defs₀ (F := F)) Variants.none c none) E (cc3__kernelA i arg1 harg1 arg2 harg2 arg3 harg3 arg4 harg4 arg5 harg5 arg6 harg6 arg7 harg7 arg8 harg8 arg9 harg9) K := by
  simp only [cc3__kernelA_eq_skeleton]; unfold cc3__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d8, %f8, -, H8⟩, ⟨%d9, %f9, -, H9⟩, Hk⟩
  subst hf0; subst hf1; subst hf2; subst hf3; subst hf5; subst hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at a MIDDLE point: the block `z` stored, each accumulator advanced by the block's column sums; the two
    statistics operands untouched. -/
theorem run3_mid (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond3_first i) (hc1 : ¬cond3_last i)
    (x0 x1 : Vec F S5000x128 .f32) (x2 : Vec F S128x128 .f32) (x3 : Vec F S1x128 .f32) (y5 y6 s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k3_pay3 x0 x1 x2 x3) ∗ owns (c : Thread nD τ) arg6 fullShare y5 ∗ owns (c : Thread nD τ) arg7 fullShare y6
            ∗ owns (c : Thread nD τ) arg8 fullShare (k3_pay4 x0 x1 x2 x3 s8) ∗ owns (c : Thread nD τ) arg9 fullShare (k3_pay5 x0 x1 x2 x3 s9)) -∗ K ⟨⟩))
      ⊢ wp frame (wpE (defs₀ (F := F)) Variants.none c none) E (cc3__kernelA i arg1 harg1 arg2 harg2 arg3 harg3 arg4 harg4 arg5 harg5 arg6 harg6 arg7 harg7 arg8 harg8 arg9 harg9) K := by
  simp only [cc3__kernelA_eq_skeleton]; unfold cc3__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f8, %hf8, H8⟩, ⟨%f9, %hf9, H9⟩, Hk⟩
  subst hf0; subst hf1; subst hf2; subst hf3; subst hf5; subst hf6; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at the LAST point: the block `z` stored, each accumulator advanced, and the two statistics operands,
    whatever they held, overwritten with the advanced accumulators. -/
theorem run3_last (c : Dev nD) (E : Set ℕ) (i : grid3.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond3_first i) (hc1 : cond3_last i)
    (x0 x1 : Vec F S5000x128 .f32) (x2 : Vec F S128x128 .f32) (x3 : Vec F S1x128 .f32) (s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k3_pay3 x0 x1 x2 x3) ∗ owns (c : Thread nD τ) arg6 fullShare (k3_pay4 x0 x1 x2 x3 s8) ∗ owns (c : Thread nD τ) arg7 fullShare (k3_pay5 x0 x1 x2 x3 s9)
            ∗ owns (c : Thread nD τ) arg8 fullShare (k3_pay4 x0 x1 x2 x3 s8) ∗ owns (c : Thread nD τ) arg9 fullShare (k3_pay5 x0 x1 x2 x3 s9)) -∗ K ⟨⟩))
      ⊢ wp frame (wpE (defs₀ (F := F)) Variants.none c none) E (cc3__kernelA i arg1 harg1 arg2 harg2 arg3 harg3 arg4 harg4 arg5 harg5 arg6 harg6 arg7 harg7 arg8 harg8 arg9 harg9) K := by
  simp only [cc3__kernelA_eq_skeleton]; unfold cc3__kernelA_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f8, %hf8, H8⟩, ⟨%f9, %hf9, H9⟩, Hk⟩
  subst hf0; subst hf1; subst hf2; subst hf3; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]
  · iexists _; isplitr
    swap; · iexact H5
    ipureintro
    close_whole
  isplitl [H6]
  · iexists _; isplitr
    swap; · iexact H6
    ipureintro
    close_whole
  isplitl [H8]
  · iexists _; isplitr
    swap; · iexact H8
    ipureintro
    close_whole
  iexists _; isplitr
  swap; · iexact H9
  ipureintro
  close_whole

end Cert.KernelIdeal.Hand
end
-- ==== Proof.KI.A3.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import proofs.«102976_j3633542332749_1_alg».proof.Proof.KI.A3Run
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The region of custom_call 3: the linear layer `z = (h + agg)·W + b` by row blocks, with the column sums of
`z` and of `z²`

Stated at the contents `V` the region finds in the core's buffers. Windows 0–3 are the inputs (a row block of the
features, the matching row block of the aggregated neighbours, the weight matrix, the bias row: the last two fetched
once, their block index never moving); window 4 receives the row block of `z` at every point; windows 5 and 6
receive the two accumulated rows at the last point only and are idle before it. The two accumulators live in scratch
buffers of the call's own, carried from point to point by the invariant. -/

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## What the body leaves -/

/-- The row block of `z` at point `t`. -/
def zAt3 (c : Dev nD) (t : Fin cfg3.N) : Vec F S5000x128 .f32 :=
  k3_pay3 (iblk3 V c 0 t) (iblk3 V c 1 t) (iblk3 V c 2 t) (iblk3 V c 3 t)
/-- The column-sum accumulator after point `t`, from its contents `s` before: `s` plus the column sums of the block of `z`. -/
def sumStep3 (c : Dev nD) (t : Fin cfg3.N) (s : Vec F S1x128 .f32) : Vec F S1x128 .f32 :=
  k3_pay4 (iblk3 V c 0 t) (iblk3 V c 1 t) (iblk3 V c 2 t) (iblk3 V c 3 t) s
/-- The accumulator of squares after point `t`, from its contents `s` before: `s` plus the column sums of the block of `z²`. -/
def sqStep3 (c : Dev nD) (t : Fin cfg3.N) (s : Vec F S1x128 .f32) : Vec F S1x128 .f32 :=
  k3_pay5 (iblk3 V c 0 t) (iblk3 V c 1 t) (iblk3 V c 2 t) (iblk3 V c 3 t) s

/-- THE ACCUMULATION: the two accumulators (sums, sums of squares) after the body at position `n`, by recursion on
    the position: zeroed and advanced at the first, advanced from what the position before left at the others. -/
def accAt3 (c : Dev nD) : (n : ℕ) → n < cfg3.N → Vec F S1x128 .f32 × Vec F S1x128 .f32
  | 0, hn => (sumStep3 V c ⟨0, hn⟩ k3_pay1, sqStep3 V c ⟨0, hn⟩ k3_pay2)
  | n + 1, hn => (sumStep3 V c ⟨n + 1, hn⟩ (accAt3 c n (Nat.lt_of_succ_lt hn)).1, sqStep3 V c ⟨n + 1, hn⟩ (accAt3 c n (Nat.lt_of_succ_lt hn)).2)

theorem accAt3_zero (c : Dev nD) (t : Fin cfg3.N) (h : t.val = 0) :
    accAt3 V c t.val t.isLt = (sumStep3 V c t k3_pay1, sqStep3 V c t k3_pay2) := by
  obtain ⟨n, hn⟩ := t
  cases n with
  | zero => rfl
  | succ n => exact absurd h (Nat.succ_ne_zero n)

theorem accAt3_pos (c : Dev nD) (t : Fin cfg3.N) (h : t.val ≠ 0) :
    accAt3 V c t.val t.isLt = (sumStep3 V c t (accAt3 V c (t.val - 1) (Nat.lt_of_le_of_lt (Nat.sub_le _ _) t.isLt)).1,
      sqStep3 V c t (accAt3 V c (t.val - 1) (Nat.lt_of_le_of_lt (Nat.sub_le _ _) t.isLt)).2) := by
  obtain ⟨n, hn⟩ := t
  cases n with
  | zero => exact absurd rfl h
  | succ n => rfl

/-! ## The invariant: the two accumulators between points -/

/-- The call's two scratch operands, whole scoped buffers of its own. -/
abbrev scM3_0 : Memref sig .tc .vmem S1x128 .f32 := Memref.whole cc3_scratch0
abbrev scM3_1 : Memref sig .tc .vmem S1x128 .f32 := Memref.whole cc3_scratch1

/-- The region invariant before position `n`: before the first point every scoped buffer at anything and the generator
    register at some state; afterwards the two accumulators at what the point before left, the other scoped buffers at
    anything, the register at some state. -/
def PhiS3 (c : Dev nD) : (n : ℕ) → n ≤ cfg3.N → sProp 𝕄
  | 0, _ => Pipeline.ΦA spec3 c
  | n + 1, hn => iprop(iprop(iprop(owns (c : Thread nD τ) scM3_0 fullShare (accAt3 V c n hn).1 ∗ owns (c : Thread nD τ) scM3_1 fullShare (accAt3 V c n hn).2)
      ∗ Pipeline.scopedRestBut (Ix := Unit) (Name := ℕ) (U := UR sig nD τ) (Lvl := ℕ) (Val := Elt F) spec3 c [cc3_scratch0, cc3_scratch1]) ∗ ∃ r, prngReg c r)

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (accAt3 V c n hn).1 ∗ owns (c : Thread nD τ) scM3_1 fullShare (accAt3 V c n hn).2)
      ∗ Pipeline.scopedRestBut (Ix := Unit) (Name := ℕ) (U := UR sig nD τ) (Lvl := ℕ) (Val := Elt F) spec3 c [cc3_scratch0, cc3_scratch1]) ∗ ∃ r, prngReg c r) := rfl

theorem PhiS3_pos (c : Dev nD) (n : ℕ) (h : n ≤ cfg3.N) (hz : n ≠ 0) :
    PhiS3 V c n h = iprop(iprop(iprop(owns (c : Thread nD τ) scM3_0 fullShare (accAt3 V c (n - 1) (by omega)).1 ∗ owns (c : Thread nD τ) scM3_1 fullShare (accAt3 V c (n - 1) (by omega)).2)
      ∗ Pipeline.scopedRestBut (Ix := Unit) (Name := ℕ) (U := UR sig nD τ) (Lvl := ℕ) (Val := Elt F) spec3 c [cc3_scratch0, cc3_scratch1]) ∗ ∃ r, prngReg c r) := by
  cases n with
  | zero => exact absurd rfl hz
  | succ n => rfl

/-- The scoped rest with the two accumulators taken out, each at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ ∃ r, prngReg c r) := by
  unfold Pipeline.ΦA; rw [scopedRest3_split]; simp only [scM3_0, scM3_1, owns_whole]; try rfl

/-! ## The proof data -/

/-- The proof data of the call on core `c`: the arrays as the region finds them; after the body at point `t` each
    input's buffer at its block, window 4's at the block of `z`, windows 5 and 6 at the two accumulators after `t`
    (consulted at the last point only: before it the windows are idle); the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => zAt3 V c t
    | ⟨5, _⟩ => (accAt3 V c t.val t.isLt).1
    | ⟨6, _⟩ => (accAt3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = zAt3 V c t := by dsimp only [dat3]
theorem after3_5 (c : Dev nD) (t : Fin cfg3.N) : (dat3 V c).after 5 t = (accAt3 V c t.val t.isLt).1 := by dsimp only [dat3]
theorem after3_6 (c : Dev nD) (t : Fin cfg3.N) : (dat3 V c).after 6 t = (accAt3 V c t.val t.isLt).2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
/-- Before the last point window 5 is idle and not written back; at the last point it is live. -/
theorem idleAt3_5 : ∀ t : Fin cfg3.N, ¬cond3_last (grid3.coords t) → cfg3.idle 5 (grid3.coords t) = true := by decide +kernel
theorem noFlush3_5 : ∀ t : Fin cfg3.N, ¬cond3_last (grid3.coords t) → (cfg3.win 5).flush t = false := by decide +kernel
theorem liveAt3_5 : ∀ t : Fin cfg3.N, cond3_last (grid3.coords t) → cfg3.idle 5 (grid3.coords t) = false := by decide +kernel
/-- Before the last point window 6 is idle and not written back; at the last point it is live. -/
theorem idleAt3_6 : ∀ t : Fin cfg3.N, ¬cond3_last (grid3.coords t) → cfg3.idle 6 (grid3.coords t) = true := by decide +kernel
theorem noFlush3_6 : ∀ t : Fin cfg3.N, ¬cond3_last (grid3.coords t) → (cfg3.win 6).flush t = false := by decide +kernel
theorem liveAt3_6 : ∀ t : Fin cfg3.N, cond3_last (grid3.coords t) → cfg3.idle 6 (grid3.coords t) = false := by decide +kernel

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 4800000 in
/-- The body at any point: the inputs' buffers hold their blocks; the point is the first, a middle one or the last, and
    that case's run applies; the invariant hands the body the two accumulators at what the point before left (at
    anything at the first point) and takes them back advanced; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  rw [show (dat3 V c).leavesExact 3 t = owns (c : Thread nD τ) (st3_3 t) fullShare ((dat3 V c).after 3 t) from by
    unfold Dat.leavesExact; rw [liveAt3_3 t], after3_3]
  rw [show (dat3 V c).leavesExact 4 t = owns (c : Thread nD τ) (st3_4 t) fullShare ((dat3 V c).after 4 t) from by
    unfold Dat.leavesExact; rw [liveAt3_4 t], after3_4]
  unfold zAt3
  have hN : t.val < 10 := lt_of_lt_of_eq t.isLt (show cfg3.N = 10 from N_3)
  by_cases h0 : t.val = 0
  · have hcf : cond3_first (grid3.coords t) := (hcond3_first t).mpr h0
    have hcl : ¬cond3_last (grid3.coords t) := fun h => by have := (hcond3_last t).mp h; omega
    rw [Dat.leavesExact_idle (dat3 V c) 5 t (idleAt3_5 t hcl) (noFlush3_5 t hcl),
      Dat.leavesExact_idle (dat3 V c) 6 t (idleAt3_6 t hcl) (noFlush3_6 t hcl)]
    rw [PhiS3_castSucc V c t, PhiS3_zero V c _ _ h0, PhiA3_eq, accAt3_zero V c t h0]
    dsimp only; unfold sumStep3 sqStep3
    iintro ⟨⟨⟨⟨⟨%d8, HS0⟩, ⟨%d9, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run3_first c Set.univ (grid3.coords t) _ _ _ _ _ _ _ _ _ _ _ _ _ _ _ _ _ _ hcf hcl (iblk3 V c 0 t) (iblk3 V c 1 t) (iblk3 V c 2 t) (iblk3 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexists _; iexact HS0
    isplitl [HS1]; · iexists _; iexact HS1
    iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hcf : ¬cond3_first (grid3.coords t) := fun h => h0 ((hcond3_first t).mp h)
    rw [PhiS3_castSucc V c t, PhiS3_pos V c _ _ h0, accAt3_pos V c t h0]
    by_cases h9 : t.val = 9
    · have hcl : cond3_last (grid3.coords t) := (hcond3_last t).mpr h9
      rw [show (dat3 V c).leavesExact 5 t = owns (c : Thread nD τ) (st3_5 t) fullShare ((dat3 V c).after 5 t) from by
        unfold Dat.leavesExact; rw [liveAt3_5 t hcl], after3_5]
      rw [show (dat3 V c).leavesExact 6 t = owns (c : Thread nD τ) (st3_6 t) fullShare ((dat3 V c).after 6 t) from by
        unfold Dat.leavesExact; rw [liveAt3_6 t hcl], after3_6]
      rw [accAt3_pos V c t h0]
      dsimp only; unfold sumStep3 sqStep3
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run3_last c Set.univ (grid3.coords t) _ _ _ _ _ _ _ _ _ _ _ _ _ _ _ _ _ _ hcf hcl (iblk3 V c 0 t) (iblk3 V c 1 t) (iblk3 V c 2 t) (iblk3 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hcl : ¬cond3_last (grid3.coords t) := fun h => h9 ((hcond3_last t).mp h)
      rw [Dat.leavesExact_idle (dat3 V c) 5 t (idleAt3_5 t hcl) (noFlush3_5 t hcl),
        Dat.leavesExact_idle (dat3 V c) 6 t (idleAt3_6 t hcl) (noFlush3_6 t hcl)]
      dsimp only; unfold sumStep3 sqStep3
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run3_mid c Set.univ (grid3.coords t) _ _ _ _ _ _ _ _ _ _ _ _ _ _ _ _ _ _ hcf hcl (iblk3 V c 0 t) (iblk3 V c 1 t) (iblk3 V c 2 t) (iblk3 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation, at every point. -/
theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- What the region is entered with (the generator register at some state, every scoped buffer at anything) is the
    invariant before the first point. -/
theorem Phi_first3 (c : Dev nD) :
    iprop((∃ r, prngReg c r) ∗ Pipeline.scopedRest (Ix := Unit) (Name := ℕ) (U := UR sig nD τ) (Lvl := ℕ) (Val := Elt F) spec3 c) ⊢ ((dat3 V c).Φ 0 : sProp 𝕄) := by
  rw [show (dat3 V c).Φ 0 = Pipeline.ΦA spec3 c from rfl]; unfold Pipeline.ΦA
  iintro ⟨Hp, Hr⟩
  isplitl [Hr]; · iexact Hr
  iexact Hp

/-- After any point but the first the invariant gives the scoped rest back: the accumulators' contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point, in the form the region's exit takes it. -/
theorem Phi_last3 (c : Dev nD) :
    ((dat3 V c).Φ (Fin.last cfg3.N) : sProp 𝕄) ⊢ iprop((∃ r, prngReg c r) ∗ Pipeline.scopedRest (Ix := Unit) (Name := ℕ) (U := UR sig nD τ) (Lvl := ℕ) (Val := Elt F) spec3 c) := by
  refine (Phi_out3 V c _ (by rw [Fin.val_last]; have : cfg3.N = 10 := N_3; omega)).trans ?_
  unfold Pipeline.ΦA
  iintro ⟨Hr, Hp⟩
  isplitl [Hp]; · iexact Hp
  iexact Hr

end Cert.KernelIdeal.Hand
end
-- ==== Proof.KI.B4.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«102976_j3633542332749_1_alg».proof.Proof.KI.BLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the point is the grid's first. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- The second: the point is the grid's last. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-! ## The body's triple, in its three control cases

The body on whole staging memrefs: the five inputs at read contents, the z2 window at anything, the two scratch
accumulators; it leaves the inputs as they were, the z2 window at the block of z2 (the skeleton's `k4_pay4`), the
accumulators with this block's column sums added (`k4_pay5`, `k4_pay1`). At the first point the accumulators
are zeroed first (`k4_pay2`, `k4_pay3`); at the last the two sums' windows receive the accumulators; at the
other points those windows are not touched. -/

set_option maxHeartbeats 1000000 in
theorem kernelB4_first (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond4_0 i) (hc1 : ¬cond4_1 i)
    (x0 : Vec F S5000x128 .f32) (x1 x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k4_pay4 x0 x1 x2 x3 x4)
            ∗ owns (c : Thread nD τ) arg9 fullShare (k4_pay5 x0 x1 x2 x3 x4 k4_pay2)
            ∗ owns (c : Thread nD τ) arg10 fullShare (k4_pay1 (k4_pay4 x0 x1 x2 x3 x4) k4_pay3)) -∗ K ⟨⟩))
      ⊢ wp frame (wpE (defs₀ (F := F)) Variants.none c none) E (cc4__kernelB i arg1 harg1 arg2 harg2 arg3 harg3 arg4 harg4 arg5 harg5 arg6 harg6 arg7 harg7 arg8 harg8 arg9 harg9 arg10 harg10) K := by
  simp only [cc4__kernelB_eq_skeleton]; unfold cc4__kernelB_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread,
    View.ld_unit_zero (S := S5000x128) zeros2_B, View.ld_unit_zero (S := S1x128) zeros2_B, View.ld_unit_zero (S := S128x128) zeros2_B]

set_option maxHeartbeats 1000000 in
theorem kernelB4_mid (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond4_0 i) (hc1 : ¬cond4_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k4_pay4 x0 x1 x2 x3 x4)
            ∗ owns (c : Thread nD τ) arg9 fullShare (k4_pay5 x0 x1 x2 x3 x4 s0)
            ∗ owns (c : Thread nD τ) arg10 fullShare (k4_pay1 (k4_pay4 x0 x1 x2 x3 x4) s1)) -∗ K ⟨⟩))
      ⊢ wp frame (wpE (defs₀ (F := F)) Variants.none c none) E (cc4__kernelB i arg1 harg1 arg2 harg2 arg3 harg3 arg4 harg4 arg5 harg5 arg6 harg6 arg7 harg7 arg8 harg8 arg9 harg9 arg10 harg10) K := by
  simp only [cc4__kernelB_eq_skeleton]; unfold cc4__kernelB_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

set_option maxHeartbeats 1000000 in
theorem kernelB4_last (c : Dev nD) (E : Set ℕ) (i : grid4.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond4_0 i) (hc1 : cond4_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k4_pay4 x0 x1 x2 x3 x4)
            ∗ owns (c : Thread nD τ) arg7 fullShare (k4_pay5 x0 x1 x2 x3 x4 s0)
            ∗ owns (c : Thread nD τ) arg8 fullShare (k4_pay1 (k4_pay4 x0 x1 x2 x3 x4) s1)
            ∗ owns (c : Thread nD τ) arg9 fullShare (k4_pay5 x0 x1 x2 x3 x4 s0)
            ∗ owns (c : Thread nD τ) arg10 fullShare (k4_pay1 (k4_pay4 x0 x1 x2 x3 x4) s1)) -∗ K ⟨⟩))
      ⊢ wp frame (wpE (defs₀ (F := F)) Variants.none c none) E (cc4__kernelB i arg1 harg1 arg2 harg2 arg3 harg3 arg4 harg4 arg5 harg5 arg6 harg6 arg7 harg7 arg8 harg8 arg9 harg9 arg10 harg10) K := by
  simp only [cc4__kernelB_eq_skeleton]; unfold cc4__kernelB_skel
  simp only [k4_part1_eq_skeleton]; unfold k4_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H6]
  · iexists _; isplitr
    swap; · iexact H6
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H7]
  · iexists _; isplitr
    swap; · iexact H7
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## What the body computes, point by point -/

/-- The block of z2 = max(z1·scale + shift, 0)·W + b the body stores at point `t`. -/
def z2blk4 (c : Dev nD) (t : Fin cfg4.N) : Vec F S5000x128 .f32 :=
  k4_pay4 (iblk4 V c 0 t) (iblk4 V c 1 t) (iblk4 V c 2 t) (iblk4 V c 3 t) (iblk4 V c 4 t)

/-- The running column sums of z2 after point `n`: zero, then each point's block added in order. -/
def sum4 (c : Dev nD) : (n : ℕ) → n < cfg4.N → Vec F S1x128 .f32
  | 0, h => k4_pay5 (iblk4 V c 0 ⟨0, h⟩) (iblk4 V c 1 ⟨0, h⟩) (iblk4 V c 2 ⟨0, h⟩) (iblk4 V c 3 ⟨0, h⟩) (iblk4 V c 4 ⟨0, h⟩) k4_pay2
  | n + 1, h => k4_pay5 (iblk4 V c 0 ⟨n + 1, h⟩) (iblk4 V c 1 ⟨n + 1, h⟩) (iblk4 V c 2 ⟨n + 1, h⟩) (iblk4 V c 3 ⟨n + 1, h⟩) (iblk4 V c 4 ⟨n + 1, h⟩)
      (sum4 c n (Nat.lt_of_succ_lt h))

/-- The running column sums of z2² after point `n`. -/
def sumsq4 (c : Dev nD) : (n : ℕ) → n < cfg4.N → Vec F S1x128 .f32
  | 0, h => k4_pay1 (z2blk4 V c ⟨0, h⟩) k4_pay3
  | n + 1, h => k4_pay1 (z2blk4 V c ⟨n + 1, h⟩) (sumsq4 c n (Nat.lt_of_succ_lt h))

theorem sum4_first (c : Dev nD) (t : Fin cfg4.N) (h0 : t.val = 0) :
    sum4 V c t.val t.isLt = k4_pay5 (iblk4 V c 0 t) (iblk4 V c 1 t) (iblk4 V c 2 t) (iblk4 V c 3 t) (iblk4 V c 4 t) k4_pay2 := by
  obtain ⟨n, hn⟩ := t
  cases n with
  | zero => rfl
  | succ n => exact absurd h0 (Nat.succ_ne_zero n)

theorem sum4_next (c : Dev nD) (t : Fin cfg4.N) (h0 : t.val ≠ 0) :
    sum4 V c t.val t.isLt = k4_pay5 (iblk4 V c 0 t) (iblk4 V c 1 t) (iblk4 V c 2 t) (iblk4 V c 3 t) (iblk4 V c 4 t)
      (sum4 V c (t.val - 1) (Nat.lt_of_le_of_lt (Nat.sub_le _ _) t.isLt)) := by
  obtain ⟨n, hn⟩ := t
  cases n with
  | zero => exact absurd rfl h0
  | succ n => rfl

theorem sumsq4_first (c : Dev nD) (t : Fin cfg4.N) (h0 : t.val = 0) :
    sumsq4 V c t.val t.isLt = k4_pay1 (z2blk4 V c t) k4_pay3 := by
  obtain ⟨n, hn⟩ := t
  cases n with
  | zero => rfl
  | succ n => exact absurd h0 (Nat.succ_ne_zero n)

theorem sumsq4_next (c : Dev nD) (t : Fin cfg4.N) (h0 : t.val ≠ 0) :
    sumsq4 V c t.val t.isLt = k4_pay1 (z2blk4 V c t) (sumsq4 V c (t.val - 1) (Nat.lt_of_le_of_lt (Nat.sub_le _ _) t.isLt)) := by
  obtain ⟨n, hn⟩ := t
  cases n with
  | zero => exact absurd rfl h0
  | succ n => rfl

/-! ## The region invariant -/

/-- The two accumulators the kernel keeps in scratch between points, as memrefs. -/
abbrev sc4_0 : Memref sig .tc .vmem S1x128 .f32 := Memref.whole cc4_scratch0
abbrev sc4_1 : Memref sig .tc .vmem S1x128 .f32 := Memref.whole cc4_scratch1

/-- The class invariant with the two accumulators taken out of the scoped rest, each at some contents. -/
theorem PhiA4_eq (c : Dev nD) :
    (Pipeline.ΦA spec4 c : sProp 𝕄)
      = iprop(iprop(iprop((∃ d, owns (c : Thread nD τ) sc4_0 fullShare d) ∗ (∃ d, owns (c : Thread nD τ) sc4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [sc4_0, sc4_1, owns_whole]; try rfl

/-- The invariant before position `n`: before the first point the class's; afterwards the two accumulators at the
    running sums after the point before, the other scoped buffers at anything, the generator register at some state. -/
def Phi4 (c : Dev nD) : (n : ℕ) → n ≤ cfg4.N → sProp 𝕄
  | 0, _ => Pipeline.ΦA spec4 c
  | n + 1, hn => iprop(iprop(iprop(owns (c : Thread nD τ) sc4_0 fullShare (sum4 V c n hn) ∗ owns (c : Thread nD τ) sc4_1 fullShare (sumsq4 V c n hn))
          ∗ Pipeline.scopedRestBut (Ix := Unit) (Name := ℕ) (U := UR sig nD τ) (Lvl := ℕ) (Val := Elt F) spec4 c [cc4_scratch0, cc4_scratch1])
          ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(iprop(owns (c : Thread nD τ) sc4_0 fullShare (sum4 V c n hn) ∗ owns (c : Thread nD τ) sc4_1 fullShare (sumsq4 V c n hn))
          ∗ Pipeline.scopedRestBut (Ix := Unit) (Name := ℕ) (U := UR sig nD τ) (Lvl := ℕ) (Val := Elt F) spec4 c [cc4_scratch0, cc4_scratch1])
          ∗ (∃ r, prngReg c r)) := rfl

theorem Phi4_pos (c : Dev nD) (n : ℕ) (h : n ≤ cfg4.N) (hz : n ≠ 0) :
    Phi4 V c n h = iprop(iprop(iprop(owns (c : Thread nD τ) sc4_0 fullShare (sum4 V c (n - 1) (by omega)) ∗ owns (c : Thread nD τ) sc4_1 fullShare (sumsq4 V c (n - 1) (by omega)))
          ∗ Pipeline.scopedRestBut (Ix := Unit) (Name := ℕ) (U := UR sig nD τ) (Lvl := ℕ) (Val := Elt F) spec4 c [cc4_scratch0, cc4_scratch1])
          ∗ (∃ r, prngReg c r)) := by
  cases n with
  | zero => exact absurd rfl hz
  | succ n => rfl

/-! ## The pipeline's proof data -/

/-- The proof data of pipeline 4 on core `c`: the arrays as the region finds them (`V`); after the body at point `t`
    each input's buffer at its block, the z2 window at the point's block of z2, the two sums' windows at the running
    sums; the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => z2blk4 V c t
    | ⟨6, _⟩ => sum4 V c t.val t.isLt
    | ⟨7, _⟩ => sumsq4 V c t.val t.isLt
  Φ t := Phi4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = z2blk4 V c t := by dsimp only [dat4]
theorem after4_6 (c : Dev nD) (t : Fin cfg4.N) : (dat4 V c).after 6 t = sum4 V c t.val t.isLt := by dsimp only [dat4]
theorem after4_7 (c : Dev nD) (t : Fin cfg4.N) : (dat4 V c).after 7 t = sumsq4 V c t.val t.isLt := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- The invariant at a point's start, restated at `t.val`. -/
theorem Phi4_castSucc (c : Dev nD) (t : Fin cfg4.N) :
    (dat4 V c).Φ t.castSucc = Phi4 V c t.val (Nat.le_of_lt t.isLt) := by
  dsimp only [dat4]; simp only [Fin.coe_castSucc]

/-- and at its end. -/
theorem Phi4_fsucc (c : Dev nD) (t : Fin cfg4.N) :
    (dat4 V c).Φ t.succ = Phi4 V c (t.val + 1) t.isLt := by
  dsimp only [dat4]; simp only [Fin.val_succ]

/-! ## Where the sums' windows are idle -/

theorem live4_0 : ∀ t : Fin cfg4.N, cfg4.idle 0 (grid4.coords t) = false := fun _ => rfl
theorem live4_1 : ∀ t : Fin cfg4.N, cfg4.idle 1 (grid4.coords t) = false := fun _ => rfl
theorem live4_2 : ∀ t : Fin cfg4.N, cfg4.idle 2 (grid4.coords t) = false := fun _ => rfl
theorem live4_3 : ∀ t : Fin cfg4.N, cfg4.idle 3 (grid4.coords t) = false := fun _ => rfl
theorem live4_4 : ∀ t : Fin cfg4.N, cfg4.idle 4 (grid4.coords t) = false := fun _ => rfl
theorem live4_5 : ∀ t : Fin cfg4.N, cfg4.idle 5 (grid4.coords t) = false := fun _ => rfl
theorem idle4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem live4_6 : ∀ t : Fin cfg4.N, cond4_1 (grid4.coords t) → cfg4.idle 6 (grid4.coords t) = false := by decide +kernel
theorem idle4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem live4_7 : ∀ t : Fin cfg4.N, cond4_1 (grid4.coords t) → cfg4.idle 7 (grid4.coords t) = false := by decide +kernel

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4000000 in
/-- The body at any point: the inputs' memrefs hold their blocks; the point is the first, the last or neither; the
    invariant hands the body the two accumulators (at anything at the first point, at the running sums after the point
    before otherwise) and takes them back at this point's running sums; the sums' windows are left untouched except at
    the last point, where they receive the accumulators; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [Phi4_fsucc, Phi4_succ, Phi4_castSucc]
  rw [show (dat4 V c).leavesExact 0 t = owns (c : Thread nD τ) (st4_0 t) fullShare ((dat4 V c).after 0 t) from by
    unfold Dat.leavesExact; rw [live4_0 t], after4_0]
  rw [show (dat4 V c).leavesExact 1 t = owns (c : Thread nD τ) (st4_1 t) fullShare ((dat4 V c).after 1 t) from by
    unfold Dat.leavesExact; rw [live4_1 t], after4_1]
  rw [show (dat4 V c).leavesExact 2 t = owns (c : Thread nD τ) (st4_2 t) fullShare ((dat4 V c).after 2 t) from by
    unfold Dat.leavesExact; rw [live4_2 t], after4_2]
  rw [show (dat4 V c).leavesExact 3 t = owns (c : Thread nD τ) (st4_3 t) fullShare ((dat4 V c).after 3 t) from by
    unfold Dat.leavesExact; rw [live4_3 t], after4_3]
  rw [show (dat4 V c).leavesExact 4 t = owns (c : Thread nD τ) (st4_4 t) fullShare ((dat4 V c).after 4 t) from by
    unfold Dat.leavesExact; rw [live4_4 t], after4_4]
  rw [show (dat4 V c).leavesExact 5 t = owns (c : Thread nD τ) (st4_5 t) fullShare ((dat4 V c).after 5 t) from by
    unfold Dat.leavesExact; rw [live4_5 t], after4_5]
  have hN : t.val < 10 := lt_of_lt_of_eq t.isLt (show cfg4.N = 10 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 6 t (idle4_6 t hc1) (noFlush4_6 t hc1),
      Dat.leavesExact_idle (dat4 V c) 7 t (idle4_7 t hc1) (noFlush4_7 t hc1)]
    rw [Phi4_zero V c _ _ h0, PhiA4_eq, sum4_first V c t h0, sumsq4_first V c t h0]
    unfold z2blk4
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
    iapply (kernelB4_first c Set.univ (grid4.coords t) _ _ _ _ _ _ _ _ _ _ _ _ _ _ _ _ _ _ _ _ hc0 hc1 (iblk4 V c 0 t) (iblk4 V c 1 t) (iblk4 V c 2 t) (iblk4 V c 3 t) (iblk4 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h9 : t.val = 9
    · have hc0 : ¬cond4_0 (grid4.coords t) := fun h => h0 ((hcond4_0 t).mp h)
      have hc1 : cond4_1 (grid4.coords t) := (hcond4_1 t).mpr h9
      rw [show (dat4 V c).leavesExact 6 t = owns (c : Thread nD τ) (st4_6 t) fullShare ((dat4 V c).after 6 t) from by
        unfold Dat.leavesExact; rw [live4_6 t hc1], after4_6]
      rw [show (dat4 V c).leavesExact 7 t = owns (c : Thread nD τ) (st4_7 t) fullShare ((dat4 V c).after 7 t) from by
        unfold Dat.leavesExact; rw [live4_7 t hc1], after4_7]
      rw [Phi4_pos V c _ _ h0, sum4_next V c t h0, sumsq4_next V c t h0]
      unfold z2blk4
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelB4_last c Set.univ (grid4.coords t) _ _ _ _ _ _ _ _ _ _ _ _ _ _ _ _ _ _ _ _ hc0 hc1 (iblk4 V c 0 t) (iblk4 V c 1 t) (iblk4 V c 2 t) (iblk4 V c 3 t) (iblk4 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc0 : ¬cond4_0 (grid4.coords t) := fun h => h0 ((hcond4_0 t).mp h)
      have hc1 : ¬cond4_1 (grid4.coords t) := fun h => h9 ((hcond4_1 t).mp h)
      rw [Dat.leavesExact_idle (dat4 V c) 6 t (idle4_6 t hc1) (noFlush4_6 t hc1),
        Dat.leavesExact_idle (dat4 V c) 7 t (idle4_7 t hc1) (noFlush4_7 t hc1)]
      rw [Phi4_pos V c _ _ h0, sum4_next V c t h0, sumsq4_next V c t h0]
      unfold z2blk4
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
      iapply (kernelB4_mid c Set.univ (grid4.coords t) _ _ _ _ _ _ _ _ _ _ _ _ _ _ _ _ _ _ _ _ hc0 hc1 (iblk4 V c 0 t) (iblk4 V c 1 t) (iblk4 V c 2 t) (iblk4 V c 3 t) (iblk4 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The invariant at the region's ends -/

/-- What the launch hands the region is the invariant before the first point. -/
theorem Phi_first4 (c : Dev nD) : iprop((∃ r, prngReg c r) ∗ Pipeline.scopedRest spec4 c) ⊢ ((dat4 V c).Φ 0 : sProp 𝕄) := by
  rw [show (dat4 V c).Φ 0 = Phi4 V c 0 (Nat.zero_le _) from rfl, Phi4_zero V c 0 _ rfl]; unfold Pipeline.ΦA
  iintro ⟨Hp, Hr⟩
  isplitl [Hr]; · iexact Hr
  iexact Hp

/-- After the last point the invariant gives the scoped rest back: the accumulators' named contents are forgotten. -/
theorem Phi_last4 (c : Dev nD) : ((dat4 V c).Φ (Fin.last cfg4.N) : sProp 𝕄) ⊢ iprop((∃ r, prngReg c r) ∗ Pipeline.scopedRest spec4 c) := by
  have e : (iprop((∃ r, prngReg c r) ∗ Pipeline.scopedRest spec4 c) : sProp 𝕄) = iprop((∃ r, prngReg c r) ∗ iprop(iprop((∃ d, owns (c : Thread nD τ) sc4_0 fullShare d) ∗ (∃ d, owns (c : Thread nD τ) sc4_1 fullShare d))
          ∗ Pipeline.scopedRestBut (Ix := Unit) (Name := ℕ) (U := UR sig nD τ) (Lvl := ℕ) (Val := Elt F) spec4 c [cc4_scratch0, cc4_scratch1])) := by
    rw [scopedRest4_split]; simp only [sc4_0, sc4_1, owns_whole]; try rfl
  rw [e, show (dat4 V c).Φ (Fin.last cfg4.N) = Phi4 V c (Fin.last cfg4.N).val (Nat.le_of_lt_succ (Fin.last cfg4.N).isLt) from rfl,
    Phi4_pos V c _ _ (by rw [Fin.val_last]; have : cfg4.N = 10 := N_4; omega)]
  iintro ⟨⟨⟨HS0, HS1⟩, Hrest⟩, Hg⟩
  isplitl [Hg]; · iexact Hg
  isplitl [HS0 HS1]
  · isplitl [HS0]
    · iexists _; iexact HS0
    iexists _; iexact HS1
  iexact Hrest

end Cert.KernelIdeal.Hand

end
-- ==== Proof.KI.C5.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

/-! # The normalise-and-rectify call number 5: one row block per grid point

The call maps a block `z` of 5000 rows by 128 features, a row of 128 scales `s` and a row of 128 shifts `b` to
`max (z * s + b) 0`, entry by entry, the two rows repeated down the block. Its grid has ten points; point `t` reads rows
`5000 t … 5000 t + 4999` of the array and writes the same rows of the result; the two rows are the same block at every
point. This file states, for arbitrary contents `V` of the buffers when the call is entered, what each window's
staging buffer holds before and after the body at every point, and proves that the body run on those buffers returns
them so. -/

-- membership in a rectangle with an axis of 5000 rows: the elaborator's structural look recurses once per coordinate of
-- the long axis (5000 deep, never once per entry)
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: everything below is stated at this parameter
variable (V : (c : Dev nD) → (b : Ref sig .tc) → Buf (Elt F) ((c : Thread nD τ).loc b))

/-! ## The windows' blocks -/

/-- Window `w`'s block at point `t`, read off its array as the call finds it (`V`): for window 0 the rows
    `5000 t …` of the pre-activation, for windows 1 and 2 the whole row of scales and of shifts. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The row-block window's current staging buffer holds its block at every point, for any proof data whose array is
    `V`'s (`hA`) and whose body leaves the block in place (`hafter`). -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- The scale row's staging buffer holds the row at every point: fetched at the first point, and at a later point the
    block index has not moved, so what the body left is still that row. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- The shift row's staging buffer holds the row at every point, for the same reason. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole 5000 by 128 block, as the rectangle the body loads and stores. -/
abbrev r5_blk : Rect S5000x128 := Rect.unit (s := S5000x128) ![0, 0] S5000x128.size inb_S5000x128_S5000x128_0_0
/-- The whole 1 by 128 row, as the rectangle the body loads. -/
abbrev r5_row : Rect S1x128 := Rect.unit (s := S1x128) ![0, 0] S1x128.size inb_S1x128_S1x128_0_0

/-! ## What the body leaves in the output window's buffer -/

/-- The output block after the body, from the three input blocks: one store of the whole block, whose value is
    `max (z * s + b) 0` of the block, the scale row and the shift row (`k5_pay1`). -/
def out5_3 (x0 : Vec F S5000x128 .f32) (x1 : Vec F S1x128 .f32) (x2 : Vec F S1x128 .f32) : Vec F S5000x128 .f32 :=
  View.canon [⟨r5_blk, k5_pay1 (View.ld x0 r5_blk) (View.ld x1 r5_row) (View.ld x2 r5_row)⟩]

/-- The one store is the whole block, so it covers it. -/
theorem cover5_3 (p0 : Vec F S5000x128 .f32) (y : S5000x128.Idx) :
    ∃ pc ∈ ([⟨r5_blk, p0⟩] : List (View.Piece (Elt F) S5000x128 .f32)), y ∈ pc.1.set :=
  View.cover_of_tiled [⟨r5_blk, p0⟩] S5000x128.size (by rfl) y

/-! ## The body's triple -/

set_option maxHeartbeats 1000000 in
/-- The body on whole staging memrefs, the three inputs' at contents `x0`, `x1`, `x2` and the output's at anything,
    runs to the continuation holding the inputs' as they were and the output's at `out5_3 x0 x1 x2`. -/
theorem sound_kernel5 (c : Dev nD) (E : Set ℕ) (i : grid5.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5__kernelC i arg1 harg1 arg2 harg2 arg3 harg3 arg4 harg4) K := by
  simp only [cc5__kernelC_eq_skeleton]; unfold cc5__kernelC_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The call's proof data -/

/-- The proof data of call 5 on core `c`: the arrays as the call finds them (`V`); after the body at point `t` each
    input's buffer still at its block and the output's at `out5_3` of the three input blocks; the invariant is the
    untouched rest; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_w`), so `sound_kernel5` applies; the
    invariant and the core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the launch theorems, at every point. -/
theorem body_obligation5 (c : Dev nD) : BodyObligation (dat5 (F := F) V c) (defs₀ (F := F)) Variants.none () Set.univ := fun t => by
  rw [bigSep_W5, bigSep_W5]
  exact sound_body5 V c t

/-! ## The invariant at the first and at the last point -/

/-- The invariant at the first point is made of the generator register and the scoped buffers no window stages, -/
theorem Phi_first5 (c : Dev nD) :
    iprop((∃ r, prngReg c r) ∗ Pipeline.scopedRest (Ix := Unit) (Name := ℕ) (U := UR sig nD τ) (Lvl := ℕ) (Val := Elt F) spec5 c)
      ⊢ ((dat5 V c).Φ 0 : sProp 𝕄) := by
  rw [show (dat5 V c).Φ 0 = Pipeline.ΦA spec5 c from rfl]; unfold Pipeline.ΦA
  iintro ⟨Hp, Hr⟩
  isplitl [Hr]; · iexact Hr
  iexact Hp

/-- and at the last point it gives both back. -/
theorem Phi_last5 (c : Dev nD) :
    ((dat5 V c).Φ (Fin.last cfg5.N) : sProp 𝕄)
      ⊢ iprop((∃ r, prngReg c r) ∗ Pipeline.scopedRest (Ix := Unit) (Name := ℕ) (U := UR sig nD τ) (Lvl := ℕ) (Val := Elt F) spec5 c) := by
  rw [show (dat5 V c).Φ (Fin.last _) = Pipeline.ΦA spec5 c from rfl]; unfold Pipeline.ΦA
  iintro ⟨Hr, Hp⟩
  isplitl [Hp]; · iexact Hp
  iexact Hr

end Cert.KernelIdeal.Hand
-- ==== Proof.KI.A6Run.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import proofs.«102976_j3633542332749_1_alg».proof.Proof.KI.ALib
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of custom_call 6: one row block of the linear layer, with running column sums

At grid point `i` the body reads a block `x0` of the features, the matching block `x1` of the aggregated
neighbours, the weight matrix `x2` and the bias row `x3`, stores the block `z = (x0 + x1)·x2 + x3` into the
fifth operand, and adds the column sums of `z` and of `z²` to two accumulator rows (the last two operands), which
it first zeroes at the first point; at the last point it copies the two accumulators into the sixth and seventh
operands. Three control cases over the grid: first, middle, last. -/

/-- The first `pl.when`: the grid coordinate is 0 (the accumulators are zeroed). -/
abbrev cond6_first (i : grid6.Coords) : Prop := (Scalar.cmpi .ne (Scalar.extui (Scalar.cmpi .eq (BitVec.ofNat 32 (i 0).val) 0#32)) 0#32) = 1#1
/-- It holds at point 0 only. -/
theorem hcond6_first : ∀ t : Fin cfg6.N, cond6_first (grid6.coords t) ↔ t.val = 0 :=
  (by decide +kernel : ∀ t : Fin grid6.N, cond6_first (grid6.coords t) ↔ t.val = 0)
/-- The second `pl.when`: the grid coordinate is the last (the accumulators are copied out). -/
abbrev cond6_last (i : grid6.Coords) : Prop := k6_cond2 i = 1#1
/-- It holds at point 9 only. -/
theorem hcond6_last : ∀ t : Fin cfg6.N, cond6_last (grid6.coords t) ↔ t.val = 9 :=
  (by decide +kernel : ∀ t : Fin grid6.N, cond6_last (grid6.coords t) ↔ t.val = 9)

/-- A buffer's contents after a last whole-buffer store are that store's payload, a load after such a store reads
    the payload back, and a whole-buffer load reads the contents. -/
local macro "close_whole" : tactic => `(tactic| (
  (try sl_unfold_run_names)
  rw [read_writes_whole_last_A _ _ hz_A]
  (try rw [View.readCov_unit_zero _ hz_A])
  (try simp only [readAt_whole_A (S := S5000x128) _ _ hz_A, readAt_whole_A (S := S128x128) _ _ hz_A, readAt_whole_A (S := S1x128) _ _ hz_A])))

set_option maxHeartbeats 1000000 in
/-- The body at the FIRST point: the accumulators, whatever they held, are zeroed and then advanced by the block's
    column sums; the block `z` stored; the two statistics operands untouched. -/
theorem run6_first (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond6_first i) (hc1 : ¬cond6_last i)
    (x0 x1 : Vec F S5000x128 .f32) (x2 : Vec F S128x128 .f32) (x3 : Vec F S1x128 .f32) (y5 y6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k6_pay3 x0 x1 x2 x3) ∗ owns (c : Thread nD τ) arg6 fullShare y5 ∗ owns (c : Thread nD τ) arg7 fullShare y6
            ∗ owns (c : Thread nD τ) arg8 fullShare (k6_pay4 x0 x1 x2 x3 k6_pay1) ∗ owns (c : Thread nD τ) arg9 fullShare (k6_pay5 x0 x1 x2 x3 k6_pay2)) -∗ K ⟨⟩))
      ⊢ wp frame (wpE (defs₀ (F := F)) Variants.none c none) E (cc6__kernelA i arg1 harg1 arg2 harg2 arg3 harg3 arg4 harg4 arg5 harg5 arg6 harg6 arg7 harg7 arg8 harg8 arg9 harg9) K := by
  simp only [cc6__kernelA_eq_skeleton]; unfold cc6__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d8, %f8, -, H8⟩, ⟨%d9, %f9, -, H9⟩, Hk⟩
  subst hf0; subst hf1; subst hf2; subst hf3; subst hf5; subst hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at a MIDDLE point: the block `z` stored, each accumulator advanced by the block's column sums; the two
    statistics operands untouched. -/
theorem run6_mid (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond6_first i) (hc1 : ¬cond6_last i)
    (x0 x1 : Vec F S5000x128 .f32) (x2 : Vec F S128x128 .f32) (x3 : Vec F S1x128 .f32) (y5 y6 s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k6_pay3 x0 x1 x2 x3) ∗ owns (c : Thread nD τ) arg6 fullShare y5 ∗ owns (c : Thread nD τ) arg7 fullShare y6
            ∗ owns (c : Thread nD τ) arg8 fullShare (k6_pay4 x0 x1 x2 x3 s8) ∗ owns (c : Thread nD τ) arg9 fullShare (k6_pay5 x0 x1 x2 x3 s9)) -∗ K ⟨⟩))
      ⊢ wp frame (wpE (defs₀ (F := F)) Variants.none c none) E (cc6__kernelA i arg1 harg1 arg2 harg2 arg3 harg3 arg4 harg4 arg5 harg5 arg6 harg6 arg7 harg7 arg8 harg8 arg9 harg9) K := by
  simp only [cc6__kernelA_eq_skeleton]; unfold cc6__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f8, %hf8, H8⟩, ⟨%f9, %hf9, H9⟩, Hk⟩
  subst hf0; subst hf1; subst hf2; subst hf3; subst hf5; subst hf6; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at the LAST point: the block `z` stored, each accumulator advanced, and the two statistics operands,
    whatever they held, overwritten with the advanced accumulators. -/
theorem run6_last (c : Dev nD) (E : Set ℕ) (i : grid6.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond6_first i) (hc1 : cond6_last i)
    (x0 x1 : Vec F S5000x128 .f32) (x2 : Vec F S128x128 .f32) (x3 : Vec F S1x128 .f32) (s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k6_pay3 x0 x1 x2 x3) ∗ owns (c : Thread nD τ) arg6 fullShare (k6_pay4 x0 x1 x2 x3 s8) ∗ owns (c : Thread nD τ) arg7 fullShare (k6_pay5 x0 x1 x2 x3 s9)
            ∗ owns (c : Thread nD τ) arg8 fullShare (k6_pay4 x0 x1 x2 x3 s8) ∗ owns (c : Thread nD τ) arg9 fullShare (k6_pay5 x0 x1 x2 x3 s9)) -∗ K ⟨⟩))
      ⊢ wp frame (wpE (defs₀ (F := F)) Variants.none c none) E (cc6__kernelA i arg1 harg1 arg2 harg2 arg3 harg3 arg4 harg4 arg5 harg5 arg6 harg6 arg7 harg7 arg8 harg8 arg9 harg9) K := by
  simp only [cc6__kernelA_eq_skeleton]; unfold cc6__kernelA_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f8, %hf8, H8⟩, ⟨%f9, %hf9, H9⟩, Hk⟩
  subst hf0; subst hf1; subst hf2; subst hf3; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]
  · iexists _; isplitr
    swap; · iexact H5
    ipureintro
    close_whole
  isplitl [H6]
  · iexists _; isplitr
    swap; · iexact H6
    ipureintro
    close_whole
  isplitl [H8]
  · iexists _; isplitr
    swap; · iexact H8
    ipureintro
    close_whole
  iexists _; isplitr
  swap; · iexact H9
  ipureintro
  close_whole

end Cert.KernelIdeal.Hand
end
-- ==== Proof.KI.A6.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import proofs.«102976_j3633542332749_1_alg».proof.Proof.KI.A6Run
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The region of custom_call 6: the linear layer `z = (h + agg)·W + b` by row blocks, with the column sums of
`z` and of `z²`

Stated at the contents `V` the region finds in the core's buffers. Windows 0–3 are the inputs (a row block of the
features, the matching row block of the aggregated neighbours, the weight matrix, the bias row: the last two fetched
once, their block index never moving); window 4 receives the row block of `z` at every point; windows 5 and 6
receive the two accumulated rows at the last point only and are idle before it. The two accumulators live in scratch
buffers of the call's own, carried from point to point by the invariant. -/

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not (unfetched, the
    block index has not moved), for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-! ## What the body leaves -/

/-- The row block of `z` at point `t`. -/
def zAt6 (c : Dev nD) (t : Fin cfg6.N) : Vec F S5000x128 .f32 :=
  k6_pay3 (iblk6 V c 0 t) (iblk6 V c 1 t) (iblk6 V c 2 t) (iblk6 V c 3 t)
/-- The column-sum accumulator after point `t`, from its contents `s` before: `s` plus the column sums of the block of `z`. -/
def sumStep6 (c : Dev nD) (t : Fin cfg6.N) (s : Vec F S1x128 .f32) : Vec F S1x128 .f32 :=
  k6_pay4 (iblk6 V c 0 t) (iblk6 V c 1 t) (iblk6 V c 2 t) (iblk6 V c 3 t) s
/-- The accumulator of squares after point `t`, from its contents `s` before: `s` plus the column sums of the block of `z²`. -/
def sqStep6 (c : Dev nD) (t : Fin cfg6.N) (s : Vec F S1x128 .f32) : Vec F S1x128 .f32 :=
  k6_pay5 (iblk6 V c 0 t) (iblk6 V c 1 t) (iblk6 V c 2 t) (iblk6 V c 3 t) s

/-- THE ACCUMULATION: the two accumulators (sums, sums of squares) after the body at position `n`, by recursion on
    the position: zeroed and advanced at the first, advanced from what the position before left at the others. -/
def accAt6 (c : Dev nD) : (n : ℕ) → n < cfg6.N → Vec F S1x128 .f32 × Vec F S1x128 .f32
  | 0, hn => (sumStep6 V c ⟨0, hn⟩ k6_pay1, sqStep6 V c ⟨0, hn⟩ k6_pay2)
  | n + 1, hn => (sumStep6 V c ⟨n + 1, hn⟩ (accAt6 c n (Nat.lt_of_succ_lt hn)).1, sqStep6 V c ⟨n + 1, hn⟩ (accAt6 c n (Nat.lt_of_succ_lt hn)).2)

theorem accAt6_zero (c : Dev nD) (t : Fin cfg6.N) (h : t.val = 0) :
    accAt6 V c t.val t.isLt = (sumStep6 V c t k6_pay1, sqStep6 V c t k6_pay2) := by
  obtain ⟨n, hn⟩ := t
  cases n with
  | zero => rfl
  | succ n => exact absurd h (Nat.succ_ne_zero n)

theorem accAt6_pos (c : Dev nD) (t : Fin cfg6.N) (h : t.val ≠ 0) :
    accAt6 V c t.val t.isLt = (sumStep6 V c t (accAt6 V c (t.val - 1) (Nat.lt_of_le_of_lt (Nat.sub_le _ _) t.isLt)).1,
      sqStep6 V c t (accAt6 V c (t.val - 1) (Nat.lt_of_le_of_lt (Nat.sub_le _ _) t.isLt)).2) := by
  obtain ⟨n, hn⟩ := t
  cases n with
  | zero => exact absurd rfl h
  | succ n => rfl

/-! ## The invariant: the two accumulators between points -/

/-- The call's two scratch operands, whole scoped buffers of its own. -/
abbrev scM6_0 : Memref sig .tc .vmem S1x128 .f32 := Memref.whole cc6_scratch0
abbrev scM6_1 : Memref sig .tc .vmem S1x128 .f32 := Memref.whole cc6_scratch1

/-- The region invariant before position `n`: before the first point every scoped buffer at anything and the generator
    register at some state; afterwards the two accumulators at what the point before left, the other scoped buffers at
    anything, the register at some state. -/
def PhiS6 (c : Dev nD) : (n : ℕ) → n ≤ cfg6.N → sProp 𝕄
  | 0, _ => Pipeline.ΦA spec6 c
  | n + 1, hn => iprop(iprop(iprop(owns (c : Thread nD τ) scM6_0 fullShare (accAt6 V c n hn).1 ∗ owns (c : Thread nD τ) scM6_1 fullShare (accAt6 V c n hn).2)
      ∗ Pipeline.scopedRestBut (Ix := Unit) (Name := ℕ) (U := UR sig nD τ) (Lvl := ℕ) (Val := Elt F) spec6 c [cc6_scratch0, cc6_scratch1]) ∗ ∃ r, prngReg c r)

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (accAt6 V c n hn).1 ∗ owns (c : Thread nD τ) scM6_1 fullShare (accAt6 V c n hn).2)
      ∗ Pipeline.scopedRestBut (Ix := Unit) (Name := ℕ) (U := UR sig nD τ) (Lvl := ℕ) (Val := Elt F) spec6 c [cc6_scratch0, cc6_scratch1]) ∗ ∃ r, prngReg c r) := rfl

theorem PhiS6_pos (c : Dev nD) (n : ℕ) (h : n ≤ cfg6.N) (hz : n ≠ 0) :
    PhiS6 V c n h = iprop(iprop(iprop(owns (c : Thread nD τ) scM6_0 fullShare (accAt6 V c (n - 1) (by omega)).1 ∗ owns (c : Thread nD τ) scM6_1 fullShare (accAt6 V c (n - 1) (by omega)).2)
      ∗ Pipeline.scopedRestBut (Ix := Unit) (Name := ℕ) (U := UR sig nD τ) (Lvl := ℕ) (Val := Elt F) spec6 c [cc6_scratch0, cc6_scratch1]) ∗ ∃ r, prngReg c r) := by
  cases n with
  | zero => exact absurd rfl hz
  | succ n => rfl

/-- The scoped rest with the two accumulators taken out, each at some contents. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ ∃ r, prngReg c r) := by
  unfold Pipeline.ΦA; rw [scopedRest6_split]; simp only [scM6_0, scM6_1, owns_whole]; try rfl

/-! ## The proof data -/

/-- The proof data of the call on core `c`: the arrays as the region finds them; after the body at point `t` each
    input's buffer at its block, window 4's at the block of `z`, windows 5 and 6 at the two accumulators after `t`
    (consulted at the last point only: before it the windows are idle); the invariant above; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => zAt6 V c t
    | ⟨5, _⟩ => (accAt6 V c t.val t.isLt).1
    | ⟨6, _⟩ => (accAt6 V c t.val t.isLt).2
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = zAt6 V c t := by dsimp only [dat6]
theorem after6_5 (c : Dev nD) (t : Fin cfg6.N) : (dat6 V c).after 5 t = (accAt6 V c t.val t.isLt).1 := by dsimp only [dat6]
theorem after6_6 (c : Dev nD) (t : Fin cfg6.N) : (dat6 V c).after 6 t = (accAt6 V c t.val t.isLt).2 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d

/-! ## Where the windows are idle -/

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl
theorem liveAt6_4 : ∀ t : Fin cfg6.N, cfg6.idle 4 (grid6.coords t) = false := fun _ => rfl
/-- Before the last point window 5 is idle and not written back; at the last point it is live. -/
theorem idleAt6_5 : ∀ t : Fin cfg6.N, ¬cond6_last (grid6.coords t) → cfg6.idle 5 (grid6.coords t) = true := by decide +kernel
theorem noFlush6_5 : ∀ t : Fin cfg6.N, ¬cond6_last (grid6.coords t) → (cfg6.win 5).flush t = false := by decide +kernel
theorem liveAt6_5 : ∀ t : Fin cfg6.N, cond6_last (grid6.coords t) → cfg6.idle 5 (grid6.coords t) = false := by decide +kernel
/-- Before the last point window 6 is idle and not written back; at the last point it is live. -/
theorem idleAt6_6 : ∀ t : Fin cfg6.N, ¬cond6_last (grid6.coords t) → cfg6.idle 6 (grid6.coords t) = true := by decide +kernel
theorem noFlush6_6 : ∀ t : Fin cfg6.N, ¬cond6_last (grid6.coords t) → (cfg6.win 6).flush t = false := by decide +kernel
theorem liveAt6_6 : ∀ t : Fin cfg6.N, cond6_last (grid6.coords t) → cfg6.idle 6 (grid6.coords t) = false := by decide +kernel

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t
    ∗ (dat6 V c).leavesExact 6 t)

set_option maxHeartbeats 4800000 in
/-- The body at any point: the inputs' buffers hold their blocks; the point is the first, a middle one or the last, and
    that case's run applies; the invariant hands the body the two accumulators at what the point before left (at
    anything at the first point) and takes them back advanced; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (st6_0 t) fullShare ((dat6 V c).after 0 t) from by
    unfold Dat.leavesExact; rw [liveAt6_0 t], after6_0]
  rw [show (dat6 V c).leavesExact 1 t = owns (c : Thread nD τ) (st6_1 t) fullShare ((dat6 V c).after 1 t) from by
    unfold Dat.leavesExact; rw [liveAt6_1 t], after6_1]
  rw [show (dat6 V c).leavesExact 2 t = owns (c : Thread nD τ) (st6_2 t) fullShare ((dat6 V c).after 2 t) from by
    unfold Dat.leavesExact; rw [liveAt6_2 t], after6_2]
  rw [show (dat6 V c).leavesExact 3 t = owns (c : Thread nD τ) (st6_3 t) fullShare ((dat6 V c).after 3 t) from by
    unfold Dat.leavesExact; rw [liveAt6_3 t], after6_3]
  rw [show (dat6 V c).leavesExact 4 t = owns (c : Thread nD τ) (st6_4 t) fullShare ((dat6 V c).after 4 t) from by
    unfold Dat.leavesExact; rw [liveAt6_4 t], after6_4]
  unfold zAt6
  have hN : t.val < 10 := lt_of_lt_of_eq t.isLt (show cfg6.N = 10 from N_6)
  by_cases h0 : t.val = 0
  · have hcf : cond6_first (grid6.coords t) := (hcond6_first t).mpr h0
    have hcl : ¬cond6_last (grid6.coords t) := fun h => by have := (hcond6_last t).mp h; omega
    rw [Dat.leavesExact_idle (dat6 V c) 5 t (idleAt6_5 t hcl) (noFlush6_5 t hcl),
      Dat.leavesExact_idle (dat6 V c) 6 t (idleAt6_6 t hcl) (noFlush6_6 t hcl)]
    rw [PhiS6_castSucc V c t, PhiS6_zero V c _ _ h0, PhiA6_eq, accAt6_zero V c t h0]
    dsimp only; unfold sumStep6 sqStep6
    iintro ⟨⟨⟨⟨⟨%d8, HS0⟩, ⟨%d9, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run6_first c Set.univ (grid6.coords t) _ _ _ _ _ _ _ _ _ _ _ _ _ _ _ _ _ _ hcf hcl (iblk6 V c 0 t) (iblk6 V c 1 t) (iblk6 V c 2 t) (iblk6 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexists _; iexact HS0
    isplitl [HS1]; · iexists _; iexact HS1
    iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hcf : ¬cond6_first (grid6.coords t) := fun h => h0 ((hcond6_first t).mp h)
    rw [PhiS6_castSucc V c t, PhiS6_pos V c _ _ h0, accAt6_pos V c t h0]
    by_cases h9 : t.val = 9
    · have hcl : cond6_last (grid6.coords t) := (hcond6_last t).mpr h9
      rw [show (dat6 V c).leavesExact 5 t = owns (c : Thread nD τ) (st6_5 t) fullShare ((dat6 V c).after 5 t) from by
        unfold Dat.leavesExact; rw [liveAt6_5 t hcl], after6_5]
      rw [show (dat6 V c).leavesExact 6 t = owns (c : Thread nD τ) (st6_6 t) fullShare ((dat6 V c).after 6 t) from by
        unfold Dat.leavesExact; rw [liveAt6_6 t hcl], after6_6]
      rw [accAt6_pos V c t h0]
      dsimp only; unfold sumStep6 sqStep6
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run6_last c Set.univ (grid6.coords t) _ _ _ _ _ _ _ _ _ _ _ _ _ _ _ _ _ _ hcf hcl (iblk6 V c 0 t) (iblk6 V c 1 t) (iblk6 V c 2 t) (iblk6 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hcl : ¬cond6_last (grid6.coords t) := fun h => h9 ((hcond6_last t).mp h)
      rw [Dat.leavesExact_idle (dat6 V c) 5 t (idleAt6_5 t hcl) (noFlush6_5 t hcl),
        Dat.leavesExact_idle (dat6 V c) 6 t (idleAt6_6 t hcl) (noFlush6_6 t hcl)]
      dsimp only; unfold sumStep6 sqStep6
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run6_mid c Set.univ (grid6.coords t) _ _ _ _ _ _ _ _ _ _ _ _ _ _ _ _ _ _ hcf hcl (iblk6 V c 0 t) (iblk6 V c 1 t) (iblk6 V c 2 t) (iblk6 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation, at every point. -/
theorem body_obligation6 (c : Dev nD) : BodyObligation (dat6 (F := F) V c) (defs₀ (F := F)) Variants.none () Set.univ := fun t => by
  rw [bigSep_W6, bigSep_W6]
  exact sound_body6 V c t

/-! ## The invariant at the region's two ends -/

/-- What the region is entered with (the generator register at some state, every scoped buffer at anything) is the
    invariant before the first point. -/
theorem Phi_first6 (c : Dev nD) :
    iprop((∃ r, prngReg c r) ∗ Pipeline.scopedRest (Ix := Unit) (Name := ℕ) (U := UR sig nD τ) (Lvl := ℕ) (Val := Elt F) spec6 c) ⊢ ((dat6 V c).Φ 0 : sProp 𝕄) := by
  rw [show (dat6 V c).Φ 0 = Pipeline.ΦA spec6 c from rfl]; unfold Pipeline.ΦA
  iintro ⟨Hp, Hr⟩
  isplitl [Hr]; · iexact Hr
  iexact Hp

/-- After any point but the first the invariant gives the scoped rest back: the accumulators' contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point, in the form the region's exit takes it. -/
theorem Phi_last6 (c : Dev nD) :
    ((dat6 V c).Φ (Fin.last cfg6.N) : sProp 𝕄) ⊢ iprop((∃ r, prngReg c r) ∗ Pipeline.scopedRest (Ix := Unit) (Name := ℕ) (U := UR sig nD τ) (Lvl := ℕ) (Val := Elt F) spec6 c) := by
  refine (Phi_out6 V c _ (by rw [Fin.val_last]; have : cfg6.N = 10 := N_6; omega)).trans ?_
  unfold Pipeline.ΦA
  iintro ⟨Hr, Hp⟩
  isplitl [Hp]; · iexact Hp
  iexact Hr

end Cert.KernelIdeal.Hand
end
-- ==== Proof.KI.B7.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«102976_j3633542332749_1_alg».proof.Proof.KI.BLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the point is the grid's first. -/
abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val = 0 :=
  (by decide +kernel : ∀ t : Fin grid7.N, cond7_0 (grid7.coords t) ↔ t.val = 0)
/-- The second: the point is the grid's last. -/
abbrev cond7_1 (i : grid7.Coords) : Prop := k7_cond2 i = 1#1
theorem hcond7_1 : ∀ t : Fin cfg7.N, cond7_1 (grid7.coords t) ↔ t.val = 9 :=
  (by decide +kernel : ∀ t : Fin grid7.N, cond7_1 (grid7.coords t) ↔ t.val = 9)

/-! ## The body's triple, in its three control cases

The body on whole staging memrefs: the five inputs at read contents, the z2 window at anything, the two scratch
accumulators; it leaves the inputs as they were, the z2 window at the block of z2 (the skeleton's `k7_pay4`), the
accumulators with this block's column sums added (`k7_pay5`, `k7_pay1`). At the first point the accumulators
are zeroed first (`k7_pay2`, `k7_pay3`); at the last the two sums' windows receive the accumulators; at the
other points those windows are not touched. -/

set_option maxHeartbeats 1000000 in
theorem kernelB7_first (c : Dev nD) (E : Set ℕ) (i : grid7.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond7_0 i) (hc1 : ¬cond7_1 i)
    (x0 : Vec F S5000x128 .f32) (x1 x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k7_pay4 x0 x1 x2 x3 x4)
            ∗ owns (c : Thread nD τ) arg9 fullShare (k7_pay5 x0 x1 x2 x3 x4 k7_pay2)
            ∗ owns (c : Thread nD τ) arg10 fullShare (k7_pay1 (k7_pay4 x0 x1 x2 x3 x4) k7_pay3)) -∗ K ⟨⟩))
      ⊢ wp frame (wpE (defs₀ (F := F)) Variants.none c none) E (cc7__kernelB i arg1 harg1 arg2 harg2 arg3 harg3 arg4 harg4 arg5 harg5 arg6 harg6 arg7 harg7 arg8 harg8 arg9 harg9 arg10 harg10) K := by
  simp only [cc7__kernelB_eq_skeleton]; unfold cc7__kernelB_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread,
    View.ld_unit_zero (S := S5000x128) zeros2_B, View.ld_unit_zero (S := S1x128) zeros2_B, View.ld_unit_zero (S := S128x128) zeros2_B]

set_option maxHeartbeats 1000000 in
theorem kernelB7_mid (c : Dev nD) (E : Set ℕ) (i : grid7.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond7_0 i) (hc1 : ¬cond7_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k7_pay4 x0 x1 x2 x3 x4)
            ∗ owns (c : Thread nD τ) arg9 fullShare (k7_pay5 x0 x1 x2 x3 x4 s0)
            ∗ owns (c : Thread nD τ) arg10 fullShare (k7_pay1 (k7_pay4 x0 x1 x2 x3 x4) s1)) -∗ K ⟨⟩))
      ⊢ wp frame (wpE (defs₀ (F := F)) Variants.none c none) E (cc7__kernelB i arg1 harg1 arg2 harg2 arg3 harg3 arg4 harg4 arg5 harg5 arg6 harg6 arg7 harg7 arg8 harg8 arg9 harg9 arg10 harg10) K := by
  simp only [cc7__kernelB_eq_skeleton]; unfold cc7__kernelB_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

set_option maxHeartbeats 1000000 in
theorem kernelB7_last (c : Dev nD) (E : Set ℕ) (i : grid7.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond7_0 i) (hc1 : cond7_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k7_pay4 x0 x1 x2 x3 x4)
            ∗ owns (c : Thread nD τ) arg7 fullShare (k7_pay5 x0 x1 x2 x3 x4 s0)
            ∗ owns (c : Thread nD τ) arg8 fullShare (k7_pay1 (k7_pay4 x0 x1 x2 x3 x4) s1)
            ∗ owns (c : Thread nD τ) arg9 fullShare (k7_pay5 x0 x1 x2 x3 x4 s0)
            ∗ owns (c : Thread nD τ) arg10 fullShare (k7_pay1 (k7_pay4 x0 x1 x2 x3 x4) s1)) -∗ K ⟨⟩))
      ⊢ wp frame (wpE (defs₀ (F := F)) Variants.none c none) E (cc7__kernelB i arg1 harg1 arg2 harg2 arg3 harg3 arg4 harg4 arg5 harg5 arg6 harg6 arg7 harg7 arg8 harg8 arg9 harg9 arg10 harg10) K := by
  simp only [cc7__kernelB_eq_skeleton]; unfold cc7__kernelB_skel
  simp only [k7_part1_eq_skeleton]; unfold k7_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H6]
  · iexists _; isplitr
    swap; · iexact H6
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H7]
  · iexists _; isplitr
    swap; · iexact H7
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-! ## What the body computes, point by point -/

/-- The block of z2 = max(z1·scale + shift, 0)·W + b the body stores at point `t`. -/
def z2blk7 (c : Dev nD) (t : Fin cfg7.N) : Vec F S5000x128 .f32 :=
  k7_pay4 (iblk7 V c 0 t) (iblk7 V c 1 t) (iblk7 V c 2 t) (iblk7 V c 3 t) (iblk7 V c 4 t)

/-- The running column sums of z2 after point `n`: zero, then each point's block added in order. -/
def sum7 (c : Dev nD) : (n : ℕ) → n < cfg7.N → Vec F S1x128 .f32
  | 0, h => k7_pay5 (iblk7 V c 0 ⟨0, h⟩) (iblk7 V c 1 ⟨0, h⟩) (iblk7 V c 2 ⟨0, h⟩) (iblk7 V c 3 ⟨0, h⟩) (iblk7 V c 4 ⟨0, h⟩) k7_pay2
  | n + 1, h => k7_pay5 (iblk7 V c 0 ⟨n + 1, h⟩) (iblk7 V c 1 ⟨n + 1, h⟩) (iblk7 V c 2 ⟨n + 1, h⟩) (iblk7 V c 3 ⟨n + 1, h⟩) (iblk7 V c 4 ⟨n + 1, h⟩)
      (sum7 c n (Nat.lt_of_succ_lt h))

/-- The running column sums of z2² after point `n`. -/
def sumsq7 (c : Dev nD) : (n : ℕ) → n < cfg7.N → Vec F S1x128 .f32
  | 0, h => k7_pay1 (z2blk7 V c ⟨0, h⟩) k7_pay3
  | n + 1, h => k7_pay1 (z2blk7 V c ⟨n + 1, h⟩) (sumsq7 c n (Nat.lt_of_succ_lt h))

theorem sum7_first (c : Dev nD) (t : Fin cfg7.N) (h0 : t.val = 0) :
    sum7 V c t.val t.isLt = k7_pay5 (iblk7 V c 0 t) (iblk7 V c 1 t) (iblk7 V c 2 t) (iblk7 V c 3 t) (iblk7 V c 4 t) k7_pay2 := by
  obtain ⟨n, hn⟩ := t
  cases n with
  | zero => rfl
  | succ n => exact absurd h0 (Nat.succ_ne_zero n)

theorem sum7_next (c : Dev nD) (t : Fin cfg7.N) (h0 : t.val ≠ 0) :
    sum7 V c t.val t.isLt = k7_pay5 (iblk7 V c 0 t) (iblk7 V c 1 t) (iblk7 V c 2 t) (iblk7 V c 3 t) (iblk7 V c 4 t)
      (sum7 V c (t.val - 1) (Nat.lt_of_le_of_lt (Nat.sub_le _ _) t.isLt)) := by
  obtain ⟨n, hn⟩ := t
  cases n with
  | zero => exact absurd rfl h0
  | succ n => rfl

theorem sumsq7_first (c : Dev nD) (t : Fin cfg7.N) (h0 : t.val = 0) :
    sumsq7 V c t.val t.isLt = k7_pay1 (z2blk7 V c t) k7_pay3 := by
  obtain ⟨n, hn⟩ := t
  cases n with
  | zero => rfl
  | succ n => exact absurd h0 (Nat.succ_ne_zero n)

theorem sumsq7_next (c : Dev nD) (t : Fin cfg7.N) (h0 : t.val ≠ 0) :
    sumsq7 V c t.val t.isLt = k7_pay1 (z2blk7 V c t) (sumsq7 V c (t.val - 1) (Nat.lt_of_le_of_lt (Nat.sub_le _ _) t.isLt)) := by
  obtain ⟨n, hn⟩ := t
  cases n with
  | zero => exact absurd rfl h0
  | succ n => rfl

/-! ## The region invariant -/

/-- The two accumulators the kernel keeps in scratch between points, as memrefs. -/
abbrev sc7_0 : Memref sig .tc .vmem S1x128 .f32 := Memref.whole cc7_scratch0
abbrev sc7_1 : Memref sig .tc .vmem S1x128 .f32 := Memref.whole cc7_scratch1

/-- The class invariant with the two accumulators taken out of the scoped rest, each at some contents. -/
theorem PhiA7_eq (c : Dev nD) :
    (Pipeline.ΦA spec7 c : sProp 𝕄)
      = iprop(iprop(iprop((∃ d, owns (c : Thread nD τ) sc7_0 fullShare d) ∗ (∃ d, owns (c : Thread nD τ) sc7_1 fullShare d))
          ∗ Pipeline.scopedRestBut (Ix := Unit) (Name := ℕ) (U := UR sig nD τ) (Lvl := ℕ) (Val := Elt F) spec7 c [cc7_scratch0, cc7_scratch1])
          ∗ (∃ r, prngReg c r)) := by
  unfold Pipeline.ΦA; rw [scopedRest7_split]; simp only [sc7_0, sc7_1, owns_whole]; try rfl

/-- The invariant before position `n`: before the first point the class's; afterwards the two accumulators at the
    running sums after the point before, the other scoped buffers at anything, the generator register at some state. -/
def Phi7 (c : Dev nD) : (n : ℕ) → n ≤ cfg7.N → sProp 𝕄
  | 0, _ => Pipeline.ΦA spec7 c
  | n + 1, hn => iprop(iprop(iprop(owns (c : Thread nD τ) sc7_0 fullShare (sum7 V c n hn) ∗ owns (c : Thread nD τ) sc7_1 fullShare (sumsq7 V c n hn))
          ∗ Pipeline.scopedRestBut (Ix := Unit) (Name := ℕ) (U := UR sig nD τ) (Lvl := ℕ) (Val := Elt F) spec7 c [cc7_scratch0, cc7_scratch1])
          ∗ (∃ r, prngReg c r))

theorem Phi7_zero (c : Dev nD) (n : ℕ) (h : n ≤ cfg7.N) (hz : n = 0) : Phi7 V c n h = Pipeline.ΦA spec7 c := by
  subst hz; rfl

theorem Phi7_succ (c : Dev nD) (n : ℕ) (hn : n < cfg7.N) :
    Phi7 V c (n + 1) hn = iprop(iprop(iprop(owns (c : Thread nD τ) sc7_0 fullShare (sum7 V c n hn) ∗ owns (c : Thread nD τ) sc7_1 fullShare (sumsq7 V c n hn))
          ∗ Pipeline.scopedRestBut (Ix := Unit) (Name := ℕ) (U := UR sig nD τ) (Lvl := ℕ) (Val := Elt F) spec7 c [cc7_scratch0, cc7_scratch1])
          ∗ (∃ r, prngReg c r)) := rfl

theorem Phi7_pos (c : Dev nD) (n : ℕ) (h : n ≤ cfg7.N) (hz : n ≠ 0) :
    Phi7 V c n h = iprop(iprop(iprop(owns (c : Thread nD τ) sc7_0 fullShare (sum7 V c (n - 1) (by omega)) ∗ owns (c : Thread nD τ) sc7_1 fullShare (sumsq7 V c (n - 1) (by omega)))
          ∗ Pipeline.scopedRestBut (Ix := Unit) (Name := ℕ) (U := UR sig nD τ) (Lvl := ℕ) (Val := Elt F) spec7 c [cc7_scratch0, cc7_scratch1])
          ∗ (∃ r, prngReg c r)) := by
  cases n with
  | zero => exact absurd rfl hz
  | succ n => rfl

/-! ## The pipeline's proof data -/

/-- The proof data of pipeline 7 on core `c`: the arrays as the region finds them (`V`); after the body at point `t`
    each input's buffer at its block, the z2 window at the point's block of z2, the two sums' windows at the running
    sums; the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => z2blk7 V c t
    | ⟨6, _⟩ => sum7 V c t.val t.isLt
    | ⟨7, _⟩ => sumsq7 V c t.val t.isLt
  Φ t := Phi7 V c t.val (Nat.le_of_lt_succ t.isLt)
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = z2blk7 V c t := by dsimp only [dat7]
theorem after7_6 (c : Dev nD) (t : Fin cfg7.N) : (dat7 V c).after 6 t = sum7 V c t.val t.isLt := by dsimp only [dat7]
theorem after7_7 (c : Dev nD) (t : Fin cfg7.N) : (dat7 V c).after 7 t = sumsq7 V c t.val t.isLt := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- The invariant at a point's start, restated at `t.val`. -/
theorem Phi7_castSucc (c : Dev nD) (t : Fin cfg7.N) :
    (dat7 V c).Φ t.castSucc = Phi7 V c t.val (Nat.le_of_lt t.isLt) := by
  dsimp only [dat7]; simp only [Fin.coe_castSucc]

/-- and at its end. -/
theorem Phi7_fsucc (c : Dev nD) (t : Fin cfg7.N) :
    (dat7 V c).Φ t.succ = Phi7 V c (t.val + 1) t.isLt := by
  dsimp only [dat7]; simp only [Fin.val_succ]

/-! ## Where the sums' windows are idle -/

theorem live7_0 : ∀ t : Fin cfg7.N, cfg7.idle 0 (grid7.coords t) = false := fun _ => rfl
theorem live7_1 : ∀ t : Fin cfg7.N, cfg7.idle 1 (grid7.coords t) = false := fun _ => rfl
theorem live7_2 : ∀ t : Fin cfg7.N, cfg7.idle 2 (grid7.coords t) = false := fun _ => rfl
theorem live7_3 : ∀ t : Fin cfg7.N, cfg7.idle 3 (grid7.coords t) = false := fun _ => rfl
theorem live7_4 : ∀ t : Fin cfg7.N, cfg7.idle 4 (grid7.coords t) = false := fun _ => rfl
theorem live7_5 : ∀ t : Fin cfg7.N, cfg7.idle 5 (grid7.coords t) = false := fun _ => rfl
theorem idle7_6 : ∀ t : Fin cfg7.N, ¬cond7_1 (grid7.coords t) → cfg7.idle 6 (grid7.coords t) = true := by decide +kernel
theorem noFlush7_6 : ∀ t : Fin cfg7.N, ¬cond7_1 (grid7.coords t) → (cfg7.win 6).flush t = false := by decide +kernel
theorem live7_6 : ∀ t : Fin cfg7.N, cond7_1 (grid7.coords t) → cfg7.idle 6 (grid7.coords t) = false := by decide +kernel
theorem idle7_7 : ∀ t : Fin cfg7.N, ¬cond7_1 (grid7.coords t) → cfg7.idle 7 (grid7.coords t) = true := by decide +kernel
theorem noFlush7_7 : ∀ t : Fin cfg7.N, ¬cond7_1 (grid7.coords t) → (cfg7.win 7).flush t = false := by decide +kernel
theorem live7_7 : ∀ t : Fin cfg7.N, cond7_1 (grid7.coords t) → cfg7.idle 7 (grid7.coords t) = false := by decide +kernel

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t
    ∗ (dat7 V c).leavesExact 6 t
    ∗ (dat7 V c).leavesExact 7 t)

set_option maxHeartbeats 4000000 in
/-- The body at any point: the inputs' memrefs hold their blocks; the point is the first, the last or neither; the
    invariant hands the body the two accumulators (at anything at the first point, at the running sums after the point
    before otherwise) and takes them back at this point's running sums; the sums' windows are left untouched except at
    the last point, where they receive the accumulators; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [Phi7_fsucc, Phi7_succ, Phi7_castSucc]
  rw [show (dat7 V c).leavesExact 0 t = owns (c : Thread nD τ) (st7_0 t) fullShare ((dat7 V c).after 0 t) from by
    unfold Dat.leavesExact; rw [live7_0 t], after7_0]
  rw [show (dat7 V c).leavesExact 1 t = owns (c : Thread nD τ) (st7_1 t) fullShare ((dat7 V c).after 1 t) from by
    unfold Dat.leavesExact; rw [live7_1 t], after7_1]
  rw [show (dat7 V c).leavesExact 2 t = owns (c : Thread nD τ) (st7_2 t) fullShare ((dat7 V c).after 2 t) from by
    unfold Dat.leavesExact; rw [live7_2 t], after7_2]
  rw [show (dat7 V c).leavesExact 3 t = owns (c : Thread nD τ) (st7_3 t) fullShare ((dat7 V c).after 3 t) from by
    unfold Dat.leavesExact; rw [live7_3 t], after7_3]
  rw [show (dat7 V c).leavesExact 4 t = owns (c : Thread nD τ) (st7_4 t) fullShare ((dat7 V c).after 4 t) from by
    unfold Dat.leavesExact; rw [live7_4 t], after7_4]
  rw [show (dat7 V c).leavesExact 5 t = owns (c : Thread nD τ) (st7_5 t) fullShare ((dat7 V c).after 5 t) from by
    unfold Dat.leavesExact; rw [live7_5 t], after7_5]
  have hN : t.val < 10 := lt_of_lt_of_eq t.isLt (show cfg7.N = 10 from N_7)
  by_cases h0 : t.val = 0
  · have hc0 : cond7_0 (grid7.coords t) := (hcond7_0 t).mpr h0
    have hc1 : ¬cond7_1 (grid7.coords t) := fun h => by have := (hcond7_1 t).mp h; omega
    rw [Dat.leavesExact_idle (dat7 V c) 6 t (idle7_6 t hc1) (noFlush7_6 t hc1),
      Dat.leavesExact_idle (dat7 V c) 7 t (idle7_7 t hc1) (noFlush7_7 t hc1)]
    rw [Phi7_zero V c _ _ h0, PhiA7_eq, sum7_first V c t h0, sumsq7_first V c t h0]
    unfold z2blk7
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
    iapply (kernelB7_first c Set.univ (grid7.coords t) _ _ _ _ _ _ _ _ _ _ _ _ _ _ _ _ _ _ _ _ hc0 hc1 (iblk7 V c 0 t) (iblk7 V c 1 t) (iblk7 V c 2 t) (iblk7 V c 3 t) (iblk7 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h9 : t.val = 9
    · have hc0 : ¬cond7_0 (grid7.coords t) := fun h => h0 ((hcond7_0 t).mp h)
      have hc1 : cond7_1 (grid7.coords t) := (hcond7_1 t).mpr h9
      rw [show (dat7 V c).leavesExact 6 t = owns (c : Thread nD τ) (st7_6 t) fullShare ((dat7 V c).after 6 t) from by
        unfold Dat.leavesExact; rw [live7_6 t hc1], after7_6]
      rw [show (dat7 V c).leavesExact 7 t = owns (c : Thread nD τ) (st7_7 t) fullShare ((dat7 V c).after 7 t) from by
        unfold Dat.leavesExact; rw [live7_7 t hc1], after7_7]
      rw [Phi7_pos V c _ _ h0, sum7_next V c t h0, sumsq7_next V c t h0]
      unfold z2blk7
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelB7_last c Set.univ (grid7.coords t) _ _ _ _ _ _ _ _ _ _ _ _ _ _ _ _ _ _ _ _ hc0 hc1 (iblk7 V c 0 t) (iblk7 V c 1 t) (iblk7 V c 2 t) (iblk7 V c 3 t) (iblk7 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc0 : ¬cond7_0 (grid7.coords t) := fun h => h0 ((hcond7_0 t).mp h)
      have hc1 : ¬cond7_1 (grid7.coords t) := fun h => h9 ((hcond7_1 t).mp h)
      rw [Dat.leavesExact_idle (dat7 V c) 6 t (idle7_6 t hc1) (noFlush7_6 t hc1),
        Dat.leavesExact_idle (dat7 V c) 7 t (idle7_7 t hc1) (noFlush7_7 t hc1)]
      rw [Phi7_pos V c _ _ h0, sum7_next V c t h0, sumsq7_next V c t h0]
      unfold z2blk7
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
      iapply (kernelB7_mid c Set.univ (grid7.coords t) _ _ _ _ _ _ _ _ _ _ _ _ _ _ _ _ _ _ _ _ hc0 hc1 (iblk7 V c 0 t) (iblk7 V c 1 t) (iblk7 V c 2 t) (iblk7 V c 3 t) (iblk7 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation7 (c : Dev nD) : BodyObligation (dat7 (F := F) V c) (defs₀ (F := F)) Variants.none () Set.univ := fun t => by
  rw [bigSep_W7, bigSep_W7]
  exact sound_body7 V c t

/-! ## The invariant at the region's ends -/

/-- What the launch hands the region is the invariant before the first point. -/
theorem Phi_first7 (c : Dev nD) : iprop((∃ r, prngReg c r) ∗ Pipeline.scopedRest spec7 c) ⊢ ((dat7 V c).Φ 0 : sProp 𝕄) := by
  rw [show (dat7 V c).Φ 0 = Phi7 V c 0 (Nat.zero_le _) from rfl, Phi7_zero V c 0 _ rfl]; unfold Pipeline.ΦA
  iintro ⟨Hp, Hr⟩
  isplitl [Hr]; · iexact Hr
  iexact Hp

/-- After the last point the invariant gives the scoped rest back: the accumulators' named contents are forgotten. -/
theorem Phi_last7 (c : Dev nD) : ((dat7 V c).Φ (Fin.last cfg7.N) : sProp 𝕄) ⊢ iprop((∃ r, prngReg c r) ∗ Pipeline.scopedRest spec7 c) := by
  have e : (iprop((∃ r, prngReg c r) ∗ Pipeline.scopedRest spec7 c) : sProp 𝕄) = iprop((∃ r, prngReg c r) ∗ iprop(iprop((∃ d, owns (c : Thread nD τ) sc7_0 fullShare d) ∗ (∃ d, owns (c : Thread nD τ) sc7_1 fullShare d))
          ∗ Pipeline.scopedRestBut (Ix := Unit) (Name := ℕ) (U := UR sig nD τ) (Lvl := ℕ) (Val := Elt F) spec7 c [cc7_scratch0, cc7_scratch1])) := by
    rw [scopedRest7_split]; simp only [sc7_0, sc7_1, owns_whole]; try rfl
  rw [e, show (dat7 V c).Φ (Fin.last cfg7.N) = Phi7 V c (Fin.last cfg7.N).val (Nat.le_of_lt_succ (Fin.last cfg7.N).isLt) from rfl,
    Phi7_pos V c _ _ (by rw [Fin.val_last]; have : cfg7.N = 10 := N_7; omega)]
  iintro ⟨⟨⟨HS0, HS1⟩, Hrest⟩, Hg⟩
  isplitl [Hg]; · iexact Hg
  isplitl [HS0 HS1]
  · isplitl [HS0]
    · iexists _; iexact HS0
    iexists _; iexact HS1
  iexact Hrest

end Cert.KernelIdeal.Hand

end
-- ==== Proof.KI.C8.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

/-! # The normalise-and-rectify call number 8: one row block per grid point

The call maps a block `z` of 5000 rows by 128 features, a row of 128 scales `s` and a row of 128 shifts `b` to
`max (z * s + b) 0`, entry by entry, the two rows repeated down the block. Its grid has ten points; point `t` reads rows
`5000 t … 5000 t + 4999` of the array and writes the same rows of the result; the two rows are the same block at every
point. This file states, for arbitrary contents `V` of the buffers when the call is entered, what each window's
staging buffer holds before and after the body at every point, and proves that the body run on those buffers returns
them so. -/

-- membership in a rectangle with an axis of 5000 rows: the elaborator's structural look recurses once per coordinate of
-- the long axis (5000 deep, never once per entry)
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: everything below is stated at this parameter
variable (V : (c : Dev nD) → (b : Ref sig .tc) → Buf (Elt F) ((c : Thread nD τ).loc b))

/-! ## The windows' blocks -/

/-- Window `w`'s block at point `t`, read off its array as the call finds it (`V`): for window 0 the rows
    `5000 t …` of the pre-activation, for windows 1 and 2 the whole row of scales and of shifts. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The row-block window's current staging buffer holds its block at every point, for any proof data whose array is
    `V`'s (`hA`) and whose body leaves the block in place (`hafter`). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- The scale row's staging buffer holds the row at every point: fetched at the first point, and at a later point the
    block index has not moved, so what the body left is still that row. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- The shift row's staging buffer holds the row at every point, for the same reason. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole 5000 by 128 block, as the rectangle the body loads and stores. -/
abbrev r8_blk : Rect S5000x128 := Rect.unit (s := S5000x128) ![0, 0] S5000x128.size inb_S5000x128_S5000x128_0_0
/-- The whole 1 by 128 row, as the rectangle the body loads. -/
abbrev r8_row : Rect S1x128 := Rect.unit (s := S1x128) ![0, 0] S1x128.size inb_S1x128_S1x128_0_0

/-! ## What the body leaves in the output window's buffer -/

/-- The output block after the body, from the three input blocks: one store of the whole block, whose value is
    `max (z * s + b) 0` of the block, the scale row and the shift row (`k8_pay1`). -/
def out8_3 (x0 : Vec F S5000x128 .f32) (x1 : Vec F S1x128 .f32) (x2 : Vec F S1x128 .f32) : Vec F S5000x128 .f32 :=
  View.canon [⟨r8_blk, k8_pay1 (View.ld x0 r8_blk) (View.ld x1 r8_row) (View.ld x2 r8_row)⟩]

/-- The one store is the whole block, so it covers it. -/
theorem cover8_3 (p0 : Vec F S5000x128 .f32) (y : S5000x128.Idx) :
    ∃ pc ∈ ([⟨r8_blk, p0⟩] : List (View.Piece (Elt F) S5000x128 .f32)), y ∈ pc.1.set :=
  View.cover_of_tiled [⟨r8_blk, p0⟩] S5000x128.size (by rfl) y

/-! ## The body's triple -/

set_option maxHeartbeats 1000000 in
/-- The body on whole staging memrefs, the three inputs' at contents `x0`, `x1`, `x2` and the output's at anything,
    runs to the continuation holding the inputs' as they were and the output's at `out8_3 x0 x1 x2`. -/
theorem sound_kernel8 (c : Dev nD) (E : Set ℕ) (i : grid8.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__kernelC i arg1 harg1 arg2 harg2 arg3 harg3 arg4 harg4) K := by
  simp only [cc8__kernelC_eq_skeleton]; unfold cc8__kernelC_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The call's proof data -/

/-- The proof data of call 8 on core `c`: the arrays as the call finds them (`V`); after the body at point `t` each
    input's buffer still at its block and the output's at `out8_3` of the three input blocks; the invariant is the
    untouched rest; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks (`before8_w`), so `sound_kernel8` applies; the
    invariant and the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the launch theorems, at every point. -/
theorem body_obligation8 (c : Dev nD) : BodyObligation (dat8 (F := F) V c) (defs₀ (F := F)) Variants.none () Set.univ := fun t => by
  rw [bigSep_W8, bigSep_W8]
  exact sound_body8 V c t

/-! ## The invariant at the first and at the last point -/

/-- The invariant at the first point is made of the generator register and the scoped buffers no window stages, -/
theorem Phi_first8 (c : Dev nD) :
    iprop((∃ r, prngReg c r) ∗ Pipeline.scopedRest (Ix := Unit) (Name := ℕ) (U := UR sig nD τ) (Lvl := ℕ) (Val := Elt F) spec8 c)
      ⊢ ((dat8 V c).Φ 0 : sProp 𝕄) := by
  rw [show (dat8 V c).Φ 0 = Pipeline.ΦA spec8 c from rfl]; unfold Pipeline.ΦA
  iintro ⟨Hp, Hr⟩
  isplitl [Hr]; · iexact Hr
  iexact Hp

/-- and at the last point it gives both back. -/
theorem Phi_last8 (c : Dev nD) :
    ((dat8 V c).Φ (Fin.last cfg8.N) : sProp 𝕄)
      ⊢ iprop((∃ r, prngReg c r) ∗ Pipeline.scopedRest (Ix := Unit) (Name := ℕ) (U := UR sig nD τ) (Lvl := ℕ) (Val := Elt F) spec8 c) := by
  rw [show (dat8 V c).Φ (Fin.last _) = Pipeline.ΦA spec8 c from rfl]; unfold Pipeline.ΦA
  iintro ⟨Hr, Hp⟩
  isplitl [Hp]; · iexact Hp
  iexact Hr

end Cert.KernelIdeal.Hand
-- ==== Proof.KI.A9Run.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import proofs.«102976_j3633542332749_1_alg».proof.Proof.KI.ALib
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of custom_call 9: one row block of the linear layer, with running column sums

At grid point `i` the body reads a block `x0` of the features, the matching block `x1` of the aggregated
neighbours, the weight matrix `x2` and the bias row `x3`, stores the block `z = (x0 + x1)·x2 + x3` into the
fifth operand, and adds the column sums of `z` and of `z²` to two accumulator rows (the last two operands), which
it first zeroes at the first point; at the last point it copies the two accumulators into the sixth and seventh
operands. Three control cases over the grid: first, middle, last. -/

/-- The first `pl.when`: the grid coordinate is 0 (the accumulators are zeroed). -/
abbrev cond9_first (i : grid9.Coords) : Prop := (Scalar.cmpi .ne (Scalar.extui (Scalar.cmpi .eq (BitVec.ofNat 32 (i 0).val) 0#32)) 0#32) = 1#1
/-- It holds at point 0 only. -/
theorem hcond9_first : ∀ t : Fin cfg9.N, cond9_first (grid9.coords t) ↔ t.val = 0 :=
  (by decide +kernel : ∀ t : Fin grid9.N, cond9_first (grid9.coords t) ↔ t.val = 0)
/-- The second `pl.when`: the grid coordinate is the last (the accumulators are copied out). -/
abbrev cond9_last (i : grid9.Coords) : Prop := k9_cond2 i = 1#1
/-- It holds at point 9 only. -/
theorem hcond9_last : ∀ t : Fin cfg9.N, cond9_last (grid9.coords t) ↔ t.val = 9 :=
  (by decide +kernel : ∀ t : Fin grid9.N, cond9_last (grid9.coords t) ↔ t.val = 9)

/-- A buffer's contents after a last whole-buffer store are that store's payload, a load after such a store reads
    the payload back, and a whole-buffer load reads the contents. -/
local macro "close_whole" : tactic => `(tactic| (
  (try sl_unfold_run_names)
  rw [read_writes_whole_last_A _ _ hz_A]
  (try rw [View.readCov_unit_zero _ hz_A])
  (try simp only [readAt_whole_A (S := S5000x128) _ _ hz_A, readAt_whole_A (S := S128x128) _ _ hz_A, readAt_whole_A (S := S1x128) _ _ hz_A])))

set_option maxHeartbeats 1000000 in
/-- The body at the FIRST point: the accumulators, whatever they held, are zeroed and then advanced by the block's
    column sums; the block `z` stored; the two statistics operands untouched. -/
theorem run9_first (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : cond9_first i) (hc1 : ¬cond9_last i)
    (x0 x1 : Vec F S5000x128 .f32) (x2 : Vec F S128x128 .f32) (x3 : Vec F S1x128 .f32) (y5 y6 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k9_pay3 x0 x1 x2 x3) ∗ owns (c : Thread nD τ) arg6 fullShare y5 ∗ owns (c : Thread nD τ) arg7 fullShare y6
            ∗ owns (c : Thread nD τ) arg8 fullShare (k9_pay4 x0 x1 x2 x3 k9_pay1) ∗ owns (c : Thread nD τ) arg9 fullShare (k9_pay5 x0 x1 x2 x3 k9_pay2)) -∗ K ⟨⟩))
      ⊢ wp frame (wpE (defs₀ (F := F)) Variants.none c none) E (cc9__kernelA i arg1 harg1 arg2 harg2 arg3 harg3 arg4 harg4 arg5 harg5 arg6 harg6 arg7 harg7 arg8 harg8 arg9 harg9) K := by
  simp only [cc9__kernelA_eq_skeleton]; unfold cc9__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d8, %f8, -, H8⟩, ⟨%d9, %f9, -, H9⟩, Hk⟩
  subst hf0; subst hf1; subst hf2; subst hf3; subst hf5; subst hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at a MIDDLE point: the block `z` stored, each accumulator advanced by the block's column sums; the two
    statistics operands untouched. -/
theorem run9_mid (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond9_first i) (hc1 : ¬cond9_last i)
    (x0 x1 : Vec F S5000x128 .f32) (x2 : Vec F S128x128 .f32) (x3 : Vec F S1x128 .f32) (y5 y6 s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare y5 ∗ owns (c : Thread nD τ) arg7 fullShare y6
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k9_pay3 x0 x1 x2 x3) ∗ owns (c : Thread nD τ) arg6 fullShare y5 ∗ owns (c : Thread nD τ) arg7 fullShare y6
            ∗ owns (c : Thread nD τ) arg8 fullShare (k9_pay4 x0 x1 x2 x3 s8) ∗ owns (c : Thread nD τ) arg9 fullShare (k9_pay5 x0 x1 x2 x3 s9)) -∗ K ⟨⟩))
      ⊢ wp frame (wpE (defs₀ (F := F)) Variants.none c none) E (cc9__kernelA i arg1 harg1 arg2 harg2 arg3 harg3 arg4 harg4 arg5 harg5 arg6 harg6 arg7 harg7 arg8 harg8 arg9 harg9) K := by
  simp only [cc9__kernelA_eq_skeleton]; unfold cc9__kernelA_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f8, %hf8, H8⟩, ⟨%f9, %hf9, H9⟩, Hk⟩
  subst hf0; subst hf1; subst hf2; subst hf3; subst hf5; subst hf6; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]; · iexists f5; isplitr; · ipureintro; rfl
                  iexact H5
  isplitl [H6]; · iexists f6; isplitr; · ipureintro; rfl
                  iexact H6
  isplitl [H8]
  · iexists _; isplitr
    swap; · iexact H8
    ipureintro
    close_whole
  iexists _; isplitr
  swap; · iexact H9
  ipureintro
  close_whole

set_option maxHeartbeats 1000000 in
/-- The body at the LAST point: the block `z` stored, each accumulator advanced, and the two statistics operands,
    whatever they held, overwritten with the advanced accumulators. -/
theorem run9_last (c : Dev nD) (E : Set ℕ) (i : grid9.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S5000x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole)
    (hc0 : ¬cond9_first i) (hc1 : cond9_last i)
    (x0 x1 : Vec F S5000x128 .f32) (x2 : Vec F S128x128 .f32) (x3 : Vec F S1x128 .f32) (s8 s9 : Vec F S1x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ owns (c : Thread nD τ) arg8 fullShare s8 ∗ owns (c : Thread nD τ) arg9 fullShare s9
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k9_pay3 x0 x1 x2 x3) ∗ owns (c : Thread nD τ) arg6 fullShare (k9_pay4 x0 x1 x2 x3 s8) ∗ owns (c : Thread nD τ) arg7 fullShare (k9_pay5 x0 x1 x2 x3 s9)
            ∗ owns (c : Thread nD τ) arg8 fullShare (k9_pay4 x0 x1 x2 x3 s8) ∗ owns (c : Thread nD τ) arg9 fullShare (k9_pay5 x0 x1 x2 x3 s9)) -∗ K ⟨⟩))
      ⊢ wp frame (wpE (defs₀ (F := F)) Variants.none c none) E (cc9__kernelA i arg1 harg1 arg2 harg2 arg3 harg3 arg4 harg4 arg5 harg5 arg6 harg6 arg7 harg7 arg8 harg8 arg9 harg9) K := by
  simp only [cc9__kernelA_eq_skeleton]; unfold cc9__kernelA_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f8, %hf8, H8⟩, ⟨%f9, %hf9, H9⟩, Hk⟩
  subst hf0; subst hf1; subst hf2; subst hf3; subst hf8; subst hf9
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    close_whole
  isplitl [H5]
  · iexists _; isplitr
    swap; · iexact H5
    ipureintro
    close_whole
  isplitl [H6]
  · iexists _; isplitr
    swap; · iexact H6
    ipureintro
    close_whole
  isplitl [H8]
  · iexists _; isplitr
    swap; · iexact H8
    ipureintro
    close_whole
  iexists _; isplitr
  swap; · iexact H9
  ipureintro
  close_whole

end Cert.KernelIdeal.Hand
end
-- ==== Proof.KI.A9.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import proofs.«102976_j3633542332749_1_alg».proof.Proof.KI.A9Run
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The region of custom_call 9: the linear layer `z = (h + agg)·W + b` by row blocks, with the column sums of
`z` and of `z²`

Stated at the contents `V` the region finds in the core's buffers. Windows 0–3 are the inputs (a row block of the
features, the matching row block of the aggregated neighbours, the weight matrix, the bias row: the last two fetched
once, their block index never moving); window 4 receives the row block of `z` at every point; windows 5 and 6
receive the two accumulated rows at the last point only and are idle before it. The two accumulators live in scratch
buffers of the call's own, carried from point to point by the invariant. -/

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's current staging buffer holds its block at every point, fetched there or not (unfetched, the
    block index has not moved), for any proof data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## What the body leaves -/

/-- The row block of `z` at point `t`. -/
def zAt9 (c : Dev nD) (t : Fin cfg9.N) : Vec F S5000x128 .f32 :=
  k9_pay3 (iblk9 V c 0 t) (iblk9 V c 1 t) (iblk9 V c 2 t) (iblk9 V c 3 t)
/-- The column-sum accumulator after point `t`, from its contents `s` before: `s` plus the column sums of the block of `z`. -/
def sumStep9 (c : Dev nD) (t : Fin cfg9.N) (s : Vec F S1x128 .f32) : Vec F S1x128 .f32 :=
  k9_pay4 (iblk9 V c 0 t) (iblk9 V c 1 t) (iblk9 V c 2 t) (iblk9 V c 3 t) s
/-- The accumulator of squares after point `t`, from its contents `s` before: `s` plus the column sums of the block of `z²`. -/
def sqStep9 (c : Dev nD) (t : Fin cfg9.N) (s : Vec F S1x128 .f32) : Vec F S1x128 .f32 :=
  k9_pay5 (iblk9 V c 0 t) (iblk9 V c 1 t) (iblk9 V c 2 t) (iblk9 V c 3 t) s

/-- THE ACCUMULATION: the two accumulators (sums, sums of squares) after the body at position `n`, by recursion on
    the position: zeroed and advanced at the first, advanced from what the position before left at the others. -/
def accAt9 (c : Dev nD) : (n : ℕ) → n < cfg9.N → Vec F S1x128 .f32 × Vec F S1x128 .f32
  | 0, hn => (sumStep9 V c ⟨0, hn⟩ k9_pay1, sqStep9 V c ⟨0, hn⟩ k9_pay2)
  | n + 1, hn => (sumStep9 V c ⟨n + 1, hn⟩ (accAt9 c n (Nat.lt_of_succ_lt hn)).1, sqStep9 V c ⟨n + 1, hn⟩ (accAt9 c n (Nat.lt_of_succ_lt hn)).2)

theorem accAt9_zero (c : Dev nD) (t : Fin cfg9.N) (h : t.val = 0) :
    accAt9 V c t.val t.isLt = (sumStep9 V c t k9_pay1, sqStep9 V c t k9_pay2) := by
  obtain ⟨n, hn⟩ := t
  cases n with
  | zero => rfl
  | succ n => exact absurd h (Nat.succ_ne_zero n)

theorem accAt9_pos (c : Dev nD) (t : Fin cfg9.N) (h : t.val ≠ 0) :
    accAt9 V c t.val t.isLt = (sumStep9 V c t (accAt9 V c (t.val - 1) (Nat.lt_of_le_of_lt (Nat.sub_le _ _) t.isLt)).1,
      sqStep9 V c t (accAt9 V c (t.val - 1) (Nat.lt_of_le_of_lt (Nat.sub_le _ _) t.isLt)).2) := by
  obtain ⟨n, hn⟩ := t
  cases n with
  | zero => exact absurd rfl h
  | succ n => rfl

/-! ## The invariant: the two accumulators between points -/

/-- The call's two scratch operands, whole scoped buffers of its own. -/
abbrev scM9_0 : Memref sig .tc .vmem S1x128 .f32 := Memref.whole cc9_scratch0
abbrev scM9_1 : Memref sig .tc .vmem S1x128 .f32 := Memref.whole cc9_scratch1

/-- The region invariant before position `n`: before the first point every scoped buffer at anything and the generator
    register at some state; afterwards the two accumulators at what the point before left, the other scoped buffers at
    anything, the register at some state. -/
def PhiS9 (c : Dev nD) : (n : ℕ) → n ≤ cfg9.N → sProp 𝕄
  | 0, _ => Pipeline.ΦA spec9 c
  | n + 1, hn => iprop(iprop(iprop(owns (c : Thread nD τ) scM9_0 fullShare (accAt9 V c n hn).1 ∗ owns (c : Thread nD τ) scM9_1 fullShare (accAt9 V c n hn).2)
      ∗ Pipeline.scopedRestBut (Ix := Unit) (Name := ℕ) (U := UR sig nD τ) (Lvl := ℕ) (Val := Elt F) spec9 c [cc9_scratch0, cc9_scratch1]) ∗ ∃ r, prngReg c r)

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(iprop(owns (c : Thread nD τ) scM9_0 fullShare (accAt9 V c n hn).1 ∗ owns (c : Thread nD τ) scM9_1 fullShare (accAt9 V c n hn).2)
      ∗ Pipeline.scopedRestBut (Ix := Unit) (Name := ℕ) (U := UR sig nD τ) (Lvl := ℕ) (Val := Elt F) spec9 c [cc9_scratch0, cc9_scratch1]) ∗ ∃ r, prngReg c r) := rfl

theorem PhiS9_pos (c : Dev nD) (n : ℕ) (h : n ≤ cfg9.N) (hz : n ≠ 0) :
    PhiS9 V c n h = iprop(iprop(iprop(owns (c : Thread nD τ) scM9_0 fullShare (accAt9 V c (n - 1) (by omega)).1 ∗ owns (c : Thread nD τ) scM9_1 fullShare (accAt9 V c (n - 1) (by omega)).2)
      ∗ Pipeline.scopedRestBut (Ix := Unit) (Name := ℕ) (U := UR sig nD τ) (Lvl := ℕ) (Val := Elt F) spec9 c [cc9_scratch0, cc9_scratch1]) ∗ ∃ r, prngReg c r) := by
  cases n with
  | zero => exact absurd rfl hz
  | succ n => rfl

/-- The scoped rest with the two accumulators taken out, each at some contents. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d))
          ∗ Pipeline.scopedRestBut (Ix := Unit) (Name := ℕ) (U := UR sig nD τ) (Lvl := ℕ) (Val := Elt F) spec9 c [cc9_scratch0, cc9_scratch1]) ∗ ∃ r, prngReg c r) := by
  unfold Pipeline.ΦA; rw [scopedRest9_split]; simp only [scM9_0, scM9_1, owns_whole]; try rfl

/-! ## The proof data -/

/-- The proof data of the call on core `c`: the arrays as the region finds them; after the body at point `t` each
    input's buffer at its block, window 4's at the block of `z`, windows 5 and 6 at the two accumulators after `t`
    (consulted at the last point only: before it the windows are idle); the invariant above; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => zAt9 V c t
    | ⟨5, _⟩ => (accAt9 V c t.val t.isLt).1
    | ⟨6, _⟩ => (accAt9 V c t.val t.isLt).2
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = zAt9 V c t := by dsimp only [dat9]
theorem after9_5 (c : Dev nD) (t : Fin cfg9.N) : (dat9 V c).after 5 t = (accAt9 V c t.val t.isLt).1 := by dsimp only [dat9]
theorem after9_6 (c : Dev nD) (t : Fin cfg9.N) : (dat9 V c).after 6 t = (accAt9 V c t.val t.isLt).2 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## Where the windows are idle -/

theorem liveAt9_0 : ∀ t : Fin cfg9.N, cfg9.idle 0 (grid9.coords t) = false := fun _ => rfl
theorem liveAt9_1 : ∀ t : Fin cfg9.N, cfg9.idle 1 (grid9.coords t) = false := fun _ => rfl
theorem liveAt9_2 : ∀ t : Fin cfg9.N, cfg9.idle 2 (grid9.coords t) = false := fun _ => rfl
theorem liveAt9_3 : ∀ t : Fin cfg9.N, cfg9.idle 3 (grid9.coords t) = false := fun _ => rfl
theorem liveAt9_4 : ∀ t : Fin cfg9.N, cfg9.idle 4 (grid9.coords t) = false := fun _ => rfl
/-- Before the last point window 5 is idle and not written back; at the last point it is live. -/
theorem idleAt9_5 : ∀ t : Fin cfg9.N, ¬cond9_last (grid9.coords t) → cfg9.idle 5 (grid9.coords t) = true := by decide +kernel
theorem noFlush9_5 : ∀ t : Fin cfg9.N, ¬cond9_last (grid9.coords t) → (cfg9.win 5).flush t = false := by decide +kernel
theorem liveAt9_5 : ∀ t : Fin cfg9.N, cond9_last (grid9.coords t) → cfg9.idle 5 (grid9.coords t) = false := by decide +kernel
/-- Before the last point window 6 is idle and not written back; at the last point it is live. -/
theorem idleAt9_6 : ∀ t : Fin cfg9.N, ¬cond9_last (grid9.coords t) → cfg9.idle 6 (grid9.coords t) = true := by decide +kernel
theorem noFlush9_6 : ∀ t : Fin cfg9.N, ¬cond9_last (grid9.coords t) → (cfg9.win 6).flush t = false := by decide +kernel
theorem liveAt9_6 : ∀ t : Fin cfg9.N, cond9_last (grid9.coords t) → cfg9.idle 6 (grid9.coords t) = false := by decide +kernel

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t
    ∗ (dat9 V c).leavesExact 5 t
    ∗ (dat9 V c).leavesExact 6 t)

set_option maxHeartbeats 4800000 in
/-- The body at any point: the inputs' buffers hold their blocks; the point is the first, a middle one or the last, and
    that case's run applies; the invariant hands the body the two accumulators at what the point before left (at
    anything at the first point) and takes them back advanced; the core owes nothing throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).owesAt () t.succ = (dat9 V c).owesAt () t.castSucc from rfl]
  rw [show (dat9 V c).Φ t.succ = PhiS9 V c (t.val + 1) t.isLt from rfl, PhiS9_succ]
  rw [show (dat9 V c).leavesExact 0 t = owns (c : Thread nD τ) (st9_0 t) fullShare ((dat9 V c).after 0 t) from by
    unfold Dat.leavesExact; rw [liveAt9_0 t], after9_0]
  rw [show (dat9 V c).leavesExact 1 t = owns (c : Thread nD τ) (st9_1 t) fullShare ((dat9 V c).after 1 t) from by
    unfold Dat.leavesExact; rw [liveAt9_1 t], after9_1]
  rw [show (dat9 V c).leavesExact 2 t = owns (c : Thread nD τ) (st9_2 t) fullShare ((dat9 V c).after 2 t) from by
    unfold Dat.leavesExact; rw [liveAt9_2 t], after9_2]
  rw [show (dat9 V c).leavesExact 3 t = owns (c : Thread nD τ) (st9_3 t) fullShare ((dat9 V c).after 3 t) from by
    unfold Dat.leavesExact; rw [liveAt9_3 t], after9_3]
  rw [show (dat9 V c).leavesExact 4 t = owns (c : Thread nD τ) (st9_4 t) fullShare ((dat9 V c).after 4 t) from by
    unfold Dat.leavesExact; rw [liveAt9_4 t], after9_4]
  unfold zAt9
  have hN : t.val < 10 := lt_of_lt_of_eq t.isLt (show cfg9.N = 10 from N_9)
  by_cases h0 : t.val = 0
  · have hcf : cond9_first (grid9.coords t) := (hcond9_first t).mpr h0
    have hcl : ¬cond9_last (grid9.coords t) := fun h => by have := (hcond9_last t).mp h; omega
    rw [Dat.leavesExact_idle (dat9 V c) 5 t (idleAt9_5 t hcl) (noFlush9_5 t hcl),
      Dat.leavesExact_idle (dat9 V c) 6 t (idleAt9_6 t hcl) (noFlush9_6 t hcl)]
    rw [PhiS9_castSucc V c t, PhiS9_zero V c _ _ h0, PhiA9_eq, accAt9_zero V c t h0]
    dsimp only; unfold sumStep9 sqStep9
    iintro ⟨⟨⟨⟨⟨%d8, HS0⟩, ⟨%d9, HS1⟩⟩, Hrest⟩, Hg⟩, Ho, ⟨%d0, H0⟩, ⟨%d1, H1⟩, ⟨%d2, H2⟩, ⟨%d3, H3⟩, ⟨%d4, H4⟩, ⟨%d5, H5⟩, ⟨%d6, H6⟩⟩
    iapply (run9_first c Set.univ (grid9.coords t) _ _ _ _ _ _ _ _ _ _ _ _ _ _ _ _ _ _ hcf hcl (iblk9 V c 0 t) (iblk9 V c 1 t) (iblk9 V c 2 t) (iblk9 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexists _; iexact HS0
    isplitl [HS1]; · iexists _; iexact HS1
    iintro ⟨H0, H1, H2, H3, H4, H5, H6, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hcf : ¬cond9_first (grid9.coords t) := fun h => h0 ((hcond9_first t).mp h)
    rw [PhiS9_castSucc V c t, PhiS9_pos V c _ _ h0, accAt9_pos V c t h0]
    by_cases h9 : t.val = 9
    · have hcl : cond9_last (grid9.coords t) := (hcond9_last t).mpr h9
      rw [show (dat9 V c).leavesExact 5 t = owns (c : Thread nD τ) (st9_5 t) fullShare ((dat9 V c).after 5 t) from by
        unfold Dat.leavesExact; rw [liveAt9_5 t hcl], after9_5]
      rw [show (dat9 V c).leavesExact 6 t = owns (c : Thread nD τ) (st9_6 t) fullShare ((dat9 V c).after 6 t) from by
        unfold Dat.leavesExact; rw [liveAt9_6 t hcl], after9_6]
      rw [accAt9_pos V c t h0]
      dsimp only; unfold sumStep9 sqStep9
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run9_last c Set.univ (grid9.coords t) _ _ _ _ _ _ _ _ _ _ _ _ _ _ _ _ _ _ hcf hcl (iblk9 V c 0 t) (iblk9 V c 1 t) (iblk9 V c 2 t) (iblk9 V c 3 t) _ _ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hcl : ¬cond9_last (grid9.coords t) := fun h => h9 ((hcond9_last t).mp h)
      rw [Dat.leavesExact_idle (dat9 V c) 5 t (idleAt9_5 t hcl) (noFlush9_5 t hcl),
        Dat.leavesExact_idle (dat9 V c) 6 t (idleAt9_6 t hcl) (noFlush9_6 t hcl)]
      dsimp only; unfold sumStep9 sqStep9
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩⟩
      iapply (run9_mid c Set.univ (grid9.coords t) _ _ _ _ _ _ _ _ _ _ _ _ _ _ _ _ _ _ hcf hcl (iblk9 V c 0 t) (iblk9 V c 1 t) (iblk9 V c 2 t) (iblk9 V c 3 t) _ _ _ _ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The body obligation, at every point. -/
theorem body_obligation9 (c : Dev nD) : BodyObligation (dat9 (F := F) V c) (defs₀ (F := F)) Variants.none () Set.univ := fun t => by
  rw [bigSep_W9, bigSep_W9]
  exact sound_body9 V c t

/-! ## The invariant at the region's two ends -/

/-- What the region is entered with (the generator register at some state, every scoped buffer at anything) is the
    invariant before the first point. -/
theorem Phi_first9 (c : Dev nD) :
    iprop((∃ r, prngReg c r) ∗ Pipeline.scopedRest (Ix := Unit) (Name := ℕ) (U := UR sig nD τ) (Lvl := ℕ) (Val := Elt F) spec9 c) ⊢ ((dat9 V c).Φ 0 : sProp 𝕄) := by
  rw [show (dat9 V c).Φ 0 = Pipeline.ΦA spec9 c from rfl]; unfold Pipeline.ΦA
  iintro ⟨Hp, Hr⟩
  isplitl [Hr]; · iexact Hr
  iexact Hp

/-- After any point but the first the invariant gives the scoped rest back: the accumulators' contents are forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨⟨HS0, HS1⟩, Hrest⟩, Hg⟩
  isplitl [HS0 HS1 Hrest]
  · isplitl [HS0 HS1]
    · isplitl [HS0]; · iexists _; iexact HS0
      iexists _; iexact HS1
    iexact Hrest
  iexact Hg

/-- The same after the last point, in the form the region's exit takes it. -/
theorem Phi_last9 (c : Dev nD) :
    ((dat9 V c).Φ (Fin.last cfg9.N) : sProp 𝕄) ⊢ iprop((∃ r, prngReg c r) ∗ Pipeline.scopedRest (Ix := Unit) (Name := ℕ) (U := UR sig nD τ) (Lvl := ℕ) (Val := Elt F) spec9 c) := by
  refine (Phi_out9 V c _ (by rw [Fin.val_last]; have : cfg9.N = 10 := N_9; omega)).trans ?_
  unfold Pipeline.ΦA
  iintro ⟨Hr, Hp⟩
  isplitl [Hp]; · iexact Hp
  iexact Hr

end Cert.KernelIdeal.Hand
end
-- ==== Proof.KI.B10.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«102976_j3633542332749_1_alg».proof.Proof.KI.BLib

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional of the body: the point is the grid's first. -/
abbrev cond10_0 (i : grid10.Coords) : Prop := (Scalar.cmpi .ne (Scalar.extui (Scalar.cmpi .eq (BitVec.ofNat 32 (i 0).val) 0#32)) 0#32) = 1#1
theorem hcond10_0 : ∀ t : Fin cfg10.N, cond10_0 (grid10.coords t) ↔ t.val = 0 :=
  (by decide +kernel : ∀ t : Fin grid10.N, cond10_0 (grid10.coords t) ↔ t.val = 0)
/-- The second: the point is the grid's last. -/
abbrev cond10_1 (i : grid10.Coords) : Prop := k10_cond2 i = 1#1
theorem hcond10_1 : ∀ t : Fin cfg10.N, cond10_1 (grid10.coords t) ↔ t.val = 9 :=
  (by decide +kernel : ∀ t : Fin grid10.N, cond10_1 (grid10.coords t) ↔ t.val = 9)

/-! ## The body's triple, in its three control cases

The body on whole staging memrefs: the five inputs at read contents, the z2 window at anything, the two scratch
accumulators; it leaves the inputs as they were, the z2 window at the block of z2 (the skeleton's `k10_pay4`), the
accumulators with this block's column sums added (`k10_pay5`, `k10_pay1`). At the first point the accumulators
are zeroed first (`k10_pay2`, `k10_pay3`); at the last the two sums' windows receive the accumulators; at the
other points those windows are not touched. -/

set_option maxHeartbeats 1000000 in
theorem kernelB10_first (c : Dev nD) (E : Set ℕ) (i : grid10.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : cond10_0 i) (hc1 : ¬cond10_1 i)
    (x0 : Vec F S5000x128 .f32) (x1 x2 : Vec F S1x128 .f32) (x3 : Vec F S128x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k10_pay4 x0 x1 x2 x3 x4)
            ∗ owns (c : Thread nD τ) arg9 fullShare (k10_pay5 x0 x1 x2 x3 x4 k10_pay2)
            ∗ owns (c : Thread nD τ) arg10 fullShare (k10_pay1 (k10_pay4 x0 x1 x2 x3 x4) k10_pay3)) -∗ K ⟨⟩))
      ⊢ wp frame (wpE (defs₀ (F := F)) Variants.none c none) E (cc10__kernelB i arg1 harg1 arg2 harg2 arg3 harg3 arg4 harg4 arg5 harg5 arg6 harg6 arg7 harg7 arg8 harg8 arg9 harg9 arg10 harg10) K := by
  simp only [cc10__kernelB_eq_skeleton]; unfold cc10__kernelB_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, ⟨%d9, %f9, -, H9⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread,
    View.ld_unit_zero (S := S5000x128) zeros2_B, View.ld_unit_zero (S := S1x128) zeros2_B, View.ld_unit_zero (S := S128x128) zeros2_B]

set_option maxHeartbeats 1000000 in
theorem kernelB10_mid (c : Dev nD) (E : Set ℕ) (i : grid10.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond10_0 i) (hc1 : ¬cond10_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k10_pay4 x0 x1 x2 x3 x4)
            ∗ owns (c : Thread nD τ) arg9 fullShare (k10_pay5 x0 x1 x2 x3 x4 s0)
            ∗ owns (c : Thread nD τ) arg10 fullShare (k10_pay1 (k10_pay4 x0 x1 x2 x3 x4) s1)) -∗ K ⟨⟩))
      ⊢ wp frame (wpE (defs₀ (F := F)) Variants.none c none) E (cc10__kernelB i arg1 harg1 arg2 harg2 arg3 harg3 arg4 harg4 arg5 harg5 arg6 harg6 arg7 harg7 arg8 harg8 arg9 harg9 arg10 harg10) K := by
  simp only [cc10__kernelB_eq_skeleton]; unfold cc10__kernelB_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

set_option maxHeartbeats 1000000 in
theorem kernelB10_last (c : Dev nD) (E : Set ℕ) (i : grid10.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S128x128 .f32) (harg4 : arg4.IsWhole)
    (arg5 : Memref sig .tc .vmem S1x128 .f32) (harg5 : arg5.IsWhole) (arg6 : Memref sig .tc .vmem S5000x128 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (hc0 : ¬cond10_0 i) (hc1 : cond10_1 i)
    (x0 : Vec F S5000x128 .f32) (x1 x2 : Vec F S1x128 .f32) (x3 : Vec F S128x128 .f32) (x4 : Vec F S1x128 .f32)
    (s0 s1 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ owns (c : Thread nD τ) arg9 fullShare s0 ∗ owns (c : Thread nD τ) arg10 fullShare s1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k10_pay4 x0 x1 x2 x3 x4)
            ∗ owns (c : Thread nD τ) arg7 fullShare (k10_pay5 x0 x1 x2 x3 x4 s0)
            ∗ owns (c : Thread nD τ) arg8 fullShare (k10_pay1 (k10_pay4 x0 x1 x2 x3 x4) s1)
            ∗ owns (c : Thread nD τ) arg9 fullShare (k10_pay5 x0 x1 x2 x3 x4 s0)
            ∗ owns (c : Thread nD τ) arg10 fullShare (k10_pay1 (k10_pay4 x0 x1 x2 x3 x4) s1)) -∗ K ⟨⟩))
      ⊢ wp frame (wpE (defs₀ (F := F)) Variants.none c none) E (cc10__kernelB i arg1 harg1 arg2 harg2 arg3 harg3 arg4 harg4 arg5 harg5 arg6 harg6 arg7 harg7 arg8 harg8 arg9 harg9 arg10 harg10) K := by
  simp only [cc10__kernelB_eq_skeleton]; unfold cc10__kernelB_skel
  simp only [k10_part1_eq_skeleton]; unfold k10_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2
  obtain rfl := harg4.eq_unread hf3; obtain rfl := harg5.eq_unread hf4
  obtain rfl := harg9.eq_unread hf8; obtain rfl := harg10.eq_unread hf9
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    try sl_unfold_words
    dsimp only
    rw [read_writes_head_whole_B (S := S5000x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H6]
  · iexists _; isplitr
    swap; · iexact H6
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H7]
  · iexists _; isplitr
    swap; · iexact H7
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  isplitl [H8]
  · iexists _; isplitr
    swap; · iexact H8
    ipureintro
    try sl_unfold_words
    dsimp only
    rw [read_writes_head_whole_B (S := S1x128) _ _ zeros2_B]
    simp only [View.readAt_eq_ld, View.readCov_cons_toLoadRect, harg1.read_unread, harg2.read_unread, harg3.read_unread, harg4.read_unread, harg5.read_unread, harg9.read_unread, harg10.read_unread,
      View.ld_unit_zero (S := S5000x128) zeros2_B, View.ld_unit_zero (S := S1x128) zeros2_B, View.ld_unit_zero (S := S128x128) zeros2_B]
  iexists _; isplitr
  swap; · iexact H9
  ipureintro
  try sl_unfold_words
  dsimp only
  rw [read_writes_head_whole_B (S := S1x128) _ _ zeros2_B]
  simp only [View.readAt_eq_ld, View.readCov_cons_toLoadRect, harg1.read_unread, harg2.read_unread, harg3.read_unread, harg4.read_unread, harg5.read_unread, harg9.read_unread, harg10.read_unread,
    View.ld_unit_zero (S := S5000x128) zeros2_B, View.ld_unit_zero (S := S1x128) zeros2_B, View.ld_unit_zero (S := S128x128) zeros2_B]

variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## What the body computes, point by point -/

/-- The block of z2 = max(z1·scale + shift, 0)·W + b the body stores at point `t`. -/
def z2blk10 (c : Dev nD) (t : Fin cfg10.N) : Vec F S5000x128 .f32 :=
  k10_pay4 (iblk10 V c 0 t) (iblk10 V c 1 t) (iblk10 V c 2 t) (iblk10 V c 3 t) (iblk10 V c 4 t)

/-- The running column sums of z2 after point `n`: zero, then each point's block added in order. -/
def sum10 (c : Dev nD) : (n : ℕ) → n < cfg10.N → Vec F S1x128 .f32
  | 0, h => k10_pay5 (iblk10 V c 0 ⟨0, h⟩) (iblk10 V c 1 ⟨0, h⟩) (iblk10 V c 2 ⟨0, h⟩) (iblk10 V c 3 ⟨0, h⟩) (iblk10 V c 4 ⟨0, h⟩) k10_pay2
  | n + 1, h => k10_pay5 (iblk10 V c 0 ⟨n + 1, h⟩) (iblk10 V c 1 ⟨n + 1, h⟩) (iblk10 V c 2 ⟨n + 1, h⟩) (iblk10 V c 3 ⟨n + 1, h⟩) (iblk10 V c 4 ⟨n + 1, h⟩)
      (sum10 c n (Nat.lt_of_succ_lt h))

/-- The running column sums of z2² after point `n`. -/
def sumsq10 (c : Dev nD) : (n : ℕ) → n < cfg10.N → Vec F S1x128 .f32
  | 0, h => k10_pay1 (z2blk10 V c ⟨0, h⟩) k10_pay3
  | n + 1, h => k10_pay1 (z2blk10 V c ⟨n + 1, h⟩) (sumsq10 c n (Nat.lt_of_succ_lt h))

theorem sum10_first (c : Dev nD) (t : Fin cfg10.N) (h0 : t.val = 0) :
    sum10 V c t.val t.isLt = k10_pay5 (iblk10 V c 0 t) (iblk10 V c 1 t) (iblk10 V c 2 t) (iblk10 V c 3 t) (iblk10 V c 4 t) k10_pay2 := by
  obtain ⟨n, hn⟩ := t
  cases n with
  | zero => rfl
  | succ n => exact absurd h0 (Nat.succ_ne_zero n)

theorem sum10_next (c : Dev nD) (t : Fin cfg10.N) (h0 : t.val ≠ 0) :
    sum10 V c t.val t.isLt = k10_pay5 (iblk10 V c 0 t) (iblk10 V c 1 t) (iblk10 V c 2 t) (iblk10 V c 3 t) (iblk10 V c 4 t)
      (sum10 V c (t.val - 1) (Nat.lt_of_le_of_lt (Nat.sub_le _ _) t.isLt)) := by
  obtain ⟨n, hn⟩ := t
  cases n with
  | zero => exact absurd rfl h0
  | succ n => rfl

theorem sumsq10_first (c : Dev nD) (t : Fin cfg10.N) (h0 : t.val = 0) :
    sumsq10 V c t.val t.isLt = k10_pay1 (z2blk10 V c t) k10_pay3 := by
  obtain ⟨n, hn⟩ := t
  cases n with
  | zero => rfl
  | succ n => exact absurd h0 (Nat.succ_ne_zero n)

theorem sumsq10_next (c : Dev nD) (t : Fin cfg10.N) (h0 : t.val ≠ 0) :
    sumsq10 V c t.val t.isLt = k10_pay1 (z2blk10 V c t) (sumsq10 V c (t.val - 1) (Nat.lt_of_le_of_lt (Nat.sub_le _ _) t.isLt)) := by
  obtain ⟨n, hn⟩ := t
  cases n with
  | zero => exact absurd rfl h0
  | succ n => rfl

/-! ## The region invariant -/

/-- The two accumulators the kernel keeps in scratch between points, as memrefs. -/
abbrev sc10_0 : Memref sig .tc .vmem S1x128 .f32 := Memref.whole cc10_scratch0
abbrev sc10_1 : Memref sig .tc .vmem S1x128 .f32 := Memref.whole cc10_scratch1

/-- The class invariant with the two accumulators taken out of the scoped rest, each at some contents. -/
theorem PhiA10_eq (c : Dev nD) :
    (Pipeline.ΦA spec10 c : sProp 𝕄)
      = iprop(iprop(iprop((∃ d, owns (c : Thread nD τ) sc10_0 fullShare d) ∗ (∃ d, owns (c : Thread nD τ) sc10_1 fullShare d))
          ∗ Pipeline.scopedRestBut (Ix := Unit) (Name := ℕ) (U := UR sig nD τ) (Lvl := ℕ) (Val := Elt F) spec10 c [cc10_scratch0, cc10_scratch1])
          ∗ (∃ r, prngReg c r)) := by
  unfold Pipeline.ΦA; rw [scopedRest10_split]; simp only [sc10_0, sc10_1, owns_whole]; try rfl

/-- The invariant before position `n`: before the first point the class's; afterwards the two accumulators at the
    running sums after the point before, the other scoped buffers at anything, the generator register at some state. -/
def Phi10 (c : Dev nD) : (n : ℕ) → n ≤ cfg10.N → sProp 𝕄
  | 0, _ => Pipeline.ΦA spec10 c
  | n + 1, hn => iprop(iprop(iprop(owns (c : Thread nD τ) sc10_0 fullShare (sum10 V c n hn) ∗ owns (c : Thread nD τ) sc10_1 fullShare (sumsq10 V c n hn))
          ∗ Pipeline.scopedRestBut (Ix := Unit) (Name := ℕ) (U := UR sig nD τ) (Lvl := ℕ) (Val := Elt F) spec10 c [cc10_scratch0, cc10_scratch1])
          ∗ (∃ r, prngReg c r))

theorem Phi10_zero (c : Dev nD) (n : ℕ) (h : n ≤ cfg10.N) (hz : n = 0) : Phi10 V c n h = Pipeline.ΦA spec10 c := by
  subst hz; rfl

theorem Phi10_succ (c : Dev nD) (n : ℕ) (hn : n < cfg10.N) :
    Phi10 V c (n + 1) hn = iprop(iprop(iprop(owns (c : Thread nD τ) sc10_0 fullShare (sum10 V c n hn) ∗ owns (c : Thread nD τ) sc10_1 fullShare (sumsq10 V c n hn))
          ∗ Pipeline.scopedRestBut (Ix := Unit) (Name := ℕ) (U := UR sig nD τ) (Lvl := ℕ) (Val := Elt F) spec10 c [cc10_scratch0, cc10_scratch1])
          ∗ (∃ r, prngReg c r)) := rfl

theorem Phi10_pos (c : Dev nD) (n : ℕ) (h : n ≤ cfg10.N) (hz : n ≠ 0) :
    Phi10 V c n h = iprop(iprop(iprop(owns (c : Thread nD τ) sc10_0 fullShare (sum10 V c (n - 1) (by omega)) ∗ owns (c : Thread nD τ) sc10_1 fullShare (sumsq10 V c (n - 1) (by omega)))
          ∗ Pipeline.scopedRestBut (Ix := Unit) (Name := ℕ) (U := UR sig nD τ) (Lvl := ℕ) (Val := Elt F) spec10 c [cc10_scratch0, cc10_scratch1])
          ∗ (∃ r, prngReg c r)) := by
  cases n with
  | zero => exact absurd rfl hz
  | succ n => rfl

/-! ## The pipeline's proof data -/

/-- The proof data of pipeline 10 on core `c`: the arrays as the region finds them (`V`); after the body at point `t`
    each input's buffer at its block, the z2 window at the point's block of z2, the two sums' windows at the running
    sums; the invariant `Phi10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => z2blk10 V c t
    | ⟨6, _⟩ => sum10 V c t.val t.isLt
    | ⟨7, _⟩ => sumsq10 V c t.val t.isLt
  Φ t := Phi10 V c t.val (Nat.le_of_lt_succ t.isLt)
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = z2blk10 V c t := by dsimp only [dat10]
theorem after10_6 (c : Dev nD) (t : Fin cfg10.N) : (dat10 V c).after 6 t = sum10 V c t.val t.isLt := by dsimp only [dat10]
theorem after10_7 (c : Dev nD) (t : Fin cfg10.N) : (dat10 V c).after 7 t = sumsq10 V c t.val t.isLt := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-- The invariant at a point's start, restated at `t.val`. -/
theorem Phi10_castSucc (c : Dev nD) (t : Fin cfg10.N) :
    (dat10 V c).Φ t.castSucc = Phi10 V c t.val (Nat.le_of_lt t.isLt) := by
  dsimp only [dat10]; simp only [Fin.coe_castSucc]

/-- and at its end. -/
theorem Phi10_fsucc (c : Dev nD) (t : Fin cfg10.N) :
    (dat10 V c).Φ t.succ = Phi10 V c (t.val + 1) t.isLt := by
  dsimp only [dat10]; simp only [Fin.val_succ]

/-! ## Where the sums' windows are idle -/

theorem live10_0 : ∀ t : Fin cfg10.N, cfg10.idle 0 (grid10.coords t) = false := fun _ => rfl
theorem live10_1 : ∀ t : Fin cfg10.N, cfg10.idle 1 (grid10.coords t) = false := fun _ => rfl
theorem live10_2 : ∀ t : Fin cfg10.N, cfg10.idle 2 (grid10.coords t) = false := fun _ => rfl
theorem live10_3 : ∀ t : Fin cfg10.N, cfg10.idle 3 (grid10.coords t) = false := fun _ => rfl
theorem live10_4 : ∀ t : Fin cfg10.N, cfg10.idle 4 (grid10.coords t) = false := fun _ => rfl
theorem live10_5 : ∀ t : Fin cfg10.N, cfg10.idle 5 (grid10.coords t) = false := fun _ => rfl
theorem idle10_6 : ∀ t : Fin cfg10.N, ¬cond10_1 (grid10.coords t) → cfg10.idle 6 (grid10.coords t) = true := by decide +kernel
theorem noFlush10_6 : ∀ t : Fin cfg10.N, ¬cond10_1 (grid10.coords t) → (cfg10.win 6).flush t = false := by decide +kernel
theorem live10_6 : ∀ t : Fin cfg10.N, cond10_1 (grid10.coords t) → cfg10.idle 6 (grid10.coords t) = false := by decide +kernel
theorem idle10_7 : ∀ t : Fin cfg10.N, ¬cond10_1 (grid10.coords t) → cfg10.idle 7 (grid10.coords t) = true := by decide +kernel
theorem noFlush10_7 : ∀ t : Fin cfg10.N, ¬cond10_1 (grid10.coords t) → (cfg10.win 7).flush t = false := by decide +kernel
theorem live10_7 : ∀ t : Fin cfg10.N, cond10_1 (grid10.coords t) → cfg10.idle 7 (grid10.coords t) = false := by decide +kernel

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t
    ∗ (dat10 V c).leavesExact 5 t
    ∗ (dat10 V c).leavesExact 6 t
    ∗ (dat10 V c).leavesExact 7 t)

set_option maxHeartbeats 4000000 in
/-- The body at any point: the inputs' memrefs hold their blocks; the point is the first, the last or neither; the
    invariant hands the body the two accumulators (at anything at the first point, at the running sums after the point
    before otherwise) and takes them back at this point's running sums; the sums' windows are left untouched except at
    the last point, where they receive the accumulators; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).owesAt () t.succ = (dat10 V c).owesAt () t.castSucc from rfl]
  rw [Phi10_fsucc, Phi10_succ, Phi10_castSucc]
  rw [show (dat10 V c).leavesExact 0 t = owns (c : Thread nD τ) (st10_0 t) fullShare ((dat10 V c).after 0 t) from by
    unfold Dat.leavesExact; rw [live10_0 t], after10_0]
  rw [show (dat10 V c).leavesExact 1 t = owns (c : Thread nD τ) (st10_1 t) fullShare ((dat10 V c).after 1 t) from by
    unfold Dat.leavesExact; rw [live10_1 t], after10_1]
  rw [show (dat10 V c).leavesExact 2 t = owns (c : Thread nD τ) (st10_2 t) fullShare ((dat10 V c).after 2 t) from by
    unfold Dat.leavesExact; rw [live10_2 t], after10_2]
  rw [show (dat10 V c).leavesExact 3 t = owns (c : Thread nD τ) (st10_3 t) fullShare ((dat10 V c).after 3 t) from by
    unfold Dat.leavesExact; rw [live10_3 t], after10_3]
  rw [show (dat10 V c).leavesExact 4 t = owns (c : Thread nD τ) (st10_4 t) fullShare ((dat10 V c).after 4 t) from by
    unfold Dat.leavesExact; rw [live10_4 t], after10_4]
  rw [show (dat10 V c).leavesExact 5 t = owns (c : Thread nD τ) (st10_5 t) fullShare ((dat10 V c).after 5 t) from by
    unfold Dat.leavesExact; rw [live10_5 t], after10_5]
  have hN : t.val < 10 := lt_of_lt_of_eq t.isLt (show cfg10.N = 10 from N_10)
  by_cases h0 : t.val = 0
  · have hc0 : cond10_0 (grid10.coords t) := (hcond10_0 t).mpr h0
    have hc1 : ¬cond10_1 (grid10.coords t) := fun h => by have := (hcond10_1 t).mp h; omega
    rw [Dat.leavesExact_idle (dat10 V c) 6 t (idle10_6 t hc1) (noFlush10_6 t hc1),
      Dat.leavesExact_idle (dat10 V c) 7 t (idle10_7 t hc1) (noFlush10_7 t hc1)]
    rw [Phi10_zero V c _ _ h0, PhiA10_eq, sum10_first V c t h0, sumsq10_first V c t h0]
    unfold z2blk10
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
    iapply (kernelB10_first c Set.univ (grid10.coords t) _ _ _ _ _ _ _ _ _ _ _ _ _ _ _ _ _ _ _ _ hc0 hc1 (iblk10 V c 0 t) (iblk10 V c 1 t) (iblk10 V c 2 t) (iblk10 V c 3 t) (iblk10 V c 4 t) _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hrest Hg]
    · isplitl [HS0 HS1 Hrest]
      · isplitl [HS0 HS1]
        · isplitl [HS0]; · iexact HS0
          iexact HS1
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h9 : t.val = 9
    · have hc0 : ¬cond10_0 (grid10.coords t) := fun h => h0 ((hcond10_0 t).mp h)
      have hc1 : cond10_1 (grid10.coords t) := (hcond10_1 t).mpr h9
      rw [show (dat10 V c).leavesExact 6 t = owns (c : Thread nD τ) (st10_6 t) fullShare ((dat10 V c).after 6 t) from by
        unfold Dat.leavesExact; rw [live10_6 t hc1], after10_6]
      rw [show (dat10 V c).leavesExact 7 t = owns (c : Thread nD τ) (st10_7 t) fullShare ((dat10 V c).after 7 t) from by
        unfold Dat.leavesExact; rw [live10_7 t hc1], after10_7]
      rw [Phi10_pos V c _ _ h0, sum10_next V c t h0, sumsq10_next V c t h0]
      unfold z2blk10
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (kernelB10_last c Set.univ (grid10.coords t) _ _ _ _ _ _ _ _ _ _ _ _ _ _ _ _ _ _ _ _ hc0 hc1 (iblk10 V c 0 t) (iblk10 V c 1 t) (iblk10 V c 2 t) (iblk10 V c 3 t) (iblk10 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc0 : ¬cond10_0 (grid10.coords t) := fun h => h0 ((hcond10_0 t).mp h)
      have hc1 : ¬cond10_1 (grid10.coords t) := fun h => h9 ((hcond10_1 t).mp h)
      rw [Dat.leavesExact_idle (dat10 V c) 6 t (idle10_6 t hc1) (noFlush10_6 t hc1),
        Dat.leavesExact_idle (dat10 V c) 7 t (idle10_7 t hc1) (noFlush10_7 t hc1)]
      rw [Phi10_pos V c _ _ h0, sum10_next V c t h0, sumsq10_next V c t h0]
      unfold z2blk10
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, H6, H7⟩
      iapply (kernelB10_mid c Set.univ (grid10.coords t) _ _ _ _ _ _ _ _ _ _ _ _ _ _ _ _ _ _ _ _ hc0 hc1 (iblk10 V c 0 t) (iblk10 V c 1 t) (iblk10 V c 2 t) (iblk10 V c 3 t) (iblk10 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hrest Hg]
      · isplitl [HS0 HS1 Hrest]
        · isplitl [HS0 HS1]
          · isplitl [HS0]; · iexact HS0
            iexact HS1
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## The invariant at the region's ends -/

/-- What the launch hands the region is the invariant before the first point. -/
theorem Phi_first10 (c : Dev nD) : iprop((∃ r, prngReg c r) ∗ Pipeline.scopedRest spec10 c) ⊢ ((dat10 V c).Φ 0 : sProp 𝕄) := by
  rw [show (dat10 V c).Φ 0 = Phi10 V c 0 (Nat.zero_le _) from rfl, Phi10_zero V c 0 _ rfl]; unfold Pipeline.ΦA
  iintro ⟨Hp, Hr⟩
  isplitl [Hr]; · iexact Hr
  iexact Hp

/-- After the last point the invariant gives the scoped rest back: the accumulators' named contents are forgotten. -/
theorem Phi_last10 (c : Dev nD) : ((dat10 V c).Φ (Fin.last cfg10.N) : sProp 𝕄) ⊢ iprop((∃ r, prngReg c r) ∗ Pipeline.scopedRest spec10 c) := by
  have e : (iprop((∃ r, prngReg c r) ∗ Pipeline.scopedRest spec10 c) : sProp 𝕄) = iprop((∃ r, prngReg c r) ∗ iprop(iprop((∃ d, owns (c : Thread nD τ) sc10_0 fullShare d) ∗ (∃ d, owns (c : Thread nD τ) sc10_1 fullShare d))
          ∗ Pipeline.scopedRestBut (Ix := Unit) (Name := ℕ) (U := UR sig nD τ) (Lvl := ℕ) (Val := Elt F) spec10 c [cc10_scratch0, cc10_scratch1])) := by
    rw [scopedRest10_split]; simp only [sc10_0, sc10_1, owns_whole]; try rfl
  rw [e, show (dat10 V c).Φ (Fin.last cfg10.N) = Phi10 V c (Fin.last cfg10.N).val (Nat.le_of_lt_succ (Fin.last cfg10.N).isLt) from rfl,
    Phi10_pos V c _ _ (by rw [Fin.val_last]; have : cfg10.N = 10 := N_10; omega)]
  iintro ⟨⟨⟨HS0, HS1⟩, Hrest⟩, Hg⟩
  isplitl [Hg]; · iexact Hg
  isplitl [HS0 HS1]
  · isplitl [HS0]
    · iexists _; iexact HS0
    iexists _; iexact HS1
  iexact Hrest

end Cert.KernelIdeal.Hand

end
-- ==== Proof.KI.C11.lean ====
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

/-! # The normalise-and-rectify call number 11: one row block per grid point

The call maps a block `z` of 5000 rows by 128 features, a row of 128 scales `s` and a row of 128 shifts `b` to
`max (z * s + b) 0`, entry by entry, the two rows repeated down the block. Its grid has ten points; point `t` reads rows
`5000 t … 5000 t + 4999` of the array and writes the same rows of the result; the two rows are the same block at every
point. This file states, for arbitrary contents `V` of the buffers when the call is entered, what each window's
staging buffer holds before and after the body at every point, and proves that the body run on those buffers returns
them so. -/

-- membership in a rectangle with an axis of 5000 rows: the elaborator's structural look recurses once per coordinate of
-- the long axis (5000 deep, never once per entry)
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the call is entered: everything below is stated at this parameter
variable (V : (c : Dev nD) → (b : Ref sig .tc) → Buf (Elt F) ((c : Thread nD τ).loc b))

/-! ## The windows' blocks -/

/-- Window `w`'s block at point `t`, read off its array as the call finds it (`V`): for window 0 the rows
    `5000 t …` of the pre-activation, for windows 1 and 2 the whole row of scales and of shifts. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- The row-block window's current staging buffer holds its block at every point, for any proof data whose array is
    `V`'s (`hA`) and whose body leaves the block in place (`hafter`). -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
/-- The scale row's staging buffer holds the row at every point: fetched at the first point, and at a later point the
    block index has not moved, so what the body left is still that row. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
/-- The shift row's staging buffer holds the row at every point, for the same reason. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses -/

/-- The whole 5000 by 128 block, as the rectangle the body loads and stores. -/
abbrev r11_blk : Rect S5000x128 := Rect.unit (s := S5000x128) ![0, 0] S5000x128.size inb_S5000x128_S5000x128_0_0
/-- The whole 1 by 128 row, as the rectangle the body loads. -/
abbrev r11_row : Rect S1x128 := Rect.unit (s := S1x128) ![0, 0] S1x128.size inb_S1x128_S1x128_0_0

/-! ## What the body leaves in the output window's buffer -/

/-- The output block after the body, from the three input blocks: one store of the whole block, whose value is
    `max (z * s + b) 0` of the block, the scale row and the shift row (`k11_pay1`). -/
def out11_3 (x0 : Vec F S5000x128 .f32) (x1 : Vec F S1x128 .f32) (x2 : Vec F S1x128 .f32) : Vec F S5000x128 .f32 :=
  View.canon [⟨r11_blk, k11_pay1 (View.ld x0 r11_blk) (View.ld x1 r11_row) (View.ld x2 r11_row)⟩]

/-- The one store is the whole block, so it covers it. -/
theorem cover11_3 (p0 : Vec F S5000x128 .f32) (y : S5000x128.Idx) :
    ∃ pc ∈ ([⟨r11_blk, p0⟩] : List (View.Piece (Elt F) S5000x128 .f32)), y ∈ pc.1.set :=
  View.cover_of_tiled [⟨r11_blk, p0⟩] S5000x128.size (by rfl) y

/-! ## The body's triple -/

set_option maxHeartbeats 1000000 in
/-- The body on whole staging memrefs, the three inputs' at contents `x0`, `x1`, `x2` and the output's at anything,
    runs to the continuation holding the inputs' as they were and the output's at `out11_3 x0 x1 x2`. -/
theorem sound_kernel11 (c : Dev nD) (E : Set ℕ) (i : grid11.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out11_3 x0 x1 x2)) -∗ K ⟨⟩))
      ⊢ wp frame (wpE (defs₀ (F := F)) Variants.none c none) E (cc11__kernelC i arg1 harg1 arg2 harg2 arg3 harg3 arg4 harg4) K := by
  simp only [cc11__kernelC_eq_skeleton]; unfold cc11__kernelC_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-! ## The call's proof data -/

/-- The proof data of call 11 on core `c`: the arrays as the call finds them (`V`); after the body at point `t` each
    input's buffer still at its block and the output's at `out11_3` of the three input blocks; the invariant is the
    untouched rest; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q _ := fullShare
  owed _ := 0

/-- The proof data's arrays are the entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = out11_3 (iblk11 V c 0 t) (iblk11 V c 1 t) (iblk11 V c 2 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the inputs' memrefs hold their blocks (`before11_w`), so `sound_kernel11` applies; the
    invariant and the core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ (grid11.coords t) _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the launch theorems, at every point. -/
theorem body_obligation11 (c : Dev nD) : BodyObligation (dat11 (F := F) V c) (defs₀ (F := F)) Variants.none () Set.univ := fun t => by
  rw [bigSep_W11, bigSep_W11]
  exact sound_body11 V c t

/-! ## The invariant at the first and at the last point -/

/-- The invariant at the first point is made of the generator register and the scoped buffers no window stages, -/
theorem Phi_first11 (c : Dev nD) :
    iprop((∃ r, prngReg c r) ∗ Pipeline.scopedRest (Ix := Unit) (Name := ℕ) (U := UR sig nD τ) (Lvl := ℕ) (Val := Elt F) spec11 c)
      ⊢ ((dat11 V c).Φ 0 : sProp 𝕄) := by
  rw [show (dat11 V c).Φ 0 = Pipeline.ΦA spec11 c from rfl]; unfold Pipeline.ΦA
  iintro ⟨Hp, Hr⟩
  isplitl [Hr]; · iexact Hr
  iexact Hp

/-- and at the last point it gives both back. -/
theorem Phi_last11 (c : Dev nD) :
    ((dat11 V c).Φ (Fin.last cfg11.N) : sProp 𝕄)
      ⊢ iprop((∃ r, prngReg c r) ∗ Pipeline.scopedRest (Ix := Unit) (Name := ℕ) (U := UR sig nD τ) (Lvl := ℕ) (Val := Elt F) spec11 c) := by
  rw [show (dat11 V c).Φ (Fin.last _) = Pipeline.ΦA spec11 c from rfl]; unfold Pipeline.ΦA
  iintro ⟨Hr, Hp⟩
  isplitl [Hp]; · iexact Hp
  iexact Hr

end Cert.KernelIdeal.Hand
-- ==== Proof.KI.Run.lean ====
/-
  The run of @main as its 26 items — fourteen stretches of host operations and the twelve kernel regions between them —
  over one thread state: every unscoped buffer held at the contents of the boundary (a fold from the launch memory: a
  stretch applies its operations, a region replaces its arrays by what its write-backs leave), the generator register
  and nothing owed beside it. Every argument array is carried through all 26 items, and the result buffer ends at the
  last boundary's contents.
-/
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102976_j3633542332749_1_alg».proof.Proof.KI.Host
import proofs.«102976_j3633542332749_1_alg».proof.Proof.KI.A0
import proofs.«102976_j3633542332749_1_alg».proof.Proof.KI.B1
import proofs.«102976_j3633542332749_1_alg».proof.Proof.KI.C2
import proofs.«102976_j3633542332749_1_alg».proof.Proof.KI.A3
import proofs.«102976_j3633542332749_1_alg».proof.Proof.KI.B4
import proofs.«102976_j3633542332749_1_alg».proof.Proof.KI.C5
import proofs.«102976_j3633542332749_1_alg».proof.Proof.KI.A6
import proofs.«102976_j3633542332749_1_alg».proof.Proof.KI.B7
import proofs.«102976_j3633542332749_1_alg».proof.Proof.KI.C8
import proofs.«102976_j3633542332749_1_alg».proof.Proof.KI.A9
import proofs.«102976_j3633542332749_1_alg».proof.Proof.KI.B10
import proofs.«102976_j3633542332749_1_alg».proof.Proof.KI.C11
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between two items of @main: a fold from the launch memory -/

/-- The buffers at launch. -/
abbrev W0 : Dev nD → Valuation τ sig (Elt F) := fun c b => (s₀ m ρ).mem ((c : Dev nD), b)

/-- After the host stretch `hostOps0`: what kernel region 0 is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After kernel region 0: its arrays at what its write-backs leave, every other buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: what kernel region 1 is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After kernel region 1: its arrays at what its write-backs leave, every other buffer as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: what kernel region 2 is entered with. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After kernel region 2: its arrays at what its write-backs leave, every other buffer as the region found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: what kernel region 3 is entered with. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- After kernel region 3: its arrays at what its write-backs leave, every other buffer as the region found it. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After the host stretch `hostOps4`: what kernel region 4 is entered with. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- After kernel region 4: its arrays at what its write-backs leave, every other buffer as the region found it. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the host stretch `hostOps5`: what kernel region 5 is entered with. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- After kernel region 5: its arrays at what its write-backs leave, every other buffer as the region found it. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After the host stretch `hostOps6`: what kernel region 6 is entered with. -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- After kernel region 6: its arrays at what its write-backs leave, every other buffer as the region found it. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)

/-- After the host stretch `hostOps7`: what kernel region 7 is entered with. -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- After kernel region 7: its arrays at what its write-backs leave, every other buffer as the region found it. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)

/-- After the host stretch `hostOps8`: what kernel region 8 is entered with. -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- After kernel region 8: its arrays at what its write-backs leave, every other buffer as the region found it. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)

/-- After the host stretch `hostOps9`: what kernel region 9 is entered with. -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- After kernel region 9: its arrays at what its write-backs leave, every other buffer as the region found it. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)

/-- After the host stretch `hostOps10`: what kernel region 10 is entered with. -/
abbrev W21 : Dev nD → Valuation τ sig (Elt F) := fun c => StableHlo.after hostOps10 (W20 m ρ c)
abbrev V21 : (c : Dev nD) → (b : Ref sig .tc) → Buf (Elt F) ((c : Thread nD τ).loc b) := fun c b => W21 m ρ c b
/-- After kernel region 10: its arrays at what its write-backs leave, every other buffer as the region found it. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)

/-- After the host stretch `hostOps11`: what kernel region 11 is entered with. -/
abbrev W23 : Dev nD → Valuation τ sig (Elt F) := fun c => StableHlo.after hostOps11 (W22 m ρ c)
abbrev V23 : (c : Dev nD) → (b : Ref sig .tc) → Buf (Elt F) ((c : Thread nD τ).loc b) := fun c b => W23 m ρ c b
/-- After kernel region 11: its arrays at what its write-backs leave, every other buffer as the region found it. -/
def W24 (c : Dev nD) : Valuation τ sig (Elt F) :=
  Pipeline.withArrays spec11 c (W23 m ρ c) fun w => (dat11 (V23 m ρ) c).arrAt w cfg11.N
theorem W24_arr (c : Dev nD) (w : Fin cfg11.W) :
    W24 m ρ c (Proc.devRef .tc (Pipeline.arrRef spec11 w)) = (dat11 (V23 m ρ) c).arrAt w cfg11.N := by
  unfold W24; exact Pipeline.withArrays_arr spec11 launch11.win.arr_inj c _ _ w
theorem W24_of_ne (c : Dev nD) (b : Ref sig .tc) (hb : ∀ w, Pipeline.arrRef spec11 w ≠ b) :
    W24 m ρ c (Proc.devRef .tc b) = W23 m ρ c (Proc.devRef .tc b) := by
  unfold W24; exact Pipeline.withArrays_of_ne spec11 c _ _ b hb
abbrev V24 : (c : Dev nD) → (b : Ref sig .tc) → Buf (Elt F) ((c : Thread nD τ).loc b) := fun c b => W24 m ρ c b
theorem hF11 (c : Dev nD) (w : Fin cfg11.W) : (dat11 (V23 m ρ) c).arrAt w cfg11.N = V24 m ρ c (Pipeline.arrRef spec11 w) :=
  (W24_arr m ρ c w).symm
theorem hrest11 (c : Dev nD) : ∀ b, b ∉ Finset.univ.image (Pipeline.arrRef spec11) → V24 m ρ c b = V23 m ρ c b :=
  fun b hb => W24_of_ne m ρ c b fun w e => hb (Finset.mem_image.mpr ⟨w, Finset.mem_univ _, e⟩)

/-- After the pooling and classifier stretch `hostOps12`. -/
abbrev W25 : Dev nD → Valuation τ sig (Elt F) := fun c => StableHlo.after hostOps12 (W24 m ρ c)
/-- After the closing log-softmax stretch `hostOps12_1`: the contents @main returns with. -/
abbrev W26 : Dev nD → Valuation τ sig (Elt F) := fun c => StableHlo.after hostOps12_1 (W25 m ρ c)

/-! ## The thirteen argument arrays are carried through every item: no host stretch writes one, and a region
    either does not touch it or reads it through an input window, whose array ends as it was entered -/

abbrev argsL : List (Ref sig .tc) := [main_arg0, main_arg1, main_arg2, main_arg3, main_arg4, main_arg5, main_arg6, main_arg7, main_arg8, main_arg9, main_arg10, main_arg11, main_arg12]
theorem W1_keep (c : Dev nD) (r : Ref sig .tc) (hr : r ∈ argsL) : W1 m ρ c (Proc.devRef .tc r) = W0 m ρ c (Proc.devRef .tc r) :=
  StableHlo.after_of_writes_sub hostOps0 _ hostOps0_writes ((by decide : ∀ r ∈ argsL, r ∉ hostOps0_W) r hr)
theorem W2_keep (c : Dev nD) (r : Ref sig .tc) (hr : r ∈ argsL) : W2 m ρ c (Proc.devRef .tc r) = W1 m ρ c (Proc.devRef .tc r) := by
  by_cases h : r = main_arg0
  · subst h
    exact (W2_arr m ρ c 0).trans (((dat0 (V1 m ρ) c).arrAt_in 0 rfl _).trans (A_eq0 (V1 m ρ) c 0))
  · exact W2_of_ne m ρ c r ((by decide : ∀ r ∈ argsL, r ≠ main_arg0 → ∀ w, Pipeline.arrRef spec0 w ≠ r) r hr h)
theorem W3_keep (c : Dev nD) (r : Ref sig .tc) (hr : r ∈ argsL) : W3 m ρ c (Proc.devRef .tc r) = W2 m ρ c (Proc.devRef .tc r) :=
  StableHlo.after_of_writes_sub hostOps1 _ hostOps1_writes ((by decide : ∀ r ∈ argsL, r ∉ hostOps1_W) r hr)
theorem W4_keep (c : Dev nD) (r : Ref sig .tc) (hr : r ∈ argsL) : W4 m ρ c (Proc.devRef .tc r) = W3 m ρ c (Proc.devRef .tc r) :=
  W4_of_ne m ρ c r ((by decide : ∀ r ∈ argsL, ∀ w, Pipeline.arrRef spec1 w ≠ r) r hr)
theorem W5_keep (c : Dev nD) (r : Ref sig .tc) (hr : r ∈ argsL) : W5 m ρ c (Proc.devRef .tc r) = W4 m ρ c (Proc.devRef .tc r) :=
  StableHlo.after_of_writes_sub hostOps2 _ hostOps2_writes ((by decide : ∀ r ∈ argsL, r ∉ hostOps2_W) r hr)
theorem W6_keep (c : Dev nD) (r : Ref sig .tc) (hr : r ∈ argsL) : W6 m ρ c (Proc.devRef .tc r) = W5 m ρ c (Proc.devRef .tc r) :=
  W6_of_ne m ρ c r ((by decide : ∀ r ∈ argsL, ∀ w, Pipeline.arrRef spec2 w ≠ r) r hr)
theorem W7_keep (c : Dev nD) (r : Ref sig .tc) (hr : r ∈ argsL) : W7 m ρ c (Proc.devRef .tc r) = W6 m ρ c (Proc.devRef .tc r) :=
  StableHlo.after_of_writes_sub hostOps3 _ hostOps3_writes ((by decide : ∀ r ∈ argsL, r ∉ hostOps3_W) r hr)
theorem W8_keep (c : Dev nD) (r : Ref sig .tc) (hr : r ∈ argsL) : W8 m ρ c (Proc.devRef .tc r) = W7 m ρ c (Proc.devRef .tc r) :=
  W8_of_ne m ρ c r ((by decide : ∀ r ∈ argsL, ∀ w, Pipeline.arrRef spec3 w ≠ r) r hr)
theorem W9_keep (c : Dev nD) (r : Ref sig .tc) (hr : r ∈ argsL) : W9 m ρ c (Proc.devRef .tc r) = W8 m ρ c (Proc.devRef .tc r) :=
  StableHlo.after_of_writes_sub hostOps4 _ hostOps4_writes ((by decide : ∀ r ∈ argsL, r ∉ hostOps4_W) r hr)
theorem W10_keep (c : Dev nD) (r : Ref sig .tc) (hr : r ∈ argsL) : W10 m ρ c (Proc.devRef .tc r) = W9 m ρ c (Proc.devRef .tc r) :=
  W10_of_ne m ρ c r ((by decide : ∀ r ∈ argsL, ∀ w, Pipeline.arrRef spec4 w ≠ r) r hr)
theorem W11_keep (c : Dev nD) (r : Ref sig .tc) (hr : r ∈ argsL) : W11 m ρ c (Proc.devRef .tc r) = W10 m ρ c (Proc.devRef .tc r) :=
  StableHlo.after_of_writes_sub hostOps5 _ hostOps5_writes ((by decide : ∀ r ∈ argsL, r ∉ hostOps5_W) r hr)
theorem W12_keep (c : Dev nD) (r : Ref sig .tc) (hr : r ∈ argsL) : W12 m ρ c (Proc.devRef .tc r) = W11 m ρ c (Proc.devRef .tc r) :=
  W12_of_ne m ρ c r ((by decide : ∀ r ∈ argsL, ∀ w, Pipeline.arrRef spec5 w ≠ r) r hr)
theorem W13_keep (c : Dev nD) (r : Ref sig .tc) (hr : r ∈ argsL) : W13 m ρ c (Proc.devRef .tc r) = W12 m ρ c (Proc.devRef .tc r) :=
  StableHlo.after_of_writes_sub hostOps6 _ hostOps6_writes ((by decide : ∀ r ∈ argsL, r ∉ hostOps6_W) r hr)
theorem W14_keep (c : Dev nD) (r : Ref sig .tc) (hr : r ∈ argsL) : W14 m ρ c (Proc.devRef .tc r) = W13 m ρ c (Proc.devRef .tc r) :=
  W14_of_ne m ρ c r ((by decide : ∀ r ∈ argsL, ∀ w, Pipeline.arrRef spec6 w ≠ r) r hr)
theorem W15_keep (c : Dev nD) (r : Ref sig .tc) (hr : r ∈ argsL) : W15 m ρ c (Proc.devRef .tc r) = W14 m ρ c (Proc.devRef .tc r) :=
  StableHlo.after_of_writes_sub hostOps7 _ hostOps7_writes ((by decide : ∀ r ∈ argsL, r ∉ hostOps7_W) r hr)
theorem W16_keep (c : Dev nD) (r : Ref sig .tc) (hr : r ∈ argsL) : W16 m ρ c (Proc.devRef .tc r) = W15 m ρ c (Proc.devRef .tc r) :=
  W16_of_ne m ρ c r ((by decide : ∀ r ∈ argsL, ∀ w, Pipeline.arrRef spec7 w ≠ r) r hr)
theorem W17_keep (c : Dev nD) (r : Ref sig .tc) (hr : r ∈ argsL) : W17 m ρ c (Proc.devRef .tc r) = W16 m ρ c (Proc.devRef .tc r) :=
  StableHlo.after_of_writes_sub hostOps8 _ hostOps8_writes ((by decide : ∀ r ∈ argsL, r ∉ hostOps8_W) r hr)
theorem W18_keep (c : Dev nD) (r : Ref sig .tc) (hr : r ∈ argsL) : W18 m ρ c (Proc.devRef .tc r) = W17 m ρ c (Proc.devRef .tc r) :=
  W18_of_ne m ρ c r ((by decide : ∀ r ∈ argsL, ∀ w, Pipeline.arrRef spec8 w ≠ r) r hr)
theorem W19_keep (c : Dev nD) (r : Ref sig .tc) (hr : r ∈ argsL) : W19 m ρ c (Proc.devRef .tc r) = W18 m ρ c (Proc.devRef .tc r) :=
  StableHlo.after_of_writes_sub hostOps9 _ hostOps9_writes ((by decide : ∀ r ∈ argsL, r ∉ hostOps9_W) r hr)
theorem W20_keep (c : Dev nD) (r : Ref sig .tc) (hr : r ∈ argsL) : W20 m ρ c (Proc.devRef .tc r) = W19 m ρ c (Proc.devRef .tc r) :=
  W20_of_ne m ρ c r ((by decide : ∀ r ∈ argsL, ∀ w, Pipeline.arrRef spec9 w ≠ r) r hr)
theorem W21_keep (c : Dev nD) (r : Ref sig .tc) (hr : r ∈ argsL) : W21 m ρ c (Proc.devRef .tc r) = W20 m ρ c (Proc.devRef .tc r) :=
  StableHlo.after_of_writes_sub hostOps10 _ hostOps10_writes ((by decide : ∀ r ∈ argsL, r ∉ hostOps10_W) r hr)
theorem W22_keep (c : Dev nD) (r : Ref sig .tc) (hr : r ∈ argsL) : W22 m ρ c (Proc.devRef .tc r) = W21 m ρ c (Proc.devRef .tc r) :=
  W22_of_ne m ρ c r ((by decide : ∀ r ∈ argsL, ∀ w, Pipeline.arrRef spec10 w ≠ r) r hr)
theorem W23_keep (c : Dev nD) (r : Ref sig .tc) (hr : r ∈ argsL) : W23 m ρ c (Proc.devRef .tc r) = W22 m ρ c (Proc.devRef .tc r) :=
  StableHlo.after_of_writes_sub hostOps11 _ hostOps11_writes ((by decide : ∀ r ∈ argsL, r ∉ hostOps11_W) r hr)
theorem W24_keep (c : Dev nD) (r : Ref sig .tc) (hr : r ∈ argsL) : W24 m ρ c (Proc.devRef .tc r) = W23 m ρ c (Proc.devRef .tc r) :=
  W24_of_ne m ρ c r ((by decide : ∀ r ∈ argsL, ∀ w, Pipeline.arrRef spec11 w ≠ r) r hr)
theorem W25_keep (c : Dev nD) (r : Ref sig .tc) (hr : r ∈ argsL) : W25 m ρ c (Proc.devRef .tc r) = W24 m ρ c (Proc.devRef .tc r) :=
  StableHlo.after_of_writes_sub hostOps12 _ hostOps12_writes ((by decide : ∀ r ∈ argsL, r ∉ hostOps12_W) r hr)
theorem W26_keep (c : Dev nD) (r : Ref sig .tc) (hr : r ∈ argsL) : W26 m ρ c (Proc.devRef .tc r) = W25 m ρ c (Proc.devRef .tc r) :=
  StableHlo.after_of_writes_sub hostOps12_1 _ hostOps12_1_writes ((by decide : ∀ r ∈ argsL, r ∉ hostOps12_1_W) r hr)
/-- Each argument array's buffer holds at the end what it held at launch. -/
theorem W26_arg (c : Dev nD) (r : Ref sig .tc) (hr : r ∈ argsL) : W26 m ρ c (Proc.devRef .tc r) = m ((c : Thread nD τ).loc r) :=
  (W26_keep m ρ c r hr).trans <| (W25_keep m ρ c r hr).trans <| (W24_keep m ρ c r hr).trans <| (W23_keep m ρ c r hr).trans <| (W22_keep m ρ c r hr).trans <| (W21_keep m ρ c r hr).trans <| (W20_keep m ρ c r hr).trans <| (W19_keep m ρ c r hr).trans <| (W18_keep m ρ c r hr).trans <| (W17_keep m ρ c r hr).trans <| (W16_keep m ρ c r hr).trans <| (W15_keep m ρ c r hr).trans <| (W14_keep m ρ c r hr).trans <| (W13_keep m ρ c r hr).trans <| (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl

/-! ## The proof data of the twelve regions, each at the contents its region is entered with -/

/-- No pallas_call here has a prefetched table. -/
abbrev adm : (p : Fin 12) → (pcfgs (F := F) p).Adm := fun p => (cfgs p).toPCfg_adm
/-- Every region's proof data, a literal match on the call's number. -/
def pdats : (p : Fin 12) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
  | ⟨11, _⟩ => fun c => dat11 (V23 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev Tₙ (c : Dev nD) : sProp 𝕄 := iprop(StableHlo.held (c : Thread nD τ) (Pipeline.ucRefs τ sig) (W26 m ρ c) ∗ ∃ r, prngReg c r)

/-! ## The regions as segments: entered from every unscoped buffer at the entry contents, left at the exit contents -/

set_option backward.isDefEq.respectTransparency.types false in
/-- Region 0: its arrays split out of the unscoped buffers at `W1` and put back at `W2`; the generator register and
    the scoped buffers no window stages go into the body's invariant at the first point and come back at the last. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    iintro ⟨Hp, -, Hr⟩
    iapply (Phi_first0 (V1 m ρ) c)
    isplitl [Hp]; · iexact Hp
    iexact Hr
  hout c := by
    rw [Pipeline.ownSems0_none, show (pdats m ρ 0 c).Φ (Fin.last _) = (dat0 (V1 m ρ) c).Φ (Fin.last cfg0.N) from rfl]
    iintro H
    ihave H' := (Phi_last0 (V1 m ρ) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: its arrays split out of the unscoped buffers at `W3` and put back at `W4`; the generator register and
    the scoped buffers no window stages go into the body's invariant at the first point and come back at the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (Phi_first1 (V3 m ρ) c)
    isplitl [Hp]; · iexact Hp
    iexact Hr
  hout c := by
    rw [Pipeline.ownSems0_none, show (pdats m ρ 1 c).Φ (Fin.last _) = (dat1 (V3 m ρ) c).Φ (Fin.last cfg1.N) from rfl]
    iintro H
    ihave H' := (Phi_last1 (V3 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: its arrays split out of the unscoped buffers at `W5` and put back at `W6`; the generator register and
    the scoped buffers no window stages go into the body's invariant at the first point and come back at the last. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    iintro ⟨Hp, -, Hr⟩
    iapply (Phi_first2 (V5 m ρ) c)
    isplitl [Hp]; · iexact Hp
    iexact Hr
  hout c := by
    rw [Pipeline.ownSems0_none, show (pdats m ρ 2 c).Φ (Fin.last _) = (dat2 (V5 m ρ) c).Φ (Fin.last cfg2.N) from rfl]
    iintro H
    ihave H' := (Phi_last2 (V5 m ρ) c) $$ H
    icases H' with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: its arrays split out of the unscoped buffers at `W7` and put back at `W8`; the generator register and
    the scoped buffers no window stages go into the body's invariant at the first point and come back at the last. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    iintro ⟨Hp, -, Hr⟩
    iapply (Phi_first3 (V7 m ρ) c)
    isplitl [Hp]; · iexact Hp
    iexact Hr
  hout c := by
    rw [Pipeline.ownSems0_none, show (pdats m ρ 3 c).Φ (Fin.last _) = (dat3 (V7 m ρ) c).Φ (Fin.last cfg3.N) from rfl]
    iintro H
    ihave H' := (Phi_last3 (V7 m ρ) c) $$ H
    icases H' with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: its arrays split out of the unscoped buffers at `W9` and put back at `W10`; the generator register and
    the scoped buffers no window stages go into the body's invariant at the first point and come back at the last. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (dat4 (V9 m ρ) c).Φ 0 from rfl]
    iintro ⟨Hp, -, Hr⟩
    iapply (Phi_first4 (V9 m ρ) c)
    isplitl [Hp]; · iexact Hp
    iexact Hr
  hout c := by
    rw [Pipeline.ownSems0_none, show (pdats m ρ 4 c).Φ (Fin.last _) = (dat4 (V9 m ρ) c).Φ (Fin.last cfg4.N) from rfl]
    iintro H
    ihave H' := (Phi_last4 (V9 m ρ) c) $$ H
    icases H' with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: its arrays split out of the unscoped buffers at `W11` and put back at `W12`; the generator register and
    the scoped buffers no window stages go into the body's invariant at the first point and come back at the last. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V11 m ρ) c).Φ 0 from rfl]
    iintro ⟨Hp, -, Hr⟩
    iapply (Phi_first5 (V11 m ρ) c)
    isplitl [Hp]; · iexact Hp
    iexact Hr
  hout c := by
    rw [Pipeline.ownSems0_none, show (pdats m ρ 5 c).Φ (Fin.last _) = (dat5 (V11 m ρ) c).Φ (Fin.last cfg5.N) from rfl]
    iintro H
    ihave H' := (Phi_last5 (V11 m ρ) c) $$ H
    icases H' with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: its arrays split out of the unscoped buffers at `W13` and put back at `W14`; the generator register and
    the scoped buffers no window stages go into the body's invariant at the first point and come back at the last. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = (dat6 (V13 m ρ) c).Φ 0 from rfl]
    iintro ⟨Hp, -, Hr⟩
    iapply (Phi_first6 (V13 m ρ) c)
    isplitl [Hp]; · iexact Hp
    iexact Hr
  hout c := by
    rw [Pipeline.ownSems0_none, show (pdats m ρ 6 c).Φ (Fin.last _) = (dat6 (V13 m ρ) c).Φ (Fin.last cfg6.N) from rfl]
    iintro H
    ihave H' := (Phi_last6 (V13 m ρ) c) $$ H
    icases H' with ⟨Hp, Hr⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: its arrays split out of the unscoped buffers at `W15` and put back at `W16`; the generator register and
    the scoped buffers no window stages go into the body's invariant at the first point and come back at the last. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = (dat7 (V15 m ρ) c).Φ 0 from rfl]
    iintro ⟨Hp, -, Hr⟩
    iapply (Phi_first7 (V15 m ρ) c)
    isplitl [Hp]; · iexact Hp
    iexact Hr
  hout c := by
    rw [Pipeline.ownSems0_none, show (pdats m ρ 7 c).Φ (Fin.last _) = (dat7 (V15 m ρ) c).Φ (Fin.last cfg7.N) from rfl]
    iintro H
    ihave H' := (Phi_last7 (V15 m ρ) c) $$ H
    icases H' with ⟨Hp, Hr⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: its arrays split out of the unscoped buffers at `W17` and put back at `W18`; the generator register and
    the scoped buffers no window stages go into the body's invariant at the first point and come back at the last. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = (dat8 (V17 m ρ) c).Φ 0 from rfl]
    iintro ⟨Hp, -, Hr⟩
    iapply (Phi_first8 (V17 m ρ) c)
    isplitl [Hp]; · iexact Hp
    iexact Hr
  hout c := by
    rw [Pipeline.ownSems0_none, show (pdats m ρ 8 c).Φ (Fin.last _) = (dat8 (V17 m ρ) c).Φ (Fin.last cfg8.N) from rfl]
    iintro H
    ihave H' := (Phi_last8 (V17 m ρ) c) $$ H
    icases H' with ⟨Hp, Hr⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9: its arrays split out of the unscoped buffers at `W19` and put back at `W20`; the generator register and
    the scoped buffers no window stages go into the body's invariant at the first point and come back at the last. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = (dat9 (V19 m ρ) c).Φ 0 from rfl]
    iintro ⟨Hp, -, Hr⟩
    iapply (Phi_first9 (V19 m ρ) c)
    isplitl [Hp]; · iexact Hp
    iexact Hr
  hout c := by
    rw [Pipeline.ownSems0_none, show (pdats m ρ 9 c).Φ (Fin.last _) = (dat9 (V19 m ρ) c).Φ (Fin.last cfg9.N) from rfl]
    iintro H
    ihave H' := (Phi_last9 (V19 m ρ) c) $$ H
    icases H' with ⟨Hp, Hr⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10: its arrays split out of the unscoped buffers at `W21` and put back at `W22`; the generator register and
    the scoped buffers no window stages go into the body's invariant at the first point and come back at the last. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = (dat10 (V21 m ρ) c).Φ 0 from rfl]
    iintro ⟨Hp, -, Hr⟩
    iapply (Phi_first10 (V21 m ρ) c)
    isplitl [Hp]; · iexact Hp
    iexact Hr
  hout c := by
    rw [Pipeline.ownSems0_none, show (pdats m ρ 10 c).Φ (Fin.last _) = (dat10 (V21 m ρ) c).Φ (Fin.last cfg10.N) from rfl]
    iintro H
    ihave H' := (Phi_last10 (V21 m ρ) c) $$ H
    icases H' with ⟨Hp, Hr⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 11: its arrays split out of the unscoped buffers at `W23` and put back at `W24`; the generator register and
    the scoped buffers no window stages go into the body's invariant at the first point and come back at the last. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V23 m ρ) c).loose
  hwaits := Pipeline.hwaits_of_owed_zero _ _ _ _ L lv 11 fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec11 c (V23 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = (dat11 (V23 m ρ) c).Φ 0 from rfl]
    iintro ⟨Hp, -, Hr⟩
    iapply (Phi_first11 (V23 m ρ) c)
    isplitl [Hp]; · iexact Hp
    iexact Hr
  hout c := by
    rw [Pipeline.ownSems0_none, show (pdats m ρ 11 c).Φ (Fin.last _) = (dat11 (V23 m ρ) c).Φ (Fin.last cfg11.N) from rfl]
    iintro H
    ihave H' := (Phi_last11 (V23 m ρ) c) $$ H
    icases H' with ⟨Hp, Hr⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V23 m ρ c) (V24 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last item's state, regrouped: the buffers and the generator register on one side, nothing owed on the other. -/
theorem last_state (c : Dev nD) : (iprop(StableHlo.held (c : Thread nD τ) (Pipeline.ucRefs τ sig) (W26 m ρ c) ∗ R c) : sProp 𝕄)
    ⊢ iprop(Tₙ m ρ c ∗ ∃ Wt, owes (c : Thread nD τ) (0 : CellTallies nD τ sig Unit) Wt) := sep_assoc'

/-! ## @main as segments, and the launch -/

/-- @main's 26 items in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ),
    .host (hseg hostOps11 hostOps11_sub hostOps11_fresh (W22 m ρ)),
    .region (reg11 m ρ),
    .host (hseg hostOps12 hostOps12_sub hostOps12_fresh (W24 m ρ)),
    .host (hseg hostOps12_1 hostOps12_1_sub hostOps12_1_fresh (W25 m ρ)) ]
/-- @main is the run of the segments. -/
theorem main_run (c : Dev nD) : main (F := F) c = Pipeline.Seg.run (segs m ρ) := (main_chain c).trans (by chain_rfl)

set_option backward.isDefEq.respectTransparency.types false in
/-- THE RUN, at any `F`: from any memory with zero counters every weakly fair execution of @main terminates, nothing
    faulting, with the result buffer at the last boundary's contents and the thirteen argument arrays as launched. -/
theorem run : θ_run defs (onTc (τ := τ) (main (F := F))) ⟨m, fun _ => 0, ρ⟩ (fun r => ∀ c : Dev nD,
      r.2.mem ((c.tc : Thread nD τ).loc main_v301) = W26 m ρ c (Proc.devRef .tc main_v301)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h c =>
      ⟨h c _ (mem_uc main_v301 (by decide)),
       (h c _ (mem_uc main_arg0 (by decide))).trans (W26_arg m ρ c main_arg0 (by decide)),
       (h c _ (mem_uc main_arg1 (by decide))).trans (W26_arg m ρ c main_arg1 (by decide)),
       (h c _ (mem_uc main_arg2 (by decide))).trans (W26_arg m ρ c main_arg2 (by decide)),
       (h c _ (mem_uc main_arg3 (by decide))).trans (W26_arg m ρ c main_arg3 (by decide)),
       (h c _ (mem_uc main_arg4 (by decide))).trans (W26_arg m ρ c main_arg4 (by decide)),
       (h c _ (mem_uc main_arg5 (by decide))).trans (W26_arg m ρ c main_arg5 (by decide)),
       (h c _ (mem_uc main_arg6 (by decide))).trans (W26_arg m ρ c main_arg6 (by decide)),
       (h c _ (mem_uc main_arg7 (by decide))).trans (W26_arg m ρ c main_arg7 (by decide)),
       (h c _ (mem_uc main_arg8 (by decide))).trans (W26_arg m ρ c main_arg8 (by decide)),
       (h c _ (mem_uc main_arg9 (by decide))).trans (W26_arg m ρ c main_arg9 (by decide)),
       (h c _ (mem_uc main_arg10 (by decide))).trans (W26_arg m ρ c main_arg10 (by decide)),
       (h c _ (mem_uc main_arg11 (by decide))).trans (W26_arg m ρ c main_arg11 (by decide)),
       (h c _ (mem_uc main_arg12 (by decide))).trans (W26_arg m ρ c main_arg12 (by decide))⟩)

end Cert.KernelIdeal.Hand

end
-- ==== Proof.RefRun.Base.lean ====
import proofs.«102976_j3633542332749_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two lines of operations run one after the other: the second line's fold over the first's. -/
theorem after_append : ∀ (l₁ l₂ : List (HloOp τ sig (Elt F))) (V : Valuation τ sig (Elt F)),
    after (l₁ ++ l₂) V = after l₂ (after l₁ V)
  | [], _, _ => rfl
  | op :: l, l₂, V => after_append l l₂ (op.result V)

/-- A single written buffer that is listed in `W` lies in the set of `W`'s device buffers. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset := by
  simp only [Finset.singleton_subset_iff, List.mem_toFinset]
  exact List.mem_map_of_mem h

/-- No operation of a concatenation allocates when none of either part does. -/
theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ := fun op h =>
  (List.mem_append.mp h).elim (h₁ op) (h₂ op)

/-- Every operation of a concatenation touches TensorCore buffers only when those of both parts do. -/
theorem sub_append {l₁ l₂ : List (HloOp τ sig (Elt F))} (h₁ : l₁.Forall fun op => op.bufs ⊆ tcRefs τ sig)
    (h₂ : l₂.Forall fun op => op.bufs ⊆ tcRefs τ sig) : (l₁ ++ l₂).Forall fun op => op.bufs ⊆ tcRefs τ sig :=
  List.forall_iff_forall_mem.mpr fun op h =>
    (List.mem_append.mp h).elim (List.forall_iff_forall_mem.mp h₁ op) (List.forall_iff_forall_mem.mp h₂ op)

end Cert.ReferenceIdeal.RefRun

end
-- ==== Proof.RefRun.W0.lean ====
import proofs.«102976_j3633542332749_1_alg».proof.Proof.Gen.ReferenceIdeal
import Idealize.ShloMosaic.Lib.StableHlo.Run
import proofs.«102976_j3633542332749_1_alg».proof.Proof.RefRun.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of the reference's entry function, in order, each called function's operations standing
    in the call's place over that call's buffers. -/
abbrev ops0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.unary main_arg3 main_v15 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v18 ((extractStridedSlice S1x128 ![0, 0] · slices_S4x128_S1x128_0_0) : (⟨S4x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S50000x128 ![0, 1] bcast_S1x128_S50000x128_0_1 : (⟨S1x128, .f32⟩ : BufTy).Contents (Elt F) → (⟨S50000x128, .f32⟩ : BufTy).Contents (Elt F)),
    StableHlo.binary main_v17 main_v21 main_v22 (addf : (⟨S50000x128, .f32⟩ : BufTy).Contents (Elt F) → (⟨S50000x128, .f32⟩ : BufTy).Contents (Elt F) → (⟨S50000x128, .f32⟩ : BufTy).Contents (Elt F)),
    StableHlo.unary main_arg7 main_v23 ((extractStridedSlice S1x128 ![0, 0] · slices_S4x128_S1x128_0_0) : (⟨S4x128, .f32⟩ : BufTy).Contents (Elt F) → (⟨S1x128, .f32⟩ : BufTy).Contents (Elt F)),
    StableHlo.reshape main_v23 main_v24 rfl shapeCasts_S1x128_S128,
    StableHlo.unary main_arg8 main_v25 ((extractStridedSlice S1x128 ![0, 0] · slices_S4x128_S1x128_0_0) : (⟨S4x128, .f32⟩ : BufTy).Contents (Elt F) → (⟨S1x128, .f32⟩ : BufTy).Contents (Elt F)),
    StableHlo.reshape main_v25 main_v26 rfl shapeCasts_S1x128_S128,
    StableHlo.nullary main_cst_1 (constant S_ .f32 0x00000000#32),
    StableHlo.binary main_v22 main_cst_1 main_v27 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v28 (broadcastInDim S128 ![] bcast_S_S128 : (⟨S_, .f32⟩ : BufTy).Contents (Elt F) → (⟨S128, .f32⟩ : BufTy).Contents (Elt F)),
    StableHlo.binary main_v27 main_v28 main_v29 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (TRef.of (T := ⟨S50000x128, .f32⟩) main_v22) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (TRef.of (T := ⟨S50000x128, .f32⟩) main_v22) main_call0.v4 main_call0.v5 subf,
    StableHlo.TRef.binary main_call0.v5 main_call0.v5 main_call0.v6 mulf,
    StableHlo.TRef.unary (TRef.of (T := ⟨S_, .i32⟩) main_c_3) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v29 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v22 main_v32 main_v33 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v34 (broadcastInDim S128 ![] bcast_S_S128 : (⟨S_, .f32⟩ : BufTy).Contents (Elt F) → (⟨S128, .f32⟩ : BufTy).Contents (Elt F)),
    StableHlo.binary main_v30 main_v34 main_v35 (addf : (⟨S128, .f32⟩ : BufTy).Contents (Elt F) → (⟨S128, .f32⟩ : BufTy).Contents (Elt F) → (⟨S128, .f32⟩ : BufTy).Contents (Elt F)),
    StableHlo.unary main_v35 main_v36 (Host.rsqrt : (⟨S128, .f32⟩ : BufTy).Contents (Elt F) → (⟨S128, .f32⟩ : BufTy).Contents (Elt F)),
    StableHlo.unary main_v36 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v33 main_v38 main_v39 (mulf : (⟨S50000x128, .f32⟩ : BufTy).Contents (Elt F) → (⟨S50000x128, .f32⟩ : BufTy).Contents (Elt F) → (⟨S50000x128, .f32⟩ : BufTy).Contents (Elt F)),
    StableHlo.unary main_v24 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v41 main_v42 (mulf : (⟨S50000x128, .f32⟩ : BufTy).Contents (Elt F) → (⟨S50000x128, .f32⟩ : BufTy).Contents (Elt F) → (⟨S50000x128, .f32⟩ : BufTy).Contents (Elt F)),
    StableHlo.unary main_v26 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v42 main_v44 main_v45 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (TRef.of (T := ⟨S50000x128, .f32⟩) main_v45) main_call1.v0 main_call1.v1 maximumf,
    StableHlo.unary main_arg5 main_v47 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v47 main_v48 rfl shapeCasts_S1x128x128_S128x128,
    StableHlo.binary main_v46 main_v48 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v50 ((extractStridedSlice S1x128 ![0, 0] · slices_S4x128_S1x128_0_0) : (⟨S4x128, .f32⟩ : BufTy).Contents (Elt F) → (⟨S1x128, .f32⟩ : BufTy).Contents (Elt F)),
    StableHlo.reshape main_v50 main_v51 rfl shapeCasts_S1x128_S128,
    StableHlo.unary main_v51 main_v52 (broadcastInDim S1x128 ![1] bcast_S128_S1x128_1 : (⟨S128, .f32⟩ : BufTy).Contents (Elt F) → (⟨S1x128, .f32⟩ : BufTy).Contents (Elt F)) ]

set_option maxRecDepth 8192 in
set_option maxHeartbeats 4000000 in
/-- The window is that straight line: the called functions unfold at their calls and sequencing reassociates. -/
theorem main_part0_eq (c : Dev nD) : main_part0 (F := F) c = seq ops0 := by
  simp only [main_part0, fn_var.body, fn_where.body, fn_relu.body, fn_log_softmax.body, seq, bind_assoc, pure_bind]
  rfl

set_option maxRecDepth 8192 in
/-- Every operation of the window touches TensorCore buffers only. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub ..⟩

set_option maxRecDepth 8192 in
/-- No operation of the window allocates. -/
theorem ops0_fresh : ∀ op ∈ (ops0 : List (HloOp τ sig (Elt F))), op.fresh = ∅ :=
  List.forall_iff_forall_mem.mp (show (ops0 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev ops0_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_v23, main_v24, main_v25, main_v26, main_cst_1, main_v27, main_cst_2, main_v28, main_v29, main_c_3, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v31, main_v32, main_v33, main_cst_4, main_v34, main_v35, main_v36, main_v37, main_v38, main_v39, main_v40, main_v41, main_v42, main_v43, main_v44, main_v45, main_call1.cst.ref, main_call1.v0.ref, main_call1.v1.ref, main_v47, main_v48, main_v49, main_v50, main_v51, main_v52]

set_option maxRecDepth 8192 in
set_option maxHeartbeats 4000000 in
/-- Each operation of the window writes its one result buffer, which is listed. -/
theorem ops0_writes : (ops0 : List (HloOp τ sig (Elt F))).Forall fun op =>
    op.writes ⊆ (ops0_W.map (Proc.devRef (τ := τ) .tc)).toFinset :=
  ⟨writes_sub_of_mem (y := main_v0) (by decide),
    writes_sub_of_mem (y := main_v1) (by decide),
    writes_sub_of_mem (y := main_v2) (by decide),
    writes_sub_of_mem (y := main_v3) (by decide),
    writes_sub_of_mem (y := main_c) (by decide),
    writes_sub_of_mem (y := main_v4) (by decide),
    writes_sub_of_mem (y := main_v5) (by decide),
    writes_sub_of_mem (y := main_c_0) (by decide),
    writes_sub_of_mem (y := main_v6) (by decide),
    writes_sub_of_mem (y := main_v7) (by decide),
    writes_sub_of_mem (y := main_v8) (by decide),
    writes_sub_of_mem (y := main_v9) (by decide),
    writes_sub_of_mem (y := main_v10) (by decide),
    writes_sub_of_mem (y := main_cst) (by decide),
    writes_sub_of_mem (y := main_v11) (by decide),
    writes_sub_of_mem (y := main_v12) (by decide),
    writes_sub_of_mem (y := main_v13) (by decide),
    writes_sub_of_mem (y := main_v14) (by decide),
    writes_sub_of_mem (y := main_v15) (by decide),
    writes_sub_of_mem (y := main_v16) (by decide),
    writes_sub_of_mem (y := main_v17) (by decide),
    writes_sub_of_mem (y := main_v18) (by decide),
    writes_sub_of_mem (y := main_v19) (by decide),
    writes_sub_of_mem (y := main_v20) (by decide),
    writes_sub_of_mem (y := main_v21) (by decide),
    writes_sub_of_mem (y := main_v22) (by decide),
    writes_sub_of_mem (y := main_v23) (by decide),
    writes_sub_of_mem (y := main_v24) (by decide),
    writes_sub_of_mem (y := main_v25) (by decide),
    writes_sub_of_mem (y := main_v26) (by decide),
    writes_sub_of_mem (y := main_cst_1) (by decide),
    writes_sub_of_mem (y := main_v27) (by decide),
    writes_sub_of_mem (y := main_cst_2) (by decide),
    writes_sub_of_mem (y := main_v28) (by decide),
    writes_sub_of_mem (y := main_v29) (by decide),
    writes_sub_of_mem (y := main_c_3) (by decide),
    writes_sub_of_mem (y := main_call0.cst.ref) (by decide),
    writes_sub_of_mem (y := main_call0.v0.ref) (by decide),
    writes_sub_of_mem (y := main_call0.v1.ref) (by decide),
    writes_sub_of_mem (y := main_call0.cst_0.ref) (by decide),
    writes_sub_of_mem (y := main_call0.v2.ref) (by decide),
    writes_sub_of_mem (y := main_call0.v3.ref) (by decide),
    writes_sub_of_mem (y := main_call0.v4.ref) (by decide),
    writes_sub_of_mem (y := main_call0.v5.ref) (by decide),
    writes_sub_of_mem (y := main_call0.v6.ref) (by decide),
    writes_sub_of_mem (y := main_call0.v7.ref) (by decide),
    writes_sub_of_mem (y := main_call0.cst_1.ref) (by decide),
    writes_sub_of_mem (y := main_call0.v8.ref) (by decide),
    writes_sub_of_mem (y := main_call0.cst_2.ref) (by decide),
    writes_sub_of_mem (y := main_call0.v9.ref) (by decide),
    writes_sub_of_mem (y := main_call0.v10.ref) (by decide),
    writes_sub_of_mem (y := main_call0.v11.ref) (by decide),
    writes_sub_of_mem (y := main_call0.cst_3.ref) (by decide),
    writes_sub_of_mem (y := main_call0.v12.ref) (by decide),
    writes_sub_of_mem (y := main_call0.cst_4.ref) (by decide),
    writes_sub_of_mem (y := main_call0.call0.v0.ref) (by decide),
    writes_sub_of_mem (y := main_call0.call0.v1.ref) (by decide),
    writes_sub_of_mem (y := main_call0.call0.v2.ref) (by decide),
    writes_sub_of_mem (y := main_v31) (by decide),
    writes_sub_of_mem (y := main_v32) (by decide),
    writes_sub_of_mem (y := main_v33) (by decide),
    writes_sub_of_mem (y := main_cst_4) (by decide),
    writes_sub_of_mem (y := main_v34) (by decide),
    writes_sub_of_mem (y := main_v35) (by decide),
    writes_sub_of_mem (y := main_v36) (by decide),
    writes_sub_of_mem (y := main_v37) (by decide),
    writes_sub_of_mem (y := main_v38) (by decide),
    writes_sub_of_mem (y := main_v39) (by decide),
    writes_sub_of_mem (y := main_v40) (by decide),
    writes_sub_of_mem (y := main_v41) (by decide),
    writes_sub_of_mem (y := main_v42) (by decide),
    writes_sub_of_mem (y := main_v43) (by decide),
    writes_sub_of_mem (y := main_v44) (by decide),
    writes_sub_of_mem (y := main_v45) (by decide),
    writes_sub_of_mem (y := main_call1.cst.ref) (by decide),
    writes_sub_of_mem (y := main_call1.v0.ref) (by decide),
    writes_sub_of_mem (y := main_call1.v1.ref) (by decide),
    writes_sub_of_mem (y := main_v47) (by decide),
    writes_sub_of_mem (y := main_v48) (by decide),
    writes_sub_of_mem (y := main_v49) (by decide),
    writes_sub_of_mem (y := main_v50) (by decide),
    writes_sub_of_mem (y := main_v51) (by decide),
    writes_sub_of_mem (y := main_v52) (by decide)⟩

/-- A buffer the window does not write keeps its contents through it. -/
theorem keep0 (V : Valuation τ sig (Elt F)) (r : Ref sig .tc) (h : r ∉ ops0_W) :
    after ops0 V (Proc.devRef .tc r) = V (Proc.devRef .tc r) :=
  after_of_writes_sub ops0 V ops0_writes h

end Cert.ReferenceIdeal.RefRun

end
-- ==== Proof.RefRun.W1.lean ====
import proofs.«102976_j3633542332749_1_alg».proof.Proof.Gen.ReferenceIdeal
import Idealize.ShloMosaic.Lib.StableHlo.Run
import proofs.«102976_j3633542332749_1_alg».proof.Proof.RefRun.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 1 of the reference's entry function, in order, each called function's operations standing
    in the call's place over that call's buffers. -/
abbrev ops1 : List (HloOp τ sig (Elt F)) :=
  [ StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v53 main_v54 (addf : (⟨S50000x128, .f32⟩ : BufTy).Contents (Elt F) → (⟨S50000x128, .f32⟩ : BufTy).Contents (Elt F) → (⟨S50000x128, .f32⟩ : BufTy).Contents (Elt F)),
    StableHlo.unary main_arg9 main_v55 ((extractStridedSlice S1x128 ![0, 0] · slices_S4x128_S1x128_0_0) : (⟨S4x128, .f32⟩ : BufTy).Contents (Elt F) → (⟨S1x128, .f32⟩ : BufTy).Contents (Elt F)),
    StableHlo.reshape main_v55 main_v56 rfl shapeCasts_S1x128_S128,
    StableHlo.unary main_arg10 main_v57 ((extractStridedSlice S1x128 ![0, 0] · slices_S4x128_S1x128_0_0) : (⟨S4x128, .f32⟩ : BufTy).Contents (Elt F) → (⟨S1x128, .f32⟩ : BufTy).Contents (Elt F)),
    StableHlo.reshape main_v57 main_v58 rfl shapeCasts_S1x128_S128,
    StableHlo.nullary main_cst_5 (constant S_ .f32 0x00000000#32),
    StableHlo.binary main_v54 main_cst_5 main_v59 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v60 (broadcastInDim S128 ![] bcast_S_S128 : (⟨S_, .f32⟩ : BufTy).Contents (Elt F) → (⟨S128, .f32⟩ : BufTy).Contents (Elt F)),
    StableHlo.binary main_v59 main_v60 main_v61 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (TRef.of (T := ⟨S50000x128, .f32⟩) main_v54) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (TRef.of (T := ⟨S50000x128, .f32⟩) main_v54) main_call2.v4 main_call2.v5 subf,
    StableHlo.TRef.binary main_call2.v5 main_call2.v5 main_call2.v6 mulf,
    StableHlo.TRef.unary (TRef.of (T := ⟨S_, .i32⟩) main_c_7) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v61 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v64 main_v65 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v66 (broadcastInDim S128 ![] bcast_S_S128 : (⟨S_, .f32⟩ : BufTy).Contents (Elt F) → (⟨S128, .f32⟩ : BufTy).Contents (Elt F)),
    StableHlo.binary main_v62 main_v66 main_v67 (addf : (⟨S128, .f32⟩ : BufTy).Contents (Elt F) → (⟨S128, .f32⟩ : BufTy).Contents (Elt F) → (⟨S128, .f32⟩ : BufTy).Contents (Elt F)),
    StableHlo.unary main_v67 main_v68 (Host.rsqrt : (⟨S128, .f32⟩ : BufTy).Contents (Elt F) → (⟨S128, .f32⟩ : BufTy).Contents (Elt F)),
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v70 main_v71 (mulf : (⟨S50000x128, .f32⟩ : BufTy).Contents (Elt F) → (⟨S50000x128, .f32⟩ : BufTy).Contents (Elt F) → (⟨S50000x128, .f32⟩ : BufTy).Contents (Elt F)),
    StableHlo.unary main_v56 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v73 main_v74 (mulf : (⟨S50000x128, .f32⟩ : BufTy).Contents (Elt F) → (⟨S50000x128, .f32⟩ : BufTy).Contents (Elt F) → (⟨S50000x128, .f32⟩ : BufTy).Contents (Elt F)),
    StableHlo.unary main_v58 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v76 main_v77 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (TRef.of (T := ⟨S50000x128, .f32⟩) main_v77) main_call3.v0 main_call3.v1 maximumf,
    StableHlo.nullary main_c_9 (constantI S_ 32 0#32),
    StableHlo.unary main_c_9 main_v79 (broadcastInDim S600000 ![] bcast_S_S600000 : (⟨S_, .i32⟩ : BufTy).Contents (Elt F) → (⟨S600000, .i32⟩ : BufTy).Contents (Elt F)),
    StableHlo.binary main_v1 main_v79 main_v80 (cmpi .slt : (⟨S600000, .i32⟩ : BufTy).Contents (Elt F) → (⟨S600000, .i32⟩ : BufTy).Contents (Elt F) → (⟨S600000, .i1⟩ : BufTy).Contents (Elt F)),
    StableHlo.nullary main_c_10 (constantI S_ 32 50000#32),
    StableHlo.unary main_c_10 main_v81 (broadcastInDim S600000 ![] bcast_S_S600000 : (⟨S_, .i32⟩ : BufTy).Contents (Elt F) → (⟨S600000, .i32⟩ : BufTy).Contents (Elt F)),
    StableHlo.binary main_v1 main_v81 main_v82 (addi : (⟨S600000, .i32⟩ : BufTy).Contents (Elt F) → (⟨S600000, .i32⟩ : BufTy).Contents (Elt F) → (⟨S600000, .i32⟩ : BufTy).Contents (Elt F)),
    StableHlo.ternary main_v80 main_v82 main_v1 main_v83 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v83 main_v84 (broadcastInDim S600000x1 ![0] bcast_S600000_S600000x1_0 : (⟨S600000, .i32⟩ : BufTy).Contents (Elt F) → (⟨S600000x1, .i32⟩ : BufTy).Contents (Elt F)),
    StableHlo.binary main_v78 main_v84 main_v85 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_11 (constant S_ .f32 0x00000000#32),
    StableHlo.unary main_cst_11 main_v86 (broadcastInDim S50000x128 ![] bcast_S_S50000x128 : (⟨S_, .f32⟩ : BufTy).Contents (Elt F) → (⟨S50000x128, .f32⟩ : BufTy).Contents (Elt F)),
    StableHlo.unary main_v3 main_v87 (broadcastInDim S600000x1 ![0] bcast_S600000_S600000x1_0 : (⟨S600000, .i32⟩ : BufTy).Contents (Elt F) → (⟨S600000x1, .i32⟩ : BufTy).Contents (Elt F)),
    StableHlo.ternary main_v86 main_v87 main_v85 main_v88 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v78 main_v88 main_v89 (addf : (⟨S50000x128, .f32⟩ : BufTy).Contents (Elt F) → (⟨S50000x128, .f32⟩ : BufTy).Contents (Elt F) → (⟨S50000x128, .f32⟩ : BufTy).Contents (Elt F)),
    StableHlo.unary main_arg3 main_v90 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v90 main_v91 rfl shapeCasts_S1x128x128_S128x128,
    StableHlo.binary main_v89 main_v91 main_v92 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v93 ((extractStridedSlice S1x128 ![1, 0] · slices_S4x128_S1x128_1_0) : (⟨S4x128, .f32⟩ : BufTy).Contents (Elt F) → (⟨S1x128, .f32⟩ : BufTy).Contents (Elt F)),
    StableHlo.reshape main_v93 main_v94 rfl shapeCasts_S1x128_S128,
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v96 main_v97 (addf : (⟨S50000x128, .f32⟩ : BufTy).Contents (Elt F) → (⟨S50000x128, .f32⟩ : BufTy).Contents (Elt F) → (⟨S50000x128, .f32⟩ : BufTy).Contents (Elt F)),
    StableHlo.unary main_arg7 main_v98 ((extractStridedSlice S1x128 ![1, 0] · slices_S4x128_S1x128_1_0) : (⟨S4x128, .f32⟩ : BufTy).Contents (Elt F) → (⟨S1x128, .f32⟩ : BufTy).Contents (Elt F)),
    StableHlo.reshape main_v98 main_v99 rfl shapeCasts_S1x128_S128,
    StableHlo.unary main_arg8 main_v100 ((extractStridedSlice S1x128 ![1, 0] · slices_S4x128_S1x128_1_0) : (⟨S4x128, .f32⟩ : BufTy).Contents (Elt F) → (⟨S1x128, .f32⟩ : BufTy).Contents (Elt F)),
    StableHlo.reshape main_v100 main_v101 rfl shapeCasts_S1x128_S128,
    StableHlo.nullary main_cst_12 (constant S_ .f32 0x00000000#32),
    StableHlo.binary main_v97 main_cst_12 main_v102 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v103 (broadcastInDim S128 ![] bcast_S_S128 : (⟨S_, .f32⟩ : BufTy).Contents (Elt F) → (⟨S128, .f32⟩ : BufTy).Contents (Elt F)) ]

set_option maxRecDepth 8192 in
set_option maxHeartbeats 4000000 in
/-- The window is that straight line: the called functions unfold at their calls and sequencing reassociates. -/
theorem main_part1_eq (c : Dev nD) : main_part1 (F := F) c = seq ops1 := by
  simp only [main_part1, fn_var.body, fn_where.body, fn_relu.body, fn_log_softmax.body, seq, bind_assoc, pure_bind]
  rfl

set_option maxRecDepth 8192 in
/-- Every operation of the window touches TensorCore buffers only. -/
theorem ops1_sub : (ops1 : List (HloOp τ sig (Elt F))).Forall fun op => op.bufs ⊆ tcRefs τ sig :=
  ⟨unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub ..⟩

set_option maxRecDepth 8192 in
/-- No operation of the window allocates. -/
theorem ops1_fresh : ∀ op ∈ (ops1 : List (HloOp τ sig (Elt F))), op.fresh = ∅ :=
  List.forall_iff_forall_mem.mp (show (ops1 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev ops1_W : List (Ref sig .tc) := [main_v53, main_v54, main_v55, main_v56, main_v57, main_v58, main_cst_5, main_v59, main_cst_6, main_v60, main_v61, main_c_7, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v63, main_v64, main_v65, main_cst_8, main_v66, main_v67, main_v68, main_v69, main_v70, main_v71, main_v72, main_v73, main_v74, main_v75, main_v76, main_v77, main_call3.cst.ref, main_call3.v0.ref, main_call3.v1.ref, main_c_9, main_v79, main_v80, main_c_10, main_v81, main_v82, main_v83, main_v84, main_v85, main_cst_11, main_v86, main_v87, main_v88, main_v89, main_v90, main_v91, main_v92, main_v93, main_v94, main_v95, main_v96, main_v97, main_v98, main_v99, main_v100, main_v101, main_cst_12, main_v102, main_cst_13, main_v103]

set_option maxRecDepth 8192 in
set_option maxHeartbeats 4000000 in
/-- Each operation of the window writes its one result buffer, which is listed. -/
theorem ops1_writes : (ops1 : List (HloOp τ sig (Elt F))).Forall fun op =>
    op.writes ⊆ (ops1_W.map (Proc.devRef (τ := τ) .tc)).toFinset :=
  ⟨writes_sub_of_mem (y := main_v53) (by decide),
    writes_sub_of_mem (y := main_v54) (by decide),
    writes_sub_of_mem (y := main_v55) (by decide),
    writes_sub_of_mem (y := main_v56) (by decide),
    writes_sub_of_mem (y := main_v57) (by decide),
    writes_sub_of_mem (y := main_v58) (by decide),
    writes_sub_of_mem (y := main_cst_5) (by decide),
    writes_sub_of_mem (y := main_v59) (by decide),
    writes_sub_of_mem (y := main_cst_6) (by decide),
    writes_sub_of_mem (y := main_v60) (by decide),
    writes_sub_of_mem (y := main_v61) (by decide),
    writes_sub_of_mem (y := main_c_7) (by decide),
    writes_sub_of_mem (y := main_call2.cst.ref) (by decide),
    writes_sub_of_mem (y := main_call2.v0.ref) (by decide),
    writes_sub_of_mem (y := main_call2.v1.ref) (by decide),
    writes_sub_of_mem (y := main_call2.cst_0.ref) (by decide),
    writes_sub_of_mem (y := main_call2.v2.ref) (by decide),
    writes_sub_of_mem (y := main_call2.v3.ref) (by decide),
    writes_sub_of_mem (y := main_call2.v4.ref) (by decide),
    writes_sub_of_mem (y := main_call2.v5.ref) (by decide),
    writes_sub_of_mem (y := main_call2.v6.ref) (by decide),
    writes_sub_of_mem (y := main_call2.v7.ref) (by decide),
    writes_sub_of_mem (y := main_call2.cst_1.ref) (by decide),
    writes_sub_of_mem (y := main_call2.v8.ref) (by decide),
    writes_sub_of_mem (y := main_call2.cst_2.ref) (by decide),
    writes_sub_of_mem (y := main_call2.v9.ref) (by decide),
    writes_sub_of_mem (y := main_call2.v10.ref) (by decide),
    writes_sub_of_mem (y := main_call2.v11.ref) (by decide),
    writes_sub_of_mem (y := main_call2.cst_3.ref) (by decide),
    writes_sub_of_mem (y := main_call2.v12.ref) (by decide),
    writes_sub_of_mem (y := main_call2.cst_4.ref) (by decide),
    writes_sub_of_mem (y := main_call2.call0.v0.ref) (by decide),
    writes_sub_of_mem (y := main_call2.call0.v1.ref) (by decide),
    writes_sub_of_mem (y := main_call2.call0.v2.ref) (by decide),
    writes_sub_of_mem (y := main_v63) (by decide),
    writes_sub_of_mem (y := main_v64) (by decide),
    writes_sub_of_mem (y := main_v65) (by decide),
    writes_sub_of_mem (y := main_cst_8) (by decide),
    writes_sub_of_mem (y := main_v66) (by decide),
    writes_sub_of_mem (y := main_v67) (by decide),
    writes_sub_of_mem (y := main_v68) (by decide),
    writes_sub_of_mem (y := main_v69) (by decide),
    writes_sub_of_mem (y := main_v70) (by decide),
    writes_sub_of_mem (y := main_v71) (by decide),
    writes_sub_of_mem (y := main_v72) (by decide),
    writes_sub_of_mem (y := main_v73) (by decide),
    writes_sub_of_mem (y := main_v74) (by decide),
    writes_sub_of_mem (y := main_v75) (by decide),
    writes_sub_of_mem (y := main_v76) (by decide),
    writes_sub_of_mem (y := main_v77) (by decide),
    writes_sub_of_mem (y := main_call3.cst.ref) (by decide),
    writes_sub_of_mem (y := main_call3.v0.ref) (by decide),
    writes_sub_of_mem (y := main_call3.v1.ref) (by decide),
    writes_sub_of_mem (y := main_c_9) (by decide),
    writes_sub_of_mem (y := main_v79) (by decide),
    writes_sub_of_mem (y := main_v80) (by decide),
    writes_sub_of_mem (y := main_c_10) (by decide),
    writes_sub_of_mem (y := main_v81) (by decide),
    writes_sub_of_mem (y := main_v82) (by decide),
    writes_sub_of_mem (y := main_v83) (by decide),
    writes_sub_of_mem (y := main_v84) (by decide),
    writes_sub_of_mem (y := main_v85) (by decide),
    writes_sub_of_mem (y := main_cst_11) (by decide),
    writes_sub_of_mem (y := main_v86) (by decide),
    writes_sub_of_mem (y := main_v87) (by decide),
    writes_sub_of_mem (y := main_v88) (by decide),
    writes_sub_of_mem (y := main_v89) (by decide),
    writes_sub_of_mem (y := main_v90) (by decide),
    writes_sub_of_mem (y := main_v91) (by decide),
    writes_sub_of_mem (y := main_v92) (by decide),
    writes_sub_of_mem (y := main_v93) (by decide),
    writes_sub_of_mem (y := main_v94) (by decide),
    writes_sub_of_mem (y := main_v95) (by decide),
    writes_sub_of_mem (y := main_v96) (by decide),
    writes_sub_of_mem (y := main_v97) (by decide),
    writes_sub_of_mem (y := main_v98) (by decide),
    writes_sub_of_mem (y := main_v99) (by decide),
    writes_sub_of_mem (y := main_v100) (by decide),
    writes_sub_of_mem (y := main_v101) (by decide),
    writes_sub_of_mem (y := main_cst_12) (by decide),
    writes_sub_of_mem (y := main_v102) (by decide),
    writes_sub_of_mem (y := main_cst_13) (by decide),
    writes_sub_of_mem (y := main_v103) (by decide)⟩

/-- A buffer the window does not write keeps its contents through it. -/
theorem keep1 (V : Valuation τ sig (Elt F)) (r : Ref sig .tc) (h : r ∉ ops1_W) :
    after ops1 V (Proc.devRef .tc r) = V (Proc.devRef .tc r) :=
  after_of_writes_sub ops1 V ops1_writes h

end Cert.ReferenceIdeal.RefRun

end
-- ==== Proof.RefRun.W2.lean ====
import proofs.«102976_j3633542332749_1_alg».proof.Proof.Gen.ReferenceIdeal
import Idealize.ShloMosaic.Lib.StableHlo.Run
import proofs.«102976_j3633542332749_1_alg».proof.Proof.RefRun.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 2 of the reference's entry function, in order, each called function's operations standing
    in the call's place over that call's buffers. -/
abbrev ops2 : List (HloOp τ sig (Elt F)) :=
  [ StableHlo.binary main_v102 main_v103 main_v104 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call4.cst (constant S_ .f32 0x00000000#32),
    StableHlo.TRef.binary (TRef.of (T := ⟨S50000x128, .f32⟩) main_v97) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (TRef.of (T := ⟨S50000x128, .f32⟩) main_v97) main_call4.v4 main_call4.v5 subf,
    StableHlo.TRef.binary main_call4.v5 main_call4.v5 main_call4.v6 mulf,
    StableHlo.TRef.unary (TRef.of (T := ⟨S_, .i32⟩) main_c_14) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v104 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S50000x128 ![0, 1] bcast_S1x128_S50000x128_0_1 : (⟨S1x128, .f32⟩ : BufTy).Contents (Elt F) → (⟨S50000x128, .f32⟩ : BufTy).Contents (Elt F)),
    StableHlo.binary main_v97 main_v107 main_v108 (subf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v109 (broadcastInDim S128 ![] bcast_S_S128 : (⟨S_, .f32⟩ : BufTy).Contents (Elt F) → (⟨S128, .f32⟩ : BufTy).Contents (Elt F)),
    StableHlo.binary main_v105 main_v109 main_v110 (addf : (⟨S128, .f32⟩ : BufTy).Contents (Elt F) → (⟨S128, .f32⟩ : BufTy).Contents (Elt F) → (⟨S128, .f32⟩ : BufTy).Contents (Elt F)),
    StableHlo.unary main_v110 main_v111 (Host.rsqrt : (⟨S128, .f32⟩ : BufTy).Contents (Elt F) → (⟨S128, .f32⟩ : BufTy).Contents (Elt F)),
    StableHlo.unary main_v111 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v108 main_v113 main_v114 (mulf : (⟨S50000x128, .f32⟩ : BufTy).Contents (Elt F) → (⟨S50000x128, .f32⟩ : BufTy).Contents (Elt F) → (⟨S50000x128, .f32⟩ : BufTy).Contents (Elt F)),
    StableHlo.unary main_v99 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v116 main_v117 (mulf : (⟨S50000x128, .f32⟩ : BufTy).Contents (Elt F) → (⟨S50000x128, .f32⟩ : BufTy).Contents (Elt F) → (⟨S50000x128, .f32⟩ : BufTy).Contents (Elt F)),
    StableHlo.unary main_v101 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v119 main_v120 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (TRef.of (T := ⟨S50000x128, .f32⟩) main_v120) main_call5.v0 main_call5.v1 maximumf,
    StableHlo.unary main_arg5 main_v122 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v122 main_v123 rfl shapeCasts_S1x128x128_S128x128,
    StableHlo.binary main_v121 main_v123 main_v124 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v125 ((extractStridedSlice S1x128 ![1, 0] · slices_S4x128_S1x128_1_0) : (⟨S4x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v128 main_v129 (addf : (⟨S50000x128, .f32⟩ : BufTy).Contents (Elt F) → (⟨S50000x128, .f32⟩ : BufTy).Contents (Elt F) → (⟨S50000x128, .f32⟩ : BufTy).Contents (Elt F)),
    StableHlo.unary main_arg9 main_v130 ((extractStridedSlice S1x128 ![1, 0] · slices_S4x128_S1x128_1_0) : (⟨S4x128, .f32⟩ : BufTy).Contents (Elt F) → (⟨S1x128, .f32⟩ : BufTy).Contents (Elt F)),
    StableHlo.reshape main_v130 main_v131 rfl shapeCasts_S1x128_S128,
    StableHlo.unary main_arg10 main_v132 ((extractStridedSlice S1x128 ![1, 0] · slices_S4x128_S1x128_1_0) : (⟨S4x128, .f32⟩ : BufTy).Contents (Elt F) → (⟨S1x128, .f32⟩ : BufTy).Contents (Elt F)),
    StableHlo.reshape main_v132 main_v133 rfl shapeCasts_S1x128_S128,
    StableHlo.nullary main_cst_16 (constant S_ .f32 0x00000000#32),
    StableHlo.binary main_v129 main_cst_16 main_v134 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v135 (broadcastInDim S128 ![] bcast_S_S128 : (⟨S_, .f32⟩ : BufTy).Contents (Elt F) → (⟨S128, .f32⟩ : BufTy).Contents (Elt F)),
    StableHlo.binary main_v134 main_v135 main_v136 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call6.cst (constant S_ .f32 0x00000000#32),
    StableHlo.TRef.binary (TRef.of (T := ⟨S50000x128, .f32⟩) main_v129) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (TRef.of (T := ⟨S50000x128, .f32⟩) main_v129) main_call6.v4 main_call6.v5 subf,
    StableHlo.TRef.binary main_call6.v5 main_call6.v5 main_call6.v6 mulf,
    StableHlo.TRef.unary (TRef.of (T := ⟨S_, .i32⟩) main_c_18) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v136 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v139 main_v140 (subf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v141 (broadcastInDim S128 ![] bcast_S_S128 : (⟨S_, .f32⟩ : BufTy).Contents (Elt F) → (⟨S128, .f32⟩ : BufTy).Contents (Elt F)),
    StableHlo.binary main_v137 main_v141 main_v142 (addf : (⟨S128, .f32⟩ : BufTy).Contents (Elt F) → (⟨S128, .f32⟩ : BufTy).Contents (Elt F) → (⟨S128, .f32⟩ : BufTy).Contents (Elt F)),
    StableHlo.unary main_v142 main_v143 (Host.rsqrt : (⟨S128, .f32⟩ : BufTy).Contents (Elt F) → (⟨S128, .f32⟩ : BufTy).Contents (Elt F)),
    StableHlo.unary main_v143 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S50000x128 ![0, 1] bcast_S1x128_S50000x128_0_1 : (⟨S1x128, .f32⟩ : BufTy).Contents (Elt F) → (⟨S50000x128, .f32⟩ : BufTy).Contents (Elt F)),
    StableHlo.binary main_v140 main_v145 main_v146 (mulf : (⟨S50000x128, .f32⟩ : BufTy).Contents (Elt F) → (⟨S50000x128, .f32⟩ : BufTy).Contents (Elt F) → (⟨S50000x128, .f32⟩ : BufTy).Contents (Elt F)),
    StableHlo.unary main_v131 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S50000x128 ![0, 1] bcast_S1x128_S50000x128_0_1 : (⟨S1x128, .f32⟩ : BufTy).Contents (Elt F) → (⟨S50000x128, .f32⟩ : BufTy).Contents (Elt F)),
    StableHlo.binary main_v146 main_v148 main_v149 (mulf : (⟨S50000x128, .f32⟩ : BufTy).Contents (Elt F) → (⟨S50000x128, .f32⟩ : BufTy).Contents (Elt F) → (⟨S50000x128, .f32⟩ : BufTy).Contents (Elt F)),
    StableHlo.unary main_v133 main_v150 (broadcastInDim S1x128 ![1] bcast_S128_S1x128_1 : (⟨S128, .f32⟩ : BufTy).Contents (Elt F) → (⟨S1x128, .f32⟩ : BufTy).Contents (Elt F)),
    StableHlo.unary main_v150 main_v151 (broadcastInDim S50000x128 ![0, 1] bcast_S1x128_S50000x128_0_1 : (⟨S1x128, .f32⟩ : BufTy).Contents (Elt F) → (⟨S50000x128, .f32⟩ : BufTy).Contents (Elt F)),
    StableHlo.binary main_v149 main_v151 main_v152 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (TRef.of (T := ⟨S50000x128, .f32⟩) main_v152) main_call7.v0 main_call7.v1 maximumf,
    StableHlo.nullary main_c_20 (constantI S_ 32 0#32),
    StableHlo.unary main_c_20 main_v154 (broadcastInDim S600000 ![] bcast_S_S600000 : (⟨S_, .i32⟩ : BufTy).Contents (Elt F) → (⟨S600000, .i32⟩ : BufTy).Contents (Elt F)),
    StableHlo.binary main_v1 main_v154 main_v155 (cmpi .slt : (⟨S600000, .i32⟩ : BufTy).Contents (Elt F) → (⟨S600000, .i32⟩ : BufTy).Contents (Elt F) → (⟨S600000, .i1⟩ : BufTy).Contents (Elt F)),
    StableHlo.nullary main_c_21 (constantI S_ 32 50000#32) ]

set_option maxRecDepth 8192 in
set_option maxHeartbeats 4000000 in
/-- The window is that straight line: the called functions unfold at their calls and sequencing reassociates. -/
theorem main_part2_eq (c : Dev nD) : main_part2 (F := F) c = seq ops2 := by
  simp only [main_part2, fn_var.body, fn_where.body, fn_relu.body, fn_log_softmax.body, seq, bind_assoc, pure_bind]
  rfl

set_option maxRecDepth 8192 in
/-- Every operation of the window touches TensorCore buffers only. -/
theorem ops2_sub : (ops2 : List (HloOp τ sig (Elt F))).Forall fun op => op.bufs ⊆ tcRefs τ sig :=
  ⟨binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub ..⟩

set_option maxRecDepth 8192 in
/-- No operation of the window allocates. -/
theorem ops2_fresh : ∀ op ∈ (ops2 : List (HloOp τ sig (Elt F))), op.fresh = ∅ :=
  List.forall_iff_forall_mem.mp (show (ops2 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev ops2_W : List (Ref sig .tc) := [main_v104, main_c_14, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v106, main_v107, main_v108, main_cst_15, main_v109, main_v110, main_v111, main_v112, main_v113, main_v114, main_v115, main_v116, main_v117, main_v118, main_v119, main_v120, main_call5.cst.ref, main_call5.v0.ref, main_call5.v1.ref, main_v122, main_v123, main_v124, main_v125, main_v126, main_v127, main_v128, main_v129, main_v130, main_v131, main_v132, main_v133, main_cst_16, main_v134, main_cst_17, main_v135, main_v136, main_c_18, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref, main_v138, main_v139, main_v140, main_cst_19, main_v141, main_v142, main_v143, main_v144, main_v145, main_v146, main_v147, main_v148, main_v149, main_v150, main_v151, main_v152, main_call7.cst.ref, main_call7.v0.ref, main_call7.v1.ref, main_c_20, main_v154, main_v155, main_c_21]

set_option maxRecDepth 8192 in
set_option maxHeartbeats 4000000 in
/-- Each operation of the window writes its one result buffer, which is listed. -/
theorem ops2_writes : (ops2 : List (HloOp τ sig (Elt F))).Forall fun op =>
    op.writes ⊆ (ops2_W.map (Proc.devRef (τ := τ) .tc)).toFinset :=
  ⟨writes_sub_of_mem (y := main_v104) (by decide),
    writes_sub_of_mem (y := main_c_14) (by decide),
    writes_sub_of_mem (y := main_call4.cst.ref) (by decide),
    writes_sub_of_mem (y := main_call4.v0.ref) (by decide),
    writes_sub_of_mem (y := main_call4.v1.ref) (by decide),
    writes_sub_of_mem (y := main_call4.cst_0.ref) (by decide),
    writes_sub_of_mem (y := main_call4.v2.ref) (by decide),
    writes_sub_of_mem (y := main_call4.v3.ref) (by decide),
    writes_sub_of_mem (y := main_call4.v4.ref) (by decide),
    writes_sub_of_mem (y := main_call4.v5.ref) (by decide),
    writes_sub_of_mem (y := main_call4.v6.ref) (by decide),
    writes_sub_of_mem (y := main_call4.v7.ref) (by decide),
    writes_sub_of_mem (y := main_call4.cst_1.ref) (by decide),
    writes_sub_of_mem (y := main_call4.v8.ref) (by decide),
    writes_sub_of_mem (y := main_call4.cst_2.ref) (by decide),
    writes_sub_of_mem (y := main_call4.v9.ref) (by decide),
    writes_sub_of_mem (y := main_call4.v10.ref) (by decide),
    writes_sub_of_mem (y := main_call4.v11.ref) (by decide),
    writes_sub_of_mem (y := main_call4.cst_3.ref) (by decide),
    writes_sub_of_mem (y := main_call4.v12.ref) (by decide),
    writes_sub_of_mem (y := main_call4.cst_4.ref) (by decide),
    writes_sub_of_mem (y := main_call4.call0.v0.ref) (by decide),
    writes_sub_of_mem (y := main_call4.call0.v1.ref) (by decide),
    writes_sub_of_mem (y := main_call4.call0.v2.ref) (by decide),
    writes_sub_of_mem (y := main_v106) (by decide),
    writes_sub_of_mem (y := main_v107) (by decide),
    writes_sub_of_mem (y := main_v108) (by decide),
    writes_sub_of_mem (y := main_cst_15) (by decide),
    writes_sub_of_mem (y := main_v109) (by decide),
    writes_sub_of_mem (y := main_v110) (by decide),
    writes_sub_of_mem (y := main_v111) (by decide),
    writes_sub_of_mem (y := main_v112) (by decide),
    writes_sub_of_mem (y := main_v113) (by decide),
    writes_sub_of_mem (y := main_v114) (by decide),
    writes_sub_of_mem (y := main_v115) (by decide),
    writes_sub_of_mem (y := main_v116) (by decide),
    writes_sub_of_mem (y := main_v117) (by decide),
    writes_sub_of_mem (y := main_v118) (by decide),
    writes_sub_of_mem (y := main_v119) (by decide),
    writes_sub_of_mem (y := main_v120) (by decide),
    writes_sub_of_mem (y := main_call5.cst.ref) (by decide),
    writes_sub_of_mem (y := main_call5.v0.ref) (by decide),
    writes_sub_of_mem (y := main_call5.v1.ref) (by decide),
    writes_sub_of_mem (y := main_v122) (by decide),
    writes_sub_of_mem (y := main_v123) (by decide),
    writes_sub_of_mem (y := main_v124) (by decide),
    writes_sub_of_mem (y := main_v125) (by decide),
    writes_sub_of_mem (y := main_v126) (by decide),
    writes_sub_of_mem (y := main_v127) (by decide),
    writes_sub_of_mem (y := main_v128) (by decide),
    writes_sub_of_mem (y := main_v129) (by decide),
    writes_sub_of_mem (y := main_v130) (by decide),
    writes_sub_of_mem (y := main_v131) (by decide),
    writes_sub_of_mem (y := main_v132) (by decide),
    writes_sub_of_mem (y := main_v133) (by decide),
    writes_sub_of_mem (y := main_cst_16) (by decide),
    writes_sub_of_mem (y := main_v134) (by decide),
    writes_sub_of_mem (y := main_cst_17) (by decide),
    writes_sub_of_mem (y := main_v135) (by decide),
    writes_sub_of_mem (y := main_v136) (by decide),
    writes_sub_of_mem (y := main_c_18) (by decide),
    writes_sub_of_mem (y := main_call6.cst.ref) (by decide),
    writes_sub_of_mem (y := main_call6.v0.ref) (by decide),
    writes_sub_of_mem (y := main_call6.v1.ref) (by decide),
    writes_sub_of_mem (y := main_call6.cst_0.ref) (by decide),
    writes_sub_of_mem (y := main_call6.v2.ref) (by decide),
    writes_sub_of_mem (y := main_call6.v3.ref) (by decide),
    writes_sub_of_mem (y := main_call6.v4.ref) (by decide),
    writes_sub_of_mem (y := main_call6.v5.ref) (by decide),
    writes_sub_of_mem (y := main_call6.v6.ref) (by decide),
    writes_sub_of_mem (y := main_call6.v7.ref) (by decide),
    writes_sub_of_mem (y := main_call6.cst_1.ref) (by decide),
    writes_sub_of_mem (y := main_call6.v8.ref) (by decide),
    writes_sub_of_mem (y := main_call6.cst_2.ref) (by decide),
    writes_sub_of_mem (y := main_call6.v9.ref) (by decide),
    writes_sub_of_mem (y := main_call6.v10.ref) (by decide),
    writes_sub_of_mem (y := main_call6.v11.ref) (by decide),
    writes_sub_of_mem (y := main_call6.cst_3.ref) (by decide),
    writes_sub_of_mem (y := main_call6.v12.ref) (by decide),
    writes_sub_of_mem (y := main_call6.cst_4.ref) (by decide),
    writes_sub_of_mem (y := main_call6.call0.v0.ref) (by decide),
    writes_sub_of_mem (y := main_call6.call0.v1.ref) (by decide),
    writes_sub_of_mem (y := main_call6.call0.v2.ref) (by decide),
    writes_sub_of_mem (y := main_v138) (by decide),
    writes_sub_of_mem (y := main_v139) (by decide),
    writes_sub_of_mem (y := main_v140) (by decide),
    writes_sub_of_mem (y := main_cst_19) (by decide),
    writes_sub_of_mem (y := main_v141) (by decide),
    writes_sub_of_mem (y := main_v142) (by decide),
    writes_sub_of_mem (y := main_v143) (by decide),
    writes_sub_of_mem (y := main_v144) (by decide),
    writes_sub_of_mem (y := main_v145) (by decide),
    writes_sub_of_mem (y := main_v146) (by decide),
    writes_sub_of_mem (y := main_v147) (by decide),
    writes_sub_of_mem (y := main_v148) (by decide),
    writes_sub_of_mem (y := main_v149) (by decide),
    writes_sub_of_mem (y := main_v150) (by decide),
    writes_sub_of_mem (y := main_v151) (by decide),
    writes_sub_of_mem (y := main_v152) (by decide),
    writes_sub_of_mem (y := main_call7.cst.ref) (by decide),
    writes_sub_of_mem (y := main_call7.v0.ref) (by decide),
    writes_sub_of_mem (y := main_call7.v1.ref) (by decide),
    writes_sub_of_mem (y := main_c_20) (by decide),
    writes_sub_of_mem (y := main_v154) (by decide),
    writes_sub_of_mem (y := main_v155) (by decide),
    writes_sub_of_mem (y := main_c_21) (by decide)⟩

/-- A buffer the window does not write keeps its contents through it. -/
theorem keep2 (V : Valuation τ sig (Elt F)) (r : Ref sig .tc) (h : r ∉ ops2_W) :
    after ops2 V (Proc.devRef .tc r) = V (Proc.devRef .tc r) :=
  after_of_writes_sub ops2 V ops2_writes h

end Cert.ReferenceIdeal.RefRun

end
-- ==== Proof.RefRun.W3.lean ====
import proofs.«102976_j3633542332749_1_alg».proof.Proof.Gen.ReferenceIdeal
import Idealize.ShloMosaic.Lib.StableHlo.Run
import proofs.«102976_j3633542332749_1_alg».proof.Proof.RefRun.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 3 of the reference's entry function, in order, each called function's operations standing
    in the call's place over that call's buffers. -/
abbrev ops3 : List (HloOp τ sig (Elt F)) :=
  [ StableHlo.unary main_c_21 main_v156 (broadcastInDim S600000 ![] bcast_S_S600000 : (⟨S_, .i32⟩ : BufTy).Contents (Elt F) → (⟨S600000, .i32⟩ : BufTy).Contents (Elt F)),
    StableHlo.binary main_v1 main_v156 main_v157 (addi : (⟨S600000, .i32⟩ : BufTy).Contents (Elt F) → (⟨S600000, .i32⟩ : BufTy).Contents (Elt F) → (⟨S600000, .i32⟩ : BufTy).Contents (Elt F)),
    StableHlo.ternary main_v155 main_v157 main_v1 main_v158 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v158 main_v159 (broadcastInDim S600000x1 ![0] bcast_S600000_S600000x1_0 : (⟨S600000, .i32⟩ : BufTy).Contents (Elt F) → (⟨S600000x1, .i32⟩ : BufTy).Contents (Elt F)),
    StableHlo.binary main_v153 main_v159 main_v160 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_22 (constant S_ .f32 0x00000000#32),
    StableHlo.unary main_cst_22 main_v161 (broadcastInDim S50000x128 ![] bcast_S_S50000x128 : (⟨S_, .f32⟩ : BufTy).Contents (Elt F) → (⟨S50000x128, .f32⟩ : BufTy).Contents (Elt F)),
    StableHlo.unary main_v3 main_v162 (broadcastInDim S600000x1 ![0] bcast_S600000_S600000x1_0 : (⟨S600000, .i32⟩ : BufTy).Contents (Elt F) → (⟨S600000x1, .i32⟩ : BufTy).Contents (Elt F)),
    StableHlo.ternary main_v161 main_v162 main_v160 main_v163 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v153 main_v163 main_v164 (addf : (⟨S50000x128, .f32⟩ : BufTy).Contents (Elt F) → (⟨S50000x128, .f32⟩ : BufTy).Contents (Elt F) → (⟨S50000x128, .f32⟩ : BufTy).Contents (Elt F)),
    StableHlo.unary main_arg3 main_v165 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v165 main_v166 rfl shapeCasts_S1x128x128_S128x128,
    StableHlo.binary main_v164 main_v166 main_v167 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v168 ((extractStridedSlice S1x128 ![2, 0] · slices_S4x128_S1x128_2_0) : (⟨S4x128, .f32⟩ : BufTy).Contents (Elt F) → (⟨S1x128, .f32⟩ : BufTy).Contents (Elt F)),
    StableHlo.reshape main_v168 main_v169 rfl shapeCasts_S1x128_S128,
    StableHlo.unary main_v169 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S50000x128 ![0, 1] bcast_S1x128_S50000x128_0_1 : (⟨S1x128, .f32⟩ : BufTy).Contents (Elt F) → (⟨S50000x128, .f32⟩ : BufTy).Contents (Elt F)),
    StableHlo.binary main_v167 main_v171 main_v172 (addf : (⟨S50000x128, .f32⟩ : BufTy).Contents (Elt F) → (⟨S50000x128, .f32⟩ : BufTy).Contents (Elt F) → (⟨S50000x128, .f32⟩ : BufTy).Contents (Elt F)),
    StableHlo.unary main_arg7 main_v173 ((extractStridedSlice S1x128 ![2, 0] · slices_S4x128_S1x128_2_0) : (⟨S4x128, .f32⟩ : BufTy).Contents (Elt F) → (⟨S1x128, .f32⟩ : BufTy).Contents (Elt F)),
    StableHlo.reshape main_v173 main_v174 rfl shapeCasts_S1x128_S128,
    StableHlo.unary main_arg8 main_v175 ((extractStridedSlice S1x128 ![2, 0] · slices_S4x128_S1x128_2_0) : (⟨S4x128, .f32⟩ : BufTy).Contents (Elt F) → (⟨S1x128, .f32⟩ : BufTy).Contents (Elt F)),
    StableHlo.reshape main_v175 main_v176 rfl shapeCasts_S1x128_S128,
    StableHlo.nullary main_cst_23 (constant S_ .f32 0x00000000#32),
    StableHlo.binary main_v172 main_cst_23 main_v177 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_24 (constant S_ .f32 0x47435000#32),
    StableHlo.unary main_cst_24 main_v178 (broadcastInDim S128 ![] bcast_S_S128 : (⟨S_, .f32⟩ : BufTy).Contents (Elt F) → (⟨S128, .f32⟩ : BufTy).Contents (Elt F)),
    StableHlo.binary main_v177 main_v178 main_v179 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call8.cst (constant S_ .f32 0x00000000#32),
    StableHlo.TRef.binary (TRef.of (T := ⟨S50000x128, .f32⟩) main_v172) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (TRef.of (T := ⟨S50000x128, .f32⟩) main_v172) main_call8.v4 main_call8.v5 subf,
    StableHlo.TRef.binary main_call8.v5 main_call8.v5 main_call8.v6 mulf,
    StableHlo.TRef.unary (TRef.of (T := ⟨S_, .i32⟩) main_c_25) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v179 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S50000x128 ![0, 1] bcast_S1x128_S50000x128_0_1 : (⟨S1x128, .f32⟩ : BufTy).Contents (Elt F) → (⟨S50000x128, .f32⟩ : BufTy).Contents (Elt F)),
    StableHlo.binary main_v172 main_v182 main_v183 (subf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3727C5AC#32),
    StableHlo.unary main_cst_26 main_v184 (broadcastInDim S128 ![] bcast_S_S128 : (⟨S_, .f32⟩ : BufTy).Contents (Elt F) → (⟨S128, .f32⟩ : BufTy).Contents (Elt F)),
    StableHlo.binary main_v180 main_v184 main_v185 (addf : (⟨S128, .f32⟩ : BufTy).Contents (Elt F) → (⟨S128, .f32⟩ : BufTy).Contents (Elt F) → (⟨S128, .f32⟩ : BufTy).Contents (Elt F)),
    StableHlo.unary main_v185 main_v186 (Host.rsqrt : (⟨S128, .f32⟩ : BufTy).Contents (Elt F) → (⟨S128, .f32⟩ : BufTy).Contents (Elt F)),
    StableHlo.unary main_v186 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S50000x128 ![0, 1] bcast_S1x128_S50000x128_0_1 : (⟨S1x128, .f32⟩ : BufTy).Contents (Elt F) → (⟨S50000x128, .f32⟩ : BufTy).Contents (Elt F)),
    StableHlo.binary main_v183 main_v188 main_v189 (mulf : (⟨S50000x128, .f32⟩ : BufTy).Contents (Elt F) → (⟨S50000x128, .f32⟩ : BufTy).Contents (Elt F) → (⟨S50000x128, .f32⟩ : BufTy).Contents (Elt F)),
    StableHlo.unary main_v174 main_v190 (broadcastInDim S1x128 ![1] bcast_S128_S1x128_1 : (⟨S128, .f32⟩ : BufTy).Contents (Elt F) → (⟨S1x128, .f32⟩ : BufTy).Contents (Elt F)),
    StableHlo.unary main_v190 main_v191 (broadcastInDim S50000x128 ![0, 1] bcast_S1x128_S50000x128_0_1 : (⟨S1x128, .f32⟩ : BufTy).Contents (Elt F) → (⟨S50000x128, .f32⟩ : BufTy).Contents (Elt F)),
    StableHlo.binary main_v189 main_v191 main_v192 (mulf : (⟨S50000x128, .f32⟩ : BufTy).Contents (Elt F) → (⟨S50000x128, .f32⟩ : BufTy).Contents (Elt F) → (⟨S50000x128, .f32⟩ : BufTy).Contents (Elt F)),
    StableHlo.unary main_v176 main_v193 (broadcastInDim S1x128 ![1] bcast_S128_S1x128_1 : (⟨S128, .f32⟩ : BufTy).Contents (Elt F) → (⟨S1x128, .f32⟩ : BufTy).Contents (Elt F)),
    StableHlo.unary main_v193 main_v194 (broadcastInDim S50000x128 ![0, 1] bcast_S1x128_S50000x128_0_1 : (⟨S1x128, .f32⟩ : BufTy).Contents (Elt F) → (⟨S50000x128, .f32⟩ : BufTy).Contents (Elt F)),
    StableHlo.binary main_v192 main_v194 main_v195 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (TRef.of (T := ⟨S50000x128, .f32⟩) main_v195) main_call9.v0 main_call9.v1 maximumf,
    StableHlo.unary main_arg5 main_v197 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v197 main_v198 rfl shapeCasts_S1x128x128_S128x128,
    StableHlo.binary main_v196 main_v198 main_v199 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v200 ((extractStridedSlice S1x128 ![2, 0] · slices_S4x128_S1x128_2_0) : (⟨S4x128, .f32⟩ : BufTy).Contents (Elt F) → (⟨S1x128, .f32⟩ : BufTy).Contents (Elt F)),
    StableHlo.reshape main_v200 main_v201 rfl shapeCasts_S1x128_S128,
    StableHlo.unary main_v201 main_v202 (broadcastInDim S1x128 ![1] bcast_S128_S1x128_1 : (⟨S128, .f32⟩ : BufTy).Contents (Elt F) → (⟨S1x128, .f32⟩ : BufTy).Contents (Elt F)),
    StableHlo.unary main_v202 main_v203 (broadcastInDim S50000x128 ![0, 1] bcast_S1x128_S50000x128_0_1 : (⟨S1x128, .f32⟩ : BufTy).Contents (Elt F) → (⟨S50000x128, .f32⟩ : BufTy).Contents (Elt F)),
    StableHlo.binary main_v199 main_v203 main_v204 (addf : (⟨S50000x128, .f32⟩ : BufTy).Contents (Elt F) → (⟨S50000x128, .f32⟩ : BufTy).Contents (Elt F) → (⟨S50000x128, .f32⟩ : BufTy).Contents (Elt F)),
    StableHlo.unary main_arg9 main_v205 ((extractStridedSlice S1x128 ![2, 0] · slices_S4x128_S1x128_2_0) : (⟨S4x128, .f32⟩ : BufTy).Contents (Elt F) → (⟨S1x128, .f32⟩ : BufTy).Contents (Elt F)),
    StableHlo.reshape main_v205 main_v206 rfl shapeCasts_S1x128_S128,
    StableHlo.unary main_arg10 main_v207 ((extractStridedSlice S1x128 ![2, 0] · slices_S4x128_S1x128_2_0) : (⟨S4x128, .f32⟩ : BufTy).Contents (Elt F) → (⟨S1x128, .f32⟩ : BufTy).Contents (Elt F)),
    StableHlo.reshape main_v207 main_v208 rfl shapeCasts_S1x128_S128,
    StableHlo.nullary main_cst_27 (constant S_ .f32 0x00000000#32),
    StableHlo.binary main_v204 main_cst_27 main_v209 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ]

set_option maxRecDepth 8192 in
set_option maxHeartbeats 4000000 in
/-- The window is that straight line: the called functions unfold at their calls and sequencing reassociates. -/
theorem main_part3_eq (c : Dev nD) : main_part3 (F := F) c = seq ops3 := by
  simp only [main_part3, fn_var.body, fn_where.body, fn_relu.body, fn_log_softmax.body, seq, bind_assoc, pure_bind]
  rfl

set_option maxRecDepth 8192 in
/-- Every operation of the window touches TensorCore buffers only. -/
theorem ops3_sub : (ops3 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub ..⟩

set_option maxRecDepth 8192 in
/-- No operation of the window allocates. -/
theorem ops3_fresh : ∀ op ∈ (ops3 : List (HloOp τ sig (Elt F))), op.fresh = ∅ :=
  List.forall_iff_forall_mem.mp (show (ops3 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev ops3_W : List (Ref sig .tc) := [main_v156, main_v157, main_v158, main_v159, main_v160, main_cst_22, main_v161, main_v162, main_v163, main_v164, main_v165, main_v166, main_v167, main_v168, main_v169, main_v170, main_v171, main_v172, main_v173, main_v174, main_v175, main_v176, main_cst_23, main_v177, main_cst_24, main_v178, main_v179, main_c_25, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref, main_v181, main_v182, main_v183, main_cst_26, main_v184, main_v185, main_v186, main_v187, main_v188, main_v189, main_v190, main_v191, main_v192, main_v193, main_v194, main_v195, main_call9.cst.ref, main_call9.v0.ref, main_call9.v1.ref, main_v197, main_v198, main_v199, main_v200, main_v201, main_v202, main_v203, main_v204, main_v205, main_v206, main_v207, main_v208, main_cst_27, main_v209]

set_option maxRecDepth 8192 in
set_option maxHeartbeats 4000000 in
/-- Each operation of the window writes its one result buffer, which is listed. -/
theorem ops3_writes : (ops3 : List (HloOp τ sig (Elt F))).Forall fun op =>
    op.writes ⊆ (ops3_W.map (Proc.devRef (τ := τ) .tc)).toFinset :=
  ⟨writes_sub_of_mem (y := main_v156) (by decide),
    writes_sub_of_mem (y := main_v157) (by decide),
    writes_sub_of_mem (y := main_v158) (by decide),
    writes_sub_of_mem (y := main_v159) (by decide),
    writes_sub_of_mem (y := main_v160) (by decide),
    writes_sub_of_mem (y := main_cst_22) (by decide),
    writes_sub_of_mem (y := main_v161) (by decide),
    writes_sub_of_mem (y := main_v162) (by decide),
    writes_sub_of_mem (y := main_v163) (by decide),
    writes_sub_of_mem (y := main_v164) (by decide),
    writes_sub_of_mem (y := main_v165) (by decide),
    writes_sub_of_mem (y := main_v166) (by decide),
    writes_sub_of_mem (y := main_v167) (by decide),
    writes_sub_of_mem (y := main_v168) (by decide),
    writes_sub_of_mem (y := main_v169) (by decide),
    writes_sub_of_mem (y := main_v170) (by decide),
    writes_sub_of_mem (y := main_v171) (by decide),
    writes_sub_of_mem (y := main_v172) (by decide),
    writes_sub_of_mem (y := main_v173) (by decide),
    writes_sub_of_mem (y := main_v174) (by decide),
    writes_sub_of_mem (y := main_v175) (by decide),
    writes_sub_of_mem (y := main_v176) (by decide),
    writes_sub_of_mem (y := main_cst_23) (by decide),
    writes_sub_of_mem (y := main_v177) (by decide),
    writes_sub_of_mem (y := main_cst_24) (by decide),
    writes_sub_of_mem (y := main_v178) (by decide),
    writes_sub_of_mem (y := main_v179) (by decide),
    writes_sub_of_mem (y := main_c_25) (by decide),
    writes_sub_of_mem (y := main_call8.cst.ref) (by decide),
    writes_sub_of_mem (y := main_call8.v0.ref) (by decide),
    writes_sub_of_mem (y := main_call8.v1.ref) (by decide),
    writes_sub_of_mem (y := main_call8.cst_0.ref) (by decide),
    writes_sub_of_mem (y := main_call8.v2.ref) (by decide),
    writes_sub_of_mem (y := main_call8.v3.ref) (by decide),
    writes_sub_of_mem (y := main_call8.v4.ref) (by decide),
    writes_sub_of_mem (y := main_call8.v5.ref) (by decide),
    writes_sub_of_mem (y := main_call8.v6.ref) (by decide),
    writes_sub_of_mem (y := main_call8.v7.ref) (by decide),
    writes_sub_of_mem (y := main_call8.cst_1.ref) (by decide),
    writes_sub_of_mem (y := main_call8.v8.ref) (by decide),
    writes_sub_of_mem (y := main_call8.cst_2.ref) (by decide),
    writes_sub_of_mem (y := main_call8.v9.ref) (by decide),
    writes_sub_of_mem (y := main_call8.v10.ref) (by decide),
    writes_sub_of_mem (y := main_call8.v11.ref) (by decide),
    writes_sub_of_mem (y := main_call8.cst_3.ref) (by decide),
    writes_sub_of_mem (y := main_call8.v12.ref) (by decide),
    writes_sub_of_mem (y := main_call8.cst_4.ref) (by decide),
    writes_sub_of_mem (y := main_call8.call0.v0.ref) (by decide),
    writes_sub_of_mem (y := main_call8.call0.v1.ref) (by decide),
    writes_sub_of_mem (y := main_call8.call0.v2.ref) (by decide),
    writes_sub_of_mem (y := main_v181) (by decide),
    writes_sub_of_mem (y := main_v182) (by decide),
    writes_sub_of_mem (y := main_v183) (by decide),
    writes_sub_of_mem (y := main_cst_26) (by decide),
    writes_sub_of_mem (y := main_v184) (by decide),
    writes_sub_of_mem (y := main_v185) (by decide),
    writes_sub_of_mem (y := main_v186) (by decide),
    writes_sub_of_mem (y := main_v187) (by decide),
    writes_sub_of_mem (y := main_v188) (by decide),
    writes_sub_of_mem (y := main_v189) (by decide),
    writes_sub_of_mem (y := main_v190) (by decide),
    writes_sub_of_mem (y := main_v191) (by decide),
    writes_sub_of_mem (y := main_v192) (by decide),
    writes_sub_of_mem (y := main_v193) (by decide),
    writes_sub_of_mem (y := main_v194) (by decide),
    writes_sub_of_mem (y := main_v195) (by decide),
    writes_sub_of_mem (y := main_call9.cst.ref) (by decide),
    writes_sub_of_mem (y := main_call9.v0.ref) (by decide),
    writes_sub_of_mem (y := main_call9.v1.ref) (by decide),
    writes_sub_of_mem (y := main_v197) (by decide),
    writes_sub_of_mem (y := main_v198) (by decide),
    writes_sub_of_mem (y := main_v199) (by decide),
    writes_sub_of_mem (y := main_v200) (by decide),
    writes_sub_of_mem (y := main_v201) (by decide),
    writes_sub_of_mem (y := main_v202) (by decide),
    writes_sub_of_mem (y := main_v203) (by decide),
    writes_sub_of_mem (y := main_v204) (by decide),
    writes_sub_of_mem (y := main_v205) (by decide),
    writes_sub_of_mem (y := main_v206) (by decide),
    writes_sub_of_mem (y := main_v207) (by decide),
    writes_sub_of_mem (y := main_v208) (by decide),
    writes_sub_of_mem (y := main_cst_27) (by decide),
    writes_sub_of_mem (y := main_v209) (by decide)⟩

/-- A buffer the window does not write keeps its contents through it. -/
theorem keep3 (V : Valuation τ sig (Elt F)) (r : Ref sig .tc) (h : r ∉ ops3_W) :
    after ops3 V (Proc.devRef .tc r) = V (Proc.devRef .tc r) :=
  after_of_writes_sub ops3 V ops3_writes h

end Cert.ReferenceIdeal.RefRun

end
-- ==== Proof.RefRun.W4.lean ====
import proofs.«102976_j3633542332749_1_alg».proof.Proof.Gen.ReferenceIdeal
import Idealize.ShloMosaic.Lib.StableHlo.Run
import proofs.«102976_j3633542332749_1_alg».proof.Proof.RefRun.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 4 of the reference's entry function, in order, each called function's operations standing
    in the call's place over that call's buffers. -/
abbrev ops4 : List (HloOp τ sig (Elt F)) :=
  [ StableHlo.nullary main_cst_28 (constant S_ .f32 0x47435000#32),
    StableHlo.unary main_cst_28 main_v210 (broadcastInDim S128 ![] bcast_S_S128 : (⟨S_, .f32⟩ : BufTy).Contents (Elt F) → (⟨S128, .f32⟩ : BufTy).Contents (Elt F)),
    StableHlo.binary main_v209 main_v210 main_v211 (Host.divf : (⟨S128, .f32⟩ : BufTy).Contents (Elt F) → (⟨S128, .f32⟩ : BufTy).Contents (Elt F) → (⟨S128, .f32⟩ : BufTy).Contents (Elt F)),
    StableHlo.nullary main_c_29 (constantI S_ 32 0#32),
    StableHlo.TRef.nullary main_call10.cst (constant S_ .f32 0x00000000#32),
    StableHlo.TRef.binary (TRef.of (T := ⟨S50000x128, .f32⟩) main_v204) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (TRef.of (T := ⟨S50000x128, .f32⟩) main_v204) main_call10.v4 main_call10.v5 subf,
    StableHlo.TRef.binary main_call10.v5 main_call10.v5 main_call10.v6 mulf,
    StableHlo.TRef.unary (TRef.of (T := ⟨S_, .i32⟩) main_c_29) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v211 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S50000x128 ![0, 1] bcast_S1x128_S50000x128_0_1 : (⟨S1x128, .f32⟩ : BufTy).Contents (Elt F) → (⟨S50000x128, .f32⟩ : BufTy).Contents (Elt F)),
    StableHlo.binary main_v204 main_v214 main_v215 (subf : (⟨S50000x128, .f32⟩ : BufTy).Contents (Elt F) → (⟨S50000x128, .f32⟩ : BufTy).Contents (Elt F) → (⟨S50000x128, .f32⟩ : BufTy).Contents (Elt F)),
    StableHlo.nullary main_cst_30 (constant S_ .f32 0x3727C5AC#32),
    StableHlo.unary main_cst_30 main_v216 (broadcastInDim S128 ![] bcast_S_S128 : (⟨S_, .f32⟩ : BufTy).Contents (Elt F) → (⟨S128, .f32⟩ : BufTy).Contents (Elt F)),
    StableHlo.binary main_v212 main_v216 main_v217 (addf : (⟨S128, .f32⟩ : BufTy).Contents (Elt F) → (⟨S128, .f32⟩ : BufTy).Contents (Elt F) → (⟨S128, .f32⟩ : BufTy).Contents (Elt F)),
    StableHlo.unary main_v217 main_v218 (Host.rsqrt : (⟨S128, .f32⟩ : BufTy).Contents (Elt F) → (⟨S128, .f32⟩ : BufTy).Contents (Elt F)),
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S50000x128 ![0, 1] bcast_S1x128_S50000x128_0_1 : (⟨S1x128, .f32⟩ : BufTy).Contents (Elt F) → (⟨S50000x128, .f32⟩ : BufTy).Contents (Elt F)),
    StableHlo.binary main_v215 main_v220 main_v221 (mulf : (⟨S50000x128, .f32⟩ : BufTy).Contents (Elt F) → (⟨S50000x128, .f32⟩ : BufTy).Contents (Elt F) → (⟨S50000x128, .f32⟩ : BufTy).Contents (Elt F)),
    StableHlo.unary main_v206 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S50000x128 ![0, 1] bcast_S1x128_S50000x128_0_1 : (⟨S1x128, .f32⟩ : BufTy).Contents (Elt F) → (⟨S50000x128, .f32⟩ : BufTy).Contents (Elt F)),
    StableHlo.binary main_v221 main_v223 main_v224 (mulf : (⟨S50000x128, .f32⟩ : BufTy).Contents (Elt F) → (⟨S50000x128, .f32⟩ : BufTy).Contents (Elt F) → (⟨S50000x128, .f32⟩ : BufTy).Contents (Elt F)),
    StableHlo.unary main_v208 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S50000x128 ![0, 1] bcast_S1x128_S50000x128_0_1 : (⟨S1x128, .f32⟩ : BufTy).Contents (Elt F) → (⟨S50000x128, .f32⟩ : BufTy).Contents (Elt F)),
    StableHlo.binary main_v224 main_v226 main_v227 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (TRef.of (T := ⟨S50000x128, .f32⟩) main_v227) main_call11.v0 main_call11.v1 maximumf,
    StableHlo.nullary main_c_31 (constantI S_ 32 0#32),
    StableHlo.unary main_c_31 main_v229 (broadcastInDim S600000 ![] bcast_S_S600000 : (⟨S_, .i32⟩ : BufTy).Contents (Elt F) → (⟨S600000, .i32⟩ : BufTy).Contents (Elt F)),
    StableHlo.binary main_v1 main_v229 main_v230 (cmpi .slt : (⟨S600000, .i32⟩ : BufTy).Contents (Elt F) → (⟨S600000, .i32⟩ : BufTy).Contents (Elt F) → (⟨S600000, .i1⟩ : BufTy).Contents (Elt F)),
    StableHlo.nullary main_c_32 (constantI S_ 32 50000#32),
    StableHlo.unary main_c_32 main_v231 (broadcastInDim S600000 ![] bcast_S_S600000 : (⟨S_, .i32⟩ : BufTy).Contents (Elt F) → (⟨S600000, .i32⟩ : BufTy).Contents (Elt F)),
    StableHlo.binary main_v1 main_v231 main_v232 (addi : (⟨S600000, .i32⟩ : BufTy).Contents (Elt F) → (⟨S600000, .i32⟩ : BufTy).Contents (Elt F) → (⟨S600000, .i32⟩ : BufTy).Contents (Elt F)),
    StableHlo.ternary main_v230 main_v232 main_v1 main_v233 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v233 main_v234 (broadcastInDim S600000x1 ![0] bcast_S600000_S600000x1_0 : (⟨S600000, .i32⟩ : BufTy).Contents (Elt F) → (⟨S600000x1, .i32⟩ : BufTy).Contents (Elt F)),
    StableHlo.binary main_v228 main_v234 main_v235 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_33 (constant S_ .f32 0x00000000#32),
    StableHlo.unary main_cst_33 main_v236 (broadcastInDim S50000x128 ![] bcast_S_S50000x128 : (⟨S_, .f32⟩ : BufTy).Contents (Elt F) → (⟨S50000x128, .f32⟩ : BufTy).Contents (Elt F)),
    StableHlo.unary main_v3 main_v237 (broadcastInDim S600000x1 ![0] bcast_S600000_S600000x1_0 : (⟨S600000, .i32⟩ : BufTy).Contents (Elt F) → (⟨S600000x1, .i32⟩ : BufTy).Contents (Elt F)),
    StableHlo.ternary main_v236 main_v237 main_v235 main_v238 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v228 main_v238 main_v239 (addf : (⟨S50000x128, .f32⟩ : BufTy).Contents (Elt F) → (⟨S50000x128, .f32⟩ : BufTy).Contents (Elt F) → (⟨S50000x128, .f32⟩ : BufTy).Contents (Elt F)),
    StableHlo.unary main_arg3 main_v240 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v240 main_v241 rfl shapeCasts_S1x128x128_S128x128,
    StableHlo.binary main_v239 main_v241 main_v242 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v243 ((extractStridedSlice S1x128 ![3, 0] · slices_S4x128_S1x128_3_0) : (⟨S4x128, .f32⟩ : BufTy).Contents (Elt F) → (⟨S1x128, .f32⟩ : BufTy).Contents (Elt F)),
    StableHlo.reshape main_v243 main_v244 rfl shapeCasts_S1x128_S128,
    StableHlo.unary main_v244 main_v245 (broadcastInDim S1x128 ![1] bcast_S128_S1x128_1 : (⟨S128, .f32⟩ : BufTy).Contents (Elt F) → (⟨S1x128, .f32⟩ : BufTy).Contents (Elt F)),
    StableHlo.unary main_v245 main_v246 (broadcastInDim S50000x128 ![0, 1] bcast_S1x128_S50000x128_0_1 : (⟨S1x128, .f32⟩ : BufTy).Contents (Elt F) → (⟨S50000x128, .f32⟩ : BufTy).Contents (Elt F)),
    StableHlo.binary main_v242 main_v246 main_v247 (addf : (⟨S50000x128, .f32⟩ : BufTy).Contents (Elt F) → (⟨S50000x128, .f32⟩ : BufTy).Contents (Elt F) → (⟨S50000x128, .f32⟩ : BufTy).Contents (Elt F)),
    StableHlo.unary main_arg7 main_v248 ((extractStridedSlice S1x128 ![3, 0] · slices_S4x128_S1x128_3_0) : (⟨S4x128, .f32⟩ : BufTy).Contents (Elt F) → (⟨S1x128, .f32⟩ : BufTy).Contents (Elt F)),
    StableHlo.reshape main_v248 main_v249 rfl shapeCasts_S1x128_S128,
    StableHlo.unary main_arg8 main_v250 ((extractStridedSlice S1x128 ![3, 0] · slices_S4x128_S1x128_3_0) : (⟨S4x128, .f32⟩ : BufTy).Contents (Elt F) → (⟨S1x128, .f32⟩ : BufTy).Contents (Elt F)),
    StableHlo.reshape main_v250 main_v251 rfl shapeCasts_S1x128_S128,
    StableHlo.nullary main_cst_34 (constant S_ .f32 0x00000000#32),
    StableHlo.binary main_v247 main_cst_34 main_v252 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_35 (constant S_ .f32 0x47435000#32),
    StableHlo.unary main_cst_35 main_v253 (broadcastInDim S128 ![] bcast_S_S128 : (⟨S_, .f32⟩ : BufTy).Contents (Elt F) → (⟨S128, .f32⟩ : BufTy).Contents (Elt F)),
    StableHlo.binary main_v252 main_v253 main_v254 (Host.divf : (⟨S128, .f32⟩ : BufTy).Contents (Elt F) → (⟨S128, .f32⟩ : BufTy).Contents (Elt F) → (⟨S128, .f32⟩ : BufTy).Contents (Elt F)),
    StableHlo.nullary main_c_36 (constantI S_ 32 0#32),
    StableHlo.TRef.nullary main_call12.cst (constant S_ .f32 0x00000000#32),
    StableHlo.TRef.binary (TRef.of (T := ⟨S50000x128, .f32⟩) main_v247) main_call12.cst main_call12.v0 (fun x v => Host.reduceAdd x v reducesTo_S50000x128_S128_d0 h_S_),
    StableHlo.TRef.unary main_call12.v0 main_call12.v1 (broadcastInDim S1x128 ![1] bcast_S128_S1x128_1),
    StableHlo.TRef.nullary main_call12.cst_0 (constant S_ .f32 0x47435000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S50000x128 ![0, 1] bcast_S1x128_S50000x128_0_1),
    StableHlo.TRef.binary (TRef.of (T := ⟨S50000x128, .f32⟩) main_v247) main_call12.v4 main_call12.v5 subf,
    StableHlo.TRef.binary main_call12.v5 main_call12.v5 main_call12.v6 mulf,
    StableHlo.TRef.unary (TRef.of (T := ⟨S_, .i32⟩) main_c_36) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b),
    StableHlo.unary main_v254 main_v256 (broadcastInDim S1x128 ![1] bcast_S128_S1x128_1 : (⟨S128, .f32⟩ : BufTy).Contents (Elt F) → (⟨S1x128, .f32⟩ : BufTy).Contents (Elt F)),
    StableHlo.unary main_v256 main_v257 (broadcastInDim S50000x128 ![0, 1] bcast_S1x128_S50000x128_0_1 : (⟨S1x128, .f32⟩ : BufTy).Contents (Elt F) → (⟨S50000x128, .f32⟩ : BufTy).Contents (Elt F)),
    StableHlo.binary main_v247 main_v257 main_v258 (subf : (⟨S50000x128, .f32⟩ : BufTy).Contents (Elt F) → (⟨S50000x128, .f32⟩ : BufTy).Contents (Elt F) → (⟨S50000x128, .f32⟩ : BufTy).Contents (Elt F)),
    StableHlo.nullary main_cst_37 (constant S_ .f32 0x3727C5AC#32),
    StableHlo.unary main_cst_37 main_v259 (broadcastInDim S128 ![] bcast_S_S128 : (⟨S_, .f32⟩ : BufTy).Contents (Elt F) → (⟨S128, .f32⟩ : BufTy).Contents (Elt F)) ]

set_option maxRecDepth 8192 in
set_option maxHeartbeats 4000000 in
/-- The window is that straight line: the called functions unfold at their calls and sequencing reassociates. -/
theorem main_part4_eq (c : Dev nD) : main_part4 (F := F) c = seq ops4 := by
  simp only [main_part4, fn_var.body, fn_where.body, fn_relu.body, fn_log_softmax.body, seq, bind_assoc, pure_bind]
  rfl

set_option maxRecDepth 8192 in
/-- Every operation of the window touches TensorCore buffers only. -/
theorem ops4_sub : (ops4 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩

set_option maxRecDepth 8192 in
/-- No operation of the window allocates. -/
theorem ops4_fresh : ∀ op ∈ (ops4 : List (HloOp τ sig (Elt F))), op.fresh = ∅ :=
  List.forall_iff_forall_mem.mp (show (ops4 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev ops4_W : List (Ref sig .tc) := [main_cst_28, main_v210, main_v211, main_c_29, main_call10.cst.ref, main_call10.v0.ref, main_call10.v1.ref, main_call10.cst_0.ref, main_call10.v2.ref, main_call10.v3.ref, main_call10.v4.ref, main_call10.v5.ref, main_call10.v6.ref, main_call10.v7.ref, main_call10.cst_1.ref, main_call10.v8.ref, main_call10.cst_2.ref, main_call10.v9.ref, main_call10.v10.ref, main_call10.v11.ref, main_call10.cst_3.ref, main_call10.v12.ref, main_call10.cst_4.ref, main_call10.call0.v0.ref, main_call10.call0.v1.ref, main_call10.call0.v2.ref, main_v213, main_v214, main_v215, main_cst_30, main_v216, main_v217, main_v218, main_v219, main_v220, main_v221, main_v222, main_v223, main_v224, main_v225, main_v226, main_v227, main_call11.cst.ref, main_call11.v0.ref, main_call11.v1.ref, main_c_31, main_v229, main_v230, main_c_32, main_v231, main_v232, main_v233, main_v234, main_v235, main_cst_33, main_v236, main_v237, main_v238, main_v239, main_v240, main_v241, main_v242, main_v243, main_v244, main_v245, main_v246, main_v247, main_v248, main_v249, main_v250, main_v251, main_cst_34, main_v252, main_cst_35, main_v253, main_v254, main_c_36, main_call12.cst.ref, main_call12.v0.ref, main_call12.v1.ref, main_call12.cst_0.ref, main_call12.v2.ref, main_call12.v3.ref, main_call12.v4.ref, main_call12.v5.ref, main_call12.v6.ref, main_call12.v7.ref, main_call12.cst_1.ref, main_call12.v8.ref, main_call12.cst_2.ref, main_call12.v9.ref, main_call12.v10.ref, main_call12.v11.ref, main_call12.cst_3.ref, main_call12.v12.ref, main_call12.cst_4.ref, main_call12.call0.v0.ref, main_call12.call0.v1.ref, main_call12.call0.v2.ref, main_v256, main_v257, main_v258, main_cst_37, main_v259]

set_option maxRecDepth 8192 in
set_option maxHeartbeats 4000000 in
/-- Each operation of the window writes its one result buffer, which is listed. -/
theorem ops4_writes : (ops4 : List (HloOp τ sig (Elt F))).Forall fun op =>
    op.writes ⊆ (ops4_W.map (Proc.devRef (τ := τ) .tc)).toFinset :=
  ⟨writes_sub_of_mem (y := main_cst_28) (by decide),
    writes_sub_of_mem (y := main_v210) (by decide),
    writes_sub_of_mem (y := main_v211) (by decide),
    writes_sub_of_mem (y := main_c_29) (by decide),
    writes_sub_of_mem (y := main_call10.cst.ref) (by decide),
    writes_sub_of_mem (y := main_call10.v0.ref) (by decide),
    writes_sub_of_mem (y := main_call10.v1.ref) (by decide),
    writes_sub_of_mem (y := main_call10.cst_0.ref) (by decide),
    writes_sub_of_mem (y := main_call10.v2.ref) (by decide),
    writes_sub_of_mem (y := main_call10.v3.ref) (by decide),
    writes_sub_of_mem (y := main_call10.v4.ref) (by decide),
    writes_sub_of_mem (y := main_call10.v5.ref) (by decide),
    writes_sub_of_mem (y := main_call10.v6.ref) (by decide),
    writes_sub_of_mem (y := main_call10.v7.ref) (by decide),
    writes_sub_of_mem (y := main_call10.cst_1.ref) (by decide),
    writes_sub_of_mem (y := main_call10.v8.ref) (by decide),
    writes_sub_of_mem (y := main_call10.cst_2.ref) (by decide),
    writes_sub_of_mem (y := main_call10.v9.ref) (by decide),
    writes_sub_of_mem (y := main_call10.v10.ref) (by decide),
    writes_sub_of_mem (y := main_call10.v11.ref) (by decide),
    writes_sub_of_mem (y := main_call10.cst_3.ref) (by decide),
    writes_sub_of_mem (y := main_call10.v12.ref) (by decide),
    writes_sub_of_mem (y := main_call10.cst_4.ref) (by decide),
    writes_sub_of_mem (y := main_call10.call0.v0.ref) (by decide),
    writes_sub_of_mem (y := main_call10.call0.v1.ref) (by decide),
    writes_sub_of_mem (y := main_call10.call0.v2.ref) (by decide),
    writes_sub_of_mem (y := main_v213) (by decide),
    writes_sub_of_mem (y := main_v214) (by decide),
    writes_sub_of_mem (y := main_v215) (by decide),
    writes_sub_of_mem (y := main_cst_30) (by decide),
    writes_sub_of_mem (y := main_v216) (by decide),
    writes_sub_of_mem (y := main_v217) (by decide),
    writes_sub_of_mem (y := main_v218) (by decide),
    writes_sub_of_mem (y := main_v219) (by decide),
    writes_sub_of_mem (y := main_v220) (by decide),
    writes_sub_of_mem (y := main_v221) (by decide),
    writes_sub_of_mem (y := main_v222) (by decide),
    writes_sub_of_mem (y := main_v223) (by decide),
    writes_sub_of_mem (y := main_v224) (by decide),
    writes_sub_of_mem (y := main_v225) (by decide),
    writes_sub_of_mem (y := main_v226) (by decide),
    writes_sub_of_mem (y := main_v227) (by decide),
    writes_sub_of_mem (y := main_call11.cst.ref) (by decide),
    writes_sub_of_mem (y := main_call11.v0.ref) (by decide),
    writes_sub_of_mem (y := main_call11.v1.ref) (by decide),
    writes_sub_of_mem (y := main_c_31) (by decide),
    writes_sub_of_mem (y := main_v229) (by decide),
    writes_sub_of_mem (y := main_v230) (by decide),
    writes_sub_of_mem (y := main_c_32) (by decide),
    writes_sub_of_mem (y := main_v231) (by decide),
    writes_sub_of_mem (y := main_v232) (by decide),
    writes_sub_of_mem (y := main_v233) (by decide),
    writes_sub_of_mem (y := main_v234) (by decide),
    writes_sub_of_mem (y := main_v235) (by decide),
    writes_sub_of_mem (y := main_cst_33) (by decide),
    writes_sub_of_mem (y := main_v236) (by decide),
    writes_sub_of_mem (y := main_v237) (by decide),
    writes_sub_of_mem (y := main_v238) (by decide),
    writes_sub_of_mem (y := main_v239) (by decide),
    writes_sub_of_mem (y := main_v240) (by decide),
    writes_sub_of_mem (y := main_v241) (by decide),
    writes_sub_of_mem (y := main_v242) (by decide),
    writes_sub_of_mem (y := main_v243) (by decide),
    writes_sub_of_mem (y := main_v244) (by decide),
    writes_sub_of_mem (y := main_v245) (by decide),
    writes_sub_of_mem (y := main_v246) (by decide),
    writes_sub_of_mem (y := main_v247) (by decide),
    writes_sub_of_mem (y := main_v248) (by decide),
    writes_sub_of_mem (y := main_v249) (by decide),
    writes_sub_of_mem (y := main_v250) (by decide),
    writes_sub_of_mem (y := main_v251) (by decide),
    writes_sub_of_mem (y := main_cst_34) (by decide),
    writes_sub_of_mem (y := main_v252) (by decide),
    writes_sub_of_mem (y := main_cst_35) (by decide),
    writes_sub_of_mem (y := main_v253) (by decide),
    writes_sub_of_mem (y := main_v254) (by decide),
    writes_sub_of_mem (y := main_c_36) (by decide),
    writes_sub_of_mem (y := main_call12.cst.ref) (by decide),
    writes_sub_of_mem (y := main_call12.v0.ref) (by decide),
    writes_sub_of_mem (y := main_call12.v1.ref) (by decide),
    writes_sub_of_mem (y := main_call12.cst_0.ref) (by decide),
    writes_sub_of_mem (y := main_call12.v2.ref) (by decide),
    writes_sub_of_mem (y := main_call12.v3.ref) (by decide),
    writes_sub_of_mem (y := main_call12.v4.ref) (by decide),
    writes_sub_of_mem (y := main_call12.v5.ref) (by decide),
    writes_sub_of_mem (y := main_call12.v6.ref) (by decide),
    writes_sub_of_mem (y := main_call12.v7.ref) (by decide),
    writes_sub_of_mem (y := main_call12.cst_1.ref) (by decide),
    writes_sub_of_mem (y := main_call12.v8.ref) (by decide),
    writes_sub_of_mem (y := main_call12.cst_2.ref) (by decide),
    writes_sub_of_mem (y := main_call12.v9.ref) (by decide),
    writes_sub_of_mem (y := main_call12.v10.ref) (by decide),
    writes_sub_of_mem (y := main_call12.v11.ref) (by decide),
    writes_sub_of_mem (y := main_call12.cst_3.ref) (by decide),
    writes_sub_of_mem (y := main_call12.v12.ref) (by decide),
    writes_sub_of_mem (y := main_call12.cst_4.ref) (by decide),
    writes_sub_of_mem (y := main_call12.call0.v0.ref) (by decide),
    writes_sub_of_mem (y := main_call12.call0.v1.ref) (by decide),
    writes_sub_of_mem (y := main_call12.call0.v2.ref) (by decide),
    writes_sub_of_mem (y := main_v256) (by decide),
    writes_sub_of_mem (y := main_v257) (by decide),
    writes_sub_of_mem (y := main_v258) (by decide),
    writes_sub_of_mem (y := main_cst_37) (by decide),
    writes_sub_of_mem (y := main_v259) (by decide)⟩

/-- A buffer the window does not write keeps its contents through it. -/
theorem keep4 (V : Valuation τ sig (Elt F)) (r : Ref sig .tc) (h : r ∉ ops4_W) :
    after ops4 V (Proc.devRef .tc r) = V (Proc.devRef .tc r) :=
  after_of_writes_sub ops4 V ops4_writes h

end Cert.ReferenceIdeal.RefRun

end
-- ==== Proof.RefRun.W5.lean ====
import proofs.«102976_j3633542332749_1_alg».proof.Proof.Gen.ReferenceIdeal
import Idealize.ShloMosaic.Lib.StableHlo.Run
import proofs.«102976_j3633542332749_1_alg».proof.Proof.RefRun.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 5 of the reference's entry function, in order, each called function's operations standing
    in the call's place over that call's buffers. -/
abbrev ops5 : List (HloOp τ sig (Elt F)) :=
  [ StableHlo.binary main_v255 main_v259 main_v260 (addf : (⟨S128, .f32⟩ : BufTy).Contents (Elt F) → (⟨S128, .f32⟩ : BufTy).Contents (Elt F) → (⟨S128, .f32⟩ : BufTy).Contents (Elt F)),
    StableHlo.unary main_v260 main_v261 (Host.rsqrt : (⟨S128, .f32⟩ : BufTy).Contents (Elt F) → (⟨S128, .f32⟩ : BufTy).Contents (Elt F)),
    StableHlo.unary main_v261 main_v262 (broadcastInDim S1x128 ![1] bcast_S128_S1x128_1 : (⟨S128, .f32⟩ : BufTy).Contents (Elt F) → (⟨S1x128, .f32⟩ : BufTy).Contents (Elt F)),
    StableHlo.unary main_v262 main_v263 (broadcastInDim S50000x128 ![0, 1] bcast_S1x128_S50000x128_0_1 : (⟨S1x128, .f32⟩ : BufTy).Contents (Elt F) → (⟨S50000x128, .f32⟩ : BufTy).Contents (Elt F)),
    StableHlo.binary main_v258 main_v263 main_v264 (mulf : (⟨S50000x128, .f32⟩ : BufTy).Contents (Elt F) → (⟨S50000x128, .f32⟩ : BufTy).Contents (Elt F) → (⟨S50000x128, .f32⟩ : BufTy).Contents (Elt F)),
    StableHlo.unary main_v249 main_v265 (broadcastInDim S1x128 ![1] bcast_S128_S1x128_1 : (⟨S128, .f32⟩ : BufTy).Contents (Elt F) → (⟨S1x128, .f32⟩ : BufTy).Contents (Elt F)),
    StableHlo.unary main_v265 main_v266 (broadcastInDim S50000x128 ![0, 1] bcast_S1x128_S50000x128_0_1 : (⟨S1x128, .f32⟩ : BufTy).Contents (Elt F) → (⟨S50000x128, .f32⟩ : BufTy).Contents (Elt F)),
    StableHlo.binary main_v264 main_v266 main_v267 (mulf : (⟨S50000x128, .f32⟩ : BufTy).Contents (Elt F) → (⟨S50000x128, .f32⟩ : BufTy).Contents (Elt F) → (⟨S50000x128, .f32⟩ : BufTy).Contents (Elt F)),
    StableHlo.unary main_v251 main_v268 (broadcastInDim S1x128 ![1] bcast_S128_S1x128_1 : (⟨S128, .f32⟩ : BufTy).Contents (Elt F) → (⟨S1x128, .f32⟩ : BufTy).Contents (Elt F)),
    StableHlo.unary main_v268 main_v269 (broadcastInDim S50000x128 ![0, 1] bcast_S1x128_S50000x128_0_1 : (⟨S1x128, .f32⟩ : BufTy).Contents (Elt F) → (⟨S50000x128, .f32⟩ : BufTy).Contents (Elt F)),
    StableHlo.binary main_v267 main_v269 main_v270 (addf : (⟨S50000x128, .f32⟩ : BufTy).Contents (Elt F) → (⟨S50000x128, .f32⟩ : BufTy).Contents (Elt F) → (⟨S50000x128, .f32⟩ : BufTy).Contents (Elt F)),
    StableHlo.TRef.nullary main_call13.cst (constant S_ .f32 0x00000000#32),
    StableHlo.TRef.unary main_call13.cst main_call13.v0 (broadcastInDim S50000x128 ![] bcast_S_S50000x128),
    StableHlo.TRef.binary (TRef.of (T := ⟨S50000x128, .f32⟩) main_v270) main_call13.v0 main_call13.v1 maximumf,
    StableHlo.unary main_arg5 main_v272 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v272 main_v273 rfl shapeCasts_S1x128x128_S128x128,
    StableHlo.binary main_v271 main_v273 main_v274 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v275 ((extractStridedSlice S1x128 ![3, 0] · slices_S4x128_S1x128_3_0) : (⟨S4x128, .f32⟩ : BufTy).Contents (Elt F) → (⟨S1x128, .f32⟩ : BufTy).Contents (Elt F)),
    StableHlo.reshape main_v275 main_v276 rfl shapeCasts_S1x128_S128,
    StableHlo.unary main_v276 main_v277 (broadcastInDim S1x128 ![1] bcast_S128_S1x128_1 : (⟨S128, .f32⟩ : BufTy).Contents (Elt F) → (⟨S1x128, .f32⟩ : BufTy).Contents (Elt F)),
    StableHlo.unary main_v277 main_v278 (broadcastInDim S50000x128 ![0, 1] bcast_S1x128_S50000x128_0_1 : (⟨S1x128, .f32⟩ : BufTy).Contents (Elt F) → (⟨S50000x128, .f32⟩ : BufTy).Contents (Elt F)),
    StableHlo.binary main_v274 main_v278 main_v279 (addf : (⟨S50000x128, .f32⟩ : BufTy).Contents (Elt F) → (⟨S50000x128, .f32⟩ : BufTy).Contents (Elt F) → (⟨S50000x128, .f32⟩ : BufTy).Contents (Elt F)),
    StableHlo.unary main_arg9 main_v280 ((extractStridedSlice S1x128 ![3, 0] · slices_S4x128_S1x128_3_0) : (⟨S4x128, .f32⟩ : BufTy).Contents (Elt F) → (⟨S1x128, .f32⟩ : BufTy).Contents (Elt F)),
    StableHlo.reshape main_v280 main_v281 rfl shapeCasts_S1x128_S128,
    StableHlo.unary main_arg10 main_v282 ((extractStridedSlice S1x128 ![3, 0] · slices_S4x128_S1x128_3_0) : (⟨S4x128, .f32⟩ : BufTy).Contents (Elt F) → (⟨S1x128, .f32⟩ : BufTy).Contents (Elt F)),
    StableHlo.reshape main_v282 main_v283 rfl shapeCasts_S1x128_S128,
    StableHlo.nullary main_cst_38 (constant S_ .f32 0x00000000#32),
    StableHlo.binary main_v279 main_cst_38 main_v284 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_39 (constant S_ .f32 0x47435000#32),
    StableHlo.unary main_cst_39 main_v285 (broadcastInDim S128 ![] bcast_S_S128 : (⟨S_, .f32⟩ : BufTy).Contents (Elt F) → (⟨S128, .f32⟩ : BufTy).Contents (Elt F)),
    StableHlo.binary main_v284 main_v285 main_v286 (Host.divf : (⟨S128, .f32⟩ : BufTy).Contents (Elt F) → (⟨S128, .f32⟩ : BufTy).Contents (Elt F) → (⟨S128, .f32⟩ : BufTy).Contents (Elt F)),
    StableHlo.nullary main_c_40 (constantI S_ 32 0#32),
    StableHlo.TRef.nullary main_call14.cst (constant S_ .f32 0x00000000#32),
    StableHlo.TRef.binary (TRef.of (T := ⟨S50000x128, .f32⟩) main_v279) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (TRef.of (T := ⟨S50000x128, .f32⟩) main_v279) main_call14.v4 main_call14.v5 subf,
    StableHlo.TRef.binary main_call14.v5 main_call14.v5 main_call14.v6 mulf,
    StableHlo.TRef.unary (TRef.of (T := ⟨S_, .i32⟩) main_c_40) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v286 main_v288 (broadcastInDim S1x128 ![1] bcast_S128_S1x128_1 : (⟨S128, .f32⟩ : BufTy).Contents (Elt F) → (⟨S1x128, .f32⟩ : BufTy).Contents (Elt F)),
    StableHlo.unary main_v288 main_v289 (broadcastInDim S50000x128 ![0, 1] bcast_S1x128_S50000x128_0_1 : (⟨S1x128, .f32⟩ : BufTy).Contents (Elt F) → (⟨S50000x128, .f32⟩ : BufTy).Contents (Elt F)),
    StableHlo.binary main_v279 main_v289 main_v290 (subf : (⟨S50000x128, .f32⟩ : BufTy).Contents (Elt F) → (⟨S50000x128, .f32⟩ : BufTy).Contents (Elt F) → (⟨S50000x128, .f32⟩ : BufTy).Contents (Elt F)),
    StableHlo.nullary main_cst_41 (constant S_ .f32 0x3727C5AC#32),
    StableHlo.unary main_cst_41 main_v291 (broadcastInDim S128 ![] bcast_S_S128 : (⟨S_, .f32⟩ : BufTy).Contents (Elt F) → (⟨S128, .f32⟩ : BufTy).Contents (Elt F)),
    StableHlo.binary main_v287 main_v291 main_v292 (addf : (⟨S128, .f32⟩ : BufTy).Contents (Elt F) → (⟨S128, .f32⟩ : BufTy).Contents (Elt F) → (⟨S128, .f32⟩ : BufTy).Contents (Elt F)),
    StableHlo.unary main_v292 main_v293 (Host.rsqrt : (⟨S128, .f32⟩ : BufTy).Contents (Elt F) → (⟨S128, .f32⟩ : BufTy).Contents (Elt F)),
    StableHlo.unary main_v293 main_v294 (broadcastInDim S1x128 ![1] bcast_S128_S1x128_1 : (⟨S128, .f32⟩ : BufTy).Contents (Elt F) → (⟨S1x128, .f32⟩ : BufTy).Contents (Elt F)),
    StableHlo.unary main_v294 main_v295 (broadcastInDim S50000x128 ![0, 1] bcast_S1x128_S50000x128_0_1 : (⟨S1x128, .f32⟩ : BufTy).Contents (Elt F) → (⟨S50000x128, .f32⟩ : BufTy).Contents (Elt F)),
    StableHlo.binary main_v290 main_v295 main_v296 (mulf : (⟨S50000x128, .f32⟩ : BufTy).Contents (Elt F) → (⟨S50000x128, .f32⟩ : BufTy).Contents (Elt F) → (⟨S50000x128, .f32⟩ : BufTy).Contents (Elt F)),
    StableHlo.unary main_v281 main_v297 (broadcastInDim S1x128 ![1] bcast_S128_S1x128_1 : (⟨S128, .f32⟩ : BufTy).Contents (Elt F) → (⟨S1x128, .f32⟩ : BufTy).Contents (Elt F)),
    StableHlo.unary main_v297 main_v298 (broadcastInDim S50000x128 ![0, 1] bcast_S1x128_S50000x128_0_1 : (⟨S1x128, .f32⟩ : BufTy).Contents (Elt F) → (⟨S50000x128, .f32⟩ : BufTy).Contents (Elt F)),
    StableHlo.binary main_v296 main_v298 main_v299 (mulf : (⟨S50000x128, .f32⟩ : BufTy).Contents (Elt F) → (⟨S50000x128, .f32⟩ : BufTy).Contents (Elt F) → (⟨S50000x128, .f32⟩ : BufTy).Contents (Elt F)),
    StableHlo.unary main_v283 main_v300 (broadcastInDim S1x128 ![1] bcast_S128_S1x128_1 : (⟨S128, .f32⟩ : BufTy).Contents (Elt F) → (⟨S1x128, .f32⟩ : BufTy).Contents (Elt F)),
    StableHlo.unary main_v300 main_v301 (broadcastInDim S50000x128 ![0, 1] bcast_S1x128_S50000x128_0_1 : (⟨S1x128, .f32⟩ : BufTy).Contents (Elt F) → (⟨S50000x128, .f32⟩ : BufTy).Contents (Elt F)),
    StableHlo.binary main_v299 main_v301 main_v302 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (TRef.of (T := ⟨S50000x128, .f32⟩) main_v302) main_call15.v0 main_call15.v1 maximumf,
    StableHlo.nullary main_cst_42 (constant S_ .f32 0x00000000#32),
    StableHlo.unary main_cst_42 main_v304 (broadcastInDim S512x10 ![] bcast_S_S512x10 : (⟨S_, .f32⟩ : BufTy).Contents (Elt F) → (⟨S512x10, .f32⟩ : BufTy).Contents (Elt F)),
    StableHlo.nullary main_cst_43 (constant S_ .f32 0x00000000#32),
    StableHlo.unary main_cst_43 main_v305 (broadcastInDim S512x128 ![] bcast_S_S512x128 : (⟨S_, .f32⟩ : BufTy).Contents (Elt F) → (⟨S512x128, .f32⟩ : BufTy).Contents (Elt F)),
    StableHlo.unary main_arg2 main_v306 (broadcastInDim S50000x1 ![0] bcast_S50000_S50000x1_0 : (⟨S50000, .i32⟩ : BufTy).Contents (Elt F) → (⟨S50000x1, .i32⟩ : BufTy).Contents (Elt F)),
    StableHlo.ternary main_v305 main_v306 main_arg0 main_v307 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_arg11 main_v308 ((extractStridedSlice S1x128x10 ![0, 0, 0] · slices_S5x128x10_S1x128x10_0_0_0) : (⟨S5x128x10, .f32⟩ : BufTy).Contents (Elt F) → (⟨S1x128x10, .f32⟩ : BufTy).Contents (Elt F)),
    StableHlo.reshape main_v308 main_v309 rfl shapeCasts_S1x128x10_S128x10,
    StableHlo.binary main_v307 main_v309 main_v310 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.binary main_v304 main_v310 main_v311 (addf : (⟨S512x10, .f32⟩ : BufTy).Contents (Elt F) → (⟨S512x10, .f32⟩ : BufTy).Contents (Elt F) → (⟨S512x10, .f32⟩ : BufTy).Contents (Elt F)),
    StableHlo.unary main_arg12 main_v312 ((extractStridedSlice S1x10 ![0, 0] · slices_S5x10_S1x10_0_0) : (⟨S5x10, .f32⟩ : BufTy).Contents (Elt F) → (⟨S1x10, .f32⟩ : BufTy).Contents (Elt F)),
    StableHlo.reshape main_v312 main_v313 rfl shapeCasts_S1x10_S10 ]

set_option maxRecDepth 8192 in
set_option maxHeartbeats 4000000 in
/-- The window is that straight line: the called functions unfold at their calls and sequencing reassociates. -/
theorem main_part5_eq (c : Dev nD) : main_part5 (F := F) c = seq ops5 := by
  simp only [main_part5, fn_var.body, fn_where.body, fn_relu.body, fn_log_softmax.body, seq, bind_assoc, pure_bind]
  rfl

set_option maxRecDepth 8192 in
/-- Every operation of the window touches TensorCore buffers only. -/
theorem ops5_sub : (ops5 : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., unary_bufs_sub .., reshape_bufs_sub .., binary_bufs_sub .., binary_bufs_sub .., unary_bufs_sub .., reshape_bufs_sub ..⟩

set_option maxRecDepth 8192 in
/-- No operation of the window allocates. -/
theorem ops5_fresh : ∀ op ∈ (ops5 : List (HloOp τ sig (Elt F))), op.fresh = ∅ :=
  List.forall_iff_forall_mem.mp (show (ops5 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev ops5_W : List (Ref sig .tc) := [main_v260, main_v261, main_v262, main_v263, main_v264, main_v265, main_v266, main_v267, main_v268, main_v269, main_v270, main_call13.cst.ref, main_call13.v0.ref, main_call13.v1.ref, main_v272, main_v273, main_v274, main_v275, main_v276, main_v277, main_v278, main_v279, main_v280, main_v281, main_v282, main_v283, main_cst_38, main_v284, main_cst_39, main_v285, main_v286, main_c_40, main_call14.cst.ref, main_call14.v0.ref, main_call14.v1.ref, main_call14.cst_0.ref, main_call14.v2.ref, main_call14.v3.ref, main_call14.v4.ref, main_call14.v5.ref, main_call14.v6.ref, main_call14.v7.ref, main_call14.cst_1.ref, main_call14.v8.ref, main_call14.cst_2.ref, main_call14.v9.ref, main_call14.v10.ref, main_call14.v11.ref, main_call14.cst_3.ref, main_call14.v12.ref, main_call14.cst_4.ref, main_call14.call0.v0.ref, main_call14.call0.v1.ref, main_call14.call0.v2.ref, main_v288, main_v289, main_v290, main_cst_41, main_v291, main_v292, main_v293, main_v294, main_v295, main_v296, main_v297, main_v298, main_v299, main_v300, main_v301, main_v302, main_call15.cst.ref, main_call15.v0.ref, main_call15.v1.ref, main_cst_42, main_v304, main_cst_43, main_v305, main_v306, main_v307, main_v308, main_v309, main_v310, main_v311, main_v312, main_v313]

set_option maxRecDepth 8192 in
set_option maxHeartbeats 4000000 in
/-- Each operation of the window writes its one result buffer, which is listed. -/
theorem ops5_writes : (ops5 : List (HloOp τ sig (Elt F))).Forall fun op =>
    op.writes ⊆ (ops5_W.map (Proc.devRef (τ := τ) .tc)).toFinset :=
  ⟨writes_sub_of_mem (y := main_v260) (by decide),
    writes_sub_of_mem (y := main_v261) (by decide),
    writes_sub_of_mem (y := main_v262) (by decide),
    writes_sub_of_mem (y := main_v263) (by decide),
    writes_sub_of_mem (y := main_v264) (by decide),
    writes_sub_of_mem (y := main_v265) (by decide),
    writes_sub_of_mem (y := main_v266) (by decide),
    writes_sub_of_mem (y := main_v267) (by decide),
    writes_sub_of_mem (y := main_v268) (by decide),
    writes_sub_of_mem (y := main_v269) (by decide),
    writes_sub_of_mem (y := main_v270) (by decide),
    writes_sub_of_mem (y := main_call13.cst.ref) (by decide),
    writes_sub_of_mem (y := main_call13.v0.ref) (by decide),
    writes_sub_of_mem (y := main_call13.v1.ref) (by decide),
    writes_sub_of_mem (y := main_v272) (by decide),
    writes_sub_of_mem (y := main_v273) (by decide),
    writes_sub_of_mem (y := main_v274) (by decide),
    writes_sub_of_mem (y := main_v275) (by decide),
    writes_sub_of_mem (y := main_v276) (by decide),
    writes_sub_of_mem (y := main_v277) (by decide),
    writes_sub_of_mem (y := main_v278) (by decide),
    writes_sub_of_mem (y := main_v279) (by decide),
    writes_sub_of_mem (y := main_v280) (by decide),
    writes_sub_of_mem (y := main_v281) (by decide),
    writes_sub_of_mem (y := main_v282) (by decide),
    writes_sub_of_mem (y := main_v283) (by decide),
    writes_sub_of_mem (y := main_cst_38) (by decide),
    writes_sub_of_mem (y := main_v284) (by decide),
    writes_sub_of_mem (y := main_cst_39) (by decide),
    writes_sub_of_mem (y := main_v285) (by decide),
    writes_sub_of_mem (y := main_v286) (by decide),
    writes_sub_of_mem (y := main_c_40) (by decide),
    writes_sub_of_mem (y := main_call14.cst.ref) (by decide),
    writes_sub_of_mem (y := main_call14.v0.ref) (by decide),
    writes_sub_of_mem (y := main_call14.v1.ref) (by decide),
    writes_sub_of_mem (y := main_call14.cst_0.ref) (by decide),
    writes_sub_of_mem (y := main_call14.v2.ref) (by decide),
    writes_sub_of_mem (y := main_call14.v3.ref) (by decide),
    writes_sub_of_mem (y := main_call14.v4.ref) (by decide),
    writes_sub_of_mem (y := main_call14.v5.ref) (by decide),
    writes_sub_of_mem (y := main_call14.v6.ref) (by decide),
    writes_sub_of_mem (y := main_call14.v7.ref) (by decide),
    writes_sub_of_mem (y := main_call14.cst_1.ref) (by decide),
    writes_sub_of_mem (y := main_call14.v8.ref) (by decide),
    writes_sub_of_mem (y := main_call14.cst_2.ref) (by decide),
    writes_sub_of_mem (y := main_call14.v9.ref) (by decide),
    writes_sub_of_mem (y := main_call14.v10.ref) (by decide),
    writes_sub_of_mem (y := main_call14.v11.ref) (by decide),
    writes_sub_of_mem (y := main_call14.cst_3.ref) (by decide),
    writes_sub_of_mem (y := main_call14.v12.ref) (by decide),
    writes_sub_of_mem (y := main_call14.cst_4.ref) (by decide),
    writes_sub_of_mem (y := main_call14.call0.v0.ref) (by decide),
    writes_sub_of_mem (y := main_call14.call0.v1.ref) (by decide),
    writes_sub_of_mem (y := main_call14.call0.v2.ref) (by decide),
    writes_sub_of_mem (y := main_v288) (by decide),
    writes_sub_of_mem (y := main_v289) (by decide),
    writes_sub_of_mem (y := main_v290) (by decide),
    writes_sub_of_mem (y := main_cst_41) (by decide),
    writes_sub_of_mem (y := main_v291) (by decide),
    writes_sub_of_mem (y := main_v292) (by decide),
    writes_sub_of_mem (y := main_v293) (by decide),
    writes_sub_of_mem (y := main_v294) (by decide),
    writes_sub_of_mem (y := main_v295) (by decide),
    writes_sub_of_mem (y := main_v296) (by decide),
    writes_sub_of_mem (y := main_v297) (by decide),
    writes_sub_of_mem (y := main_v298) (by decide),
    writes_sub_of_mem (y := main_v299) (by decide),
    writes_sub_of_mem (y := main_v300) (by decide),
    writes_sub_of_mem (y := main_v301) (by decide),
    writes_sub_of_mem (y := main_v302) (by decide),
    writes_sub_of_mem (y := main_call15.cst.ref) (by decide),
    writes_sub_of_mem (y := main_call15.v0.ref) (by decide),
    writes_sub_of_mem (y := main_call15.v1.ref) (by decide),
    writes_sub_of_mem (y := main_cst_42) (by decide),
    writes_sub_of_mem (y := main_v304) (by decide),
    writes_sub_of_mem (y := main_cst_43) (by decide),
    writes_sub_of_mem (y := main_v305) (by decide),
    writes_sub_of_mem (y := main_v306) (by decide),
    writes_sub_of_mem (y := main_v307) (by decide),
    writes_sub_of_mem (y := main_v308) (by decide),
    writes_sub_of_mem (y := main_v309) (by decide),
    writes_sub_of_mem (y := main_v310) (by decide),
    writes_sub_of_mem (y := main_v311) (by decide),
    writes_sub_of_mem (y := main_v312) (by decide),
    writes_sub_of_mem (y := main_v313) (by decide)⟩

/-- A buffer the window does not write keeps its contents through it. -/
theorem keep5 (V : Valuation τ sig (Elt F)) (r : Ref sig .tc) (h : r ∉ ops5_W) :
    after ops5 V (Proc.devRef .tc r) = V (Proc.devRef .tc r) :=
  after_of_writes_sub ops5 V ops5_writes h

end Cert.ReferenceIdeal.RefRun

end
-- ==== Proof.RefRun.W6.lean ====
import proofs.«102976_j3633542332749_1_alg».proof.Proof.Gen.ReferenceIdeal
import Idealize.ShloMosaic.Lib.StableHlo.Run
import proofs.«102976_j3633542332749_1_alg».proof.Proof.RefRun.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 6 of the reference's entry function, in order, each called function's operations standing
    in the call's place over that call's buffers. -/
abbrev ops6 : List (HloOp τ sig (Elt F)) :=
  [ StableHlo.unary main_v313 main_v314 (broadcastInDim S1x10 ![1] bcast_S10_S1x10_1 : (⟨S10, .f32⟩ : BufTy).Contents (Elt F) → (⟨S1x10, .f32⟩ : BufTy).Contents (Elt F)),
    StableHlo.unary main_v314 main_v315 (broadcastInDim S512x10 ![0, 1] bcast_S1x10_S512x10_0_1 : (⟨S1x10, .f32⟩ : BufTy).Contents (Elt F) → (⟨S512x10, .f32⟩ : BufTy).Contents (Elt F)),
    StableHlo.binary main_v311 main_v315 main_v316 (addf : (⟨S512x10, .f32⟩ : BufTy).Contents (Elt F) → (⟨S512x10, .f32⟩ : BufTy).Contents (Elt F) → (⟨S512x10, .f32⟩ : BufTy).Contents (Elt F)),
    StableHlo.nullary main_cst_44 (constant S_ .f32 0x00000000#32),
    StableHlo.unary main_cst_44 main_v317 (broadcastInDim S512x128 ![] bcast_S_S512x128 : (⟨S_, .f32⟩ : BufTy).Contents (Elt F) → (⟨S512x128, .f32⟩ : BufTy).Contents (Elt F)),
    StableHlo.unary main_arg2 main_v318 (broadcastInDim S50000x1 ![0] bcast_S50000_S50000x1_0 : (⟨S50000, .i32⟩ : BufTy).Contents (Elt F) → (⟨S50000x1, .i32⟩ : BufTy).Contents (Elt F)),
    StableHlo.ternary main_v317 main_v318 main_v78 main_v319 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_arg11 main_v320 ((extractStridedSlice S1x128x10 ![1, 0, 0] · slices_S5x128x10_S1x128x10_1_0_0) : (⟨S5x128x10, .f32⟩ : BufTy).Contents (Elt F) → (⟨S1x128x10, .f32⟩ : BufTy).Contents (Elt F)),
    StableHlo.reshape main_v320 main_v321 rfl shapeCasts_S1x128x10_S128x10,
    StableHlo.binary main_v319 main_v321 main_v322 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.binary main_v316 main_v322 main_v323 (addf : (⟨S512x10, .f32⟩ : BufTy).Contents (Elt F) → (⟨S512x10, .f32⟩ : BufTy).Contents (Elt F) → (⟨S512x10, .f32⟩ : BufTy).Contents (Elt F)),
    StableHlo.unary main_arg12 main_v324 ((extractStridedSlice S1x10 ![1, 0] · slices_S5x10_S1x10_1_0) : (⟨S5x10, .f32⟩ : BufTy).Contents (Elt F) → (⟨S1x10, .f32⟩ : BufTy).Contents (Elt F)),
    StableHlo.reshape main_v324 main_v325 rfl shapeCasts_S1x10_S10,
    StableHlo.unary main_v325 main_v326 (broadcastInDim S1x10 ![1] bcast_S10_S1x10_1 : (⟨S10, .f32⟩ : BufTy).Contents (Elt F) → (⟨S1x10, .f32⟩ : BufTy).Contents (Elt F)),
    StableHlo.unary main_v326 main_v327 (broadcastInDim S512x10 ![0, 1] bcast_S1x10_S512x10_0_1 : (⟨S1x10, .f32⟩ : BufTy).Contents (Elt F) → (⟨S512x10, .f32⟩ : BufTy).Contents (Elt F)),
    StableHlo.binary main_v323 main_v327 main_v328 (addf : (⟨S512x10, .f32⟩ : BufTy).Contents (Elt F) → (⟨S512x10, .f32⟩ : BufTy).Contents (Elt F) → (⟨S512x10, .f32⟩ : BufTy).Contents (Elt F)),
    StableHlo.nullary main_cst_45 (constant S_ .f32 0x00000000#32),
    StableHlo.unary main_cst_45 main_v329 (broadcastInDim S512x128 ![] bcast_S_S512x128 : (⟨S_, .f32⟩ : BufTy).Contents (Elt F) → (⟨S512x128, .f32⟩ : BufTy).Contents (Elt F)),
    StableHlo.unary main_arg2 main_v330 (broadcastInDim S50000x1 ![0] bcast_S50000_S50000x1_0 : (⟨S50000, .i32⟩ : BufTy).Contents (Elt F) → (⟨S50000x1, .i32⟩ : BufTy).Contents (Elt F)),
    StableHlo.ternary main_v329 main_v330 main_v153 main_v331 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_arg11 main_v332 ((extractStridedSlice S1x128x10 ![2, 0, 0] · slices_S5x128x10_S1x128x10_2_0_0) : (⟨S5x128x10, .f32⟩ : BufTy).Contents (Elt F) → (⟨S1x128x10, .f32⟩ : BufTy).Contents (Elt F)),
    StableHlo.reshape main_v332 main_v333 rfl shapeCasts_S1x128x10_S128x10,
    StableHlo.binary main_v331 main_v333 main_v334 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.binary main_v328 main_v334 main_v335 (addf : (⟨S512x10, .f32⟩ : BufTy).Contents (Elt F) → (⟨S512x10, .f32⟩ : BufTy).Contents (Elt F) → (⟨S512x10, .f32⟩ : BufTy).Contents (Elt F)),
    StableHlo.unary main_arg12 main_v336 ((extractStridedSlice S1x10 ![2, 0] · slices_S5x10_S1x10_2_0) : (⟨S5x10, .f32⟩ : BufTy).Contents (Elt F) → (⟨S1x10, .f32⟩ : BufTy).Contents (Elt F)),
    StableHlo.reshape main_v336 main_v337 rfl shapeCasts_S1x10_S10,
    StableHlo.unary main_v337 main_v338 (broadcastInDim S1x10 ![1] bcast_S10_S1x10_1 : (⟨S10, .f32⟩ : BufTy).Contents (Elt F) → (⟨S1x10, .f32⟩ : BufTy).Contents (Elt F)),
    StableHlo.unary main_v338 main_v339 (broadcastInDim S512x10 ![0, 1] bcast_S1x10_S512x10_0_1 : (⟨S1x10, .f32⟩ : BufTy).Contents (Elt F) → (⟨S512x10, .f32⟩ : BufTy).Contents (Elt F)),
    StableHlo.binary main_v335 main_v339 main_v340 (addf : (⟨S512x10, .f32⟩ : BufTy).Contents (Elt F) → (⟨S512x10, .f32⟩ : BufTy).Contents (Elt F) → (⟨S512x10, .f32⟩ : BufTy).Contents (Elt F)),
    StableHlo.nullary main_cst_46 (constant S_ .f32 0x00000000#32),
    StableHlo.unary main_cst_46 main_v341 (broadcastInDim S512x128 ![] bcast_S_S512x128 : (⟨S_, .f32⟩ : BufTy).Contents (Elt F) → (⟨S512x128, .f32⟩ : BufTy).Contents (Elt F)),
    StableHlo.unary main_arg2 main_v342 (broadcastInDim S50000x1 ![0] bcast_S50000_S50000x1_0 : (⟨S50000, .i32⟩ : BufTy).Contents (Elt F) → (⟨S50000x1, .i32⟩ : BufTy).Contents (Elt F)),
    StableHlo.ternary main_v341 main_v342 main_v228 main_v343 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_arg11 main_v344 ((extractStridedSlice S1x128x10 ![3, 0, 0] · slices_S5x128x10_S1x128x10_3_0_0) : (⟨S5x128x10, .f32⟩ : BufTy).Contents (Elt F) → (⟨S1x128x10, .f32⟩ : BufTy).Contents (Elt F)),
    StableHlo.reshape main_v344 main_v345 rfl shapeCasts_S1x128x10_S128x10,
    StableHlo.binary main_v343 main_v345 main_v346 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.binary main_v340 main_v346 main_v347 (addf : (⟨S512x10, .f32⟩ : BufTy).Contents (Elt F) → (⟨S512x10, .f32⟩ : BufTy).Contents (Elt F) → (⟨S512x10, .f32⟩ : BufTy).Contents (Elt F)),
    StableHlo.unary main_arg12 main_v348 ((extractStridedSlice S1x10 ![3, 0] · slices_S5x10_S1x10_3_0) : (⟨S5x10, .f32⟩ : BufTy).Contents (Elt F) → (⟨S1x10, .f32⟩ : BufTy).Contents (Elt F)),
    StableHlo.reshape main_v348 main_v349 rfl shapeCasts_S1x10_S10,
    StableHlo.unary main_v349 main_v350 (broadcastInDim S1x10 ![1] bcast_S10_S1x10_1 : (⟨S10, .f32⟩ : BufTy).Contents (Elt F) → (⟨S1x10, .f32⟩ : BufTy).Contents (Elt F)),
    StableHlo.unary main_v350 main_v351 (broadcastInDim S512x10 ![0, 1] bcast_S1x10_S512x10_0_1 : (⟨S1x10, .f32⟩ : BufTy).Contents (Elt F) → (⟨S512x10, .f32⟩ : BufTy).Contents (Elt F)),
    StableHlo.binary main_v347 main_v351 main_v352 (addf : (⟨S512x10, .f32⟩ : BufTy).Contents (Elt F) → (⟨S512x10, .f32⟩ : BufTy).Contents (Elt F) → (⟨S512x10, .f32⟩ : BufTy).Contents (Elt F)),
    StableHlo.nullary main_cst_47 (constant S_ .f32 0x00000000#32),
    StableHlo.unary main_cst_47 main_v353 (broadcastInDim S512x128 ![] bcast_S_S512x128 : (⟨S_, .f32⟩ : BufTy).Contents (Elt F) → (⟨S512x128, .f32⟩ : BufTy).Contents (Elt F)),
    StableHlo.unary main_arg2 main_v354 (broadcastInDim S50000x1 ![0] bcast_S50000_S50000x1_0 : (⟨S50000, .i32⟩ : BufTy).Contents (Elt F) → (⟨S50000x1, .i32⟩ : BufTy).Contents (Elt F)),
    StableHlo.ternary main_v353 main_v354 main_v303 main_v355 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_arg11 main_v356 ((extractStridedSlice S1x128x10 ![4, 0, 0] · slices_S5x128x10_S1x128x10_4_0_0) : (⟨S5x128x10, .f32⟩ : BufTy).Contents (Elt F) → (⟨S1x128x10, .f32⟩ : BufTy).Contents (Elt F)),
    StableHlo.reshape main_v356 main_v357 rfl shapeCasts_S1x128x10_S128x10,
    StableHlo.binary main_v355 main_v357 main_v358 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.binary main_v352 main_v358 main_v359 (addf : (⟨S512x10, .f32⟩ : BufTy).Contents (Elt F) → (⟨S512x10, .f32⟩ : BufTy).Contents (Elt F) → (⟨S512x10, .f32⟩ : BufTy).Contents (Elt F)),
    StableHlo.unary main_arg12 main_v360 ((extractStridedSlice S1x10 ![4, 0] · slices_S5x10_S1x10_4_0) : (⟨S5x10, .f32⟩ : BufTy).Contents (Elt F) → (⟨S1x10, .f32⟩ : BufTy).Contents (Elt F)),
    StableHlo.reshape main_v360 main_v361 rfl shapeCasts_S1x10_S10,
    StableHlo.unary main_v361 main_v362 (broadcastInDim S1x10 ![1] bcast_S10_S1x10_1 : (⟨S10, .f32⟩ : BufTy).Contents (Elt F) → (⟨S1x10, .f32⟩ : BufTy).Contents (Elt F)),
    StableHlo.unary main_v362 main_v363 (broadcastInDim S512x10 ![0, 1] bcast_S1x10_S512x10_0_1 : (⟨S1x10, .f32⟩ : BufTy).Contents (Elt F) → (⟨S512x10, .f32⟩ : BufTy).Contents (Elt F)),
    StableHlo.binary main_v359 main_v363 main_v364 (addf : (⟨S512x10, .f32⟩ : BufTy).Contents (Elt F) → (⟨S512x10, .f32⟩ : BufTy).Contents (Elt F) → (⟨S512x10, .f32⟩ : BufTy).Contents (Elt F)),
    StableHlo.TRef.nullary main_call16.cst (constant S_ .f32 0xFF800000#32),
    StableHlo.TRef.binary (TRef.of (T := ⟨S512x10, .f32⟩) main_v364) main_call16.cst main_call16.v0 (fun x v => Host.reduce FloatOps.maximumf x v reducesTo_S512x10_S512_d1 h_S_),
    StableHlo.TRef.nullary main_call16.cst_0 (constant S_ .f32 0xFF800000#32),
    StableHlo.TRef.unary main_call16.cst_0 main_call16.v1 (broadcastInDim S512 ![] bcast_S_S512),
    StableHlo.TRef.binary main_call16.v1 main_call16.v0 main_call16.v2 maximumf,
    StableHlo.TRef.unary main_call16.v2 main_call16.v3 (broadcastInDim S512x1 ![0] bcast_S512_S512x1_0),
    StableHlo.TRef.unary main_call16.v3 main_call16.v4 (broadcastInDim S512x10 ![0, 1] bcast_S512x1_S512x10_0_1),
    StableHlo.TRef.binary (TRef.of (T := ⟨S512x10, .f32⟩) main_v364) main_call16.v4 main_call16.v5 subf,
    StableHlo.TRef.unary main_call16.v5 main_call16.v6 Host.exp,
    StableHlo.TRef.nullary main_call16.cst_1 (constant S_ .f32 0x00000000#32),
    StableHlo.TRef.binary main_call16.v6 main_call16.cst_1 main_call16.v7 (fun x v => Host.reduceAdd x v reducesTo_S512x10_S512_d1 h_S_),
    StableHlo.TRef.unary main_call16.v7 main_call16.v8 (broadcastInDim S512x1 ![0] bcast_S512_S512x1_0),
    StableHlo.TRef.unary main_call16.v8 main_call16.v9 Host.log,
    StableHlo.TRef.unary main_call16.v9 main_call16.v10 (broadcastInDim S512x10 ![0, 1] bcast_S512x1_S512x10_0_1),
    StableHlo.TRef.binary main_call16.v5 main_call16.v10 main_call16.v11 subf ]

set_option maxRecDepth 8192 in
set_option maxHeartbeats 4000000 in
/-- The window is that straight line: the called functions unfold at their calls and sequencing reassociates. -/
theorem main_part6_eq (c : Dev nD) : main_part6 (F := F) c = seq ops6 := by
  simp only [main_part6, fn_var.body, fn_where.body, fn_relu.body, fn_log_softmax.body, seq, bind_assoc, pure_bind]

set_option maxRecDepth 8192 in
/-- Every operation of the window touches TensorCore buffers only. -/
theorem ops6_sub : (ops6 : List (HloOp τ sig (Elt F))).Forall fun op => op.bufs ⊆ tcRefs τ sig :=
  ⟨unary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., binary_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
/-- No operation of the window allocates. -/
theorem ops6_fresh : ∀ op ∈ (ops6 : List (HloOp τ sig (Elt F))), op.fresh = ∅ :=
  List.forall_iff_forall_mem.mp (show (ops6 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window's operations write, in order. -/
abbrev ops6_W : List (Ref sig .tc) := [main_v314, main_v315, main_v316, main_cst_44, main_v317, main_v318, main_v319, main_v320, main_v321, main_v322, main_v323, main_v324, main_v325, main_v326, main_v327, main_v328, main_cst_45, main_v329, main_v330, main_v331, main_v332, main_v333, main_v334, main_v335, main_v336, main_v337, main_v338, main_v339, main_v340, main_cst_46, main_v341, main_v342, main_v343, main_v344, main_v345, main_v346, main_v347, main_v348, main_v349, main_v350, main_v351, main_v352, main_cst_47, main_v353, main_v354, main_v355, main_v356, main_v357, main_v358, main_v359, main_v360, main_v361, main_v362, main_v363, main_v364, main_call16.cst.ref, main_call16.v0.ref, main_call16.cst_0.ref, main_call16.v1.ref, main_call16.v2.ref, main_call16.v3.ref, main_call16.v4.ref, main_call16.v5.ref, main_call16.v6.ref, main_call16.cst_1.ref, main_call16.v7.ref, main_call16.v8.ref, main_call16.v9.ref, main_call16.v10.ref, main_call16.v11.ref]

set_option maxRecDepth 8192 in
set_option maxHeartbeats 4000000 in
/-- Each operation of the window writes its one result buffer, which is listed. -/
theorem ops6_writes : (ops6 : List (HloOp τ sig (Elt F))).Forall fun op =>
    op.writes ⊆ (ops6_W.map (Proc.devRef (τ := τ) .tc)).toFinset :=
  ⟨writes_sub_of_mem (y := main_v314) (by decide),
    writes_sub_of_mem (y := main_v315) (by decide),
    writes_sub_of_mem (y := main_v316) (by decide),
    writes_sub_of_mem (y := main_cst_44) (by decide),
    writes_sub_of_mem (y := main_v317) (by decide),
    writes_sub_of_mem (y := main_v318) (by decide),
    writes_sub_of_mem (y := main_v319) (by decide),
    writes_sub_of_mem (y := main_v320) (by decide),
    writes_sub_of_mem (y := main_v321) (by decide),
    writes_sub_of_mem (y := main_v322) (by decide),
    writes_sub_of_mem (y := main_v323) (by decide),
    writes_sub_of_mem (y := main_v324) (by decide),
    writes_sub_of_mem (y := main_v325) (by decide),
    writes_sub_of_mem (y := main_v326) (by decide),
    writes_sub_of_mem (y := main_v327) (by decide),
    writes_sub_of_mem (y := main_v328) (by decide),
    writes_sub_of_mem (y := main_cst_45) (by decide),
    writes_sub_of_mem (y := main_v329) (by decide),
    writes_sub_of_mem (y := main_v330) (by decide),
    writes_sub_of_mem (y := main_v331) (by decide),
    writes_sub_of_mem (y := main_v332) (by decide),
    writes_sub_of_mem (y := main_v333) (by decide),
    writes_sub_of_mem (y := main_v334) (by decide),
    writes_sub_of_mem (y := main_v335) (by decide),
    writes_sub_of_mem (y := main_v336) (by decide),
    writes_sub_of_mem (y := main_v337) (by decide),
    writes_sub_of_mem (y := main_v338) (by decide),
    writes_sub_of_mem (y := main_v339) (by decide),
    writes_sub_of_mem (y := main_v340) (by decide),
    writes_sub_of_mem (y := main_cst_46) (by decide),
    writes_sub_of_mem (y := main_v341) (by decide),
    writes_sub_of_mem (y := main_v342) (by decide),
    writes_sub_of_mem (y := main_v343) (by decide),
    writes_sub_of_mem (y := main_v344) (by decide),
    writes_sub_of_mem (y := main_v345) (by decide),
    writes_sub_of_mem (y := main_v346) (by decide),
    writes_sub_of_mem (y := main_v347) (by decide),
    writes_sub_of_mem (y := main_v348) (by decide),
    writes_sub_of_mem (y := main_v349) (by decide),
    writes_sub_of_mem (y := main_v350) (by decide),
    writes_sub_of_mem (y := main_v351) (by decide),
    writes_sub_of_mem (y := main_v352) (by decide),
    writes_sub_of_mem (y := main_cst_47) (by decide),
    writes_sub_of_mem (y := main_v353) (by decide),
    writes_sub_of_mem (y := main_v354) (by decide),
    writes_sub_of_mem (y := main_v355) (by decide),
    writes_sub_of_mem (y := main_v356) (by decide),
    writes_sub_of_mem (y := main_v357) (by decide),
    writes_sub_of_mem (y := main_v358) (by decide),
    writes_sub_of_mem (y := main_v359) (by decide),
    writes_sub_of_mem (y := main_v360) (by decide),
    writes_sub_of_mem (y := main_v361) (by decide),
    writes_sub_of_mem (y := main_v362) (by decide),
    writes_sub_of_mem (y := main_v363) (by decide),
    writes_sub_of_mem (y := main_v364) (by decide),
    writes_sub_of_mem (y := main_call16.cst.ref) (by decide),
    writes_sub_of_mem (y := main_call16.v0.ref) (by decide),
    writes_sub_of_mem (y := main_call16.cst_0.ref) (by decide),
    writes_sub_of_mem (y := main_call16.v1.ref) (by decide),
    writes_sub_of_mem (y := main_call16.v2.ref) (by decide),
    writes_sub_of_mem (y := main_call16.v3.ref) (by decide),
    writes_sub_of_mem (y := main_call16.v4.ref) (by decide),
    writes_sub_of_mem (y := main_call16.v5.ref) (by decide),
    writes_sub_of_mem (y := main_call16.v6.ref) (by decide),
    writes_sub_of_mem (y := main_call16.cst_1.ref) (by decide),
    writes_sub_of_mem (y := main_call16.v7.ref) (by decide),
    writes_sub_of_mem (y := main_call16.v8.ref) (by decide),
    writes_sub_of_mem (y := main_call16.v9.ref) (by decide),
    writes_sub_of_mem (y := main_call16.v10.ref) (by decide),
    writes_sub_of_mem (y := main_call16.v11.ref) (by decide)⟩

/-- A buffer the window does not write keeps its contents through it. -/
theorem keep6 (V : Valuation τ sig (Elt F)) (r : Ref sig .tc) (h : r ∉ ops6_W) :
    after ops6 V (Proc.devRef .tc r) = V (Proc.devRef .tc r) :=
  after_of_writes_sub ops6 V ops6_writes h

end Cert.ReferenceIdeal.RefRun

end
-- ==== Proof.RefRun.lean ====
import proofs.«102976_j3633542332749_1_alg».proof.Proof.Gen.ReferenceIdeal
import Idealize.ShloMosaic.Lib.StableHlo.Run
import proofs.«102976_j3633542332749_1_alg».proof.Proof.RefRun.W0
import proofs.«102976_j3633542332749_1_alg».proof.Proof.RefRun.W1
import proofs.«102976_j3633542332749_1_alg».proof.Proof.RefRun.W2
import proofs.«102976_j3633542332749_1_alg».proof.Proof.RefRun.W3
import proofs.«102976_j3633542332749_1_alg».proof.Proof.RefRun.W4
import proofs.«102976_j3633542332749_1_alg».proof.Proof.RefRun.W5
import proofs.«102976_j3633542332749_1_alg».proof.Proof.RefRun.W6
import proofs.«102976_j3633542332749_1_alg».proof.Proof.Gen.Pre_finite_inputs
import proofs.«102976_j3633542332749_1_alg».proof.Defs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's entry function as one line of operations: its seven windows in order. -/
abbrev ops : List (HloOp τ sig (Elt F)) :=
  ops0 ++ (ops1 ++ (ops2 ++ (ops3 ++ (ops4 ++ (ops5 ++ (ops6))))))

/-- The buffers the reference's operations write. -/
abbrev ops_W : List (Ref sig .tc) :=
  ops0_W ++ (ops1_W ++ (ops2_W ++ (ops3_W ++ (ops4_W ++ (ops5_W ++ (ops6_W))))))

/-- The entry function is that line: each window is its own line, and lines run in sequence concatenate. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  sub_append ops0_sub (sub_append ops1_sub (sub_append ops2_sub (sub_append ops3_sub (sub_append ops4_sub (sub_append ops5_sub (ops6_sub))))))

theorem ops_fresh : ∀ op ∈ (ops : List (HloOp τ sig (Elt F))), op.fresh = ∅ :=
  fresh_append ops0_fresh (fresh_append ops1_fresh (fresh_append ops2_fresh (fresh_append ops3_fresh (fresh_append ops4_fresh (fresh_append ops5_fresh (ops6_fresh))))))

/-- For any float values, from any memory with zero counters: every weakly fair execution of the reference
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- A buffer none of the operations writes keeps its contents through the whole line. -/
theorem arg_keep (V : Valuation τ sig (Elt F)) (r : Ref sig .tc) (h : r ∉ ops_W) :
    after ops V (Proc.devRef .tc r) = V (Proc.devRef .tc r) := by
  simp only [ops_W, List.mem_append, not_or] at h
  obtain ⟨h0, h1, h2, h3, h4, h5, h6⟩ := h
  simp only [ops, after_append]
  rw [keep6 _ r h6, keep5 _ r h5, keep4 _ r h4, keep3 _ r h3, keep2 _ r h2, keep1 _ r h1, keep0 _ r h0]

theorem main_arg0_not_written : main_arg0 ∉ ops_W := by decide
theorem main_arg1_not_written : main_arg1 ∉ ops_W := by decide
theorem main_arg2_not_written : main_arg2 ∉ ops_W := by decide
theorem main_arg3_not_written : main_arg3 ∉ ops_W := by decide
theorem main_arg4_not_written : main_arg4 ∉ ops_W := by decide
theorem main_arg5_not_written : main_arg5 ∉ ops_W := by decide
theorem main_arg6_not_written : main_arg6 ∉ ops_W := by decide
theorem main_arg7_not_written : main_arg7 ∉ ops_W := by decide
theorem main_arg8_not_written : main_arg8 ∉ ops_W := by decide
theorem main_arg9_not_written : main_arg9 ∉ ops_W := by decide
theorem main_arg10_not_written : main_arg10 ∉ ops_W := by decide
theorem main_arg11_not_written : main_arg11 ∉ ops_W := by decide
theorem main_arg12_not_written : main_arg12 ∉ ops_W := by decide

/-- The reference runs to the end without a fault and leaves its thirteen argument arrays as they were: no operation
    writes an argument buffer. -/
theorem frame_ri : Cert.frame_ReferenceIdeal := fun m g _ =>
  (θ_run (defs (F := Ideal)) _ _).mono
    (fun _ h c => ⟨(h c main_arg0).trans (arg_keep _ main_arg0 main_arg0_not_written),
      (h c main_arg1).trans (arg_keep _ main_arg1 main_arg1_not_written),
      (h c main_arg2).trans (arg_keep _ main_arg2 main_arg2_not_written),
      (h c main_arg3).trans (arg_keep _ main_arg3 main_arg3_not_written),
      (h c main_arg4).trans (arg_keep _ main_arg4 main_arg4_not_written),
      (h c main_arg5).trans (arg_keep _ main_arg5 main_arg5_not_written),
      (h c main_arg6).trans (arg_keep _ main_arg6 main_arg6_not_written),
      (h c main_arg7).trans (arg_keep _ main_arg7 main_arg7_not_written),
      (h c main_arg8).trans (arg_keep _ main_arg8 main_arg8_not_written),
      (h c main_arg9).trans (arg_keep _ main_arg9 main_arg9_not_written),
      (h c main_arg10).trans (arg_keep _ main_arg10 main_arg10_not_written),
      (h c main_arg11).trans (arg_keep _ main_arg11 main_arg11_not_written),
      (h c main_arg12).trans (arg_keep _ main_arg12 main_arg12_not_written)⟩)
    (run_main (F := Ideal) m g)

end Cert.ReferenceIdeal.RefRun

end
-- ==== Proof.RefRun.Post.lean ====
import proofs.«102976_j3633542332749_1_alg».proof.Proof.Gen.ReferenceIdeal
import Idealize.ShloMosaic.Lib.StableHlo.Run
import proofs.«102976_j3633542332749_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The reference's run in the shape the equality of results asks: for any per-device value `v0` that the operations'
    fold leaves in the result buffer, every weakly fair execution terminates with the result buffer at `v0` and the
    thirteen argument arrays as they were. -/
theorem run_post (m : (ℓ : Loc nD τ sig) → Buf (Elt Ideal) ℓ) (ρ : Dev nD → PrngReg)
    (v0 : (c : Dev nD) → Buf (Elt Ideal) ((c.tc : Thread nD τ).loc main_v365))
    (hv : ∀ c : Dev nD, after ops (launchContents m c) (Proc.devRef .tc main_v365) = v0 c) :
    θ_run (defs (F := Ideal)) (onTc (τ := τ) (main (F := Ideal))) ⟨m, fun _ => 0, ρ⟩ (fun r => ∀ c : Dev nD,
      r.2.mem ((c.tc : Thread nD τ).loc main_v365) = v0 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (defs (F := Ideal)) _ _).mono
    (fun _ h c => ⟨(h c main_v365).trans (hv c),
      (h c main_arg0).trans (arg_keep _ main_arg0 main_arg0_not_written),
      (h c main_arg1).trans (arg_keep _ main_arg1 main_arg1_not_written),
      (h c main_arg2).trans (arg_keep _ main_arg2 main_arg2_not_written),
      (h c main_arg3).trans (arg_keep _ main_arg3 main_arg3_not_written),
      (h c main_arg4).trans (arg_keep _ main_arg4 main_arg4_not_written),
      (h c main_arg5).trans (arg_keep _ main_arg5 main_arg5_not_written),
      (h c main_arg6).trans (arg_keep _ main_arg6 main_arg6_not_written),
      (h c main_arg7).trans (arg_keep _ main_arg7 main_arg7_not_written),
      (h c main_arg8).trans (arg_keep _ main_arg8 main_arg8_not_written),
      (h c main_arg9).trans (arg_keep _ main_arg9 main_arg9_not_written),
      (h c main_arg10).trans (arg_keep _ main_arg10 main_arg10_not_written),
      (h c main_arg11).trans (arg_keep _ main_arg11 main_arg11_not_written),
      (h c main_arg12).trans (arg_keep _ main_arg12 main_arg12_not_written)⟩)
    (run_main (F := Ideal) m ρ)

end Cert.ReferenceIdeal.RefRun

end
-- ==== Proof.KI.Carried.lean ====
/-
  Which buffers the items of @main carry: an activation array, once its layer has written it, is read by the next
  layer's first kernel through an input window and touched by nothing else, so it reaches the pooling stretch as it
  was written; the two rows of edge endpoints are written once, by the first stretch; every argument array holds its
  launch contents at every boundary.
-/
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102976_j3633542332749_1_alg».proof.Proof.KI.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_arg (c : Dev nD) (r : Ref sig .tc) (hr : r ∈ argsL) : W1 m ρ c (Proc.devRef .tc r) = m ((c : Thread nD τ).loc r) :=
  (W1_keep m ρ c r hr).trans <| rfl
theorem W2_arg (c : Dev nD) (r : Ref sig .tc) (hr : r ∈ argsL) : W2 m ρ c (Proc.devRef .tc r) = m ((c : Thread nD τ).loc r) :=
  (W2_keep m ρ c r hr).trans <| (W1_keep m ρ c r hr).trans <| rfl
theorem W3_arg (c : Dev nD) (r : Ref sig .tc) (hr : r ∈ argsL) : W3 m ρ c (Proc.devRef .tc r) = m ((c : Thread nD τ).loc r) :=
  (W3_keep m ρ c r hr).trans <| (W2_keep m ρ c r hr).trans <| (W1_keep m ρ c r hr).trans <| rfl
theorem W4_arg (c : Dev nD) (r : Ref sig .tc) (hr : r ∈ argsL) : W4 m ρ c (Proc.devRef .tc r) = m ((c : Thread nD τ).loc r) :=
  (W4_keep m ρ c r hr).trans <| (W3_keep m ρ c r hr).trans <| (W2_keep m ρ c r hr).trans <| (W1_keep m ρ c r hr).trans <| rfl
theorem W5_arg (c : Dev nD) (r : Ref sig .tc) (hr : r ∈ argsL) : W5 m ρ c (Proc.devRef .tc r) = m ((c : Thread nD τ).loc r) :=
  (W5_keep m ρ c r hr).trans <| (W4_keep m ρ c r hr).trans <| (W3_keep m ρ c r hr).trans <| (W2_keep m ρ c r hr).trans <| (W1_keep m ρ c r hr).trans <| rfl
theorem W6_arg (c : Dev nD) (r : Ref sig .tc) (hr : r ∈ argsL) : W6 m ρ c (Proc.devRef .tc r) = m ((c : Thread nD τ).loc r) :=
  (W6_keep m ρ c r hr).trans <| (W5_keep m ρ c r hr).trans <| (W4_keep m ρ c r hr).trans <| (W3_keep m ρ c r hr).trans <| (W2_keep m ρ c r hr).trans <| (W1_keep m ρ c r hr).trans <| rfl
theorem W7_arg (c : Dev nD) (r : Ref sig .tc) (hr : r ∈ argsL) : W7 m ρ c (Proc.devRef .tc r) = m ((c : Thread nD τ).loc r) :=
  (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W8_arg (c : Dev nD) (r : Ref sig .tc) (hr : r ∈ argsL) : W8 m ρ c (Proc.devRef .tc r) = m ((c : Thread nD τ).loc r) :=
  (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W9_arg (c : Dev nD) (r : Ref sig .tc) (hr : r ∈ argsL) : W9 m ρ c (Proc.devRef .tc r) = m ((c : Thread nD τ).loc r) :=
  (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W10_arg (c : Dev nD) (r : Ref sig .tc) (hr : r ∈ argsL) : W10 m ρ c (Proc.devRef .tc r) = m ((c : Thread nD τ).loc r) :=
  (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W11_arg (c : Dev nD) (r : Ref sig .tc) (hr : r ∈ argsL) : W11 m ρ c (Proc.devRef .tc r) = m ((c : Thread nD τ).loc r) :=
  (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W12_arg (c : Dev nD) (r : Ref sig .tc) (hr : r ∈ argsL) : W12 m ρ c (Proc.devRef .tc r) = m ((c : Thread nD τ).loc r) :=
  (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W13_arg (c : Dev nD) (r : Ref sig .tc) (hr : r ∈ argsL) : W13 m ρ c (Proc.devRef .tc r) = m ((c : Thread nD τ).loc r) :=
  (W13_keep m ρ c r hr).trans <| (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W14_arg (c : Dev nD) (r : Ref sig .tc) (hr : r ∈ argsL) : W14 m ρ c (Proc.devRef .tc r) = m ((c : Thread nD τ).loc r) :=
  (W14_keep m ρ c r hr).trans <| (W13_keep m ρ c r hr).trans <| (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W15_arg (c : Dev nD) (r : Ref sig .tc) (hr : r ∈ argsL) : W15 m ρ c (Proc.devRef .tc r) = m ((c : Thread nD τ).loc r) :=
  (W15_keep m ρ c r hr).trans <| (W14_keep m ρ c r hr).trans <| (W13_keep m ρ c r hr).trans <| (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W16_arg (c : Dev nD) (r : Ref sig .tc) (hr : r ∈ argsL) : W16 m ρ c (Proc.devRef .tc r) = m ((c : Thread nD τ).loc r) :=
  (W16_keep m ρ c r hr).trans <| (W15_keep m ρ c r hr).trans <| (W14_keep m ρ c r hr).trans <| (W13_keep m ρ c r hr).trans <| (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W17_arg (c : Dev nD) (r : Ref sig .tc) (hr : r ∈ argsL) : W17 m ρ c (Proc.devRef .tc r) = m ((c : Thread nD τ).loc r) :=
  (W17_keep m ρ c r hr).trans <| (W16_keep m ρ c r hr).trans <| (W15_keep m ρ c r hr).trans <| (W14_keep m ρ c r hr).trans <| (W13_keep m ρ c r hr).trans <| (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W18_arg (c : Dev nD) (r : Ref sig .tc) (hr : r ∈ argsL) : W18 m ρ c (Proc.devRef .tc r) = m ((c : Thread nD τ).loc r) :=
  (W18_keep m ρ c r hr).trans <| (W17_keep m ρ c r hr).trans <| (W16_keep m ρ c r hr).trans <| (W15_keep m ρ c r hr).trans <| (W14_keep m ρ c r hr).trans <| (W13_keep m ρ c r hr).trans <| (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W19_arg (c : Dev nD) (r : Ref sig .tc) (hr : r ∈ argsL) : W19 m ρ c (Proc.devRef .tc r) = m ((c : Thread nD τ).loc r) :=
  (W19_keep m ρ c r hr).trans <| (W18_keep m ρ c r hr).trans <| (W17_keep m ρ c r hr).trans <| (W16_keep m ρ c r hr).trans <| (W15_keep m ρ c r hr).trans <| (W14_keep m ρ c r hr).trans <| (W13_keep m ρ c r hr).trans <| (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W20_arg (c : Dev nD) (r : Ref sig .tc) (hr : r ∈ argsL) : W20 m ρ c (Proc.devRef .tc r) = m ((c : Thread nD τ).loc r) :=
  (W20_keep m ρ c r hr).trans <| (W19_keep m ρ c r hr).trans <| (W18_keep m ρ c r hr).trans <| (W17_keep m ρ c r hr).trans <| (W16_keep m ρ c r hr).trans <| (W15_keep m ρ c r hr).trans <| (W14_keep m ρ c r hr).trans <| (W13_keep m ρ c r hr).trans <| (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W21_arg (c : Dev nD) (r : Ref sig .tc) (hr : r ∈ argsL) : W21 m ρ c (Proc.devRef .tc r) = m ((c : Thread nD τ).loc r) :=
  (W21_keep m ρ c r hr).trans <| (W20_keep m ρ c r hr).trans <| (W19_keep m ρ c r hr).trans <| (W18_keep m ρ c r hr).trans <| (W17_keep m ρ c r hr).trans <| (W16_keep m ρ c r hr).trans <| (W15_keep m ρ c r hr).trans <| (W14_keep m ρ c r hr).trans <| (W13_keep m ρ c r hr).trans <| (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W22_arg (c : Dev nD) (r : Ref sig .tc) (hr : r ∈ argsL) : W22 m ρ c (Proc.devRef .tc r) = m ((c : Thread nD τ).loc r) :=
  (W22_keep m ρ c r hr).trans <| (W21_keep m ρ c r hr).trans <| (W20_keep m ρ c r hr).trans <| (W19_keep m ρ c r hr).trans <| (W18_keep m ρ c r hr).trans <| (W17_keep m ρ c r hr).trans <| (W16_keep m ρ c r hr).trans <| (W15_keep m ρ c r hr).trans <| (W14_keep m ρ c r hr).trans <| (W13_keep m ρ c r hr).trans <| (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W23_arg (c : Dev nD) (r : Ref sig .tc) (hr : r ∈ argsL) : W23 m ρ c (Proc.devRef .tc r) = m ((c : Thread nD τ).loc r) :=
  (W23_keep m ρ c r hr).trans <| (W22_keep m ρ c r hr).trans <| (W21_keep m ρ c r hr).trans <| (W20_keep m ρ c r hr).trans <| (W19_keep m ρ c r hr).trans <| (W18_keep m ρ c r hr).trans <| (W17_keep m ρ c r hr).trans <| (W16_keep m ρ c r hr).trans <| (W15_keep m ρ c r hr).trans <| (W14_keep m ρ c r hr).trans <| (W13_keep m ρ c r hr).trans <| (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W24_arg (c : Dev nD) (r : Ref sig .tc) (hr : r ∈ argsL) : W24 m ρ c (Proc.devRef .tc r) = m ((c : Thread nD τ).loc r) :=
  (W24_keep m ρ c r hr).trans <| (W23_keep m ρ c r hr).trans <| (W22_keep m ρ c r hr).trans <| (W21_keep m ρ c r hr).trans <| (W20_keep m ρ c r hr).trans <| (W19_keep m ρ c r hr).trans <| (W18_keep m ρ c r hr).trans <| (W17_keep m ρ c r hr).trans <| (W16_keep m ρ c r hr).trans <| (W15_keep m ρ c r hr).trans <| (W14_keep m ρ c r hr).trans <| (W13_keep m ρ c r hr).trans <| (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W25_arg (c : Dev nD) (r : Ref sig .tc) (hr : r ∈ argsL) : W25 m ρ c (Proc.devRef .tc r) = m ((c : Thread nD τ).loc r) :=
  (W25_keep m ρ c r hr).trans <| (W24_keep m ρ c r hr).trans <| (W23_keep m ρ c r hr).trans <| (W22_keep m ρ c r hr).trans <| (W21_keep m ρ c r hr).trans <| (W20_keep m ρ c r hr).trans <| (W19_keep m ρ c r hr).trans <| (W18_keep m ρ c r hr).trans <| (W17_keep m ρ c r hr).trans <| (W16_keep m ρ c r hr).trans <| (W15_keep m ρ c r hr).trans <| (W14_keep m ρ c r hr).trans <| (W13_keep m ρ c r hr).trans <| (W12_keep m ρ c r hr).trans <| (W11_keep m ρ c r hr).trans <| (W10_keep m ρ c r hr).trans <| (W9_keep m ρ c r hr).trans <| (W8_keep m ρ c r hr).trans <| (W7_keep m ρ c r hr).trans <| (W6_keep m ρ c r hr).trans <| (W5_keep m ρ c r hr).trans <| (W4_keep m ρ c r hr).trans <| (W3_keep m ρ c r hr).trans <| (W2_keep m ρ c r hr).trans <| (W1_keep m ρ c r hr).trans <| rfl
theorem W24_h1 (c : Dev nD) : W24 m ρ c (Proc.devRef .tc main_v62) = W6 m ρ c (Proc.devRef .tc main_v62) :=
  (show W24 m ρ c (Proc.devRef .tc main_v62) = W23 m ρ c (Proc.devRef .tc main_v62) from (W24_of_ne m ρ c main_v62 (by decide))).trans <|
  (show W23 m ρ c (Proc.devRef .tc main_v62) = W22 m ρ c (Proc.devRef .tc main_v62) from (StableHlo.after_of_writes_sub hostOps11 _ hostOps11_writes (by decide : main_v62 ∉ hostOps11_W))).trans <|
  (show W22 m ρ c (Proc.devRef .tc main_v62) = W21 m ρ c (Proc.devRef .tc main_v62) from (W22_of_ne m ρ c main_v62 (by decide))).trans <|
  (show W21 m ρ c (Proc.devRef .tc main_v62) = W20 m ρ c (Proc.devRef .tc main_v62) from (StableHlo.after_of_writes_sub hostOps10 _ hostOps10_writes (by decide : main_v62 ∉ hostOps10_W))).trans <|
  (show W20 m ρ c (Proc.devRef .tc main_v62) = W19 m ρ c (Proc.devRef .tc main_v62) from (W20_of_ne m ρ c main_v62 (by decide))).trans <|
  (show W19 m ρ c (Proc.devRef .tc main_v62) = W18 m ρ c (Proc.devRef .tc main_v62) from (StableHlo.after_of_writes_sub hostOps9 _ hostOps9_writes (by decide : main_v62 ∉ hostOps9_W))).trans <|
  (show W18 m ρ c (Proc.devRef .tc main_v62) = W17 m ρ c (Proc.devRef .tc main_v62) from (W18_of_ne m ρ c main_v62 (by decide))).trans <|
  (show W17 m ρ c (Proc.devRef .tc main_v62) = W16 m ρ c (Proc.devRef .tc main_v62) from (StableHlo.after_of_writes_sub hostOps8 _ hostOps8_writes (by decide : main_v62 ∉ hostOps8_W))).trans <|
  (show W16 m ρ c (Proc.devRef .tc main_v62) = W15 m ρ c (Proc.devRef .tc main_v62) from (W16_of_ne m ρ c main_v62 (by decide))).trans <|
  (show W15 m ρ c (Proc.devRef .tc main_v62) = W14 m ρ c (Proc.devRef .tc main_v62) from (StableHlo.after_of_writes_sub hostOps7 _ hostOps7_writes (by decide : main_v62 ∉ hostOps7_W))).trans <|
  (show W14 m ρ c (Proc.devRef .tc main_v62) = W13 m ρ c (Proc.devRef .tc main_v62) from (W14_of_ne m ρ c main_v62 (by decide))).trans <|
  (show W13 m ρ c (Proc.devRef .tc main_v62) = W12 m ρ c (Proc.devRef .tc main_v62) from (StableHlo.after_of_writes_sub hostOps6 _ hostOps6_writes (by decide : main_v62 ∉ hostOps6_W))).trans <|
  (show W12 m ρ c (Proc.devRef .tc main_v62) = W11 m ρ c (Proc.devRef .tc main_v62) from (W12_of_ne m ρ c main_v62 (by decide))).trans <|
  (show W11 m ρ c (Proc.devRef .tc main_v62) = W10 m ρ c (Proc.devRef .tc main_v62) from (StableHlo.after_of_writes_sub hostOps5 _ hostOps5_writes (by decide : main_v62 ∉ hostOps5_W))).trans <|
  (show W10 m ρ c (Proc.devRef .tc main_v62) = W9 m ρ c (Proc.devRef .tc main_v62) from (W10_of_ne m ρ c main_v62 (by decide))).trans <|
  (show W9 m ρ c (Proc.devRef .tc main_v62) = W8 m ρ c (Proc.devRef .tc main_v62) from (StableHlo.after_of_writes_sub hostOps4 _ hostOps4_writes (by decide : main_v62 ∉ hostOps4_W))).trans <|
  (show W8 m ρ c (Proc.devRef .tc main_v62) = W7 m ρ c (Proc.devRef .tc main_v62) from ((W8_arr m ρ c 0).trans (((dat3 (V7 m ρ) c).arrAt_in 0 rfl _).trans (A_eq3 (V7 m ρ) c 0)))).trans <|
  (show W7 m ρ c (Proc.devRef .tc main_v62) = W6 m ρ c (Proc.devRef .tc main_v62) from (StableHlo.after_of_writes_sub hostOps3 _ hostOps3_writes (by decide : main_v62 ∉ hostOps3_W))).trans <| rfl
theorem W24_h2 (c : Dev nD) : W24 m ρ c (Proc.devRef .tc main_v121) = W12 m ρ c (Proc.devRef .tc main_v121) :=
  (show W24 m ρ c (Proc.devRef .tc main_v121) = W23 m ρ c (Proc.devRef .tc main_v121) from (W24_of_ne m ρ c main_v121 (by decide))).trans <|
  (show W23 m ρ c (Proc.devRef .tc main_v121) = W22 m ρ c (Proc.devRef .tc main_v121) from (StableHlo.after_of_writes_sub hostOps11 _ hostOps11_writes (by decide : main_v121 ∉ hostOps11_W))).trans <|
  (show W22 m ρ c (Proc.devRef .tc main_v121) = W21 m ρ c (Proc.devRef .tc main_v121) from (W22_of_ne m ρ c main_v121 (by decide))).trans <|
  (show W21 m ρ c (Proc.devRef .tc main_v121) = W20 m ρ c (Proc.devRef .tc main_v121) from (StableHlo.after_of_writes_sub hostOps10 _ hostOps10_writes (by decide : main_v121 ∉ hostOps10_W))).trans <|
  (show W20 m ρ c (Proc.devRef .tc main_v121) = W19 m ρ c (Proc.devRef .tc main_v121) from (W20_of_ne m ρ c main_v121 (by decide))).trans <|
  (show W19 m ρ c (Proc.devRef .tc main_v121) = W18 m ρ c (Proc.devRef .tc main_v121) from (StableHlo.after_of_writes_sub hostOps9 _ hostOps9_writes (by decide : main_v121 ∉ hostOps9_W))).trans <|
  (show W18 m ρ c (Proc.devRef .tc main_v121) = W17 m ρ c (Proc.devRef .tc main_v121) from (W18_of_ne m ρ c main_v121 (by decide))).trans <|
  (show W17 m ρ c (Proc.devRef .tc main_v121) = W16 m ρ c (Proc.devRef .tc main_v121) from (StableHlo.after_of_writes_sub hostOps8 _ hostOps8_writes (by decide : main_v121 ∉ hostOps8_W))).trans <|
  (show W16 m ρ c (Proc.devRef .tc main_v121) = W15 m ρ c (Proc.devRef .tc main_v121) from (W16_of_ne m ρ c main_v121 (by decide))).trans <|
  (show W15 m ρ c (Proc.devRef .tc main_v121) = W14 m ρ c (Proc.devRef .tc main_v121) from (StableHlo.after_of_writes_sub hostOps7 _ hostOps7_writes (by decide : main_v121 ∉ hostOps7_W))).trans <|
  (show W14 m ρ c (Proc.devRef .tc main_v121) = W13 m ρ c (Proc.devRef .tc main_v121) from ((W14_arr m ρ c 0).trans (((dat6 (V13 m ρ) c).arrAt_in 0 rfl _).trans (A_eq6 (V13 m ρ) c 0)))).trans <|
  (show W13 m ρ c (Proc.devRef .tc main_v121) = W12 m ρ c (Proc.devRef .tc main_v121) from (StableHlo.after_of_writes_sub hostOps6 _ hostOps6_writes (by decide : main_v121 ∉ hostOps6_W))).trans <| rfl
theorem W24_h3 (c : Dev nD) : W24 m ρ c (Proc.devRef .tc main_v180) = W18 m ρ c (Proc.devRef .tc main_v180) :=
  (show W24 m ρ c (Proc.devRef .tc main_v180) = W23 m ρ c (Proc.devRef .tc main_v180) from (W24_of_ne m ρ c main_v180 (by decide))).trans <|
  (show W23 m ρ c (Proc.devRef .tc main_v180) = W22 m ρ c (Proc.devRef .tc main_v180) from (StableHlo.after_of_writes_sub hostOps11 _ hostOps11_writes (by decide : main_v180 ∉ hostOps11_W))).trans <|
  (show W22 m ρ c (Proc.devRef .tc main_v180) = W21 m ρ c (Proc.devRef .tc main_v180) from (W22_of_ne m ρ c main_v180 (by decide))).trans <|
  (show W21 m ρ c (Proc.devRef .tc main_v180) = W20 m ρ c (Proc.devRef .tc main_v180) from (StableHlo.after_of_writes_sub hostOps10 _ hostOps10_writes (by decide : main_v180 ∉ hostOps10_W))).trans <|
  (show W20 m ρ c (Proc.devRef .tc main_v180) = W19 m ρ c (Proc.devRef .tc main_v180) from ((W20_arr m ρ c 0).trans (((dat9 (V19 m ρ) c).arrAt_in 0 rfl _).trans (A_eq9 (V19 m ρ) c 0)))).trans <|
  (show W19 m ρ c (Proc.devRef .tc main_v180) = W18 m ρ c (Proc.devRef .tc main_v180) from (StableHlo.after_of_writes_sub hostOps9 _ hostOps9_writes (by decide : main_v180 ∉ hostOps9_W))).trans <| rfl
theorem W24_h4 (c : Dev nD) : W24 m ρ c (Proc.devRef .tc main_v239) = W24 m ρ c (Proc.devRef .tc main_v239) :=
  rfl
theorem W6_src (c : Dev nD) : W6 m ρ c (Proc.devRef .tc main_v1) = W1 m ρ c (Proc.devRef .tc main_v1) :=
  (show W6 m ρ c (Proc.devRef .tc main_v1) = W5 m ρ c (Proc.devRef .tc main_v1) from (W6_of_ne m ρ c main_v1 (by decide))).trans <|
  (show W5 m ρ c (Proc.devRef .tc main_v1) = W4 m ρ c (Proc.devRef .tc main_v1) from (StableHlo.after_of_writes_sub hostOps2 _ hostOps2_writes (by decide : main_v1 ∉ hostOps2_W))).trans <|
  (show W4 m ρ c (Proc.devRef .tc main_v1) = W3 m ρ c (Proc.devRef .tc main_v1) from (W4_of_ne m ρ c main_v1 (by decide))).trans <|
  (show W3 m ρ c (Proc.devRef .tc main_v1) = W2 m ρ c (Proc.devRef .tc main_v1) from (StableHlo.after_of_writes_sub hostOps1 _ hostOps1_writes (by decide : main_v1 ∉ hostOps1_W))).trans <|
  (show W2 m ρ c (Proc.devRef .tc main_v1) = W1 m ρ c (Proc.devRef .tc main_v1) from (W2_of_ne m ρ c main_v1 (by decide))).trans <| rfl
theorem W6_dst (c : Dev nD) : W6 m ρ c (Proc.devRef .tc main_v3) = W1 m ρ c (Proc.devRef .tc main_v3) :=
  (show W6 m ρ c (Proc.devRef .tc main_v3) = W5 m ρ c (Proc.devRef .tc main_v3) from (W6_of_ne m ρ c main_v3 (by decide))).trans <|
  (show W5 m ρ c (Proc.devRef .tc main_v3) = W4 m ρ c (Proc.devRef .tc main_v3) from (StableHlo.after_of_writes_sub hostOps2 _ hostOps2_writes (by decide : main_v3 ∉ hostOps2_W))).trans <|
  (show W4 m ρ c (Proc.devRef .tc main_v3) = W3 m ρ c (Proc.devRef .tc main_v3) from (W4_of_ne m ρ c main_v3 (by decide))).trans <|
  (show W3 m ρ c (Proc.devRef .tc main_v3) = W2 m ρ c (Proc.devRef .tc main_v3) from (StableHlo.after_of_writes_sub hostOps1 _ hostOps1_writes (by decide : main_v3 ∉ hostOps1_W))).trans <|
  (show W2 m ρ c (Proc.devRef .tc main_v3) = W1 m ρ c (Proc.devRef .tc main_v3) from (W2_of_ne m ρ c main_v3 (by decide))).trans <| rfl
theorem W12_src (c : Dev nD) : W12 m ρ c (Proc.devRef .tc main_v1) = W1 m ρ c (Proc.devRef .tc main_v1) :=
  (show W12 m ρ c (Proc.devRef .tc main_v1) = W11 m ρ c (Proc.devRef .tc main_v1) from (W12_of_ne m ρ c main_v1 (by decide))).trans <|
  (show W11 m ρ c (Proc.devRef .tc main_v1) = W10 m ρ c (Proc.devRef .tc main_v1) from (StableHlo.after_of_writes_sub hostOps5 _ hostOps5_writes (by decide : main_v1 ∉ hostOps5_W))).trans <|
  (show W10 m ρ c (Proc.devRef .tc main_v1) = W9 m ρ c (Proc.devRef .tc main_v1) from (W10_of_ne m ρ c main_v1 (by decide))).trans <|
  (show W9 m ρ c (Proc.devRef .tc main_v1) = W8 m ρ c (Proc.devRef .tc main_v1) from (StableHlo.after_of_writes_sub hostOps4 _ hostOps4_writes (by decide : main_v1 ∉ hostOps4_W))).trans <|
  (show W8 m ρ c (Proc.devRef .tc main_v1) = W7 m ρ c (Proc.devRef .tc main_v1) from (W8_of_ne m ρ c main_v1 (by decide))).trans <|
  (show W7 m ρ c (Proc.devRef .tc main_v1) = W6 m ρ c (Proc.devRef .tc main_v1) from (StableHlo.after_of_writes_sub hostOps3 _ hostOps3_writes (by decide : main_v1 ∉ hostOps3_W))).trans <|
  (show W6 m ρ c (Proc.devRef .tc main_v1) = W5 m ρ c (Proc.devRef .tc main_v1) from (W6_of_ne m ρ c main_v1 (by decide))).trans <|
  (show W5 m ρ c (Proc.devRef .tc main_v1) = W4 m ρ c (Proc.devRef .tc main_v1) from (StableHlo.after_of_writes_sub hostOps2 _ hostOps2_writes (by decide : main_v1 ∉ hostOps2_W))).trans <|
  (show W4 m ρ c (Proc.devRef .tc main_v1) = W3 m ρ c (Proc.devRef .tc main_v1) from (W4_of_ne m ρ c main_v1 (by decide))).trans <|
  (show W3 m ρ c (Proc.devRef .tc main_v1) = W2 m ρ c (Proc.devRef .tc main_v1) from (StableHlo.after_of_writes_sub hostOps1 _ hostOps1_writes (by decide : main_v1 ∉ hostOps1_W))).trans <|
  (show W2 m ρ c (Proc.devRef .tc main_v1) = W1 m ρ c (Proc.devRef .tc main_v1) from (W2_of_ne m ρ c main_v1 (by decide))).trans <| rfl
theorem W12_dst (c : Dev nD) : W12 m ρ c (Proc.devRef .tc main_v3) = W1 m ρ c (Proc.devRef .tc main_v3) :=
  (show W12 m ρ c (Proc.devRef .tc main_v3) = W11 m ρ c (Proc.devRef .tc main_v3) from (W12_of_ne m ρ c main_v3 (by decide))).trans <|
  (show W11 m ρ c (Proc.devRef .tc main_v3) = W10 m ρ c (Proc.devRef .tc main_v3) from (StableHlo.after_of_writes_sub hostOps5 _ hostOps5_writes (by decide : main_v3 ∉ hostOps5_W))).trans <|
  (show W10 m ρ c (Proc.devRef .tc main_v3) = W9 m ρ c (Proc.devRef .tc main_v3) from (W10_of_ne m ρ c main_v3 (by decide))).trans <|
  (show W9 m ρ c (Proc.devRef .tc main_v3) = W8 m ρ c (Proc.devRef .tc main_v3) from (StableHlo.after_of_writes_sub hostOps4 _ hostOps4_writes (by decide : main_v3 ∉ hostOps4_W))).trans <|
  (show W8 m ρ c (Proc.devRef .tc main_v3) = W7 m ρ c (Proc.devRef .tc main_v3) from (W8_of_ne m ρ c main_v3 (by decide))).trans <|
  (show W7 m ρ c (Proc.devRef .tc main_v3) = W6 m ρ c (Proc.devRef .tc main_v3) from (StableHlo.after_of_writes_sub hostOps3 _ hostOps3_writes (by decide : main_v3 ∉ hostOps3_W))).trans <|
  (show W6 m ρ c (Proc.devRef .tc main_v3) = W5 m ρ c (Proc.devRef .tc main_v3) from (W6_of_ne m ρ c main_v3 (by decide))).trans <|
  (show W5 m ρ c (Proc.devRef .tc main_v3) = W4 m ρ c (Proc.devRef .tc main_v3) from (StableHlo.after_of_writes_sub hostOps2 _ hostOps2_writes (by decide : main_v3 ∉ hostOps2_W))).trans <|
  (show W4 m ρ c (Proc.devRef .tc main_v3) = W3 m ρ c (Proc.devRef .tc main_v3) from (W4_of_ne m ρ c main_v3 (by decide))).trans <|
  (show W3 m ρ c (Proc.devRef .tc main_v3) = W2 m ρ c (Proc.devRef .tc main_v3) from (StableHlo.after_of_writes_sub hostOps1 _ hostOps1_writes (by decide : main_v3 ∉ hostOps1_W))).trans <|
  (show W2 m ρ c (Proc.devRef .tc main_v3) = W1 m ρ c (Proc.devRef .tc main_v3) from (W2_of_ne m ρ c main_v3 (by decide))).trans <| rfl
theorem W18_src (c : Dev nD) : W18 m ρ c (Proc.devRef .tc main_v1) = W1 m ρ c (Proc.devRef .tc main_v1) :=
  (show W18 m ρ c (Proc.devRef .tc main_v1) = W17 m ρ c (Proc.devRef .tc main_v1) from (W18_of_ne m ρ c main_v1 (by decide))).trans <|
  (show W17 m ρ c (Proc.devRef .tc main_v1) = W16 m ρ c (Proc.devRef .tc main_v1) from (StableHlo.after_of_writes_sub hostOps8 _ hostOps8_writes (by decide : main_v1 ∉ hostOps8_W))).trans <|
  (show W16 m ρ c (Proc.devRef .tc main_v1) = W15 m ρ c (Proc.devRef .tc main_v1) from (W16_of_ne m ρ c main_v1 (by decide))).trans <|
  (show W15 m ρ c (Proc.devRef .tc main_v1) = W14 m ρ c (Proc.devRef .tc main_v1) from (StableHlo.after_of_writes_sub hostOps7 _ hostOps7_writes (by decide : main_v1 ∉ hostOps7_W))).trans <|
  (show W14 m ρ c (Proc.devRef .tc main_v1) = W13 m ρ c (Proc.devRef .tc main_v1) from (W14_of_ne m ρ c main_v1 (by decide))).trans <|
  (show W13 m ρ c (Proc.devRef .tc main_v1) = W12 m ρ c (Proc.devRef .tc main_v1) from (StableHlo.after_of_writes_sub hostOps6 _ hostOps6_writes (by decide : main_v1 ∉ hostOps6_W))).trans <|
  (show W12 m ρ c (Proc.devRef .tc main_v1) = W11 m ρ c (Proc.devRef .tc main_v1) from (W12_of_ne m ρ c main_v1 (by decide))).trans <|
  (show W11 m ρ c (Proc.devRef .tc main_v1) = W10 m ρ c (Proc.devRef .tc main_v1) from (StableHlo.after_of_writes_sub hostOps5 _ hostOps5_writes (by decide : main_v1 ∉ hostOps5_W))).trans <|
  (show W10 m ρ c (Proc.devRef .tc main_v1) = W9 m ρ c (Proc.devRef .tc main_v1) from (W10_of_ne m ρ c main_v1 (by decide))).trans <|
  (show W9 m ρ c (Proc.devRef .tc main_v1) = W8 m ρ c (Proc.devRef .tc main_v1) from (StableHlo.after_of_writes_sub hostOps4 _ hostOps4_writes (by decide : main_v1 ∉ hostOps4_W))).trans <|
  (show W8 m ρ c (Proc.devRef .tc main_v1) = W7 m ρ c (Proc.devRef .tc main_v1) from (W8_of_ne m ρ c main_v1 (by decide))).trans <|
  (show W7 m ρ c (Proc.devRef .tc main_v1) = W6 m ρ c (Proc.devRef .tc main_v1) from (StableHlo.after_of_writes_sub hostOps3 _ hostOps3_writes (by decide : main_v1 ∉ hostOps3_W))).trans <|
  (show W6 m ρ c (Proc.devRef .tc main_v1) = W5 m ρ c (Proc.devRef .tc main_v1) from (W6_of_ne m ρ c main_v1 (by decide))).trans <|
  (show W5 m ρ c (Proc.devRef .tc main_v1) = W4 m ρ c (Proc.devRef .tc main_v1) from (StableHlo.after_of_writes_sub hostOps2 _ hostOps2_writes (by decide : main_v1 ∉ hostOps2_W))).trans <|
  (show W4 m ρ c (Proc.devRef .tc main_v1) = W3 m ρ c (Proc.devRef .tc main_v1) from (W4_of_ne m ρ c main_v1 (by decide))).trans <|
  (show W3 m ρ c (Proc.devRef .tc main_v1) = W2 m ρ c (Proc.devRef .tc main_v1) from (StableHlo.after_of_writes_sub hostOps1 _ hostOps1_writes (by decide : main_v1 ∉ hostOps1_W))).trans <|
  (show W2 m ρ c (Proc.devRef .tc main_v1) = W1 m ρ c (Proc.devRef .tc main_v1) from (W2_of_ne m ρ c main_v1 (by decide))).trans <| rfl
theorem W18_dst (c : Dev nD) : W18 m ρ c (Proc.devRef .tc main_v3) = W1 m ρ c (Proc.devRef .tc main_v3) :=
  (show W18 m ρ c (Proc.devRef .tc main_v3) = W17 m ρ c (Proc.devRef .tc main_v3) from (W18_of_ne m ρ c main_v3 (by decide))).trans <|
  (show W17 m ρ c (Proc.devRef .tc main_v3) = W16 m ρ c (Proc.devRef .tc main_v3) from (StableHlo.after_of_writes_sub hostOps8 _ hostOps8_writes (by decide : main_v3 ∉ hostOps8_W))).trans <|
  (show W16 m ρ c (Proc.devRef .tc main_v3) = W15 m ρ c (Proc.devRef .tc main_v3) from (W16_of_ne m ρ c main_v3 (by decide))).trans <|
  (show W15 m ρ c (Proc.devRef .tc main_v3) = W14 m ρ c (Proc.devRef .tc main_v3) from (StableHlo.after_of_writes_sub hostOps7 _ hostOps7_writes (by decide : main_v3 ∉ hostOps7_W))).trans <|
  (show W14 m ρ c (Proc.devRef .tc main_v3) = W13 m ρ c (Proc.devRef .tc main_v3) from (W14_of_ne m ρ c main_v3 (by decide))).trans <|
  (show W13 m ρ c (Proc.devRef .tc main_v3) = W12 m ρ c (Proc.devRef .tc main_v3) from (StableHlo.after_of_writes_sub hostOps6 _ hostOps6_writes (by decide : main_v3 ∉ hostOps6_W))).trans <|
  (show W12 m ρ c (Proc.devRef .tc main_v3) = W11 m ρ c (Proc.devRef .tc main_v3) from (W12_of_ne m ρ c main_v3 (by decide))).trans <|
  (show W11 m ρ c (Proc.devRef .tc main_v3) = W10 m ρ c (Proc.devRef .tc main_v3) from (StableHlo.after_of_writes_sub hostOps5 _ hostOps5_writes (by decide : main_v3 ∉ hostOps5_W))).trans <|
  (show W10 m ρ c (Proc.devRef .tc main_v3) = W9 m ρ c (Proc.devRef .tc main_v3) from (W10_of_ne m ρ c main_v3 (by decide))).trans <|
  (show W9 m ρ c (Proc.devRef .tc main_v3) = W8 m ρ c (Proc.devRef .tc main_v3) from (StableHlo.after_of_writes_sub hostOps4 _ hostOps4_writes (by decide : main_v3 ∉ hostOps4_W))).trans <|
  (show W8 m ρ c (Proc.devRef .tc main_v3) = W7 m ρ c (Proc.devRef .tc main_v3) from (W8_of_ne m ρ c main_v3 (by decide))).trans <|
  (show W7 m ρ c (Proc.devRef .tc main_v3) = W6 m ρ c (Proc.devRef .tc main_v3) from (StableHlo.after_of_writes_sub hostOps3 _ hostOps3_writes (by decide : main_v3 ∉ hostOps3_W))).trans <|
  (show W6 m ρ c (Proc.devRef .tc main_v3) = W5 m ρ c (Proc.devRef .tc main_v3) from (W6_of_ne m ρ c main_v3 (by decide))).trans <|
  (show W5 m ρ c (Proc.devRef .tc main_v3) = W4 m ρ c (Proc.devRef .tc main_v3) from (StableHlo.after_of_writes_sub hostOps2 _ hostOps2_writes (by decide : main_v3 ∉ hostOps2_W))).trans <|
  (show W4 m ρ c (Proc.devRef .tc main_v3) = W3 m ρ c (Proc.devRef .tc main_v3) from (W4_of_ne m ρ c main_v3 (by decide))).trans <|
  (show W3 m ρ c (Proc.devRef .tc main_v3) = W2 m ρ c (Proc.devRef .tc main_v3) from (StableHlo.after_of_writes_sub hostOps1 _ hostOps1_writes (by decide : main_v3 ∉ hostOps1_W))).trans <|
  (show W2 m ρ c (Proc.devRef .tc main_v3) = W1 m ρ c (Proc.devRef .tc main_v3) from (W2_of_ne m ρ c main_v3 (by decide))).trans <| rfl

end Cert.KernelIdeal.Hand

end
-- ==== Proof.KI.Stages.lean ====
import proofs.«102976_j3633542332749_1_alg».proof.Proof.Gen.KernelIdeal.Launch
import Idealize.ShloMosaic.Lib.StableHlo.Run
import Idealize.ShloMosaic.Lib.ValueIdx
import Idealize.ShloMosaic.Lib.Pipeline.Value
import Idealize.ShloMosaic.PureOps.Ideal.Laws

/-! # The column statistics between the calls

Between a call that leaves a column sum `s` and a column sum of squares `q` (two rows of 128 entries) and the call
that normalises, the program computes, column by column: the mean `s / n`, the variance `q / n - mean * mean`, the
scale `g * rsqrt (variance + ε)` and the shift `b - mean * scale`, where `g` and `b` are row `i` of two 4 by 128
parameter arrays for layer `i`, `n` is the node count and `ε` a small constant, both repeated along the row. It
also cuts layer `i`'s 128 by 128 weight matrix and bias row out of their 4-layer arrays. Each of these is stated here
as ONE function of the buffers the stretch of operations starts from, for any contents of those buffers, and then
read at a column on the extended reals. -/

noncomputable section

namespace Cert.KernelIdeal.Hand

open Cert.KernelIdeal Cert.KernelIdeal.Gen Idealize.ShloMosaic Idealize.ShloMosaic.TcCoe
open Idealize.ShloMosaic.ValueIdx

variable {F : FTy → Type} [FloatOps F]

/-! ## The quantities, as functions of rows -/

/-- The node count, repeated along a row. -/
def countRow : FVec F S1x128 .f32 := broadcastInDim S1x128 ![] bcast_S_S1x128 (constant S_ .f32 0x47435000#32)
/-- The small constant added to a variance, repeated along a row. -/
def epsRow : FVec F S1x128 .f32 := broadcastInDim S1x128 ![] bcast_S_S1x128 (constant S_ .f32 0x3727C5AC#32)
/-- The column means from the column sums. -/
def meanOf (sum : FVec F S1x128 .f32) : FVec F S1x128 .f32 := Host.divf sum countRow
/-- The column variances from the sums and the sums of squares: mean of squares minus square of mean. -/
def varOf (sum sumsq : FVec F S1x128 .f32) : FVec F S1x128 .f32 :=
  subf (Host.divf sumsq countRow) (mulf (meanOf sum) (meanOf sum))
/-- The per-column scale `g * rsqrt (variance + ε)`. -/
def scaleOf (g sum sumsq : FVec F S1x128 .f32) : FVec F S1x128 .f32 :=
  mulf g (Host.rsqrt (addf (varOf sum sumsq) epsRow))
/-- The per-column shift `b - mean * scale`. -/
def shiftOf (b g sum sumsq : FVec F S1x128 .f32) : FVec F S1x128 .f32 :=
  subf b (mulf (meanOf sum) (scaleOf g sum sumsq))
/-- One row of a 4 by 128 parameter array, as a 1 by 128 row (sliced, flattened, and made a row again). -/
def rowOf (off : Fin 2 → Nat) (h : S4x128.Slices off S1x128) (A : FVec F S4x128 .f32) : FVec F S1x128 .f32 :=
  shapeCast S1x128 (shapeCast S128 (extractStridedSlice S1x128 off A h) shapeCasts_S1x128_S128) shapeCasts_S128_S1x128
/-- One 128 by 128 matrix of a 4 by 128 by 128 parameter array. -/
def matOf (off : Fin 3 → Nat) (h : S4x128x128.Slices off S1x128x128) (A : FVec F S4x128x128 .f32) : FVec F S128x128 .f32 :=
  shapeCast S128x128 (extractStridedSlice S1x128x128 off A h) shapeCasts_S1x128x128_S128x128

/-! ## What each stretch leaves, for any contents `W` of the buffers it starts from -/

section Stretches

variable (W : Valuation τ sig (Elt F))

/-! ### After the first call of layer 0 -/

set_option maxHeartbeats 2000000 in
/-- The scale row the second call of layer 0 reads. -/
theorem scale_after1 : (StableHlo.after hostOps1 W (Proc.devRef .tc main_v32) : FVec F S1x128 .f32)
    = scaleOf (rowOf ![0, 0] slices_S4x128_S1x128_0_0 (W (Proc.devRef .tc main_arg7))) (W (Proc.devRef .tc main_v19_1)) (W (Proc.devRef .tc main_v19_2)) := by
  after_results_simp; rfl
set_option maxHeartbeats 2000000 in
/-- The shift row it reads. -/
theorem shift_after1 : (StableHlo.after hostOps1 W (Proc.devRef .tc main_v37) : FVec F S1x128 .f32)
    = shiftOf (rowOf ![0, 0] slices_S4x128_S1x128_0_0 (W (Proc.devRef .tc main_arg8))) (rowOf ![0, 0] slices_S4x128_S1x128_0_0 (W (Proc.devRef .tc main_arg7))) (W (Proc.devRef .tc main_v19_1)) (W (Proc.devRef .tc main_v19_2)) := by
  after_results_simp; rfl
/-- The weight matrix it reads: layer 0's. -/
theorem weight_after1 : (StableHlo.after hostOps1 W (Proc.devRef .tc main_v39) : FVec F S128x128 .f32)
    = matOf ![0, 0, 0] slices_S4x128x128_S1x128x128_0_0_0 (W (Proc.devRef .tc main_arg5)) := by
  after_results; rfl
/-- The bias row it reads: layer 0's. -/
theorem bias_after1 : (StableHlo.after hostOps1 W (Proc.devRef .tc main_v42) : FVec F S1x128 .f32)
    = rowOf ![0, 0] slices_S4x128_S1x128_0_0 (W (Proc.devRef .tc main_arg6)) := by
  after_results; rfl
/-- The array of pre-activations it reads is not touched. -/
theorem z_after1 : StableHlo.after hostOps1 W (Proc.devRef .tc main_v19_0) = W (Proc.devRef .tc main_v19_0) := by
  after_results

/-! ### After the first call of layer 1 -/

set_option maxHeartbeats 2000000 in
/-- The scale row the second call of layer 1 reads. -/
theorem scale_after4 : (StableHlo.after hostOps4 W (Proc.devRef .tc main_v91) : FVec F S1x128 .f32)
    = scaleOf (rowOf ![1, 0] slices_S4x128_S1x128_1_0 (W (Proc.devRef .tc main_arg7))) (W (Proc.devRef .tc main_v78_1)) (W (Proc.devRef .tc main_v78_2)) := by
  after_results_simp; rfl
set_option maxHeartbeats 2000000 in
/-- The shift row it reads. -/
theorem shift_after4 : (StableHlo.after hostOps4 W (Proc.devRef .tc main_v96) : FVec F S1x128 .f32)
    = shiftOf (rowOf ![1, 0] slices_S4x128_S1x128_1_0 (W (Proc.devRef .tc main_arg8))) (rowOf ![1, 0] slices_S4x128_S1x128_1_0 (W (Proc.devRef .tc main_arg7))) (W (Proc.devRef .tc main_v78_1)) (W (Proc.devRef .tc main_v78_2)) := by
  after_results_simp; rfl
/-- The weight matrix it reads: layer 1's. -/
theorem weight_after4 : (StableHlo.after hostOps4 W (Proc.devRef .tc main_v98) : FVec F S128x128 .f32)
    = matOf ![1, 0, 0] slices_S4x128x128_S1x128x128_1_0_0 (W (Proc.devRef .tc main_arg5)) := by
  after_results; rfl
/-- The bias row it reads: layer 1's. -/
theorem bias_after4 : (StableHlo.after hostOps4 W (Proc.devRef .tc main_v101) : FVec F S1x128 .f32)
    = rowOf ![1, 0] slices_S4x128_S1x128_1_0 (W (Proc.devRef .tc main_arg6)) := by
  after_results; rfl
/-- The array of pre-activations it reads is not touched. -/
theorem z_after4 : StableHlo.after hostOps4 W (Proc.devRef .tc main_v78_0) = W (Proc.devRef .tc main_v78_0) := by
  after_results

/-! ### After the first call of layer 2 -/

set_option maxHeartbeats 2000000 in
/-- The scale row the second call of layer 2 reads. -/
theorem scale_after7 : (StableHlo.after hostOps7 W (Proc.devRef .tc main_v150) : FVec F S1x128 .f32)
    = scaleOf (rowOf ![2, 0] slices_S4x128_S1x128_2_0 (W (Proc.devRef .tc main_arg7))) (W (Proc.devRef .tc main_v137_1)) (W (Proc.devRef .tc main_v137_2)) := by
  after_results_simp; rfl
set_option maxHeartbeats 2000000 in
/-- The shift row it reads. -/
theorem shift_after7 : (StableHlo.after hostOps7 W (Proc.devRef .tc main_v155) : FVec F S1x128 .f32)
    = shiftOf (rowOf ![2, 0] slices_S4x128_S1x128_2_0 (W (Proc.devRef .tc main_arg8))) (rowOf ![2, 0] slices_S4x128_S1x128_2_0 (W (Proc.devRef .tc main_arg7))) (W (Proc.devRef .tc main_v137_1)) (W (Proc.devRef .tc main_v137_2)) := by
  after_results_simp; rfl
/-- The weight matrix it reads: layer 2's. -/
theorem weight_after7 : (StableHlo.after hostOps7 W (Proc.devRef .tc main_v157) : FVec F S128x128 .f32)
    = matOf ![2, 0, 0] slices_S4x128x128_S1x128x128_2_0_0 (W (Proc.devRef .tc main_arg5)) := by
  after_results; rfl
/-- The bias row it reads: layer 2's. -/
theorem bias_after7 : (StableHlo.after hostOps7 W (Proc.devRef .tc main_v160) : FVec F S1x128 .f32)
    = rowOf ![2, 0] slices_S4x128_S1x128_2_0 (W (Proc.devRef .tc main_arg6)) := by
  after_results; rfl
/-- The array of pre-activations it reads is not touched. -/
theorem z_after7 : StableHlo.after hostOps7 W (Proc.devRef .tc main_v137_0) = W (Proc.devRef .tc main_v137_0) := by
  after_results

/-! ### After the first call of layer 3 -/

set_option maxHeartbeats 2000000 in
/-- The scale row the second call of layer 3 reads. -/
theorem scale_after10 : (StableHlo.after hostOps10 W (Proc.devRef .tc main_v209) : FVec F S1x128 .f32)
    = scaleOf (rowOf ![3, 0] slices_S4x128_S1x128_3_0 (W (Proc.devRef .tc main_arg7))) (W (Proc.devRef .tc main_v196_1)) (W (Proc.devRef .tc main_v196_2)) := by
  after_results_simp; rfl
set_option maxHeartbeats 2000000 in
/-- The shift row it reads. -/
theorem shift_after10 : (StableHlo.after hostOps10 W (Proc.devRef .tc main_v214) : FVec F S1x128 .f32)
    = shiftOf (rowOf ![3, 0] slices_S4x128_S1x128_3_0 (W (Proc.devRef .tc main_arg8))) (rowOf ![3, 0] slices_S4x128_S1x128_3_0 (W (Proc.devRef .tc main_arg7))) (W (Proc.devRef .tc main_v196_1)) (W (Proc.devRef .tc main_v196_2)) := by
  after_results_simp; rfl
/-- The weight matrix it reads: layer 3's. -/
theorem weight_after10 : (StableHlo.after hostOps10 W (Proc.devRef .tc main_v216) : FVec F S128x128 .f32)
    = matOf ![3, 0, 0] slices_S4x128x128_S1x128x128_3_0_0 (W (Proc.devRef .tc main_arg5)) := by
  after_results; rfl
/-- The bias row it reads: layer 3's. -/
theorem bias_after10 : (StableHlo.after hostOps10 W (Proc.devRef .tc main_v219) : FVec F S1x128 .f32)
    = rowOf ![3, 0] slices_S4x128_S1x128_3_0 (W (Proc.devRef .tc main_arg6)) := by
  after_results; rfl
/-- The array of pre-activations it reads is not touched. -/
theorem z_after10 : StableHlo.after hostOps10 W (Proc.devRef .tc main_v196_0) = W (Proc.devRef .tc main_v196_0) := by
  after_results

/-! ### After the second call of layer 0 -/

set_option maxHeartbeats 2000000 in
/-- The scale row the third call of layer 0 reads. -/
theorem scale_after2 : (StableHlo.after hostOps2 W (Proc.devRef .tc main_v56) : FVec F S1x128 .f32)
    = scaleOf (rowOf ![0, 0] slices_S4x128_S1x128_0_0 (W (Proc.devRef .tc main_arg9))) (W (Proc.devRef .tc main_v43_1)) (W (Proc.devRef .tc main_v43_2)) := by
  after_results_simp; rfl
set_option maxHeartbeats 2000000 in
/-- The shift row it reads. -/
theorem shift_after2 : (StableHlo.after hostOps2 W (Proc.devRef .tc main_v61) : FVec F S1x128 .f32)
    = shiftOf (rowOf ![0, 0] slices_S4x128_S1x128_0_0 (W (Proc.devRef .tc main_arg10))) (rowOf ![0, 0] slices_S4x128_S1x128_0_0 (W (Proc.devRef .tc main_arg9))) (W (Proc.devRef .tc main_v43_1)) (W (Proc.devRef .tc main_v43_2)) := by
  after_results_simp; rfl
/-- The array of pre-activations it reads is not touched. -/
theorem z_after2 : StableHlo.after hostOps2 W (Proc.devRef .tc main_v43_0) = W (Proc.devRef .tc main_v43_0) := by
  after_results

/-! ### After the second call of layer 1 -/

set_option maxHeartbeats 2000000 in
/-- The scale row the third call of layer 1 reads. -/
theorem scale_after5 : (StableHlo.after hostOps5 W (Proc.devRef .tc main_v115) : FVec F S1x128 .f32)
    = scaleOf (rowOf ![1, 0] slices_S4x128_S1x128_1_0 (W (Proc.devRef .tc main_arg9))) (W (Proc.devRef .tc main_v102_1)) (W (Proc.devRef .tc main_v102_2)) := by
  after_results_simp; rfl
set_option maxHeartbeats 2000000 in
/-- The shift row it reads. -/
theorem shift_after5 : (StableHlo.after hostOps5 W (Proc.devRef .tc main_v120) : FVec F S1x128 .f32)
    = shiftOf (rowOf ![1, 0] slices_S4x128_S1x128_1_0 (W (Proc.devRef .tc main_arg10))) (rowOf ![1, 0] slices_S4x128_S1x128_1_0 (W (Proc.devRef .tc main_arg9))) (W (Proc.devRef .tc main_v102_1)) (W (Proc.devRef .tc main_v102_2)) := by
  after_results_simp; rfl
/-- The array of pre-activations it reads is not touched. -/
theorem z_after5 : StableHlo.after hostOps5 W (Proc.devRef .tc main_v102_0) = W (Proc.devRef .tc main_v102_0) := by
  after_results

/-! ### After the second call of layer 2 -/

set_option maxHeartbeats 2000000 in
/-- The scale row the third call of layer 2 reads. -/
theorem scale_after8 : (StableHlo.after hostOps8 W (Proc.devRef .tc main_v174) : FVec F S1x128 .f32)
    = scaleOf (rowOf ![2, 0] slices_S4x128_S1x128_2_0 (W (Proc.devRef .tc main_arg9))) (W (Proc.devRef .tc main_v161_1)) (W (Proc.devRef .tc main_v161_2)) := by
  after_results_simp; rfl
set_option maxHeartbeats 2000000 in
/-- The shift row it reads. -/
theorem shift_after8 : (StableHlo.after hostOps8 W (Proc.devRef .tc main_v179) : FVec F S1x128 .f32)
    = shiftOf (rowOf ![2, 0] slices_S4x128_S1x128_2_0 (W (Proc.devRef .tc main_arg10))) (rowOf ![2, 0] slices_S4x128_S1x128_2_0 (W (Proc.devRef .tc main_arg9))) (W (Proc.devRef .tc main_v161_1)) (W (Proc.devRef .tc main_v161_2)) := by
  after_results_simp; rfl
/-- The array of pre-activations it reads is not touched. -/
theorem z_after8 : StableHlo.after hostOps8 W (Proc.devRef .tc main_v161_0) = W (Proc.devRef .tc main_v161_0) := by
  after_results

/-! ### After the second call of layer 3 -/

set_option maxHeartbeats 2000000 in
/-- The scale row the third call of layer 3 reads. -/
theorem scale_after11 : (StableHlo.after hostOps11 W (Proc.devRef .tc main_v233) : FVec F S1x128 .f32)
    = scaleOf (rowOf ![3, 0] slices_S4x128_S1x128_3_0 (W (Proc.devRef .tc main_arg9))) (W (Proc.devRef .tc main_v220_1)) (W (Proc.devRef .tc main_v220_2)) := by
  after_results_simp; rfl
set_option maxHeartbeats 2000000 in
/-- The shift row it reads. -/
theorem shift_after11 : (StableHlo.after hostOps11 W (Proc.devRef .tc main_v238) : FVec F S1x128 .f32)
    = shiftOf (rowOf ![3, 0] slices_S4x128_S1x128_3_0 (W (Proc.devRef .tc main_arg10))) (rowOf ![3, 0] slices_S4x128_S1x128_3_0 (W (Proc.devRef .tc main_arg9))) (W (Proc.devRef .tc main_v220_1)) (W (Proc.devRef .tc main_v220_2)) := by
  after_results_simp; rfl
/-- The array of pre-activations it reads is not touched. -/
theorem z_after11 : StableHlo.after hostOps11 W (Proc.devRef .tc main_v220_0) = W (Proc.devRef .tc main_v220_0) := by
  after_results

end Stretches

/-! ## The quantities at a column, on the extended reals -/

/-- Row `i` of a 4 by 128 array, made a 1 by 128 row, at column `j`, is the array at `(i, j)`. -/
theorem rowOf_apply (off : Fin 2 → Nat) (h : S4x128.Slices off S1x128) (A : FVec F S4x128 .f32) (i : Fin 4) (j : Fin 128)
    (h0 : off 0 = i.val) (h1 : off 1 = 0) : rowOf off h A (ix2 0 j) = A (ix2 i j) := by
  unfold rowOf
  refine (shapeCast_apply _ _ (ix2 0 j) (ix1 j) (by
    rw [Shape.rowMajor_val_two, Shape.rowMajor_val_one]; show j.val = 0 * 128 + j.val; omega)).trans ?_
  refine (shapeCast_apply _ _ (ix1 j) (ix2 0 j) (by
    rw [Shape.rowMajor_val_two, Shape.rowMajor_val_one]; show 0 * 128 + j.val = j.val; omega)).trans ?_
  exact extractStridedSlice_apply off A h (ix2 0 j) (ix2 i j) fun a => by
    match a with
    | ⟨0, _⟩ => show i.val = off 0 + 0; omega
    | ⟨1, _⟩ => show j.val = off 1 + j.val; omega

/-- Matrix `i` of a 4 by 128 by 128 array at `(k, j)` is the array at `(i, k, j)`. -/
theorem matOf_apply (off : Fin 3 → Nat) (h : S4x128x128.Slices off S1x128x128) (A : FVec F S4x128x128 .f32) (i : Fin 4)
    (k j : Fin 128) (h0 : off 0 = i.val) (h1 : off 1 = 0) (h2 : off 2 = 0) : matOf off h A (ix2 k j) = A (ix3 i k j) := by
  unfold matOf
  refine (shapeCast_apply _ _ (ix2 k j) (ix3 0 k j) (by
    rw [Shape.rowMajor_val_two, Shape.rowMajor_val_three]; show (0 * 128 + k.val) * 128 + j.val = k.val * 128 + j.val; omega)).trans ?_
  exact extractStridedSlice_apply off A h (ix3 0 k j) (ix3 i k j) fun a => by
    match a with
    | ⟨0, _⟩ => show i.val = off 0 + 0; omega
    | ⟨1, _⟩ => show k.val = off 1 + k.val; omega
    | ⟨2, _⟩ => show j.val = off 2 + j.val; omega

/-- The mean at column `j`: the sum there divided by the count's word. -/
theorem meanOf_apply (sum : FVec Ideal S1x128 .f32) (j : Fin 128) :
    meanOf sum (ix2 0 j) = Ideal.div (sum (ix2 0 j)) (Ideal.ofBits .f32 0x47435000#32) := rfl

/-- The scale at column `j`, spelled with the extended reals' operations. -/
theorem scaleOf_apply (g sum sumsq : FVec Ideal S1x128 .f32) (j : Fin 128) :
    scaleOf g sum sumsq (ix2 0 j)
      = g (ix2 0 j) * Ideal.rsqrt (Ideal.div (sumsq (ix2 0 j)) (Ideal.ofBits .f32 0x47435000#32)
          - Ideal.div (sum (ix2 0 j)) (Ideal.ofBits .f32 0x47435000#32) * Ideal.div (sum (ix2 0 j)) (Ideal.ofBits .f32 0x47435000#32)
          + Ideal.ofBits .f32 0x3727C5AC#32) := rfl

/-- The shift at column `j`. -/
theorem shiftOf_apply (b g sum sumsq : FVec Ideal S1x128 .f32) (j : Fin 128) :
    shiftOf b g sum sumsq (ix2 0 j)
      = b (ix2 0 j) - Ideal.div (sum (ix2 0 j)) (Ideal.ofBits .f32 0x47435000#32) * (g (ix2 0 j) * Ideal.rsqrt (Ideal.div (sumsq (ix2 0 j)) (Ideal.ofBits .f32 0x47435000#32)
          - Ideal.div (sum (ix2 0 j)) (Ideal.ofBits .f32 0x47435000#32) * Ideal.div (sum (ix2 0 j)) (Ideal.ofBits .f32 0x47435000#32)
          + Ideal.ofBits .f32 0x3727C5AC#32)) := rfl

end Cert.KernelIdeal.Hand
-- ==== Proof.KI.Stages2.lean ====
import proofs.«102976_j3633542332749_1_alg».proof.Proof.KI.Stages

/-! # The neighbour sums before each layer, and the pooled classifier after the last

Before the first call of layer `i` the program sums, for every node, the rows of its in-neighbours (a gather of the
source rows of all edges, then a scatter-add of them onto the destination rows, starting from zeros) and cuts layer
`i`'s first weight matrix and bias row out of their 4-layer arrays. After the last layer it pools the five node arrays
graph by graph (a scatter-add by graph number), applies the five classifiers, adds them up and takes a log-softmax
along each row. Each of these is stated as ONE function of the buffers the stretch starts from. -/

noncomputable section

namespace Cert.KernelIdeal.Hand

open Cert.KernelIdeal Cert.KernelIdeal.Gen Idealize.ShloMosaic Idealize.ShloMosaic.TcCoe
open Idealize.ShloMosaic.ValueIdx

variable {F : FTy → Type} [FloatOps F]

/-! ## The quantities -/

/-- Row `r` (0 or 1) of the 2 by 600000 edge list, as a flat vector of 600000 node numbers. -/
def edgeRow (e : IVec S2x600000 32) (r : Nat) (h : S2x600000.Slices ![r, 0] S1x600000) : IVec S600000 32 :=
  shapeCast S600000 (extractStridedSlice S1x600000 ![r, 0] e h) shapeCasts_S1x600000_S600000

/-- Source node numbers as the gather reads them: a negative number is taken modulo the node count once
    (`s < 0 ? s + 50000 : s`), and the vector is made a 600000 by 1 column. -/
def srcColOf (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- Destination node numbers as the scatter reads them: the vector as a 600000 by 1 column. -/
def dstColOf (d : IVec S600000 32) : IVec S600000x1 32 :=
  broadcastInDim S600000x1 ![0] bcast_S600000_S600000x1_0 d

/-- The 50000 by 128 array of zeros. -/
def zerosArr : FVec F S50000x128 .f32 :=
  broadcastInDim S50000x128 ![] bcast_S_S50000x128 (constant S_ .f32 0x00000000#32)

/-- The neighbour sum: row `dst e` accumulates row `src e` of `h` over all edges `e`. -/
def aggOf (h : FVec F S50000x128 .f32) (sc dc : IVec S600000x1 32) : FVec F S50000x128 .f32 :=
  Host.scatterAdd scatter_S50000x128_S600000x1_S600000x128_1_0_0_1 zerosArr dc
    (Host.gather gather_S50000x128_S600000x1_S600000x128_1_0_n_n_0_1_1128 h sc)

/-- Graph numbers of the nodes as the pooling scatter reads them: a 50000 by 1 column. -/
def batchCol (b : IVec S50000 32) : IVec S50000x1 32 :=
  broadcastInDim S50000x1 ![0] bcast_S50000_S50000x1_0 b

/-- Classifier `i`'s 128 by 10 matrix out of a stack of five. -/
def fcAt (a : FVec F S5x128x10 .f32) (i : Nat) (h : S5x128x10.Slices ![i, 0, 0] S1x128x10) : FVec F S128x10 .f32 :=
  shapeCast S128x10 (extractStridedSlice S1x128x10 ![i, 0, 0] a h) shapeCasts_S1x128x10_S128x10

/-- Classifier `i`'s length-10 bias out of a stack of five. -/
def fcbAt (a : FVec F S5x10 .f32) (i : Nat) (h : S5x10.Slices ![i, 0] S1x10) : FVec F S10 .f32 :=
  shapeCast S10 (extractStridedSlice S1x10 ![i, 0] a h) shapeCasts_S1x10_S10

/-- Per-graph sums of node rows: row `g` accumulates the rows of the nodes of graph `g`. -/
def pool (h : FVec F S50000x128 .f32) (bc : IVec S50000x1 32) : FVec F S512x128 .f32 :=
  Host.scatterAdd scatter_S512x128_S50000x1_S50000x128_1_0_0_1
    (broadcastInDim S512x128 ![] bcast_S_S512x128 (constant S_ .f32 0x00000000#32)) bc h

/-- One classifier term added to the running scores: `acc + p · W + b`, the bias along every row. -/
def cls (acc : FVec F S512x10 .f32) (p : FVec F S512x128 .f32) (W : FVec F S128x10 .f32) (b : FVec F S10 .f32) :
    FVec F S512x10 .f32 :=
  addf (addf acc (Host.dotGeneral dot_S512x128_S128x10_S512x10_1_0_0_1_n_n none p W))
    (broadcastInDim S512x10 ![0, 1] bcast_S1x10_S512x10_0_1 (broadcastInDim S1x10 ![1] bcast_S10_S1x10_1 b))

/-- The 512 by 10 array of zeros. -/
def zeroScores : FVec F S512x10 .f32 :=
  broadcastInDim S512x10 ![] bcast_S_S512x10 (constant S_ .f32 0x00000000#32)

/-- The five classifier terms added up: the scores before the log-softmax. -/
def scoresOf (h0 h1 h2 h3 h4 : FVec F S50000x128 .f32) (batch : IVec S50000 32)
    (fcW : FVec F S5x128x10 .f32) (fcb : FVec F S5x10 .f32) : FVec F S512x10 .f32 :=
  cls (cls (cls (cls (cls zeroScores
    (pool h0 (batchCol batch)) (fcAt fcW 0 slices_S5x128x10_S1x128x10_0_0_0) (fcbAt fcb 0 slices_S5x10_S1x10_0_0))
    (pool h1 (batchCol batch)) (fcAt fcW 1 slices_S5x128x10_S1x128x10_1_0_0) (fcbAt fcb 1 slices_S5x10_S1x10_1_0))
    (pool h2 (batchCol batch)) (fcAt fcW 2 slices_S5x128x10_S1x128x10_2_0_0) (fcbAt fcb 2 slices_S5x10_S1x10_2_0))
    (pool h3 (batchCol batch)) (fcAt fcW 3 slices_S5x128x10_S1x128x10_3_0_0) (fcbAt fcb 3 slices_S5x10_S1x10_3_0))
    (pool h4 (batchCol batch)) (fcAt fcW 4 slices_S5x128x10_S1x128x10_4_0_0) (fcbAt fcb 4 slices_S5x10_S1x10_4_0)

/-- A row's entries less its maximum (the maximum taken against minus infinity). -/
def shifted (x : FVec F S512x10 .f32) : FVec F S512x10 .f32 :=
  subf x (broadcastInDim S512x10 ![0, 1] bcast_S512x1_S512x10_0_1 (broadcastInDim S512x1 ![0] bcast_S512_S512x1_0
    (maximumf (broadcastInDim S512 ![] bcast_S_S512 (constant S_ .f32 0xFF800000#32))
      (Host.reduce FloatOps.maximumf x (constant S_ .f32 0xFF800000#32) reducesTo_S512x10_S512_d1 h_S_))))

/-- Log-softmax along each row: `s - log (Σ exp s)` with `s` the row less its maximum. -/
def logSoftmax (x : FVec F S512x10 .f32) : FVec F S512x10 .f32 :=
  subf (shifted x) (broadcastInDim S512x10 ![0, 1] bcast_S512x1_S512x10_0_1 (Host.log (broadcastInDim S512x1 ![0] bcast_S512_S512x1_0
    (Host.reduceAdd (Host.exp (shifted x)) (constant S_ .f32 0x00000000#32) reducesTo_S512x10_S512_d1 h_S_))))

/-- The pooled classifier over the five node arrays, then the log-softmax. -/
def tailOf (h0 h1 h2 h3 h4 : FVec F S50000x128 .f32) (batch : IVec S50000 32)
    (fcW : FVec F S5x128x10 .f32) (fcb : FVec F S5x10 .f32) : FVec F S512x10 .f32 :=
  logSoftmax (scoresOf h0 h1 h2 h3 h4 batch fcW fcb)

/-! ## What each stretch leaves, for any contents `W` of the buffers it starts from -/

section Stretches

variable (W : Valuation τ sig (Elt F))

/-! ### Before the first call of layer 0 -/

/-- The source node numbers, a flat vector (later stretches read it again). -/
theorem src_after0 : (StableHlo.after hostOps0 W (Proc.devRef .tc main_v1) : IVec S600000 32)
    = edgeRow (W (Proc.devRef .tc main_arg1)) 0 slices_S2x600000_S1x600000_0_0 := by
  after_results; rfl
/-- The destination node numbers, a flat vector. -/
theorem dst_after0 : (StableHlo.after hostOps0 W (Proc.devRef .tc main_v3) : IVec S600000 32)
    = edgeRow (W (Proc.devRef .tc main_arg1)) 1 slices_S2x600000_S1x600000_1_0 := by
  after_results; rfl
set_option maxHeartbeats 2000000 in
/-- The neighbour sums of the input rows. -/
theorem agg_after0 : (StableHlo.after hostOps0 W (Proc.devRef .tc main_v13) : FVec F S50000x128 .f32)
    = aggOf (W (Proc.devRef .tc main_arg0)) (srcColOf (edgeRow (W (Proc.devRef .tc main_arg1)) 0 slices_S2x600000_S1x600000_0_0))
        (dstColOf (edgeRow (W (Proc.devRef .tc main_arg1)) 1 slices_S2x600000_S1x600000_1_0)) := by
  after_results_simp; rfl
/-- The first weight matrix of layer 0. -/
theorem weight_after0 : (StableHlo.after hostOps0 W (Proc.devRef .tc main_v15) : FVec F S128x128 .f32)
    = matOf ![0, 0, 0] slices_S4x128x128_S1x128x128_0_0_0 (W (Proc.devRef .tc main_arg3)) := by
  after_results; rfl
/-- The first bias row of layer 0. -/
theorem bias_after0 : (StableHlo.after hostOps0 W (Proc.devRef .tc main_v18) : FVec F S1x128 .f32)
    = rowOf ![0, 0] slices_S4x128_S1x128_0_0 (W (Proc.devRef .tc main_arg4)) := by
  after_results; rfl
/-- The input rows are not touched. -/
theorem h_after0 : StableHlo.after hostOps0 W (Proc.devRef .tc main_arg0) = W (Proc.devRef .tc main_arg0) := by
  after_results

/-! ### Before the first call of layer 1 -/

set_option maxHeartbeats 2000000 in
/-- The neighbour sums of the previous layer's rows. -/
theorem agg_after3 : (StableHlo.after hostOps3 W (Proc.devRef .tc main_v72) : FVec F S50000x128 .f32)
    = aggOf (W (Proc.devRef .tc main_v62)) (srcColOf (W (Proc.devRef .tc main_v1))) (dstColOf (W (Proc.devRef .tc main_v3))) := by
  after_results_simp; rfl
/-- The first weight matrix of layer 1. -/
theorem weight_after3 : (StableHlo.after hostOps3 W (Proc.devRef .tc main_v74) : FVec F S128x128 .f32)
    = matOf ![1, 0, 0] slices_S4x128x128_S1x128x128_1_0_0 (W (Proc.devRef .tc main_arg3)) := by
  after_results; rfl
/-- The first bias row of layer 1. -/
theorem bias_after3 : (StableHlo.after hostOps3 W (Proc.devRef .tc main_v77) : FVec F S1x128 .f32)
    = rowOf ![1, 0] slices_S4x128_S1x128_1_0 (W (Proc.devRef .tc main_arg4)) := by
  after_results; rfl
/-- The previous layer's rows are not touched, -/
theorem h_after3 : StableHlo.after hostOps3 W (Proc.devRef .tc main_v62) = W (Proc.devRef .tc main_v62) := by
  after_results
/-- nor are the two vectors of node numbers. -/
theorem src_after3 : StableHlo.after hostOps3 W (Proc.devRef .tc main_v1) = W (Proc.devRef .tc main_v1) := by
  after_results
theorem dst_after3 : StableHlo.after hostOps3 W (Proc.devRef .tc main_v3) = W (Proc.devRef .tc main_v3) := by
  after_results

/-! ### Before the first call of layer 2 -/

set_option maxHeartbeats 2000000 in
/-- The neighbour sums of the previous layer's rows. -/
theorem agg_after6 : (StableHlo.after hostOps6 W (Proc.devRef .tc main_v131) : FVec F S50000x128 .f32)
    = aggOf (W (Proc.devRef .tc main_v121)) (srcColOf (W (Proc.devRef .tc main_v1))) (dstColOf (W (Proc.devRef .tc main_v3))) := by
  after_results_simp; rfl
/-- The first weight matrix of layer 2. -/
theorem weight_after6 : (StableHlo.after hostOps6 W (Proc.devRef .tc main_v133) : FVec F S128x128 .f32)
    = matOf ![2, 0, 0] slices_S4x128x128_S1x128x128_2_0_0 (W (Proc.devRef .tc main_arg3)) := by
  after_results; rfl
/-- The first bias row of layer 2. -/
theorem bias_after6 : (StableHlo.after hostOps6 W (Proc.devRef .tc main_v136) : FVec F S1x128 .f32)
    = rowOf ![2, 0] slices_S4x128_S1x128_2_0 (W (Proc.devRef .tc main_arg4)) := by
  after_results; rfl
/-- The previous layer's rows are not touched, -/
theorem h_after6 : StableHlo.after hostOps6 W (Proc.devRef .tc main_v121) = W (Proc.devRef .tc main_v121) := by
  after_results
/-- nor are the two vectors of node numbers. -/
theorem src_after6 : StableHlo.after hostOps6 W (Proc.devRef .tc main_v1) = W (Proc.devRef .tc main_v1) := by
  after_results
theorem dst_after6 : StableHlo.after hostOps6 W (Proc.devRef .tc main_v3) = W (Proc.devRef .tc main_v3) := by
  after_results

/-! ### Before the first call of layer 3 -/

set_option maxHeartbeats 2000000 in
/-- The neighbour sums of the previous layer's rows. -/
theorem agg_after9 : (StableHlo.after hostOps9 W (Proc.devRef .tc main_v190) : FVec F S50000x128 .f32)
    = aggOf (W (Proc.devRef .tc main_v180)) (srcColOf (W (Proc.devRef .tc main_v1))) (dstColOf (W (Proc.devRef .tc main_v3))) := by
  after_results_simp; rfl
/-- The first weight matrix of layer 3. -/
theorem weight_after9 : (StableHlo.after hostOps9 W (Proc.devRef .tc main_v192) : FVec F S128x128 .f32)
    = matOf ![3, 0, 0] slices_S4x128x128_S1x128x128_3_0_0 (W (Proc.devRef .tc main_arg3)) := by
  after_results; rfl
/-- The first bias row of layer 3. -/
theorem bias_after9 : (StableHlo.after hostOps9 W (Proc.devRef .tc main_v195) : FVec F S1x128 .f32)
    = rowOf ![3, 0] slices_S4x128_S1x128_3_0 (W (Proc.devRef .tc main_arg4)) := by
  after_results; rfl
/-- The previous layer's rows are not touched, -/
theorem h_after9 : StableHlo.after hostOps9 W (Proc.devRef .tc main_v180) = W (Proc.devRef .tc main_v180) := by
  after_results
/-- nor are the two vectors of node numbers. -/
theorem src_after9 : StableHlo.after hostOps9 W (Proc.devRef .tc main_v1) = W (Proc.devRef .tc main_v1) := by
  after_results
theorem dst_after9 : StableHlo.after hostOps9 W (Proc.devRef .tc main_v3) = W (Proc.devRef .tc main_v3) := by
  after_results

/-! ### After the last layer -/

set_option maxHeartbeats 8000000 in
/-- The scores: the five pooled classifier terms added up. -/
theorem scores_after12 : (StableHlo.after hostOps12 W (Proc.devRef .tc main_v300) : FVec F S512x10 .f32)
    = scoresOf (W (Proc.devRef .tc main_arg0)) (W (Proc.devRef .tc main_v62)) (W (Proc.devRef .tc main_v121)) (W (Proc.devRef .tc main_v180)) (W (Proc.devRef .tc main_v239))
        (W (Proc.devRef .tc main_arg2)) (W (Proc.devRef .tc main_arg11)) (W (Proc.devRef .tc main_arg12)) := by
  after_results_simp; rfl

set_option maxHeartbeats 2000000 in
/-- The log-softmax of whatever scores the last stretch finds. -/
theorem logSoftmax_after12_1 : (StableHlo.after hostOps12_1 W (Proc.devRef .tc main_v301) : FVec F S512x10 .f32)
    = logSoftmax (W (Proc.devRef .tc main_v300)) := by
  after_results_simp; rfl

/-- The program's result: the pooled classifier over the five node arrays, then the log-softmax. -/
theorem out_after : (StableHlo.after hostOps12_1 (StableHlo.after hostOps12 W) (Proc.devRef .tc main_v301) : FVec F S512x10 .f32)
    = tailOf (W (Proc.devRef .tc main_arg0)) (W (Proc.devRef .tc main_v62)) (W (Proc.devRef .tc main_v121)) (W (Proc.devRef .tc main_v180)) (W (Proc.devRef .tc main_v239))
        (W (Proc.devRef .tc main_arg2)) (W (Proc.devRef .tc main_arg11)) (W (Proc.devRef .tc main_arg12)) := by
  rw [logSoftmax_after12_1, scores_after12]; rfl

end Stretches

end Cert.KernelIdeal.Hand
-- ==== Proof.Spec.lean ====
/-
  One layer of the network as index-by-index formulas over the extended reals, in the two arrangements the two programs
  compute. Both take the layer's input activations H, the neighbour sums G, the two weight matrices with their biases,
  and the two batch-normalisation parameter pairs, all as plain functions of the coordinates; N is the number of nodes
  and E the variance offset, as the extended reals the two f32 words denote.

  * dense1 is the first dense layer on H + G; dense2 the second on the rectified, normalised output of the first.
  * The folded arrangement normalises a column z by z · (γ · rsqrt(q/N − (s/N)² + E)) + (β − (s/N) · γ · rsqrt(…)) with
    s the column's sum and q the sum of its squares; the centred arrangement by
    (z − s/N) · rsqrt((Σ (z − s/N)²)/N + E) · γ + β.
-/
import Idealize.ShloMosaic.PureOps.Ideal

noncomputable section

namespace Cert.Spec

open Idealize.ShloMosaic

/-- The first dense layer at row R, column j: the product of the row of H + G with column j of W, plus the bias. -/
def dense1 (H G : Fin 50000 → Fin 128 → EReal) (W : Fin 128 → Fin 128 → EReal) (B : Fin 128 → EReal)
    (R : Fin 50000) (j : Fin 128) : EReal :=
  (∑ k : Fin 128, (H R k + G R k) * W k j) + B j

/-- A later dense layer at row R, column j: the rectified affine image max(Z · S + T, 0) of row R against column j of W,
    plus the bias. -/
def dense2 (Z : Fin 50000 → Fin 128 → EReal) (S T : Fin 128 → EReal) (W : Fin 128 → Fin 128 → EReal) (B : Fin 128 → EReal)
    (R : Fin 50000) (j : Fin 128) : EReal :=
  (∑ k : Fin 128, max (Z R k * S k + T k) 0 * W k j) + B j

/-- Column sums and sums of squares over the 50000 rows. -/
def colSum (Z : Fin 50000 → Fin 128 → EReal) (j : Fin 128) : EReal := ∑ R : Fin 50000, Z R j
def colSumSq (Z : Fin 50000 → Fin 128 → EReal) (j : Fin 128) : EReal := ∑ R : Fin 50000, Z R j * Z R j

/-- The folded arrangement's scale and shift of column j. -/
def scaleF (Z : Fin 50000 → Fin 128 → EReal) (g : Fin 128 → EReal) (N E : EReal) (j : Fin 128) : EReal :=
  g j * Ideal.rsqrt (Ideal.div (colSumSq Z j) N - Ideal.div (colSum Z j) N * Ideal.div (colSum Z j) N + E)
def shiftF (Z : Fin 50000 → Fin 128 → EReal) (g b : Fin 128 → EReal) (N E : EReal) (j : Fin 128) : EReal :=
  b j - Ideal.div (colSum Z j) N * scaleF Z g N E j

/-- A layer in the folded arrangement. -/
def layerF (H G : Fin 50000 → Fin 128 → EReal) (W1 : Fin 128 → Fin 128 → EReal) (B1 : Fin 128 → EReal)
    (W2 : Fin 128 → Fin 128 → EReal) (B2 : Fin 128 → EReal) (gm bm go bo : Fin 128 → EReal) (N E : EReal)
    (R : Fin 50000) (j : Fin 128) : EReal :=
  let z1 := dense1 H G W1 B1
  let z2 := dense2 z1 (scaleF z1 gm N E) (shiftF z1 gm bm N E) W2 B2
  max (z2 R j * scaleF z2 go N E j + shiftF z2 go bo N E j) 0

/-- The centred arrangement's normalised, rectified column entry. -/
def normC (Z : Fin 50000 → Fin 128 → EReal) (g b : Fin 128 → EReal) (N D E : EReal) (R : Fin 50000) (j : Fin 128) : EReal :=
  max ((Z R j - Ideal.div (colSum Z j) N)
        * Ideal.rsqrt (Ideal.div (∑ R' : Fin 50000, (Z R' j - Ideal.div (colSum Z j) N) * (Z R' j - Ideal.div (colSum Z j) N)) D + E)
        * g j + b j) 0

end Cert.Spec

end
-- ==== Proof.KI.Params.lean ====
/-
  The parameters of the four layers as plain functions of their coordinates, read off the argument arrays, and the two
  columns of edge endpoints every layer's neighbour sum is taken over.
-/
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102976_j3633542332749_1_alg».proof.Proof.KI.Carried
import proofs.«102976_j3633542332749_1_alg».proof.Proof.KI.Stages2
import proofs.«102976_j3633542332749_1_alg».proof.Proof.Spec
import Idealize.ShloMosaic.Lib.ValueIdx
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (c : Dev nD)

/-- The gather's and the scatter's index columns: the two rows of the edge list. -/
def srcCol : IVec S600000x1 32 := srcColOf (edgeRow (m ((c : Thread nD τ).loc main_arg1)) 0 slices_S2x600000_S1x600000_0_0)
def dstCol : IVec S600000x1 32 := dstColOf (edgeRow (m ((c : Thread nD τ).loc main_arg1)) 1 slices_S2x600000_S1x600000_1_0)
/-- Layer i's two weight matrices, two biases and four normalisation rows. -/
def w1At (i : Fin 4) : Fin 128 → Fin 128 → EReal := fun k j => (m ((c : Thread nD τ).loc main_arg3) : S4x128x128.Idx → EReal) (ix3 i k j)
def b1At (i : Fin 4) : Fin 128 → EReal := fun j => (m ((c : Thread nD τ).loc main_arg4) : S4x128.Idx → EReal) (ix2 i j)
def w2At (i : Fin 4) : Fin 128 → Fin 128 → EReal := fun k j => (m ((c : Thread nD τ).loc main_arg5) : S4x128x128.Idx → EReal) (ix3 i k j)
def b2At (i : Fin 4) : Fin 128 → EReal := fun j => (m ((c : Thread nD τ).loc main_arg6) : S4x128.Idx → EReal) (ix2 i j)
def gmAt (i : Fin 4) : Fin 128 → EReal := fun j => (m ((c : Thread nD τ).loc main_arg7) : S4x128.Idx → EReal) (ix2 i j)
def bmAt (i : Fin 4) : Fin 128 → EReal := fun j => (m ((c : Thread nD τ).loc main_arg8) : S4x128.Idx → EReal) (ix2 i j)
def goAt (i : Fin 4) : Fin 128 → EReal := fun j => (m ((c : Thread nD τ).loc main_arg9) : S4x128.Idx → EReal) (ix2 i j)
def boAt (i : Fin 4) : Fin 128 → EReal := fun j => (m ((c : Thread nD τ).loc main_arg10) : S4x128.Idx → EReal) (ix2 i j)

end Cert.KernelIdeal.Hand

end
-- ==== Proof.KI.AVal.lean ====
import proofs.«102976_j3633542332749_1_alg».proof.Proof.Gen.KernelIdeal
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

/-! # The linear layer's block and the column sums of a block, entry by entry, over the extended reals

The body of the first kernel of a layer computes, on a block of 5000 rows, `z = (x0 + x1)·x2 + x3` (the casts to a
shorter float format are the identity on the extended reals, and the product is accumulated into zero) and adds to an
accumulator row the sums of `z`'s columns, or of its squared entries' columns. -/

set_option maxRecDepth 16384

open scoped BigOperators

noncomputable section

namespace Cert.KernelIdeal.Hand

open Cert.KernelIdeal Cert.KernelIdeal.Gen
open Idealize.ShloMosaic Idealize.ShloMosaic.ValueIdx

/-- The layer's row block from a block of features, the matching block of aggregated neighbours, the weights and the bias row. -/
def zCore_A (x0 x1 : FVec Ideal S5000x128 .f32) (x2 : FVec Ideal S128x128 .f32) (x3 : FVec Ideal S1x128 .f32) : FVec Ideal S5000x128 .f32 :=
  addf (matmul dot_S5000x128_S128x128_S5000x128_1_0_0_1_n_n none (truncf .bf16 (addf x0 x1) Facts₀.bitsLt_bf16_f32) (truncf .bf16 x2 Facts₀.bitsLt_bf16_f32)
    (constant (F := Ideal) S5000x128 .f32 0x00000000#32)) (broadcastTo S5000x128 x3 Facts₀.broadcasts_S1x128_S5000x128)

theorem dotA_plain : dot_S5000x128_S128x128_S5000x128_1_0_0_1_n_n = DotDims.plain 5000 128 128 := rfl

theorem zCore_A_apply (x0 x1 : FVec Ideal S5000x128 .f32) (x2 : FVec Ideal S128x128 .f32) (x3 : FVec Ideal S1x128 .f32) (r : Fin 5000) (j : Fin 128) :
    zCore_A x0 x1 x2 x3 (ix2 r j) = (∑ k : Fin 128, (x0 (ix2 r k) + x1 (ix2 r k)) * x2 (ix2 k j)) + x3 (ix2 0 j) := by
  unfold zCore_A
  rw [addf_apply, matmul_zero_eq_dotGeneral, dotA_plain]
  refine congr (congrArg _ ?_) ?_
  · exact StackMember.dotGeneral_plain_apply none _ _ r j
  · exact broadcastTo_apply x3 Facts₀.broadcasts_S1x128_S5000x128 (ix2 r j) (ix2 0 j) (fun a => by
      match a with
      | ⟨0, _⟩ => rfl
      | ⟨1, _⟩ => rfl)

/-- An accumulator row advanced by the column sums of a block. -/
def colSum_A (z : FVec Ideal S5000x128 .f32) (s : FVec Ideal S1x128 .f32) : FVec Ideal S1x128 .f32 :=
  addf s (shapeCast S1x128 (multiReduction .add [0] S128 z 0x00000000#32 Facts₀.reduces_S5000x128_S128 (.inl rfl) rfl) Facts₀.shapeCasts_S128_S1x128)

theorem colSum_A_apply (z : FVec Ideal S5000x128 .f32) (s : FVec Ideal S1x128 .f32) (j : Fin 128) :
    colSum_A z s (ix2 0 j) = s (ix2 0 j) + ∑ r : Fin 5000, z (ix2 r j) := by
  unfold colSum_A
  rw [addf_apply]
  refine congrArg _ ?_
  refine (shapeCast_a_1a_apply _ Facts₀.shapeCasts_S128_S1x128 (0 : Fin 1) j).trans ?_
  refine (Ideal.multiReduction_add_single z 0x00000000#32 Facts₀.reduces_S5000x128_S128 (.inl rfl) rfl (ix1 j)).trans ?_
  refine Finset.sum_congr rfl fun r _ => congrArg z ?_
  funext a
  apply Fin.ext
  match a with
  | ⟨0, _⟩ => rfl
  | ⟨1, _⟩ => rfl

end Cert.KernelIdeal.Hand
end
-- ==== Proof.LibAccBlocks.lean ====
import Mathlib
import Idealize.ShloMosaic.Lib.ValueIdx

/-!
# A running accumulator over column blocks is the flat sum

A row of `a * b` entries is visited in `a` consecutive blocks of `b` entries.  An accumulator starts at `z` and, at block
`j`, adds the sum of that block's entries, the entry `l` of block `j` sitting at position `j * b + l`.  After the last
block the accumulator holds `z` plus the sum of all `a * b` entries.  This holds in any commutative additive monoid
(the extended reals are one).
-/

noncomputable section

namespace Cert.LibAccBlocks

/-- Position `l` of block `j` lies inside the row: `j * b + l < a * b` when `j < a` and `l < b`. -/
theorem idx_lt {a b j l : ℕ} (hj : j < a) (hl : l < b) : j * b + l < a * b :=
  calc j * b + l < j * b + b := Nat.add_lt_add_left hl _
    _ = (j + 1) * b := (Nat.succ_mul j b).symm
    _ ≤ a * b := Nat.mul_le_mul_right b hj

/-- The sum over a row of `a * b` entries is the sum over the `a` blocks of each block's `b` entries. -/
theorem sum_eq_sum_blocks {M : Type*} [AddCommMonoid M] (a b : ℕ) (f : Fin (a * b) → M) :
    ∑ k : Fin (a * b), f k = ∑ j : Fin a, ∑ l : Fin b, f ⟨j.val * b + l.val, idx_lt j.isLt l.isLt⟩ := by
  rw [← (finProdFinEquiv (m := a) (n := b)).sum_comp, Fintype.sum_prod_type]
  refine Finset.sum_congr rfl fun j _ => Finset.sum_congr rfl fun l _ => ?_
  congr 1
  ext
  simp only [finProdFinEquiv_apply_val]
  rw [Nat.mul_comm, Nat.add_comm]

/-- **The accumulator lemma.**  If `acc 0 = z` and, for each block `j < a`, `acc (j + 1)` is `acc j` plus the sum of block
    `j`'s entries, then `acc a` is `z` plus the sum of the whole row. -/
theorem acc_blocks {M : Type*} [AddCommMonoid M] (a b : ℕ) (f : Fin (a * b) → M) (z : M) (acc : ℕ → M)
    (h0 : acc 0 = z)
    (hstep : ∀ (j : ℕ) (hj : j < a), acc (j + 1) = acc j + ∑ l : Fin b, f ⟨j * b + l.val, idx_lt hj l.isLt⟩) :
    acc a = z + ∑ k : Fin (a * b), f k := by
  -- the block sums as a function of a bare natural number (zero past the last block)
  let g : ℕ → M := fun j => if hj : j < a then ∑ l : Fin b, f ⟨j * b + l.val, idx_lt hj l.isLt⟩ else 0
  have hpre : ∀ m : ℕ, m ≤ a → acc m = z + ∑ j ∈ Finset.range m, g j := by
    intro m
    induction m with
    | zero => intro _; simp [h0]
    | succ m ih =>
      intro hm
      have hlt : m < a := hm
      rw [hstep m hlt, ih (Nat.le_of_lt hlt), Finset.sum_range_succ, add_assoc]
      congr 2
      simp only [g, dif_pos hlt]
  rw [hpre a le_rfl, sum_eq_sum_blocks, ← Fin.sum_univ_eq_sum_range]
  congr 1
  refine Finset.sum_congr rfl fun j _ => ?_
  simp only [g, dif_pos j.isLt]

/-- The accumulator lemma at the sizes of a 4096-entry row visited in 8 blocks of 512 entries. -/
theorem acc_blocks_8_512 {M : Type*} [AddCommMonoid M] (f : Fin 4096 → M) (z : M) (acc : ℕ → M)
    (h0 : acc 0 = z)
    (hstep : ∀ (j : ℕ) (hj : j < 8),
      acc (j + 1) = acc j + ∑ l : Fin 512, f ⟨j * 512 + l.val, idx_lt (a := 8) (b := 512) hj l.isLt⟩) :
    acc 8 = z + ∑ k : Fin 4096, f k :=
  acc_blocks 8 512 f z acc h0 hstep

end Cert.LibAccBlocks
-- ==== Proof.KI.A0Val.lean ====
import proofs.«102976_j3633542332749_1_alg».proof.Proof.KI.A0
import proofs.«102976_j3633542332749_1_alg».proof.Proof.KI.AVal
import proofs.«102976_j3633542332749_1_alg».proof.Proof.Spec
import proofs.«102976_j3633542332749_1_alg».proof.Proof.LibAccBlocks

/-! # What the region of custom_call 0 leaves in its three result arrays, over the extended reals

Window 4's array ends as the linear layer `(H + G)·W + B` of the four input arrays the region finds, entry by entry;
window 5's as its column sums over all 50000 rows; window 6's as the column sums of its squared entries. The blocks
are rows `t·5000 … t·5000 + 4999`; the accumulators start at zero and add one block's column sums per point, so after
the ten points they hold the sums over all the rows (addition on the extended reals is commutative and associative:
no finiteness is used). -/

set_option maxRecDepth 16384

open scoped BigOperators

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem k0_pay3_eq (x0 x1 : Vec Ideal S5000x128 .f32) (x2 : Vec Ideal S128x128 .f32) (x3 : Vec Ideal S1x128 .f32) :
    k0_pay3 x0 x1 x2 x3 = zCore_A x0 x1 x2 x3 := by
  unfold k0_pay3 zCore_A; simp only [shapeCast_self]

theorem k0_pay4_eq (x0 x1 : Vec Ideal S5000x128 .f32) (x2 : Vec Ideal S128x128 .f32) (x3 : Vec Ideal S1x128 .f32) (s : Vec Ideal S1x128 .f32) :
    k0_pay4 x0 x1 x2 x3 s = colSum_A (k0_pay3 x0 x1 x2 x3) s := by
  unfold k0_pay4 colSum_A; simp only [shapeCast_self]

theorem k0_pay5_eq (x0 x1 : Vec Ideal S5000x128 .f32) (x2 : Vec Ideal S128x128 .f32) (x3 : Vec Ideal S1x128 .f32) (s : Vec Ideal S1x128 .f32) :
    k0_pay5 x0 x1 x2 x3 s = colSum_A (mulf (k0_pay3 x0 x1 x2 x3) (k0_pay3 x0 x1 x2 x3)) s := by
  unfold k0_pay5 colSum_A; simp only [shapeCast_self]

theorem k0_pay1_apply (i : S1x128.Idx) : (k0_pay1 (F := Ideal)) i = 0 := by
  unfold k0_pay1; simp only [shapeCast_self]
  show Ideal.ofBits .f32 0x00000000#32 = 0
  exact Ideal.ofBits_zero_f32

theorem k0_pay2_apply (i : S1x128.Idx) : (k0_pay2 (F := Ideal)) i = 0 := by
  unfold k0_pay2; simp only [shapeCast_self]
  show Ideal.ofBits .f32 0x00000000#32 = 0
  exact Ideal.ofBits_zero_f32

variable (V : (c : Dev nD) → (b : Ref sig .tc) → Buf (Elt Ideal) ((c : Thread nD τ).loc b))

/-! ## The region's four input arrays, as plain functions of their coordinates -/

/-- The node features the region finds. -/
noncomputable def featA0 (c : Dev nD) : Fin 50000 → Fin 128 → EReal := fun R k => (V c (Pipeline.arrRef spec0 0) : S50000x128.Idx → EReal) (ix2 R k)
/-- The aggregated neighbours' features. -/
noncomputable def aggA0 (c : Dev nD) : Fin 50000 → Fin 128 → EReal := fun R k => (V c (Pipeline.arrRef spec0 1) : S50000x128.Idx → EReal) (ix2 R k)
/-- The layer's weight matrix. -/
noncomputable def wA0 (c : Dev nD) : Fin 128 → Fin 128 → EReal := fun k j => (V c (Pipeline.arrRef spec0 2) : S128x128.Idx → EReal) (ix2 k j)
/-- The layer's bias row. -/
noncomputable def bA0 (c : Dev nD) : Fin 128 → EReal := fun j => (V c (Pipeline.arrRef spec0 3) : S1x128.Idx → EReal) (ix2 0 j)

/-- The entry of the layer's result the region computes at row `R`, column `j`. -/
abbrev zOf0 (c : Dev nD) (R : Fin 50000) (j : Fin 128) : EReal := Cert.Spec.dense1 (featA0 V c) (aggA0 V c) (wA0 V c) (bA0 V c) R j

/-! ## The blocks at an entry -/

/-- The block indices of the windows, decided over the grid: the row-block windows move with the point, the others stay. -/
theorem widx0 : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) :=
  (by decide +kernel : ∀ t : Fin grid0.N, _)

/-- Row `r` of block `t` is row `t·5000 + r` of the array. -/
theorem row_lt0 (t : Fin cfg0.N) (r : Fin 5000) : t.val * 5000 + r.val < 50000 := by
  have := lt_of_lt_of_eq t.isLt (show cfg0.N = 10 from N_0); have := r.isLt; omega

theorem iblk0_0_apply (c : Dev nD) (t : Fin cfg0.N) (r : Fin 5000) (k : Fin 128) :
    (iblk0 V c 0 t : S5000x128.Idx → EReal) (ix2 r k) = featA0 V c ⟨t.val * 5000 + r.val, row_lt0 t r⟩ k := by
  unfold iblk0 featA0
  rw [View.read_apply]
  refine congrArg (V c (Pipeline.arrRef spec0 0)) (funext fun a => Fin.ext ?_)
  match a with
  | ⟨0, _⟩ => show win0_0.index t 0 * 5000 + 1 * r.val = t.val * 5000 + r.val; rw [(widx0 t).1.1]; omega
  | ⟨1, _⟩ => show win0_0.index t 1 * 128 + 1 * k.val = k.val; rw [(widx0 t).1.2]; omega

theorem iblk0_1_apply (c : Dev nD) (t : Fin cfg0.N) (r : Fin 5000) (k : Fin 128) :
    (iblk0 V c 1 t : S5000x128.Idx → EReal) (ix2 r k) = aggA0 V c ⟨t.val * 5000 + r.val, row_lt0 t r⟩ k := by
  unfold iblk0 aggA0
  rw [View.read_apply]
  refine congrArg (V c (Pipeline.arrRef spec0 1)) (funext fun a => Fin.ext ?_)
  match a with
  | ⟨0, _⟩ => show win0_1.index t 0 * 5000 + 1 * r.val = t.val * 5000 + r.val; rw [(widx0 t).2.1.1]; omega
  | ⟨1, _⟩ => show win0_1.index t 1 * 128 + 1 * k.val = k.val; rw [(widx0 t).2.1.2]; omega

theorem iblk0_2_apply (c : Dev nD) (t : Fin cfg0.N) (k : Fin 128) (j : Fin 128) :
    (iblk0 V c 2 t : S128x128.Idx → EReal) (ix2 k j) = wA0 V c k j := by
  unfold iblk0 wA0
  rw [View.read_apply]
  refine congrArg (V c (Pipeline.arrRef spec0 2)) (funext fun a => Fin.ext ?_)
  match a with
  | ⟨0, _⟩ => show win0_2.index t 0 * 128 + 1 * k.val = k.val; rw [(widx0 t).2.2.1.1]; omega
  | ⟨1, _⟩ => show win0_2.index t 1 * 128 + 1 * j.val = j.val; rw [(widx0 t).2.2.1.2]; omega

theorem iblk0_3_apply (c : Dev nD) (t : Fin cfg0.N) (j : Fin 128) :
    (iblk0 V c 3 t : S1x128.Idx → EReal) (ix2 0 j) = bA0 V c j := by
  unfold iblk0 bA0
  rw [View.read_apply]
  refine congrArg (V c (Pipeline.arrRef spec0 3)) (funext fun a => Fin.ext ?_)
  match a with
  | ⟨0, _⟩ => show win0_3.index t 0 * 1 + 1 * 0 = 0; rw [(widx0 t).2.2.2.1.1]
  | ⟨1, _⟩ => show win0_3.index t 1 * 128 + 1 * j.val = j.val; rw [(widx0 t).2.2.2.1.2]; omega

/-- The block of the layer's result at point `t`, at an entry: the layer's entry at the block's row. -/
theorem zAt0_apply (c : Dev nD) (t : Fin cfg0.N) (r : Fin 5000) (j : Fin 128) :
    zAt0 V c t (ix2 r j) = zOf0 V c ⟨t.val * 5000 + r.val, row_lt0 t r⟩ j := by
  unfold zAt0
  rw [k0_pay3_eq]
  refine (zCore_A_apply (iblk0 V c 0 t) (iblk0 V c 1 t) (iblk0 V c 2 t) (iblk0 V c 3 t) r j).trans ?_
  unfold zOf0 Cert.Spec.dense1
  rw [iblk0_3_apply V c t j]
  refine congrArg (· + bA0 V c j) (Finset.sum_congr rfl fun k _ => ?_)
  rw [iblk0_0_apply V c t r k, iblk0_1_apply V c t r k, iblk0_2_apply V c t k j]

/-- The same at any index of the block. -/
theorem zAt0_apply' (c : Dev nD) (t : Fin cfg0.N) (y : S5000x128.Idx) :
    zAt0 V c t y = zOf0 V c ⟨t.val * 5000 + (y 0).val, row_lt0 t (y 0)⟩ (y 1) := by
  obtain ⟨r, j, rfl⟩ : ∃ (r : Fin 5000) (j : Fin 128), y = ix2 r j := ⟨y 0, y 1, eq_ix2 y⟩
  exact zAt0_apply V c t r j

/-! ## The accumulators, closed -/

/-- One step of the column-sum accumulator at column `j`: the block's column sum is added. -/
theorem sumStep0_apply (c : Dev nD) (t : Fin cfg0.N) (s : Vec Ideal S1x128 .f32) (j : Fin 128) :
    sumStep0 V c t s (ix2 0 j) = s (ix2 0 j) + ∑ r : Fin 5000, zOf0 V c ⟨t.val * 5000 + r.val, row_lt0 t r⟩ j := by
  unfold sumStep0
  rw [k0_pay4_eq]
  refine (colSum_A_apply _ s j).trans ?_
  exact congrArg (s (ix2 0 j) + ·) (Finset.sum_congr rfl fun r _ => zAt0_apply V c t r j)

/-- One step of the accumulator of squares at column `j`: the column sum of the block's squared entries is added. -/
theorem sqStep0_apply (c : Dev nD) (t : Fin cfg0.N) (s : Vec Ideal S1x128 .f32) (j : Fin 128) :
    sqStep0 V c t s (ix2 0 j) = s (ix2 0 j) + ∑ r : Fin 5000,
      zOf0 V c ⟨t.val * 5000 + r.val, row_lt0 t r⟩ j * zOf0 V c ⟨t.val * 5000 + r.val, row_lt0 t r⟩ j := by
  unfold sqStep0
  rw [k0_pay5_eq]
  refine (colSum_A_apply _ s j).trans ?_
  refine congrArg (s (ix2 0 j) + ·) (Finset.sum_congr rfl fun r _ => ?_)
  rw [mulf_apply]
  exact congr (congrArg _ (zAt0_apply V c t r j)) (zAt0_apply V c t r j)

/-- The column-sum accumulator at column `j` before position `n` (zero before the first). -/
noncomputable def sumNat0 (c : Dev nD) (j : Fin 128) : ℕ → EReal
  | 0 => 0
  | n + 1 => if h : n < cfg0.N then (accAt0 V c n h).1 (ix2 0 j) else 0
/-- The accumulator of squares at column `j` before position `n`. -/
noncomputable def sqNat0 (c : Dev nD) (j : Fin 128) : ℕ → EReal
  | 0 => 0
  | n + 1 => if h : n < cfg0.N then (accAt0 V c n h).2 (ix2 0 j) else 0

theorem nine_lt0 : 9 < cfg0.N := by rw [show cfg0.N = 10 from N_0]; decide

/-- After the last point the column-sum accumulator holds the column sums of the layer's result over all the rows. -/
theorem sumAcc0 (c : Dev nD) (j : Fin 128) :
    (accAt0 V c 9 nine_lt0).1 (ix2 0 j) = ∑ R : Fin 50000, zOf0 V c R j := by
  have hN : cfg0.N = 10 := N_0
  have h := Cert.LibAccBlocks.acc_blocks 10 5000 (fun R : Fin (10 * 5000) => zOf0 V c R j) 0 (sumNat0 V c j) rfl (fun n hn => by
    have hn' : n < cfg0.N := by rw [hN]; exact hn
    show (if h : n < cfg0.N then (accAt0 V c n h).1 (ix2 0 j) else 0) = _
    rw [dif_pos hn']
    cases n with
    | zero =>
      show sumStep0 V c ⟨0, hn'⟩ (k0_pay1 (F := Ideal)) (ix2 0 j) = _
      rw [sumStep0_apply, k0_pay1_apply]
      rfl
    | succ m =>
      have hm : m < cfg0.N := Nat.lt_of_succ_lt hn'
      show sumStep0 V c ⟨m + 1, hn'⟩ (accAt0 V c m (Nat.lt_of_succ_lt hn')).1 (ix2 0 j) = _
      rw [sumStep0_apply]
      show _ = (if h : m < cfg0.N then (accAt0 V c m h).1 (ix2 0 j) else 0) + _
      rw [dif_pos hm])
  have e : sumNat0 V c j 10 = (accAt0 V c 9 nine_lt0).1 (ix2 0 j) := by
    show (if h : 9 < cfg0.N then (accAt0 V c 9 h).1 (ix2 0 j) else 0) = _
    rw [dif_pos nine_lt0]
  rw [← e, h, zero_add]

/-- After the last point the accumulator of squares holds the column sums of the squared entries over all the rows. -/
theorem sqAcc0 (c : Dev nD) (j : Fin 128) :
    (accAt0 V c 9 nine_lt0).2 (ix2 0 j) = ∑ R : Fin 50000, zOf0 V c R j * zOf0 V c R j := by
  have hN : cfg0.N = 10 := N_0
  have h := Cert.LibAccBlocks.acc_blocks 10 5000 (fun R : Fin (10 * 5000) => zOf0 V c R j * zOf0 V c R j) 0 (sqNat0 V c j) rfl (fun n hn => by
    have hn' : n < cfg0.N := by rw [hN]; exact hn
    show (if h : n < cfg0.N then (accAt0 V c n h).2 (ix2 0 j) else 0) = _
    rw [dif_pos hn']
    cases n with
    | zero =>
      show sqStep0 V c ⟨0, hn'⟩ (k0_pay2 (F := Ideal)) (ix2 0 j) = _
      rw [sqStep0_apply, k0_pay2_apply]
      rfl
    | succ m =>
      have hm : m < cfg0.N := Nat.lt_of_succ_lt hn'
      show sqStep0 V c ⟨m + 1, hn'⟩ (accAt0 V c m (Nat.lt_of_succ_lt hn')).2 (ix2 0 j) = _
      rw [sqStep0_apply]
      show _ = (if h : m < cfg0.N then (accAt0 V c m h).2 (ix2 0 j) else 0) + _
      rw [dif_pos hm])
  have e : sqNat0 V c j 10 = (accAt0 V c 9 nine_lt0).2 (ix2 0 j) := by
    show (if h : 9 < cfg0.N then (accAt0 V c 9 h).2 (ix2 0 j) else 0) = _
    rw [dif_pos nine_lt0]
  rw [← e, h, zero_add]

/-- The same for the last point however it is named. -/
theorem sumAcc0' (c : Dev nD) (t : Fin cfg0.N) (h9 : t.val = 9) (j : Fin 128) :
    (accAt0 V c t.val t.isLt).1 (ix2 0 j) = ∑ R : Fin 50000, zOf0 V c R j := by
  obtain ⟨n, hn⟩ := t
  dsimp only at h9
  subst h9
  exact sumAcc0 V c j

theorem sqAcc0' (c : Dev nD) (t : Fin cfg0.N) (h9 : t.val = 9) (j : Fin 128) :
    (accAt0 V c t.val t.isLt).2 (ix2 0 j) = ∑ R : Fin 50000, zOf0 V c R j * zOf0 V c R j := by
  obtain ⟨n, hn⟩ := t
  dsimp only at h9
  subst h9
  exact sqAcc0 V c j

/-! ## The arrays after the region -/

/-- The layer's result as contents of window 4's array. -/
noncomputable def zArr0 (c : Dev nD) : S50000x128.Idx → EReal := fun i => zOf0 V c (i 0) (i 1)

/-- What point `t` writes back to window 4 is block `t` of the layer's result. -/
theorem flushed0_4 (c : Dev nD) (t : Fin cfg0.N) (hf : (cfg0.win 4).flush t = true) :
    (dat0 V c).flushed 4 t = ((cfg0.win 4).blk t).view.read (Elt Ideal) (zArr0 V c) := by
  show (cfg0.win 4).cut (grid0.coords t) ((dat0 V c).after 4 t) = _
  rw [after0_4]
  funext y
  show zAt0 V c t y = zArr0 V c (((cfg0.win 4).blk t).view.emb y)
  refine (zAt0_apply' V c t y).trans ?_
  unfold zArr0
  have hy0 : (y 0).val < 5000 := (y 0).isLt
  have hy1 : (y 1).val < 128 := (y 1).isLt
  refine congr (congrArg _ (Fin.ext ?_)) (Fin.ext ?_)
  · show t.val * 5000 + (y 0).val = win0_4.index t 0 * 5000 + 1 * (y 0).val
    rw [(widx0 t).2.2.2.2.1.1]; omega
  · show (y 1).val = win0_4.index t 1 * 128 + 1 * (y 1).val
    rw [(widx0 t).2.2.2.2.1.2]; omega

/-- Every row lies in the block of the point `row / 5000`. -/
theorem cover0_4 (i : S50000x128.Idx) : ∃ t : Fin cfg0.N, (cfg0.win 4).flush t = true ∧ i ∈ ((cfg0.win 4).blk t).view.set := by
  have hN : cfg0.N = 10 := N_0
  have h0 : (i 0).val < 50000 := (i 0).isLt
  have h1 : (i 1).val < 128 := (i 1).isLt
  have ht : (i 0).val / 5000 < cfg0.N := by rw [hN]; omega
  refine ⟨⟨(i 0).val / 5000, ht⟩, flush0_4 _, ?_⟩
  rw [show ((cfg0.win 4).blk ⟨(i 0).val / 5000, ht⟩).view.set = (win0_4.rect ⟨(i 0).val / 5000, ht⟩).set from
    View.set_slice_whole main_v19_0 (win0_4.rect ⟨(i 0).val / 5000, ht⟩), Rect.mem_set_unit]
  intro a
  match a with
  | ⟨0, _⟩ =>
    show win0_4.index ⟨(i 0).val / 5000, ht⟩ 0 * 5000 ≤ (i 0).val ∧ (i 0).val < win0_4.index ⟨(i 0).val / 5000, ht⟩ 0 * 5000 + 5000
    rw [(widx0 ⟨(i 0).val / 5000, ht⟩).2.2.2.2.1.1]; dsimp only; omega
  | ⟨1, _⟩ =>
    show win0_4.index ⟨(i 0).val / 5000, ht⟩ 1 * 128 ≤ (i 1).val ∧ (i 1).val < win0_4.index ⟨(i 0).val / 5000, ht⟩ 1 * 128 + 128
    rw [(widx0 ⟨(i 0).val / 5000, ht⟩).2.2.2.2.1.2]; omega

/-- Window 4's array after the region is the layer's result. -/
theorem final0_4 (c : Dev nD) : (dat0 V c).arrAt 4 cfg0.N = zArr0 V c :=
  (dat0 V c).arrAt_eq_of_cover 4 (zArr0 V c) (flushed0_4 V c) (cover0_4)

/-- The array window 5 ends holding: at column `j` of its one row, the column sum of the layer's result over all the rows. -/
noncomputable def sumArr0 (c : Dev nD) : S1x128.Idx → EReal := fun i => ∑ R : Fin 50000, zOf0 V c R (i 1)

/-- The accumulator after the last point, at any index of its one row. -/
theorem sumAcc0_row (c : Dev nD) (t : Fin cfg0.N) (h9 : t.val = 9) (y : S1x128.Idx) :
    (accAt0 V c t.val t.isLt).1 y = ∑ R : Fin 50000, zOf0 V c R (y 1) := by
  obtain ⟨u, j, rfl⟩ : ∃ (u : Fin 1) (j : Fin 128), y = ix2 u j := ⟨y 0, y 1, eq_ix2 y⟩
  obtain rfl : u = 0 := Subsingleton.elim _ _
  exact sumAcc0' V c t h9 j

/-- Window 5's block is read through its view index by index, and a write-back moves the whole staging buffer. -/
theorem read_blk0_5 (t : Fin cfg0.N) (y : ((cfg0.win 5).xblock (grid0.coords t)).Idx) (f : S1x128.Idx → EReal) :
    ((cfg0.win 5).blk t).view.read (Elt Ideal) f y = f (((cfg0.win 5).blk t).view.emb y) := rfl
theorem cut0_5 (t : Fin cfg0.N) (y : ((cfg0.win 5).xblock (grid0.coords t)).Idx) (s : S1x128.Idx → EReal) :
    (cfg0.win 5).cut (grid0.coords t) s y = s y := rfl

/-- The one write-back of window 5, after the last point, writes the accumulator, which holds those sums. -/
theorem flushed0_5 (c : Dev nD) (t : Fin cfg0.N) (hf : (cfg0.win 5).flush t = true) :
    (dat0 V c).flushed 5 t = ((cfg0.win 5).blk t).view.read (Elt Ideal) (sumArr0 V c) := by
  have hN : cfg0.N = 10 := N_0
  have h9 : t.val = 9 := by have := (flush0_5 t).mp hf; have := t.isLt; omega
  show (cfg0.win 5).cut (grid0.coords t) ((dat0 V c).after 5 t) = _
  rw [after0_5]
  have hs := sumAcc0_row V c t h9
  generalize (accAt0 V c t.val t.isLt).1 = s at hs ⊢
  funext y
  refine (cut0_5 t y s).trans ((hs y).trans ?_)
  refine Eq.trans ?_ (read_blk0_5 t y (sumArr0 V c)).symm
  have hy1 : (y 1).val < 128 := (y 1).isLt
  have e1 : (((cfg0.win 5).blk t).view.emb y) 1 = y 1 := Fin.ext (by
    show win0_5.index t 1 * 128 + 1 * (y 1).val = (y 1).val
    rw [(widx0 t).2.2.2.2.2.1.2]; omega)
  unfold sumArr0
  beta_reduce
  rw [e1]

/-- The last point's block is the whole one-row array. -/
theorem cover0_5 (i : S1x128.Idx) : ∃ t : Fin cfg0.N, (cfg0.win 5).flush t = true ∧ i ∈ ((cfg0.win 5).blk t).view.set := by
  have h0 : (i 0).val < 1 := (i 0).isLt
  have h1 : (i 1).val < 128 := (i 1).isLt
  refine ⟨t0_9, (flush0_5 t0_9).mpr rfl, ?_⟩
  rw [show ((cfg0.win 5).blk t0_9).view.set = (win0_5.rect t0_9).set from
    View.set_slice_whole main_v19_1 (win0_5.rect t0_9), Rect.mem_set_unit]
  intro a
  match a with
  | ⟨0, _⟩ =>
    show win0_5.index t0_9 0 * 1 ≤ (i 0).val ∧ (i 0).val < win0_5.index t0_9 0 * 1 + 1
    rw [(widx0 t0_9).2.2.2.2.2.1.1]; omega
  | ⟨1, _⟩ =>
    show win0_5.index t0_9 1 * 128 ≤ (i 1).val ∧ (i 1).val < win0_5.index t0_9 1 * 128 + 128
    rw [(widx0 t0_9).2.2.2.2.2.1.2]; omega

/-- Window 5's array after the region. -/
theorem final0_5 (c : Dev nD) : (dat0 V c).arrAt 5 cfg0.N = sumArr0 V c :=
  (dat0 V c).arrAt_eq_of_cover 5 (sumArr0 V c) (flushed0_5 V c) (cover0_5)

/-- The array window 6 ends holding: at column `j` of its one row, the column sum of the squared entries over all the rows. -/
noncomputable def sqArr0 (c : Dev nD) : S1x128.Idx → EReal := fun i => ∑ R : Fin 50000, zOf0 V c R (i 1) * zOf0 V c R (i 1)

/-- The accumulator after the last point, at any index of its one row. -/
theorem sqAcc0_row (c : Dev nD) (t : Fin cfg0.N) (h9 : t.val = 9) (y : S1x128.Idx) :
    (accAt0 V c t.val t.isLt).2 y = ∑ R : Fin 50000, zOf0 V c R (y 1) * zOf0 V c R (y 1) := by
  obtain ⟨u, j, rfl⟩ : ∃ (u : Fin 1) (j : Fin 128), y = ix2 u j := ⟨y 0, y 1, eq_ix2 y⟩
  obtain rfl : u = 0 := Subsingleton.elim _ _
  exact sqAcc0' V c t h9 j

/-- Window 6's block is read through its view index by index, and a write-back moves the whole staging buffer. -/
theorem read_blk0_6 (t : Fin cfg0.N) (y : ((cfg0.win 6).xblock (grid0.coords t)).Idx) (f : S1x128.Idx → EReal) :
    ((cfg0.win 6).blk t).view.read (Elt Ideal) f y = f (((cfg0.win 6).blk t).view.emb y) := rfl
theorem cut0_6 (t : Fin cfg0.N) (y : ((cfg0.win 6).xblock (grid0.coords t)).Idx) (s : S1x128.Idx → EReal) :
    (cfg0.win 6).cut (grid0.coords t) s y = s y := rfl

/-- The one write-back of window 6, after the last point, writes the accumulator, which holds those sums. -/
theorem flushed0_6 (c : Dev nD) (t : Fin cfg0.N) (hf : (cfg0.win 6).flush t = true) :
    (dat0 V c).flushed 6 t = ((cfg0.win 6).blk t).view.read (Elt Ideal) (sqArr0 V c) := by
  have hN : cfg0.N = 10 := N_0
  have h9 : t.val = 9 := by have := (flush0_6 t).mp hf; have := t.isLt; omega
  show (cfg0.win 6).cut (grid0.coords t) ((dat0 V c).after 6 t) = _
  rw [after0_6]
  have hs := sqAcc0_row V c t h9
  generalize (accAt0 V c t.val t.isLt).2 = s at hs ⊢
  funext y
  refine (cut0_6 t y s).trans ((hs y).trans ?_)
  refine Eq.trans ?_ (read_blk0_6 t y (sqArr0 V c)).symm
  have hy1 : (y 1).val < 128 := (y 1).isLt
  have e1 : (((cfg0.win 6).blk t).view.emb y) 1 = y 1 := Fin.ext (by
    show win0_6.index t 1 * 128 + 1 * (y 1).val = (y 1).val
    rw [(widx0 t).2.2.2.2.2.2.2]; omega)
  unfold sqArr0
  beta_reduce
  rw [e1]

/-- The last point's block is the whole one-row array. -/
theorem cover0_6 (i : S1x128.Idx) : ∃ t : Fin cfg0.N, (cfg0.win 6).flush t = true ∧ i ∈ ((cfg0.win 6).blk t).view.set := by
  have h0 : (i 0).val < 1 := (i 0).isLt
  have h1 : (i 1).val < 128 := (i 1).isLt
  refine ⟨t0_9, (flush0_6 t0_9).mpr rfl, ?_⟩
  rw [show ((cfg0.win 6).blk t0_9).view.set = (win0_6.rect t0_9).set from
    View.set_slice_whole main_v19_2 (win0_6.rect t0_9), Rect.mem_set_unit]
  intro a
  match a with
  | ⟨0, _⟩ =>
    show win0_6.index t0_9 0 * 1 ≤ (i 0).val ∧ (i 0).val < win0_6.index t0_9 0 * 1 + 1
    rw [(widx0 t0_9).2.2.2.2.2.2.1]; omega
  | ⟨1, _⟩ =>
    show win0_6.index t0_9 1 * 128 ≤ (i 1).val ∧ (i 1).val < win0_6.index t0_9 1 * 128 + 128
    rw [(widx0 t0_9).2.2.2.2.2.2.2]; omega

/-- Window 6's array after the region. -/
theorem final0_6 (c : Dev nD) : (dat0 V c).arrAt 6 cfg0.N = sqArr0 V c :=
  (dat0 V c).arrAt_eq_of_cover 6 (sqArr0 V c) (flushed0_6 V c) (cover0_6)

/-! ## The three results, entry by entry -/

theorem z_final0 (c : Dev nD) (R : Fin 50000) (j : Fin 128) :
    ((dat0 V c).arrAt 4 cfg0.N : S50000x128.Idx → EReal) (ix2 R j) = Cert.Spec.dense1 (featA0 V c) (aggA0 V c) (wA0 V c) (bA0 V c) R j := by
  rw [final0_4]; rfl

theorem sum_final0 (c : Dev nD) (j : Fin 128) :
    ((dat0 V c).arrAt 5 cfg0.N : S1x128.Idx → EReal) (ix2 0 j) = Cert.Spec.colSum (Cert.Spec.dense1 (featA0 V c) (aggA0 V c) (wA0 V c) (bA0 V c)) j := by
  rw [final0_5]; rfl

theorem sq_final0 (c : Dev nD) (j : Fin 128) :
    ((dat0 V c).arrAt 6 cfg0.N : S1x128.Idx → EReal) (ix2 0 j) = Cert.Spec.colSumSq (Cert.Spec.dense1 (featA0 V c) (aggA0 V c) (wA0 V c) (bA0 V c)) j := by
  rw [final0_6]; rfl

/-- The four input arrays end as the region found them. -/
theorem in_final0_0 (c : Dev nD) : (dat0 V c).arrAt 0 cfg0.N = V c (Pipeline.arrRef spec0 0) :=
  ((dat0 V c).arrAt_in 0 rfl _).trans (A_eq0 V c 0)
theorem in_final0_1 (c : Dev nD) : (dat0 V c).arrAt 1 cfg0.N = V c (Pipeline.arrRef spec0 1) :=
  ((dat0 V c).arrAt_in 1 rfl _).trans (A_eq0 V c 1)
theorem in_final0_2 (c : Dev nD) : (dat0 V c).arrAt 2 cfg0.N = V c (Pipeline.arrRef spec0 2) :=
  ((dat0 V c).arrAt_in 2 rfl _).trans (A_eq0 V c 2)
theorem in_final0_3 (c : Dev nD) : (dat0 V c).arrAt 3 cfg0.N = V c (Pipeline.arrRef spec0 3) :=
  ((dat0 V c).arrAt_in 3 rfl _).trans (A_eq0 V c 3)

end Cert.KernelIdeal.Hand
end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.KI.B1Val.lean ====
import proofs.«102976_j3633542332749_1_alg».proof.Proof.KI.B1
import proofs.«102976_j3633542332749_1_alg».proof.Proof.Spec
import proofs.«102976_j3633542332749_1_alg».proof.Proof.LibAccBlocks
import proofs.«102976_j3633542332749_1_alg».proof.Proof.LibPlainDot
import Idealize.ShloMosaic.Lib.Pipeline.Value
import Idealize.ShloMosaic.Lib.ValueIdx
import Idealize.ShloMosaic.PureOps.Ideal.Laws

/-! # The second dense layer, call number 1: the three arrays it leaves, entry by entry

Read on the extended reals. With `Z` the 50000 by 128 array of pre-activations, `S` and `T` the rows of scales and
shifts, `W` the 128 by 128 weights and `B` the row of biases as the call finds them, entry `(R, j)` of the first
result is `(∑ k, max (Z (R, k) * S (0, k) + T (0, k)) 0 * W (k, j)) + B (0, j)`: grid point `t` writes rows
`5000 t … 5000 t + 4999`. The second result's entry `(0, j)` is the sum of column `j` of the first over all 50000
rows, the third's the sum of the squares: each point adds its 5000 rows to a running sum that starts at zero, and the
last point's running sums are what is written. The five input arrays end as they were. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The array of pre-activations as the call finds it, -/
abbrev inZ1 (c : Dev nD) : S50000x128.Idx → EReal := V c (Pipeline.arrRef spec1 0)
/-- the row of scales, -/
abbrev inS1 (c : Dev nD) : S1x128.Idx → EReal := V c (Pipeline.arrRef spec1 1)
/-- the row of shifts, -/
abbrev inT1 (c : Dev nD) : S1x128.Idx → EReal := V c (Pipeline.arrRef spec1 2)
/-- the weights, -/
abbrev inW1 (c : Dev nD) : S128x128.Idx → EReal := V c (Pipeline.arrRef spec1 3)
/-- and the row of biases. -/
abbrev inB1 (c : Dev nD) : S1x128.Idx → EReal := V c (Pipeline.arrRef spec1 4)

/-- The dense layer on these arrays, by coordinates. -/
def z2of1 (c : Dev nD) : Fin 50000 → Fin 128 → EReal :=
  Cert.Spec.dense2 (fun R k => inZ1 V c (ix2 R k)) (fun k => inS1 V c (ix2 0 k)) (fun k => inT1 V c (ix2 0 k))
    (fun k j => inW1 V c (ix2 k j)) (fun j => inB1 V c (ix2 0 j))

/-! ## The body's values at an entry -/

/-- A row repeated down the block, read at `(p, q)`, is the row at `(0, q)`. -/
theorem rowDown1_apply (x : Vec Ideal S1x128 .f32) (p : Fin 5000) (q : Fin 128) :
    broadcastTo S5000x128 (shapeCast S1x128 x shapeCasts_S1x128_S1x128) broadcasts_S1x128_S5000x128 (ix2 p q) = x (ix2 0 q) := by
  rw [shapeCast_self]
  exact broadcastTo_apply x _ (ix2 p q) (ix2 0 q) fun a => by
    match a with
    | ⟨0, _⟩ => rfl
    | ⟨1, _⟩ => rfl

/-- The matrix product's dimension numbers are the plain ones: rows by contraction, contraction by columns. -/
theorem dot1_plain : dot_S5000x128_S128x128_S5000x128_1_0_0_1_n_n = DotDims.plain 5000 128 128 := rfl

/-- The block of the first result at `(p, q)`: the rectified affine image of row `p` against column `q` of the
    weights, plus the bias. -/
theorem pay4_1_apply (x0 : Vec Ideal S5000x128 .f32) (x1 x2 : Vec Ideal S1x128 .f32) (x3 : Vec Ideal S128x128 .f32)
    (x4 : Vec Ideal S1x128 .f32) (p : Fin 5000) (q : Fin 128) :
    k1_pay4 x0 x1 x2 x3 x4 (ix2 p q)
      = (∑ k : Fin 128, max (x0 (ix2 p k) * x1 (ix2 0 k) + x2 (ix2 0 k)) 0 * x3 (ix2 k q)) + x4 (ix2 0 q) := by
  unfold k1_pay4
  refine (addf_apply _ _ _).trans ?_
  refine congrArg₂ (· + ·) ?_ (rowDown1_apply x4 p q)
  refine (Cert.LibPlainDot.matmul_plain_zero_apply _ dot1_plain none _ _ p q).trans ?_
  refine Finset.sum_congr rfl fun k _ => ?_
  refine congrArg₂ (· * ·) ?_ ?_
  · refine (truncf_apply (ψ := .bf16) _ bitsLt_bf16_f32 _).trans ?_
    refine (maximumf_apply _ _ _).trans ?_
    refine congrArg₂ max ?_ Ideal.ofBits_zero_f32
    refine (addf_apply _ _ _).trans ?_
    refine congrArg₂ (· + ·) ?_ (rowDown1_apply x2 p k)
    refine (mulf_apply _ _ _).trans ?_
    exact congrArg₂ (· * ·) (congrFun (shapeCast_self x0 _) _) (rowDown1_apply x1 p k)
  · exact (truncf_apply (ψ := .bf16) _ bitsLt_bf16_f32 _).trans (congrFun (shapeCast_self x3 _) _)

/-- A column sum over the block's 5000 rows, stored as a row, read at `(0, q)`. -/
theorem colRow1_apply (v : FVec Ideal S5000x128 .f32) (q : Fin 128) :
    shapeCast S1x128 (multiReduction .add [0] S128 v 0x00000000#32 reduces_S5000x128_S128 (.inl rfl) rfl) shapeCasts_S128_S1x128 (ix2 0 q)
      = ∑ p : Fin 5000, v (ix2 p q) := by
  refine (shapeCast_addUnit_apply ![128] _ shapeCasts_S128_S1x128 (ix2 0 q)).trans ?_
  refine (Ideal.multiReduction_add_single v _ reduces_S5000x128_S128 (.inl rfl) rfl _).trans ?_
  refine Finset.sum_congr rfl fun p _ => congrArg v ?_
  funext a
  match a with
  | ⟨0, _⟩ => exact Fin.ext rfl
  | ⟨1, _⟩ => exact Fin.ext rfl

/-- The running sum after a block: what it was, plus the block's column sums. -/
theorem pay5_1_apply (x0 : Vec Ideal S5000x128 .f32) (x1 x2 : Vec Ideal S1x128 .f32) (x3 : Vec Ideal S128x128 .f32)
    (x4 s : Vec Ideal S1x128 .f32) (q : Fin 128) :
    k1_pay5 x0 x1 x2 x3 x4 s (ix2 0 q) = s (ix2 0 q) + ∑ p : Fin 5000, k1_pay4 x0 x1 x2 x3 x4 (ix2 p q) := by
  unfold k1_pay5
  refine (congrFun (shapeCast_self _ _) _).trans ?_
  refine (addf_apply _ _ _).trans ?_
  exact congrArg₂ (· + ·) rfl (colRow1_apply _ q)

/-- The running sum of squares after a block: what it was, plus the column sums of the block's squares. -/
theorem pay1_1_apply (v : FVec Ideal S5000x128 .f32) (s : Vec Ideal S1x128 .f32) (q : Fin 128) :
    k1_pay1 v s (ix2 0 q) = s (ix2 0 q) + ∑ p : Fin 5000, v (ix2 p q) * v (ix2 p q) := by
  unfold k1_pay1
  refine (congrFun (shapeCast_self _ _) _).trans ?_
  refine (addf_apply _ _ _).trans ?_
  refine congrArg₂ (· + ·) rfl ((colRow1_apply _ q).trans ?_)
  exact Finset.sum_congr rfl fun p _ => mulf_apply _ _ _

/-- The two running sums start at zero. -/
theorem pay2_1_apply (q : Fin 128) : (k1_pay2 : FVec Ideal S1x128 .f32) (ix2 0 q) = 0 := by
  unfold k1_pay2
  exact (congrFun (shapeCast_self _ _) _).trans Ideal.ofBits_zero_f32
theorem pay3_1_apply (q : Fin 128) : (k1_pay3 : FVec Ideal S1x128 .f32) (ix2 0 q) = 0 := by
  unfold k1_pay3
  exact (congrFun (shapeCast_self _ _) _).trans Ideal.ofBits_zero_f32

/-! ## Where the blocks sit -/

/-- The index maps, decided over the ten points: the pre-activations and the first result move together along the rows,
    at block `t`; every other window stays at block 0. -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem N1_val (t : Fin cfg1.N) : t.val < 10 := lt_of_lt_of_eq t.isLt (show cfg1.N = 10 from N_1)

/-- Row `p` of point `t`'s block is row `5000 t + p` of the array. -/
def rowOf1 (t : Fin cfg1.N) (p : Fin 5000) : Fin 50000 :=
  ⟨t.val * 5000 + p.val, by have := N1_val t; have := p.isLt; omega⟩

/-- THE BLOCK OF THE FIRST RESULT at point `t`, entry `(p, q)`: the dense layer at row `5000 t + p`, column `q`. -/
theorem z2blk1_apply (c : Dev nD) (t : Fin cfg1.N) (p : Fin 5000) (q : Fin 128) :
    z2blk1 (F := Ideal) V c t (ix2 p q) = z2of1 V c (rowOf1 t p) q := by
  unfold z2blk1
  obtain ⟨e00, e01, e50, e51, e10, e11, e20, e21, e30, e31, e40, e41, e60, e61, e70, e71⟩ := idx_facts1 t
  refine (pay4_1_apply _ _ _ _ _ p q).trans ?_
  show (∑ k : Fin 128, max (inZ1 V c (((cfg1.win 0).blk t).view.emb (ix2 p k)) * inS1 V c (((cfg1.win 1).blk t).view.emb (ix2 0 k))
        + inT1 V c (((cfg1.win 2).blk t).view.emb (ix2 0 k))) 0 * inW1 V c (((cfg1.win 3).blk t).view.emb (ix2 k q)))
      + inB1 V c (((cfg1.win 4).blk t).view.emb (ix2 0 q))
    = (∑ k : Fin 128, max (inZ1 V c (ix2 (rowOf1 t p) k) * inS1 V c (ix2 0 k) + inT1 V c (ix2 0 k)) 0 * inW1 V c (ix2 k q))
      + inB1 V c (ix2 0 q)
  have h0 : ∀ k : Fin 128, ((cfg1.win 0).blk t).view.emb (ix2 p k) = ix2 (rowOf1 t p) k := fun k => by
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : ∀ k : Fin 128, ((cfg1.win 1).blk t).view.emb (ix2 0 k) = ix2 (n0 := 1) (n1 := 128) 0 k := fun k => by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ∀ k : Fin 128, ((cfg1.win 2).blk t).view.emb (ix2 0 k) = ix2 (n0 := 1) (n1 := 128) 0 k := fun k => by
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, ((cfg1.win 3).blk t).view.emb (ix2 k q) = ix2 (n0 := 128) (n1 := 128) k q := fun k => by
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  have h4 : ((cfg1.win 4).blk t).view.emb (ix2 0 q) = ix2 (n0 := 1) (n1 := 128) 0 q := by
    funext a; apply Fin.ext
    match a with
    | ⟨0, _⟩ => show win1_4.index t (0 : Fin 2) * 1 + 1 * 0 = 0; omega
    | ⟨1, _⟩ => show win1_4.index t (1 : Fin 2) * 128 + 1 * q.val = q.val; omega
  rw [h4]
  refine congrArg₂ (· + ·) (Finset.sum_congr rfl fun k _ => ?_) rfl
  rw [h0 k, h1 k, h2 k, h3 k]

/-! ## The first result -/

/-- The first result as ONE function of the five arrays. -/
def outZ1 (c : Dev nD) : S50000x128.Idx → EReal := fun i => z2of1 V c (i 0) (i 1)

/-- WHAT POINT `t` WRITES BACK is block `t` of `outZ1`. -/
theorem flushed1_5_eq (c : Dev nD) (t : Fin cfg1.N) :
    (dat1 (F := Ideal) V c).flushed 5 t = ((cfg1.win 5).blk t).view.read (Elt Ideal) (outZ1 V c) := by
  show (cfg1.win 5).cut (grid1.coords t) ((dat1 V c).after 5 t) = _
  rw [after1_5]
  obtain ⟨e00, e01, e50, e51, e10, e11, e20, e21, e30, e31, e40, e41, e60, e61, e70, e71⟩ := idx_facts1 t
  funext y
  obtain ⟨p, q, rfl⟩ : ∃ (p : Fin 5000) (q : Fin 128), y = ix2 p q := ⟨y 0, y 1, eq_ix2 y⟩
  refine (z2blk1_apply V c t p q).trans ?_
  show z2of1 V c (rowOf1 t p) q = outZ1 V c (((cfg1.win 5).blk t).view.emb (ix2 p q))
  have h5 : ((cfg1.win 5).blk t).view.emb (ix2 p q) = ix2 (rowOf1 t p) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  rw [h5]
  rfl

/-- An index of the first result is in point `t`'s block iff each coordinate is in the block's range on its axis. -/
theorem mem_blk1_5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43_0).slice (win1_5.rect t)).set ↔ _
  rw [View.set_slice_whole, Rect.mem_set_unit]
  exact Iff.rfl

/-- Every entry of the first result is in some point's block: row `R` in that of point `R / 5000`. -/
theorem cover1_5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨e00, e01, e50, e51, -⟩ := idx_facts1 t
  have q0 : win1_5.index t (0 : Fin 2) = (i 0).val / 5000 := e50
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE FIRST RESULT after the call is the dense layer of the five arrays as the call finds them. -/
theorem final1_5 (c : Dev nD) : (dat1 (F := Ideal) V c).arrAt 5 cfg1.N = outZ1 V c :=
  (dat1 (F := Ideal) V c).arrAt_eq_of_cover 5 _ (fun t _ => flushed1_5_eq V c t) cover1_5

/-- The same, entry by entry. -/
theorem arrAt1_5 (c : Dev nD) (R : Fin 50000) (j : Fin 128) :
    (dat1 (F := Ideal) V c).arrAt 5 cfg1.N (ix2 R j)
      = Cert.Spec.dense2 (fun R k => inZ1 V c (ix2 R k)) (fun k => inS1 V c (ix2 0 k)) (fun k => inT1 V c (ix2 0 k))
          (fun k j => inW1 V c (ix2 k j)) (fun j => inB1 V c (ix2 0 j)) R j := by
  rw [final1_5]; rfl

/-! ## The running sums -/

/-- The running sum after point `n`, at column `q`, as a function of the bare position (zero past the grid). -/
def sumAt1 (c : Dev nD) (q : Fin 128) (n : ℕ) : EReal :=
  if h : n < cfg1.N then sum1 (F := Ideal) V c n h (ix2 0 q) else 0
def sumsqAt1 (c : Dev nD) (q : Fin 128) (n : ℕ) : EReal :=
  if h : n < cfg1.N then sumsq1 (F := Ideal) V c n h (ix2 0 q) else 0

theorem sum1_zero_apply (c : Dev nD) (q : Fin 128) (h : 0 < cfg1.N) :
    sum1 (F := Ideal) V c 0 h (ix2 0 q) = 0 + ∑ p : Fin 5000, z2of1 V c (rowOf1 ⟨0, h⟩ p) q := by
  rw [sum1_first V c ⟨0, h⟩ rfl]
  refine (pay5_1_apply _ _ _ _ _ _ q).trans ?_
  exact congrArg₂ (· + ·) (pay2_1_apply q) (Finset.sum_congr rfl fun p _ => z2blk1_apply V c ⟨0, h⟩ p q)

theorem sum1_succ_apply (c : Dev nD) (q : Fin 128) (n : ℕ) (h : n + 1 < cfg1.N) :
    sum1 (F := Ideal) V c (n + 1) h (ix2 0 q)
      = sum1 (F := Ideal) V c n (Nat.lt_of_succ_lt h) (ix2 0 q) + ∑ p : Fin 5000, z2of1 V c (rowOf1 ⟨n + 1, h⟩ p) q := by
  rw [sum1_next V c ⟨n + 1, h⟩ (Nat.succ_ne_zero n)]
  refine (pay5_1_apply _ _ _ _ _ _ q).trans ?_
  exact congrArg₂ (· + ·) rfl (Finset.sum_congr rfl fun p _ => z2blk1_apply V c ⟨n + 1, h⟩ p q)

theorem sumsq1_zero_apply (c : Dev nD) (q : Fin 128) (h : 0 < cfg1.N) :
    sumsq1 (F := Ideal) V c 0 h (ix2 0 q)
      = 0 + ∑ p : Fin 5000, z2of1 V c (rowOf1 ⟨0, h⟩ p) q * z2of1 V c (rowOf1 ⟨0, h⟩ p) q := by
  rw [sumsq1_first V c ⟨0, h⟩ rfl]
  refine (pay1_1_apply _ _ q).trans ?_
  exact congrArg₂ (· + ·) (pay3_1_apply q) (Finset.sum_congr rfl fun p _ => by rw [z2blk1_apply V c ⟨0, h⟩ p q])

theorem sumsq1_succ_apply (c : Dev nD) (q : Fin 128) (n : ℕ) (h : n + 1 < cfg1.N) :
    sumsq1 (F := Ideal) V c (n + 1) h (ix2 0 q)
      = sumsq1 (F := Ideal) V c n (Nat.lt_of_succ_lt h) (ix2 0 q)
        + ∑ p : Fin 5000, z2of1 V c (rowOf1 ⟨n + 1, h⟩ p) q * z2of1 V c (rowOf1 ⟨n + 1, h⟩ p) q := by
  rw [sumsq1_next V c ⟨n + 1, h⟩ (Nat.succ_ne_zero n)]
  refine (pay1_1_apply _ _ q).trans ?_
  exact congrArg₂ (· + ·) rfl (Finset.sum_congr rfl fun p _ => by rw [z2blk1_apply V c ⟨n + 1, h⟩ p q])

/-- AFTER THE LAST POINT the running sum at column `q` is the sum of column `q` of the dense layer over all rows. -/
theorem sum1_last (c : Dev nD) (q : Fin 128) (h : 9 < cfg1.N) :
    sum1 (F := Ideal) V c 9 h (ix2 0 q) = ∑ R : Fin 50000, z2of1 V c R q := by
  have hN : cfg1.N = 10 := N_1
  have key := Cert.LibAccBlocks.acc_blocks 10 5000 (fun R : Fin (10 * 5000) => z2of1 V c R q) 0
    (fun m => match m with | 0 => 0 | m + 1 => sumAt1 V c q m) rfl (fun j hj => by
      have hj' : j < cfg1.N := by omega
      show sumAt1 V c q j = _
      unfold sumAt1
      rw [dif_pos hj']
      cases j with
      | zero => exact sum1_zero_apply V c q hj'
      | succ j =>
        show _ = sumAt1 V c q j + _
        unfold sumAt1
        rw [dif_pos (Nat.lt_of_succ_lt hj')]
        exact sum1_succ_apply V c q j hj')
  have e : sumAt1 V c q 9 = sum1 (F := Ideal) V c 9 h (ix2 0 q) := by unfold sumAt1; rw [dif_pos h]
  rw [← e]
  exact key.trans (zero_add _)

theorem sumsq1_last (c : Dev nD) (q : Fin 128) (h : 9 < cfg1.N) :
    sumsq1 (F := Ideal) V c 9 h (ix2 0 q) = ∑ R : Fin 50000, z2of1 V c R q * z2of1 V c R q := by
  have hN : cfg1.N = 10 := N_1
  have key := Cert.LibAccBlocks.acc_blocks 10 5000 (fun R : Fin (10 * 5000) => z2of1 V c R q * z2of1 V c R q) 0
    (fun m => match m with | 0 => 0 | m + 1 => sumsqAt1 V c q m) rfl (fun j hj => by
      have hj' : j < cfg1.N := by omega
      show sumsqAt1 V c q j = _
      unfold sumsqAt1
      rw [dif_pos hj']
      cases j with
      | zero => exact sumsq1_zero_apply V c q hj'
      | succ j =>
        show _ = sumsqAt1 V c q j + _
        unfold sumsqAt1
        rw [dif_pos (Nat.lt_of_succ_lt hj')]
        exact sumsq1_succ_apply V c q j hj')
  have e : sumsqAt1 V c q 9 = sumsq1 (F := Ideal) V c 9 h (ix2 0 q) := by unfold sumsqAt1; rw [dif_pos h]
  rw [← e]
  exact key.trans (zero_add _)

/-- The same at the last point, however it is named. -/
theorem sum1_last_at (c : Dev nD) (q : Fin 128) (t : Fin cfg1.N) (h9 : t.val = 9) :
    sum1 (F := Ideal) V c t.val t.isLt (ix2 0 q) = ∑ R : Fin 50000, z2of1 V c R q := by
  obtain ⟨n, hn⟩ := t
  obtain rfl : n = 9 := h9
  exact sum1_last V c q hn
theorem sumsq1_last_at (c : Dev nD) (q : Fin 128) (t : Fin cfg1.N) (h9 : t.val = 9) :
    sumsq1 (F := Ideal) V c t.val t.isLt (ix2 0 q) = ∑ R : Fin 50000, z2of1 V c R q * z2of1 V c R q := by
  obtain ⟨n, hn⟩ := t
  obtain rfl : n = 9 := h9
  exact sumsq1_last V c q hn

/-! ## The second and third results -/

/-- The column sums and the column sums of squares as rows. -/
def outS1 (c : Dev nD) : S1x128.Idx → EReal := fun i => Cert.Spec.colSum (z2of1 V c) (i 1)
def outQ1 (c : Dev nD) : S1x128.Idx → EReal := fun i => Cert.Spec.colSumSq (z2of1 V c) (i 1)

/-- Only the last point writes the sums back. -/
theorem last_of_flush1_6 (t : Fin cfg1.N) (hf : (cfg1.win 6).flush t = true) : t.val = 9 := by
  have := (flush1_6 t).mp hf; have := N1_val t; omega
theorem last_of_flush1_7 (t : Fin cfg1.N) (hf : (cfg1.win 7).flush t = true) : t.val = 9 := by
  have := (flush1_7 t).mp hf; have := N1_val t; omega

/-- WHAT THE LAST POINT WRITES BACK into the second result is the row of column sums. -/
theorem flushed1_6_eq (c : Dev nD) (t : Fin cfg1.N) (hf : (cfg1.win 6).flush t = true) :
    (dat1 (F := Ideal) V c).flushed 6 t = ((cfg1.win 6).blk t).view.read (Elt Ideal) (outS1 V c) := by
  have h9 := last_of_flush1_6 t hf
  show (cfg1.win 6).cut (grid1.coords t) ((dat1 V c).after 6 t) = _
  rw [after1_6]
  obtain ⟨e00, e01, e50, e51, e10, e11, e20, e21, e30, e31, e40, e41, e60, e61, e70, e71⟩ := idx_facts1 t
  funext y
  obtain ⟨p, q, rfl⟩ : ∃ (p : Fin 1) (q : Fin 128), y = ix2 p q := ⟨y 0, y 1, eq_ix2 y⟩
  obtain rfl : p = 0 := Subsingleton.elim _ _
  have h6 : ((cfg1.win 6).blk t).view.emb (ix2 0 q) = ix2 (n0 := 1) (n1 := 128) 0 q := by
    funext a; apply Fin.ext
    match a with
    | ⟨0, _⟩ => show win1_6.index t (0 : Fin 2) * 1 + 1 * 0 = 0; omega
    | ⟨1, _⟩ => show win1_6.index t (1 : Fin 2) * 128 + 1 * q.val = q.val; omega
  have hrd : ∀ G : S1x128.Idx → EReal,
      ((cfg1.win 6).blk t).view.read (Elt Ideal) G (ix2 0 q) = G (ix2 (n0 := 1) (n1 := 128) 0 q) := fun G => by
    show G (((cfg1.win 6).blk t).view.emb (ix2 0 q)) = _
    rw [h6]
  rw [hrd]
  refine (sum1_last_at V c q t h9).trans ?_
  rfl

theorem flushed1_7_eq (c : Dev nD) (t : Fin cfg1.N) (hf : (cfg1.win 7).flush t = true) :
    (dat1 (F := Ideal) V c).flushed 7 t = ((cfg1.win 7).blk t).view.read (Elt Ideal) (outQ1 V c) := by
  have h9 := last_of_flush1_7 t hf
  show (cfg1.win 7).cut (grid1.coords t) ((dat1 V c).after 7 t) = _
  rw [after1_7]
  obtain ⟨e00, e01, e50, e51, e10, e11, e20, e21, e30, e31, e40, e41, e60, e61, e70, e71⟩ := idx_facts1 t
  funext y
  obtain ⟨p, q, rfl⟩ : ∃ (p : Fin 1) (q : Fin 128), y = ix2 p q := ⟨y 0, y 1, eq_ix2 y⟩
  obtain rfl : p = 0 := Subsingleton.elim _ _
  have h7 : ((cfg1.win 7).blk t).view.emb (ix2 0 q) = ix2 (n0 := 1) (n1 := 128) 0 q := by
    funext a; apply Fin.ext
    match a with
    | ⟨0, _⟩ => show win1_7.index t (0 : Fin 2) * 1 + 1 * 0 = 0; omega
    | ⟨1, _⟩ => show win1_7.index t (1 : Fin 2) * 128 + 1 * q.val = q.val; omega
  have hrd : ∀ G : S1x128.Idx → EReal,
      ((cfg1.win 7).blk t).view.read (Elt Ideal) G (ix2 0 q) = G (ix2 (n0 := 1) (n1 := 128) 0 q) := fun G => by
    show G (((cfg1.win 7).blk t).view.emb (ix2 0 q)) = _
    rw [h7]
  rw [hrd]
  refine (sumsq1_last_at V c q t h9).trans ?_
  rfl

theorem mem_blk1_6 (t : Fin cfg1.N) (i : S1x128.Idx) :
    i ∈ ((cfg1.win 6).blk t).view.set ↔ ∀ a : Fin 2, win1_6.index t a * S1x128.size a ≤ (i a).val ∧ (i a).val < win1_6.index t a * S1x128.size a + S1x128.size a := by
  show i ∈ ((View.whole main_v43_1).slice (win1_6.rect t)).set ↔ _
  rw [View.set_slice_whole, Rect.mem_set_unit]
  exact Iff.rfl
theorem mem_blk1_7 (t : Fin cfg1.N) (i : S1x128.Idx) :
    i ∈ ((cfg1.win 7).blk t).view.set ↔ ∀ a : Fin 2, win1_7.index t a * S1x128.size a ≤ (i a).val ∧ (i a).val < win1_7.index t a * S1x128.size a + S1x128.size a := by
  show i ∈ ((View.whole main_v43_2).slice (win1_7.rect t)).set ↔ _
  rw [View.set_slice_whole, Rect.mem_set_unit]
  exact Iff.rfl

/-- The last point's block is the whole row. -/
theorem cover1_6 (i : S1x128.Idx) :
    ∃ t : Fin cfg1.N, (cfg1.win 6).flush t = true ∧ i ∈ ((cfg1.win 6).blk t).view.set := by
  have hi0 : (i 0).val < 1 := (i 0).isLt
  have hi1 : (i 1).val < 128 := (i 1).isLt
  obtain ⟨e00, e01, e50, e51, e10, e11, e20, e21, e30, e31, e40, e41, e60, e61, e70, e71⟩ := idx_facts1 t1_9
  refine ⟨t1_9, (flush1_6 t1_9).mpr rfl, ?_⟩
  rw [mem_blk1_6]
  intro a
  match a with
  | ⟨0, _⟩ => show win1_6.index t1_9 (0 : Fin 2) * 1 ≤ (i 0).val ∧ (i 0).val < win1_6.index t1_9 (0 : Fin 2) * 1 + 1; omega
  | ⟨1, _⟩ => show win1_6.index t1_9 (1 : Fin 2) * 128 ≤ (i 1).val ∧ (i 1).val < win1_6.index t1_9 (1 : Fin 2) * 128 + 128; omega
theorem cover1_7 (i : S1x128.Idx) :
    ∃ t : Fin cfg1.N, (cfg1.win 7).flush t = true ∧ i ∈ ((cfg1.win 7).blk t).view.set := by
  have hi0 : (i 0).val < 1 := (i 0).isLt
  have hi1 : (i 1).val < 128 := (i 1).isLt
  obtain ⟨e00, e01, e50, e51, e10, e11, e20, e21, e30, e31, e40, e41, e60, e61, e70, e71⟩ := idx_facts1 t1_9
  refine ⟨t1_9, (flush1_7 t1_9).mpr rfl, ?_⟩
  rw [mem_blk1_7]
  intro a
  match a with
  | ⟨0, _⟩ => show win1_7.index t1_9 (0 : Fin 2) * 1 ≤ (i 0).val ∧ (i 0).val < win1_7.index t1_9 (0 : Fin 2) * 1 + 1; omega
  | ⟨1, _⟩ => show win1_7.index t1_9 (1 : Fin 2) * 128 ≤ (i 1).val ∧ (i 1).val < win1_7.index t1_9 (1 : Fin 2) * 128 + 128; omega

/-- THE SECOND RESULT after the call is the row of column sums of the dense layer, -/
theorem final1_6 (c : Dev nD) : (dat1 (F := Ideal) V c).arrAt 6 cfg1.N = outS1 V c :=
  (dat1 (F := Ideal) V c).arrAt_eq_of_cover 6 _ (fun t hf => flushed1_6_eq V c t hf) cover1_6
/-- and the third the row of column sums of its squares. -/
theorem final1_7 (c : Dev nD) : (dat1 (F := Ideal) V c).arrAt 7 cfg1.N = outQ1 V c :=
  (dat1 (F := Ideal) V c).arrAt_eq_of_cover 7 _ (fun t hf => flushed1_7_eq V c t hf) cover1_7

/-- The same, entry by entry. -/
theorem arrAt1_6 (c : Dev nD) (j : Fin 128) :
    (dat1 (F := Ideal) V c).arrAt 6 cfg1.N (ix2 0 j)
      = Cert.Spec.colSum (Cert.Spec.dense2 (fun R k => inZ1 V c (ix2 R k)) (fun k => inS1 V c (ix2 0 k)) (fun k => inT1 V c (ix2 0 k))
          (fun k j => inW1 V c (ix2 k j)) (fun j => inB1 V c (ix2 0 j))) j := by
  rw [final1_6]; rfl
theorem arrAt1_7 (c : Dev nD) (j : Fin 128) :
    (dat1 (F := Ideal) V c).arrAt 7 cfg1.N (ix2 0 j)
      = Cert.Spec.colSumSq (Cert.Spec.dense2 (fun R k => inZ1 V c (ix2 R k)) (fun k => inS1 V c (ix2 0 k)) (fun k => inT1 V c (ix2 0 k))
          (fun k j => inW1 V c (ix2 k j)) (fun j => inB1 V c (ix2 0 j))) j := by
  rw [final1_7]; rfl

/-- The five input arrays end as the call found them: an input window is never written back. -/
theorem arrAt1_0 (c : Dev nD) : (dat1 (F := Ideal) V c).arrAt 0 cfg1.N = V c (Pipeline.arrRef spec1 0) :=
  ((dat1 (F := Ideal) V c).arrAt_in 0 rfl _).trans (A_eq1 V c 0)
theorem arrAt1_1 (c : Dev nD) : (dat1 (F := Ideal) V c).arrAt 1 cfg1.N = V c (Pipeline.arrRef spec1 1) :=
  ((dat1 (F := Ideal) V c).arrAt_in 1 rfl _).trans (A_eq1 V c 1)
theorem arrAt1_2 (c : Dev nD) : (dat1 (F := Ideal) V c).arrAt 2 cfg1.N = V c (Pipeline.arrRef spec1 2) :=
  ((dat1 (F := Ideal) V c).arrAt_in 2 rfl _).trans (A_eq1 V c 2)
theorem arrAt1_3 (c : Dev nD) : (dat1 (F := Ideal) V c).arrAt 3 cfg1.N = V c (Pipeline.arrRef spec1 3) :=
  ((dat1 (F := Ideal) V c).arrAt_in 3 rfl _).trans (A_eq1 V c 3)
theorem arrAt1_4 (c : Dev nD) : (dat1 (F := Ideal) V c).arrAt 4 cfg1.N = V c (Pipeline.arrRef spec1 4) :=
  ((dat1 (F := Ideal) V c).arrAt_in 4 rfl _).trans (A_eq1 V c 4)

end Cert.KernelIdeal.Hand

end
-- ==== Proof.KI.C2Val.lean ====
import proofs.«102976_j3633542332749_1_alg».proof.Proof.KI.C2
import Idealize.ShloMosaic.Lib.Pipeline.Value
import Idealize.ShloMosaic.Lib.ValueIdx
import Idealize.ShloMosaic.PureOps.Ideal.Laws

/-! # The normalise-and-rectify call number 2: the array it leaves, entry by entry

Read on the extended reals. Entry `(R, j)` of the result is `max (Z (R, j) * S (0, j) + T (0, j)) 0`, where `Z` is the
50000 by 128 array, `S` the row of scales and `T` the row of shifts as the call finds them: grid point `t` writes rows
`5000 t … 5000 t + 4999`, computed from the same rows of `Z` and from the two rows, and row `R` belongs to point
`R / 5000`. The three input arrays end as they were. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The result as ONE function of the three arrays: scale and shift column by column, then the maximum with zero. -/
def relu2 (Z : S50000x128.Idx → EReal) (S T : S1x128.Idx → EReal) : S50000x128.Idx → EReal :=
  fun i => max (Z i * S (ix2 (n0 := 1) (n1 := 128) 0 (i 1)) + T (ix2 (n0 := 1) (n1 := 128) 0 (i 1))) 0

/-- The array of pre-activations as the call finds it, -/
abbrev inZ2 (c : Dev nD) : S50000x128.Idx → EReal := V c (Pipeline.arrRef spec2 0)
/-- the row of scales, -/
abbrev inS2 (c : Dev nD) : S1x128.Idx → EReal := V c (Pipeline.arrRef spec2 1)
/-- and the row of shifts. -/
abbrev inT2 (c : Dev nD) : S1x128.Idx → EReal := V c (Pipeline.arrRef spec2 2)

theorem hz2 : (![0, 0] : Fin 2 → Nat) = fun _ => 0 := funext fun a => by fin_cases a <;> rfl

/-- A row repeated down the block, read at `(p, q)`, is the row at `(0, q)`. -/
theorem rowDown2_apply (x : Vec Ideal S1x128 .f32) (p : Fin 5000) (q : Fin 128) :
    broadcastTo S5000x128 (shapeCast S1x128 x shapeCasts_S1x128_S1x128) broadcasts_S1x128_S5000x128 (ix2 p q) = x (ix2 0 q) := by
  rw [shapeCast_self]
  exact broadcastTo_apply x _ (ix2 p q) (ix2 0 q) fun a => by
    match a with
    | ⟨0, _⟩ => rfl
    | ⟨1, _⟩ => rfl

/-- The body's stored value at `(p, q)`: `max (z (p, q) * s (0, q) + b (0, q)) 0`. -/
theorem pay2_apply (x0 : Vec Ideal S5000x128 .f32) (x1 x2 : Vec Ideal S1x128 .f32) (p : Fin 5000) (q : Fin 128) :
    k2_pay1 x0 x1 x2 (ix2 p q) = max (x0 (ix2 p q) * x1 (ix2 0 q) + x2 (ix2 0 q)) 0 := by
  unfold k2_pay1
  refine (maximumf_apply _ _ _).trans ?_
  refine congrArg₂ max ?_ Ideal.ofBits_zero_f32
  refine (addf_apply _ _ _).trans ?_
  refine congrArg₂ (· + ·) ?_ (rowDown2_apply x2 p q)
  refine (mulf_apply _ _ _).trans ?_
  exact congrArg₂ (· * ·) (congrFun (shapeCast_self x0 _) _) (rowDown2_apply x1 p q)

/-- The index maps, decided over the ten points: the row block and the result move together along the rows, at block
    `t`; every window sits at column block 0; the two rows never move. -/
theorem idx_facts2 : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 9 :=
  (by decide +kernel : ∀ t : Fin grid2.N, _)

/-- Every row block is some point's. -/
theorem idx_onto2 : ∀ (q0 : Fin 10), ∃ t : Fin cfg2.N, win2_3.index t = ![q0.val, 0] :=
  (by decide +kernel : ∀ (q0 : Fin 10), ∃ t : Fin grid2.N, win2_3.index t = ![q0.val, 0])

/-- WHAT POINT `t` WRITES BACK is block `t` of `relu2` of the three arrays as the call finds them. -/
theorem flushed2_3_eq (c : Dev nD) (t : Fin cfg2.N) :
    (dat2 (F := Ideal) V c).flushed 3 t
      = ((cfg2.win 3).blk t).view.read (Elt Ideal) (relu2 (inZ2 V c) (inS2 V c) (inT2 V c)) := by
  show (cfg2.win 3).cut (grid2.coords t) ((dat2 V c).after 3 t) = _
  rw [after2_3]
  unfold out2_3
  rw [View.canon_unit_zero hz2]
  simp only [View.ld_unit_zero (S := S5000x128) hz2, View.ld_unit_zero (S := S1x128) hz2]
  obtain ⟨e0, e1, e2, e3, e4, e5, e6, e7⟩ := idx_facts2 t
  funext y
  obtain ⟨p, q, rfl⟩ : ∃ (p : Fin 5000) (q : Fin 128), y = ix2 p q := ⟨y 0, y 1, eq_ix2 y⟩
  refine (pay2_apply _ _ _ p q).trans ?_
  show max (inZ2 V c (((cfg2.win 0).blk t).view.emb (ix2 p q)) * inS2 V c (((cfg2.win 1).blk t).view.emb (ix2 0 q))
      + inT2 V c (((cfg2.win 2).blk t).view.emb (ix2 0 q))) 0
    = relu2 (inZ2 V c) (inS2 V c) (inT2 V c) (((cfg2.win 3).blk t).view.emb (ix2 p q))
  have h0 : ((cfg2.win 0).blk t).view.emb (ix2 p q) = ((cfg2.win 3).blk t).view.emb (ix2 p q) := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * q.val = win2_3.index t (1 : Fin 2) * 128 + 1 * q.val; omega
  have h1 : ((cfg2.win 1).blk t).view.emb (ix2 0 q)
      = ix2 (n0 := 1) (n1 := 128) 0 ((((cfg2.win 3).blk t).view.emb (ix2 p q)) 1) := by
    funext a; apply Fin.ext
    match a with
    | ⟨0, _⟩ => show win2_1.index t (0 : Fin 2) * 1 + 1 * 0 = 0; omega
    | ⟨1, _⟩ => show win2_1.index t (1 : Fin 2) * 128 + 1 * q.val = win2_3.index t (1 : Fin 2) * 128 + 1 * q.val; omega
  have h2 : ((cfg2.win 2).blk t).view.emb (ix2 0 q)
      = ix2 (n0 := 1) (n1 := 128) 0 ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  rw [h0, h1, h2]
  rfl

/-- An index of the array is in point `t`'s block iff each coordinate is in the block's range on its axis. -/
theorem mem_blk2_3 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v62).slice (win2_3.rect t)).set ↔ _
  rw [View.set_slice_whole, Rect.mem_set_unit]
  exact Iff.rfl

/-- Every entry of the result is in some point's block: row `R` in that of point `R / 5000`. -/
theorem cover2_arr (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2_3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE RESULT ARRAY after the call is `relu2` of the three arrays as the call finds them. -/
theorem final2_3 (c : Dev nD) :
    (dat2 (F := Ideal) V c).arrAt 3 cfg2.N = relu2 (inZ2 V c) (inS2 V c) (inT2 V c) :=
  (dat2 (F := Ideal) V c).arrAt_eq_of_cover 3 _ (fun t _ => flushed2_3_eq V c t) cover2_arr

/-- The same, entry by entry: `max (Z (R, j) * S (0, j) + T (0, j)) 0`. -/
theorem arrAt2_3 (c : Dev nD) (R : Fin 50000) (j : Fin 128) :
    (dat2 (F := Ideal) V c).arrAt 3 cfg2.N (ix2 R j)
      = max (inZ2 V c (ix2 R j) * inS2 V c (ix2 0 j) + inT2 V c (ix2 0 j)) 0 := by
  rw [final2_3]; rfl

/-- The three input arrays end as the call found them: an input window is never written back. -/
theorem arrAt2_0 (c : Dev nD) : (dat2 (F := Ideal) V c).arrAt 0 cfg2.N = V c (Pipeline.arrRef spec2 0) :=
  ((dat2 (F := Ideal) V c).arrAt_in 0 rfl _).trans (A_eq2 V c 0)
theorem arrAt2_1 (c : Dev nD) : (dat2 (F := Ideal) V c).arrAt 1 cfg2.N = V c (Pipeline.arrRef spec2 1) :=
  ((dat2 (F := Ideal) V c).arrAt_in 1 rfl _).trans (A_eq2 V c 1)
theorem arrAt2_2 (c : Dev nD) : (dat2 (F := Ideal) V c).arrAt 2 cfg2.N = V c (Pipeline.arrRef spec2 2) :=
  ((dat2 (F := Ideal) V c).arrAt_in 2 rfl _).trans (A_eq2 V c 2)

end Cert.KernelIdeal.Hand
-- ==== Proof.KI.Layer0.lean ====
/-
  Layer 0 of the kernel program, read through its three kernel regions and the host stretches between them: the
  first kernel's output is the first dense layer of the input activations plus their neighbour sums, with its column
  sums and sums of squares; the host folds them into a scale and a shift per column; the second kernel's output is the
  second dense layer of the rectified affine image, again with its column statistics; the third kernel applies the
  second folded scale and shift and the rectifier. Together: the folded arrangement of the layer.
-/
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102976_j3633542332749_1_alg».proof.Proof.KI.Params
import proofs.«102976_j3633542332749_1_alg».proof.Proof.KI.Stages
import proofs.«102976_j3633542332749_1_alg».proof.Proof.KI.A0Val
import proofs.«102976_j3633542332749_1_alg».proof.Proof.KI.B1Val
import proofs.«102976_j3633542332749_1_alg».proof.Proof.KI.C2Val
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

local notation "N₀" => Ideal.ofBits FTy.f32 0x47435000#32
local notation "E₀" => Ideal.ofBits FTy.f32 0x3727C5AC#32

variable (m : (ℓ : Loc nD τ sig) → Buf (Elt Ideal) ℓ) (ρ : Dev nD → PrngReg)

/-! ## Layer 0 -/

/-- The layer's input activations, as the kernel region finds them. -/
def act0 (c : Dev nD) : Fin 50000 → Fin 128 → EReal := fun R k => (W0 m ρ c (Proc.devRef .tc main_arg0) : S50000x128.Idx → EReal) (ix2 R k)
/-- The neighbour sums of the layer's input. -/
def nbr0 (c : Dev nD) : Fin 50000 → Fin 128 → EReal := fun R k => (aggOf (F := Ideal) (W0 m ρ c (Proc.devRef .tc main_arg0)) (srcCol m c) (dstCol m c) : S50000x128.Idx → EReal) (ix2 R k)

theorem featA0_eq (c : Dev nD) : featA0 (V1 m ρ) c = act0 m ρ c := by
  funext R k
  exact congrFun (h_after0 (W0 m ρ c)) (ix2 R k)
theorem aggA0_eq (c : Dev nD) : aggA0 (V1 m ρ) c = nbr0 m ρ c := by
  funext R k
  refine (congrFun (agg_after0 (W0 m ρ c)) (ix2 R k)).trans ?_
  rfl
theorem wA0_eq (c : Dev nD) : wA0 (V1 m ρ) c = w1At m c 0 := by
  funext k j
  refine (congrFun (weight_after0 (W0 m ρ c)) (ix2 k j)).trans ?_
  refine (matOf_apply _ _ _ 0 k j rfl rfl rfl).trans ?_
  exact congrFun rfl (ix3 0 k j)
theorem bA0_eq (c : Dev nD) : bA0 (V1 m ρ) c = b1At m c 0 := by
  funext j
  refine (congrFun (bias_after0 (W0 m ρ c)) (ix2 0 j)).trans ?_
  refine (rowOf_apply _ _ _ 0 j rfl rfl).trans ?_
  exact congrFun rfl (ix2 0 j)

/-- The first dense layer's output, as the first kernel leaves it. -/
def pre1_0 (c : Dev nD) : Fin 50000 → Fin 128 → EReal := Cert.Spec.dense1 (act0 m ρ c) (nbr0 m ρ c) (w1At m c 0) (b1At m c 0)

theorem z1_0 (c : Dev nD) (R : Fin 50000) (k : Fin 128) : (W2 m ρ c (Proc.devRef .tc main_v19_0) : S50000x128.Idx → EReal) (ix2 R k) = pre1_0 m ρ c R k := by
  refine (congrFun (W2_arr m ρ c 4) (ix2 R k)).trans ?_
  refine (z_final0 (V1 m ρ) c R k).trans ?_
  rw [featA0_eq, aggA0_eq, wA0_eq, bA0_eq]; rfl
theorem s1_0 (c : Dev nD) (k : Fin 128) : (W2 m ρ c (Proc.devRef .tc main_v19_1) : S1x128.Idx → EReal) (ix2 0 k) = Cert.Spec.colSum (pre1_0 m ρ c) k := by
  refine (congrFun (W2_arr m ρ c 5) (ix2 0 k)).trans ?_
  refine (sum_final0 (V1 m ρ) c k).trans ?_
  rw [featA0_eq, aggA0_eq, wA0_eq, bA0_eq]; rfl
theorem q1_0 (c : Dev nD) (k : Fin 128) : (W2 m ρ c (Proc.devRef .tc main_v19_2) : S1x128.Idx → EReal) (ix2 0 k) = Cert.Spec.colSumSq (pre1_0 m ρ c) k := by
  refine (congrFun (W2_arr m ρ c 6) (ix2 0 k)).trans ?_
  refine (sq_final0 (V1 m ρ) c k).trans ?_
  rw [featA0_eq, aggA0_eq, wA0_eq, bA0_eq]; rfl

/-- What the second kernel reads: the first dense layer's output, the folded scale and shift, the second weights. -/
theorem inZ1_eq (c : Dev nD) (R : Fin 50000) (k : Fin 128) : inZ1 (V3 m ρ) c (ix2 R k) = pre1_0 m ρ c R k :=
  (congrFun (z_after1 (W2 m ρ c)) (ix2 R k)).trans (z1_0 m ρ c R k)
theorem inS1_eq (c : Dev nD) (k : Fin 128) : inS1 (V3 m ρ) c (ix2 0 k) = Cert.Spec.scaleF (pre1_0 m ρ c) (gmAt m c 0) N₀ E₀ k := by
  refine (congrFun (scale_after1 (W2 m ρ c)) (ix2 0 k)).trans ?_
  rw [scaleOf_apply, rowOf_apply _ _ _ 0 k rfl rfl, s1_0, q1_0]
  rw [show (W2 m ρ c (Proc.devRef .tc main_arg7) : S4x128.Idx → EReal) (ix2 0 k) = gmAt m c 0 k from congrFun (W2_arg m ρ c main_arg7 (by decide)) (ix2 0 k)]
  rfl
theorem inT1_eq (c : Dev nD) (k : Fin 128) : inT1 (V3 m ρ) c (ix2 0 k) = Cert.Spec.shiftF (pre1_0 m ρ c) (gmAt m c 0) (bmAt m c 0) N₀ E₀ k := by
  refine (congrFun (shift_after1 (W2 m ρ c)) (ix2 0 k)).trans ?_
  rw [shiftOf_apply, rowOf_apply _ _ _ 0 k rfl rfl, rowOf_apply _ _ _ 0 k rfl rfl, s1_0, q1_0]
  rw [show (W2 m ρ c (Proc.devRef .tc main_arg7) : S4x128.Idx → EReal) (ix2 0 k) = gmAt m c 0 k from congrFun (W2_arg m ρ c main_arg7 (by decide)) (ix2 0 k),
    show (W2 m ρ c (Proc.devRef .tc main_arg8) : S4x128.Idx → EReal) (ix2 0 k) = bmAt m c 0 k from congrFun (W2_arg m ρ c main_arg8 (by decide)) (ix2 0 k)]
  rfl
theorem inW1_eq (c : Dev nD) (k j : Fin 128) : inW1 (V3 m ρ) c (ix2 k j) = w2At m c 0 k j := by
  refine (congrFun (weight_after1 (W2 m ρ c)) (ix2 k j)).trans ?_
  refine (matOf_apply _ _ _ 0 k j rfl rfl rfl).trans ?_
  exact congrFun (W2_arg m ρ c main_arg5 (by decide)) (ix3 0 k j)
theorem inB1_eq (c : Dev nD) (j : Fin 128) : inB1 (V3 m ρ) c (ix2 0 j) = b2At m c 0 j := by
  refine (congrFun (bias_after1 (W2 m ρ c)) (ix2 0 j)).trans ?_
  refine (rowOf_apply _ _ _ 0 j rfl rfl).trans ?_
  exact congrFun (W2_arg m ρ c main_arg6 (by decide)) (ix2 0 j)

/-- The second dense layer's output, as the second kernel leaves it. -/
def pre2_0 (c : Dev nD) : Fin 50000 → Fin 128 → EReal :=
  Cert.Spec.dense2 (pre1_0 m ρ c) (Cert.Spec.scaleF (pre1_0 m ρ c) (gmAt m c 0) N₀ E₀) (Cert.Spec.shiftF (pre1_0 m ρ c) (gmAt m c 0) (bmAt m c 0) N₀ E₀) (w2At m c 0) (b2At m c 0)

theorem dense2_args_0 (c : Dev nD) :
    Cert.Spec.dense2 (fun R k => inZ1 (V3 m ρ) c (ix2 R k)) (fun k => inS1 (V3 m ρ) c (ix2 0 k)) (fun k => inT1 (V3 m ρ) c (ix2 0 k))
      (fun k j => inW1 (V3 m ρ) c (ix2 k j)) (fun j => inB1 (V3 m ρ) c (ix2 0 j)) = pre2_0 m ρ c := by
  rw [show (fun R k => inZ1 (V3 m ρ) c (ix2 R k)) = pre1_0 m ρ c from funext fun R => funext fun k => inZ1_eq m ρ c R k,
    show (fun k => inS1 (V3 m ρ) c (ix2 0 k)) = Cert.Spec.scaleF (pre1_0 m ρ c) (gmAt m c 0) N₀ E₀ from funext fun k => inS1_eq m ρ c k,
    show (fun k => inT1 (V3 m ρ) c (ix2 0 k)) = Cert.Spec.shiftF (pre1_0 m ρ c) (gmAt m c 0) (bmAt m c 0) N₀ E₀ from funext fun k => inT1_eq m ρ c k,
    show (fun k j => inW1 (V3 m ρ) c (ix2 k j)) = w2At m c 0 from funext fun k => funext fun j => inW1_eq m ρ c k j,
    show (fun j => inB1 (V3 m ρ) c (ix2 0 j)) = b2At m c 0 from funext fun j => inB1_eq m ρ c j]
  rfl
theorem z2_0 (c : Dev nD) (R : Fin 50000) (j : Fin 128) : (W4 m ρ c (Proc.devRef .tc main_v43_0) : S50000x128.Idx → EReal) (ix2 R j) = pre2_0 m ρ c R j := by
  refine (congrFun (W4_arr m ρ c 5) (ix2 R j)).trans ?_
  refine (arrAt1_5 (V3 m ρ) c R j).trans ?_
  rw [dense2_args_0]
theorem s2_0 (c : Dev nD) (j : Fin 128) : (W4 m ρ c (Proc.devRef .tc main_v43_1) : S1x128.Idx → EReal) (ix2 0 j) = Cert.Spec.colSum (pre2_0 m ρ c) j := by
  refine (congrFun (W4_arr m ρ c 6) (ix2 0 j)).trans ?_
  refine (arrAt1_6 (V3 m ρ) c j).trans ?_
  rw [dense2_args_0]
theorem q2_0 (c : Dev nD) (j : Fin 128) : (W4 m ρ c (Proc.devRef .tc main_v43_2) : S1x128.Idx → EReal) (ix2 0 j) = Cert.Spec.colSumSq (pre2_0 m ρ c) j := by
  refine (congrFun (W4_arr m ρ c 7) (ix2 0 j)).trans ?_
  refine (arrAt1_7 (V3 m ρ) c j).trans ?_
  rw [dense2_args_0]

/-- THE LAYER: what the third kernel leaves is the folded arrangement of the layer at its input. -/
theorem layer0_value (c : Dev nD) (R : Fin 50000) (j : Fin 128) :
    (W6 m ρ c (Proc.devRef .tc main_v62) : S50000x128.Idx → EReal) (ix2 R j)
      = Cert.Spec.layerF (act0 m ρ c) (nbr0 m ρ c) (w1At m c 0) (b1At m c 0) (w2At m c 0) (b2At m c 0)
          (gmAt m c 0) (bmAt m c 0) (goAt m c 0) (boAt m c 0) N₀ E₀ R j := by
  refine (congrFun (W6_arr m ρ c 3) (ix2 R j)).trans ?_
  refine (arrAt2_3 (V5 m ρ) c R j).trans ?_
  have hz : inZ2 (V5 m ρ) c (ix2 R j) = pre2_0 m ρ c R j :=
    (congrFun (z_after2 (W4 m ρ c)) (ix2 R j)).trans (z2_0 m ρ c R j)
  have hs : inS2 (V5 m ρ) c (ix2 0 j) = Cert.Spec.scaleF (pre2_0 m ρ c) (goAt m c 0) N₀ E₀ j := by
    refine (congrFun (scale_after2 (W4 m ρ c)) (ix2 0 j)).trans ?_
    rw [scaleOf_apply, rowOf_apply _ _ _ 0 j rfl rfl, s2_0, q2_0]
    rw [show (W4 m ρ c (Proc.devRef .tc main_arg9) : S4x128.Idx → EReal) (ix2 0 j) = goAt m c 0 j from congrFun (W4_arg m ρ c main_arg9 (by decide)) (ix2 0 j)]
    rfl
  have ht : inT2 (V5 m ρ) c (ix2 0 j) = Cert.Spec.shiftF (pre2_0 m ρ c) (goAt m c 0) (boAt m c 0) N₀ E₀ j := by
    refine (congrFun (shift_after2 (W4 m ρ c)) (ix2 0 j)).trans ?_
    rw [shiftOf_apply, rowOf_apply _ _ _ 0 j rfl rfl, rowOf_apply _ _ _ 0 j rfl rfl, s2_0, q2_0]
    rw [show (W4 m ρ c (Proc.devRef .tc main_arg9) : S4x128.Idx → EReal) (ix2 0 j) = goAt m c 0 j from congrFun (W4_arg m ρ c main_arg9 (by decide)) (ix2 0 j),
      show (W4 m ρ c (Proc.devRef .tc main_arg10) : S4x128.Idx → EReal) (ix2 0 j) = boAt m c 0 j from congrFun (W4_arg m ρ c main_arg10 (by decide)) (ix2 0 j)]
    rfl
  rw [hz, hs, ht]
  rfl

end Cert.KernelIdeal.Hand

end
-- ==== Proof.KI.A3Val.lean ====
import proofs.«102976_j3633542332749_1_alg».proof.Proof.KI.A3
import proofs.«102976_j3633542332749_1_alg».proof.Proof.KI.AVal
import proofs.«102976_j3633542332749_1_alg».proof.Proof.Spec
import proofs.«102976_j3633542332749_1_alg».proof.Proof.LibAccBlocks

/-! # What the region of custom_call 3 leaves in its three result arrays, over the extended reals

Window 4's array ends as the linear layer `(H + G)·W + B` of the four input arrays the region finds, entry by entry;
window 5's as its column sums over all 50000 rows; window 6's as the column sums of its squared entries. The blocks
are rows `t·5000 … t·5000 + 4999`; the accumulators start at zero and add one block's column sums per point, so after
the ten points they hold the sums over all the rows (addition on the extended reals is commutative and associative:
no finiteness is used). -/

set_option maxRecDepth 16384

open scoped BigOperators

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem k3_pay3_eq (x0 x1 : Vec Ideal S5000x128 .f32) (x2 : Vec Ideal S128x128 .f32) (x3 : Vec Ideal S1x128 .f32) :
    k3_pay3 x0 x1 x2 x3 = zCore_A x0 x1 x2 x3 := by
  unfold k3_pay3 zCore_A; simp only [shapeCast_self]

theorem k3_pay4_eq (x0 x1 : Vec Ideal S5000x128 .f32) (x2 : Vec Ideal S128x128 .f32) (x3 : Vec Ideal S1x128 .f32) (s : Vec Ideal S1x128 .f32) :
    k3_pay4 x0 x1 x2 x3 s = colSum_A (k3_pay3 x0 x1 x2 x3) s := by
  unfold k3_pay4 colSum_A; simp only [shapeCast_self]

theorem k3_pay5_eq (x0 x1 : Vec Ideal S5000x128 .f32) (x2 : Vec Ideal S128x128 .f32) (x3 : Vec Ideal S1x128 .f32) (s : Vec Ideal S1x128 .f32) :
    k3_pay5 x0 x1 x2 x3 s = colSum_A (mulf (k3_pay3 x0 x1 x2 x3) (k3_pay3 x0 x1 x2 x3)) s := by
  unfold k3_pay5 colSum_A; simp only [shapeCast_self]

theorem k3_pay1_apply (i : S1x128.Idx) : (k3_pay1 (F := Ideal)) i = 0 := by
  unfold k3_pay1; simp only [shapeCast_self]
  show Ideal.ofBits .f32 0x00000000#32 = 0
  exact Ideal.ofBits_zero_f32

theorem k3_pay2_apply (i : S1x128.Idx) : (k3_pay2 (F := Ideal)) i = 0 := by
  unfold k3_pay2; simp only [shapeCast_self]
  show Ideal.ofBits .f32 0x00000000#32 = 0
  exact Ideal.ofBits_zero_f32

variable (V : (c : Dev nD) → (b : Ref sig .tc) → Buf (Elt Ideal) ((c : Thread nD τ).loc b))

/-! ## The region's four input arrays, as plain functions of their coordinates -/

/-- The node features the region finds. -/
noncomputable def featA3 (c : Dev nD) : Fin 50000 → Fin 128 → EReal := fun R k => (V c (Pipeline.arrRef spec3 0) : S50000x128.Idx → EReal) (ix2 R k)
/-- The aggregated neighbours' features. -/
noncomputable def aggA3 (c : Dev nD) : Fin 50000 → Fin 128 → EReal := fun R k => (V c (Pipeline.arrRef spec3 1) : S50000x128.Idx → EReal) (ix2 R k)
/-- The layer's weight matrix. -/
noncomputable def wA3 (c : Dev nD) : Fin 128 → Fin 128 → EReal := fun k j => (V c (Pipeline.arrRef spec3 2) : S128x128.Idx → EReal) (ix2 k j)
/-- The layer's bias row. -/
noncomputable def bA3 (c : Dev nD) : Fin 128 → EReal := fun j => (V c (Pipeline.arrRef spec3 3) : S1x128.Idx → EReal) (ix2 0 j)

/-- The entry of the layer's result the region computes at row `R`, column `j`. -/
abbrev zOf3 (c : Dev nD) (R : Fin 50000) (j : Fin 128) : EReal := Cert.Spec.dense1 (featA3 V c) (aggA3 V c) (wA3 V c) (bA3 V c) R j

/-! ## The blocks at an entry -/

/-- The block indices of the windows, decided over the grid: the row-block windows move with the point, the others stay. -/
theorem widx3 : ∀ t : Fin cfg3.N,
    (win3_0.index t 0 = t.val ∧ win3_0.index t 1 = 0) ∧ (win3_1.index t 0 = t.val ∧ win3_1.index t 1 = 0)
    ∧ (win3_2.index t 0 = 0 ∧ win3_2.index t 1 = 0) ∧ (win3_3.index t 0 = 0 ∧ win3_3.index t 1 = 0)
    ∧ (win3_4.index t 0 = t.val ∧ win3_4.index t 1 = 0) ∧ (win3_5.index t 0 = 0 ∧ win3_5.index t 1 = 0)
    ∧ (win3_6.index t 0 = 0 ∧ win3_6.index t 1 = 0) :=
  (by decide +kernel : ∀ t : Fin grid3.N, _)

/-- Row `r` of block `t` is row `t·5000 + r` of the array. -/
theorem row_lt3 (t : Fin cfg3.N) (r : Fin 5000) : t.val * 5000 + r.val < 50000 := by
  have := lt_of_lt_of_eq t.isLt (show cfg3.N = 10 from N_3); have := r.isLt; omega

theorem iblk3_0_apply (c : Dev nD) (t : Fin cfg3.N) (r : Fin 5000) (k : Fin 128) :
    (iblk3 V c 0 t : S5000x128.Idx → EReal) (ix2 r k) = featA3 V c ⟨t.val * 5000 + r.val, row_lt3 t r⟩ k := by
  unfold iblk3 featA3
  rw [View.read_apply]
  refine congrArg (V c (Pipeline.arrRef spec3 0)) (funext fun a => Fin.ext ?_)
  match a with
  | ⟨0, _⟩ => show win3_0.index t 0 * 5000 + 1 * r.val = t.val * 5000 + r.val; rw [(widx3 t).1.1]; omega
  | ⟨1, _⟩ => show win3_0.index t 1 * 128 + 1 * k.val = k.val; rw [(widx3 t).1.2]; omega

theorem iblk3_1_apply (c : Dev nD) (t : Fin cfg3.N) (r : Fin 5000) (k : Fin 128) :
    (iblk3 V c 1 t : S5000x128.Idx → EReal) (ix2 r k) = aggA3 V c ⟨t.val * 5000 + r.val, row_lt3 t r⟩ k := by
  unfold iblk3 aggA3
  rw [View.read_apply]
  refine congrArg (V c (Pipeline.arrRef spec3 1)) (funext fun a => Fin.ext ?_)
  match a with
  | ⟨0, _⟩ => show win3_1.index t 0 * 5000 + 1 * r.val = t.val * 5000 + r.val; rw [(widx3 t).2.1.1]; omega
  | ⟨1, _⟩ => show win3_1.index t 1 * 128 + 1 * k.val = k.val; rw [(widx3 t).2.1.2]; omega

theorem iblk3_2_apply (c : Dev nD) (t : Fin cfg3.N) (k : Fin 128) (j : Fin 128) :
    (iblk3 V c 2 t : S128x128.Idx → EReal) (ix2 k j) = wA3 V c k j := by
  unfold iblk3 wA3
  rw [View.read_apply]
  refine congrArg (V c (Pipeline.arrRef spec3 2)) (funext fun a => Fin.ext ?_)
  match a with
  | ⟨0, _⟩ => show win3_2.index t 0 * 128 + 1 * k.val = k.val; rw [(widx3 t).2.2.1.1]; omega
  | ⟨1, _⟩ => show win3_2.index t 1 * 128 + 1 * j.val = j.val; rw [(widx3 t).2.2.1.2]; omega

theorem iblk3_3_apply (c : Dev nD) (t : Fin cfg3.N) (j : Fin 128) :
    (iblk3 V c 3 t : S1x128.Idx → EReal) (ix2 0 j) = bA3 V c j := by
  unfold iblk3 bA3
  rw [View.read_apply]
  refine congrArg (V c (Pipeline.arrRef spec3 3)) (funext fun a => Fin.ext ?_)
  match a with
  | ⟨0, _⟩ => show win3_3.index t 0 * 1 + 1 * 0 = 0; rw [(widx3 t).2.2.2.1.1]
  | ⟨1, _⟩ => show win3_3.index t 1 * 128 + 1 * j.val = j.val; rw [(widx3 t).2.2.2.1.2]; omega

/-- The block of the layer's result at point `t`, at an entry: the layer's entry at the block's row. -/
theorem zAt3_apply (c : Dev nD) (t : Fin cfg3.N) (r : Fin 5000) (j : Fin 128) :
    zAt3 V c t (ix2 r j) = zOf3 V c ⟨t.val * 5000 + r.val, row_lt3 t r⟩ j := by
  unfold zAt3
  rw [k3_pay3_eq]
  refine (zCore_A_apply (iblk3 V c 0 t) (iblk3 V c 1 t) (iblk3 V c 2 t) (iblk3 V c 3 t) r j).trans ?_
  unfold zOf3 Cert.Spec.dense1
  rw [iblk3_3_apply V c t j]
  refine congrArg (· + bA3 V c j) (Finset.sum_congr rfl fun k _ => ?_)
  rw [iblk3_0_apply V c t r k, iblk3_1_apply V c t r k, iblk3_2_apply V c t k j]

/-- The same at any index of the block. -/
theorem zAt3_apply' (c : Dev nD) (t : Fin cfg3.N) (y : S5000x128.Idx) :
    zAt3 V c t y = zOf3 V c ⟨t.val * 5000 + (y 0).val, row_lt3 t (y 0)⟩ (y 1) := by
  obtain ⟨r, j, rfl⟩ : ∃ (r : Fin 5000) (j : Fin 128), y = ix2 r j := ⟨y 0, y 1, eq_ix2 y⟩
  exact zAt3_apply V c t r j

/-! ## The accumulators, closed -/

/-- One step of the column-sum accumulator at column `j`: the block's column sum is added. -/
theorem sumStep3_apply (c : Dev nD) (t : Fin cfg3.N) (s : Vec Ideal S1x128 .f32) (j : Fin 128) :
    sumStep3 V c t s (ix2 0 j) = s (ix2 0 j) + ∑ r : Fin 5000, zOf3 V c ⟨t.val * 5000 + r.val, row_lt3 t r⟩ j := by
  unfold sumStep3
  rw [k3_pay4_eq]
  refine (colSum_A_apply _ s j).trans ?_
  exact congrArg (s (ix2 0 j) + ·) (Finset.sum_congr rfl fun r _ => zAt3_apply V c t r j)

/-- One step of the accumulator of squares at column `j`: the column sum of the block's squared entries is added. -/
theorem sqStep3_apply (c : Dev nD) (t : Fin cfg3.N) (s : Vec Ideal S1x128 .f32) (j : Fin 128) :
    sqStep3 V c t s (ix2 0 j) = s (ix2 0 j) + ∑ r : Fin 5000,
      zOf3 V c ⟨t.val * 5000 + r.val, row_lt3 t r⟩ j * zOf3 V c ⟨t.val * 5000 + r.val, row_lt3 t r⟩ j := by
  unfold sqStep3
  rw [k3_pay5_eq]
  refine (colSum_A_apply _ s j).trans ?_
  refine congrArg (s (ix2 0 j) + ·) (Finset.sum_congr rfl fun r _ => ?_)
  rw [mulf_apply]
  exact congr (congrArg _ (zAt3_apply V c t r j)) (zAt3_apply V c t r j)

/-- The column-sum accumulator at column `j` before position `n` (zero before the first). -/
noncomputable def sumNat3 (c : Dev nD) (j : Fin 128) : ℕ → EReal
  | 0 => 0
  | n + 1 => if h : n < cfg3.N then (accAt3 V c n h).1 (ix2 0 j) else 0
/-- The accumulator of squares at column `j` before position `n`. -/
noncomputable def sqNat3 (c : Dev nD) (j : Fin 128) : ℕ → EReal
  | 0 => 0
  | n + 1 => if h : n < cfg3.N then (accAt3 V c n h).2 (ix2 0 j) else 0

theorem nine_lt3 : 9 < cfg3.N := by rw [show cfg3.N = 10 from N_3]; decide

/-- After the last point the column-sum accumulator holds the column sums of the layer's result over all the rows. -/
theorem sumAcc3 (c : Dev nD) (j : Fin 128) :
    (accAt3 V c 9 nine_lt3).1 (ix2 0 j) = ∑ R : Fin 50000, zOf3 V c R j := by
  have hN : cfg3.N = 10 := N_3
  have h := Cert.LibAccBlocks.acc_blocks 10 5000 (fun R : Fin (10 * 5000) => zOf3 V c R j) 0 (sumNat3 V c j) rfl (fun n hn => by
    have hn' : n < cfg3.N := by rw [hN]; exact hn
    show (if h : n < cfg3.N then (accAt3 V c n h).1 (ix2 0 j) else 0) = _
    rw [dif_pos hn']
    cases n with
    | zero =>
      show sumStep3 V c ⟨0, hn'⟩ (k3_pay1 (F := Ideal)) (ix2 0 j) = _
      rw [sumStep3_apply, k3_pay1_apply]
      rfl
    | succ m =>
      have hm : m < cfg3.N := Nat.lt_of_succ_lt hn'
      show sumStep3 V c ⟨m + 1, hn'⟩ (accAt3 V c m (Nat.lt_of_succ_lt hn')).1 (ix2 0 j) = _
      rw [sumStep3_apply]
      show _ = (if h : m < cfg3.N then (accAt3 V c m h).1 (ix2 0 j) else 0) + _
      rw [dif_pos hm])
  have e : sumNat3 V c j 10 = (accAt3 V c 9 nine_lt3).1 (ix2 0 j) := by
    show (if h : 9 < cfg3.N then (accAt3 V c 9 h).1 (ix2 0 j) else 0) = _
    rw [dif_pos nine_lt3]
  rw [← e, h, zero_add]

/-- After the last point the accumulator of squares holds the column sums of the squared entries over all the rows. -/
theorem sqAcc3 (c : Dev nD) (j : Fin 128) :
    (accAt3 V c 9 nine_lt3).2 (ix2 0 j) = ∑ R : Fin 50000, zOf3 V c R j * zOf3 V c R j := by
  have hN : cfg3.N = 10 := N_3
  have h := Cert.LibAccBlocks.acc_blocks 10 5000 (fun R : Fin (10 * 5000) => zOf3 V c R j * zOf3 V c R j) 0 (sqNat3 V c j) rfl (fun n hn => by
    have hn' : n < cfg3.N := by rw [hN]; exact hn
    show (if h : n < cfg3.N then (accAt3 V c n h).2 (ix2 0 j) else 0) = _
    rw [dif_pos hn']
    cases n with
    | zero =>
      show sqStep3 V c ⟨0, hn'⟩ (k3_pay2 (F := Ideal)) (ix2 0 j) = _
      rw [sqStep3_apply, k3_pay2_apply]
      rfl
    | succ m =>
      have hm : m < cfg3.N := Nat.lt_of_succ_lt hn'
      show sqStep3 V c ⟨m + 1, hn'⟩ (accAt3 V c m (Nat.lt_of_succ_lt hn')).2 (ix2 0 j) = _
      rw [sqStep3_apply]
      show _ = (if h : m < cfg3.N then (accAt3 V c m h).2 (ix2 0 j) else 0) + _
      rw [dif_pos hm])
  have e : sqNat3 V c j 10 = (accAt3 V c 9 nine_lt3).2 (ix2 0 j) := by
    show (if h : 9 < cfg3.N then (accAt3 V c 9 h).2 (ix2 0 j) else 0) = _
    rw [dif_pos nine_lt3]
  rw [← e, h, zero_add]

/-- The same for the last point however it is named. -/
theorem sumAcc3' (c : Dev nD) (t : Fin cfg3.N) (h9 : t.val = 9) (j : Fin 128) :
    (accAt3 V c t.val t.isLt).1 (ix2 0 j) = ∑ R : Fin 50000, zOf3 V c R j := by
  obtain ⟨n, hn⟩ := t
  dsimp only at h9
  subst h9
  exact sumAcc3 V c j

theorem sqAcc3' (c : Dev nD) (t : Fin cfg3.N) (h9 : t.val = 9) (j : Fin 128) :
    (accAt3 V c t.val t.isLt).2 (ix2 0 j) = ∑ R : Fin 50000, zOf3 V c R j * zOf3 V c R j := by
  obtain ⟨n, hn⟩ := t
  dsimp only at h9
  subst h9
  exact sqAcc3 V c j

/-! ## The arrays after the region -/

/-- The layer's result as contents of window 4's array. -/
noncomputable def zArr3 (c : Dev nD) : S50000x128.Idx → EReal := fun i => zOf3 V c (i 0) (i 1)

/-- What point `t` writes back to window 4 is block `t` of the layer's result. -/
theorem flushed3_4 (c : Dev nD) (t : Fin cfg3.N) (hf : (cfg3.win 4).flush t = true) :
    (dat3 V c).flushed 4 t = ((cfg3.win 4).blk t).view.read (Elt Ideal) (zArr3 V c) := by
  show (cfg3.win 4).cut (grid3.coords t) ((dat3 V c).after 4 t) = _
  rw [after3_4]
  funext y
  show zAt3 V c t y = zArr3 V c (((cfg3.win 4).blk t).view.emb y)
  refine (zAt3_apply' V c t y).trans ?_
  unfold zArr3
  have hy0 : (y 0).val < 5000 := (y 0).isLt
  have hy1 : (y 1).val < 128 := (y 1).isLt
  refine congr (congrArg _ (Fin.ext ?_)) (Fin.ext ?_)
  · show t.val * 5000 + (y 0).val = win3_4.index t 0 * 5000 + 1 * (y 0).val
    rw [(widx3 t).2.2.2.2.1.1]; omega
  · show (y 1).val = win3_4.index t 1 * 128 + 1 * (y 1).val
    rw [(widx3 t).2.2.2.2.1.2]; omega

/-- Every row lies in the block of the point `row / 5000`. -/
theorem cover3_4 (i : S50000x128.Idx) : ∃ t : Fin cfg3.N, (cfg3.win 4).flush t = true ∧ i ∈ ((cfg3.win 4).blk t).view.set := by
  have hN : cfg3.N = 10 := N_3
  have h0 : (i 0).val < 50000 := (i 0).isLt
  have h1 : (i 1).val < 128 := (i 1).isLt
  have ht : (i 0).val / 5000 < cfg3.N := by rw [hN]; omega
  refine ⟨⟨(i 0).val / 5000, ht⟩, flush3_4 _, ?_⟩
  rw [show ((cfg3.win 4).blk ⟨(i 0).val / 5000, ht⟩).view.set = (win3_4.rect ⟨(i 0).val / 5000, ht⟩).set from
    View.set_slice_whole main_v78_0 (win3_4.rect ⟨(i 0).val / 5000, ht⟩), Rect.mem_set_unit]
  intro a
  match a with
  | ⟨0, _⟩ =>
    show win3_4.index ⟨(i 0).val / 5000, ht⟩ 0 * 5000 ≤ (i 0).val ∧ (i 0).val < win3_4.index ⟨(i 0).val / 5000, ht⟩ 0 * 5000 + 5000
    rw [(widx3 ⟨(i 0).val / 5000, ht⟩).2.2.2.2.1.1]; dsimp only; omega
  | ⟨1, _⟩ =>
    show win3_4.index ⟨(i 0).val / 5000, ht⟩ 1 * 128 ≤ (i 1).val ∧ (i 1).val < win3_4.index ⟨(i 0).val / 5000, ht⟩ 1 * 128 + 128
    rw [(widx3 ⟨(i 0).val / 5000, ht⟩).2.2.2.2.1.2]; omega

/-- Window 4's array after the region is the layer's result. -/
theorem final3_4 (c : Dev nD) : (dat3 V c).arrAt 4 cfg3.N = zArr3 V c :=
  (dat3 V c).arrAt_eq_of_cover 4 (zArr3 V c) (flushed3_4 V c) (cover3_4)

/-- The array window 5 ends holding: at column `j` of its one row, the column sum of the layer's result over all the rows. -/
noncomputable def sumArr3 (c : Dev nD) : S1x128.Idx → EReal := fun i => ∑ R : Fin 50000, zOf3 V c R (i 1)

/-- The accumulator after the last point, at any index of its one row. -/
theorem sumAcc3_row (c : Dev nD) (t : Fin cfg3.N) (h9 : t.val = 9) (y : S1x128.Idx) :
    (accAt3 V c t.val t.isLt).1 y = ∑ R : Fin 50000, zOf3 V c R (y 1) := by
  obtain ⟨u, j, rfl⟩ : ∃ (u : Fin 1) (j : Fin 128), y = ix2 u j := ⟨y 0, y 1, eq_ix2 y⟩
  obtain rfl : u = 0 := Subsingleton.elim _ _
  exact sumAcc3' V c t h9 j

/-- Window 5's block is read through its view index by index, and a write-back moves the whole staging buffer. -/
theorem read_blk3_5 (t : Fin cfg3.N) (y : ((cfg3.win 5).xblock (grid3.coords t)).Idx) (f : S1x128.Idx → EReal) :
    ((cfg3.win 5).blk t).view.read (Elt Ideal) f y = f (((cfg3.win 5).blk t).view.emb y) := rfl
theorem cut3_5 (t : Fin cfg3.N) (y : ((cfg3.win 5).xblock (grid3.coords t)).Idx) (s : S1x128.Idx → EReal) :
    (cfg3.win 5).cut (grid3.coords t) s y = s y := rfl

/-- The one write-back of window 5, after the last point, writes the accumulator, which holds those sums. -/
theorem flushed3_5 (c : Dev nD) (t : Fin cfg3.N) (hf : (cfg3.win 5).flush t = true) :
    (dat3 V c).flushed 5 t = ((cfg3.win 5).blk t).view.read (Elt Ideal) (sumArr3 V c) := by
  have hN : cfg3.N = 10 := N_3
  have h9 : t.val = 9 := by have := (flush3_5 t).mp hf; have := t.isLt; omega
  show (cfg3.win 5).cut (grid3.coords t) ((dat3 V c).after 5 t) = _
  rw [after3_5]
  have hs := sumAcc3_row V c t h9
  generalize (accAt3 V c t.val t.isLt).1 = s at hs ⊢
  funext y
  refine (cut3_5 t y s).trans ((hs y).trans ?_)
  refine Eq.trans ?_ (read_blk3_5 t y (sumArr3 V c)).symm
  have hy1 : (y 1).val < 128 := (y 1).isLt
  have e1 : (((cfg3.win 5).blk t).view.emb y) 1 = y 1 := Fin.ext (by
    show win3_5.index t 1 * 128 + 1 * (y 1).val = (y 1).val
    rw [(widx3 t).2.2.2.2.2.1.2]; omega)
  unfold sumArr3
  beta_reduce
  rw [e1]

/-- The last point's block is the whole one-row array. -/
theorem cover3_5 (i : S1x128.Idx) : ∃ t : Fin cfg3.N, (cfg3.win 5).flush t = true ∧ i ∈ ((cfg3.win 5).blk t).view.set := by
  have h0 : (i 0).val < 1 := (i 0).isLt
  have h1 : (i 1).val < 128 := (i 1).isLt
  refine ⟨t3_9, (flush3_5 t3_9).mpr rfl, ?_⟩
  rw [show ((cfg3.win 5).blk t3_9).view.set = (win3_5.rect t3_9).set from
    View.set_slice_whole main_v78_1 (win3_5.rect t3_9), Rect.mem_set_unit]
  intro a
  match a with
  | ⟨0, _⟩ =>
    show win3_5.index t3_9 0 * 1 ≤ (i 0).val ∧ (i 0).val < win3_5.index t3_9 0 * 1 + 1
    rw [(widx3 t3_9).2.2.2.2.2.1.1]; omega
  | ⟨1, _⟩ =>
    show win3_5.index t3_9 1 * 128 ≤ (i 1).val ∧ (i 1).val < win3_5.index t3_9 1 * 128 + 128
    rw [(widx3 t3_9).2.2.2.2.2.1.2]; omega

/-- Window 5's array after the region. -/
theorem final3_5 (c : Dev nD) : (dat3 V c).arrAt 5 cfg3.N = sumArr3 V c :=
  (dat3 V c).arrAt_eq_of_cover 5 (sumArr3 V c) (flushed3_5 V c) (cover3_5)

/-- The array window 6 ends holding: at column `j` of its one row, the column sum of the squared entries over all the rows. -/
noncomputable def sqArr3 (c : Dev nD) : S1x128.Idx → EReal := fun i => ∑ R : Fin 50000, zOf3 V c R (i 1) * zOf3 V c R (i 1)

/-- The accumulator after the last point, at any index of its one row. -/
theorem sqAcc3_row (c : Dev nD) (t : Fin cfg3.N) (h9 : t.val = 9) (y : S1x128.Idx) :
    (accAt3 V c t.val t.isLt).2 y = ∑ R : Fin 50000, zOf3 V c R (y 1) * zOf3 V c R (y 1) := by
  obtain ⟨u, j, rfl⟩ : ∃ (u : Fin 1) (j : Fin 128), y = ix2 u j := ⟨y 0, y 1, eq_ix2 y⟩
  obtain rfl : u = 0 := Subsingleton.elim _ _
  exact sqAcc3' V c t h9 j

/-- Window 6's block is read through its view index by index, and a write-back moves the whole staging buffer. -/
theorem read_blk3_6 (t : Fin cfg3.N) (y : ((cfg3.win 6).xblock (grid3.coords t)).Idx) (f : S1x128.Idx → EReal) :
    ((cfg3.win 6).blk t).view.read (Elt Ideal) f y = f (((cfg3.win 6).blk t).view.emb y) := rfl
theorem cut3_6 (t : Fin cfg3.N) (y : ((cfg3.win 6).xblock (grid3.coords t)).Idx) (s : S1x128.Idx → EReal) :
    (cfg3.win 6).cut (grid3.coords t) s y = s y := rfl

/-- The one write-back of window 6, after the last point, writes the accumulator, which holds those sums. -/
theorem flushed3_6 (c : Dev nD) (t : Fin cfg3.N) (hf : (cfg3.win 6).flush t = true) :
    (dat3 V c).flushed 6 t = ((cfg3.win 6).blk t).view.read (Elt Ideal) (sqArr3 V c) := by
  have hN : cfg3.N = 10 := N_3
  have h9 : t.val = 9 := by have := (flush3_6 t).mp hf; have := t.isLt; omega
  show (cfg3.win 6).cut (grid3.coords t) ((dat3 V c).after 6 t) = _
  rw [after3_6]
  have hs := sqAcc3_row V c t h9
  generalize (accAt3 V c t.val t.isLt).2 = s at hs ⊢
  funext y
  refine (cut3_6 t y s).trans ((hs y).trans ?_)
  refine Eq.trans ?_ (read_blk3_6 t y (sqArr3 V c)).symm
  have hy1 : (y 1).val < 128 := (y 1).isLt
  have e1 : (((cfg3.win 6).blk t).view.emb y) 1 = y 1 := Fin.ext (by
    show win3_6.index t 1 * 128 + 1 * (y 1).val = (y 1).val
    rw [(widx3 t).2.2.2.2.2.2.2]; omega)
  unfold sqArr3
  beta_reduce
  rw [e1]

/-- The last point's block is the whole one-row array. -/
theorem cover3_6 (i : S1x128.Idx) : ∃ t : Fin cfg3.N, (cfg3.win 6).flush t = true ∧ i ∈ ((cfg3.win 6).blk t).view.set := by
  have h0 : (i 0).val < 1 := (i 0).isLt
  have h1 : (i 1).val < 128 := (i 1).isLt
  refine ⟨t3_9, (flush3_6 t3_9).mpr rfl, ?_⟩
  rw [show ((cfg3.win 6).blk t3_9).view.set = (win3_6.rect t3_9).set from
    View.set_slice_whole main_v78_2 (win3_6.rect t3_9), Rect.mem_set_unit]
  intro a
  match a with
  | ⟨0, _⟩ =>
    show win3_6.index t3_9 0 * 1 ≤ (i 0).val ∧ (i 0).val < win3_6.index t3_9 0 * 1 + 1
    rw [(widx3 t3_9).2.2.2.2.2.2.1]; omega
  | ⟨1, _⟩ =>
    show win3_6.index t3_9 1 * 128 ≤ (i 1).val ∧ (i 1).val < win3_6.index t3_9 1 * 128 + 128
    rw [(widx3 t3_9).2.2.2.2.2.2.2]; omega

/-- Window 6's array after the region. -/
theorem final3_6 (c : Dev nD) : (dat3 V c).arrAt 6 cfg3.N = sqArr3 V c :=
  (dat3 V c).arrAt_eq_of_cover 6 (sqArr3 V c) (flushed3_6 V c) (cover3_6)

/-! ## The three results, entry by entry -/

theorem z_final3 (c : Dev nD) (R : Fin 50000) (j : Fin 128) :
    ((dat3 V c).arrAt 4 cfg3.N : S50000x128.Idx → EReal) (ix2 R j) = Cert.Spec.dense1 (featA3 V c) (aggA3 V c) (wA3 V c) (bA3 V c) R j := by
  rw [final3_4]; rfl

theorem sum_final3 (c : Dev nD) (j : Fin 128) :
    ((dat3 V c).arrAt 5 cfg3.N : S1x128.Idx → EReal) (ix2 0 j) = Cert.Spec.colSum (Cert.Spec.dense1 (featA3 V c) (aggA3 V c) (wA3 V c) (bA3 V c)) j := by
  rw [final3_5]; rfl

theorem sq_final3 (c : Dev nD) (j : Fin 128) :
    ((dat3 V c).arrAt 6 cfg3.N : S1x128.Idx → EReal) (ix2 0 j) = Cert.Spec.colSumSq (Cert.Spec.dense1 (featA3 V c) (aggA3 V c) (wA3 V c) (bA3 V c)) j := by
  rw [final3_6]; rfl

/-- The four input arrays end as the region found them. -/
theorem in_final3_0 (c : Dev nD) : (dat3 V c).arrAt 0 cfg3.N = V c (Pipeline.arrRef spec3 0) :=
  ((dat3 V c).arrAt_in 0 rfl _).trans (A_eq3 V c 0)
theorem in_final3_1 (c : Dev nD) : (dat3 V c).arrAt 1 cfg3.N = V c (Pipeline.arrRef spec3 1) :=
  ((dat3 V c).arrAt_in 1 rfl _).trans (A_eq3 V c 1)
theorem in_final3_2 (c : Dev nD) : (dat3 V c).arrAt 2 cfg3.N = V c (Pipeline.arrRef spec3 2) :=
  ((dat3 V c).arrAt_in 2 rfl _).trans (A_eq3 V c 2)
theorem in_final3_3 (c : Dev nD) : (dat3 V c).arrAt 3 cfg3.N = V c (Pipeline.arrRef spec3 3) :=
  ((dat3 V c).arrAt_in 3 rfl _).trans (A_eq3 V c 3)

end Cert.KernelIdeal.Hand
end
-- ==== Proof.KI.B4Val.lean ====
import proofs.«102976_j3633542332749_1_alg».proof.Proof.KI.B4
import proofs.«102976_j3633542332749_1_alg».proof.Proof.Spec
import proofs.«102976_j3633542332749_1_alg».proof.Proof.LibAccBlocks
import proofs.«102976_j3633542332749_1_alg».proof.Proof.LibPlainDot
import Idealize.ShloMosaic.Lib.Pipeline.Value
import Idealize.ShloMosaic.Lib.ValueIdx
import Idealize.ShloMosaic.PureOps.Ideal.Laws

/-! # The second dense layer, call number 4: the three arrays it leaves, entry by entry

Read on the extended reals. With `Z` the 50000 by 128 array of pre-activations, `S` and `T` the rows of scales and
shifts, `W` the 128 by 128 weights and `B` the row of biases as the call finds them, entry `(R, j)` of the first
result is `(∑ k, max (Z (R, k) * S (0, k) + T (0, k)) 0 * W (k, j)) + B (0, j)`: grid point `t` writes rows
`5000 t … 5000 t + 4999`. The second result's entry `(0, j)` is the sum of column `j` of the first over all 50000
rows, the third's the sum of the squares: each point adds its 5000 rows to a running sum that starts at zero, and the
last point's running sums are what is written. The five input arrays end as they were. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The array of pre-activations as the call finds it, -/
abbrev inZ4 (c : Dev nD) : S50000x128.Idx → EReal := V c (Pipeline.arrRef spec4 0)
/-- the row of scales, -/
abbrev inS4 (c : Dev nD) : S1x128.Idx → EReal := V c (Pipeline.arrRef spec4 1)
/-- the row of shifts, -/
abbrev inT4 (c : Dev nD) : S1x128.Idx → EReal := V c (Pipeline.arrRef spec4 2)
/-- the weights, -/
abbrev inW4 (c : Dev nD) : S128x128.Idx → EReal := V c (Pipeline.arrRef spec4 3)
/-- and the row of biases. -/
abbrev inB4 (c : Dev nD) : S1x128.Idx → EReal := V c (Pipeline.arrRef spec4 4)

/-- The dense layer on these arrays, by coordinates. -/
def z2of4 (c : Dev nD) : Fin 50000 → Fin 128 → EReal :=
  Cert.Spec.dense2 (fun R k => inZ4 V c (ix2 R k)) (fun k => inS4 V c (ix2 0 k)) (fun k => inT4 V c (ix2 0 k))
    (fun k j => inW4 V c (ix2 k j)) (fun j => inB4 V c (ix2 0 j))

/-! ## The body's values at an entry -/

/-- A row repeated down the block, read at `(p, q)`, is the row at `(0, q)`. -/
theorem rowDown4_apply (x : Vec Ideal S1x128 .f32) (p : Fin 5000) (q : Fin 128) :
    broadcastTo S5000x128 (shapeCast S1x128 x shapeCasts_S1x128_S1x128) broadcasts_S1x128_S5000x128 (ix2 p q) = x (ix2 0 q) := by
  rw [shapeCast_self]
  exact broadcastTo_apply x _ (ix2 p q) (ix2 0 q) fun a => by
    match a with
    | ⟨0, _⟩ => rfl
    | ⟨1, _⟩ => rfl

/-- The matrix product's dimension numbers are the plain ones: rows by contraction, contraction by columns. -/
theorem dot4_plain : dot_S5000x128_S128x128_S5000x128_1_0_0_1_n_n = DotDims.plain 5000 128 128 := rfl

/-- The block of the first result at `(p, q)`: the rectified affine image of row `p` against column `q` of the
    weights, plus the bias. -/
theorem pay4_4_apply (x0 : Vec Ideal S5000x128 .f32) (x1 x2 : Vec Ideal S1x128 .f32) (x3 : Vec Ideal S128x128 .f32)
    (x4 : Vec Ideal S1x128 .f32) (p : Fin 5000) (q : Fin 128) :
    k4_pay4 x0 x1 x2 x3 x4 (ix2 p q)
      = (∑ k : Fin 128, max (x0 (ix2 p k) * x1 (ix2 0 k) + x2 (ix2 0 k)) 0 * x3 (ix2 k q)) + x4 (ix2 0 q) := by
  unfold k4_pay4
  refine (addf_apply _ _ _).trans ?_
  refine congrArg₂ (· + ·) ?_ (rowDown4_apply x4 p q)
  refine (Cert.LibPlainDot.matmul_plain_zero_apply _ dot4_plain none _ _ p q).trans ?_
  refine Finset.sum_congr rfl fun k _ => ?_
  refine congrArg₂ (· * ·) ?_ ?_
  · refine (truncf_apply (ψ := .bf16) _ bitsLt_bf16_f32 _).trans ?_
    refine (maximumf_apply _ _ _).trans ?_
    refine congrArg₂ max ?_ Ideal.ofBits_zero_f32
    refine (addf_apply _ _ _).trans ?_
    refine congrArg₂ (· + ·) ?_ (rowDown4_apply x2 p k)
    refine (mulf_apply _ _ _).trans ?_
    exact congrArg₂ (· * ·) (congrFun (shapeCast_self x0 _) _) (rowDown4_apply x1 p k)
  · exact (truncf_apply (ψ := .bf16) _ bitsLt_bf16_f32 _).trans (congrFun (shapeCast_self x3 _) _)

/-- A column sum over the block's 5000 rows, stored as a row, read at `(0, q)`. -/
theorem colRow4_apply (v : FVec Ideal S5000x128 .f32) (q : Fin 128) :
    shapeCast S1x128 (multiReduction .add [0] S128 v 0x00000000#32 reduces_S5000x128_S128 (.inl rfl) rfl) shapeCasts_S128_S1x128 (ix2 0 q)
      = ∑ p : Fin 5000, v (ix2 p q) := by
  refine (shapeCast_addUnit_apply ![128] _ shapeCasts_S128_S1x128 (ix2 0 q)).trans ?_
  refine (Ideal.multiReduction_add_single v _ reduces_S5000x128_S128 (.inl rfl) rfl _).trans ?_
  refine Finset.sum_congr rfl fun p _ => congrArg v ?_
  funext a
  match a with
  | ⟨0, _⟩ => exact Fin.ext rfl
  | ⟨1, _⟩ => exact Fin.ext rfl

/-- The running sum after a block: what it was, plus the block's column sums. -/
theorem pay5_4_apply (x0 : Vec Ideal S5000x128 .f32) (x1 x2 : Vec Ideal S1x128 .f32) (x3 : Vec Ideal S128x128 .f32)
    (x4 s : Vec Ideal S1x128 .f32) (q : Fin 128) :
    k4_pay5 x0 x1 x2 x3 x4 s (ix2 0 q) = s (ix2 0 q) + ∑ p : Fin 5000, k4_pay4 x0 x1 x2 x3 x4 (ix2 p q) := by
  unfold k4_pay5
  refine (congrFun (shapeCast_self _ _) _).trans ?_
  refine (addf_apply _ _ _).trans ?_
  exact congrArg₂ (· + ·) rfl (colRow4_apply _ q)

/-- The running sum of squares after a block: what it was, plus the column sums of the block's squares. -/
theorem pay1_4_apply (v : FVec Ideal S5000x128 .f32) (s : Vec Ideal S1x128 .f32) (q : Fin 128) :
    k4_pay1 v s (ix2 0 q) = s (ix2 0 q) + ∑ p : Fin 5000, v (ix2 p q) * v (ix2 p q) := by
  unfold k4_pay1
  refine (congrFun (shapeCast_self _ _) _).trans ?_
  refine (addf_apply _ _ _).trans ?_
  refine congrArg₂ (· + ·) rfl ((colRow4_apply _ q).trans ?_)
  exact Finset.sum_congr rfl fun p _ => mulf_apply _ _ _

/-- The two running sums start at zero. -/
theorem pay2_4_apply (q : Fin 128) : (k4_pay2 : FVec Ideal S1x128 .f32) (ix2 0 q) = 0 := by
  unfold k4_pay2
  exact (congrFun (shapeCast_self _ _) _).trans Ideal.ofBits_zero_f32
theorem pay3_4_apply (q : Fin 128) : (k4_pay3 : FVec Ideal S1x128 .f32) (ix2 0 q) = 0 := by
  unfold k4_pay3
  exact (congrFun (shapeCast_self _ _) _).trans Ideal.ofBits_zero_f32

/-! ## Where the blocks sit -/

/-- The index maps, decided over the ten points: the pre-activations and the first result move together along the rows,
    at block `t`; every other window stays at block 0. -/
theorem idx_facts4 : ∀ t : Fin cfg4.N, win4_0.index t (0 : Fin 2) = t.val ∧ win4_0.index t (1 : Fin 2) = 0
    ∧ win4_5.index t (0 : Fin 2) = t.val ∧ win4_5.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

theorem N4_val (t : Fin cfg4.N) : t.val < 10 := lt_of_lt_of_eq t.isLt (show cfg4.N = 10 from N_4)

/-- Row `p` of point `t`'s block is row `5000 t + p` of the array. -/
def rowOf4 (t : Fin cfg4.N) (p : Fin 5000) : Fin 50000 :=
  ⟨t.val * 5000 + p.val, by have := N4_val t; have := p.isLt; omega⟩

/-- THE BLOCK OF THE FIRST RESULT at point `t`, entry `(p, q)`: the dense layer at row `5000 t + p`, column `q`. -/
theorem z2blk4_apply (c : Dev nD) (t : Fin cfg4.N) (p : Fin 5000) (q : Fin 128) :
    z2blk4 (F := Ideal) V c t (ix2 p q) = z2of4 V c (rowOf4 t p) q := by
  unfold z2blk4
  obtain ⟨e00, e01, e50, e51, e10, e11, e20, e21, e30, e31, e40, e41, e60, e61, e70, e71⟩ := idx_facts4 t
  refine (pay4_4_apply _ _ _ _ _ p q).trans ?_
  show (∑ k : Fin 128, max (inZ4 V c (((cfg4.win 0).blk t).view.emb (ix2 p k)) * inS4 V c (((cfg4.win 1).blk t).view.emb (ix2 0 k))
        + inT4 V c (((cfg4.win 2).blk t).view.emb (ix2 0 k))) 0 * inW4 V c (((cfg4.win 3).blk t).view.emb (ix2 k q)))
      + inB4 V c (((cfg4.win 4).blk t).view.emb (ix2 0 q))
    = (∑ k : Fin 128, max (inZ4 V c (ix2 (rowOf4 t p) k) * inS4 V c (ix2 0 k) + inT4 V c (ix2 0 k)) 0 * inW4 V c (ix2 k q))
      + inB4 V c (ix2 0 q)
  have h0 : ∀ k : Fin 128, ((cfg4.win 0).blk t).view.emb (ix2 p k) = ix2 (rowOf4 t p) k := fun k => by
    funext a; apply Fin.ext
    match a with
    | ⟨0, _⟩ => show win4_0.index t (0 : Fin 2) * 5000 + 1 * p.val = t.val * 5000 + p.val; omega
    | ⟨1, _⟩ => show win4_0.index t (1 : Fin 2) * 128 + 1 * k.val = k.val; omega
  have h1 : ∀ k : Fin 128, ((cfg4.win 1).blk t).view.emb (ix2 0 k) = ix2 (n0 := 1) (n1 := 128) 0 k := fun k => by
    funext a; apply Fin.ext
    match a with
    | ⟨0, _⟩ => show win4_1.index t (0 : Fin 2) * 1 + 1 * 0 = 0; omega
    | ⟨1, _⟩ => show win4_1.index t (1 : Fin 2) * 128 + 1 * k.val = k.val; omega
  have h2 : ∀ k : Fin 128, ((cfg4.win 2).blk t).view.emb (ix2 0 k) = ix2 (n0 := 1) (n1 := 128) 0 k := fun k => by
    funext a; apply Fin.ext
    match a with
    | ⟨0, _⟩ => show win4_2.index t (0 : Fin 2) * 1 + 1 * 0 = 0; omega
    | ⟨1, _⟩ => show win4_2.index t (1 : Fin 2) * 128 + 1 * k.val = k.val; omega
  have h3 : ∀ k : Fin 128, ((cfg4.win 3).blk t).view.emb (ix2 k q) = ix2 (n0 := 128) (n1 := 128) k q := fun k => by
    funext a; apply Fin.ext
    match a with
    | ⟨0, _⟩ => show win4_3.index t (0 : Fin 2) * 128 + 1 * k.val = k.val; omega
    | ⟨1, _⟩ => show win4_3.index t (1 : Fin 2) * 128 + 1 * q.val = q.val; omega
  have h4 : ((cfg4.win 4).blk t).view.emb (ix2 0 q) = ix2 (n0 := 1) (n1 := 128) 0 q := by
    funext a; apply Fin.ext
    match a with
    | ⟨0, _⟩ => show win4_4.index t (0 : Fin 2) * 1 + 1 * 0 = 0; omega
    | ⟨1, _⟩ => show win4_4.index t (1 : Fin 2) * 128 + 1 * q.val = q.val; omega
  rw [h4]
  refine congrArg₂ (· + ·) (Finset.sum_congr rfl fun k _ => ?_) rfl
  rw [h0 k, h1 k, h2 k, h3 k]

/-! ## The first result -/

/-- The first result as ONE function of the five arrays. -/
def outZ4 (c : Dev nD) : S50000x128.Idx → EReal := fun i => z2of4 V c (i 0) (i 1)

/-- WHAT POINT `t` WRITES BACK is block `t` of `outZ4`. -/
theorem flushed4_5_eq (c : Dev nD) (t : Fin cfg4.N) :
    (dat4 (F := Ideal) V c).flushed 5 t = ((cfg4.win 5).blk t).view.read (Elt Ideal) (outZ4 V c) := by
  show (cfg4.win 5).cut (grid4.coords t) ((dat4 V c).after 5 t) = _
  rw [after4_5]
  obtain ⟨e00, e01, e50, e51, e10, e11, e20, e21, e30, e31, e40, e41, e60, e61, e70, e71⟩ := idx_facts4 t
  funext y
  obtain ⟨p, q, rfl⟩ : ∃ (p : Fin 5000) (q : Fin 128), y = ix2 p q := ⟨y 0, y 1, eq_ix2 y⟩
  refine (z2blk4_apply V c t p q).trans ?_
  show z2of4 V c (rowOf4 t p) q = outZ4 V c (((cfg4.win 5).blk t).view.emb (ix2 p q))
  have h5 : ((cfg4.win 5).blk t).view.emb (ix2 p q) = ix2 (rowOf4 t p) q := by
    funext a; apply Fin.ext
    match a with
    | ⟨0, _⟩ => show win4_5.index t (0 : Fin 2) * 5000 + 1 * p.val = t.val * 5000 + p.val; omega
    | ⟨1, _⟩ => show win4_5.index t (1 : Fin 2) * 128 + 1 * q.val = q.val; omega
  rw [h5]
  rfl

/-- An index of the first result is in point `t`'s block iff each coordinate is in the block's range on its axis. -/
theorem mem_blk4_5 (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v102_0).slice (win4_5.rect t)).set ↔ _
  rw [View.set_slice_whole, Rect.mem_set_unit]
  exact Iff.rfl

/-- Every entry of the first result is in some point's block: row `R` in that of point `R / 5000`. -/
theorem cover4_5 (i : S50000x128.Idx) :
    ∃ t : Fin cfg4.N, (cfg4.win 5).flush t = true ∧ i ∈ ((cfg4.win 5).blk t).view.set := by
  have hi0 : (i 0).val < 50000 := (i 0).isLt
  have hi1 : (i 1).val < 128 := (i 1).isLt
  let t : Fin cfg4.N := ⟨(i 0).val / 5000, by rw [show cfg4.N = 10 from N_4]; omega⟩
  obtain ⟨e00, e01, e50, e51, -⟩ := idx_facts4 t
  have q0 : win4_5.index t (0 : Fin 2) = (i 0).val / 5000 := e50
  refine ⟨t, flush4_5 t, ?_⟩
  rw [mem_blk4_5]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- THE FIRST RESULT after the call is the dense layer of the five arrays as the call finds them. -/
theorem final4_5 (c : Dev nD) : (dat4 (F := Ideal) V c).arrAt 5 cfg4.N = outZ4 V c :=
  (dat4 (F := Ideal) V c).arrAt_eq_of_cover 5 _ (fun t _ => flushed4_5_eq V c t) cover4_5

/-- The same, entry by entry. -/
theorem arrAt4_5 (c : Dev nD) (R : Fin 50000) (j : Fin 128) :
    (dat4 (F := Ideal) V c).arrAt 5 cfg4.N (ix2 R j)
      = Cert.Spec.dense2 (fun R k => inZ4 V c (ix2 R k)) (fun k => inS4 V c (ix2 0 k)) (fun k => inT4 V c (ix2 0 k))
          (fun k j => inW4 V c (ix2 k j)) (fun j => inB4 V c (ix2 0 j)) R j := by
  rw [final4_5]; rfl

/-! ## The running sums -/

/-- The running sum after point `n`, at column `q`, as a function of the bare position (zero past the grid). -/
def sumAt4 (c : Dev nD) (q : Fin 128) (n : ℕ) : EReal :=
  if h : n < cfg4.N then sum4 (F := Ideal) V c n h (ix2 0 q) else 0
def sumsqAt4 (c : Dev nD) (q : Fin 128) (n : ℕ) : EReal :=
  if h : n < cfg4.N then sumsq4 (F := Ideal) V c n h (ix2 0 q) else 0

theorem sum4_zero_apply (c : Dev nD) (q : Fin 128) (h : 0 < cfg4.N) :
    sum4 (F := Ideal) V c 0 h (ix2 0 q) = 0 + ∑ p : Fin 5000, z2of4 V c (rowOf4 ⟨0, h⟩ p) q := by
  rw [sum4_first V c ⟨0, h⟩ rfl]
  refine (pay5_4_apply _ _ _ _ _ _ q).trans ?_
  exact congrArg₂ (· + ·) (pay2_4_apply q) (Finset.sum_congr rfl fun p _ => z2blk4_apply V c ⟨0, h⟩ p q)

theorem sum4_succ_apply (c : Dev nD) (q : Fin 128) (n : ℕ) (h : n + 1 < cfg4.N) :
    sum4 (F := Ideal) V c (n + 1) h (ix2 0 q)
      = sum4 (F := Ideal) V c n (Nat.lt_of_succ_lt h) (ix2 0 q) + ∑ p : Fin 5000, z2of4 V c (rowOf4 ⟨n + 1, h⟩ p) q := by
  rw [sum4_next V c ⟨n + 1, h⟩ (Nat.succ_ne_zero n)]
  refine (pay5_4_apply _ _ _ _ _ _ q).trans ?_
  exact congrArg₂ (· + ·) rfl (Finset.sum_congr rfl fun p _ => z2blk4_apply V c ⟨n + 1, h⟩ p q)

theorem sumsq4_zero_apply (c : Dev nD) (q : Fin 128) (h : 0 < cfg4.N) :
    sumsq4 (F := Ideal) V c 0 h (ix2 0 q)
      = 0 + ∑ p : Fin 5000, z2of4 V c (rowOf4 ⟨0, h⟩ p) q * z2of4 V c (rowOf4 ⟨0, h⟩ p) q := by
  rw [sumsq4_first V c ⟨0, h⟩ rfl]
  refine (pay1_4_apply _ _ q).trans ?_
  exact congrArg₂ (· + ·) (pay3_4_apply q) (Finset.sum_congr rfl fun p _ => by rw [z2blk4_apply V c ⟨0, h⟩ p q])

theorem sumsq4_succ_apply (c : Dev nD) (q : Fin 128) (n : ℕ) (h : n + 1 < cfg4.N) :
    sumsq4 (F := Ideal) V c (n + 1) h (ix2 0 q)
      = sumsq4 (F := Ideal) V c n (Nat.lt_of_succ_lt h) (ix2 0 q)
        + ∑ p : Fin 5000, z2of4 V c (rowOf4 ⟨n + 1, h⟩ p) q * z2of4 V c (rowOf4 ⟨n + 1, h⟩ p) q := by
  rw [sumsq4_next V c ⟨n + 1, h⟩ (Nat.succ_ne_zero n)]
  refine (pay1_4_apply _ _ q).trans ?_
  exact congrArg₂ (· + ·) rfl (Finset.sum_congr rfl fun p _ => by rw [z2blk4_apply V c ⟨n + 1, h⟩ p q])

/-- AFTER THE LAST POINT the running sum at column `q` is the sum of column `q` of the dense layer over all rows. -/
theorem sum4_last (c : Dev nD) (q : Fin 128) (h : 9 < cfg4.N) :
    sum4 (F := Ideal) V c 9 h (ix2 0 q) = ∑ R : Fin 50000, z2of4 V c R q := by
  have hN : cfg4.N = 10 := N_4
  have key := Cert.LibAccBlocks.acc_blocks 10 5000 (fun R : Fin (10 * 5000) => z2of4 V c R q) 0
    (fun m => match m with | 0 => 0 | m + 1 => sumAt4 V c q m) rfl (fun j hj => by
      have hj' : j < cfg4.N := by omega
      show sumAt4 V c q j = _
      unfold sumAt4
      rw [dif_pos hj']
      cases j with
      | zero => exact sum4_zero_apply V c q hj'
      | succ j =>
        show _ = sumAt4 V c q j + _
        unfold sumAt4
        rw [dif_pos (Nat.lt_of_succ_lt hj')]
        exact sum4_succ_apply V c q j hj')
  have e : sumAt4 V c q 9 = sum4 (F := Ideal) V c 9 h (ix2 0 q) := by unfold sumAt4; rw [dif_pos h]
  rw [← e]
  exact key.trans (zero_add _)

theorem sumsq4_last (c : Dev nD) (q : Fin 128) (h : 9 < cfg4.N) :
    sumsq4 (F := Ideal) V c 9 h (ix2 0 q) = ∑ R : Fin 50000, z2of4 V c R q * z2of4 V c R q := by
  have hN : cfg4.N = 10 := N_4
  have key := Cert.LibAccBlocks.acc_blocks 10 5000 (fun R : Fin (10 * 5000) => z2of4 V c R q * z2of4 V c R q) 0
    (fun m => match m with | 0 => 0 | m + 1 => sumsqAt4 V c q m) rfl (fun j hj => by
      have hj' : j < cfg4.N := by omega
      show sumsqAt4 V c q j = _
      unfold sumsqAt4
      rw [dif_pos hj']
      cases j with
      | zero => exact sumsq4_zero_apply V c q hj'
      | succ j =>
        show _ = sumsqAt4 V c q j + _
        unfold sumsqAt4
        rw [dif_pos (Nat.lt_of_succ_lt hj')]
        exact sumsq4_succ_apply V c q j hj')
  have e : sumsqAt4 V c q 9 = sumsq4 (F := Ideal) V c 9 h (ix2 0 q) := by unfold sumsqAt4; rw [dif_pos h]
  rw [← e]
  exact key.trans (zero_add _)

/-- The same at the last point, however it is named. -/
theorem sum4_last_at (c : Dev nD) (q : Fin 128) (t : Fin cfg4.N) (h9 : t.val = 9) :
    sum4 (F := Ideal) V c t.val t.isLt (ix2 0 q) = ∑ R : Fin 50000, z2of4 V c R q := by
  obtain ⟨n, hn⟩ := t
  obtain rfl : n = 9 := h9
  exact sum4_last V c q hn
theorem sumsq4_last_at (c : Dev nD) (q : Fin 128) (t : Fin cfg4.N) (h9 : t.val = 9) :
    sumsq4 (F := Ideal) V c t.val t.isLt (ix2 0 q) = ∑ R : Fin 50000, z2of4 V c R q * z2of4 V c R q := by
  obtain ⟨n, hn⟩ := t
  obtain rfl : n = 9 := h9
  exact sumsq4_last V c q hn

/-! ## The second and third results -/

/-- The column sums and the column sums of squares as rows. -/
def outS4 (c : Dev nD) : S1x128.Idx → EReal := fun i => Cert.Spec.colSum (z2of4 V c) (i 1)
def outQ4 (c : Dev nD) : S1x128.Idx → EReal := fun i => Cert.Spec.colSumSq (z2of4 V c) (i 1)

/-- Only the last point writes the sums back. -/
theorem last_of_flush4_6 (t : Fin cfg4.N) (hf : (cfg4.win 6).flush t = true) : t.val = 9 := by
  have := (flush4_6 t).mp hf; have := N4_val t; omega
theorem last_of_flush4_7 (t : Fin cfg4.N) (hf : (cfg4.win 7).flush t = true) : t.val = 9 := by
  have := (flush4_7 t).mp hf; have := N4_val t; omega

/-- WHAT THE LAST POINT WRITES BACK into the second result is the row of column sums. -/
theorem flushed4_6_eq (c : Dev nD) (t : Fin cfg4.N) (hf : (cfg4.win 6).flush t = true) :
    (dat4 (F := Ideal) V c).flushed 6 t = ((cfg4.win 6).blk t).view.read (Elt Ideal) (outS4 V c) := by
  have h9 := last_of_flush4_6 t hf
  show (cfg4.win 6).cut (grid4.coords t) ((dat4 V c).after 6 t) = _
  rw [after4_6]
  obtain ⟨e00, e01, e50, e51, e10, e11, e20, e21, e30, e31, e40, e41, e60, e61, e70, e71⟩ := idx_facts4 t
  funext y
  obtain ⟨p, q, rfl⟩ : ∃ (p : Fin 1) (q : Fin 128), y = ix2 p q := ⟨y 0, y 1, eq_ix2 y⟩
  obtain rfl : p = 0 := Subsingleton.elim _ _
  have h6 : ((cfg4.win 6).blk t).view.emb (ix2 0 q) = ix2 (n0 := 1) (n1 := 128) 0 q := by
    funext a; apply Fin.ext
    match a with
    | ⟨0, _⟩ => show win4_6.index t (0 : Fin 2) * 1 + 1 * 0 = 0; omega
    | ⟨1, _⟩ => show win4_6.index t (1 : Fin 2) * 128 + 1 * q.val = q.val; omega
  have hrd : ∀ G : S1x128.Idx → EReal,
      ((cfg4.win 6).blk t).view.read (Elt Ideal) G (ix2 0 q) = G (ix2 (n0 := 1) (n1 := 128) 0 q) := fun G => by
    show G (((cfg4.win 6).blk t).view.emb (ix2 0 q)) = _
    rw [h6]
  rw [hrd]
  refine (sum4_last_at V c q t h9).trans ?_
  rfl

theorem flushed4_7_eq (c : Dev nD) (t : Fin cfg4.N) (hf : (cfg4.win 7).flush t = true) :
    (dat4 (F := Ideal) V c).flushed 7 t = ((cfg4.win 7).blk t).view.read (Elt Ideal) (outQ4 V c) := by
  have h9 := last_of_flush4_7 t hf
  show (cfg4.win 7).cut (grid4.coords t) ((dat4 V c).after 7 t) = _
  rw [after4_7]
  obtain ⟨e00, e01, e50, e51, e10, e11, e20, e21, e30, e31, e40, e41, e60, e61, e70, e71⟩ := idx_facts4 t
  funext y
  obtain ⟨p, q, rfl⟩ : ∃ (p : Fin 1) (q : Fin 128), y = ix2 p q := ⟨y 0, y 1, eq_ix2 y⟩
  obtain rfl : p = 0 := Subsingleton.elim _ _
  have h7 : ((cfg4.win 7).blk t).view.emb (ix2 0 q) = ix2 (n0 := 1) (n1 := 128) 0 q := by
    funext a; apply Fin.ext
    match a with
    | ⟨0, _⟩ => show win4_7.index t (0 : Fin 2) * 1 + 1 * 0 = 0; omega
    | ⟨1, _⟩ => show win4_7.index t (1 : Fin 2) * 128 + 1 * q.val = q.val; omega
  have hrd : ∀ G : S1x128.Idx → EReal,
      ((cfg4.win 7).blk t).view.read (Elt Ideal) G (ix2 0 q) = G (ix2 (n0 := 1) (n1 := 128) 0 q) := fun G => by
    show G (((cfg4.win 7).blk t).view.emb (ix2 0 q)) = _
    rw [h7]
  rw [hrd]
  refine (sumsq4_last_at V c q t h9).trans ?_
  rfl

theorem mem_blk4_6 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole main_v102_1).slice (win4_6.rect t)).set ↔ _
  rw [View.set_slice_whole, Rect.mem_set_unit]
  exact Iff.rfl
theorem mem_blk4_7 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole main_v102_2).slice (win4_7.rect t)).set ↔ _
  rw [View.set_slice_whole, Rect.mem_set_unit]
  exact Iff.rfl

/-- The last point's block is the whole row. -/
theorem cover4_6 (i : S1x128.Idx) :
    ∃ t : Fin cfg4.N, (cfg4.win 6).flush t = true ∧ i ∈ ((cfg4.win 6).blk t).view.set := by
  have hi0 : (i 0).val < 1 := (i 0).isLt
  have hi1 : (i 1).val < 128 := (i 1).isLt
  obtain ⟨e00, e01, e50, e51, e10, e11, e20, e21, e30, e31, e40, e41, e60, e61, e70, e71⟩ := idx_facts4 t4_9
  refine ⟨t4_9, (flush4_6 t4_9).mpr rfl, ?_⟩
  rw [mem_blk4_6]
  intro a
  match a with
  | ⟨0, _⟩ => show win4_6.index t4_9 (0 : Fin 2) * 1 ≤ (i 0).val ∧ (i 0).val < win4_6.index t4_9 (0 : Fin 2) * 1 + 1; omega
  | ⟨1, _⟩ => show win4_6.index t4_9 (1 : Fin 2) * 128 ≤ (i 1).val ∧ (i 1).val < win4_6.index t4_9 (1 : Fin 2) * 128 + 128; omega
theorem cover4_7 (i : S1x128.Idx) :
    ∃ t : Fin cfg4.N, (cfg4.win 7).flush t = true ∧ i ∈ ((cfg4.win 7).blk t).view.set := by
  have hi0 : (i 0).val < 1 := (i 0).isLt
  have hi1 : (i 1).val < 128 := (i 1).isLt
  obtain ⟨e00, e01, e50, e51, e10, e11, e20, e21, e30, e31, e40, e41, e60, e61, e70, e71⟩ := idx_facts4 t4_9
  refine ⟨t4_9, (flush4_7 t4_9).mpr rfl, ?_⟩
  rw [mem_blk4_7]
  intro a
  match a with
  | ⟨0, _⟩ => show win4_7.index t4_9 (0 : Fin 2) * 1 ≤ (i 0).val ∧ (i 0).val < win4_7.index t4_9 (0 : Fin 2) * 1 + 1; omega
  | ⟨1, _⟩ => show win4_7.index t4_9 (1 : Fin 2) * 128 ≤ (i 1).val ∧ (i 1).val < win4_7.index t4_9 (1 : Fin 2) * 128 + 128; omega

/-- THE SECOND RESULT after the call is the row of column sums of the dense layer, -/
theorem final4_6 (c : Dev nD) : (dat4 (F := Ideal) V c).arrAt 6 cfg4.N = outS4 V c :=
  (dat4 (F := Ideal) V c).arrAt_eq_of_cover 6 _ (fun t hf => flushed4_6_eq V c t hf) cover4_6
/-- and the third the row of column sums of its squares. -/
theorem final4_7 (c : Dev nD) : (dat4 (F := Ideal) V c).arrAt 7 cfg4.N = outQ4 V c :=
  (dat4 (F := Ideal) V c).arrAt_eq_of_cover 7 _ (fun t hf => flushed4_7_eq V c t hf) cover4_7

/-- The same, entry by entry. -/
theorem arrAt4_6 (c : Dev nD) (j : Fin 128) :
    (dat4 (F := Ideal) V c).arrAt 6 cfg4.N (ix2 0 j)
      = Cert.Spec.colSum (Cert.Spec.dense2 (fun R k => inZ4 V c (ix2 R k)) (fun k => inS4 V c (ix2 0 k)) (fun k => inT4 V c (ix2 0 k))
          (fun k j => inW4 V c (ix2 k j)) (fun j => inB4 V c (ix2 0 j))) j := by
  rw [final4_6]; rfl
theorem arrAt4_7 (c : Dev nD) (j : Fin 128) :
    (dat4 (F := Ideal) V c).arrAt 7 cfg4.N (ix2 0 j)
      = Cert.Spec.colSumSq (Cert.Spec.dense2 (fun R k => inZ4 V c (ix2 R k)) (fun k => inS4 V c (ix2 0 k)) (fun k => inT4 V c (ix2 0 k))
          (fun k j => inW4 V c (ix2 k j)) (fun j => inB4 V c (ix2 0 j))) j := by
  rw [final4_7]; rfl

/-- The five input arrays end as the call found them: an input window is never written back. -/
theorem arrAt4_0 (c : Dev nD) : (dat4 (F := Ideal) V c).arrAt 0 cfg4.N = V c (Pipeline.arrRef spec4 0) :=
  ((dat4 (F := Ideal) V c).arrAt_in 0 rfl _).trans (A_eq4 V c 0)
theorem arrAt4_1 (c : Dev nD) : (dat4 (F := Ideal) V c).arrAt 1 cfg4.N = V c (Pipeline.arrRef spec4 1) :=
  ((dat4 (F := Ideal) V c).arrAt_in 1 rfl _).trans (A_eq4 V c 1)
theorem arrAt4_2 (c : Dev nD) : (dat4 (F := Ideal) V c).arrAt 2 cfg4.N = V c (Pipeline.arrRef spec4 2) :=
  ((dat4 (F := Ideal) V c).arrAt_in 2 rfl _).trans (A_eq4 V c 2)
theorem arrAt4_3 (c : Dev nD) : (dat4 (F := Ideal) V c).arrAt 3 cfg4.N = V c (Pipeline.arrRef spec4 3) :=
  ((dat4 (F := Ideal) V c).arrAt_in 3 rfl _).trans (A_eq4 V c 3)
theorem arrAt4_4 (c : Dev nD) : (dat4 (F := Ideal) V c).arrAt 4 cfg4.N = V c (Pipeline.arrRef spec4 4) :=
  ((dat4 (F := Ideal) V c).arrAt_in 4 rfl _).trans (A_eq4 V c 4)

end Cert.KernelIdeal.Hand

end
-- ==== Proof.KI.C5Val.lean ====
import proofs.«102976_j3633542332749_1_alg».proof.Proof.KI.C5
import Idealize.ShloMosaic.Lib.Pipeline.Value
import Idealize.ShloMosaic.Lib.ValueIdx
import Idealize.ShloMosaic.PureOps.Ideal.Laws

/-! # The normalise-and-rectify call number 5: the array it leaves, entry by entry

Read on the extended reals. Entry `(R, j)` of the result is `max (Z (R, j) * S (0, j) + T (0, j)) 0`, where `Z` is the
50000 by 128 array, `S` the row of scales and `T` the row of shifts as the call finds them: grid point `t` writes rows
`5000 t … 5000 t + 4999`, computed from the same rows of `Z` and from the two rows, and row `R` belongs to point
`R / 5000`. The three input arrays end as they were. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The result as ONE function of the three arrays: scale and shift column by column, then the maximum with zero. -/
def relu5 (Z : S50000x128.Idx → EReal) (S T : S1x128.Idx → EReal) : S50000x128.Idx → EReal :=
  fun i => max (Z i * S (ix2 (n0 := 1) (n1 := 128) 0 (i 1)) + T (ix2 (n0 := 1) (n1 := 128) 0 (i 1))) 0

/-- The array of pre-activations as the call finds it, -/
abbrev inZ5 (c : Dev nD) : S50000x128.Idx → EReal := V c (Pipeline.arrRef spec5 0)
/-- the row of scales, -/
abbrev inS5 (c : Dev nD) : S1x128.Idx → EReal := V c (Pipeline.arrRef spec5 1)
/-- and the row of shifts. -/
abbrev inT5 (c : Dev nD) : S1x128.Idx → EReal := V c (Pipeline.arrRef spec5 2)

theorem hz5 : (![0, 0] : Fin 2 → Nat) = fun _ => 0 := funext fun a => by fin_cases a <;> rfl

/-- A row repeated down the block, read at `(p, q)`, is the row at `(0, q)`. -/
theorem rowDown5_apply (x : Vec Ideal S1x128 .f32) (p : Fin 5000) (q : Fin 128) :
    broadcastTo S5000x128 (shapeCast S1x128 x shapeCasts_S1x128_S1x128) broadcasts_S1x128_S5000x128 (ix2 p q) = x (ix2 0 q) := by
  rw [shapeCast_self]
  exact broadcastTo_apply x _ (ix2 p q) (ix2 0 q) fun a => by
    match a with
    | ⟨0, _⟩ => rfl
    | ⟨1, _⟩ => rfl

/-- The body's stored value at `(p, q)`: `max (z (p, q) * s (0, q) + b (0, q)) 0`. -/
theorem pay5_apply (x0 : Vec Ideal S5000x128 .f32) (x1 x2 : Vec Ideal S1x128 .f32) (p : Fin 5000) (q : Fin 128) :
    k5_pay1 x0 x1 x2 (ix2 p q) = max (x0 (ix2 p q) * x1 (ix2 0 q) + x2 (ix2 0 q)) 0 := by
  unfold k5_pay1
  refine (maximumf_apply _ _ _).trans ?_
  refine congrArg₂ max ?_ Ideal.ofBits_zero_f32
  refine (addf_apply _ _ _).trans ?_
  refine congrArg₂ (· + ·) ?_ (rowDown5_apply x2 p q)
  refine (mulf_apply _ _ _).trans ?_
  exact congrArg₂ (· * ·) (congrFun (shapeCast_self x0 _) _) (rowDown5_apply x1 p q)

/-- The index maps, decided over the ten points: the row block and the result move together along the rows, at block
    `t`; every window sits at column block 0; the two rows never move. -/
theorem idx_facts5 : ∀ t : Fin cfg5.N, win5_0.index t (0 : Fin 2) = win5_3.index t (0 : Fin 2)
    ∧ win5_0.index t (1 : Fin 2) = 0 ∧ win5_3.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) ≤ 9 :=
  (by decide +kernel : ∀ t : Fin grid5.N, _)

/-- Every row block is some point's. -/
theorem idx_onto5 : ∀ (q0 : Fin 10), ∃ t : Fin cfg5.N, win5_3.index t = ![q0.val, 0] :=
  (by decide +kernel : ∀ (q0 : Fin 10), ∃ t : Fin grid5.N, win5_3.index t = ![q0.val, 0])

/-- WHAT POINT `t` WRITES BACK is block `t` of `relu5` of the three arrays as the call finds them. -/
theorem flushed5_3_eq (c : Dev nD) (t : Fin cfg5.N) :
    (dat5 (F := Ideal) V c).flushed 3 t
      = ((cfg5.win 3).blk t).view.read (Elt Ideal) (relu5 (inZ5 V c) (inS5 V c) (inT5 V c)) := by
  show (cfg5.win 3).cut (grid5.coords t) ((dat5 V c).after 3 t) = _
  rw [after5_3]
  unfold out5_3
  rw [View.canon_unit_zero hz5]
  simp only [View.ld_unit_zero (S := S5000x128) hz5, View.ld_unit_zero (S := S1x128) hz5]
  obtain ⟨e0, e1, e2, e3, e4, e5, e6, e7⟩ := idx_facts5 t
  funext y
  obtain ⟨p, q, rfl⟩ : ∃ (p : Fin 5000) (q : Fin 128), y = ix2 p q := ⟨y 0, y 1, eq_ix2 y⟩
  refine (pay5_apply _ _ _ p q).trans ?_
  show max (inZ5 V c (((cfg5.win 0).blk t).view.emb (ix2 p q)) * inS5 V c (((cfg5.win 1).blk t).view.emb (ix2 0 q))
      + inT5 V c (((cfg5.win 2).blk t).view.emb (ix2 0 q))) 0
    = relu5 (inZ5 V c) (inS5 V c) (inT5 V c) (((cfg5.win 3).blk t).view.emb (ix2 p q))
  have h0 : ((cfg5.win 0).blk t).view.emb (ix2 p q) = ((cfg5.win 3).blk t).view.emb (ix2 p q) := by
    funext a; apply Fin.ext
    match a with
    | ⟨0, _⟩ => show win5_0.index t (0 : Fin 2) * 5000 + 1 * p.val = win5_3.index t (0 : Fin 2) * 5000 + 1 * p.val; omega
    | ⟨1, _⟩ => show win5_0.index t (1 : Fin 2) * 128 + 1 * q.val = win5_3.index t (1 : Fin 2) * 128 + 1 * q.val; omega
  have h1 : ((cfg5.win 1).blk t).view.emb (ix2 0 q)
      = ix2 (n0 := 1) (n1 := 128) 0 ((((cfg5.win 3).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 128 + 1 * q.val = win5_3.index t (1 : Fin 2) * 128 + 1 * q.val; omega
  have h2 : ((cfg5.win 2).blk t).view.emb (ix2 0 q)
      = ix2 (n0 := 1) (n1 := 128) 0 ((((cfg5.win 3).blk t).view.emb (ix2 p q)) 1) := by
    funext a; apply Fin.ext
    match a with
    | ⟨0, _⟩ => show win5_2.index t (0 : Fin 2) * 1 + 1 * 0 = 0; omega
    | ⟨1, _⟩ => show win5_2.index t (1 : Fin 2) * 128 + 1 * q.val = win5_3.index t (1 : Fin 2) * 128 + 1 * q.val; omega
  rw [h0, h1, h2]
  rfl

/-- An index of the array is in point `t`'s block iff each coordinate is in the block's range on its axis. -/
theorem mem_blk5_3 (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v121).slice (win5_3.rect t)).set ↔ _
  rw [View.set_slice_whole, Rect.mem_set_unit]
  exact Iff.rfl

/-- Every entry of the result is in some point's block: row `R` in that of point `R / 5000`. -/
theorem cover5_arr (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  obtain ⟨t, ht⟩ := idx_onto5 ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk5_3]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- THE RESULT ARRAY after the call is `relu5` of the three arrays as the call finds them. -/
theorem final5_3 (c : Dev nD) :
    (dat5 (F := Ideal) V c).arrAt 3 cfg5.N = relu5 (inZ5 V c) (inS5 V c) (inT5 V c) :=
  (dat5 (F := Ideal) V c).arrAt_eq_of_cover 3 _ (fun t _ => flushed5_3_eq V c t) cover5_arr

/-- The same, entry by entry: `max (Z (R, j) * S (0, j) + T (0, j)) 0`. -/
theorem arrAt5_3 (c : Dev nD) (R : Fin 50000) (j : Fin 128) :
    (dat5 (F := Ideal) V c).arrAt 3 cfg5.N (ix2 R j)
      = max (inZ5 V c (ix2 R j) * inS5 V c (ix2 0 j) + inT5 V c (ix2 0 j)) 0 := by
  rw [final5_3]; rfl

/-- The three input arrays end as the call found them: an input window is never written back. -/
theorem arrAt5_0 (c : Dev nD) : (dat5 (F := Ideal) V c).arrAt 0 cfg5.N = V c (Pipeline.arrRef spec5 0) :=
  ((dat5 (F := Ideal) V c).arrAt_in 0 rfl _).trans (A_eq5 V c 0)
theorem arrAt5_1 (c : Dev nD) : (dat5 (F := Ideal) V c).arrAt 1 cfg5.N = V c (Pipeline.arrRef spec5 1) :=
  ((dat5 (F := Ideal) V c).arrAt_in 1 rfl _).trans (A_eq5 V c 1)
theorem arrAt5_2 (c : Dev nD) : (dat5 (F := Ideal) V c).arrAt 2 cfg5.N = V c (Pipeline.arrRef spec5 2) :=
  ((dat5 (F := Ideal) V c).arrAt_in 2 rfl _).trans (A_eq5 V c 2)

end Cert.KernelIdeal.Hand
-- ==== Proof.KI.Layer1.lean ====
/-
  Layer 1 of the kernel program, read through its three kernel regions and the host stretches between them: the
  first kernel's output is the first dense layer of the input activations plus their neighbour sums, with its column
  sums and sums of squares; the host folds them into a scale and a shift per column; the second kernel's output is the
  second dense layer of the rectified affine image, again with its column statistics; the third kernel applies the
  second folded scale and shift and the rectifier. Together: the folded arrangement of the layer.
-/
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102976_j3633542332749_1_alg».proof.Proof.KI.Params
import proofs.«102976_j3633542332749_1_alg».proof.Proof.KI.Stages
import proofs.«102976_j3633542332749_1_alg».proof.Proof.KI.A3Val
import proofs.«102976_j3633542332749_1_alg».proof.Proof.KI.B4Val
import proofs.«102976_j3633542332749_1_alg».proof.Proof.KI.C5Val
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

local notation "N₀" => Ideal.ofBits FTy.f32 0x47435000#32
local notation "E₀" => Ideal.ofBits FTy.f32 0x3727C5AC#32

variable (m : (ℓ : Loc nD τ sig) → Buf (Elt Ideal) ℓ) (ρ : Dev nD → PrngReg)

/-! ## Layer 1 -/

/-- The layer's input activations, as the kernel region finds them. -/
def act1 (c : Dev nD) : Fin 50000 → Fin 128 → EReal := fun R k => (W6 m ρ c (Proc.devRef .tc main_v62) : S50000x128.Idx → EReal) (ix2 R k)
/-- The neighbour sums of the layer's input. -/
def nbr1 (c : Dev nD) : Fin 50000 → Fin 128 → EReal := fun R k => (aggOf (F := Ideal) (W6 m ρ c (Proc.devRef .tc main_v62)) (srcCol m c) (dstCol m c) : S50000x128.Idx → EReal) (ix2 R k)

theorem featA3_eq (c : Dev nD) : featA3 (V7 m ρ) c = act1 m ρ c := by
  funext R k
  exact congrFun (h_after3 (W6 m ρ c)) (ix2 R k)
theorem aggA3_eq (c : Dev nD) : aggA3 (V7 m ρ) c = nbr1 m ρ c := by
  funext R k
  refine (congrFun (agg_after3 (W6 m ρ c)) (ix2 R k)).trans ?_
  show (aggOf (F := Ideal) _ (srcColOf (W6 m ρ c (Proc.devRef .tc main_v1))) (dstColOf (W6 m ρ c (Proc.devRef .tc main_v3))) : S50000x128.Idx → EReal) (ix2 R k) = _
  rw [show (W6 m ρ c (Proc.devRef .tc main_v1) : IVec S600000 32) = edgeRow (m ((c : Thread nD τ).loc main_arg1)) 0 slices_S2x600000_S1x600000_0_0 from ((W6_src m ρ c).trans (src_after0 (W0 m ρ c))),
    show (W6 m ρ c (Proc.devRef .tc main_v3) : IVec S600000 32) = edgeRow (m ((c : Thread nD τ).loc main_arg1)) 1 slices_S2x600000_S1x600000_1_0 from ((W6_dst m ρ c).trans (dst_after0 (W0 m ρ c)))]
  rfl
theorem wA3_eq (c : Dev nD) : wA3 (V7 m ρ) c = w1At m c 1 := by
  funext k j
  refine (congrFun (weight_after3 (W6 m ρ c)) (ix2 k j)).trans ?_
  refine (matOf_apply _ _ _ 1 k j rfl rfl rfl).trans ?_
  exact congrFun (W6_arg m ρ c main_arg3 (by decide)) (ix3 1 k j)
theorem bA3_eq (c : Dev nD) : bA3 (V7 m ρ) c = b1At m c 1 := by
  funext j
  refine (congrFun (bias_after3 (W6 m ρ c)) (ix2 0 j)).trans ?_
  refine (rowOf_apply _ _ _ 1 j rfl rfl).trans ?_
  exact congrFun (W6_arg m ρ c main_arg4 (by decide)) (ix2 1 j)

/-- The first dense layer's output, as the first kernel leaves it. -/
def pre1_1 (c : Dev nD) : Fin 50000 → Fin 128 → EReal := Cert.Spec.dense1 (act1 m ρ c) (nbr1 m ρ c) (w1At m c 1) (b1At m c 1)

theorem z1_1 (c : Dev nD) (R : Fin 50000) (k : Fin 128) : (W8 m ρ c (Proc.devRef .tc main_v78_0) : S50000x128.Idx → EReal) (ix2 R k) = pre1_1 m ρ c R k := by
  refine (congrFun (W8_arr m ρ c 4) (ix2 R k)).trans ?_
  refine (z_final3 (V7 m ρ) c R k).trans ?_
  rw [featA3_eq, aggA3_eq, wA3_eq, bA3_eq]; rfl
theorem s1_1 (c : Dev nD) (k : Fin 128) : (W8 m ρ c (Proc.devRef .tc main_v78_1) : S1x128.Idx → EReal) (ix2 0 k) = Cert.Spec.colSum (pre1_1 m ρ c) k := by
  refine (congrFun (W8_arr m ρ c 5) (ix2 0 k)).trans ?_
  refine (sum_final3 (V7 m ρ) c k).trans ?_
  rw [featA3_eq, aggA3_eq, wA3_eq, bA3_eq]; rfl
theorem q1_1 (c : Dev nD) (k : Fin 128) : (W8 m ρ c (Proc.devRef .tc main_v78_2) : S1x128.Idx → EReal) (ix2 0 k) = Cert.Spec.colSumSq (pre1_1 m ρ c) k := by
  refine (congrFun (W8_arr m ρ c 6) (ix2 0 k)).trans ?_
  refine (sq_final3 (V7 m ρ) c k).trans ?_
  rw [featA3_eq, aggA3_eq, wA3_eq, bA3_eq]; rfl

/-- What the second kernel reads: the first dense layer's output, the folded scale and shift, the second weights. -/
theorem inZ4_eq (c : Dev nD) (R : Fin 50000) (k : Fin 128) : inZ4 (V9 m ρ) c (ix2 R k) = pre1_1 m ρ c R k :=
  (congrFun (z_after4 (W8 m ρ c)) (ix2 R k)).trans (z1_1 m ρ c R k)
theorem inS4_eq (c : Dev nD) (k : Fin 128) : inS4 (V9 m ρ) c (ix2 0 k) = Cert.Spec.scaleF (pre1_1 m ρ c) (gmAt m c 1) N₀ E₀ k := by
  refine (congrFun (scale_after4 (W8 m ρ c)) (ix2 0 k)).trans ?_
  rw [scaleOf_apply, rowOf_apply _ _ _ 1 k rfl rfl, s1_1, q1_1]
  rw [show (W8 m ρ c (Proc.devRef .tc main_arg7) : S4x128.Idx → EReal) (ix2 1 k) = gmAt m c 1 k from congrFun (W8_arg m ρ c main_arg7 (by decide)) (ix2 1 k)]
  rfl
theorem inT4_eq (c : Dev nD) (k : Fin 128) : inT4 (V9 m ρ) c (ix2 0 k) = Cert.Spec.shiftF (pre1_1 m ρ c) (gmAt m c 1) (bmAt m c 1) N₀ E₀ k := by
  refine (congrFun (shift_after4 (W8 m ρ c)) (ix2 0 k)).trans ?_
  rw [shiftOf_apply, rowOf_apply _ _ _ 1 k rfl rfl, rowOf_apply _ _ _ 1 k rfl rfl, s1_1, q1_1]
  rw [show (W8 m ρ c (Proc.devRef .tc main_arg7) : S4x128.Idx → EReal) (ix2 1 k) = gmAt m c 1 k from congrFun (W8_arg m ρ c main_arg7 (by decide)) (ix2 1 k),
    show (W8 m ρ c (Proc.devRef .tc main_arg8) : S4x128.Idx → EReal) (ix2 1 k) = bmAt m c 1 k from congrFun (W8_arg m ρ c main_arg8 (by decide)) (ix2 1 k)]
  rfl
theorem inW4_eq (c : Dev nD) (k j : Fin 128) : inW4 (V9 m ρ) c (ix2 k j) = w2At m c 1 k j := by
  refine (congrFun (weight_after4 (W8 m ρ c)) (ix2 k j)).trans ?_
  refine (matOf_apply _ _ _ 1 k j rfl rfl rfl).trans ?_
  exact congrFun (W8_arg m ρ c main_arg5 (by decide)) (ix3 1 k j)
theorem inB4_eq (c : Dev nD) (j : Fin 128) : inB4 (V9 m ρ) c (ix2 0 j) = b2At m c 1 j := by
  refine (congrFun (bias_after4 (W8 m ρ c)) (ix2 0 j)).trans ?_
  refine (rowOf_apply _ _ _ 1 j rfl rfl).trans ?_
  exact congrFun (W8_arg m ρ c main_arg6 (by decide)) (ix2 1 j)

/-- The second dense layer's output, as the second kernel leaves it. -/
def pre2_1 (c : Dev nD) : Fin 50000 → Fin 128 → EReal :=
  Cert.Spec.dense2 (pre1_1 m ρ c) (Cert.Spec.scaleF (pre1_1 m ρ c) (gmAt m c 1) N₀ E₀) (Cert.Spec.shiftF (pre1_1 m ρ c) (gmAt m c 1) (bmAt m c 1) N₀ E₀) (w2At m c 1) (b2At m c 1)

theorem dense2_args_1 (c : Dev nD) :
    Cert.Spec.dense2 (fun R k => inZ4 (V9 m ρ) c (ix2 R k)) (fun k => inS4 (V9 m ρ) c (ix2 0 k)) (fun k => inT4 (V9 m ρ) c (ix2 0 k))
      (fun k j => inW4 (V9 m ρ) c (ix2 k j)) (fun j => inB4 (V9 m ρ) c (ix2 0 j)) = pre2_1 m ρ c := by
  rw [show (fun R k => inZ4 (V9 m ρ) c (ix2 R k)) = pre1_1 m ρ c from funext fun R => funext fun k => inZ4_eq m ρ c R k,
    show (fun k => inS4 (V9 m ρ) c (ix2 0 k)) = Cert.Spec.scaleF (pre1_1 m ρ c) (gmAt m c 1) N₀ E₀ from funext fun k => inS4_eq m ρ c k,
    show (fun k => inT4 (V9 m ρ) c (ix2 0 k)) = Cert.Spec.shiftF (pre1_1 m ρ c) (gmAt m c 1) (bmAt m c 1) N₀ E₀ from funext fun k => inT4_eq m ρ c k,
    show (fun k j => inW4 (V9 m ρ) c (ix2 k j)) = w2At m c 1 from funext fun k => funext fun j => inW4_eq m ρ c k j,
    show (fun j => inB4 (V9 m ρ) c (ix2 0 j)) = b2At m c 1 from funext fun j => inB4_eq m ρ c j]
  rfl
theorem z2_1 (c : Dev nD) (R : Fin 50000) (j : Fin 128) : (W10 m ρ c (Proc.devRef .tc main_v102_0) : S50000x128.Idx → EReal) (ix2 R j) = pre2_1 m ρ c R j := by
  refine (congrFun (W10_arr m ρ c 5) (ix2 R j)).trans ?_
  refine (arrAt4_5 (V9 m ρ) c R j).trans ?_
  rw [dense2_args_1]
theorem s2_1 (c : Dev nD) (j : Fin 128) : (W10 m ρ c (Proc.devRef .tc main_v102_1) : S1x128.Idx → EReal) (ix2 0 j) = Cert.Spec.colSum (pre2_1 m ρ c) j := by
  refine (congrFun (W10_arr m ρ c 6) (ix2 0 j)).trans ?_
  refine (arrAt4_6 (V9 m ρ) c j).trans ?_
  rw [dense2_args_1]
theorem q2_1 (c : Dev nD) (j : Fin 128) : (W10 m ρ c (Proc.devRef .tc main_v102_2) : S1x128.Idx → EReal) (ix2 0 j) = Cert.Spec.colSumSq (pre2_1 m ρ c) j := by
  refine (congrFun (W10_arr m ρ c 7) (ix2 0 j)).trans ?_
  refine (arrAt4_7 (V9 m ρ) c j).trans ?_
  rw [dense2_args_1]

/-- THE LAYER: what the third kernel leaves is the folded arrangement of the layer at its input. -/
theorem layer1_value (c : Dev nD) (R : Fin 50000) (j : Fin 128) :
    (W12 m ρ c (Proc.devRef .tc main_v121) : S50000x128.Idx → EReal) (ix2 R j)
      = Cert.Spec.layerF (act1 m ρ c) (nbr1 m ρ c) (w1At m c 1) (b1At m c 1) (w2At m c 1) (b2At m c 1)
          (gmAt m c 1) (bmAt m c 1) (goAt m c 1) (boAt m c 1) N₀ E₀ R j := by
  refine (congrFun (W12_arr m ρ c 3) (ix2 R j)).trans ?_
  refine (arrAt5_3 (V11 m ρ) c R j).trans ?_
  have hz : inZ5 (V11 m ρ) c (ix2 R j) = pre2_1 m ρ c R j :=
    (congrFun (z_after5 (W10 m ρ c)) (ix2 R j)).trans (z2_1 m ρ c R j)
  have hs : inS5 (V11 m ρ) c (ix2 0 j) = Cert.Spec.scaleF (pre2_1 m ρ c) (goAt m c 1) N₀ E₀ j := by
    refine (congrFun (scale_after5 (W10 m ρ c)) (ix2 0 j)).trans ?_
    rw [scaleOf_apply, rowOf_apply _ _ _ 1 j rfl rfl, s2_1, q2_1]
    rw [show (W10 m ρ c (Proc.devRef .tc main_arg9) : S4x128.Idx → EReal) (ix2 1 j) = goAt m c 1 j from congrFun (W10_arg m ρ c main_arg9 (by decide)) (ix2 1 j)]
    rfl
  have ht : inT5 (V11 m ρ) c (ix2 0 j) = Cert.Spec.shiftF (pre2_1 m ρ c) (goAt m c 1) (boAt m c 1) N₀ E₀ j := by
    refine (congrFun (shift_after5 (W10 m ρ c)) (ix2 0 j)).trans ?_
    rw [shiftOf_apply, rowOf_apply _ _ _ 1 j rfl rfl, rowOf_apply _ _ _ 1 j rfl rfl, s2_1, q2_1]
    rw [show (W10 m ρ c (Proc.devRef .tc main_arg9) : S4x128.Idx → EReal) (ix2 1 j) = goAt m c 1 j from congrFun (W10_arg m ρ c main_arg9 (by decide)) (ix2 1 j),
      show (W10 m ρ c (Proc.devRef .tc main_arg10) : S4x128.Idx → EReal) (ix2 1 j) = boAt m c 1 j from congrFun (W10_arg m ρ c main_arg10 (by decide)) (ix2 1 j)]
    rfl
  rw [hz, hs, ht]
  rfl

end Cert.KernelIdeal.Hand

end
-- ==== Proof.KI.A6Val.lean ====
import proofs.«102976_j3633542332749_1_alg».proof.Proof.KI.A6
import proofs.«102976_j3633542332749_1_alg».proof.Proof.KI.AVal
import proofs.«102976_j3633542332749_1_alg».proof.Proof.Spec
import proofs.«102976_j3633542332749_1_alg».proof.Proof.LibAccBlocks

/-! # What the region of custom_call 6 leaves in its three result arrays, over the extended reals

Window 4's array ends as the linear layer `(H + G)·W + B` of the four input arrays the region finds, entry by entry;
window 5's as its column sums over all 50000 rows; window 6's as the column sums of its squared entries. The blocks
are rows `t·5000 … t·5000 + 4999`; the accumulators start at zero and add one block's column sums per point, so after
the ten points they hold the sums over all the rows (addition on the extended reals is commutative and associative:
no finiteness is used). -/

set_option maxRecDepth 16384

open scoped BigOperators

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem k6_pay3_eq (x0 x1 : Vec Ideal S5000x128 .f32) (x2 : Vec Ideal S128x128 .f32) (x3 : Vec Ideal S1x128 .f32) :
    k6_pay3 x0 x1 x2 x3 = zCore_A x0 x1 x2 x3 := by
  unfold k6_pay3 zCore_A; simp only [shapeCast_self]

theorem k6_pay4_eq (x0 x1 : Vec Ideal S5000x128 .f32) (x2 : Vec Ideal S128x128 .f32) (x3 : Vec Ideal S1x128 .f32) (s : Vec Ideal S1x128 .f32) :
    k6_pay4 x0 x1 x2 x3 s = colSum_A (k6_pay3 x0 x1 x2 x3) s := by
  unfold k6_pay4 colSum_A; simp only [shapeCast_self]

theorem k6_pay5_eq (x0 x1 : Vec Ideal S5000x128 .f32) (x2 : Vec Ideal S128x128 .f32) (x3 : Vec Ideal S1x128 .f32) (s : Vec Ideal S1x128 .f32) :
    k6_pay5 x0 x1 x2 x3 s = colSum_A (mulf (k6_pay3 x0 x1 x2 x3) (k6_pay3 x0 x1 x2 x3)) s := by
  unfold k6_pay5 colSum_A; simp only [shapeCast_self]

theorem k6_pay1_apply (i : S1x128.Idx) : (k6_pay1 (F := Ideal)) i = 0 := by
  unfold k6_pay1; simp only [shapeCast_self]
  show Ideal.ofBits .f32 0x00000000#32 = 0
  exact Ideal.ofBits_zero_f32

theorem k6_pay2_apply (i : S1x128.Idx) : (k6_pay2 (F := Ideal)) i = 0 := by
  unfold k6_pay2; simp only [shapeCast_self]
  show Ideal.ofBits .f32 0x00000000#32 = 0
  exact Ideal.ofBits_zero_f32

variable (V : (c : Dev nD) → (b : Ref sig .tc) → Buf (Elt Ideal) ((c : Thread nD τ).loc b))

/-! ## The region's four input arrays, as plain functions of their coordinates -/

/-- The node features the region finds. -/
noncomputable def featA6 (c : Dev nD) : Fin 50000 → Fin 128 → EReal := fun R k => (V c (Pipeline.arrRef spec6 0) : S50000x128.Idx → EReal) (ix2 R k)
/-- The aggregated neighbours' features. -/
noncomputable def aggA6 (c : Dev nD) : Fin 50000 → Fin 128 → EReal := fun R k => (V c (Pipeline.arrRef spec6 1) : S50000x128.Idx → EReal) (ix2 R k)
/-- The layer's weight matrix. -/
noncomputable def wA6 (c : Dev nD) : Fin 128 → Fin 128 → EReal := fun k j => (V c (Pipeline.arrRef spec6 2) : S128x128.Idx → EReal) (ix2 k j)
/-- The layer's bias row. -/
noncomputable def bA6 (c : Dev nD) : Fin 128 → EReal := fun j => (V c (Pipeline.arrRef spec6 3) : S1x128.Idx → EReal) (ix2 0 j)

/-- The entry of the layer's result the region computes at row `R`, column `j`. -/
abbrev zOf6 (c : Dev nD) (R : Fin 50000) (j : Fin 128) : EReal := Cert.Spec.dense1 (featA6 V c) (aggA6 V c) (wA6 V c) (bA6 V c) R j

/-! ## The blocks at an entry -/

/-- The block indices of the windows, decided over the grid: the row-block windows move with the point, the others stay. -/
theorem widx6 : ∀ t : Fin cfg6.N,
    (win6_0.index t 0 = t.val ∧ win6_0.index t 1 = 0) ∧ (win6_1.index t 0 = t.val ∧ win6_1.index t 1 = 0)
    ∧ (win6_2.index t 0 = 0 ∧ win6_2.index t 1 = 0) ∧ (win6_3.index t 0 = 0 ∧ win6_3.index t 1 = 0)
    ∧ (win6_4.index t 0 = t.val ∧ win6_4.index t 1 = 0) ∧ (win6_5.index t 0 = 0 ∧ win6_5.index t 1 = 0)
    ∧ (win6_6.index t 0 = 0 ∧ win6_6.index t 1 = 0) :=
  (by decide +kernel : ∀ t : Fin grid6.N, _)

/-- Row `r` of block `t` is row `t·5000 + r` of the array. -/
theorem row_lt6 (t : Fin cfg6.N) (r : Fin 5000) : t.val * 5000 + r.val < 50000 := by
  have := lt_of_lt_of_eq t.isLt (show cfg6.N = 10 from N_6); have := r.isLt; omega

theorem iblk6_0_apply (c : Dev nD) (t : Fin cfg6.N) (r : Fin 5000) (k : Fin 128) :
    (iblk6 V c 0 t : S5000x128.Idx → EReal) (ix2 r k) = featA6 V c ⟨t.val * 5000 + r.val, row_lt6 t r⟩ k := by
  unfold iblk6 featA6
  rw [View.read_apply]
  refine congrArg (V c (Pipeline.arrRef spec6 0)) (funext fun a => Fin.ext ?_)
  match a with
  | ⟨0, _⟩ => show win6_0.index t 0 * 5000 + 1 * r.val = t.val * 5000 + r.val; rw [(widx6 t).1.1]; omega
  | ⟨1, _⟩ => show win6_0.index t 1 * 128 + 1 * k.val = k.val; rw [(widx6 t).1.2]; omega

theorem iblk6_1_apply (c : Dev nD) (t : Fin cfg6.N) (r : Fin 5000) (k : Fin 128) :
    (iblk6 V c 1 t : S5000x128.Idx → EReal) (ix2 r k) = aggA6 V c ⟨t.val * 5000 + r.val, row_lt6 t r⟩ k := by
  unfold iblk6 aggA6
  rw [View.read_apply]
  refine congrArg (V c (Pipeline.arrRef spec6 1)) (funext fun a => Fin.ext ?_)
  match a with
  | ⟨0, _⟩ => show win6_1.index t 0 * 5000 + 1 * r.val = t.val * 5000 + r.val; rw [(widx6 t).2.1.1]; omega
  | ⟨1, _⟩ => show win6_1.index t 1 * 128 + 1 * k.val = k.val; rw [(widx6 t).2.1.2]; omega

theorem iblk6_2_apply (c : Dev nD) (t : Fin cfg6.N) (k : Fin 128) (j : Fin 128) :
    (iblk6 V c 2 t : S128x128.Idx → EReal) (ix2 k j) = wA6 V c k j := by
  unfold iblk6 wA6
  rw [View.read_apply]
  refine congrArg (V c (Pipeline.arrRef spec6 2)) (funext fun a => Fin.ext ?_)
  match a with
  | ⟨0, _⟩ => show win6_2.index t 0 * 128 + 1 * k.val = k.val; rw [(widx6 t).2.2.1.1]; omega
  | ⟨1, _⟩ => show win6_2.index t 1 * 128 + 1 * j.val = j.val; rw [(widx6 t).2.2.1.2]; omega

theorem iblk6_3_apply (c : Dev nD) (t : Fin cfg6.N) (j : Fin 128) :
    (iblk6 V c 3 t : S1x128.Idx → EReal) (ix2 0 j) = bA6 V c j := by
  unfold iblk6 bA6
  rw [View.read_apply]
  refine congrArg (V c (Pipeline.arrRef spec6 3)) (funext fun a => Fin.ext ?_)
  match a with
  | ⟨0, _⟩ => show win6_3.index t 0 * 1 + 1 * 0 = 0; rw [(widx6 t).2.2.2.1.1]
  | ⟨1, _⟩ => show win6_3.index t 1 * 128 + 1 * j.val = j.val; rw [(widx6 t).2.2.2.1.2]; omega

/-- The block of the layer's result at point `t`, at an entry: the layer's entry at the block's row. -/
theorem zAt6_apply (c : Dev nD) (t : Fin cfg6.N) (r : Fin 5000) (j : Fin 128) :
    zAt6 V c t (ix2 r j) = zOf6 V c ⟨t.val * 5000 + r.val, row_lt6 t r⟩ j := by
  unfold zAt6
  rw [k6_pay3_eq]
  refine (zCore_A_apply (iblk6 V c 0 t) (iblk6 V c 1 t) (iblk6 V c 2 t) (iblk6 V c 3 t) r j).trans ?_
  unfold zOf6 Cert.Spec.dense1
  rw [iblk6_3_apply V c t j]
  refine congrArg (· + bA6 V c j) (Finset.sum_congr rfl fun k _ => ?_)
  rw [iblk6_0_apply V c t r k, iblk6_1_apply V c t r k, iblk6_2_apply V c t k j]

/-- The same at any index of the block. -/
theorem zAt6_apply' (c : Dev nD) (t : Fin cfg6.N) (y : S5000x128.Idx) :
    zAt6 V c t y = zOf6 V c ⟨t.val * 5000 + (y 0).val, row_lt6 t (y 0)⟩ (y 1) := by
  obtain ⟨r, j, rfl⟩ : ∃ (r : Fin 5000) (j : Fin 128), y = ix2 r j := ⟨y 0, y 1, eq_ix2 y⟩
  exact zAt6_apply V c t r j

/-! ## The accumulators, closed -/

/-- One step of the column-sum accumulator at column `j`: the block's column sum is added. -/
theorem sumStep6_apply (c : Dev nD) (t : Fin cfg6.N) (s : Vec Ideal S1x128 .f32) (j : Fin 128) :
    sumStep6 V c t s (ix2 0 j) = s (ix2 0 j) + ∑ r : Fin 5000, zOf6 V c ⟨t.val * 5000 + r.val, row_lt6 t r⟩ j := by
  unfold sumStep6
  rw [k6_pay4_eq]
  refine (colSum_A_apply _ s j).trans ?_
  exact congrArg (s (ix2 0 j) + ·) (Finset.sum_congr rfl fun r _ => zAt6_apply V c t r j)

/-- One step of the accumulator of squares at column `j`: the column sum of the block's squared entries is added. -/
theorem sqStep6_apply (c : Dev nD) (t : Fin cfg6.N) (s : Vec Ideal S1x128 .f32) (j : Fin 128) :
    sqStep6 V c t s (ix2 0 j) = s (ix2 0 j) + ∑ r : Fin 5000,
      zOf6 V c ⟨t.val * 5000 + r.val, row_lt6 t r⟩ j * zOf6 V c ⟨t.val * 5000 + r.val, row_lt6 t r⟩ j := by
  unfold sqStep6
  rw [k6_pay5_eq]
  refine (colSum_A_apply _ s j).trans ?_
  refine congrArg (s (ix2 0 j) + ·) (Finset.sum_congr rfl fun r _ => ?_)
  rw [mulf_apply]
  exact congr (congrArg _ (zAt6_apply V c t r j)) (zAt6_apply V c t r j)

/-- The column-sum accumulator at column `j` before position `n` (zero before the first). -/
noncomputable def sumNat6 (c : Dev nD) (j : Fin 128) : ℕ → EReal
  | 0 => 0
  | n + 1 => if h : n < cfg6.N then (accAt6 V c n h).1 (ix2 0 j) else 0
/-- The accumulator of squares at column `j` before position `n`. -/
noncomputable def sqNat6 (c : Dev nD) (j : Fin 128) : ℕ → EReal
  | 0 => 0
  | n + 1 => if h : n < cfg6.N then (accAt6 V c n h).2 (ix2 0 j) else 0

theorem nine_lt6 : 9 < cfg6.N := by rw [show cfg6.N = 10 from N_6]; decide

/-- After the last point the column-sum accumulator holds the column sums of the layer's result over all the rows. -/
theorem sumAcc6 (c : Dev nD) (j : Fin 128) :
    (accAt6 V c 9 nine_lt6).1 (ix2 0 j) = ∑ R : Fin 50000, zOf6 V c R j := by
  have hN : cfg6.N = 10 := N_6
  have h := Cert.LibAccBlocks.acc_blocks 10 5000 (fun R : Fin (10 * 5000) => zOf6 V c R j) 0 (sumNat6 V c j) rfl (fun n hn => by
    have hn' : n < cfg6.N := by rw [hN]; exact hn
    show (if h : n < cfg6.N then (accAt6 V c n h).1 (ix2 0 j) else 0) = _
    rw [dif_pos hn']
    cases n with
    | zero =>
      show sumStep6 V c ⟨0, hn'⟩ (k6_pay1 (F := Ideal)) (ix2 0 j) = _
      rw [sumStep6_apply, k6_pay1_apply]
      rfl
    | succ m =>
      have hm : m < cfg6.N := Nat.lt_of_succ_lt hn'
      show sumStep6 V c ⟨m + 1, hn'⟩ (accAt6 V c m (Nat.lt_of_succ_lt hn')).1 (ix2 0 j) = _
      rw [sumStep6_apply]
      show _ = (if h : m < cfg6.N then (accAt6 V c m h).1 (ix2 0 j) else 0) + _
      rw [dif_pos hm])
  have e : sumNat6 V c j 10 = (accAt6 V c 9 nine_lt6).1 (ix2 0 j) := by
    show (if h : 9 < cfg6.N then (accAt6 V c 9 h).1 (ix2 0 j) else 0) = _
    rw [dif_pos nine_lt6]
  rw [← e, h, zero_add]

/-- After the last point the accumulator of squares holds the column sums of the squared entries over all the rows. -/
theorem sqAcc6 (c : Dev nD) (j : Fin 128) :
    (accAt6 V c 9 nine_lt6).2 (ix2 0 j) = ∑ R : Fin 50000, zOf6 V c R j * zOf6 V c R j := by
  have hN : cfg6.N = 10 := N_6
  have h := Cert.LibAccBlocks.acc_blocks 10 5000 (fun R : Fin (10 * 5000) => zOf6 V c R j * zOf6 V c R j) 0 (sqNat6 V c j) rfl (fun n hn => by
    have hn' : n < cfg6.N := by rw [hN]; exact hn
    show (if h : n < cfg6.N then (accAt6 V c n h).2 (ix2 0 j) else 0) = _
    rw [dif_pos hn']
    cases n with
    | zero =>
      show sqStep6 V c ⟨0, hn'⟩ (k6_pay2 (F := Ideal)) (ix2 0 j) = _
      rw [sqStep6_apply, k6_pay2_apply]
      rfl
    | succ m =>
      have hm : m < cfg6.N := Nat.lt_of_succ_lt hn'
      show sqStep6 V c ⟨m + 1, hn'⟩ (accAt6 V c m (Nat.lt_of_succ_lt hn')).2 (ix2 0 j) = _
      rw [sqStep6_apply]
      show _ = (if h : m < cfg6.N then (accAt6 V c m h).2 (ix2 0 j) else 0) + _
      rw [dif_pos hm])
  have e : sqNat6 V c j 10 = (accAt6 V c 9 nine_lt6).2 (ix2 0 j) := by
    show (if h : 9 < cfg6.N then (accAt6 V c 9 h).2 (ix2 0 j) else 0) = _
    rw [dif_pos nine_lt6]
  rw [← e, h, zero_add]

/-- The same for the last point however it is named. -/
theorem sumAcc6' (c : Dev nD) (t : Fin cfg6.N) (h9 : t.val = 9) (j : Fin 128) :
    (accAt6 V c t.val t.isLt).1 (ix2 0 j) = ∑ R : Fin 50000, zOf6 V c R j := by
  obtain ⟨n, hn⟩ := t
  dsimp only at h9
  subst h9
  exact sumAcc6 V c j

theorem sqAcc6' (c : Dev nD) (t : Fin cfg6.N) (h9 : t.val = 9) (j : Fin 128) :
    (accAt6 V c t.val t.isLt).2 (ix2 0 j) = ∑ R : Fin 50000, zOf6 V c R j * zOf6 V c R j := by
  obtain ⟨n, hn⟩ := t
  dsimp only at h9
  subst h9
  exact sqAcc6 V c j

/-! ## The arrays after the region -/

/-- The layer's result as contents of window 4's array. -/
noncomputable def zArr6 (c : Dev nD) : S50000x128.Idx → EReal := fun i => zOf6 V c (i 0) (i 1)

/-- What point `t` writes back to window 4 is block `t` of the layer's result. -/
theorem flushed6_4 (c : Dev nD) (t : Fin cfg6.N) (hf : (cfg6.win 4).flush t = true) :
    (dat6 V c).flushed 4 t = ((cfg6.win 4).blk t).view.read (Elt Ideal) (zArr6 V c) := by
  show (cfg6.win 4).cut (grid6.coords t) ((dat6 V c).after 4 t) = _
  rw [after6_4]
  funext y
  show zAt6 V c t y = zArr6 V c (((cfg6.win 4).blk t).view.emb y)
  refine (zAt6_apply' V c t y).trans ?_
  unfold zArr6
  have hy0 : (y 0).val < 5000 := (y 0).isLt
  have hy1 : (y 1).val < 128 := (y 1).isLt
  refine congr (congrArg _ (Fin.ext ?_)) (Fin.ext ?_)
  · show t.val * 5000 + (y 0).val = win6_4.index t 0 * 5000 + 1 * (y 0).val
    rw [(widx6 t).2.2.2.2.1.1]; omega
  · show (y 1).val = win6_4.index t 1 * 128 + 1 * (y 1).val
    rw [(widx6 t).2.2.2.2.1.2]; omega

/-- Every row lies in the block of the point `row / 5000`. -/
theorem cover6_4 (i : S50000x128.Idx) : ∃ t : Fin cfg6.N, (cfg6.win 4).flush t = true ∧ i ∈ ((cfg6.win 4).blk t).view.set := by
  have hN : cfg6.N = 10 := N_6
  have h0 : (i 0).val < 50000 := (i 0).isLt
  have h1 : (i 1).val < 128 := (i 1).isLt
  have ht : (i 0).val / 5000 < cfg6.N := by rw [hN]; omega
  refine ⟨⟨(i 0).val / 5000, ht⟩, flush6_4 _, ?_⟩
  rw [show ((cfg6.win 4).blk ⟨(i 0).val / 5000, ht⟩).view.set = (win6_4.rect ⟨(i 0).val / 5000, ht⟩).set from
    View.set_slice_whole main_v137_0 (win6_4.rect ⟨(i 0).val / 5000, ht⟩), Rect.mem_set_unit]
  intro a
  match a with
  | ⟨0, _⟩ =>
    show win6_4.index ⟨(i 0).val / 5000, ht⟩ 0 * 5000 ≤ (i 0).val ∧ (i 0).val < win6_4.index ⟨(i 0).val / 5000, ht⟩ 0 * 5000 + 5000
    rw [(widx6 ⟨(i 0).val / 5000, ht⟩).2.2.2.2.1.1]; dsimp only; omega
  | ⟨1, _⟩ =>
    show win6_4.index ⟨(i 0).val / 5000, ht⟩ 1 * 128 ≤ (i 1).val ∧ (i 1).val < win6_4.index ⟨(i 0).val / 5000, ht⟩ 1 * 128 + 128
    rw [(widx6 ⟨(i 0).val / 5000, ht⟩).2.2.2.2.1.2]; omega

/-- Window 4's array after the region is the layer's result. -/
theorem final6_4 (c : Dev nD) : (dat6 V c).arrAt 4 cfg6.N = zArr6 V c :=
  (dat6 V c).arrAt_eq_of_cover 4 (zArr6 V c) (flushed6_4 V c) (cover6_4)

/-- The array window 5 ends holding: at column `j` of its one row, the column sum of the layer's result over all the rows. -/
noncomputable def sumArr6 (c : Dev nD) : S1x128.Idx → EReal := fun i => ∑ R : Fin 50000, zOf6 V c R (i 1)

/-- The accumulator after the last point, at any index of its one row. -/
theorem sumAcc6_row (c : Dev nD) (t : Fin cfg6.N) (h9 : t.val = 9) (y : S1x128.Idx) :
    (accAt6 V c t.val t.isLt).1 y = ∑ R : Fin 50000, zOf6 V c R (y 1) := by
  obtain ⟨u, j, rfl⟩ : ∃ (u : Fin 1) (j : Fin 128), y = ix2 u j := ⟨y 0, y 1, eq_ix2 y⟩
  obtain rfl : u = 0 := Subsingleton.elim _ _
  exact sumAcc6' V c t h9 j

/-- Window 5's block is read through its view index by index, and a write-back moves the whole staging buffer. -/
theorem read_blk6_5 (t : Fin cfg6.N) (y : ((cfg6.win 5).xblock (grid6.coords t)).Idx) (f : S1x128.Idx → EReal) :
    ((cfg6.win 5).blk t).view.read (Elt Ideal) f y = f (((cfg6.win 5).blk t).view.emb y) := rfl
theorem cut6_5 (t : Fin cfg6.N) (y : ((cfg6.win 5).xblock (grid6.coords t)).Idx) (s : S1x128.Idx → EReal) :
    (cfg6.win 5).cut (grid6.coords t) s y = s y := rfl

/-- The one write-back of window 5, after the last point, writes the accumulator, which holds those sums. -/
theorem flushed6_5 (c : Dev nD) (t : Fin cfg6.N) (hf : (cfg6.win 5).flush t = true) :
    (dat6 V c).flushed 5 t = ((cfg6.win 5).blk t).view.read (Elt Ideal) (sumArr6 V c) := by
  have hN : cfg6.N = 10 := N_6
  have h9 : t.val = 9 := by have := (flush6_5 t).mp hf; have := t.isLt; omega
  show (cfg6.win 5).cut (grid6.coords t) ((dat6 V c).after 5 t) = _
  rw [after6_5]
  have hs := sumAcc6_row V c t h9
  generalize (accAt6 V c t.val t.isLt).1 = s at hs ⊢
  funext y
  refine (cut6_5 t y s).trans ((hs y).trans ?_)
  refine Eq.trans ?_ (read_blk6_5 t y (sumArr6 V c)).symm
  have hy1 : (y 1).val < 128 := (y 1).isLt
  have e1 : (((cfg6.win 5).blk t).view.emb y) 1 = y 1 := Fin.ext (by
    show win6_5.index t 1 * 128 + 1 * (y 1).val = (y 1).val
    rw [(widx6 t).2.2.2.2.2.1.2]; omega)
  unfold sumArr6
  beta_reduce
  rw [e1]

/-- The last point's block is the whole one-row array. -/
theorem cover6_5 (i : S1x128.Idx) : ∃ t : Fin cfg6.N, (cfg6.win 5).flush t = true ∧ i ∈ ((cfg6.win 5).blk t).view.set := by
  have h0 : (i 0).val < 1 := (i 0).isLt
  have h1 : (i 1).val < 128 := (i 1).isLt
  refine ⟨t6_9, (flush6_5 t6_9).mpr rfl, ?_⟩
  rw [show ((cfg6.win 5).blk t6_9).view.set = (win6_5.rect t6_9).set from
    View.set_slice_whole main_v137_1 (win6_5.rect t6_9), Rect.mem_set_unit]
  intro a
  match a with
  | ⟨0, _⟩ =>
    show win6_5.index t6_9 0 * 1 ≤ (i 0).val ∧ (i 0).val < win6_5.index t6_9 0 * 1 + 1
    rw [(widx6 t6_9).2.2.2.2.2.1.1]; omega
  | ⟨1, _⟩ =>
    show win6_5.index t6_9 1 * 128 ≤ (i 1).val ∧ (i 1).val < win6_5.index t6_9 1 * 128 + 128
    rw [(widx6 t6_9).2.2.2.2.2.1.2]; omega

/-- Window 5's array after the region. -/
theorem final6_5 (c : Dev nD) : (dat6 V c).arrAt 5 cfg6.N = sumArr6 V c :=
  (dat6 V c).arrAt_eq_of_cover 5 (sumArr6 V c) (flushed6_5 V c) (cover6_5)

/-- The array window 6 ends holding: at column `j` of its one row, the column sum of the squared entries over all the rows. -/
noncomputable def sqArr6 (c : Dev nD) : S1x128.Idx → EReal := fun i => ∑ R : Fin 50000, zOf6 V c R (i 1) * zOf6 V c R (i 1)

/-- The accumulator after the last point, at any index of its one row. -/
theorem sqAcc6_row (c : Dev nD) (t : Fin cfg6.N) (h9 : t.val = 9) (y : S1x128.Idx) :
    (accAt6 V c t.val t.isLt).2 y = ∑ R : Fin 50000, zOf6 V c R (y 1) * zOf6 V c R (y 1) := by
  obtain ⟨u, j, rfl⟩ : ∃ (u : Fin 1) (j : Fin 128), y = ix2 u j := ⟨y 0, y 1, eq_ix2 y⟩
  obtain rfl : u = 0 := Subsingleton.elim _ _
  exact sqAcc6' V c t h9 j

/-- Window 6's block is read through its view index by index, and a write-back moves the whole staging buffer. -/
theorem read_blk6_6 (t : Fin cfg6.N) (y : ((cfg6.win 6).xblock (grid6.coords t)).Idx) (f : S1x128.Idx → EReal) :
    ((cfg6.win 6).blk t).view.read (Elt Ideal) f y = f (((cfg6.win 6).blk t).view.emb y) := rfl
theorem cut6_6 (t : Fin cfg6.N) (y : ((cfg6.win 6).xblock (grid6.coords t)).Idx) (s : S1x128.Idx → EReal) :
    (cfg6.win 6).cut (grid6.coords t) s y = s y := rfl

/-- The one write-back of window 6, after the last point, writes the accumulator, which holds those sums. -/
theorem flushed6_6 (c : Dev nD) (t : Fin cfg6.N) (hf : (cfg6.win 6).flush t = true) :
    (dat6 V c).flushed 6 t = ((cfg6.win 6).blk t).view.read (Elt Ideal) (sqArr6 V c) := by
  have hN : cfg6.N = 10 := N_6
  have h9 : t.val = 9 := by have := (flush6_6 t).mp hf; have := t.isLt; omega
  show (cfg6.win 6).cut (grid6.coords t) ((dat6 V c).after 6 t) = _
  rw [after6_6]
  have hs := sqAcc6_row V c t h9
  generalize (accAt6 V c t.val t.isLt).2 = s at hs ⊢
  funext y
  refine (cut6_6 t y s).trans ((hs y).trans ?_)
  refine Eq.trans ?_ (read_blk6_6 t y (sqArr6 V c)).symm
  have hy1 : (y 1).val < 128 := (y 1).isLt
  have e1 : (((cfg6.win 6).blk t).view.emb y) 1 = y 1 := Fin.ext (by
    show win6_6.index t 1 * 128 + 1 * (y 1).val = (y 1).val
    rw [(widx6 t).2.2.2.2.2.2.2]; omega)
  unfold sqArr6
  beta_reduce
  rw [e1]

/-- The last point's block is the whole one-row array. -/
theorem cover6_6 (i : S1x128.Idx) : ∃ t : Fin cfg6.N, (cfg6.win 6).flush t = true ∧ i ∈ ((cfg6.win 6).blk t).view.set := by
  have h0 : (i 0).val < 1 := (i 0).isLt
  have h1 : (i 1).val < 128 := (i 1).isLt
  refine ⟨t6_9, (flush6_6 t6_9).mpr rfl, ?_⟩
  rw [show ((cfg6.win 6).blk t6_9).view.set = (win6_6.rect t6_9).set from
    View.set_slice_whole main_v137_2 (win6_6.rect t6_9), Rect.mem_set_unit]
  intro a
  match a with
  | ⟨0, _⟩ =>
    show win6_6.index t6_9 0 * 1 ≤ (i 0).val ∧ (i 0).val < win6_6.index t6_9 0 * 1 + 1
    rw [(widx6 t6_9).2.2.2.2.2.2.1]; omega
  | ⟨1, _⟩ =>
    show win6_6.index t6_9 1 * 128 ≤ (i 1).val ∧ (i 1).val < win6_6.index t6_9 1 * 128 + 128
    rw [(widx6 t6_9).2.2.2.2.2.2.2]; omega

/-- Window 6's array after the region. -/
theorem final6_6 (c : Dev nD) : (dat6 V c).arrAt 6 cfg6.N = sqArr6 V c :=
  (dat6 V c).arrAt_eq_of_cover 6 (sqArr6 V c) (flushed6_6 V c) (cover6_6)

/-! ## The three results, entry by entry -/

theorem z_final6 (c : Dev nD) (R : Fin 50000) (j : Fin 128) :
    ((dat6 V c).arrAt 4 cfg6.N : S50000x128.Idx → EReal) (ix2 R j) = Cert.Spec.dense1 (featA6 V c) (aggA6 V c) (wA6 V c) (bA6 V c) R j := by
  rw [final6_4]; rfl

theorem sum_final6 (c : Dev nD) (j : Fin 128) :
    ((dat6 V c).arrAt 5 cfg6.N : S1x128.Idx → EReal) (ix2 0 j) = Cert.Spec.colSum (Cert.Spec.dense1 (featA6 V c) (aggA6 V c) (wA6 V c) (bA6 V c)) j := by
  rw [final6_5]; rfl

theorem sq_final6 (c : Dev nD) (j : Fin 128) :
    ((dat6 V c).arrAt 6 cfg6.N : S1x128.Idx → EReal) (ix2 0 j) = Cert.Spec.colSumSq (Cert.Spec.dense1 (featA6 V c) (aggA6 V c) (wA6 V c) (bA6 V c)) j := by
  rw [final6_6]; rfl

/-- The four input arrays end as the region found them. -/
theorem in_final6_0 (c : Dev nD) : (dat6 V c).arrAt 0 cfg6.N = V c (Pipeline.arrRef spec6 0) :=
  ((dat6 V c).arrAt_in 0 rfl _).trans (A_eq6 V c 0)
theorem in_final6_1 (c : Dev nD) : (dat6 V c).arrAt 1 cfg6.N = V c (Pipeline.arrRef spec6 1) :=
  ((dat6 V c).arrAt_in 1 rfl _).trans (A_eq6 V c 1)
theorem in_final6_2 (c : Dev nD) : (dat6 V c).arrAt 2 cfg6.N = V c (Pipeline.arrRef spec6 2) :=
  ((dat6 V c).arrAt_in 2 rfl _).trans (A_eq6 V c 2)
theorem in_final6_3 (c : Dev nD) : (dat6 V c).arrAt 3 cfg6.N = V c (Pipeline.arrRef spec6 3) :=
  ((dat6 V c).arrAt_in 3 rfl _).trans (A_eq6 V c 3)

end Cert.KernelIdeal.Hand
end
-- ==== Proof.KI.B7Val.lean ====
import proofs.«102976_j3633542332749_1_alg».proof.Proof.KI.B7
import proofs.«102976_j3633542332749_1_alg».proof.Proof.Spec
import proofs.«102976_j3633542332749_1_alg».proof.Proof.LibAccBlocks
import proofs.«102976_j3633542332749_1_alg».proof.Proof.LibPlainDot
import Idealize.ShloMosaic.Lib.Pipeline.Value
import Idealize.ShloMosaic.Lib.ValueIdx
import Idealize.ShloMosaic.PureOps.Ideal.Laws

/-! # The second dense layer, call number 7: the three arrays it leaves, entry by entry

Read on the extended reals. With `Z` the 50000 by 128 array of pre-activations, `S` and `T` the rows of scales and
shifts, `W` the 128 by 128 weights and `B` the row of biases as the call finds them, entry `(R, j)` of the first
result is `(∑ k, max (Z (R, k) * S (0, k) + T (0, k)) 0 * W (k, j)) + B (0, j)`: grid point `t` writes rows
`5000 t … 5000 t + 4999`. The second result's entry `(0, j)` is the sum of column `j` of the first over all 50000
rows, the third's the sum of the squares: each point adds its 5000 rows to a running sum that starts at zero, and the
last point's running sums are what is written. The five input arrays end as they were. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The array of pre-activations as the call finds it, -/
abbrev inZ7 (c : Dev nD) : S50000x128.Idx → EReal := V c (Pipeline.arrRef spec7 0)
/-- the row of scales, -/
abbrev inS7 (c : Dev nD) : S1x128.Idx → EReal := V c (Pipeline.arrRef spec7 1)
/-- the row of shifts, -/
abbrev inT7 (c : Dev nD) : S1x128.Idx → EReal := V c (Pipeline.arrRef spec7 2)
/-- the weights, -/
abbrev inW7 (c : Dev nD) : S128x128.Idx → EReal := V c (Pipeline.arrRef spec7 3)
/-- and the row of biases. -/
abbrev inB7 (c : Dev nD) : S1x128.Idx → EReal := V c (Pipeline.arrRef spec7 4)

/-- The dense layer on these arrays, by coordinates. -/
def z2of7 (c : Dev nD) : Fin 50000 → Fin 128 → EReal :=
  Cert.Spec.dense2 (fun R k => inZ7 V c (ix2 R k)) (fun k => inS7 V c (ix2 0 k)) (fun k => inT7 V c (ix2 0 k))
    (fun k j => inW7 V c (ix2 k j)) (fun j => inB7 V c (ix2 0 j))

/-! ## The body's values at an entry -/

/-- A row repeated down the block, read at `(p, q)`, is the row at `(0, q)`. -/
theorem rowDown7_apply (x : Vec Ideal S1x128 .f32) (p : Fin 5000) (q : Fin 128) :
    broadcastTo S5000x128 (shapeCast S1x128 x shapeCasts_S1x128_S1x128) broadcasts_S1x128_S5000x128 (ix2 p q) = x (ix2 0 q) := by
  rw [shapeCast_self]
  exact broadcastTo_apply x _ (ix2 p q) (ix2 0 q) fun a => by
    match a with
    | ⟨0, _⟩ => rfl
    | ⟨1, _⟩ => rfl

/-- The matrix product's dimension numbers are the plain ones: rows by contraction, contraction by columns. -/
theorem dot7_plain : dot_S5000x128_S128x128_S5000x128_1_0_0_1_n_n = DotDims.plain 5000 128 128 := rfl

/-- The block of the first result at `(p, q)`: the rectified affine image of row `p` against column `q` of the
    weights, plus the bias. -/
theorem pay4_7_apply (x0 : Vec Ideal S5000x128 .f32) (x1 x2 : Vec Ideal S1x128 .f32) (x3 : Vec Ideal S128x128 .f32)
    (x4 : Vec Ideal S1x128 .f32) (p : Fin 5000) (q : Fin 128) :
    k7_pay4 x0 x1 x2 x3 x4 (ix2 p q)
      = (∑ k : Fin 128, max (x0 (ix2 p k) * x1 (ix2 0 k) + x2 (ix2 0 k)) 0 * x3 (ix2 k q)) + x4 (ix2 0 q) := by
  unfold k7_pay4
  refine (addf_apply _ _ _).trans ?_
  refine congrArg₂ (· + ·) ?_ (rowDown7_apply x4 p q)
  refine (Cert.LibPlainDot.matmul_plain_zero_apply _ dot7_plain none _ _ p q).trans ?_
  refine Finset.sum_congr rfl fun k _ => ?_
  refine congrArg₂ (· * ·) ?_ ?_
  · refine (truncf_apply (ψ := .bf16) _ bitsLt_bf16_f32 _).trans ?_
    refine (maximumf_apply _ _ _).trans ?_
    refine congrArg₂ max ?_ Ideal.ofBits_zero_f32
    refine (addf_apply _ _ _).trans ?_
    refine congrArg₂ (· + ·) ?_ (rowDown7_apply x2 p k)
    refine (mulf_apply _ _ _).trans ?_
    exact congrArg₂ (· * ·) (congrFun (shapeCast_self x0 _) _) (rowDown7_apply x1 p k)
  · exact (truncf_apply (ψ := .bf16) _ bitsLt_bf16_f32 _).trans (congrFun (shapeCast_self x3 _) _)

/-- A column sum over the block's 5000 rows, stored as a row, read at `(0, q)`. -/
theorem colRow7_apply (v : FVec Ideal S5000x128 .f32) (q : Fin 128) :
    shapeCast S1x128 (multiReduction .add [0] S128 v 0x00000000#32 reduces_S5000x128_S128 (.inl rfl) rfl) shapeCasts_S128_S1x128 (ix2 0 q)
      = ∑ p : Fin 5000, v (ix2 p q) := by
  refine (shapeCast_addUnit_apply ![128] _ shapeCasts_S128_S1x128 (ix2 0 q)).trans ?_
  refine (Ideal.multiReduction_add_single v _ reduces_S5000x128_S128 (.inl rfl) rfl _).trans ?_
  refine Finset.sum_congr rfl fun p _ => congrArg v ?_
  funext a
  match a with
  | ⟨0, _⟩ => exact Fin.ext rfl
  | ⟨1, _⟩ => exact Fin.ext rfl

/-- The running sum after a block: what it was, plus the block's column sums. -/
theorem pay5_7_apply (x0 : Vec Ideal S5000x128 .f32) (x1 x2 : Vec Ideal S1x128 .f32) (x3 : Vec Ideal S128x128 .f32)
    (x4 s : Vec Ideal S1x128 .f32) (q : Fin 128) :
    k7_pay5 x0 x1 x2 x3 x4 s (ix2 0 q) = s (ix2 0 q) + ∑ p : Fin 5000, k7_pay4 x0 x1 x2 x3 x4 (ix2 p q) := by
  unfold k7_pay5
  refine (congrFun (shapeCast_self _ _) _).trans ?_
  refine (addf_apply _ _ _).trans ?_
  exact congrArg₂ (· + ·) rfl (colRow7_apply _ q)

/-- The running sum of squares after a block: what it was, plus the column sums of the block's squares. -/
theorem pay1_7_apply (v : FVec Ideal S5000x128 .f32) (s : Vec Ideal S1x128 .f32) (q : Fin 128) :
    k7_pay1 v s (ix2 0 q) = s (ix2 0 q) + ∑ p : Fin 5000, v (ix2 p q) * v (ix2 p q) := by
  unfold k7_pay1
  refine (congrFun (shapeCast_self _ _) _).trans ?_
  refine (addf_apply _ _ _).trans ?_
  refine congrArg₂ (· + ·) rfl ((colRow7_apply _ q).trans ?_)
  exact Finset.sum_congr rfl fun p _ => mulf_apply _ _ _

/-- The two running sums start at zero. -/
theorem pay2_7_apply (q : Fin 128) : (k7_pay2 : FVec Ideal S1x128 .f32) (ix2 0 q) = 0 := by
  unfold k7_pay2
  exact (congrFun (shapeCast_self _ _) _).trans Ideal.ofBits_zero_f32
theorem pay3_7_apply (q : Fin 128) : (k7_pay3 : FVec Ideal S1x128 .f32) (ix2 0 q) = 0 := by
  unfold k7_pay3
  exact (congrFun (shapeCast_self _ _) _).trans Ideal.ofBits_zero_f32

/-! ## Where the blocks sit -/

/-- The index maps, decided over the ten points: the pre-activations and the first result move together along the rows,
    at block `t`; every other window stays at block 0. -/
theorem idx_facts7 : ∀ t : Fin cfg7.N, win7_0.index t (0 : Fin 2) = t.val ∧ win7_0.index t (1 : Fin 2) = 0
    ∧ win7_5.index t (0 : Fin 2) = t.val ∧ win7_5.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_6.index t (0 : Fin 2) = 0 ∧ win7_6.index t (1 : Fin 2) = 0
    ∧ win7_7.index t (0 : Fin 2) = 0 ∧ win7_7.index t (1 : Fin 2) = 0 :=
  (by decide +kernel : ∀ t : Fin grid7.N, _)

theorem N7_val (t : Fin cfg7.N) : t.val < 10 := lt_of_lt_of_eq t.isLt (show cfg7.N = 10 from N_7)

/-- Row `p` of point `t`'s block is row `5000 t + p` of the array. -/
def rowOf7 (t : Fin cfg7.N) (p : Fin 5000) : Fin 50000 :=
  ⟨t.val * 5000 + p.val, by have := N7_val t; have := p.isLt; omega⟩

/-- THE BLOCK OF THE FIRST RESULT at point `t`, entry `(p, q)`: the dense layer at row `5000 t + p`, column `q`. -/
theorem z2blk7_apply (c : Dev nD) (t : Fin cfg7.N) (p : Fin 5000) (q : Fin 128) :
    z2blk7 (F := Ideal) V c t (ix2 p q) = z2of7 V c (rowOf7 t p) q := by
  unfold z2blk7
  obtain ⟨e00, e01, e50, e51, e10, e11, e20, e21, e30, e31, e40, e41, e60, e61, e70, e71⟩ := idx_facts7 t
  refine (pay4_7_apply _ _ _ _ _ p q).trans ?_
  show (∑ k : Fin 128, max (inZ7 V c (((cfg7.win 0).blk t).view.emb (ix2 p k)) * inS7 V c (((cfg7.win 1).blk t).view.emb (ix2 0 k))
        + inT7 V c (((cfg7.win 2).blk t).view.emb (ix2 0 k))) 0 * inW7 V c (((cfg7.win 3).blk t).view.emb (ix2 k q)))
      + inB7 V c (((cfg7.win 4).blk t).view.emb (ix2 0 q))
    = (∑ k : Fin 128, max (inZ7 V c (ix2 (rowOf7 t p) k) * inS7 V c (ix2 0 k) + inT7 V c (ix2 0 k)) 0 * inW7 V c (ix2 k q))
      + inB7 V c (ix2 0 q)
  have h0 : ∀ k : Fin 128, ((cfg7.win 0).blk t).view.emb (ix2 p k) = ix2 (rowOf7 t p) k := fun k => by
    funext a; apply Fin.ext
    match a with
    | ⟨0, _⟩ => show win7_0.index t (0 : Fin 2) * 5000 + 1 * p.val = t.val * 5000 + p.val; omega
    | ⟨1, _⟩ => show win7_0.index t (1 : Fin 2) * 128 + 1 * k.val = k.val; omega
  have h1 : ∀ k : Fin 128, ((cfg7.win 1).blk t).view.emb (ix2 0 k) = ix2 (n0 := 1) (n1 := 128) 0 k := fun k => by
    funext a; apply Fin.ext
    match a with
    | ⟨0, _⟩ => show win7_1.index t (0 : Fin 2) * 1 + 1 * 0 = 0; omega
    | ⟨1, _⟩ => show win7_1.index t (1 : Fin 2) * 128 + 1 * k.val = k.val; omega
  have h2 : ∀ k : Fin 128, ((cfg7.win 2).blk t).view.emb (ix2 0 k) = ix2 (n0 := 1) (n1 := 128) 0 k := fun k => by
    funext a; apply Fin.ext
    match a with
    | ⟨0, _⟩ => show win7_2.index t (0 : Fin 2) * 1 + 1 * 0 = 0; omega
    | ⟨1, _⟩ => show win7_2.index t (1 : Fin 2) * 128 + 1 * k.val = k.val; omega
  have h3 : ∀ k : Fin 128, ((cfg7.win 3).blk t).view.emb (ix2 k q) = ix2 (n0 := 128) (n1 := 128) k q := fun k => by
    funext a; apply Fin.ext
    match a with
    | ⟨0, _⟩ => show win7_3.index t (0 : Fin 2) * 128 + 1 * k.val = k.val; omega
    | ⟨1, _⟩ => show win7_3.index t (1 : Fin 2) * 128 + 1 * q.val = q.val; omega
  have h4 : ((cfg7.win 4).blk t).view.emb (ix2 0 q) = ix2 (n0 := 1) (n1 := 128) 0 q := by
    funext a; apply Fin.ext
    match a with
    | ⟨0, _⟩ => show win7_4.index t (0 : Fin 2) * 1 + 1 * 0 = 0; omega
    | ⟨1, _⟩ => show win7_4.index t (1 : Fin 2) * 128 + 1 * q.val = q.val; omega
  rw [h4]
  refine congrArg₂ (· + ·) (Finset.sum_congr rfl fun k _ => ?_) rfl
  rw [h0 k, h1 k, h2 k, h3 k]

/-! ## The first result -/

/-- The first result as ONE function of the five arrays. -/
def outZ7 (c : Dev nD) : S50000x128.Idx → EReal := fun i => z2of7 V c (i 0) (i 1)

/-- WHAT POINT `t` WRITES BACK is block `t` of `outZ7`. -/
theorem flushed7_5_eq (c : Dev nD) (t : Fin cfg7.N) :
    (dat7 (F := Ideal) V c).flushed 5 t = ((cfg7.win 5).blk t).view.read (Elt Ideal) (outZ7 V c) := by
  show (cfg7.win 5).cut (grid7.coords t) ((dat7 V c).after 5 t) = _
  rw [after7_5]
  obtain ⟨e00, e01, e50, e51, e10, e11, e20, e21, e30, e31, e40, e41, e60, e61, e70, e71⟩ := idx_facts7 t
  funext y
  obtain ⟨p, q, rfl⟩ : ∃ (p : Fin 5000) (q : Fin 128), y = ix2 p q := ⟨y 0, y 1, eq_ix2 y⟩
  refine (z2blk7_apply V c t p q).trans ?_
  show z2of7 V c (rowOf7 t p) q = outZ7 V c (((cfg7.win 5).blk t).view.emb (ix2 p q))
  have h5 : ((cfg7.win 5).blk t).view.emb (ix2 p q) = ix2 (rowOf7 t p) q := by
    funext a; apply Fin.ext
    match a with
    | ⟨0, _⟩ => show win7_5.index t (0 : Fin 2) * 5000 + 1 * p.val = t.val * 5000 + p.val; omega
    | ⟨1, _⟩ => show win7_5.index t (1 : Fin 2) * 128 + 1 * q.val = q.val; omega
  rw [h5]
  rfl

/-- An index of the first result is in point `t`'s block iff each coordinate is in the block's range on its axis. -/
theorem mem_blk7_5 (t : Fin cfg7.N) (i : S50000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole main_v161_0).slice (win7_5.rect t)).set ↔ _
  rw [View.set_slice_whole, Rect.mem_set_unit]
  exact Iff.rfl

/-- Every entry of the first result is in some point's block: row `R` in that of point `R / 5000`. -/
theorem cover7_5 (i : S50000x128.Idx) :
    ∃ t : Fin cfg7.N, (cfg7.win 5).flush t = true ∧ i ∈ ((cfg7.win 5).blk t).view.set := by
  have hi0 : (i 0).val < 50000 := (i 0).isLt
  have hi1 : (i 1).val < 128 := (i 1).isLt
  let t : Fin cfg7.N := ⟨(i 0).val / 5000, by rw [show cfg7.N = 10 from N_7]; omega⟩
  obtain ⟨e00, e01, e50, e51, -⟩ := idx_facts7 t
  have q0 : win7_5.index t (0 : Fin 2) = (i 0).val / 5000 := e50
  refine ⟨t, flush7_5 t, ?_⟩
  rw [mem_blk7_5]
  intro a
  match a with
  | ⟨0, _⟩ => show win7_5.index t (0 : Fin 2) * 5000 ≤ (i 0).val ∧ (i 0).val < win7_5.index t (0 : Fin 2) * 5000 + 5000; omega
  | ⟨1, _⟩ => show win7_5.index t (1 : Fin 2) * 128 ≤ (i 1).val ∧ (i 1).val < win7_5.index t (1 : Fin 2) * 128 + 128; omega

/-- THE FIRST RESULT after the call is the dense layer of the five arrays as the call finds them. -/
theorem final7_5 (c : Dev nD) : (dat7 (F := Ideal) V c).arrAt 5 cfg7.N = outZ7 V c :=
  (dat7 (F := Ideal) V c).arrAt_eq_of_cover 5 _ (fun t _ => flushed7_5_eq V c t) cover7_5

/-- The same, entry by entry. -/
theorem arrAt7_5 (c : Dev nD) (R : Fin 50000) (j : Fin 128) :
    (dat7 (F := Ideal) V c).arrAt 5 cfg7.N (ix2 R j)
      = Cert.Spec.dense2 (fun R k => inZ7 V c (ix2 R k)) (fun k => inS7 V c (ix2 0 k)) (fun k => inT7 V c (ix2 0 k))
          (fun k j => inW7 V c (ix2 k j)) (fun j => inB7 V c (ix2 0 j)) R j := by
  rw [final7_5]; rfl

/-! ## The running sums -/

/-- The running sum after point `n`, at column `q`, as a function of the bare position (zero past the grid). -/
def sumAt7 (c : Dev nD) (q : Fin 128) (n : ℕ) : EReal :=
  if h : n < cfg7.N then sum7 (F := Ideal) V c n h (ix2 0 q) else 0
def sumsqAt7 (c : Dev nD) (q : Fin 128) (n : ℕ) : EReal :=
  if h : n < cfg7.N then sumsq7 (F := Ideal) V c n h (ix2 0 q) else 0

theorem sum7_zero_apply (c : Dev nD) (q : Fin 128) (h : 0 < cfg7.N) :
    sum7 (F := Ideal) V c 0 h (ix2 0 q) = 0 + ∑ p : Fin 5000, z2of7 V c (rowOf7 ⟨0, h⟩ p) q := by
  rw [sum7_first V c ⟨0, h⟩ rfl]
  refine (pay5_7_apply _ _ _ _ _ _ q).trans ?_
  exact congrArg₂ (· + ·) (pay2_7_apply q) (Finset.sum_congr rfl fun p _ => z2blk7_apply V c ⟨0, h⟩ p q)

theorem sum7_succ_apply (c : Dev nD) (q : Fin 128) (n : ℕ) (h : n + 1 < cfg7.N) :
    sum7 (F := Ideal) V c (n + 1) h (ix2 0 q)
      = sum7 (F := Ideal) V c n (Nat.lt_of_succ_lt h) (ix2 0 q) + ∑ p : Fin 5000, z2of7 V c (rowOf7 ⟨n + 1, h⟩ p) q := by
  rw [sum7_next V c ⟨n + 1, h⟩ (Nat.succ_ne_zero n)]
  refine (pay5_7_apply _ _ _ _ _ _ q).trans ?_
  exact congrArg₂ (· + ·) rfl (Finset.sum_congr rfl fun p _ => z2blk7_apply V c ⟨n + 1, h⟩ p q)

theorem sumsq7_zero_apply (c : Dev nD) (q : Fin 128) (h : 0 < cfg7.N) :
    sumsq7 (F := Ideal) V c 0 h (ix2 0 q)
      = 0 + ∑ p : Fin 5000, z2of7 V c (rowOf7 ⟨0, h⟩ p) q * z2of7 V c (rowOf7 ⟨0, h⟩ p) q := by
  rw [sumsq7_first V c ⟨0, h⟩ rfl]
  refine (pay1_7_apply _ _ q).trans ?_
  exact congrArg₂ (· + ·) (pay3_7_apply q) (Finset.sum_congr rfl fun p _ => by rw [z2blk7_apply V c ⟨0, h⟩ p q])

theorem sumsq7_succ_apply (c : Dev nD) (q : Fin 128) (n : ℕ) (h : n + 1 < cfg7.N) :
    sumsq7 (F := Ideal) V c (n + 1) h (ix2 0 q)
      = sumsq7 (F := Ideal) V c n (Nat.lt_of_succ_lt h) (ix2 0 q)
        + ∑ p : Fin 5000, z2of7 V c (rowOf7 ⟨n + 1, h⟩ p) q * z2of7 V c (rowOf7 ⟨n + 1, h⟩ p) q := by
  rw [sumsq7_next V c ⟨n + 1, h⟩ (Nat.succ_ne_zero n)]
  refine (pay1_7_apply _ _ q).trans ?_
  exact congrArg₂ (· + ·) rfl (Finset.sum_congr rfl fun p _ => by rw [z2blk7_apply V c ⟨n + 1, h⟩ p q])

/-- AFTER THE LAST POINT the running sum at column `q` is the sum of column `q` of the dense layer over all rows. -/
theorem sum7_last (c : Dev nD) (q : Fin 128) (h : 9 < cfg7.N) :
    sum7 (F := Ideal) V c 9 h (ix2 0 q) = ∑ R : Fin 50000, z2of7 V c R q := by
  have hN : cfg7.N = 10 := N_7
  have key := Cert.LibAccBlocks.acc_blocks 10 5000 (fun R : Fin (10 * 5000) => z2of7 V c R q) 0
    (fun m => match m with | 0 => 0 | m + 1 => sumAt7 V c q m) rfl (fun j hj => by
      have hj' : j < cfg7.N := by omega
      show sumAt7 V c q j = _
      unfold sumAt7
      rw [dif_pos hj']
      cases j with
      | zero => exact sum7_zero_apply V c q hj'
      | succ j =>
        show _ = sumAt7 V c q j + _
        unfold sumAt7
        rw [dif_pos (Nat.lt_of_succ_lt hj')]
        exact sum7_succ_apply V c q j hj')
  have e : sumAt7 V c q 9 = sum7 (F := Ideal) V c 9 h (ix2 0 q) := by unfold sumAt7; rw [dif_pos h]
  rw [← e]
  exact key.trans (zero_add _)

theorem sumsq7_last (c : Dev nD) (q : Fin 128) (h : 9 < cfg7.N) :
    sumsq7 (F := Ideal) V c 9 h (ix2 0 q) = ∑ R : Fin 50000, z2of7 V c R q * z2of7 V c R q := by
  have hN : cfg7.N = 10 := N_7
  have key := Cert.LibAccBlocks.acc_blocks 10 5000 (fun R : Fin (10 * 5000) => z2of7 V c R q * z2of7 V c R q) 0
    (fun m => match m with | 0 => 0 | m + 1 => sumsqAt7 V c q m) rfl (fun j hj => by
      have hj' : j < cfg7.N := by omega
      show sumsqAt7 V c q j = _
      unfold sumsqAt7
      rw [dif_pos hj']
      cases j with
      | zero => exact sumsq7_zero_apply V c q hj'
      | succ j =>
        show _ = sumsqAt7 V c q j + _
        unfold sumsqAt7
        rw [dif_pos (Nat.lt_of_succ_lt hj')]
        exact sumsq7_succ_apply V c q j hj')
  have e : sumsqAt7 V c q 9 = sumsq7 (F := Ideal) V c 9 h (ix2 0 q) := by unfold sumsqAt7; rw [dif_pos h]
  rw [← e]
  exact key.trans (zero_add _)

/-- The same at the last point, however it is named. -/
theorem sum7_last_at (c : Dev nD) (q : Fin 128) (t : Fin cfg7.N) (h9 : t.val = 9) :
    sum7 (F := Ideal) V c t.val t.isLt (ix2 0 q) = ∑ R : Fin 50000, z2of7 V c R q := by
  obtain ⟨n, hn⟩ := t
  obtain rfl : n = 9 := h9
  exact sum7_last V c q hn
theorem sumsq7_last_at (c : Dev nD) (q : Fin 128) (t : Fin cfg7.N) (h9 : t.val = 9) :
    sumsq7 (F := Ideal) V c t.val t.isLt (ix2 0 q) = ∑ R : Fin 50000, z2of7 V c R q * z2of7 V c R q := by
  obtain ⟨n, hn⟩ := t
  obtain rfl : n = 9 := h9
  exact sumsq7_last V c q hn

/-! ## The second and third results -/

/-- The column sums and the column sums of squares as rows. -/
def outS7 (c : Dev nD) : S1x128.Idx → EReal := fun i => Cert.Spec.colSum (z2of7 V c) (i 1)
def outQ7 (c : Dev nD) : S1x128.Idx → EReal := fun i => Cert.Spec.colSumSq (z2of7 V c) (i 1)

/-- Only the last point writes the sums back. -/
theorem last_of_flush7_6 (t : Fin cfg7.N) (hf : (cfg7.win 6).flush t = true) : t.val = 9 := by
  have := (flush7_6 t).mp hf; have := N7_val t; omega
theorem last_of_flush7_7 (t : Fin cfg7.N) (hf : (cfg7.win 7).flush t = true) : t.val = 9 := by
  have := (flush7_7 t).mp hf; have := N7_val t; omega

/-- WHAT THE LAST POINT WRITES BACK into the second result is the row of column sums. -/
theorem flushed7_6_eq (c : Dev nD) (t : Fin cfg7.N) (hf : (cfg7.win 6).flush t = true) :
    (dat7 (F := Ideal) V c).flushed 6 t = ((cfg7.win 6).blk t).view.read (Elt Ideal) (outS7 V c) := by
  have h9 := last_of_flush7_6 t hf
  show (cfg7.win 6).cut (grid7.coords t) ((dat7 V c).after 6 t) = _
  rw [after7_6]
  obtain ⟨e00, e01, e50, e51, e10, e11, e20, e21, e30, e31, e40, e41, e60, e61, e70, e71⟩ := idx_facts7 t
  funext y
  obtain ⟨p, q, rfl⟩ : ∃ (p : Fin 1) (q : Fin 128), y = ix2 p q := ⟨y 0, y 1, eq_ix2 y⟩
  obtain rfl : p = 0 := Subsingleton.elim _ _
  have h6 : ((cfg7.win 6).blk t).view.emb (ix2 0 q) = ix2 (n0 := 1) (n1 := 128) 0 q := by
    funext a; apply Fin.ext
    match a with
    | ⟨0, _⟩ => show win7_6.index t (0 : Fin 2) * 1 + 1 * 0 = 0; omega
    | ⟨1, _⟩ => show win7_6.index t (1 : Fin 2) * 128 + 1 * q.val = q.val; omega
  have hrd : ∀ G : S1x128.Idx → EReal,
      ((cfg7.win 6).blk t).view.read (Elt Ideal) G (ix2 0 q) = G (ix2 (n0 := 1) (n1 := 128) 0 q) := fun G => by
    show G (((cfg7.win 6).blk t).view.emb (ix2 0 q)) = _
    rw [h6]
  rw [hrd]
  refine (sum7_last_at V c q t h9).trans ?_
  rfl

theorem flushed7_7_eq (c : Dev nD) (t : Fin cfg7.N) (hf : (cfg7.win 7).flush t = true) :
    (dat7 (F := Ideal) V c).flushed 7 t = ((cfg7.win 7).blk t).view.read (Elt Ideal) (outQ7 V c) := by
  have h9 := last_of_flush7_7 t hf
  show (cfg7.win 7).cut (grid7.coords t) ((dat7 V c).after 7 t) = _
  rw [after7_7]
  obtain ⟨e00, e01, e50, e51, e10, e11, e20, e21, e30, e31, e40, e41, e60, e61, e70, e71⟩ := idx_facts7 t
  funext y
  obtain ⟨p, q, rfl⟩ : ∃ (p : Fin 1) (q : Fin 128), y = ix2 p q := ⟨y 0, y 1, eq_ix2 y⟩
  obtain rfl : p = 0 := Subsingleton.elim _ _
  have h7 : ((cfg7.win 7).blk t).view.emb (ix2 0 q) = ix2 (n0 := 1) (n1 := 128) 0 q := by
    funext a; apply Fin.ext
    match a with
    | ⟨0, _⟩ => show win7_7.index t (0 : Fin 2) * 1 + 1 * 0 = 0; omega
    | ⟨1, _⟩ => show win7_7.index t (1 : Fin 2) * 128 + 1 * q.val = q.val; omega
  have hrd : ∀ G : S1x128.Idx → EReal,
      ((cfg7.win 7).blk t).view.read (Elt Ideal) G (ix2 0 q) = G (ix2 (n0 := 1) (n1 := 128) 0 q) := fun G => by
    show G (((cfg7.win 7).blk t).view.emb (ix2 0 q)) = _
    rw [h7]
  rw [hrd]
  refine (sumsq7_last_at V c q t h9).trans ?_
  rfl

theorem mem_blk7_6 (t : Fin cfg7.N) (i : S1x128.Idx) :
    i ∈ ((cfg7.win 6).blk t).view.set ↔ ∀ a : Fin 2, win7_6.index t a * S1x128.size a ≤ (i a).val ∧ (i a).val < win7_6.index t a * S1x128.size a + S1x128.size a := by
  show i ∈ ((View.whole main_v161_1).slice (win7_6.rect t)).set ↔ _
  rw [View.set_slice_whole, Rect.mem_set_unit]
  exact Iff.rfl
theorem mem_blk7_7 (t : Fin cfg7.N) (i : S1x128.Idx) :
    i ∈ ((cfg7.win 7).blk t).view.set ↔ ∀ a : Fin 2, win7_7.index t a * S1x128.size a ≤ (i a).val ∧ (i a).val < win7_7.index t a * S1x128.size a + S1x128.size a := by
  show i ∈ ((View.whole main_v161_2).slice (win7_7.rect t)).set ↔ _
  rw [View.set_slice_whole, Rect.mem_set_unit]
  exact Iff.rfl

/-- The last point's block is the whole row. -/
theorem cover7_6 (i : S1x128.Idx) :
    ∃ t : Fin cfg7.N, (cfg7.win 6).flush t = true ∧ i ∈ ((cfg7.win 6).blk t).view.set := by
  have hi0 : (i 0).val < 1 := (i 0).isLt
  have hi1 : (i 1).val < 128 := (i 1).isLt
  obtain ⟨e00, e01, e50, e51, e10, e11, e20, e21, e30, e31, e40, e41, e60, e61, e70, e71⟩ := idx_facts7 t7_9
  refine ⟨t7_9, (flush7_6 t7_9).mpr rfl, ?_⟩
  rw [mem_blk7_6]
  intro a
  match a with
  | ⟨0, _⟩ => show win7_6.index t7_9 (0 : Fin 2) * 1 ≤ (i 0).val ∧ (i 0).val < win7_6.index t7_9 (0 : Fin 2) * 1 + 1; omega
  | ⟨1, _⟩ => show win7_6.index t7_9 (1 : Fin 2) * 128 ≤ (i 1).val ∧ (i 1).val < win7_6.index t7_9 (1 : Fin 2) * 128 + 128; omega
theorem cover7_7 (i : S1x128.Idx) :
    ∃ t : Fin cfg7.N, (cfg7.win 7).flush t = true ∧ i ∈ ((cfg7.win 7).blk t).view.set := by
  have hi0 : (i 0).val < 1 := (i 0).isLt
  have hi1 : (i 1).val < 128 := (i 1).isLt
  obtain ⟨e00, e01, e50, e51, e10, e11, e20, e21, e30, e31, e40, e41, e60, e61, e70, e71⟩ := idx_facts7 t7_9
  refine ⟨t7_9, (flush7_7 t7_9).mpr rfl, ?_⟩
  rw [mem_blk7_7]
  intro a
  match a with
  | ⟨0, _⟩ => show win7_7.index t7_9 (0 : Fin 2) * 1 ≤ (i 0).val ∧ (i 0).val < win7_7.index t7_9 (0 : Fin 2) * 1 + 1; omega
  | ⟨1, _⟩ => show win7_7.index t7_9 (1 : Fin 2) * 128 ≤ (i 1).val ∧ (i 1).val < win7_7.index t7_9 (1 : Fin 2) * 128 + 128; omega

/-- THE SECOND RESULT after the call is the row of column sums of the dense layer, -/
theorem final7_6 (c : Dev nD) : (dat7 (F := Ideal) V c).arrAt 6 cfg7.N = outS7 V c :=
  (dat7 (F := Ideal) V c).arrAt_eq_of_cover 6 _ (fun t hf => flushed7_6_eq V c t hf) cover7_6
/-- and the third the row of column sums of its squares. -/
theorem final7_7 (c : Dev nD) : (dat7 (F := Ideal) V c).arrAt 7 cfg7.N = outQ7 V c :=
  (dat7 (F := Ideal) V c).arrAt_eq_of_cover 7 _ (fun t hf => flushed7_7_eq V c t hf) cover7_7

/-- The same, entry by entry. -/
theorem arrAt7_6 (c : Dev nD) (j : Fin 128) :
    (dat7 (F := Ideal) V c).arrAt 6 cfg7.N (ix2 0 j)
      = Cert.Spec.colSum (Cert.Spec.dense2 (fun R k => inZ7 V c (ix2 R k)) (fun k => inS7 V c (ix2 0 k)) (fun k => inT7 V c (ix2 0 k))
          (fun k j => inW7 V c (ix2 k j)) (fun j => inB7 V c (ix2 0 j))) j := by
  rw [final7_6]; rfl
theorem arrAt7_7 (c : Dev nD) (j : Fin 128) :
    (dat7 (F := Ideal) V c).arrAt 7 cfg7.N (ix2 0 j)
      = Cert.Spec.colSumSq (Cert.Spec.dense2 (fun R k => inZ7 V c (ix2 R k)) (fun k => inS7 V c (ix2 0 k)) (fun k => inT7 V c (ix2 0 k))
          (fun k j => inW7 V c (ix2 k j)) (fun j => inB7 V c (ix2 0 j))) j := by
  rw [final7_7]; rfl

/-- The five input arrays end as the call found them: an input window is never written back. -/
theorem arrAt7_0 (c : Dev nD) : (dat7 (F := Ideal) V c).arrAt 0 cfg7.N = V c (Pipeline.arrRef spec7 0) :=
  ((dat7 (F := Ideal) V c).arrAt_in 0 rfl _).trans (A_eq7 V c 0)
theorem arrAt7_1 (c : Dev nD) : (dat7 (F := Ideal) V c).arrAt 1 cfg7.N = V c (Pipeline.arrRef spec7 1) :=
  ((dat7 (F := Ideal) V c).arrAt_in 1 rfl _).trans (A_eq7 V c 1)
theorem arrAt7_2 (c : Dev nD) : (dat7 (F := Ideal) V c).arrAt 2 cfg7.N = V c (Pipeline.arrRef spec7 2) :=
  ((dat7 (F := Ideal) V c).arrAt_in 2 rfl _).trans (A_eq7 V c 2)
theorem arrAt7_3 (c : Dev nD) : (dat7 (F := Ideal) V c).arrAt 3 cfg7.N = V c (Pipeline.arrRef spec7 3) :=
  ((dat7 (F := Ideal) V c).arrAt_in 3 rfl _).trans (A_eq7 V c 3)
theorem arrAt7_4 (c : Dev nD) : (dat7 (F := Ideal) V c).arrAt 4 cfg7.N = V c (Pipeline.arrRef spec7 4) :=
  ((dat7 (F := Ideal) V c).arrAt_in 4 rfl _).trans (A_eq7 V c 4)

end Cert.KernelIdeal.Hand

end
-- ==== Proof.KI.C8Val.lean ====
import proofs.«102976_j3633542332749_1_alg».proof.Proof.KI.C8
import Idealize.ShloMosaic.Lib.Pipeline.Value
import Idealize.ShloMosaic.Lib.ValueIdx
import Idealize.ShloMosaic.PureOps.Ideal.Laws

/-! # The normalise-and-rectify call number 8: the array it leaves, entry by entry

Read on the extended reals. Entry `(R, j)` of the result is `max (Z (R, j) * S (0, j) + T (0, j)) 0`, where `Z` is the
50000 by 128 array, `S` the row of scales and `T` the row of shifts as the call finds them: grid point `t` writes rows
`5000 t … 5000 t + 4999`, computed from the same rows of `Z` and from the two rows, and row `R` belongs to point
`R / 5000`. The three input arrays end as they were. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The result as ONE function of the three arrays: scale and shift column by column, then the maximum with zero. -/
def relu8 (Z : S50000x128.Idx → EReal) (S T : S1x128.Idx → EReal) : S50000x128.Idx → EReal :=
  fun i => max (Z i * S (ix2 (n0 := 1) (n1 := 128) 0 (i 1)) + T (ix2 (n0 := 1) (n1 := 128) 0 (i 1))) 0

/-- The array of pre-activations as the call finds it, -/
abbrev inZ8 (c : Dev nD) : S50000x128.Idx → EReal := V c (Pipeline.arrRef spec8 0)
/-- the row of scales, -/
abbrev inS8 (c : Dev nD) : S1x128.Idx → EReal := V c (Pipeline.arrRef spec8 1)
/-- and the row of shifts. -/
abbrev inT8 (c : Dev nD) : S1x128.Idx → EReal := V c (Pipeline.arrRef spec8 2)

theorem hz8 : (![0, 0] : Fin 2 → Nat) = fun _ => 0 := funext fun a => by fin_cases a <;> rfl

/-- A row repeated down the block, read at `(p, q)`, is the row at `(0, q)`. -/
theorem rowDown8_apply (x : Vec Ideal S1x128 .f32) (p : Fin 5000) (q : Fin 128) :
    broadcastTo S5000x128 (shapeCast S1x128 x shapeCasts_S1x128_S1x128) broadcasts_S1x128_S5000x128 (ix2 p q) = x (ix2 0 q) := by
  rw [shapeCast_self]
  exact broadcastTo_apply x _ (ix2 p q) (ix2 0 q) fun a => by
    match a with
    | ⟨0, _⟩ => rfl
    | ⟨1, _⟩ => rfl

/-- The body's stored value at `(p, q)`: `max (z (p, q) * s (0, q) + b (0, q)) 0`. -/
theorem pay8_apply (x0 : Vec Ideal S5000x128 .f32) (x1 x2 : Vec Ideal S1x128 .f32) (p : Fin 5000) (q : Fin 128) :
    k8_pay1 x0 x1 x2 (ix2 p q) = max (x0 (ix2 p q) * x1 (ix2 0 q) + x2 (ix2 0 q)) 0 := by
  unfold k8_pay1
  refine (maximumf_apply _ _ _).trans ?_
  refine congrArg₂ max ?_ Ideal.ofBits_zero_f32
  refine (addf_apply _ _ _).trans ?_
  refine congrArg₂ (· + ·) ?_ (rowDown8_apply x2 p q)
  refine (mulf_apply _ _ _).trans ?_
  exact congrArg₂ (· * ·) (congrFun (shapeCast_self x0 _) _) (rowDown8_apply x1 p q)

/-- The index maps, decided over the ten points: the row block and the result move together along the rows, at block
    `t`; every window sits at column block 0; the two rows never move. -/
theorem idx_facts8 : ∀ t : Fin cfg8.N, win8_0.index t (0 : Fin 2) = win8_3.index t (0 : Fin 2)
    ∧ win8_0.index t (1 : Fin 2) = 0 ∧ win8_3.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) ≤ 9 :=
  (by decide +kernel : ∀ t : Fin grid8.N, _)

/-- Every row block is some point's. -/
theorem idx_onto8 : ∀ (q0 : Fin 10), ∃ t : Fin cfg8.N, win8_3.index t = ![q0.val, 0] :=
  (by decide +kernel : ∀ (q0 : Fin 10), ∃ t : Fin grid8.N, win8_3.index t = ![q0.val, 0])

/-- WHAT POINT `t` WRITES BACK is block `t` of `relu8` of the three arrays as the call finds them. -/
theorem flushed8_3_eq (c : Dev nD) (t : Fin cfg8.N) :
    (dat8 (F := Ideal) V c).flushed 3 t
      = ((cfg8.win 3).blk t).view.read (Elt Ideal) (relu8 (inZ8 V c) (inS8 V c) (inT8 V c)) := by
  show (cfg8.win 3).cut (grid8.coords t) ((dat8 V c).after 3 t) = _
  rw [after8_3]
  unfold out8_3
  rw [View.canon_unit_zero hz8]
  simp only [View.ld_unit_zero (S := S5000x128) hz8, View.ld_unit_zero (S := S1x128) hz8]
  obtain ⟨e0, e1, e2, e3, e4, e5, e6, e7⟩ := idx_facts8 t
  funext y
  obtain ⟨p, q, rfl⟩ : ∃ (p : Fin 5000) (q : Fin 128), y = ix2 p q := ⟨y 0, y 1, eq_ix2 y⟩
  refine (pay8_apply _ _ _ p q).trans ?_
  show max (inZ8 V c (((cfg8.win 0).blk t).view.emb (ix2 p q)) * inS8 V c (((cfg8.win 1).blk t).view.emb (ix2 0 q))
      + inT8 V c (((cfg8.win 2).blk t).view.emb (ix2 0 q))) 0
    = relu8 (inZ8 V c) (inS8 V c) (inT8 V c) (((cfg8.win 3).blk t).view.emb (ix2 p q))
  have h0 : ((cfg8.win 0).blk t).view.emb (ix2 p q) = ((cfg8.win 3).blk t).view.emb (ix2 p q) := by
    funext a; apply Fin.ext
    match a with
    | ⟨0, _⟩ => show win8_0.index t (0 : Fin 2) * 5000 + 1 * p.val = win8_3.index t (0 : Fin 2) * 5000 + 1 * p.val; omega
    | ⟨1, _⟩ => show win8_0.index t (1 : Fin 2) * 128 + 1 * q.val = win8_3.index t (1 : Fin 2) * 128 + 1 * q.val; omega
  have h1 : ((cfg8.win 1).blk t).view.emb (ix2 0 q)
      = ix2 (n0 := 1) (n1 := 128) 0 ((((cfg8.win 3).blk t).view.emb (ix2 p q)) 1) := by
    funext a; apply Fin.ext
    match a with
    | ⟨0, _⟩ => show win8_1.index t (0 : Fin 2) * 1 + 1 * 0 = 0; omega
    | ⟨1, _⟩ => show win8_1.index t (1 : Fin 2) * 128 + 1 * q.val = win8_3.index t (1 : Fin 2) * 128 + 1 * q.val; omega
  have h2 : ((cfg8.win 2).blk t).view.emb (ix2 0 q)
      = ix2 (n0 := 1) (n1 := 128) 0 ((((cfg8.win 3).blk t).view.emb (ix2 p q)) 1) := by
    funext a; apply Fin.ext
    match a with
    | ⟨0, _⟩ => show win8_2.index t (0 : Fin 2) * 1 + 1 * 0 = 0; omega
    | ⟨1, _⟩ => show win8_2.index t (1 : Fin 2) * 128 + 1 * q.val = win8_3.index t (1 : Fin 2) * 128 + 1 * q.val; omega
  rw [h0, h1, h2]
  rfl

/-- An index of the array is in point `t`'s block iff each coordinate is in the block's range on its axis. -/
theorem mem_blk8_3 (t : Fin cfg8.N) (i : S50000x128.Idx) :
    i ∈ ((cfg8.win 3).blk t).view.set ↔ ∀ a : Fin 2, win8_3.index t a * S5000x128.size a ≤ (i a).val ∧ (i a).val < win8_3.index t a * S5000x128.size a + S5000x128.size a := by
  show i ∈ ((View.whole main_v180).slice (win8_3.rect t)).set ↔ _
  rw [View.set_slice_whole, Rect.mem_set_unit]
  exact Iff.rfl

/-- Every entry of the result is in some point's block: row `R` in that of point `R / 5000`. -/
theorem cover8_arr (i : S50000x128.Idx) :
    ∃ t : Fin cfg8.N, (cfg8.win 3).flush t = true ∧ i ∈ ((cfg8.win 3).blk t).view.set := by
  have hi0 : (i 0).val < 50000 := (i 0).isLt
  have hi1 : (i 1).val < 128 := (i 1).isLt
  obtain ⟨t, ht⟩ := idx_onto8 ⟨(i 0).val / 5000, by omega⟩
  have q0 : win8_3.index t (0 : Fin 2) = (i 0).val / 5000 := congrFun ht 0
  have q1 : win8_3.index t (1 : Fin 2) = 0 := congrFun ht 1
  refine ⟨t, flush8_3 t, ?_⟩
  rw [mem_blk8_3]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 128 ≤ (i 1).val ∧ (i 1).val < win8_3.index t (1 : Fin 2) * 128 + 128; omega

/-- THE RESULT ARRAY after the call is `relu8` of the three arrays as the call finds them. -/
theorem final8_3 (c : Dev nD) :
    (dat8 (F := Ideal) V c).arrAt 3 cfg8.N = relu8 (inZ8 V c) (inS8 V c) (inT8 V c) :=
  (dat8 (F := Ideal) V c).arrAt_eq_of_cover 3 _ (fun t _ => flushed8_3_eq V c t) cover8_arr

/-- The same, entry by entry: `max (Z (R, j) * S (0, j) + T (0, j)) 0`. -/
theorem arrAt8_3 (c : Dev nD) (R : Fin 50000) (j : Fin 128) :
    (dat8 (F := Ideal) V c).arrAt 3 cfg8.N (ix2 R j)
      = max (inZ8 V c (ix2 R j) * inS8 V c (ix2 0 j) + inT8 V c (ix2 0 j)) 0 := by
  rw [final8_3]; rfl

/-- The three input arrays end as the call found them: an input window is never written back. -/
theorem arrAt8_0 (c : Dev nD) : (dat8 (F := Ideal) V c).arrAt 0 cfg8.N = V c (Pipeline.arrRef spec8 0) :=
  ((dat8 (F := Ideal) V c).arrAt_in 0 rfl _).trans (A_eq8 V c 0)
theorem arrAt8_1 (c : Dev nD) : (dat8 (F := Ideal) V c).arrAt 1 cfg8.N = V c (Pipeline.arrRef spec8 1) :=
  ((dat8 (F := Ideal) V c).arrAt_in 1 rfl _).trans (A_eq8 V c 1)
theorem arrAt8_2 (c : Dev nD) : (dat8 (F := Ideal) V c).arrAt 2 cfg8.N = V c (Pipeline.arrRef spec8 2) :=
  ((dat8 (F := Ideal) V c).arrAt_in 2 rfl _).trans (A_eq8 V c 2)

end Cert.KernelIdeal.Hand
-- ==== Proof.KI.Layer2.lean ====
/-
  Layer 2 of the kernel program, read through its three kernel regions and the host stretches between them: the
  first kernel's output is the first dense layer of the input activations plus their neighbour sums, with its column
  sums and sums of squares; the host folds them into a scale and a shift per column; the second kernel's output is the
  second dense layer of the rectified affine image, again with its column statistics; the third kernel applies the
  second folded scale and shift and the rectifier. Together: the folded arrangement of the layer.
-/
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102976_j3633542332749_1_alg».proof.Proof.KI.Params
import proofs.«102976_j3633542332749_1_alg».proof.Proof.KI.Stages
import proofs.«102976_j3633542332749_1_alg».proof.Proof.KI.A6Val
import proofs.«102976_j3633542332749_1_alg».proof.Proof.KI.B7Val
import proofs.«102976_j3633542332749_1_alg».proof.Proof.KI.C8Val
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

local notation "N₀" => Ideal.ofBits FTy.f32 0x47435000#32
local notation "E₀" => Ideal.ofBits FTy.f32 0x3727C5AC#32

variable (m : (ℓ : Loc nD τ sig) → Buf (Elt Ideal) ℓ) (ρ : Dev nD → PrngReg)

/-! ## Layer 2 -/

/-- The layer's input activations, as the kernel region finds them. -/
def act2 (c : Dev nD) : Fin 50000 → Fin 128 → EReal := fun R k => (W12 m ρ c (Proc.devRef .tc main_v121) : S50000x128.Idx → EReal) (ix2 R k)
/-- The neighbour sums of the layer's input. -/
def nbr2 (c : Dev nD) : Fin 50000 → Fin 128 → EReal := fun R k => (aggOf (F := Ideal) (W12 m ρ c (Proc.devRef .tc main_v121)) (srcCol m c) (dstCol m c) : S50000x128.Idx → EReal) (ix2 R k)

theorem featA6_eq (c : Dev nD) : featA6 (V13 m ρ) c = act2 m ρ c := by
  funext R k
  exact congrFun (h_after6 (W12 m ρ c)) (ix2 R k)
theorem aggA6_eq (c : Dev nD) : aggA6 (V13 m ρ) c = nbr2 m ρ c := by
  funext R k
  refine (congrFun (agg_after6 (W12 m ρ c)) (ix2 R k)).trans ?_
  show (aggOf (F := Ideal) _ (srcColOf (W12 m ρ c (Proc.devRef .tc main_v1))) (dstColOf (W12 m ρ c (Proc.devRef .tc main_v3))) : S50000x128.Idx → EReal) (ix2 R k) = _
  rw [show (W12 m ρ c (Proc.devRef .tc main_v1) : IVec S600000 32) = edgeRow (m ((c : Thread nD τ).loc main_arg1)) 0 slices_S2x600000_S1x600000_0_0 from ((W12_src m ρ c).trans (src_after0 (W0 m ρ c))),
    show (W12 m ρ c (Proc.devRef .tc main_v3) : IVec S600000 32) = edgeRow (m ((c : Thread nD τ).loc main_arg1)) 1 slices_S2x600000_S1x600000_1_0 from ((W12_dst m ρ c).trans (dst_after0 (W0 m ρ c)))]
  rfl
theorem wA6_eq (c : Dev nD) : wA6 (V13 m ρ) c = w1At m c 2 := by
  funext k j
  refine (congrFun (weight_after6 (W12 m ρ c)) (ix2 k j)).trans ?_
  refine (matOf_apply _ _ _ 2 k j rfl rfl rfl).trans ?_
  exact congrFun (W12_arg m ρ c main_arg3 (by decide)) (ix3 2 k j)
theorem bA6_eq (c : Dev nD) : bA6 (V13 m ρ) c = b1At m c 2 := by
  funext j
  refine (congrFun (bias_after6 (W12 m ρ c)) (ix2 0 j)).trans ?_
  refine (rowOf_apply _ _ _ 2 j rfl rfl).trans ?_
  exact congrFun (W12_arg m ρ c main_arg4 (by decide)) (ix2 2 j)

/-- The first dense layer's output, as the first kernel leaves it. -/
def pre1_2 (c : Dev nD) : Fin 50000 → Fin 128 → EReal := Cert.Spec.dense1 (act2 m ρ c) (nbr2 m ρ c) (w1At m c 2) (b1At m c 2)

theorem z1_2 (c : Dev nD) (R : Fin 50000) (k : Fin 128) : (W14 m ρ c (Proc.devRef .tc main_v137_0) : S50000x128.Idx → EReal) (ix2 R k) = pre1_2 m ρ c R k := by
  refine (congrFun (W14_arr m ρ c 4) (ix2 R k)).trans ?_
  refine (z_final6 (V13 m ρ) c R k).trans ?_
  rw [featA6_eq, aggA6_eq, wA6_eq, bA6_eq]; rfl
theorem s1_2 (c : Dev nD) (k : Fin 128) : (W14 m ρ c (Proc.devRef .tc main_v137_1) : S1x128.Idx → EReal) (ix2 0 k) = Cert.Spec.colSum (pre1_2 m ρ c) k := by
  refine (congrFun (W14_arr m ρ c 5) (ix2 0 k)).trans ?_
  refine (sum_final6 (V13 m ρ) c k).trans ?_
  rw [featA6_eq, aggA6_eq, wA6_eq, bA6_eq]; rfl
theorem q1_2 (c : Dev nD) (k : Fin 128) : (W14 m ρ c (Proc.devRef .tc main_v137_2) : S1x128.Idx → EReal) (ix2 0 k) = Cert.Spec.colSumSq (pre1_2 m ρ c) k := by
  refine (congrFun (W14_arr m ρ c 6) (ix2 0 k)).trans ?_
  refine (sq_final6 (V13 m ρ) c k).trans ?_
  rw [featA6_eq, aggA6_eq, wA6_eq, bA6_eq]; rfl

/-- What the second kernel reads: the first dense layer's output, the folded scale and shift, the second weights. -/
theorem inZ7_eq (c : Dev nD) (R : Fin 50000) (k : Fin 128) : inZ7 (V15 m ρ) c (ix2 R k) = pre1_2 m ρ c R k :=
  (congrFun (z_after7 (W14 m ρ c)) (ix2 R k)).trans (z1_2 m ρ c R k)
theorem inS7_eq (c : Dev nD) (k : Fin 128) : inS7 (V15 m ρ) c (ix2 0 k) = Cert.Spec.scaleF (pre1_2 m ρ c) (gmAt m c 2) N₀ E₀ k := by
  refine (congrFun (scale_after7 (W14 m ρ c)) (ix2 0 k)).trans ?_
  rw [scaleOf_apply, rowOf_apply _ _ _ 2 k rfl rfl, s1_2, q1_2]
  rw [show (W14 m ρ c (Proc.devRef .tc main_arg7) : S4x128.Idx → EReal) (ix2 2 k) = gmAt m c 2 k from congrFun (W14_arg m ρ c main_arg7 (by decide)) (ix2 2 k)]
  rfl
theorem inT7_eq (c : Dev nD) (k : Fin 128) : inT7 (V15 m ρ) c (ix2 0 k) = Cert.Spec.shiftF (pre1_2 m ρ c) (gmAt m c 2) (bmAt m c 2) N₀ E₀ k := by
  refine (congrFun (shift_after7 (W14 m ρ c)) (ix2 0 k)).trans ?_
  rw [shiftOf_apply, rowOf_apply _ _ _ 2 k rfl rfl, rowOf_apply _ _ _ 2 k rfl rfl, s1_2, q1_2]
  rw [show (W14 m ρ c (Proc.devRef .tc main_arg7) : S4x128.Idx → EReal) (ix2 2 k) = gmAt m c 2 k from congrFun (W14_arg m ρ c main_arg7 (by decide)) (ix2 2 k),
    show (W14 m ρ c (Proc.devRef .tc main_arg8) : S4x128.Idx → EReal) (ix2 2 k) = bmAt m c 2 k from congrFun (W14_arg m ρ c main_arg8 (by decide)) (ix2 2 k)]
  rfl
theorem inW7_eq (c : Dev nD) (k j : Fin 128) : inW7 (V15 m ρ) c (ix2 k j) = w2At m c 2 k j := by
  refine (congrFun (weight_after7 (W14 m ρ c)) (ix2 k j)).trans ?_
  refine (matOf_apply _ _ _ 2 k j rfl rfl rfl).trans ?_
  exact congrFun (W14_arg m ρ c main_arg5 (by decide)) (ix3 2 k j)
theorem inB7_eq (c : Dev nD) (j : Fin 128) : inB7 (V15 m ρ) c (ix2 0 j) = b2At m c 2 j := by
  refine (congrFun (bias_after7 (W14 m ρ c)) (ix2 0 j)).trans ?_
  refine (rowOf_apply _ _ _ 2 j rfl rfl).trans ?_
  exact congrFun (W14_arg m ρ c main_arg6 (by decide)) (ix2 2 j)

/-- The second dense layer's output, as the second kernel leaves it. -/
def pre2_2 (c : Dev nD) : Fin 50000 → Fin 128 → EReal :=
  Cert.Spec.dense2 (pre1_2 m ρ c) (Cert.Spec.scaleF (pre1_2 m ρ c) (gmAt m c 2) N₀ E₀) (Cert.Spec.shiftF (pre1_2 m ρ c) (gmAt m c 2) (bmAt m c 2) N₀ E₀) (w2At m c 2) (b2At m c 2)

theorem dense2_args_2 (c : Dev nD) :
    Cert.Spec.dense2 (fun R k => inZ7 (V15 m ρ) c (ix2 R k)) (fun k => inS7 (V15 m ρ) c (ix2 0 k)) (fun k => inT7 (V15 m ρ) c (ix2 0 k))
      (fun k j => inW7 (V15 m ρ) c (ix2 k j)) (fun j => inB7 (V15 m ρ) c (ix2 0 j)) = pre2_2 m ρ c := by
  rw [show (fun R k => inZ7 (V15 m ρ) c (ix2 R k)) = pre1_2 m ρ c from funext fun R => funext fun k => inZ7_eq m ρ c R k,
    show (fun k => inS7 (V15 m ρ) c (ix2 0 k)) = Cert.Spec.scaleF (pre1_2 m ρ c) (gmAt m c 2) N₀ E₀ from funext fun k => inS7_eq m ρ c k,
    show (fun k => inT7 (V15 m ρ) c (ix2 0 k)) = Cert.Spec.shiftF (pre1_2 m ρ c) (gmAt m c 2) (bmAt m c 2) N₀ E₀ from funext fun k => inT7_eq m ρ c k,
    show (fun k j => inW7 (V15 m ρ) c (ix2 k j)) = w2At m c 2 from funext fun k => funext fun j => inW7_eq m ρ c k j,
    show (fun j => inB7 (V15 m ρ) c (ix2 0 j)) = b2At m c 2 from funext fun j => inB7_eq m ρ c j]
  rfl
theorem z2_2 (c : Dev nD) (R : Fin 50000) (j : Fin 128) : (W16 m ρ c (Proc.devRef .tc main_v161_0) : S50000x128.Idx → EReal) (ix2 R j) = pre2_2 m ρ c R j := by
  refine (congrFun (W16_arr m ρ c 5) (ix2 R j)).trans ?_
  refine (arrAt7_5 (V15 m ρ) c R j).trans ?_
  rw [dense2_args_2]
theorem s2_2 (c : Dev nD) (j : Fin 128) : (W16 m ρ c (Proc.devRef .tc main_v161_1) : S1x128.Idx → EReal) (ix2 0 j) = Cert.Spec.colSum (pre2_2 m ρ c) j := by
  refine (congrFun (W16_arr m ρ c 6) (ix2 0 j)).trans ?_
  refine (arrAt7_6 (V15 m ρ) c j).trans ?_
  rw [dense2_args_2]
theorem q2_2 (c : Dev nD) (j : Fin 128) : (W16 m ρ c (Proc.devRef .tc main_v161_2) : S1x128.Idx → EReal) (ix2 0 j) = Cert.Spec.colSumSq (pre2_2 m ρ c) j := by
  refine (congrFun (W16_arr m ρ c 7) (ix2 0 j)).trans ?_
  refine (arrAt7_7 (V15 m ρ) c j).trans ?_
  rw [dense2_args_2]

/-- THE LAYER: what the third kernel leaves is the folded arrangement of the layer at its input. -/
theorem layer2_value (c : Dev nD) (R : Fin 50000) (j : Fin 128) :
    (W18 m ρ c (Proc.devRef .tc main_v180) : S50000x128.Idx → EReal) (ix2 R j)
      = Cert.Spec.layerF (act2 m ρ c) (nbr2 m ρ c) (w1At m c 2) (b1At m c 2) (w2At m c 2) (b2At m c 2)
          (gmAt m c 2) (bmAt m c 2) (goAt m c 2) (boAt m c 2) N₀ E₀ R j := by
  refine (congrFun (W18_arr m ρ c 3) (ix2 R j)).trans ?_
  refine (arrAt8_3 (V17 m ρ) c R j).trans ?_
  have hz : inZ8 (V17 m ρ) c (ix2 R j) = pre2_2 m ρ c R j :=
    (congrFun (z_after8 (W16 m ρ c)) (ix2 R j)).trans (z2_2 m ρ c R j)
  have hs : inS8 (V17 m ρ) c (ix2 0 j) = Cert.Spec.scaleF (pre2_2 m ρ c) (goAt m c 2) N₀ E₀ j := by
    refine (congrFun (scale_after8 (W16 m ρ c)) (ix2 0 j)).trans ?_
    rw [scaleOf_apply, rowOf_apply _ _ _ 2 j rfl rfl, s2_2, q2_2]
    rw [show (W16 m ρ c (Proc.devRef .tc main_arg9) : S4x128.Idx → EReal) (ix2 2 j) = goAt m c 2 j from congrFun (W16_arg m ρ c main_arg9 (by decide)) (ix2 2 j)]
    rfl
  have ht : inT8 (V17 m ρ) c (ix2 0 j) = Cert.Spec.shiftF (pre2_2 m ρ c) (goAt m c 2) (boAt m c 2) N₀ E₀ j := by
    refine (congrFun (shift_after8 (W16 m ρ c)) (ix2 0 j)).trans ?_
    rw [shiftOf_apply, rowOf_apply _ _ _ 2 j rfl rfl, rowOf_apply _ _ _ 2 j rfl rfl, s2_2, q2_2]
    rw [show (W16 m ρ c (Proc.devRef .tc main_arg9) : S4x128.Idx → EReal) (ix2 2 j) = goAt m c 2 j from congrFun (W16_arg m ρ c main_arg9 (by decide)) (ix2 2 j),
      show (W16 m ρ c (Proc.devRef .tc main_arg10) : S4x128.Idx → EReal) (ix2 2 j) = boAt m c 2 j from congrFun (W16_arg m ρ c main_arg10 (by decide)) (ix2 2 j)]
    rfl
  rw [hz, hs, ht]
  rfl

end Cert.KernelIdeal.Hand

end
-- ==== Proof.KI.A9Val.lean ====
import proofs.«102976_j3633542332749_1_alg».proof.Proof.KI.A9
import proofs.«102976_j3633542332749_1_alg».proof.Proof.KI.AVal
import proofs.«102976_j3633542332749_1_alg».proof.Proof.Spec
import proofs.«102976_j3633542332749_1_alg».proof.Proof.LibAccBlocks

/-! # What the region of custom_call 9 leaves in its three result arrays, over the extended reals

Window 4's array ends as the linear layer `(H + G)·W + B` of the four input arrays the region finds, entry by entry;
window 5's as its column sums over all 50000 rows; window 6's as the column sums of its squared entries. The blocks
are rows `t·5000 … t·5000 + 4999`; the accumulators start at zero and add one block's column sums per point, so after
the ten points they hold the sums over all the rows (addition on the extended reals is commutative and associative:
no finiteness is used). -/

set_option maxRecDepth 16384

open scoped BigOperators

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

theorem k9_pay3_eq (x0 x1 : Vec Ideal S5000x128 .f32) (x2 : Vec Ideal S128x128 .f32) (x3 : Vec Ideal S1x128 .f32) :
    k9_pay3 x0 x1 x2 x3 = zCore_A x0 x1 x2 x3 := by
  unfold k9_pay3 zCore_A; simp only [shapeCast_self]

theorem k9_pay4_eq (x0 x1 : Vec Ideal S5000x128 .f32) (x2 : Vec Ideal S128x128 .f32) (x3 : Vec Ideal S1x128 .f32) (s : Vec Ideal S1x128 .f32) :
    k9_pay4 x0 x1 x2 x3 s = colSum_A (k9_pay3 x0 x1 x2 x3) s := by
  unfold k9_pay4 colSum_A; simp only [shapeCast_self]

theorem k9_pay5_eq (x0 x1 : Vec Ideal S5000x128 .f32) (x2 : Vec Ideal S128x128 .f32) (x3 : Vec Ideal S1x128 .f32) (s : Vec Ideal S1x128 .f32) :
    k9_pay5 x0 x1 x2 x3 s = colSum_A (mulf (k9_pay3 x0 x1 x2 x3) (k9_pay3 x0 x1 x2 x3)) s := by
  unfold k9_pay5 colSum_A; simp only [shapeCast_self]

theorem k9_pay1_apply (i : S1x128.Idx) : (k9_pay1 (F := Ideal)) i = 0 := by
  unfold k9_pay1; simp only [shapeCast_self]
  show Ideal.ofBits .f32 0x00000000#32 = 0
  exact Ideal.ofBits_zero_f32

theorem k9_pay2_apply (i : S1x128.Idx) : (k9_pay2 (F := Ideal)) i = 0 := by
  unfold k9_pay2; simp only [shapeCast_self]
  show Ideal.ofBits .f32 0x00000000#32 = 0
  exact Ideal.ofBits_zero_f32

variable (V : (c : Dev nD) → (b : Ref sig .tc) → Buf (Elt Ideal) ((c : Thread nD τ).loc b))

/-! ## The region's four input arrays, as plain functions of their coordinates -/

/-- The node features the region finds. -/
noncomputable def featA9 (c : Dev nD) : Fin 50000 → Fin 128 → EReal := fun R k => (V c (Pipeline.arrRef spec9 0) : S50000x128.Idx → EReal) (ix2 R k)
/-- The aggregated neighbours' features. -/
noncomputable def aggA9 (c : Dev nD) : Fin 50000 → Fin 128 → EReal := fun R k => (V c (Pipeline.arrRef spec9 1) : S50000x128.Idx → EReal) (ix2 R k)
/-- The layer's weight matrix. -/
noncomputable def wA9 (c : Dev nD) : Fin 128 → Fin 128 → EReal := fun k j => (V c (Pipeline.arrRef spec9 2) : S128x128.Idx → EReal) (ix2 k j)
/-- The layer's bias row. -/
noncomputable def bA9 (c : Dev nD) : Fin 128 → EReal := fun j => (V c (Pipeline.arrRef spec9 3) : S1x128.Idx → EReal) (ix2 0 j)

/-- The entry of the layer's result the region computes at row `R`, column `j`. -/
abbrev zOf9 (c : Dev nD) (R : Fin 50000) (j : Fin 128) : EReal := Cert.Spec.dense1 (featA9 V c) (aggA9 V c) (wA9 V c) (bA9 V c) R j

/-! ## The blocks at an entry -/

/-- The block indices of the windows, decided over the grid: the row-block windows move with the point, the others stay. -/
theorem widx9 : ∀ t : Fin cfg9.N,
    (win9_0.index t 0 = t.val ∧ win9_0.index t 1 = 0) ∧ (win9_1.index t 0 = t.val ∧ win9_1.index t 1 = 0)
    ∧ (win9_2.index t 0 = 0 ∧ win9_2.index t 1 = 0) ∧ (win9_3.index t 0 = 0 ∧ win9_3.index t 1 = 0)
    ∧ (win9_4.index t 0 = t.val ∧ win9_4.index t 1 = 0) ∧ (win9_5.index t 0 = 0 ∧ win9_5.index t 1 = 0)
    ∧ (win9_6.index t 0 = 0 ∧ win9_6.index t 1 = 0) :=
  (by decide +kernel : ∀ t : Fin grid9.N, _)

/-- Row `r` of block `t` is row `t·5000 + r` of the array. -/
theorem row_lt9 (t : Fin cfg9.N) (r : Fin 5000) : t.val * 5000 + r.val < 50000 := by
  have := lt_of_lt_of_eq t.isLt (show cfg9.N = 10 from N_9); have := r.isLt; omega

theorem iblk9_0_apply (c : Dev nD) (t : Fin cfg9.N) (r : Fin 5000) (k : Fin 128) :
    (iblk9 V c 0 t : S5000x128.Idx → EReal) (ix2 r k) = featA9 V c ⟨t.val * 5000 + r.val, row_lt9 t r⟩ k := by
  unfold iblk9 featA9
  rw [View.read_apply]
  refine congrArg (V c (Pipeline.arrRef spec9 0)) (funext fun a => Fin.ext ?_)
  match a with
  | ⟨0, _⟩ => show win9_0.index t 0 * 5000 + 1 * r.val = t.val * 5000 + r.val; rw [(widx9 t).1.1]; omega
  | ⟨1, _⟩ => show win9_0.index t 1 * 128 + 1 * k.val = k.val; rw [(widx9 t).1.2]; omega

theorem iblk9_1_apply (c : Dev nD) (t : Fin cfg9.N) (r : Fin 5000) (k : Fin 128) :
    (iblk9 V c 1 t : S5000x128.Idx → EReal) (ix2 r k) = aggA9 V c ⟨t.val * 5000 + r.val, row_lt9 t r⟩ k := by
  unfold iblk9 aggA9
  rw [View.read_apply]
  refine congrArg (V c (Pipeline.arrRef spec9 1)) (funext fun a => Fin.ext ?_)
  match a with
  | ⟨0, _⟩ => show win9_1.index t 0 * 5000 + 1 * r.val = t.val * 5000 + r.val; rw [(widx9 t).2.1.1]; omega
  | ⟨1, _⟩ => show win9_1.index t 1 * 128 + 1 * k.val = k.val; rw [(widx9 t).2.1.2]; omega

theorem iblk9_2_apply (c : Dev nD) (t : Fin cfg9.N) (k : Fin 128) (j : Fin 128) :
    (iblk9 V c 2 t : S128x128.Idx → EReal) (ix2 k j) = wA9 V c k j := by
  unfold iblk9 wA9
  rw [View.read_apply]
  refine congrArg (V c (Pipeline.arrRef spec9 2)) (funext fun a => Fin.ext ?_)
  match a with
  | ⟨0, _⟩ => show win9_2.index t 0 * 128 + 1 * k.val = k.val; rw [(widx9 t).2.2.1.1]; omega
  | ⟨1, _⟩ => show win9_2.index t 1 * 128 + 1 * j.val = j.val; rw [(widx9 t).2.2.1.2]; omega

theorem iblk9_3_apply (c : Dev nD) (t : Fin cfg9.N) (j : Fin 128) :
    (iblk9 V c 3 t : S1x128.Idx → EReal) (ix2 0 j) = bA9 V c j := by
  unfold iblk9 bA9
  rw [View.read_apply]
  refine congrArg (V c (Pipeline.arrRef spec9 3)) (funext fun a => Fin.ext ?_)
  match a with
  | ⟨0, _⟩ => show win9_3.index t 0 * 1 + 1 * 0 = 0; rw [(widx9 t).2.2.2.1.1]
  | ⟨1, _⟩ => show win9_3.index t 1 * 128 + 1 * j.val = j.val; rw [(widx9 t).2.2.2.1.2]; omega

/-- The block of the layer's result at point `t`, at an entry: the layer's entry at the block's row. -/
theorem zAt9_apply (c : Dev nD) (t : Fin cfg9.N) (r : Fin 5000) (j : Fin 128) :
    zAt9 V c t (ix2 r j) = zOf9 V c ⟨t.val * 5000 + r.val, row_lt9 t r⟩ j := by
  unfold zAt9
  rw [k9_pay3_eq]
  refine (zCore_A_apply (iblk9 V c 0 t) (iblk9 V c 1 t) (iblk9 V c 2 t) (iblk9 V c 3 t) r j).trans ?_
  unfold zOf9 Cert.Spec.dense1
  rw [iblk9_3_apply V c t j]
  refine congrArg (· + bA9 V c j) (Finset.sum_congr rfl fun k _ => ?_)
  rw [iblk9_0_apply V c t r k, iblk9_1_apply V c t r k, iblk9_2_apply V c t k j]

/-- The same at any index of the block. -/
theorem zAt9_apply' (c : Dev nD) (t : Fin cfg9.N) (y : S5000x128.Idx) :
    zAt9 V c t y = zOf9 V c ⟨t.val * 5000 + (y 0).val, row_lt9 t (y 0)⟩ (y 1) := by
  obtain ⟨r, j, rfl⟩ : ∃ (r : Fin 5000) (j : Fin 128), y = ix2 r j := ⟨y 0, y 1, eq_ix2 y⟩
  exact zAt9_apply V c t r j

/-! ## The accumulators, closed -/

/-- One step of the column-sum accumulator at column `j`: the block's column sum is added. -/
theorem sumStep9_apply (c : Dev nD) (t : Fin cfg9.N) (s : Vec Ideal S1x128 .f32) (j : Fin 128) :
    sumStep9 V c t s (ix2 0 j) = s (ix2 0 j) + ∑ r : Fin 5000, zOf9 V c ⟨t.val * 5000 + r.val, row_lt9 t r⟩ j := by
  unfold sumStep9
  rw [k9_pay4_eq]
  refine (colSum_A_apply _ s j).trans ?_
  exact congrArg (s (ix2 0 j) + ·) (Finset.sum_congr rfl fun r _ => zAt9_apply V c t r j)

/-- One step of the accumulator of squares at column `j`: the column sum of the block's squared entries is added. -/
theorem sqStep9_apply (c : Dev nD) (t : Fin cfg9.N) (s : Vec Ideal S1x128 .f32) (j : Fin 128) :
    sqStep9 V c t s (ix2 0 j) = s (ix2 0 j) + ∑ r : Fin 5000,
      zOf9 V c ⟨t.val * 5000 + r.val, row_lt9 t r⟩ j * zOf9 V c ⟨t.val * 5000 + r.val, row_lt9 t r⟩ j := by
  unfold sqStep9
  rw [k9_pay5_eq]
  refine (colSum_A_apply _ s j).trans ?_
  refine congrArg (s (ix2 0 j) + ·) (Finset.sum_congr rfl fun r _ => ?_)
  rw [mulf_apply]
  exact congr (congrArg _ (zAt9_apply V c t r j)) (zAt9_apply V c t r j)

/-- The column-sum accumulator at column `j` before position `n` (zero before the first). -/
noncomputable def sumNat9 (c : Dev nD) (j : Fin 128) : ℕ → EReal
  | 0 => 0
  | n + 1 => if h : n < cfg9.N then (accAt9 V c n h).1 (ix2 0 j) else 0
/-- The accumulator of squares at column `j` before position `n`. -/
noncomputable def sqNat9 (c : Dev nD) (j : Fin 128) : ℕ → EReal
  | 0 => 0
  | n + 1 => if h : n < cfg9.N then (accAt9 V c n h).2 (ix2 0 j) else 0

theorem nine_lt9 : 9 < cfg9.N := by rw [show cfg9.N = 10 from N_9]; decide

/-- After the last point the column-sum accumulator holds the column sums of the layer's result over all the rows. -/
theorem sumAcc9 (c : Dev nD) (j : Fin 128) :
    (accAt9 V c 9 nine_lt9).1 (ix2 0 j) = ∑ R : Fin 50000, zOf9 V c R j := by
  have hN : cfg9.N = 10 := N_9
  have h := Cert.LibAccBlocks.acc_blocks 10 5000 (fun R : Fin (10 * 5000) => zOf9 V c R j) 0 (sumNat9 V c j) rfl (fun n hn => by
    have hn' : n < cfg9.N := by rw [hN]; exact hn
    show (if h : n < cfg9.N then (accAt9 V c n h).1 (ix2 0 j) else 0) = _
    rw [dif_pos hn']
    cases n with
    | zero =>
      show sumStep9 V c ⟨0, hn'⟩ (k9_pay1 (F := Ideal)) (ix2 0 j) = _
      rw [sumStep9_apply, k9_pay1_apply]
      rfl
    | succ m =>
      have hm : m < cfg9.N := Nat.lt_of_succ_lt hn'
      show sumStep9 V c ⟨m + 1, hn'⟩ (accAt9 V c m (Nat.lt_of_succ_lt hn')).1 (ix2 0 j) = _
      rw [sumStep9_apply]
      show _ = (if h : m < cfg9.N then (accAt9 V c m h).1 (ix2 0 j) else 0) + _
      rw [dif_pos hm])
  have e : sumNat9 V c j 10 = (accAt9 V c 9 nine_lt9).1 (ix2 0 j) := by
    show (if h : 9 < cfg9.N then (accAt9 V c 9 h).1 (ix2 0 j) else 0) = _
    rw [dif_pos nine_lt9]
  rw [← e, h, zero_add]

/-- After the last point the accumulator of squares holds the column sums of the squared entries over all the rows. -/
theorem sqAcc9 (c : Dev nD) (j : Fin 128) :
    (accAt9 V c 9 nine_lt9).2 (ix2 0 j) = ∑ R : Fin 50000, zOf9 V c R j * zOf9 V c R j := by
  have hN : cfg9.N = 10 := N_9
  have h := Cert.LibAccBlocks.acc_blocks 10 5000 (fun R : Fin (10 * 5000) => zOf9 V c R j * zOf9 V c R j) 0 (sqNat9 V c j) rfl (fun n hn => by
    have hn' : n < cfg9.N := by rw [hN]; exact hn
    show (if h : n < cfg9.N then (accAt9 V c n h).2 (ix2 0 j) else 0) = _
    rw [dif_pos hn']
    cases n with
    | zero =>
      show sqStep9 V c ⟨0, hn'⟩ (k9_pay2 (F := Ideal)) (ix2 0 j) = _
      rw [sqStep9_apply, k9_pay2_apply]
      rfl
    | succ m =>
      have hm : m < cfg9.N := Nat.lt_of_succ_lt hn'
      show sqStep9 V c ⟨m + 1, hn'⟩ (accAt9 V c m (Nat.lt_of_succ_lt hn')).2 (ix2 0 j) = _
      rw [sqStep9_apply]
      show _ = (if h : m < cfg9.N then (accAt9 V c m h).2 (ix2 0 j) else 0) + _
      rw [dif_pos hm])
  have e : sqNat9 V c j 10 = (accAt9 V c 9 nine_lt9).2 (ix2 0 j) := by
    show (if h : 9 < cfg9.N then (accAt9 V c 9 h).2 (ix2 0 j) else 0) = _
    rw [dif_pos nine_lt9]
  rw [← e, h, zero_add]

/-- The same for the last point however it is named. -/
theorem sumAcc9' (c : Dev nD) (t : Fin cfg9.N) (h9 : t.val = 9) (j : Fin 128) :
    (accAt9 V c t.val t.isLt).1 (ix2 0 j) = ∑ R : Fin 50000, zOf9 V c R j := by
  obtain ⟨n, hn⟩ := t
  dsimp only at h9
  subst h9
  exact sumAcc9 V c j

theorem sqAcc9' (c : Dev nD) (t : Fin cfg9.N) (h9 : t.val = 9) (j : Fin 128) :
    (accAt9 V c t.val t.isLt).2 (ix2 0 j) = ∑ R : Fin 50000, zOf9 V c R j * zOf9 V c R j := by
  obtain ⟨n, hn⟩ := t
  dsimp only at h9
  subst h9
  exact sqAcc9 V c j

/-! ## The arrays after the region -/

/-- The layer's result as contents of window 4's array. -/
noncomputable def zArr9 (c : Dev nD) : S50000x128.Idx → EReal := fun i => zOf9 V c (i 0) (i 1)

/-- What point `t` writes back to window 4 is block `t` of the layer's result. -/
theorem flushed9_4 (c : Dev nD) (t : Fin cfg9.N) (hf : (cfg9.win 4).flush t = true) :
    (dat9 V c).flushed 4 t = ((cfg9.win 4).blk t).view.read (Elt Ideal) (zArr9 V c) := by
  show (cfg9.win 4).cut (grid9.coords t) ((dat9 V c).after 4 t) = _
  rw [after9_4]
  funext y
  show zAt9 V c t y = zArr9 V c (((cfg9.win 4).blk t).view.emb y)
  refine (zAt9_apply' V c t y).trans ?_
  unfold zArr9
  have hy0 : (y 0).val < 5000 := (y 0).isLt
  have hy1 : (y 1).val < 128 := (y 1).isLt
  refine congr (congrArg _ (Fin.ext ?_)) (Fin.ext ?_)
  · show t.val * 5000 + (y 0).val = win9_4.index t 0 * 5000 + 1 * (y 0).val
    rw [(widx9 t).2.2.2.2.1.1]; omega
  · show (y 1).val = win9_4.index t 1 * 128 + 1 * (y 1).val
    rw [(widx9 t).2.2.2.2.1.2]; omega

/-- Every row lies in the block of the point `row / 5000`. -/
theorem cover9_4 (i : S50000x128.Idx) : ∃ t : Fin cfg9.N, (cfg9.win 4).flush t = true ∧ i ∈ ((cfg9.win 4).blk t).view.set := by
  have hN : cfg9.N = 10 := N_9
  have h0 : (i 0).val < 50000 := (i 0).isLt
  have h1 : (i 1).val < 128 := (i 1).isLt
  have ht : (i 0).val / 5000 < cfg9.N := by rw [hN]; omega
  refine ⟨⟨(i 0).val / 5000, ht⟩, flush9_4 _, ?_⟩
  rw [show ((cfg9.win 4).blk ⟨(i 0).val / 5000, ht⟩).view.set = (win9_4.rect ⟨(i 0).val / 5000, ht⟩).set from
    View.set_slice_whole main_v196_0 (win9_4.rect ⟨(i 0).val / 5000, ht⟩), Rect.mem_set_unit]
  intro a
  match a with
  | ⟨0, _⟩ =>
    show win9_4.index ⟨(i 0).val / 5000, ht⟩ 0 * 5000 ≤ (i 0).val ∧ (i 0).val < win9_4.index ⟨(i 0).val / 5000, ht⟩ 0 * 5000 + 5000
    rw [(widx9 ⟨(i 0).val / 5000, ht⟩).2.2.2.2.1.1]; dsimp only; omega
  | ⟨1, _⟩ =>
    show win9_4.index ⟨(i 0).val / 5000, ht⟩ 1 * 128 ≤ (i 1).val ∧ (i 1).val < win9_4.index ⟨(i 0).val / 5000, ht⟩ 1 * 128 + 128
    rw [(widx9 ⟨(i 0).val / 5000, ht⟩).2.2.2.2.1.2]; omega

/-- Window 4's array after the region is the layer's result. -/
theorem final9_4 (c : Dev nD) : (dat9 V c).arrAt 4 cfg9.N = zArr9 V c :=
  (dat9 V c).arrAt_eq_of_cover 4 (zArr9 V c) (flushed9_4 V c) (cover9_4)

/-- The array window 5 ends holding: at column `j` of its one row, the column sum of the layer's result over all the rows. -/
noncomputable def sumArr9 (c : Dev nD) : S1x128.Idx → EReal := fun i => ∑ R : Fin 50000, zOf9 V c R (i 1)

/-- The accumulator after the last point, at any index of its one row. -/
theorem sumAcc9_row (c : Dev nD) (t : Fin cfg9.N) (h9 : t.val = 9) (y : S1x128.Idx) :
    (accAt9 V c t.val t.isLt).1 y = ∑ R : Fin 50000, zOf9 V c R (y 1) := by
  obtain ⟨u, j, rfl⟩ : ∃ (u : Fin 1) (j : Fin 128), y = ix2 u j := ⟨y 0, y 1, eq_ix2 y⟩
  obtain rfl : u = 0 := Subsingleton.elim _ _
  exact sumAcc9' V c t h9 j

/-- Window 5's block is read through its view index by index, and a write-back moves the whole staging buffer. -/
theorem read_blk9_5 (t : Fin cfg9.N) (y : ((cfg9.win 5).xblock (grid9.coords t)).Idx) (f : S1x128.Idx → EReal) :
    ((cfg9.win 5).blk t).view.read (Elt Ideal) f y = f (((cfg9.win 5).blk t).view.emb y) := rfl
theorem cut9_5 (t : Fin cfg9.N) (y : ((cfg9.win 5).xblock (grid9.coords t)).Idx) (s : S1x128.Idx → EReal) :
    (cfg9.win 5).cut (grid9.coords t) s y = s y := rfl

/-- The one write-back of window 5, after the last point, writes the accumulator, which holds those sums. -/
theorem flushed9_5 (c : Dev nD) (t : Fin cfg9.N) (hf : (cfg9.win 5).flush t = true) :
    (dat9 V c).flushed 5 t = ((cfg9.win 5).blk t).view.read (Elt Ideal) (sumArr9 V c) := by
  have hN : cfg9.N = 10 := N_9
  have h9 : t.val = 9 := by have := (flush9_5 t).mp hf; have := t.isLt; omega
  show (cfg9.win 5).cut (grid9.coords t) ((dat9 V c).after 5 t) = _
  rw [after9_5]
  have hs := sumAcc9_row V c t h9
  generalize (accAt9 V c t.val t.isLt).1 = s at hs ⊢
  funext y
  refine (cut9_5 t y s).trans ((hs y).trans ?_)
  refine Eq.trans ?_ (read_blk9_5 t y (sumArr9 V c)).symm
  have hy1 : (y 1).val < 128 := (y 1).isLt
  have e1 : (((cfg9.win 5).blk t).view.emb y) 1 = y 1 := Fin.ext (by
    show win9_5.index t 1 * 128 + 1 * (y 1).val = (y 1).val
    rw [(widx9 t).2.2.2.2.2.1.2]; omega)
  unfold sumArr9
  beta_reduce
  rw [e1]

/-- The last point's block is the whole one-row array. -/
theorem cover9_5 (i : S1x128.Idx) : ∃ t : Fin cfg9.N, (cfg9.win 5).flush t = true ∧ i ∈ ((cfg9.win 5).blk t).view.set := by
  have h0 : (i 0).val < 1 := (i 0).isLt
  have h1 : (i 1).val < 128 := (i 1).isLt
  refine ⟨t9_9, (flush9_5 t9_9).mpr rfl, ?_⟩
  rw [show ((cfg9.win 5).blk t9_9).view.set = (win9_5.rect t9_9).set from
    View.set_slice_whole main_v196_1 (win9_5.rect t9_9), Rect.mem_set_unit]
  intro a
  match a with
  | ⟨0, _⟩ =>
    show win9_5.index t9_9 0 * 1 ≤ (i 0).val ∧ (i 0).val < win9_5.index t9_9 0 * 1 + 1
    rw [(widx9 t9_9).2.2.2.2.2.1.1]; omega
  | ⟨1, _⟩ =>
    show win9_5.index t9_9 1 * 128 ≤ (i 1).val ∧ (i 1).val < win9_5.index t9_9 1 * 128 + 128
    rw [(widx9 t9_9).2.2.2.2.2.1.2]; omega

/-- Window 5's array after the region. -/
theorem final9_5 (c : Dev nD) : (dat9 V c).arrAt 5 cfg9.N = sumArr9 V c :=
  (dat9 V c).arrAt_eq_of_cover 5 (sumArr9 V c) (flushed9_5 V c) (cover9_5)

/-- The array window 6 ends holding: at column `j` of its one row, the column sum of the squared entries over all the rows. -/
noncomputable def sqArr9 (c : Dev nD) : S1x128.Idx → EReal := fun i => ∑ R : Fin 50000, zOf9 V c R (i 1) * zOf9 V c R (i 1)

/-- The accumulator after the last point, at any index of its one row. -/
theorem sqAcc9_row (c : Dev nD) (t : Fin cfg9.N) (h9 : t.val = 9) (y : S1x128.Idx) :
    (accAt9 V c t.val t.isLt).2 y = ∑ R : Fin 50000, zOf9 V c R (y 1) * zOf9 V c R (y 1) := by
  obtain ⟨u, j, rfl⟩ : ∃ (u : Fin 1) (j : Fin 128), y = ix2 u j := ⟨y 0, y 1, eq_ix2 y⟩
  obtain rfl : u = 0 := Subsingleton.elim _ _
  exact sqAcc9' V c t h9 j

/-- Window 6's block is read through its view index by index, and a write-back moves the whole staging buffer. -/
theorem read_blk9_6 (t : Fin cfg9.N) (y : ((cfg9.win 6).xblock (grid9.coords t)).Idx) (f : S1x128.Idx → EReal) :
    ((cfg9.win 6).blk t).view.read (Elt Ideal) f y = f (((cfg9.win 6).blk t).view.emb y) := rfl
theorem cut9_6 (t : Fin cfg9.N) (y : ((cfg9.win 6).xblock (grid9.coords t)).Idx) (s : S1x128.Idx → EReal) :
    (cfg9.win 6).cut (grid9.coords t) s y = s y := rfl

/-- The one write-back of window 6, after the last point, writes the accumulator, which holds those sums. -/
theorem flushed9_6 (c : Dev nD) (t : Fin cfg9.N) (hf : (cfg9.win 6).flush t = true) :
    (dat9 V c).flushed 6 t = ((cfg9.win 6).blk t).view.read (Elt Ideal) (sqArr9 V c) := by
  have hN : cfg9.N = 10 := N_9
  have h9 : t.val = 9 := by have := (flush9_6 t).mp hf; have := t.isLt; omega
  show (cfg9.win 6).cut (grid9.coords t) ((dat9 V c).after 6 t) = _
  rw [after9_6]
  have hs := sqAcc9_row V c t h9
  generalize (accAt9 V c t.val t.isLt).2 = s at hs ⊢
  funext y
  refine (cut9_6 t y s).trans ((hs y).trans ?_)
  refine Eq.trans ?_ (read_blk9_6 t y (sqArr9 V c)).symm
  have hy1 : (y 1).val < 128 := (y 1).isLt
  have e1 : (((cfg9.win 6).blk t).view.emb y) 1 = y 1 := Fin.ext (by
    show win9_6.index t 1 * 128 + 1 * (y 1).val = (y 1).val
    rw [(widx9 t).2.2.2.2.2.2.2]; omega)
  unfold sqArr9
  beta_reduce
  rw [e1]

/-- The last point's block is the whole one-row array. -/
theorem cover9_6 (i : S1x128.Idx) : ∃ t : Fin cfg9.N, (cfg9.win 6).flush t = true ∧ i ∈ ((cfg9.win 6).blk t).view.set := by
  have h0 : (i 0).val < 1 := (i 0).isLt
  have h1 : (i 1).val < 128 := (i 1).isLt
  refine ⟨t9_9, (flush9_6 t9_9).mpr rfl, ?_⟩
  rw [show ((cfg9.win 6).blk t9_9).view.set = (win9_6.rect t9_9).set from
    View.set_slice_whole main_v196_2 (win9_6.rect t9_9), Rect.mem_set_unit]
  intro a
  match a with
  | ⟨0, _⟩ =>
    show win9_6.index t9_9 0 * 1 ≤ (i 0).val ∧ (i 0).val < win9_6.index t9_9 0 * 1 + 1
    rw [(widx9 t9_9).2.2.2.2.2.2.1]; omega
  | ⟨1, _⟩ =>
    show win9_6.index t9_9 1 * 128 ≤ (i 1).val ∧ (i 1).val < win9_6.index t9_9 1 * 128 + 128
    rw [(widx9 t9_9).2.2.2.2.2.2.2]; omega

/-- Window 6's array after the region. -/
theorem final9_6 (c : Dev nD) : (dat9 V c).arrAt 6 cfg9.N = sqArr9 V c :=
  (dat9 V c).arrAt_eq_of_cover 6 (sqArr9 V c) (flushed9_6 V c) (cover9_6)

/-! ## The three results, entry by entry -/

theorem z_final9 (c : Dev nD) (R : Fin 50000) (j : Fin 128) :
    ((dat9 V c).arrAt 4 cfg9.N : S50000x128.Idx → EReal) (ix2 R j) = Cert.Spec.dense1 (featA9 V c) (aggA9 V c) (wA9 V c) (bA9 V c) R j := by
  rw [final9_4]; rfl

theorem sum_final9 (c : Dev nD) (j : Fin 128) :
    ((dat9 V c).arrAt 5 cfg9.N : S1x128.Idx → EReal) (ix2 0 j) = Cert.Spec.colSum (Cert.Spec.dense1 (featA9 V c) (aggA9 V c) (wA9 V c) (bA9 V c)) j := by
  rw [final9_5]; rfl

theorem sq_final9 (c : Dev nD) (j : Fin 128) :
    ((dat9 V c).arrAt 6 cfg9.N : S1x128.Idx → EReal) (ix2 0 j) = Cert.Spec.colSumSq (Cert.Spec.dense1 (featA9 V c) (aggA9 V c) (wA9 V c) (bA9 V c)) j := by
  rw [final9_6]; rfl

/-- The four input arrays end as the region found them. -/
theorem in_final9_0 (c : Dev nD) : (dat9 V c).arrAt 0 cfg9.N = V c (Pipeline.arrRef spec9 0) :=
  ((dat9 V c).arrAt_in 0 rfl _).trans (A_eq9 V c 0)
theorem in_final9_1 (c : Dev nD) : (dat9 V c).arrAt 1 cfg9.N = V c (Pipeline.arrRef spec9 1) :=
  ((dat9 V c).arrAt_in 1 rfl _).trans (A_eq9 V c 1)
theorem in_final9_2 (c : Dev nD) : (dat9 V c).arrAt 2 cfg9.N = V c (Pipeline.arrRef spec9 2) :=
  ((dat9 V c).arrAt_in 2 rfl _).trans (A_eq9 V c 2)
theorem in_final9_3 (c : Dev nD) : (dat9 V c).arrAt 3 cfg9.N = V c (Pipeline.arrRef spec9 3) :=
  ((dat9 V c).arrAt_in 3 rfl _).trans (A_eq9 V c 3)

end Cert.KernelIdeal.Hand
end
-- ==== Proof.KI.B10Val.lean ====
import proofs.«102976_j3633542332749_1_alg».proof.Proof.KI.B10
import proofs.«102976_j3633542332749_1_alg».proof.Proof.Spec
import proofs.«102976_j3633542332749_1_alg».proof.Proof.LibAccBlocks
import proofs.«102976_j3633542332749_1_alg».proof.Proof.LibPlainDot
import Idealize.ShloMosaic.Lib.Pipeline.Value
import Idealize.ShloMosaic.Lib.ValueIdx
import Idealize.ShloMosaic.PureOps.Ideal.Laws

/-! # The second dense layer, call number 10: the three arrays it leaves, entry by entry

Read on the extended reals. With `Z` the 50000 by 128 array of pre-activations, `S` and `T` the rows of scales and
shifts, `W` the 128 by 128 weights and `B` the row of biases as the call finds them, entry `(R, j)` of the first
result is `(∑ k, max (Z (R, k) * S (0, k) + T (0, k)) 0 * W (k, j)) + B (0, j)`: grid point `t` writes rows
`5000 t … 5000 t + 4999`. The second result's entry `(0, j)` is the sum of column `j` of the first over all 50000
rows, the third's the sum of the squares: each point adds its 5000 rows to a running sum that starts at zero, and the
last point's running sums are what is written. The five input arrays end as they were. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The array of pre-activations as the call finds it, -/
abbrev inZ10 (c : Dev nD) : S50000x128.Idx → EReal := V c (Pipeline.arrRef spec10 0)
/-- the row of scales, -/
abbrev inS10 (c : Dev nD) : S1x128.Idx → EReal := V c (Pipeline.arrRef spec10 1)
/-- the row of shifts, -/
abbrev inT10 (c : Dev nD) : S1x128.Idx → EReal := V c (Pipeline.arrRef spec10 2)
/-- the weights, -/
abbrev inW10 (c : Dev nD) : S128x128.Idx → EReal := V c (Pipeline.arrRef spec10 3)
/-- and the row of biases. -/
abbrev inB10 (c : Dev nD) : S1x128.Idx → EReal := V c (Pipeline.arrRef spec10 4)

/-- The dense layer on these arrays, by coordinates. -/
def z2of10 (c : Dev nD) : Fin 50000 → Fin 128 → EReal :=
  Cert.Spec.dense2 (fun R k => inZ10 V c (ix2 R k)) (fun k => inS10 V c (ix2 0 k)) (fun k => inT10 V c (ix2 0 k))
    (fun k j => inW10 V c (ix2 k j)) (fun j => inB10 V c (ix2 0 j))

/-! ## The body's values at an entry -/

/-- A row repeated down the block, read at `(p, q)`, is the row at `(0, q)`. -/
theorem rowDown10_apply (x : Vec Ideal S1x128 .f32) (p : Fin 5000) (q : Fin 128) :
    broadcastTo S5000x128 (shapeCast S1x128 x shapeCasts_S1x128_S1x128) broadcasts_S1x128_S5000x128 (ix2 p q) = x (ix2 0 q) := by
  rw [shapeCast_self]
  exact broadcastTo_apply x _ (ix2 p q) (ix2 0 q) fun a => by
    match a with
    | ⟨0, _⟩ => rfl
    | ⟨1, _⟩ => rfl

/-- The matrix product's dimension numbers are the plain ones: rows by contraction, contraction by columns. -/
theorem dot10_plain : dot_S5000x128_S128x128_S5000x128_1_0_0_1_n_n = DotDims.plain 5000 128 128 := rfl

/-- The block of the first result at `(p, q)`: the rectified affine image of row `p` against column `q` of the
    weights, plus the bias. -/
theorem pay4_10_apply (x0 : Vec Ideal S5000x128 .f32) (x1 x2 : Vec Ideal S1x128 .f32) (x3 : Vec Ideal S128x128 .f32)
    (x4 : Vec Ideal S1x128 .f32) (p : Fin 5000) (q : Fin 128) :
    k10_pay4 x0 x1 x2 x3 x4 (ix2 p q)
      = (∑ k : Fin 128, max (x0 (ix2 p k) * x1 (ix2 0 k) + x2 (ix2 0 k)) 0 * x3 (ix2 k q)) + x4 (ix2 0 q) := by
  unfold k10_pay4
  refine (addf_apply _ _ _).trans ?_
  refine congrArg₂ (· + ·) ?_ (rowDown10_apply x4 p q)
  refine (Cert.LibPlainDot.matmul_plain_zero_apply _ dot10_plain none _ _ p q).trans ?_
  refine Finset.sum_congr rfl fun k _ => ?_
  refine congrArg₂ (· * ·) ?_ ?_
  · refine (truncf_apply (ψ := .bf16) _ bitsLt_bf16_f32 _).trans ?_
    refine (maximumf_apply _ _ _).trans ?_
    refine congrArg₂ max ?_ Ideal.ofBits_zero_f32
    refine (addf_apply _ _ _).trans ?_
    refine congrArg₂ (· + ·) ?_ (rowDown10_apply x2 p k)
    refine (mulf_apply _ _ _).trans ?_
    exact congrArg₂ (· * ·) (congrFun (shapeCast_self x0 _) _) (rowDown10_apply x1 p k)
  · exact (truncf_apply (ψ := .bf16) _ bitsLt_bf16_f32 _).trans (congrFun (shapeCast_self x3 _) _)

/-- A column sum over the block's 5000 rows, stored as a row, read at `(0, q)`. -/
theorem colRow10_apply (v : FVec Ideal S5000x128 .f32) (q : Fin 128) :
    shapeCast S1x128 (multiReduction .add [0] S128 v 0x00000000#32 reduces_S5000x128_S128 (.inl rfl) rfl) shapeCasts_S128_S1x128 (ix2 0 q)
      = ∑ p : Fin 5000, v (ix2 p q) := by
  refine (shapeCast_addUnit_apply ![128] _ shapeCasts_S128_S1x128 (ix2 0 q)).trans ?_
  refine (Ideal.multiReduction_add_single v _ reduces_S5000x128_S128 (.inl rfl) rfl _).trans ?_
  refine Finset.sum_congr rfl fun p _ => congrArg v ?_
  funext a
  match a with
  | ⟨0, _⟩ => exact Fin.ext rfl
  | ⟨1, _⟩ => exact Fin.ext rfl

/-- The running sum after a block: what it was, plus the block's column sums. -/
theorem pay5_10_apply (x0 : Vec Ideal S5000x128 .f32) (x1 x2 : Vec Ideal S1x128 .f32) (x3 : Vec Ideal S128x128 .f32)
    (x4 s : Vec Ideal S1x128 .f32) (q : Fin 128) :
    k10_pay5 x0 x1 x2 x3 x4 s (ix2 0 q) = s (ix2 0 q) + ∑ p : Fin 5000, k10_pay4 x0 x1 x2 x3 x4 (ix2 p q) := by
  unfold k10_pay5
  refine (congrFun (shapeCast_self _ _) _).trans ?_
  refine (addf_apply _ _ _).trans ?_
  exact congrArg₂ (· + ·) rfl (colRow10_apply _ q)

/-- The running sum of squares after a block: what it was, plus the column sums of the block's squares. -/
theorem pay1_10_apply (v : FVec Ideal S5000x128 .f32) (s : Vec Ideal S1x128 .f32) (q : Fin 128) :
    k10_pay1 v s (ix2 0 q) = s (ix2 0 q) + ∑ p : Fin 5000, v (ix2 p q) * v (ix2 p q) := by
  unfold k10_pay1
  refine (congrFun (shapeCast_self _ _) _).trans ?_
  refine (addf_apply _ _ _).trans ?_
  refine congrArg₂ (· + ·) rfl ((colRow10_apply _ q).trans ?_)
  exact Finset.sum_congr rfl fun p _ => mulf_apply _ _ _

/-- The two running sums start at zero. -/
theorem pay2_10_apply (q : Fin 128) : (k10_pay2 : FVec Ideal S1x128 .f32) (ix2 0 q) = 0 := by
  unfold k10_pay2
  exact (congrFun (shapeCast_self _ _) _).trans Ideal.ofBits_zero_f32
theorem pay3_10_apply (q : Fin 128) : (k10_pay3 : FVec Ideal S1x128 .f32) (ix2 0 q) = 0 := by
  unfold k10_pay3
  exact (congrFun (shapeCast_self _ _) _).trans Ideal.ofBits_zero_f32

/-! ## Where the blocks sit -/

/-- The index maps, decided over the ten points: the pre-activations and the first result move together along the rows,
    at block `t`; every other window stays at block 0. -/
theorem idx_facts10 : ∀ t : Fin cfg10.N, win10_0.index t (0 : Fin 2) = t.val ∧ win10_0.index t (1 : Fin 2) = 0
    ∧ win10_5.index t (0 : Fin 2) = t.val ∧ win10_5.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_6.index t (0 : Fin 2) = 0 ∧ win10_6.index t (1 : Fin 2) = 0
    ∧ win10_7.index t (0 : Fin 2) = 0 ∧ win10_7.index t (1 : Fin 2) = 0 :=
  (by decide +kernel : ∀ t : Fin grid10.N, _)

theorem N10_val (t : Fin cfg10.N) : t.val < 10 := lt_of_lt_of_eq t.isLt (show cfg10.N = 10 from N_10)

/-- Row `p` of point `t`'s block is row `5000 t + p` of the array. -/
def rowOf10 (t : Fin cfg10.N) (p : Fin 5000) : Fin 50000 :=
  ⟨t.val * 5000 + p.val, by have := N10_val t; have := p.isLt; omega⟩

/-- THE BLOCK OF THE FIRST RESULT at point `t`, entry `(p, q)`: the dense layer at row `5000 t + p`, column `q`. -/
theorem z2blk10_apply (c : Dev nD) (t : Fin cfg10.N) (p : Fin 5000) (q : Fin 128) :
    z2blk10 (F := Ideal) V c t (ix2 p q) = z2of10 V c (rowOf10 t p) q := by
  unfold z2blk10
  obtain ⟨e00, e01, e50, e51, e10, e11, e20, e21, e30, e31, e40, e41, e60, e61, e70, e71⟩ := idx_facts10 t
  refine (pay4_10_apply _ _ _ _ _ p q).trans ?_
  show (∑ k : Fin 128, max (inZ10 V c (((cfg10.win 0).blk t).view.emb (ix2 p k)) * inS10 V c (((cfg10.win 1).blk t).view.emb (ix2 0 k))
        + inT10 V c (((cfg10.win 2).blk t).view.emb (ix2 0 k))) 0 * inW10 V c (((cfg10.win 3).blk t).view.emb (ix2 k q)))
      + inB10 V c (((cfg10.win 4).blk t).view.emb (ix2 0 q))
    = (∑ k : Fin 128, max (inZ10 V c (ix2 (rowOf10 t p) k) * inS10 V c (ix2 0 k) + inT10 V c (ix2 0 k)) 0 * inW10 V c (ix2 k q))
      + inB10 V c (ix2 0 q)
  have h0 : ∀ k : Fin 128, ((cfg10.win 0).blk t).view.emb (ix2 p k) = ix2 (rowOf10 t p) k := fun k => by
    funext a; apply Fin.ext
    match a with
    | ⟨0, _⟩ => show win10_0.index t (0 : Fin 2) * 5000 + 1 * p.val = t.val * 5000 + p.val; omega
    | ⟨1, _⟩ => show win10_0.index t (1 : Fin 2) * 128 + 1 * k.val = k.val; omega
  have h1 : ∀ k : Fin 128, ((cfg10.win 1).blk t).view.emb (ix2 0 k) = ix2 (n0 := 1) (n1 := 128) 0 k := fun k => by
    funext a; apply Fin.ext
    match a with
    | ⟨0, _⟩ => show win10_1.index t (0 : Fin 2) * 1 + 1 * 0 = 0; omega
    | ⟨1, _⟩ => show win10_1.index t (1 : Fin 2) * 128 + 1 * k.val = k.val; omega
  have h2 : ∀ k : Fin 128, ((cfg10.win 2).blk t).view.emb (ix2 0 k) = ix2 (n0 := 1) (n1 := 128) 0 k := fun k => by
    funext a; apply Fin.ext
    match a with
    | ⟨0, _⟩ => show win10_2.index t (0 : Fin 2) * 1 + 1 * 0 = 0; omega
    | ⟨1, _⟩ => show win10_2.index t (1 : Fin 2) * 128 + 1 * k.val = k.val; omega
  have h3 : ∀ k : Fin 128, ((cfg10.win 3).blk t).view.emb (ix2 k q) = ix2 (n0 := 128) (n1 := 128) k q := fun k => by
    funext a; apply Fin.ext
    match a with
    | ⟨0, _⟩ => show win10_3.index t (0 : Fin 2) * 128 + 1 * k.val = k.val; omega
    | ⟨1, _⟩ => show win10_3.index t (1 : Fin 2) * 128 + 1 * q.val = q.val; omega
  have h4 : ((cfg10.win 4).blk t).view.emb (ix2 0 q) = ix2 (n0 := 1) (n1 := 128) 0 q := by
    funext a; apply Fin.ext
    match a with
    | ⟨0, _⟩ => show win10_4.index t (0 : Fin 2) * 1 + 1 * 0 = 0; omega
    | ⟨1, _⟩ => show win10_4.index t (1 : Fin 2) * 128 + 1 * q.val = q.val; omega
  rw [h4]
  refine congrArg₂ (· + ·) (Finset.sum_congr rfl fun k _ => ?_) rfl
  rw [h0 k, h1 k, h2 k, h3 k]

/-! ## The first result -/

/-- The first result as ONE function of the five arrays. -/
def outZ10 (c : Dev nD) : S50000x128.Idx → EReal := fun i => z2of10 V c (i 0) (i 1)

/-- WHAT POINT `t` WRITES BACK is block `t` of `outZ10`. -/
theorem flushed10_5_eq (c : Dev nD) (t : Fin cfg10.N) :
    (dat10 (F := Ideal) V c).flushed 5 t = ((cfg10.win 5).blk t).view.read (Elt Ideal) (outZ10 V c) := by
  show (cfg10.win 5).cut (grid10.coords t) ((dat10 V c).after 5 t) = _
  rw [after10_5]
  obtain ⟨e00, e01, e50, e51, e10, e11, e20, e21, e30, e31, e40, e41, e60, e61, e70, e71⟩ := idx_facts10 t
  funext y
  obtain ⟨p, q, rfl⟩ : ∃ (p : Fin 5000) (q : Fin 128), y = ix2 p q := ⟨y 0, y 1, eq_ix2 y⟩
  refine (z2blk10_apply V c t p q).trans ?_
  show z2of10 V c (rowOf10 t p) q = outZ10 V c (((cfg10.win 5).blk t).view.emb (ix2 p q))
  have h5 : ((cfg10.win 5).blk t).view.emb (ix2 p q) = ix2 (rowOf10 t p) q := by
    funext a; apply Fin.ext
    match a with
    | ⟨0, _⟩ => show win10_5.index t (0 : Fin 2) * 5000 + 1 * p.val = t.val * 5000 + p.val; omega
    | ⟨1, _⟩ => show win10_5.index t (1 : Fin 2) * 128 + 1 * q.val = q.val; omega
  rw [h5]
  rfl

/-- An index of the first result is in point `t`'s block iff each coordinate is in the block's range on its axis. -/
theorem mem_blk10_5 (t : Fin cfg10.N) (i : S50000x128.Idx) :
    i ∈ ((cfg10.win 5).blk t).view.set ↔ ∀ a : Fin 2, win10_5.index t a * S5000x128.size a ≤ (i a).val ∧ (i a).val < win10_5.index t a * S5000x128.size a + S5000x128.size a := by
  show i ∈ ((View.whole main_v220_0).slice (win10_5.rect t)).set ↔ _
  rw [View.set_slice_whole, Rect.mem_set_unit]
  exact Iff.rfl

/-- Every entry of the first result is in some point's block: row `R` in that of point `R / 5000`. -/
theorem cover10_5 (i : S50000x128.Idx) :
    ∃ t : Fin cfg10.N, (cfg10.win 5).flush t = true ∧ i ∈ ((cfg10.win 5).blk t).view.set := by
  have hi0 : (i 0).val < 50000 := (i 0).isLt
  have hi1 : (i 1).val < 128 := (i 1).isLt
  let t : Fin cfg10.N := ⟨(i 0).val / 5000, by rw [show cfg10.N = 10 from N_10]; omega⟩
  obtain ⟨e00, e01, e50, e51, -⟩ := idx_facts10 t
  have q0 : win10_5.index t (0 : Fin 2) = (i 0).val / 5000 := e50
  refine ⟨t, flush10_5 t, ?_⟩
  rw [mem_blk10_5]
  intro a
  match a with
  | ⟨0, _⟩ => show win10_5.index t (0 : Fin 2) * 5000 ≤ (i 0).val ∧ (i 0).val < win10_5.index t (0 : Fin 2) * 5000 + 5000; omega
  | ⟨1, _⟩ => show win10_5.index t (1 : Fin 2) * 128 ≤ (i 1).val ∧ (i 1).val < win10_5.index t (1 : Fin 2) * 128 + 128; omega

/-- THE FIRST RESULT after the call is the dense layer of the five arrays as the call finds them. -/
theorem final10_5 (c : Dev nD) : (dat10 (F := Ideal) V c).arrAt 5 cfg10.N = outZ10 V c :=
  (dat10 (F := Ideal) V c).arrAt_eq_of_cover 5 _ (fun t _ => flushed10_5_eq V c t) cover10_5

/-- The same, entry by entry. -/
theorem arrAt10_5 (c : Dev nD) (R : Fin 50000) (j : Fin 128) :
    (dat10 (F := Ideal) V c).arrAt 5 cfg10.N (ix2 R j)
      = Cert.Spec.dense2 (fun R k => inZ10 V c (ix2 R k)) (fun k => inS10 V c (ix2 0 k)) (fun k => inT10 V c (ix2 0 k))
          (fun k j => inW10 V c (ix2 k j)) (fun j => inB10 V c (ix2 0 j)) R j := by
  rw [final10_5]; rfl

/-! ## The running sums -/

/-- The running sum after point `n`, at column `q`, as a function of the bare position (zero past the grid). -/
def sumAt10 (c : Dev nD) (q : Fin 128) (n : ℕ) : EReal :=
  if h : n < cfg10.N then sum10 (F := Ideal) V c n h (ix2 0 q) else 0
def sumsqAt10 (c : Dev nD) (q : Fin 128) (n : ℕ) : EReal :=
  if h : n < cfg10.N then sumsq10 (F := Ideal) V c n h (ix2 0 q) else 0

theorem sum10_zero_apply (c : Dev nD) (q : Fin 128) (h : 0 < cfg10.N) :
    sum10 (F := Ideal) V c 0 h (ix2 0 q) = 0 + ∑ p : Fin 5000, z2of10 V c (rowOf10 ⟨0, h⟩ p) q := by
  rw [sum10_first V c ⟨0, h⟩ rfl]
  refine (pay5_10_apply _ _ _ _ _ _ q).trans ?_
  exact congrArg₂ (· + ·) (pay2_10_apply q) (Finset.sum_congr rfl fun p _ => z2blk10_apply V c ⟨0, h⟩ p q)

theorem sum10_succ_apply (c : Dev nD) (q : Fin 128) (n : ℕ) (h : n + 1 < cfg10.N) :
    sum10 (F := Ideal) V c (n + 1) h (ix2 0 q)
      = sum10 (F := Ideal) V c n (Nat.lt_of_succ_lt h) (ix2 0 q) + ∑ p : Fin 5000, z2of10 V c (rowOf10 ⟨n + 1, h⟩ p) q := by
  rw [sum10_next V c ⟨n + 1, h⟩ (Nat.succ_ne_zero n)]
  refine (pay5_10_apply _ _ _ _ _ _ q).trans ?_
  exact congrArg₂ (· + ·) rfl (Finset.sum_congr rfl fun p _ => z2blk10_apply V c ⟨n + 1, h⟩ p q)

theorem sumsq10_zero_apply (c : Dev nD) (q : Fin 128) (h : 0 < cfg10.N) :
    sumsq10 (F := Ideal) V c 0 h (ix2 0 q)
      = 0 + ∑ p : Fin 5000, z2of10 V c (rowOf10 ⟨0, h⟩ p) q * z2of10 V c (rowOf10 ⟨0, h⟩ p) q := by
  rw [sumsq10_first V c ⟨0, h⟩ rfl]
  refine (pay1_10_apply _ _ q).trans ?_
  exact congrArg₂ (· + ·) (pay3_10_apply q) (Finset.sum_congr rfl fun p _ => by rw [z2blk10_apply V c ⟨0, h⟩ p q])

theorem sumsq10_succ_apply (c : Dev nD) (q : Fin 128) (n : ℕ) (h : n + 1 < cfg10.N) :
    sumsq10 (F := Ideal) V c (n + 1) h (ix2 0 q)
      = sumsq10 (F := Ideal) V c n (Nat.lt_of_succ_lt h) (ix2 0 q)
        + ∑ p : Fin 5000, z2of10 V c (rowOf10 ⟨n + 1, h⟩ p) q * z2of10 V c (rowOf10 ⟨n + 1, h⟩ p) q := by
  rw [sumsq10_next V c ⟨n + 1, h⟩ (Nat.succ_ne_zero n)]
  refine (pay1_10_apply _ _ q).trans ?_
  exact congrArg₂ (· + ·) rfl (Finset.sum_congr rfl fun p _ => by rw [z2blk10_apply V c ⟨n + 1, h⟩ p q])

/-- AFTER THE LAST POINT the running sum at column `q` is the sum of column `q` of the dense layer over all rows. -/
theorem sum10_last (c : Dev nD) (q : Fin 128) (h : 9 < cfg10.N) :
    sum10 (F := Ideal) V c 9 h (ix2 0 q) = ∑ R : Fin 50000, z2of10 V c R q := by
  have hN : cfg10.N = 10 := N_10
  have key := Cert.LibAccBlocks.acc_blocks 10 5000 (fun R : Fin (10 * 5000) => z2of10 V c R q) 0
    (fun m => match m with | 0 => 0 | m + 1 => sumAt10 V c q m) rfl (fun j hj => by
      have hj' : j < cfg10.N := by omega
      show sumAt10 V c q j = _
      unfold sumAt10
      rw [dif_pos hj']
      cases j with
      | zero => exact sum10_zero_apply V c q hj'
      | succ j =>
        show _ = sumAt10 V c q j + _
        unfold sumAt10
        rw [dif_pos (Nat.lt_of_succ_lt hj')]
        exact sum10_succ_apply V c q j hj')
  have e : sumAt10 V c q 9 = sum10 (F := Ideal) V c 9 h (ix2 0 q) := by unfold sumAt10; rw [dif_pos h]
  rw [← e]
  exact key.trans (zero_add _)

theorem sumsq10_last (c : Dev nD) (q : Fin 128) (h : 9 < cfg10.N) :
    sumsq10 (F := Ideal) V c 9 h (ix2 0 q) = ∑ R : Fin 50000, z2of10 V c R q * z2of10 V c R q := by
  have hN : cfg10.N = 10 := N_10
  have key := Cert.LibAccBlocks.acc_blocks 10 5000 (fun R : Fin (10 * 5000) => z2of10 V c R q * z2of10 V c R q) 0
    (fun m => match m with | 0 => 0 | m + 1 => sumsqAt10 V c q m) rfl (fun j hj => by
      have hj' : j < cfg10.N := by omega
      show sumsqAt10 V c q j = _
      unfold sumsqAt10
      rw [dif_pos hj']
      cases j with
      | zero => exact sumsq10_zero_apply V c q hj'
      | succ j =>
        show _ = sumsqAt10 V c q j + _
        unfold sumsqAt10
        rw [dif_pos (Nat.lt_of_succ_lt hj')]
        exact sumsq10_succ_apply V c q j hj')
  have e : sumsqAt10 V c q 9 = sumsq10 (F := Ideal) V c 9 h (ix2 0 q) := by unfold sumsqAt10; rw [dif_pos h]
  rw [← e]
  exact key.trans (zero_add _)

/-- The same at the last point, however it is named. -/
theorem sum10_last_at (c : Dev nD) (q : Fin 128) (t : Fin cfg10.N) (h9 : t.val = 9) :
    sum10 (F := Ideal) V c t.val t.isLt (ix2 0 q) = ∑ R : Fin 50000, z2of10 V c R q := by
  obtain ⟨n, hn⟩ := t
  obtain rfl : n = 9 := h9
  exact sum10_last V c q hn
theorem sumsq10_last_at (c : Dev nD) (q : Fin 128) (t : Fin cfg10.N) (h9 : t.val = 9) :
    sumsq10 (F := Ideal) V c t.val t.isLt (ix2 0 q) = ∑ R : Fin 50000, z2of10 V c R q * z2of10 V c R q := by
  obtain ⟨n, hn⟩ := t
  obtain rfl : n = 9 := h9
  exact sumsq10_last V c q hn

/-! ## The second and third results -/

/-- The column sums and the column sums of squares as rows. -/
def outS10 (c : Dev nD) : S1x128.Idx → EReal := fun i => Cert.Spec.colSum (z2of10 V c) (i 1)
def outQ10 (c : Dev nD) : S1x128.Idx → EReal := fun i => Cert.Spec.colSumSq (z2of10 V c) (i 1)

/-- Only the last point writes the sums back. -/
theorem last_of_flush10_6 (t : Fin cfg10.N) (hf : (cfg10.win 6).flush t = true) : t.val = 9 := by
  have := (flush10_6 t).mp hf; have := N10_val t; omega
theorem last_of_flush10_7 (t : Fin cfg10.N) (hf : (cfg10.win 7).flush t = true) : t.val = 9 := by
  have := (flush10_7 t).mp hf; have := N10_val t; omega

/-- WHAT THE LAST POINT WRITES BACK into the second result is the row of column sums. -/
theorem flushed10_6_eq (c : Dev nD) (t : Fin cfg10.N) (hf : (cfg10.win 6).flush t = true) :
    (dat10 (F := Ideal) V c).flushed 6 t = ((cfg10.win 6).blk t).view.read (Elt Ideal) (outS10 V c) := by
  have h9 := last_of_flush10_6 t hf
  show (cfg10.win 6).cut (grid10.coords t) ((dat10 V c).after 6 t) = _
  rw [after10_6]
  obtain ⟨e00, e01, e50, e51, e10, e11, e20, e21, e30, e31, e40, e41, e60, e61, e70, e71⟩ := idx_facts10 t
  funext y
  obtain ⟨p, q, rfl⟩ : ∃ (p : Fin 1) (q : Fin 128), y = ix2 p q := ⟨y 0, y 1, eq_ix2 y⟩
  obtain rfl : p = 0 := Subsingleton.elim _ _
  have h6 : ((cfg10.win 6).blk t).view.emb (ix2 0 q) = ix2 (n0 := 1) (n1 := 128) 0 q := by
    funext a; apply Fin.ext
    match a with
    | ⟨0, _⟩ => show win10_6.index t (0 : Fin 2) * 1 + 1 * 0 = 0; omega
    | ⟨1, _⟩ => show win10_6.index t (1 : Fin 2) * 128 + 1 * q.val = q.val; omega
  have hrd : ∀ G : S1x128.Idx → EReal,
      ((cfg10.win 6).blk t).view.read (Elt Ideal) G (ix2 0 q) = G (ix2 (n0 := 1) (n1 := 128) 0 q) := fun G => by
    show G (((cfg10.win 6).blk t).view.emb (ix2 0 q)) = _
    rw [h6]
  rw [hrd]
  refine (sum10_last_at V c q t h9).trans ?_
  rfl

theorem flushed10_7_eq (c : Dev nD) (t : Fin cfg10.N) (hf : (cfg10.win 7).flush t = true) :
    (dat10 (F := Ideal) V c).flushed 7 t = ((cfg10.win 7).blk t).view.read (Elt Ideal) (outQ10 V c) := by
  have h9 := last_of_flush10_7 t hf
  show (cfg10.win 7).cut (grid10.coords t) ((dat10 V c).after 7 t) = _
  rw [after10_7]
  obtain ⟨e00, e01, e50, e51, e10, e11, e20, e21, e30, e31, e40, e41, e60, e61, e70, e71⟩ := idx_facts10 t
  funext y
  obtain ⟨p, q, rfl⟩ : ∃ (p : Fin 1) (q : Fin 128), y = ix2 p q := ⟨y 0, y 1, eq_ix2 y⟩
  obtain rfl : p = 0 := Subsingleton.elim _ _
  have h7 : ((cfg10.win 7).blk t).view.emb (ix2 0 q) = ix2 (n0 := 1) (n1 := 128) 0 q := by
    funext a; apply Fin.ext
    match a with
    | ⟨0, _⟩ => show win10_7.index t (0 : Fin 2) * 1 + 1 * 0 = 0; omega
    | ⟨1, _⟩ => show win10_7.index t (1 : Fin 2) * 128 + 1 * q.val = q.val; omega
  have hrd : ∀ G : S1x128.Idx → EReal,
      ((cfg10.win 7).blk t).view.read (Elt Ideal) G (ix2 0 q) = G (ix2 (n0 := 1) (n1 := 128) 0 q) := fun G => by
    show G (((cfg10.win 7).blk t).view.emb (ix2 0 q)) = _
    rw [h7]
  rw [hrd]
  refine (sumsq10_last_at V c q t h9).trans ?_
  rfl

theorem mem_blk10_6 (t : Fin cfg10.N) (i : S1x128.Idx) :
    i ∈ ((cfg10.win 6).blk t).view.set ↔ ∀ a : Fin 2, win10_6.index t a * S1x128.size a ≤ (i a).val ∧ (i a).val < win10_6.index t a * S1x128.size a + S1x128.size a := by
  show i ∈ ((View.whole main_v220_1).slice (win10_6.rect t)).set ↔ _
  rw [View.set_slice_whole, Rect.mem_set_unit]
  exact Iff.rfl
theorem mem_blk10_7 (t : Fin cfg10.N) (i : S1x128.Idx) :
    i ∈ ((cfg10.win 7).blk t).view.set ↔ ∀ a : Fin 2, win10_7.index t a * S1x128.size a ≤ (i a).val ∧ (i a).val < win10_7.index t a * S1x128.size a + S1x128.size a := by
  show i ∈ ((View.whole main_v220_2).slice (win10_7.rect t)).set ↔ _
  rw [View.set_slice_whole, Rect.mem_set_unit]
  exact Iff.rfl

/-- The last point's block is the whole row. -/
theorem cover10_6 (i : S1x128.Idx) :
    ∃ t : Fin cfg10.N, (cfg10.win 6).flush t = true ∧ i ∈ ((cfg10.win 6).blk t).view.set := by
  have hi0 : (i 0).val < 1 := (i 0).isLt
  have hi1 : (i 1).val < 128 := (i 1).isLt
  obtain ⟨e00, e01, e50, e51, e10, e11, e20, e21, e30, e31, e40, e41, e60, e61, e70, e71⟩ := idx_facts10 t10_9
  refine ⟨t10_9, (flush10_6 t10_9).mpr rfl, ?_⟩
  rw [mem_blk10_6]
  intro a
  match a with
  | ⟨0, _⟩ => show win10_6.index t10_9 (0 : Fin 2) * 1 ≤ (i 0).val ∧ (i 0).val < win10_6.index t10_9 (0 : Fin 2) * 1 + 1; omega
  | ⟨1, _⟩ => show win10_6.index t10_9 (1 : Fin 2) * 128 ≤ (i 1).val ∧ (i 1).val < win10_6.index t10_9 (1 : Fin 2) * 128 + 128; omega
theorem cover10_7 (i : S1x128.Idx) :
    ∃ t : Fin cfg10.N, (cfg10.win 7).flush t = true ∧ i ∈ ((cfg10.win 7).blk t).view.set := by
  have hi0 : (i 0).val < 1 := (i 0).isLt
  have hi1 : (i 1).val < 128 := (i 1).isLt
  obtain ⟨e00, e01, e50, e51, e10, e11, e20, e21, e30, e31, e40, e41, e60, e61, e70, e71⟩ := idx_facts10 t10_9
  refine ⟨t10_9, (flush10_7 t10_9).mpr rfl, ?_⟩
  rw [mem_blk10_7]
  intro a
  match a with
  | ⟨0, _⟩ => show win10_7.index t10_9 (0 : Fin 2) * 1 ≤ (i 0).val ∧ (i 0).val < win10_7.index t10_9 (0 : Fin 2) * 1 + 1; omega
  | ⟨1, _⟩ => show win10_7.index t10_9 (1 : Fin 2) * 128 ≤ (i 1).val ∧ (i 1).val < win10_7.index t10_9 (1 : Fin 2) * 128 + 128; omega

/-- THE SECOND RESULT after the call is the row of column sums of the dense layer, -/
theorem final10_6 (c : Dev nD) : (dat10 (F := Ideal) V c).arrAt 6 cfg10.N = outS10 V c :=
  (dat10 (F := Ideal) V c).arrAt_eq_of_cover 6 _ (fun t hf => flushed10_6_eq V c t hf) cover10_6
/-- and the third the row of column sums of its squares. -/
theorem final10_7 (c : Dev nD) : (dat10 (F := Ideal) V c).arrAt 7 cfg10.N = outQ10 V c :=
  (dat10 (F := Ideal) V c).arrAt_eq_of_cover 7 _ (fun t hf => flushed10_7_eq V c t hf) cover10_7

/-- The same, entry by entry. -/
theorem arrAt10_6 (c : Dev nD) (j : Fin 128) :
    (dat10 (F := Ideal) V c).arrAt 6 cfg10.N (ix2 0 j)
      = Cert.Spec.colSum (Cert.Spec.dense2 (fun R k => inZ10 V c (ix2 R k)) (fun k => inS10 V c (ix2 0 k)) (fun k => inT10 V c (ix2 0 k))
          (fun k j => inW10 V c (ix2 k j)) (fun j => inB10 V c (ix2 0 j))) j := by
  rw [final10_6]; rfl
theorem arrAt10_7 (c : Dev nD) (j : Fin 128) :
    (dat10 (F := Ideal) V c).arrAt 7 cfg10.N (ix2 0 j)
      = Cert.Spec.colSumSq (Cert.Spec.dense2 (fun R k => inZ10 V c (ix2 R k)) (fun k => inS10 V c (ix2 0 k)) (fun k => inT10 V c (ix2 0 k))
          (fun k j => inW10 V c (ix2 k j)) (fun j => inB10 V c (ix2 0 j))) j := by
  rw [final10_7]; rfl

/-- The five input arrays end as the call found them: an input window is never written back. -/
theorem arrAt10_0 (c : Dev nD) : (dat10 (F := Ideal) V c).arrAt 0 cfg10.N = V c (Pipeline.arrRef spec10 0) :=
  ((dat10 (F := Ideal) V c).arrAt_in 0 rfl _).trans (A_eq10 V c 0)
theorem arrAt10_1 (c : Dev nD) : (dat10 (F := Ideal) V c).arrAt 1 cfg10.N = V c (Pipeline.arrRef spec10 1) :=
  ((dat10 (F := Ideal) V c).arrAt_in 1 rfl _).trans (A_eq10 V c 1)
theorem arrAt10_2 (c : Dev nD) : (dat10 (F := Ideal) V c).arrAt 2 cfg10.N = V c (Pipeline.arrRef spec10 2) :=
  ((dat10 (F := Ideal) V c).arrAt_in 2 rfl _).trans (A_eq10 V c 2)
theorem arrAt10_3 (c : Dev nD) : (dat10 (F := Ideal) V c).arrAt 3 cfg10.N = V c (Pipeline.arrRef spec10 3) :=
  ((dat10 (F := Ideal) V c).arrAt_in 3 rfl _).trans (A_eq10 V c 3)
theorem arrAt10_4 (c : Dev nD) : (dat10 (F := Ideal) V c).arrAt 4 cfg10.N = V c (Pipeline.arrRef spec10 4) :=
  ((dat10 (F := Ideal) V c).arrAt_in 4 rfl _).trans (A_eq10 V c 4)

end Cert.KernelIdeal.Hand

end
-- ==== Proof.KI.C11Val.lean ====
import proofs.«102976_j3633542332749_1_alg».proof.Proof.KI.C11
import Idealize.ShloMosaic.Lib.Pipeline.Value
import Idealize.ShloMosaic.Lib.ValueIdx
import Idealize.ShloMosaic.PureOps.Ideal.Laws

/-! # The normalise-and-rectify call number 11: the array it leaves, entry by entry

Read on the extended reals. Entry `(R, j)` of the result is `max (Z (R, j) * S (0, j) + T (0, j)) 0`, where `Z` is the
50000 by 128 array, `S` the row of scales and `T` the row of shifts as the call finds them: grid point `t` writes rows
`5000 t … 5000 t + 4999`, computed from the same rows of `Z` and from the two rows, and row `R` belongs to point
`R / 5000`. The three input arrays end as they were. -/

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The result as ONE function of the three arrays: scale and shift column by column, then the maximum with zero. -/
def relu11 (Z : S50000x128.Idx → EReal) (S T : S1x128.Idx → EReal) : S50000x128.Idx → EReal :=
  fun i => max (Z i * S (ix2 (n0 := 1) (n1 := 128) 0 (i 1)) + T (ix2 (n0 := 1) (n1 := 128) 0 (i 1))) 0

/-- The array of pre-activations as the call finds it, -/
abbrev inZ11 (c : Dev nD) : S50000x128.Idx → EReal := V c (Pipeline.arrRef spec11 0)
/-- the row of scales, -/
abbrev inS11 (c : Dev nD) : S1x128.Idx → EReal := V c (Pipeline.arrRef spec11 1)
/-- and the row of shifts. -/
abbrev inT11 (c : Dev nD) : S1x128.Idx → EReal := V c (Pipeline.arrRef spec11 2)

theorem hz11 : (![0, 0] : Fin 2 → Nat) = fun _ => 0 := funext fun a => by fin_cases a <;> rfl

/-- A row repeated down the block, read at `(p, q)`, is the row at `(0, q)`. -/
theorem rowDown11_apply (x : Vec Ideal S1x128 .f32) (p : Fin 5000) (q : Fin 128) :
    broadcastTo S5000x128 (shapeCast S1x128 x shapeCasts_S1x128_S1x128) broadcasts_S1x128_S5000x128 (ix2 p q) = x (ix2 0 q) := by
  rw [shapeCast_self]
  exact broadcastTo_apply x _ (ix2 p q) (ix2 0 q) fun a => by
    match a with
    | ⟨0, _⟩ => rfl
    | ⟨1, _⟩ => rfl

/-- The body's stored value at `(p, q)`: `max (z (p, q) * s (0, q) + b (0, q)) 0`. -/
theorem pay11_apply (x0 : Vec Ideal S5000x128 .f32) (x1 x2 : Vec Ideal S1x128 .f32) (p : Fin 5000) (q : Fin 128) :
    k11_pay1 x0 x1 x2 (ix2 p q) = max (x0 (ix2 p q) * x1 (ix2 0 q) + x2 (ix2 0 q)) 0 := by
  unfold k11_pay1
  refine (maximumf_apply _ _ _).trans ?_
  refine congrArg₂ max ?_ Ideal.ofBits_zero_f32
  refine (addf_apply _ _ _).trans ?_
  refine congrArg₂ (· + ·) ?_ (rowDown11_apply x2 p q)
  refine (mulf_apply _ _ _).trans ?_
  exact congrArg₂ (· * ·) (congrFun (shapeCast_self x0 _) _) (rowDown11_apply x1 p q)

/-- The index maps, decided over the ten points: the row block and the result move together along the rows, at block
    `t`; every window sits at column block 0; the two rows never move. -/
theorem idx_facts11 : ∀ t : Fin cfg11.N, win11_0.index t (0 : Fin 2) = win11_3.index t (0 : Fin 2)
    ∧ win11_0.index t (1 : Fin 2) = 0 ∧ win11_3.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) ≤ 9 :=
  (by decide +kernel : ∀ t : Fin grid11.N, _)

/-- Every row block is some point's. -/
theorem idx_onto11 : ∀ (q0 : Fin 10), ∃ t : Fin cfg11.N, win11_3.index t = ![q0.val, 0] :=
  (by decide +kernel : ∀ (q0 : Fin 10), ∃ t : Fin grid11.N, win11_3.index t = ![q0.val, 0])

/-- WHAT POINT `t` WRITES BACK is block `t` of `relu11` of the three arrays as the call finds them. -/
theorem flushed11_3_eq (c : Dev nD) (t : Fin cfg11.N) :
    (dat11 (F := Ideal) V c).flushed 3 t
      = ((cfg11.win 3).blk t).view.read (Elt Ideal) (relu11 (inZ11 V c) (inS11 V c) (inT11 V c)) := by
  show (cfg11.win 3).cut (grid11.coords t) ((dat11 V c).after 3 t) = _
  rw [after11_3]
  unfold out11_3
  rw [View.canon_unit_zero hz11]
  simp only [View.ld_unit_zero (S := S5000x128) hz11, View.ld_unit_zero (S := S1x128) hz11]
  obtain ⟨e0, e1, e2, e3, e4, e5, e6, e7⟩ := idx_facts11 t
  funext y
  obtain ⟨p, q, rfl⟩ : ∃ (p : Fin 5000) (q : Fin 128), y = ix2 p q := ⟨y 0, y 1, eq_ix2 y⟩
  refine (pay11_apply _ _ _ p q).trans ?_
  show max (inZ11 V c (((cfg11.win 0).blk t).view.emb (ix2 p q)) * inS11 V c (((cfg11.win 1).blk t).view.emb (ix2 0 q))
      + inT11 V c (((cfg11.win 2).blk t).view.emb (ix2 0 q))) 0
    = relu11 (inZ11 V c) (inS11 V c) (inT11 V c) (((cfg11.win 3).blk t).view.emb (ix2 p q))
  have h0 : ((cfg11.win 0).blk t).view.emb (ix2 p q) = ((cfg11.win 3).blk t).view.emb (ix2 p q) := by
    funext a; apply Fin.ext
    match a with
    | ⟨0, _⟩ => show win11_0.index t (0 : Fin 2) * 5000 + 1 * p.val = win11_3.index t (0 : Fin 2) * 5000 + 1 * p.val; omega
    | ⟨1, _⟩ => show win11_0.index t (1 : Fin 2) * 128 + 1 * q.val = win11_3.index t (1 : Fin 2) * 128 + 1 * q.val; omega
  have h1 : ((cfg11.win 1).blk t).view.emb (ix2 0 q)
      = ix2 (n0 := 1) (n1 := 128) 0 ((((cfg11.win 3).blk t).view.emb (ix2 p q)) 1) := by
    funext a; apply Fin.ext
    match a with
    | ⟨0, _⟩ => show win11_1.index t (0 : Fin 2) * 1 + 1 * 0 = 0; omega
    | ⟨1, _⟩ => show win11_1.index t (1 : Fin 2) * 128 + 1 * q.val = win11_3.index t (1 : Fin 2) * 128 + 1 * q.val; omega
  have h2 : ((cfg11.win 2).blk t).view.emb (ix2 0 q)
      = ix2 (n0 := 1) (n1 := 128) 0 ((((cfg11.win 3).blk t).view.emb (ix2 p q)) 1) := by
    funext a; apply Fin.ext
    match a with
    | ⟨0, _⟩ => show win11_2.index t (0 : Fin 2) * 1 + 1 * 0 = 0; omega
    | ⟨1, _⟩ => show win11_2.index t (1 : Fin 2) * 128 + 1 * q.val = win11_3.index t (1 : Fin 2) * 128 + 1 * q.val; omega
  rw [h0, h1, h2]
  rfl

/-- An index of the array is in point `t`'s block iff each coordinate is in the block's range on its axis. -/
theorem mem_blk11_3 (t : Fin cfg11.N) (i : S50000x128.Idx) :
    i ∈ ((cfg11.win 3).blk t).view.set ↔ ∀ a : Fin 2, win11_3.index t a * S5000x128.size a ≤ (i a).val ∧ (i a).val < win11_3.index t a * S5000x128.size a + S5000x128.size a := by
  show i ∈ ((View.whole main_v239).slice (win11_3.rect t)).set ↔ _
  rw [View.set_slice_whole, Rect.mem_set_unit]
  exact Iff.rfl

/-- Every entry of the result is in some point's block: row `R` in that of point `R / 5000`. -/
theorem cover11_arr (i : S50000x128.Idx) :
    ∃ t : Fin cfg11.N, (cfg11.win 3).flush t = true ∧ i ∈ ((cfg11.win 3).blk t).view.set := by
  have hi0 : (i 0).val < 50000 := (i 0).isLt
  have hi1 : (i 1).val < 128 := (i 1).isLt
  obtain ⟨t, ht⟩ := idx_onto11 ⟨(i 0).val / 5000, by omega⟩
  have q0 : win11_3.index t (0 : Fin 2) = (i 0).val / 5000 := congrFun ht 0
  have q1 : win11_3.index t (1 : Fin 2) = 0 := congrFun ht 1
  refine ⟨t, flush11_3 t, ?_⟩
  rw [mem_blk11_3]
  intro a
  match a with
  | ⟨0, _⟩ => show win11_3.index t (0 : Fin 2) * 5000 ≤ (i 0).val ∧ (i 0).val < win11_3.index t (0 : Fin 2) * 5000 + 5000; omega
  | ⟨1, _⟩ => show win11_3.index t (1 : Fin 2) * 128 ≤ (i 1).val ∧ (i 1).val < win11_3.index t (1 : Fin 2) * 128 + 128; omega

/-- THE RESULT ARRAY after the call is `relu11` of the three arrays as the call finds them. -/
theorem final11_3 (c : Dev nD) :
    (dat11 (F := Ideal) V c).arrAt 3 cfg11.N = relu11 (inZ11 V c) (inS11 V c) (inT11 V c) :=
  (dat11 (F := Ideal) V c).arrAt_eq_of_cover 3 _ (fun t _ => flushed11_3_eq V c t) cover11_arr

/-- The same, entry by entry: `max (Z (R, j) * S (0, j) + T (0, j)) 0`. -/
theorem arrAt11_3 (c : Dev nD) (R : Fin 50000) (j : Fin 128) :
    (dat11 (F := Ideal) V c).arrAt 3 cfg11.N (ix2 R j)
      = max (inZ11 V c (ix2 R j) * inS11 V c (ix2 0 j) + inT11 V c (ix2 0 j)) 0 := by
  rw [final11_3]; rfl

/-- The three input arrays end as the call found them: an input window is never written back. -/
theorem arrAt11_0 (c : Dev nD) : (dat11 (F := Ideal) V c).arrAt 0 cfg11.N = V c (Pipeline.arrRef spec11 0) :=
  ((dat11 (F := Ideal) V c).arrAt_in 0 rfl _).trans (A_eq11 V c 0)
theorem arrAt11_1 (c : Dev nD) : (dat11 (F := Ideal) V c).arrAt 1 cfg11.N = V c (Pipeline.arrRef spec11 1) :=
  ((dat11 (F := Ideal) V c).arrAt_in 1 rfl _).trans (A_eq11 V c 1)
theorem arrAt11_2 (c : Dev nD) : (dat11 (F := Ideal) V c).arrAt 2 cfg11.N = V c (Pipeline.arrRef spec11 2) :=
  ((dat11 (F := Ideal) V c).arrAt_in 2 rfl _).trans (A_eq11 V c 2)

end Cert.KernelIdeal.Hand
-- ==== Proof.KI.Layer3.lean ====
/-
  Layer 3 of the kernel program, read through its three kernel regions and the host stretches between them: the
  first kernel's output is the first dense layer of the input activations plus their neighbour sums, with its column
  sums and sums of squares; the host folds them into a scale and a shift per column; the second kernel's output is the
  second dense layer of the rectified affine image, again with its column statistics; the third kernel applies the
  second folded scale and shift and the rectifier. Together: the folded arrangement of the layer.
-/
import proofs.«102976_j3633542332749_1_alg».proof.Proof.Gen.KernelIdeal.Launch
import proofs.«102976_j3633542332749_1_alg».proof.Proof.Gen.KernelIdeal.Skeleton
import proofs.«102976_j3633542332749_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102976_j3633542332749_1_alg».proof.Proof.KI.Params
import proofs.«102976_j3633542332749_1_alg».proof.Proof.KI.Stages
import proofs.«102976_j3633542332749_1_alg».proof.Proof.KI.A9Val
import proofs.«102976_j3633542332749_1_alg».proof.Proof.KI.B10Val
import proofs.«102976_j3633542332749_1_alg».proof.Proof.KI.C11Val
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

local notation "N₀" => Ideal.ofBits FTy.f32 0x47435000#32
local notation "E₀" => Ideal.ofBits FTy.f32 0x3727C5AC#32

variable (m : (ℓ : Loc nD τ sig) → Buf (Elt Ideal) ℓ) (ρ : Dev nD → PrngReg)

/-! ## Layer 3 -/

/-- The layer's input activations, as the kernel region finds them. -/
def act3 (c : Dev nD) : Fin 50000 → Fin 128 → EReal := fun R k => (W18 m ρ c (Proc.devRef .tc main_v180) : S50000x128.Idx → EReal) (ix2 R k)
/-- The neighbour sums of the layer's input. -/
def nbr3 (c : Dev nD) : Fin 50000 → Fin 128 → EReal := fun R k => (aggOf (F := Ideal) (W18 m ρ c (Proc.devRef .tc main_v180)) (srcCol m c) (dstCol m c) : S50000x128.Idx → EReal) (ix2 R k)

theorem featA9_eq (c : Dev nD) : featA9 (V19 m ρ) c = act3 m ρ c := by
  funext R k
  exact congrFun (h_after9 (W18 m ρ c)) (ix2 R k)
theorem aggA9_eq (c : Dev nD) : aggA9 (V19 m ρ) c = nbr3 m ρ c := by
  funext R k
  refine (congrFun (agg_after9 (W18 m ρ c)) (ix2 R k)).trans ?_
  show (aggOf (F := Ideal) _ (srcColOf (W18 m ρ c (Proc.devRef .tc main_v1))) (dstColOf (W18 m ρ c (Proc.devRef .tc main_v3))) : S50000x128.Idx → EReal) (ix2 R k) = _
  rw [show (W18 m ρ c (Proc.devRef .tc main_v1) : IVec S600000 32) = edgeRow (m ((c : Thread nD τ).loc main_arg1)) 0 slices_S2x600000_S1x600000_0_0 from ((W18_src m ρ c).trans (src_after0 (W0 m ρ c))),
    show (W18 m ρ c (Proc.devRef .tc main_v3) : IVec S600000 32) = edgeRow (m ((c : Thread nD τ).loc main_arg1)) 1 slices_S2x600000_S1x600000_1_0 from ((W18_dst m ρ c).trans (dst_after0 (W0 m ρ c)))]
  rfl
theorem wA9_eq (c : Dev nD) : wA9 (V19 m ρ) c = w1At m c 3 := by
  funext k j
  refine (congrFun (weight_after9 (W18 m ρ c)) (ix2 k j)).trans ?_
  refine (matOf_apply _ _ _ 3 k j rfl rfl rfl).trans ?_
  exact congrFun (W18_arg m ρ c main_arg3 (by decide)) (ix3 3 k j)
theorem bA9_eq (c : Dev nD) : bA9 (V19 m ρ) c = b1At m c 3 := by
  funext j
  refine (congrFun (bias_after9 (W18 m ρ c)) (ix2 0 j)).trans ?_
  refine (rowOf_apply _ _ _ 3 j rfl rfl).trans ?_
  exact congrFun (W18_arg m ρ c main_arg4 (by decide)) (ix2 3 j)

/-- The first dense layer's output, as the first kernel leaves it. -/
def pre1_3 (c : Dev nD) : Fin 50000 → Fin 128 → EReal := Cert.Spec.dense1 (act3 m ρ c) (nbr3 m ρ c) (w1At m c 3) (b1At m c 3)

theorem z1_3 (c : Dev nD) (R : Fin 50000) (k : Fin 128) : (W20 m ρ c (Proc.devRef .tc main_v196_0) : S50000x128.Idx → EReal) (ix2 R k) = pre1_3 m ρ c R k := by
  refine (congrFun (W20_arr m ρ c 4) (ix2 R k)).trans ?_
  refine (z_final9 (V19 m ρ) c R k).trans ?_
  rw [featA9_eq, aggA9_eq, wA9_eq, bA9_eq]; rfl
theorem s1_3 (c : Dev nD) (k : Fin 128) : (W20 m ρ c (Proc.devRef .tc main_v196_1) : S1x128.Idx → EReal) (ix2 0 k) = Cert.Spec.colSum (pre1_3 m ρ c) k := by
  refine (congrFun (W20_arr m ρ c 5) (ix2 0 k)).trans ?_
  refine (sum_final9 (V19 m ρ) c k).trans ?_
  rw [featA9_eq, aggA9_eq, wA9_eq, bA9_eq]; rfl
theorem q1_3 (c : Dev nD) (k : Fin 128) : (W20 m ρ c (Proc.devRef .tc main_v196_2) : S1x128.Idx → EReal) (ix2 0 k) = Cert.Spec.colSumSq (pre1_3 m ρ c) k := by
  refine (congrFun (W20_arr m ρ c 6) (ix2 0 k)).trans ?_
  refine (sq_final9 (V19 m ρ) c k).trans ?_
  rw [featA9_eq, aggA9_eq, wA9_eq, bA9_eq]; rfl

/-- What the second kernel reads: the first dense layer's output, the folded scale and shift, the second weights. -/
theorem inZ10_eq (c : Dev nD) (R : Fin 50000) (k : Fin 128) : inZ10 (V21 m ρ) c (ix2 R k) = pre1_3 m ρ c R k :=
  (congrFun (z_after10 (W20 m ρ c)) (ix2 R k)).trans (z1_3 m ρ c R k)
theorem inS10_eq (c : Dev nD) (k : Fin 128) : inS10 (V21 m ρ) c (ix2 0 k) = Cert.Spec.scaleF (pre1_3 m ρ c) (gmAt m c 3) N₀ E₀ k := by
  refine (congrFun (scale_after10 (W20 m ρ c)) (ix2 0 k)).trans ?_
  rw [scaleOf_apply, rowOf_apply _ _ _ 3 k rfl rfl, s1_3, q1_3]
  rw [show (W20 m ρ c (Proc.devRef .tc main_arg7) : S4x128.Idx → EReal) (ix2 3 k) = gmAt m c 3 k from congrFun (W20_arg m ρ c main_arg7 (by decide)) (ix2 3 k)]
  rfl
theorem inT10_eq (c : Dev nD) (k : Fin 128) : inT10 (V21 m ρ) c (ix2 0 k) = Cert.Spec.shiftF (pre1_3 m ρ c) (gmAt m c 3) (bmAt m c 3) N₀ E₀ k := by
  refine (congrFun (shift_after10 (W20 m ρ c)) (ix2 0 k)).trans ?_
  rw [shiftOf_apply, rowOf_apply _ _ _ 3 k rfl rfl, rowOf_apply _ _ _ 3 k rfl rfl, s1_3, q1_3]
  rw [show (W20 m ρ c (Proc.devRef .tc main_arg7) : S4x128.Idx → EReal) (ix2 3 k) = gmAt m c 3 k from congrFun (W20_arg m ρ c main_arg7 (by decide)) (ix2 3 k),
    show (W20 m ρ c (Proc.devRef .tc main_arg8) : S4x128.Idx → EReal) (ix2 3 k) = bmAt m c 3 k from congrFun (W20_arg m ρ c main_arg8 (by decide)) (ix2 3 k)]
  rfl
theorem inW10_eq (c : Dev nD) (k j : Fin 128) : inW10 (V21 m ρ) c (ix2 k j) = w2At m c 3 k j := by
  refine (congrFun (weight_after10 (W20 m ρ c)) (ix2 k j)).trans ?_
  refine (matOf_apply _ _ _ 3 k j rfl rfl rfl).trans ?_
  exact congrFun (W20_arg m ρ c main_arg5 (by decide)) (ix3 3 k j)
theorem inB10_eq (c : Dev nD) (j : Fin 128) : inB10 (V21 m ρ) c (ix2 0 j) = b2At m c 3 j := by
  refine (congrFun (bias_after10 (W20 m ρ c)) (ix2 0 j)).trans ?_
  refine (rowOf_apply _ _ _ 3 j rfl rfl).trans ?_
  exact congrFun (W20_arg m ρ c main_arg6 (by decide)) (ix2 3 j)

/-- The second dense layer's output, as the second kernel leaves it. -/
def pre2_3 (c : Dev nD) : Fin 50000 → Fin 128 → EReal :=
  Cert.Spec.dense2 (pre1_3 m ρ c) (Cert.Spec.scaleF (pre1_3 m ρ c) (gmAt m c 3) N₀ E₀) (Cert.Spec.shiftF (pre1_3 m ρ c) (gmAt m c 3) (bmAt m c 3) N₀ E₀) (w2At m c 3) (b2At m c 3)

theorem dense2_args_3 (c : Dev nD) :
    Cert.Spec.dense2 (fun R k => inZ10 (V21 m ρ) c (ix2 R k)) (fun k => inS10 (V21 m ρ) c (ix2 0 k)) (fun k => inT10 (V21 m ρ) c (ix2 0 k))
      (fun k j => inW10 (V21 m ρ) c (ix2 k j)) (fun j => inB10 (V21 m ρ) c (ix2 0 j)) = pre2_3 m ρ c := by
  rw [show (fun R k => inZ10 (V21 m ρ) c (ix2 R k)) = pre1_3 m ρ c from funext fun R => funext fun k => inZ10_eq m ρ c R k,
    show (fun k => inS10 (V21 m ρ) c (ix2 0 k)) = Cert.Spec.scaleF (pre1_3 m ρ c) (gmAt m c 3) N₀ E₀ from funext fun k => inS10_eq m ρ c k,
    show (fun k => inT10 (V21 m ρ) c (ix2 0 k)) = Cert.Spec.shiftF (pre1_3 m ρ c) (gmAt m c 3) (bmAt m c 3) N₀ E₀ from funext fun k => inT10_eq m ρ c k,
    show (fun k j => inW10 (V21 m ρ) c (ix2 k j)) = w2At m c 3 from funext fun k => funext fun j => inW10_eq m ρ c k j,
    show (fun j => inB10 (V21 m ρ) c (ix2 0 j)) = b2At m c 3 from funext fun j => inB10_eq m ρ c j]
  rfl
theorem z2_3 (c : Dev nD) (R : Fin 50000) (j : Fin 128) : (W22 m ρ c (Proc.devRef .tc main_v220_0) : S50000x128.Idx → EReal) (ix2 R j) = pre2_3 m ρ c R j := by
  refine (congrFun (W22_arr m ρ c 5) (ix2 R j)).trans ?_
  refine (arrAt10_5 (V21 m ρ) c R j).trans ?_
  rw [dense2_args_3]
theorem s2_3 (c : Dev nD) (j : Fin 128) : (W22 m ρ c (Proc.devRef .tc main_v220_1) : S1x128.Idx → EReal) (ix2 0 j) = Cert.Spec.colSum (pre2_3 m ρ c) j := by
  refine (congrFun (W22_arr m ρ c 6) (ix2 0 j)).trans ?_
  refine (arrAt10_6 (V21 m ρ) c j).trans ?_
  rw [dense2_args_3]
theorem q2_3 (c : Dev nD) (j : Fin 128) : (W22 m ρ c (Proc.devRef .tc main_v220_2) : S1x128.Idx → EReal) (ix2 0 j) = Cert.Spec.colSumSq (pre2_3 m ρ c) j := by
  refine (congrFun (W22_arr m ρ c 7) (ix2 0 j)).trans ?_
  refine (arrAt10_7 (V21 m ρ) c j).trans ?_
  rw [dense2_args_3]

/-- THE LAYER: what the third kernel leaves is the folded arrangement of the layer at its input. -/
theorem layer3_value (c : Dev nD) (R : Fin 50000) (j : Fin 128) :
    (W24 m ρ c (Proc.devRef .tc main_v239) : S50000x128.Idx → EReal) (ix2 R j)
      = Cert.Spec.layerF (act3 m ρ c) (nbr3 m ρ c) (w1At m c 3) (b1At m c 3) (w2At m c 3) (b2At m c 3)
          (gmAt m c 3) (bmAt m c 3) (goAt m c 3) (boAt m c 3) N₀ E₀ R j := by
  refine (congrFun (W24_arr m ρ c 3) (ix2 R j)).trans ?_
  refine (arrAt11_3 (V23 m ρ) c R j).trans ?_
  have hz : inZ11 (V23 m ρ) c (ix2 R j) = pre2_3 m ρ c R j :=
    (congrFun (z_after11 (W22 m ρ c)) (ix2 R j)).trans (z2_3 m ρ c R j)
  have hs : inS11 (V23 m ρ) c (ix2 0 j) = Cert.Spec.scaleF (pre2_3 m ρ c) (goAt m c 3) N₀ E₀ j := by
    refine (congrFun (scale_after11 (W22 m ρ c)) (ix2 0 j)).trans ?_
    rw [scaleOf_apply, rowOf_apply _ _ _ 3 j rfl rfl, s2_3, q2_3]
    rw [show (W22 m ρ c (Proc.devRef .tc main_arg9) : S4x128.Idx → EReal) (ix2 3 j) = goAt m c 3 j from congrFun (W22_arg m ρ c main_arg9 (by decide)) (ix2 3 j)]
    rfl
  have ht : inT11 (V23 m ρ) c (ix2 0 j) = Cert.Spec.shiftF (pre2_3 m ρ c) (goAt m c 3) (boAt m c 3) N₀ E₀ j := by
    refine (congrFun (shift_after11 (W22 m ρ c)) (ix2 0 j)).trans ?_
    rw [shiftOf_apply, rowOf_apply _ _ _ 3 j rfl rfl, rowOf_apply _ _ _ 3 j rfl rfl, s2_3, q2_3]
    rw [show (W22 m ρ c (Proc.devRef .tc main_arg9) : S4x128.Idx → EReal) (ix2 3 j) = goAt m c 3 j from congrFun (W22_arg m ρ c main_arg9 (by decide)) (ix2 3 j),
      show (W22 m ρ c (Proc.devRef .tc main_arg10) : S4x128.Idx → EReal) (ix2 3 j) = boAt m c 3 j from congrFun (W22_arg m ρ c main_arg10 (by decide)) (ix2 3 j)]
    rfl
  rw [hz, hs, ht]
  rfl

end Cert.KernelIdeal.Hand

end
-- ==== Proof.KI.Finite.lean ====
import proofs.«102976_j3633542332749_1_alg».proof.Defs
import proofs.«102976_j3633542332749_1_alg».proof.Proof.Gen.Pre_finite_inputs
import Idealize.ShloMosaic.Lib.ReduceAll
import Idealize.ShloMosaic.Lib.ValueIdx
import Idealize.ShloMosaic.PureOps.Ideal

/-! # Every float argument is an array of real numbers

The precondition compares the absolute value of every entry of every float argument with plus infinity, takes the
conjunction over each array and then over the arrays, and says that the result is one. At the extended reals an
entry whose absolute value is below plus infinity is neither infinity, so it is a real number. This file reads the
printed predicate back, argument by argument. -/

noncomputable section

namespace Cert.KernelIdeal.Hand

open Cert.KernelIdeal Idealize.ShloMosaic Idealize.ShloMosaic.TcCoe
open Idealize.ShloMosaic.ValueIdx

/-- The scalar shape has one index. -/
instance subsingleton_scalar_idx : Subsingleton Cert.Pre_finite_inputs.S_.Idx := ⟨fun a b => funext fun d => d.elim0⟩

/-- The f32 word of plus infinity denotes the top extended real. -/
theorem ofBits_inf : Ideal.ofBits .f32 0x7F800000#32 = (⊤ : EReal) := by simp [Ideal.ofBits, Ideal.ieee]

/-- An extended real whose absolute value `max x (-x)` compares below plus infinity is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One array's part of the predicate: if the conjunction over all entries of "the absolute value is below plus
    infinity" is one, every entry is a real number. -/
theorem real_of_all_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim s ![] hb (constant Cert.Pre_finite_inputs.S_ .f32 0x7F800000#32)))
          init hr hu ix0 = 1#1) :
    ∀ i, ∃ r : ℝ, (x : s.Idx → EReal) i = (r : EReal) := by
  intro i
  have h := Host.reduce_andi_all _ init hr hu ix0 e i
  exact real_of_abs_lt_inf (x i) h

variable (m : (ℓ : Loc nD τ sig) → Buf (Elt Ideal) ℓ)

/-- THE PRECONDITION DECODED: on every device, every entry of each of the eleven float arguments is a real number. -/
theorem real_args (hpre : Cert.Pre_KernelIdeal m) (c : Dev nD) :
    (∀ i, ∃ r : ℝ, (m ((c.tc : Thread nD τ).loc main_arg0) : S50000x128.Idx → EReal) i = (r : EReal))
    ∧ (∀ i, ∃ r : ℝ, (m ((c.tc : Thread nD τ).loc main_arg3) : S4x128x128.Idx → EReal) i = (r : EReal))
    ∧ (∀ i, ∃ r : ℝ, (m ((c.tc : Thread nD τ).loc main_arg4) : S4x128.Idx → EReal) i = (r : EReal))
    ∧ (∀ i, ∃ r : ℝ, (m ((c.tc : Thread nD τ).loc main_arg5) : S4x128x128.Idx → EReal) i = (r : EReal))
    ∧ (∀ i, ∃ r : ℝ, (m ((c.tc : Thread nD τ).loc main_arg6) : S4x128.Idx → EReal) i = (r : EReal))
    ∧ (∀ i, ∃ r : ℝ, (m ((c.tc : Thread nD τ).loc main_arg7) : S4x128.Idx → EReal) i = (r : EReal))
    ∧ (∀ i, ∃ r : ℝ, (m ((c.tc : Thread nD τ).loc main_arg8) : S4x128.Idx → EReal) i = (r : EReal))
    ∧ (∀ i, ∃ r : ℝ, (m ((c.tc : Thread nD τ).loc main_arg9) : S4x128.Idx → EReal) i = (r : EReal))
    ∧ (∀ i, ∃ r : ℝ, (m ((c.tc : Thread nD τ).loc main_arg10) : S4x128.Idx → EReal) i = (r : EReal))
    ∧ (∀ i, ∃ r : ℝ, (m ((c.tc : Thread nD τ).loc main_arg11) : S5x128x10.Idx → EReal) i = (r : EReal))
    ∧ (∀ i, ∃ r : ℝ, (m ((c.tc : Thread nD τ).loc main_arg12) : S5x10.Idx → EReal) i = (r : EReal)) := by
  have e := congrFun (hpre c) ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨h0, h3⟩, h4⟩, h5⟩, h6⟩, h7⟩, h8⟩, h9⟩, h10⟩, h11⟩, h12⟩ := e
  exact ⟨real_of_all_finite _ _ _ _ _ h0,
    real_of_all_finite _ _ _ _ _ h3,
    real_of_all_finite _ _ _ _ _ h4,
    real_of_all_finite _ _ _ _ _ h5,
    real_of_all_finite _ _ _ _ _ h6,
    real_of_all_finite _ _ _ _ _ h7,
    real_of_all_finite _ _ _ _ _ h8,
    real_of_all_finite _ _ _ _ _ h9,
    real_of_all_finite _ _ _ _ _ h10,
    real_of_all_finite _ _ _ _ _ h11,
    real_of_all_finite _ _ _ _ _ h12⟩

/-- Every entry of argument 0 is a real number. -/
theorem real_arg0 (hpre : Cert.Pre_KernelIdeal m) (c : Dev nD) :
    ∀ i, ∃ r : ℝ, (m ((c.tc : Thread nD τ).loc main_arg0) : S50000x128.Idx → EReal) i = (r : EReal) :=
  (real_args m hpre c).1

/-- Every entry of argument 3 is a real number. -/
theorem real_arg3 (hpre : Cert.Pre_KernelIdeal m) (c : Dev nD) :
    ∀ i, ∃ r : ℝ, (m ((c.tc : Thread nD τ).loc main_arg3) : S4x128x128.Idx → EReal) i = (r : EReal) :=
  (real_args m hpre c).2.1

/-- Every entry of argument 4 is a real number. -/
theorem real_arg4 (hpre : Cert.Pre_KernelIdeal m) (c : Dev nD) :
    ∀ i, ∃ r : ℝ, (m ((c.tc : Thread nD τ).loc main_arg4) : S4x128.Idx → EReal) i = (r : EReal) :=
  (real_args m hpre c).2.2.1

/-- Every entry of argument 5 is a real number. -/
theorem real_arg5 (hpre : Cert.Pre_KernelIdeal m) (c : Dev nD) :
    ∀ i, ∃ r : ℝ, (m ((c.tc : Thread nD τ).loc main_arg5) : S4x128x128.Idx → EReal) i = (r : EReal) :=
  (real_args m hpre c).2.2.2.1

/-- Every entry of argument 6 is a real number. -/
theorem real_arg6 (hpre : Cert.Pre_KernelIdeal m) (c : Dev nD) :
    ∀ i, ∃ r : ℝ, (m ((c.tc : Thread nD τ).loc main_arg6) : S4x128.Idx → EReal) i = (r : EReal) :=
  (real_args m hpre c).2.2.2.2.1

/-- Every entry of argument 7 is a real number. -/
theorem real_arg7 (hpre : Cert.Pre_KernelIdeal m) (c : Dev nD) :
    ∀ i, ∃ r : ℝ, (m ((c.tc : Thread nD τ).loc main_arg7) : S4x128.Idx → EReal) i = (r : EReal) :=
  (real_args m hpre c).2.2.2.2.2.1

/-- Every entry of argument 8 is a real number. -/
theorem real_arg8 (hpre : Cert.Pre_KernelIdeal m) (c : Dev nD) :
    ∀ i, ∃ r : ℝ, (m ((c.tc : Thread nD τ).loc main_arg8) : S4x128.Idx → EReal) i = (r : EReal) :=
  (real_args m hpre c).2.2.2.2.2.2.1

/-- Every entry of argument 9 is a real number. -/
theorem real_arg9 (hpre : Cert.Pre_KernelIdeal m) (c : Dev nD) :
    ∀ i, ∃ r : ℝ, (m ((c.tc : Thread nD τ).loc main_arg9) : S4x128.Idx → EReal) i = (r : EReal) :=
  (real_args m hpre c).2.2.2.2.2.2.2.1

/-- Every entry of argument 10 is a real number. -/
theorem real_arg10 (hpre : Cert.Pre_KernelIdeal m) (c : Dev nD) :
    ∀ i, ∃ r : ℝ, (m ((c.tc : Thread nD τ).loc main_arg10) : S4x128.Idx → EReal) i = (r : EReal) :=
  (real_args m hpre c).2.2.2.2.2.2.2.2.1

/-- Every entry of argument 11 is a real number. -/
theorem real_arg11 (hpre : Cert.Pre_KernelIdeal m) (c : Dev nD) :
    ∀ i, ∃ r : ℝ, (m ((c.tc : Thread nD τ).loc main_arg11) : S5x128x10.Idx → EReal) i = (r : EReal) :=
  (real_args m hpre c).2.2.2.2.2.2.2.2.2.1

/-- Every entry of argument 12 is a real number. -/
theorem real_arg12 (hpre : Cert.Pre_KernelIdeal m) (c : Dev nD) :
    ∀ i, ∃ r : ℝ, (m ((c.tc : Thread nD τ).loc main_arg12) : S5x10.Idx → EReal) i = (r : EReal) :=
  (real_args m hpre c).2.2.2.2.2.2.2.2.2.2

end Cert.KernelIdeal.Hand

end
-- ==== Proof.LibGatherScatterRows.lean ====
/-
  Host operations READ AT AN INDEX, for the dimension numbers an indexing by an `E × 1` column of positions lowers to:
  a scatter-add of whole rows into a matrix (the sum, over the update rows sent to a row, of their entries), a gather of
  whole rows of a matrix, a gather of entries of a vector, and a scatter-add of entries into a vector. A gather clamps
  the position into the operand; a scatter drops an update whose position is outside it. First, for ANY scatter
  dimension numbers: an update lands at an operand index exactly when start plus window coordinate is that index on
  every axis.
-/
import Idealize.ShloMosaic.PureOps.Ideal
import Idealize.ShloMosaic.PureOps.Contract
import Idealize.ShloMosaic.Lib.ValueIdx

noncomputable section

open scoped BigOperators

namespace Cert.LibGatherScatterRows

open Idealize.ShloMosaic Idealize.ShloMosaic.ValueIdx

/-! ## Where an update lands, for any scatter dimension numbers -/

/-- An update index `j` lands at the operand index `i` exactly when, on every operand axis, the window's start plus
    the window coordinate is `i`'s coordinate (the sum is then inside the operand, so the update is not dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hc
      have hi := Option.some.inj h
      intro a
      have hv := congrArg Fin.val (congrFun hi a)
      simp only at hv
      have := (hc a).1
      omega
    · exact absurd h (by simp)
  · intro h
    have hc : ∀ a, 0 ≤ d.start j idx a + d.window j a ∧ d.start j idx a + d.window j a < s.size a := by
      intro a
      have := h a
      have := (i a).isLt
      omega
    rw [dif_pos hc]
    congr 1
    funext a
    refine Fin.ext ?_
    have := h a
    simp only
    omega

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

/-- In rank 2, axis 1 is not in the list `[0]`. -/
theorem one_not_mem_zero {s : Shape} (hs : s.rank = 2) : (⟨1, by omega⟩ : Fin s.rank) ∉ [(⟨0, by omega⟩ : Fin s.rank)] :=
  fun h => absurd (congrArg Fin.val (List.mem_singleton.mp h)) Nat.one_ne_zero

/-! ## A scatter-add of rows -/

/-- The dimension numbers of a scatter of `E` rows of width `D` into an `N × D` matrix at the row numbers held in an
    `E × 1` column: the updates' axis 1 is the window, the operand's axis 0 is inserted and is the one the index names. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N D E w : Nat} (wf : ScatterDims.WF ⟨2, ![N, D]⟩ ⟨2, ![E, 1]⟩ ⟨2, ![E, D]⟩ [1] [0] [0] 1)

/-- On the operand's row axis the window of update `(e, q')` starts at the row number `idx[e, 0]`, read signed. -/
theorem rowScatter_start_row (idx : IVec ⟨2, ![E, 1]⟩ w) (e : Fin E) (q' : Fin D) :
    (rowScatterDims N D E wf).start (ix2 e q') idx 0 = (idx (ix2 e 0)).toInt := by
  unfold ScatterDims.start
  rw [dif_pos (show (0 : Fin 2) ∈ (rowScatterDims N D E wf).scatterDimsToOperandDims from List.mem_singleton.mpr rfl)]
  have hsi : (rowScatterDims N D E wf).siIdx (ix2 e q')
      ⟨List.idxOf (0 : Fin 2) (rowScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's column axis, which the index does not name, the window starts at `0`. -/
theorem rowScatter_start_col (idx : IVec ⟨2, ![E, 1]⟩ w) (e : Fin E) (q' : Fin D) :
    (rowScatterDims N D E wf).start (ix2 e q') idx 1 = 0 := by
  unfold ScatterDims.start
  rw [dif_neg (show (1 : Fin 2) ∉ (rowScatterDims N D E wf).scatterDimsToOperandDims from one_not_mem_zero rfl)]

/-- The row axis is inserted: the window coordinate on it is `0`. -/
theorem rowScatter_window_row (e : Fin E) (q' : Fin D) : (rowScatterDims N D E wf).window (ix2 e q') 0 = 0 := by
  unfold ScatterDims.window
  rw [dif_neg (show (0 : Fin 2) ∉ (rowScatterDims N D E wf).sKept from fun h => (mem_kept _ _).mp h (List.mem_singleton.mpr rfl))]

/-- The column axis carries the window: the window coordinate on it is the update's column `q'`. -/
theorem rowScatter_window_col (e : Fin E) (q' : Fin D) : (rowScatterDims N D E wf).window (ix2 e q') 1 = q'.val := by
  unfold ScatterDims.window
  rw [dif_pos (show (1 : Fin 2) ∈ (rowScatterDims N D E wf).sKept from (mem_kept _ _).mpr (one_not_mem_zero rfl))]
  rfl

/-- WHERE A ROW UPDATE LANDS: update `(e, q')` lands at operand element `(r, q)` exactly when the row number
    `idx[e, 0]`, read signed, is `r` and the columns agree (a row number outside `[0, N)` lands nowhere). -/
theorem rowScatter_resultIdx?_eq_some_iff (idx : IVec ⟨2, ![E, 1]⟩ w) (e : Fin E) (q' : Fin D) (r : Fin N) (q : Fin D) :
    (rowScatterDims N D E wf).resultIdx? (ix2 e q') idx = some (ix2 r q)
      ↔ ((idx (ix2 e 0)).toInt = (r.val : ℤ) ∧ q' = q) := by
  rw [resultIdx?_eq_some_iff]
  constructor
  · intro h
    have h0 := h 0
    have h1 := h 1
    rw [rowScatter_start_row, rowScatter_window_row] at h0
    rw [rowScatter_start_col, rowScatter_window_col] at h1
    simp only [Nat.cast_zero, add_zero] at h0
    simp only [zero_add, Nat.cast_inj] at h1
    exact ⟨h0, Fin.ext h1⟩
  · rintro ⟨h0, rfl⟩ a
    match a with
    | ⟨0, _⟩ =>
      show (rowScatterDims N D E wf).start (ix2 e q') idx 0 + ((rowScatterDims N D E wf).window (ix2 e q') 0 : ℤ) = _
      rw [rowScatter_start_row, rowScatter_window_row, h0]; simp
    | ⟨1, _⟩ =>
      show (rowScatterDims N D E wf).start (ix2 e q') idx 1 + ((rowScatterDims N D E wf).window (ix2 e q') 1 : ℤ) = _
      rw [rowScatter_start_col, rowScatter_window_col]; simp

end RowScatter

/-- A SCATTER-ADD OF ROWS READ AT `(r, q)`, at the ideal values: the operand's element plus the sum, over the update
    rows `e` whose row number `idx[e, 0]` (read signed) is `r`, of the update's entry in column `q`. A row number
    outside `[0, N)` equals no `r`: its row is dropped. (`d` is any record equal to the literal one, e.g. a program's
    own definition: `hd` is then `rfl`.) -/
theorem scatterAdd_rows_apply {N D E w : Nat} {φ : FTy}
    (d : ScatterDims ⟨2, ![N, D]⟩ ⟨2, ![E, 1]⟩ ⟨2, ![E, D]⟩)
    (wf : ScatterDims.WF ⟨2, ![N, D]⟩ ⟨2, ![E, 1]⟩ ⟨2, ![E, D]⟩ [1] [0] [0] 1)
    (hd : d = rowScatterDims N D E wf)
    (x : FVec Ideal ⟨2, ![N, D]⟩ φ) (idx : IVec ⟨2, ![E, 1]⟩ w) (upd : FVec Ideal ⟨2, ![E, D]⟩ φ)
    (r : Fin N) (q : Fin D) :
    Host.scatterAdd (F := Ideal) d x idx upd (ix2 r q)
      = x (ix2 r q) + ∑ e : Fin E, if (idx (ix2 e 0)).toInt = (r.val : ℤ) then upd (ix2 e q) else 0 := by
  subst hd
  show Ideal.hostScatterAdd (rowScatterDims N D E wf) x idx upd (ix2 r q) = _
  unfold Ideal.hostScatterAdd
  congr 1
  rw [Finset.sum_filter, sum_idx2]
  refine Finset.sum_congr rfl fun e _ => ?_
  simp only [rowScatter_resultIdx?_eq_some_iff]
  by_cases he : (idx (ix2 e 0)).toInt = (r.val : ℤ)
  · simp only [he, true_and, if_true]
    rw [Finset.sum_ite_eq' Finset.univ q (fun q' => upd (ix2 e q'))]
    simp only [Finset.mem_univ, if_true]
  · simp only [he, false_and, if_false, Finset.sum_const_zero]

/-! ## A gather of rows -/

section RowGather
variable {α : Type}

/-- The dimension numbers of a gather of `E` whole rows of an `N × D` matrix at the row numbers held in an `E × 1`
    column: the operand's axis 0 is collapsed and is the one the index names, the slice is one row, and the result's
    axis 1 runs along it. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A GATHER OF ROWS READ AT `(e, q)`: the operand's entry in column `q` of the row whose number is `idx[e, 0]`, read
    signed and clamped into `[0, N − 1]`. (`d` is any record equal to the literal one: `hd` is then `rfl`.) -/
theorem gather_rows_apply {N D E w : Nat} (hN : 0 < N)
    (d : GatherDims ⟨2, ![N, D]⟩ ⟨2, ![E, 1]⟩ ⟨2, ![E, D]⟩)
    (wf : GatherDims.WF ⟨2, ![N, D]⟩ ⟨2, ![E, 1]⟩ ⟨2, ![E, D]⟩ [1] [0] [] [0] [] 1 ![1, D])
    (hd : d = rowGatherDims N D E wf)
    (x : (⟨2, ![N, D]⟩ : Shape).Idx → α) (idx : IVec ⟨2, ![E, 1]⟩ w) (e : Fin E) (q : Fin D) :
    Host.gather d x idx (ix2 e q) = x (ix2 ⟨min (idx (ix2 e 0)).toInt.toNat (N - 1), by omega⟩ q) := by
  subst hd
  unfold Host.gather
  congr 1
  funext a
  refine Fin.ext ?_
  match a with
  | ⟨0, _⟩ =>
    show (rowGatherDims N D E wf).start (ix2 e q) idx 0 + (rowGatherDims N D E wf).batchCoord (ix2 e q) 0
      + (rowGatherDims N D E wf).offCoord (ix2 e q) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e q) ⟨List.idxOf (0 : Fin 2) (rowGatherDims N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D E wf).start (ix2 e q) idx 1 + (rowGatherDims N D E wf).batchCoord (ix2 e q) 1
      + (rowGatherDims N D E wf).offCoord (ix2 e q) 1 = q.val
    rw [GatherDims.batchCoord_eq_zero _ _ _ List.not_mem_nil]
    have hst : (rowGatherDims N D E wf).start (ix2 e q) idx 1 = 0 := by
      unfold GatherDims.start
      rw [dif_neg (show (1 : Fin 2) ∉ (rowGatherDims N D E wf).startIndexMap from one_not_mem_zero rfl)]
    rw [hst]
    simp only [Nat.add_zero, Nat.zero_add]
    unfold GatherDims.offCoord
    rw [dif_pos (show (1 : Fin 2) ∈ (rowGatherDims N D E wf).sKept from
      (GatherDims.mem_sKept _ _).mpr ⟨one_not_mem_zero rfl, List.not_mem_nil⟩)]
    rfl

end RowGather

/-! ## A gather of entries of a vector -/

section VecGather
variable {α : Type}

/-- The dimension numbers of a gather of `E` entries of a vector of `N` entries at the positions held in an `E × 1`
    column: the operand's one axis is collapsed and is the one the index names, the slice is one entry. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A GATHER OF VECTOR ENTRIES READ AT `e`: the operand's entry at the position `idx[e, 0]`, read signed and clamped
    into `[0, N − 1]`. (`d` is any record equal to the literal one: `hd` is then `rfl`.) -/
theorem gather_vec_apply {N E w : Nat} (hN : 0 < N)
    (d : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1])
    (hd : d = vecGatherDims N E wf)
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  subst hd
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

/-! ## A scatter-add of entries into a vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of `E` entries into a vector of `N` entries at the positions held in an
    `E × 1` column: no window axis, the operand's one axis is inserted and is the one the index names. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- WHERE AN ENTRY UPDATE LANDS: update `e` lands at operand entry `r` exactly when the position `idx[e, 0]`, read
    signed, is `r` (a position outside `[0, N)` lands nowhere). -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r) ↔ (idx (ix2 e 0)).toInt = (r.val : ℤ) := by
  rw [resultIdx?_eq_some_iff]
  have hst : (vecScatterDims N E wf).start (ix1 e) idx 0 = (idx (ix2 e 0)).toInt := by
    unfold ScatterDims.start
    rw [dif_pos (show (0 : Fin 1) ∈ (vecScatterDims N E wf).scatterDimsToOperandDims from List.mem_singleton.mpr rfl)]
    have hsi : (vecScatterDims N E wf).siIdx (ix1 e)
        ⟨List.idxOf (0 : Fin 1) (vecScatterDims N E wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hwin : (vecScatterDims N E wf).window (ix1 e) 0 = 0 := by
    unfold ScatterDims.window
    rw [dif_neg (show (0 : Fin 1) ∉ (vecScatterDims N E wf).sKept from
      fun h => (mem_kept _ _).mp h (List.mem_singleton.mpr rfl))]
  constructor
  · intro h
    have h0 := h 0
    rw [hst, hwin] at h0
    simp only [Nat.cast_zero, add_zero] at h0
    exact h0
  · intro h0 a
    obtain rfl : a = 0 := Subsingleton.elim _ _
    rw [hst, hwin, h0]
    simp only [Nat.cast_zero, add_zero]
    rfl

/-- A SCATTER-ADD OF ENTRIES READ AT `r`, at the ideal values: the operand's entry plus the sum of the updates `e`
    whose position `idx[e, 0]` (read signed) is `r`. (`d` is any record equal to the literal one: `hd` is then
    `rfl`.) -/
theorem scatterAdd_vec_apply {N E w : Nat} {φ : FTy}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = vecScatterDims N E wf)
    (x : FVec Ideal ⟨1, ![N]⟩ φ) (idx : IVec ⟨2, ![E, 1]⟩ w) (upd : FVec Ideal ⟨1, ![E]⟩ φ) (r : Fin N) :
    Host.scatterAdd (F := Ideal) d x idx upd (ix1 r)
      = x (ix1 r) + ∑ e : Fin E, if (idx (ix2 e 0)).toInt = (r.val : ℤ) then upd (ix1 e) else 0 := by
  subst hd
  show Ideal.hostScatterAdd (vecScatterDims N E wf) x idx upd (ix1 r) = _
  unfold Ideal.hostScatterAdd
  congr 1
  rw [Finset.sum_filter, sum_idx1]
  refine Finset.sum_congr rfl fun e _ => ?_
  simp only [vecScatter_resultIdx?_eq_some_iff]

end VecScatter

end Cert.LibGatherScatterRows

end
-- ==== Proof.KI.AggReal.lean ====
import proofs.«102976_j3633542332749_1_alg».proof.Proof.KI.Stages2
import proofs.«102976_j3633542332749_1_alg».proof.Proof.LibGatherScatterRows

/-! # The neighbour sum of real activations is real

Every entry of the neighbour sum is the zero the scatter starts from plus a finite sum, over the edges whose
destination is the entry's row, of entries of the gathered rows; a gathered entry is an entry of the activations (the
source number clamped into the node range). If every activation is a real number, so is every entry of the sum. -/

noncomputable section

open scoped BigOperators

namespace Cert.KernelIdeal.Hand

open Cert.KernelIdeal Cert.KernelIdeal.Gen Idealize.ShloMosaic Idealize.ShloMosaic.TcCoe
open Idealize.ShloMosaic.ValueIdx

/-- A finite sum of real numbers, taken in the extended reals, is a real number. -/
theorem real_sum {ι : Type} (s : Finset ι) (f : ι → EReal) (hf : ∀ e ∈ s, ∃ x : ℝ, f e = (x : EReal)) :
    ∃ x : ℝ, ∑ e ∈ s, f e = (x : EReal) :=
  Finset.sum_induction f (fun v => ∃ x : ℝ, v = (x : EReal))
    (fun a b ha hb => by
      obtain ⟨x, rfl⟩ := ha
      obtain ⟨y, rfl⟩ := hb
      exact ⟨x + y, (EReal.coe_add x y).symm⟩)
    ⟨0, EReal.coe_zero.symm⟩ hf

/-- Every entry of the array of zeros is the real number zero. -/
theorem zerosArr_apply (i : S50000x128.Idx) : (zerosArr (F := Ideal)) i = ((0 : ℝ) : EReal) :=
  Ideal.ofBits_zero_f32

/-- The neighbour sum of an array of real numbers is an array of real numbers. -/
theorem aggOf_real (h : FVec Ideal S50000x128 .f32) (sc dc : IVec S600000x1 32)
    (hh : ∀ i, ∃ x : ℝ, (h : S50000x128.Idx → EReal) i = (x : EReal)) :
    ∀ i, ∃ x : ℝ, (aggOf h sc dc : S50000x128.Idx → EReal) i = (x : EReal) := by
  intro i
  obtain ⟨r, q, rfl⟩ : ∃ (r : Fin 50000) (q : Fin 128), i = ix2 r q := ⟨i 0, i 1, eq_ix2 i⟩
  unfold aggOf
  rw [Cert.LibGatherScatterRows.scatterAdd_rows_apply scatter_S50000x128_S600000x1_S600000x128_1_0_0_1
    scatter_S50000x128_S600000x1_S600000x128_1_0_0_1_wf rfl, zerosArr_apply]
  obtain ⟨s, hs⟩ := real_sum Finset.univ
    (fun e : Fin 600000 => if (dc (ix2 e 0)).toInt = (r.val : ℤ)
      then Host.gather gather_S50000x128_S600000x1_S600000x128_1_0_n_n_0_1_1128 h sc (ix2 e q) else 0)
    (fun e _ => by
      split
      · rw [Cert.LibGatherScatterRows.gather_rows_apply (by decide)
          gather_S50000x128_S600000x1_S600000x128_1_0_n_n_0_1_1128
          gather_S50000x128_S600000x1_S600000x128_1_0_n_n_0_1_1128_wf rfl]
        exact hh _
      · exact ⟨0, EReal.coe_zero.symm⟩)
  exact ⟨0 + s, by rw [hs, EReal.coe_add]⟩

end Cert.KernelIdeal.Hand

end
-- ==== Proof.RefRun.Value.lean ====
import proofs.«102976_j3633542332749_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The reference as a chain of pure functions of array contents: one graph-convolution layer (`refLayer`) and the
    pooled classifier with its log-softmax (`refTail`), each the composition of the host operations between its inputs
    and its output, over any float values `F`. -/

/-- Row `r` (0 or 1) of the 2×600000 edge list, as a flat vector of 600000 node numbers. -/
def edgeRow (e : IVec S2x600000 32) (r : Nat) (h : S2x600000.Slices ![r, 0] S1x600000) : IVec S600000 32 :=
  shapeCast S600000 (extractStridedSlice S1x600000 ![r, 0] e h) shapeCasts_S1x600000_S600000

/-- Source node numbers as the gather reads them: a negative number is taken modulo the node count once
    (`s < 0 ? s + 50000 : s`), and the vector is a 600000×1 column. -/
def srcColOf (s : IVec S600000 32) : IVec S600000x1 32 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- Destination node numbers as the scatter reads them: the vector as a 600000×1 column. -/
def dstColOf (d : IVec S600000 32) : IVec S600000x1 32 :=
  broadcastInDim S600000x1 ![0] bcast_S600000_S600000x1_0 d

/-- The source column of an edge list. -/
def srcCol (e : IVec S2x600000 32) : IVec S600000x1 32 := srcColOf (edgeRow e 0 slices_S2x600000_S1x600000_0_0)
/-- The destination column of an edge list. -/
def dstCol (e : IVec S2x600000 32) : IVec S600000x1 32 := dstColOf (edgeRow e 1 slices_S2x600000_S1x600000_1_0)

/-- Layer `i`'s 128×128 matrix out of a stack of four. -/
def matAt (a : FVec F S4x128x128 .f32) (i : Nat) (h : S4x128x128.Slices ![i, 0, 0] S1x128x128) : FVec F S128x128 .f32 :=
  shapeCast S128x128 (extractStridedSlice S1x128x128 ![i, 0, 0] a h) shapeCasts_S1x128x128_S128x128

/-- Layer `i`'s length-128 vector out of a stack of four. -/
def vecAt (a : FVec F S4x128 .f32) (i : Nat) (h : S4x128.Slices ![i, 0] S1x128) : FVec F S128 .f32 :=
  shapeCast S128 (extractStridedSlice S1x128 ![i, 0] a h) shapeCasts_S1x128_S128

/-- A length-128 vector repeated along every one of the 50000 rows. -/
def rows (v : FVec F S128 .f32) : FVec F S50000x128 .f32 :=
  broadcastInDim S50000x128 ![0, 1] bcast_S1x128_S50000x128_0_1 (broadcastInDim S1x128 ![1] bcast_S128_S1x128_1 v)

/-- The 50000×128 array of zeros. -/
def zeros : FVec F S50000x128 .f32 :=
  broadcastInDim S50000x128 ![] bcast_S_S50000x128 (constant S_ .f32 0x00000000#32)

/-- The neighbour sum: row `dst e` accumulates row `src e` of `h` over all edges `e` (a gather, then a scatter-add
    into zeros). -/
def agg (h : FVec F S50000x128 .f32) (sc dc : IVec S600000x1 32) : FVec F S50000x128 .f32 :=
  Host.scatterAdd scatter_S50000x128_S600000x1_S600000x128_1_0_0_1 zeros dc
    (Host.gather gather_S50000x128_S600000x1_S600000x128_1_0_n_n_0_1_1128 h sc)

/-- `x · W + b`, the bias along every row. -/
def lin (x : FVec F S50000x128 .f32) (W : FVec F S128x128 .f32) (b : FVec F S128 .f32) : FVec F S50000x128 .f32 :=
  addf (Host.dotGeneral dot_S50000x128_S128x128_S50000x128_1_0_0_1_n_n none x W) (rows b)

/-- Column sums over the 50000 rows. -/
def colSum (z : FVec F S50000x128 .f32) : FVec F S128 .f32 :=
  Host.reduceAdd z (constant S_ .f32 0x00000000#32) reducesTo_S50000x128_S128_d0 h_S_

/-- Column means: the sums over 50000. -/
def colMean (z : FVec F S50000x128 .f32) : FVec F S128 .f32 :=
  Host.divf (colSum z) (broadcastInDim S128 ![] bcast_S_S128 (constant S_ .f32 0x47435000#32))

/-- The divisor of the variance: the row count less the degrees of freedom, `50000 - 0`. -/
def varCount : FVec F S_ .f32 :=
  subf (constant S_ .f32 0x47435000#32) (sitofp .f32 (constantI S_ 32 0#32))

/-- `z` less its column means, the means taken in the 1×128 layout the variance uses. -/
def centred (z : FVec F S50000x128 .f32) : FVec F S50000x128 .f32 :=
  subf z (broadcastInDim S50000x128 ![0, 1] bcast_S1x128_S50000x128_0_1
    (Host.divf (broadcastInDim S1x128 ![1] bcast_S128_S1x128_1 (colSum z))
      (broadcastInDim S1x128 ![] bcast_S_S1x128 (constant S_ .f32 0x47435000#32))))

/-- Column variances (biased): the column sums of the squared deviations over `varCount`, where that count is positive,
    and not-a-number otherwise. -/
def colVar (z : FVec F S50000x128 .f32) : FVec F S128 .f32 :=
  select (broadcastInDim S128 ![] bcast_S_S128 (cmpf .ogt (varCount (F := F)) (constant S_ .f32 0x00000000#32 : FVec F S_ .f32)))
    (Host.divf (Host.reduceAdd (mulf (centred z) (centred z)) (constant S_ .f32 0x00000000#32) reducesTo_S50000x128_S128_d0 h_S_)
      (broadcastInDim S128 ![] bcast_S_S128 varCount))
    (broadcastInDim S128 ![] bcast_S_S128 (constant S_ .f32 0x7FC00000#32))

/-- Normalization by given column statistics, scale and shift, then the positive part:
    `max(((z - mean) · rsqrt(var + 1e-5)) · g + b, 0)`. -/
def normRelu (z : FVec F S50000x128 .f32) (mean var g b : FVec F S128 .f32) : FVec F S50000x128 .f32 :=
  maximumf
    (addf (mulf (mulf (subf z (rows mean))
        (rows (Host.rsqrt (addf var (broadcastInDim S128 ![] bcast_S_S128 (constant S_ .f32 0x3727C5AC#32))))))
      (rows g)) (rows b))
    zeros

/-- Batch normalization over the rows with the array's own column statistics, then the positive part. -/
def bnRelu (z : FVec F S50000x128 .f32) (g b : FVec F S128 .f32) : FVec F S50000x128 .f32 :=
  normRelu z (colMean z) (colVar z) g b

/-- One layer: `h ↦ bnRelu (lin (bnRelu (lin (h + agg h) W1 b1) gmid bmid) W2 b2) gout bout`. -/
def refLayer (h : FVec F S50000x128 .f32) (sc dc : IVec S600000x1 32)
    (W1 : FVec F S128x128 .f32) (b1 : FVec F S128 .f32) (W2 : FVec F S128x128 .f32) (b2 : FVec F S128 .f32)
    (gmid bmid gout bout : FVec F S128 .f32) : FVec F S50000x128 .f32 :=
  bnRelu (lin (bnRelu (lin (addf h (agg h sc dc)) W1 b1) gmid bmid) W2 b2) gout bout

/-- Graph numbers of the nodes as the pooling scatter reads them: a 50000×1 column. -/
def batchCol (b : IVec S50000 32) : IVec S50000x1 32 :=
  broadcastInDim S50000x1 ![0] bcast_S50000_S50000x1_0 b

/-- Classifier `i`'s 128×10 matrix out of a stack of five. -/
def fcAt (a : FVec F S5x128x10 .f32) (i : Nat) (h : S5x128x10.Slices ![i, 0, 0] S1x128x10) : FVec F S128x10 .f32 :=
  shapeCast S128x10 (extractStridedSlice S1x128x10 ![i, 0, 0] a h) shapeCasts_S1x128x10_S128x10

/-- Classifier `i`'s length-10 bias out of a stack of five. -/
def fcbAt (a : FVec F S5x10 .f32) (i : Nat) (h : S5x10.Slices ![i, 0] S1x10) : FVec F S10 .f32 :=
  shapeCast S10 (extractStridedSlice S1x10 ![i, 0] a h) shapeCasts_S1x10_S10

/-- Per-graph sums of node rows: row `g` accumulates the rows of the nodes of graph `g` (a scatter-add into zeros). -/
def pool (h : FVec F S50000x128 .f32) (bc : IVec S50000x1 32) : FVec F S512x128 .f32 :=
  Host.scatterAdd scatter_S512x128_S50000x1_S50000x128_1_0_0_1
    (broadcastInDim S512x128 ![] bcast_S_S512x128 (constant S_ .f32 0x00000000#32)) bc h

/-- One classifier term added to the running scores: `acc + p · W + b`, the bias along every row. -/
def cls (acc : FVec F S512x10 .f32) (p : FVec F S512x128 .f32) (W : FVec F S128x10 .f32) (b : FVec F S10 .f32) :
    FVec F S512x10 .f32 :=
  addf (addf acc (Host.dotGeneral dot_S512x128_S128x10_S512x10_1_0_0_1_n_n none p W))
    (broadcastInDim S512x10 ![0, 1] bcast_S1x10_S512x10_0_1 (broadcastInDim S1x10 ![1] bcast_S10_S1x10_1 b))

/-- The 512×10 array of zeros. -/
def zeroScores : FVec F S512x10 .f32 :=
  broadcastInDim S512x10 ![] bcast_S_S512x10 (constant S_ .f32 0x00000000#32)

/-- A row's entries less its maximum (the maximum taken against minus infinity). -/
def shifted (x : FVec F S512x10 .f32) : FVec F S512x10 .f32 :=
  subf x (broadcastInDim S512x10 ![0, 1] bcast_S512x1_S512x10_0_1 (broadcastInDim S512x1 ![0] bcast_S512_S512x1_0
    (maximumf (broadcastInDim S512 ![] bcast_S_S512 (constant S_ .f32 0xFF800000#32))
      (Host.reduce FloatOps.maximumf x (constant S_ .f32 0xFF800000#32) reducesTo_S512x10_S512_d1 h_S_))))

/-- Log-softmax along each row: `s - log (Σ exp s)` with `s` the row less its maximum. -/
def logSoftmax (x : FVec F S512x10 .f32) : FVec F S512x10 .f32 :=
  subf (shifted x) (broadcastInDim S512x10 ![0, 1] bcast_S512x1_S512x10_0_1 (Host.log (broadcastInDim S512x1 ![0] bcast_S512_S512x1_0
    (Host.reduceAdd (Host.exp (shifted x)) (constant S_ .f32 0x00000000#32) reducesTo_S512x10_S512_d1 h_S_))))

/-- The pooled classifier over the five node arrays (the input and the four layers' outputs), then log-softmax. -/
def refTail (h0 h1 h2 h3 h4 : FVec F S50000x128 .f32) (bc : IVec S50000x1 32)
    (W0 : FVec F S128x10 .f32) (c0 : FVec F S10 .f32) (W1 : FVec F S128x10 .f32) (c1 : FVec F S10 .f32)
    (W2 : FVec F S128x10 .f32) (c2 : FVec F S10 .f32) (W3 : FVec F S128x10 .f32) (c3 : FVec F S10 .f32)
    (W4 : FVec F S128x10 .f32) (c4 : FVec F S10 .f32) : FVec F S512x10 .f32 :=
  logSoftmax (cls (cls (cls (cls (cls zeroScores (pool h0 bc) W0 c0) (pool h1 bc) W1 c1) (pool h2 bc) W2 c2)
    (pool h3 bc) W3 c3) (pool h4 bc) W4 c4)

end Cert.ReferenceIdeal.RefRun

end
-- ==== Proof.RefRun.Read.L0.lean ====
import proofs.«102976_j3633542332749_1_alg».proof.Proof.Gen.ReferenceIdeal
import Idealize.ShloMosaic.Lib.StableHlo.Run
import proofs.«102976_j3633542332749_1_alg».proof.Proof.RefRun.Base
import proofs.«102976_j3633542332749_1_alg».proof.Proof.RefRun.Value

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Layer 0 of the reference, read as pure functions: its operations in five consecutive stretches, what each leaves in
    the buffers later stretches read, and the layer's output as `refLayer` of what the layer finds. -/

/-- Layer 0, first stretch: the neighbour sum and the first linear map. -/
def A0 : List (HloOp τ sig (Elt F)) :=
  [ StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.unary main_arg3 main_v15 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v18 ((extractStridedSlice S1x128 ![0, 0] · slices_S4x128_S1x128_0_0) : (⟨S4x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S50000x128 ![0, 1] bcast_S1x128_S50000x128_0_1 : (⟨S1x128, .f32⟩ : BufTy).Contents (Elt F) → (⟨S50000x128, .f32⟩ : BufTy).Contents (Elt F)),
    StableHlo.binary main_v17 main_v21 main_v22 (addf : (⟨S50000x128, .f32⟩ : BufTy).Contents (Elt F) → (⟨S50000x128, .f32⟩ : BufTy).Contents (Elt F) → (⟨S50000x128, .f32⟩ : BufTy).Contents (Elt F)) ]

/-- The buffers `A0`'s operations write. -/
abbrev A0_W : List (Ref sig .tc) := [main_c, main_v4, main_v5, main_c_0, main_v6, main_v7, main_v8, main_v9, main_v10, main_cst, main_v11, main_v12, main_v13, main_v14, main_v15, main_v16, main_v17, main_v18, main_v19, main_v20, main_v21, main_v22]

set_option maxRecDepth 8192 in
theorem A0_writes : (A0 : List (HloOp τ sig (Elt F))).Forall fun op =>
    op.writes ⊆ (A0_W.map (Proc.devRef (τ := τ) .tc)).toFinset := by
  unfold A0
  exact ⟨writes_sub_of_mem (y := main_c) (by decide),
    writes_sub_of_mem (y := main_v4) (by decide),
    writes_sub_of_mem (y := main_v5) (by decide),
    writes_sub_of_mem (y := main_c_0) (by decide),
    writes_sub_of_mem (y := main_v6) (by decide),
    writes_sub_of_mem (y := main_v7) (by decide),
    writes_sub_of_mem (y := main_v8) (by decide),
    writes_sub_of_mem (y := main_v9) (by decide),
    writes_sub_of_mem (y := main_v10) (by decide),
    writes_sub_of_mem (y := main_cst) (by decide),
    writes_sub_of_mem (y := main_v11) (by decide),
    writes_sub_of_mem (y := main_v12) (by decide),
    writes_sub_of_mem (y := main_v13) (by decide),
    writes_sub_of_mem (y := main_v14) (by decide),
    writes_sub_of_mem (y := main_v15) (by decide),
    writes_sub_of_mem (y := main_v16) (by decide),
    writes_sub_of_mem (y := main_v17) (by decide),
    writes_sub_of_mem (y := main_v18) (by decide),
    writes_sub_of_mem (y := main_v19) (by decide),
    writes_sub_of_mem (y := main_v20) (by decide),
    writes_sub_of_mem (y := main_v21) (by decide),
    writes_sub_of_mem (y := main_v22) (by decide)⟩

/-- A buffer `A0` does not write keeps its contents through it. -/
theorem A0_keep (W : Valuation τ sig (Elt F)) (r : Ref sig .tc) (h : r ∉ A0_W) :
    after A0 W (no_index (Proc.devRef .tc r)) = W (Proc.devRef .tc r) :=
  after_of_writes_sub A0 W A0_writes h

set_option maxRecDepth 8192 in
set_option maxHeartbeats 2200000 in
theorem A0_z1 (W : Valuation τ sig (Elt F)) :
    after A0 W (no_index (Proc.devRef .tc main_v22)) = lin (addf (W (Proc.devRef .tc main_arg0)) (agg (W (Proc.devRef .tc main_arg0)) (srcColOf (W (Proc.devRef .tc main_v1))) (dstColOf (W (Proc.devRef .tc main_v3))))) (matAt (W (Proc.devRef .tc main_arg3)) 0 slices_S4x128x128_S1x128x128_0_0_0) (vecAt (W (Proc.devRef .tc main_arg4)) 0 slices_S4x128_S1x128_0_0) := by
  unfold A0
  after_results_simp <;> rfl

/-- Layer 0, second stretch: the inner normalization's scale and shift, and the column mean and variance. -/
def B0 : List (HloOp τ sig (Elt F)) :=
  [ StableHlo.unary main_arg7 main_v23 ((extractStridedSlice S1x128 ![0, 0] · slices_S4x128_S1x128_0_0) : (⟨S4x128, .f32⟩ : BufTy).Contents (Elt F) → (⟨S1x128, .f32⟩ : BufTy).Contents (Elt F)),
    StableHlo.reshape main_v23 main_v24 rfl shapeCasts_S1x128_S128,
    StableHlo.unary main_arg8 main_v25 ((extractStridedSlice S1x128 ![0, 0] · slices_S4x128_S1x128_0_0) : (⟨S4x128, .f32⟩ : BufTy).Contents (Elt F) → (⟨S1x128, .f32⟩ : BufTy).Contents (Elt F)),
    StableHlo.reshape main_v25 main_v26 rfl shapeCasts_S1x128_S128,
    StableHlo.nullary main_cst_1 (constant S_ .f32 0x00000000#32),
    StableHlo.binary main_v22 main_cst_1 main_v27 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v28 (broadcastInDim S128 ![] bcast_S_S128 : (⟨S_, .f32⟩ : BufTy).Contents (Elt F) → (⟨S128, .f32⟩ : BufTy).Contents (Elt F)),
    StableHlo.binary main_v27 main_v28 main_v29 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call0.cst (constant S_ .f32 0x00000000#32),
    StableHlo.TRef.binary (TRef.of (T := ⟨S50000x128, .f32⟩) main_v22) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (TRef.of (T := ⟨S50000x128, .f32⟩) main_v22) main_call0.v4 main_call0.v5 subf,
    StableHlo.TRef.binary main_call0.v5 main_call0.v5 main_call0.v6 mulf,
    StableHlo.TRef.unary (TRef.of (T := ⟨S_, .i32⟩) main_c_3) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- The buffers `B0`'s operations write. -/
abbrev B0_W : List (Ref sig .tc) := [main_v23, main_v24, main_v25, main_v26, main_cst_1, main_v27, main_cst_2, main_v28, main_v29, main_c_3, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref]

set_option maxRecDepth 8192 in
theorem B0_writes : (B0 : List (HloOp τ sig (Elt F))).Forall fun op =>
    op.writes ⊆ (B0_W.map (Proc.devRef (τ := τ) .tc)).toFinset := by
  unfold B0
  exact ⟨writes_sub_of_mem (y := main_v23) (by decide),
    writes_sub_of_mem (y := main_v24) (by decide),
    writes_sub_of_mem (y := main_v25) (by decide),
    writes_sub_of_mem (y := main_v26) (by decide),
    writes_sub_of_mem (y := main_cst_1) (by decide),
    writes_sub_of_mem (y := main_v27) (by decide),
    writes_sub_of_mem (y := main_cst_2) (by decide),
    writes_sub_of_mem (y := main_v28) (by decide),
    writes_sub_of_mem (y := main_v29) (by decide),
    writes_sub_of_mem (y := main_c_3) (by decide),
    writes_sub_of_mem (y := main_call0.cst.ref) (by decide),
    writes_sub_of_mem (y := main_call0.v0.ref) (by decide),
    writes_sub_of_mem (y := main_call0.v1.ref) (by decide),
    writes_sub_of_mem (y := main_call0.cst_0.ref) (by decide),
    writes_sub_of_mem (y := main_call0.v2.ref) (by decide),
    writes_sub_of_mem (y := main_call0.v3.ref) (by decide),
    writes_sub_of_mem (y := main_call0.v4.ref) (by decide),
    writes_sub_of_mem (y := main_call0.v5.ref) (by decide),
    writes_sub_of_mem (y := main_call0.v6.ref) (by decide),
    writes_sub_of_mem (y := main_call0.v7.ref) (by decide),
    writes_sub_of_mem (y := main_call0.cst_1.ref) (by decide),
    writes_sub_of_mem (y := main_call0.v8.ref) (by decide),
    writes_sub_of_mem (y := main_call0.cst_2.ref) (by decide),
    writes_sub_of_mem (y := main_call0.v9.ref) (by decide),
    writes_sub_of_mem (y := main_call0.v10.ref) (by decide),
    writes_sub_of_mem (y := main_call0.v11.ref) (by decide),
    writes_sub_of_mem (y := main_call0.cst_3.ref) (by decide),
    writes_sub_of_mem (y := main_call0.v12.ref) (by decide),
    writes_sub_of_mem (y := main_call0.cst_4.ref) (by decide),
    writes_sub_of_mem (y := main_call0.call0.v0.ref) (by decide),
    writes_sub_of_mem (y := main_call0.call0.v1.ref) (by decide),
    writes_sub_of_mem (y := main_call0.call0.v2.ref) (by decide)⟩

/-- A buffer `B0` does not write keeps its contents through it. -/
theorem B0_keep (W : Valuation τ sig (Elt F)) (r : Ref sig .tc) (h : r ∉ B0_W) :
    after B0 W (no_index (Proc.devRef .tc r)) = W (Proc.devRef .tc r) :=
  after_of_writes_sub B0 W B0_writes h

set_option maxRecDepth 8192 in
set_option maxHeartbeats 3200000 in
theorem B0_g (W : Valuation τ sig (Elt F)) :
    after B0 W (no_index (Proc.devRef .tc main_v24)) = vecAt (W (Proc.devRef .tc main_arg7)) 0 slices_S4x128_S1x128_0_0 := by
  unfold B0
  after_results_simp <;> rfl

set_option maxRecDepth 8192 in
set_option maxHeartbeats 3200000 in
theorem B0_b (W : Valuation τ sig (Elt F)) :
    after B0 W (no_index (Proc.devRef .tc main_v26)) = vecAt (W (Proc.devRef .tc main_arg8)) 0 slices_S4x128_S1x128_0_0 := by
  unfold B0
  after_results_simp <;> rfl

set_option maxRecDepth 8192 in
set_option maxHeartbeats 3200000 in
theorem B0_mean (W : Valuation τ sig (Elt F)) :
    after B0 W (no_index (Proc.devRef .tc main_v29)) = colMean (W (Proc.devRef .tc main_v22)) := by
  unfold B0
  after_results_simp <;> rfl

set_option maxRecDepth 8192 in
set_option maxHeartbeats 3200000 in
theorem B0_var (W : Valuation τ sig (Elt F)) :
    after B0 W (no_index (Proc.devRef .tc main_v30)) = colVar (W (Proc.devRef .tc main_v22)) := by
  unfold B0
  after_results_simp <;> rfl

/-- Layer 0, third stretch: the inner normalization with the positive part, and the second linear map. -/
def C0 : List (HloOp τ sig (Elt F)) :=
  [ StableHlo.unary main_v29 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v22 main_v32 main_v33 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v34 (broadcastInDim S128 ![] bcast_S_S128 : (⟨S_, .f32⟩ : BufTy).Contents (Elt F) → (⟨S128, .f32⟩ : BufTy).Contents (Elt F)),
    StableHlo.binary main_v30 main_v34 main_v35 (addf : (⟨S128, .f32⟩ : BufTy).Contents (Elt F) → (⟨S128, .f32⟩ : BufTy).Contents (Elt F) → (⟨S128, .f32⟩ : BufTy).Contents (Elt F)),
    StableHlo.unary main_v35 main_v36 (Host.rsqrt : (⟨S128, .f32⟩ : BufTy).Contents (Elt F) → (⟨S128, .f32⟩ : BufTy).Contents (Elt F)),
    StableHlo.unary main_v36 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v33 main_v38 main_v39 (mulf : (⟨S50000x128, .f32⟩ : BufTy).Contents (Elt F) → (⟨S50000x128, .f32⟩ : BufTy).Contents (Elt F) → (⟨S50000x128, .f32⟩ : BufTy).Contents (Elt F)),
    StableHlo.unary main_v24 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v41 main_v42 (mulf : (⟨S50000x128, .f32⟩ : BufTy).Contents (Elt F) → (⟨S50000x128, .f32⟩ : BufTy).Contents (Elt F) → (⟨S50000x128, .f32⟩ : BufTy).Contents (Elt F)),
    StableHlo.unary main_v26 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v42 main_v44 main_v45 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (TRef.of (T := ⟨S50000x128, .f32⟩) main_v45) main_call1.v0 main_call1.v1 maximumf,
    StableHlo.unary main_arg5 main_v47 ((extractStridedSlice S1x128x128 ![0, 0, 0] · slices_S4x128x128_S1x128x128_0_0_0) : (⟨S4x128x128, .f32⟩ : BufTy).Contents (Elt F) → (⟨S1x128x128, .f32⟩ : BufTy).Contents (Elt F)),
    StableHlo.reshape main_v47 main_v48 rfl shapeCasts_S1x128x128_S128x128,
    StableHlo.binary main_v46 main_v48 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v50 ((extractStridedSlice S1x128 ![0, 0] · slices_S4x128_S1x128_0_0) : (⟨S4x128, .f32⟩ : BufTy).Contents (Elt F) → (⟨S1x128, .f32⟩ : BufTy).Contents (Elt F)),
    StableHlo.reshape main_v50 main_v51 rfl shapeCasts_S1x128_S128,
    StableHlo.unary main_v51 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v53 main_v54 (addf : (⟨S50000x128, .f32⟩ : BufTy).Contents (Elt F) → (⟨S50000x128, .f32⟩ : BufTy).Contents (Elt F) → (⟨S50000x128, .f32⟩ : BufTy).Contents (Elt F)) ]

/-- The buffers `C0`'s operations write. -/
abbrev C0_W : List (Ref sig .tc) := [main_v31, main_v32, main_v33, main_cst_4, main_v34, main_v35, main_v36, main_v37, main_v38, main_v39, main_v40, main_v41, main_v42, main_v43, main_v44, main_v45, main_call1.cst.ref, main_call1.v0.ref, main_call1.v1.ref, main_v47, main_v48, main_v49, main_v50, main_v51, main_v52, main_v53, main_v54]

set_option maxRecDepth 8192 in
theorem C0_writes : (C0 : List (HloOp τ sig (Elt F))).Forall fun op =>
    op.writes ⊆ (C0_W.map (Proc.devRef (τ := τ) .tc)).toFinset := by
  unfold C0
  exact ⟨writes_sub_of_mem (y := main_v31) (by decide),
    writes_sub_of_mem (y := main_v32) (by decide),
    writes_sub_of_mem (y := main_v33) (by decide),
    writes_sub_of_mem (y := main_cst_4) (by decide),
    writes_sub_of_mem (y := main_v34) (by decide),
    writes_sub_of_mem (y := main_v35) (by decide),
    writes_sub_of_mem (y := main_v36) (by decide),
    writes_sub_of_mem (y := main_v37) (by decide),
    writes_sub_of_mem (y := main_v38) (by decide),
    writes_sub_of_mem (y := main_v39) (by decide),
    writes_sub_of_mem (y := main_v40) (by decide),
    writes_sub_of_mem (y := main_v41) (by decide),
    writes_sub_of_mem (y := main_v42) (by decide),
    writes_sub_of_mem (y := main_v43) (by decide),
    writes_sub_of_mem (y := main_v44) (by decide),
    writes_sub_of_mem (y := main_v45) (by decide),
    writes_sub_of_mem (y := main_call1.cst.ref) (by decide),
    writes_sub_of_mem (y := main_call1.v0.ref) (by decide),
    writes_sub_of_mem (y := main_call1.v1.ref) (by decide),
    writes_sub_of_mem (y := main_v47) (by decide),
    writes_sub_of_mem (y := main_v48) (by decide),
    writes_sub_of_mem (y := main_v49) (by decide),
    writes_sub_of_mem (y := main_v50) (by decide),
    writes_sub_of_mem (y := main_v51) (by decide),
    writes_sub_of_mem (y := main_v52) (by decide),
    writes_sub_of_mem (y := main_v53) (by decide),
    writes_sub_of_mem (y := main_v54) (by decide)⟩

/-- A buffer `C0` does not write keeps its contents through it. -/
theorem C0_keep (W : Valuation τ sig (Elt F)) (r : Ref sig .tc) (h : r ∉ C0_W) :
    after C0 W (no_index (Proc.devRef .tc r)) = W (Proc.devRef .tc r) :=
  after_of_writes_sub C0 W C0_writes h

set_option maxRecDepth 8192 in
set_option maxHeartbeats 2700000 in
theorem C0_z2 (W : Valuation τ sig (Elt F)) :
    after C0 W (no_index (Proc.devRef .tc main_v54)) = lin (normRelu (W (Proc.devRef .tc main_v22)) (W (Proc.devRef .tc main_v29)) (W (Proc.devRef .tc main_v30)) (W (Proc.devRef .tc main_v24)) (W (Proc.devRef .tc main_v26))) (matAt (W (Proc.devRef .tc main_arg5)) 0 slices_S4x128x128_S1x128x128_0_0_0) (vecAt (W (Proc.devRef .tc main_arg6)) 0 slices_S4x128_S1x128_0_0) := by
  unfold C0
  after_results_simp <;> rfl

/-- Layer 0, fourth stretch: the outer normalization's scale and shift, and the column mean and variance. -/
def D0 : List (HloOp τ sig (Elt F)) :=
  [ StableHlo.unary main_arg9 main_v55 ((extractStridedSlice S1x128 ![0, 0] · slices_S4x128_S1x128_0_0) : (⟨S4x128, .f32⟩ : BufTy).Contents (Elt F) → (⟨S1x128, .f32⟩ : BufTy).Contents (Elt F)),
    StableHlo.reshape main_v55 main_v56 rfl shapeCasts_S1x128_S128,
    StableHlo.unary main_arg10 main_v57 ((extractStridedSlice S1x128 ![0, 0] · slices_S4x128_S1x128_0_0) : (⟨S4x128, .f32⟩ : BufTy).Contents (Elt F) → (⟨S1x128, .f32⟩ : BufTy).Contents (Elt F)),
    StableHlo.reshape main_v57 main_v58 rfl shapeCasts_S1x128_S128,
    StableHlo.nullary main_cst_5 (constant S_ .f32 0x00000000#32),
    StableHlo.binary main_v54 main_cst_5 main_v59 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_6 (constant S_ .f32 0x47435000#32),
    StableHlo.unary main_cst_6 main_v60 (broadcastInDim S128 ![] bcast_S_S128 : (⟨S_, .f32⟩ : BufTy).Contents (Elt F) → (⟨S128, .f32⟩ : BufTy).Contents (Elt F)),
    StableHlo.binary main_v59 main_v60 main_v61 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call2.cst (constant S_ .f32 0x00000000#32),
    StableHlo.TRef.binary (TRef.of (T := ⟨S50000x128, .f32⟩) main_v54) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (TRef.of (T := ⟨S50000x128, .f32⟩) main_v54) main_call2.v4 main_call2.v5 subf,
    StableHlo.TRef.binary main_call2.v5 main_call2.v5 main_call2.v6 mulf,
    StableHlo.TRef.unary (TRef.of (T := ⟨S_, .i32⟩) main_c_7) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- The buffers `D0`'s operations write. -/
abbrev D0_W : List (Ref sig .tc) := [main_v55, main_v56, main_v57, main_v58, main_cst_5, main_v59, main_cst_6, main_v60, main_v61, main_c_7, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref]

set_option maxRecDepth 8192 in
theorem D0_writes : (D0 : List (HloOp τ sig (Elt F))).Forall fun op =>
    op.writes ⊆ (D0_W.map (Proc.devRef (τ := τ) .tc)).toFinset := by
  unfold D0
  exact ⟨writes_sub_of_mem (y := main_v55) (by decide),
    writes_sub_of_mem (y := main_v56) (by decide),
    writes_sub_of_mem (y := main_v57) (by decide),
    writes_sub_of_mem (y := main_v58) (by decide),
    writes_sub_of_mem (y := main_cst_5) (by decide),
    writes_sub_of_mem (y := main_v59) (by decide),
    writes_sub_of_mem (y := main_cst_6) (by decide),
    writes_sub_of_mem (y := main_v60) (by decide),
    writes_sub_of_mem (y := main_v61) (by decide),
    writes_sub_of_mem (y := main_c_7) (by decide),
    writes_sub_of_mem (y := main_call2.cst.ref) (by decide),
    writes_sub_of_mem (y := main_call2.v0.ref) (by decide),
    writes_sub_of_mem (y := main_call2.v1.ref) (by decide),
    writes_sub_of_mem (y := main_call2.cst_0.ref) (by decide),
    writes_sub_of_mem (y := main_call2.v2.ref) (by decide),
    writes_sub_of_mem (y := main_call2.v3.ref) (by decide),
    writes_sub_of_mem (y := main_call2.v4.ref) (by decide),
    writes_sub_of_mem (y := main_call2.v5.ref) (by decide),
    writes_sub_of_mem (y := main_call2.v6.ref) (by decide),
    writes_sub_of_mem (y := main_call2.v7.ref) (by decide),
    writes_sub_of_mem (y := main_call2.cst_1.ref) (by decide),
    writes_sub_of_mem (y := main_call2.v8.ref) (by decide),
    writes_sub_of_mem (y := main_call2.cst_2.ref) (by decide),
    writes_sub_of_mem (y := main_call2.v9.ref) (by decide),
    writes_sub_of_mem (y := main_call2.v10.ref) (by decide),
    writes_sub_of_mem (y := main_call2.v11.ref) (by decide),
    writes_sub_of_mem (y := main_call2.cst_3.ref) (by decide),
    writes_sub_of_mem (y := main_call2.v12.ref) (by decide),
    writes_sub_of_mem (y := main_call2.cst_4.ref) (by decide),
    writes_sub_of_mem (y := main_call2.call0.v0.ref) (by decide),
    writes_sub_of_mem (y := main_call2.call0.v1.ref) (by decide),
    writes_sub_of_mem (y := main_call2.call0.v2.ref) (by decide)⟩

/-- A buffer `D0` does not write keeps its contents through it. -/
theorem D0_keep (W : Valuation τ sig (Elt F)) (r : Ref sig .tc) (h : r ∉ D0_W) :
    after D0 W (no_index (Proc.devRef .tc r)) = W (Proc.devRef .tc r) :=
  after_of_writes_sub D0 W D0_writes h

set_option maxRecDepth 8192 in
set_option maxHeartbeats 3200000 in
theorem D0_g (W : Valuation τ sig (Elt F)) :
    after D0 W (no_index (Proc.devRef .tc main_v56)) = vecAt (W (Proc.devRef .tc main_arg9)) 0 slices_S4x128_S1x128_0_0 := by
  unfold D0
  after_results_simp <;> rfl

set_option maxRecDepth 8192 in
set_option maxHeartbeats 3200000 in
theorem D0_b (W : Valuation τ sig (Elt F)) :
    after D0 W (no_index (Proc.devRef .tc main_v58)) = vecAt (W (Proc.devRef .tc main_arg10)) 0 slices_S4x128_S1x128_0_0 := by
  unfold D0
  after_results_simp <;> rfl

set_option maxRecDepth 8192 in
set_option maxHeartbeats 3200000 in
theorem D0_mean (W : Valuation τ sig (Elt F)) :
    after D0 W (no_index (Proc.devRef .tc main_v61)) = colMean (W (Proc.devRef .tc main_v54)) := by
  unfold D0
  after_results_simp <;> rfl

set_option maxRecDepth 8192 in
set_option maxHeartbeats 3200000 in
theorem D0_var (W : Valuation τ sig (Elt F)) :
    after D0 W (no_index (Proc.devRef .tc main_v62)) = colVar (W (Proc.devRef .tc main_v54)) := by
  unfold D0
  after_results_simp <;> rfl

/-- Layer 0, fifth stretch: the outer normalization with the positive part. -/
def E0 : List (HloOp τ sig (Elt F)) :=
  [ StableHlo.unary main_v61 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v64 main_v65 (subf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x3727C5AC#32),
    StableHlo.unary main_cst_8 main_v66 (broadcastInDim S128 ![] bcast_S_S128 : (⟨S_, .f32⟩ : BufTy).Contents (Elt F) → (⟨S128, .f32⟩ : BufTy).Contents (Elt F)),
    StableHlo.binary main_v62 main_v66 main_v67 (addf : (⟨S128, .f32⟩ : BufTy).Contents (Elt F) → (⟨S128, .f32⟩ : BufTy).Contents (Elt F) → (⟨S128, .f32⟩ : BufTy).Contents (Elt F)),
    StableHlo.unary main_v67 main_v68 (Host.rsqrt : (⟨S128, .f32⟩ : BufTy).Contents (Elt F) → (⟨S128, .f32⟩ : BufTy).Contents (Elt F)),
    StableHlo.unary main_v68 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v65 main_v70 main_v71 (mulf : (⟨S50000x128, .f32⟩ : BufTy).Contents (Elt F) → (⟨S50000x128, .f32⟩ : BufTy).Contents (Elt F) → (⟨S50000x128, .f32⟩ : BufTy).Contents (Elt F)),
    StableHlo.unary main_v56 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S50000x128 ![0, 1] bcast_S1x128_S50000x128_0_1 : (⟨S1x128, .f32⟩ : BufTy).Contents (Elt F) → (⟨S50000x128, .f32⟩ : BufTy).Contents (Elt F)),
    StableHlo.binary main_v71 main_v73 main_v74 (mulf : (⟨S50000x128, .f32⟩ : BufTy).Contents (Elt F) → (⟨S50000x128, .f32⟩ : BufTy).Contents (Elt F) → (⟨S50000x128, .f32⟩ : BufTy).Contents (Elt F)),
    StableHlo.unary main_v58 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S50000x128 ![0, 1] bcast_S1x128_S50000x128_0_1 : (⟨S1x128, .f32⟩ : BufTy).Contents (Elt F) → (⟨S50000x128, .f32⟩ : BufTy).Contents (Elt F)),
    StableHlo.binary main_v74 main_v76 main_v77 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (TRef.of (T := ⟨S50000x128, .f32⟩) main_v77) main_call3.v0 main_call3.v1 maximumf ]

/-- The buffers `E0`'s operations write. -/
abbrev E0_W : List (Ref sig .tc) := [main_v63, main_v64, main_v65, main_cst_8, main_v66, main_v67, main_v68, main_v69, main_v70, main_v71, main_v72, main_v73, main_v74, main_v75, main_v76, main_v77, main_call3.cst.ref, main_call3.v0.ref, main_call3.v1.ref]

set_option maxRecDepth 8192 in
theorem E0_writes : (E0 : List (HloOp τ sig (Elt F))).Forall fun op =>
    op.writes ⊆ (E0_W.map (Proc.devRef (τ := τ) .tc)).toFinset := by
  unfold E0
  exact ⟨writes_sub_of_mem (y := main_v63) (by decide),
    writes_sub_of_mem (y := main_v64) (by decide),
    writes_sub_of_mem (y := main_v65) (by decide),
    writes_sub_of_mem (y := main_cst_8) (by decide),
    writes_sub_of_mem (y := main_v66) (by decide),
    writes_sub_of_mem (y := main_v67) (by decide),
    writes_sub_of_mem (y := main_v68) (by decide),
    writes_sub_of_mem (y := main_v69) (by decide),
    writes_sub_of_mem (y := main_v70) (by decide),
    writes_sub_of_mem (y := main_v71) (by decide),
    writes_sub_of_mem (y := main_v72) (by decide),
    writes_sub_of_mem (y := main_v73) (by decide),
    writes_sub_of_mem (y := main_v74) (by decide),
    writes_sub_of_mem (y := main_v75) (by decide),
    writes_sub_of_mem (y := main_v76) (by decide),
    writes_sub_of_mem (y := main_v77) (by decide),
    writes_sub_of_mem (y := main_call3.cst.ref) (by decide),
    writes_sub_of_mem (y := main_call3.v0.ref) (by decide),
    writes_sub_of_mem (y := main_call3.v1.ref) (by decide)⟩

/-- A buffer `E0` does not write keeps its contents through it. -/
theorem E0_keep (W : Valuation τ sig (Elt F)) (r : Ref sig .tc) (h : r ∉ E0_W) :
    after E0 W (no_index (Proc.devRef .tc r)) = W (Proc.devRef .tc r) :=
  after_of_writes_sub E0 W E0_writes h

set_option maxRecDepth 8192 in
set_option maxHeartbeats 1900000 in
theorem E0_h (W : Valuation τ sig (Elt F)) :
    after E0 W (no_index (Proc.devRef .tc main_v78)) = normRelu (W (Proc.devRef .tc main_v54)) (W (Proc.devRef .tc main_v61)) (W (Proc.devRef .tc main_v62)) (W (Proc.devRef .tc main_v56)) (W (Proc.devRef .tc main_v58)) := by
  unfold E0
  after_results_simp <;> rfl

set_option maxRecDepth 8192 in
set_option maxHeartbeats 1000000 in
/-- Layer 0's output is `refLayer` of its input, the edge columns and its slices of the parameter arrays, all as the layer
    finds them. -/
theorem layer0_h (W : Valuation τ sig (Elt F)) :
    after E0 (after D0 (after C0 (after B0 (after A0 W)))) (no_index (Proc.devRef .tc main_v78))
      = refLayer (W (Proc.devRef .tc main_arg0)) (srcColOf (W (Proc.devRef .tc main_v1))) (dstColOf (W (Proc.devRef .tc main_v3)))
          (matAt (W (Proc.devRef .tc main_arg3)) 0 slices_S4x128x128_S1x128x128_0_0_0) (vecAt (W (Proc.devRef .tc main_arg4)) 0 slices_S4x128_S1x128_0_0)
          (matAt (W (Proc.devRef .tc main_arg5)) 0 slices_S4x128x128_S1x128x128_0_0_0) (vecAt (W (Proc.devRef .tc main_arg6)) 0 slices_S4x128_S1x128_0_0)
          (vecAt (W (Proc.devRef .tc main_arg7)) 0 slices_S4x128_S1x128_0_0) (vecAt (W (Proc.devRef .tc main_arg8)) 0 slices_S4x128_S1x128_0_0)
          (vecAt (W (Proc.devRef .tc main_arg9)) 0 slices_S4x128_S1x128_0_0) (vecAt (W (Proc.devRef .tc main_arg10)) 0 slices_S4x128_S1x128_0_0) := by
  simp (disch := decide) only [E0_h, D0_g, D0_b, D0_mean, D0_var, D0_keep, C0_z2, C0_keep,
    B0_g, B0_b, B0_mean, B0_var, B0_keep, A0_z1, A0_keep]
  rfl

end Cert.ReferenceIdeal.RefRun

end
-- ==== Proof.RefRun.Read.L1.lean ====
import proofs.«102976_j3633542332749_1_alg».proof.Proof.Gen.ReferenceIdeal
import Idealize.ShloMosaic.Lib.StableHlo.Run
import proofs.«102976_j3633542332749_1_alg».proof.Proof.RefRun.Base
import proofs.«102976_j3633542332749_1_alg».proof.Proof.RefRun.Value

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Layer 1 of the reference, read as pure functions: its operations in five consecutive stretches, what each leaves in
    the buffers later stretches read, and the layer's output as `refLayer` of what the layer finds. -/

/-- Layer 1, first stretch: the neighbour sum and the first linear map. -/
def A1 : List (HloOp τ sig (Elt F)) :=
  [ StableHlo.nullary main_c_9 (constantI S_ 32 0#32),
    StableHlo.unary main_c_9 main_v79 (broadcastInDim S600000 ![] bcast_S_S600000 : (⟨S_, .i32⟩ : BufTy).Contents (Elt F) → (⟨S600000, .i32⟩ : BufTy).Contents (Elt F)),
    StableHlo.binary main_v1 main_v79 main_v80 (cmpi .slt : (⟨S600000, .i32⟩ : BufTy).Contents (Elt F) → (⟨S600000, .i32⟩ : BufTy).Contents (Elt F) → (⟨S600000, .i1⟩ : BufTy).Contents (Elt F)),
    StableHlo.nullary main_c_10 (constantI S_ 32 50000#32),
    StableHlo.unary main_c_10 main_v81 (broadcastInDim S600000 ![] bcast_S_S600000 : (⟨S_, .i32⟩ : BufTy).Contents (Elt F) → (⟨S600000, .i32⟩ : BufTy).Contents (Elt F)),
    StableHlo.binary main_v1 main_v81 main_v82 (addi : (⟨S600000, .i32⟩ : BufTy).Contents (Elt F) → (⟨S600000, .i32⟩ : BufTy).Contents (Elt F) → (⟨S600000, .i32⟩ : BufTy).Contents (Elt F)),
    StableHlo.ternary main_v80 main_v82 main_v1 main_v83 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v83 main_v84 (broadcastInDim S600000x1 ![0] bcast_S600000_S600000x1_0 : (⟨S600000, .i32⟩ : BufTy).Contents (Elt F) → (⟨S600000x1, .i32⟩ : BufTy).Contents (Elt F)),
    StableHlo.binary main_v78 main_v84 main_v85 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_11 (constant S_ .f32 0x00000000#32),
    StableHlo.unary main_cst_11 main_v86 (broadcastInDim S50000x128 ![] bcast_S_S50000x128 : (⟨S_, .f32⟩ : BufTy).Contents (Elt F) → (⟨S50000x128, .f32⟩ : BufTy).Contents (Elt F)),
    StableHlo.unary main_v3 main_v87 (broadcastInDim S600000x1 ![0] bcast_S600000_S600000x1_0 : (⟨S600000, .i32⟩ : BufTy).Contents (Elt F) → (⟨S600000x1, .i32⟩ : BufTy).Contents (Elt F)),
    StableHlo.ternary main_v86 main_v87 main_v85 main_v88 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v78 main_v88 main_v89 (addf : (⟨S50000x128, .f32⟩ : BufTy).Contents (Elt F) → (⟨S50000x128, .f32⟩ : BufTy).Contents (Elt F) → (⟨S50000x128, .f32⟩ : BufTy).Contents (Elt F)),
    StableHlo.unary main_arg3 main_v90 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v90 main_v91 rfl shapeCasts_S1x128x128_S128x128,
    StableHlo.binary main_v89 main_v91 main_v92 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v93 ((extractStridedSlice S1x128 ![1, 0] · slices_S4x128_S1x128_1_0) : (⟨S4x128, .f32⟩ : BufTy).Contents (Elt F) → (⟨S1x128, .f32⟩ : BufTy).Contents (Elt F)),
    StableHlo.reshape main_v93 main_v94 rfl shapeCasts_S1x128_S128,
    StableHlo.unary main_v94 main_v95 (broadcastInDim S1x128 ![1] bcast_S128_S1x128_1 : (⟨S128, .f32⟩ : BufTy).Contents (Elt F) → (⟨S1x128, .f32⟩ : BufTy).Contents (Elt F)),
    StableHlo.unary main_v95 main_v96 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v96 main_v97 (addf : (⟨S50000x128, .f32⟩ : BufTy).Contents (Elt F) → (⟨S50000x128, .f32⟩ : BufTy).Contents (Elt F) → (⟨S50000x128, .f32⟩ : BufTy).Contents (Elt F)) ]

/-- The buffers `A1`'s operations write. -/
abbrev A1_W : List (Ref sig .tc) := [main_c_9, main_v79, main_v80, main_c_10, main_v81, main_v82, main_v83, main_v84, main_v85, main_cst_11, main_v86, main_v87, main_v88, main_v89, main_v90, main_v91, main_v92, main_v93, main_v94, main_v95, main_v96, main_v97]

set_option maxRecDepth 8192 in
theorem A1_writes : (A1 : List (HloOp τ sig (Elt F))).Forall fun op =>
    op.writes ⊆ (A1_W.map (Proc.devRef (τ := τ) .tc)).toFinset := by
  unfold A1
  exact ⟨writes_sub_of_mem (y := main_c_9) (by decide),
    writes_sub_of_mem (y := main_v79) (by decide),
    writes_sub_of_mem (y := main_v80) (by decide),
    writes_sub_of_mem (y := main_c_10) (by decide),
    writes_sub_of_mem (y := main_v81) (by decide),
    writes_sub_of_mem (y := main_v82) (by decide),
    writes_sub_of_mem (y := main_v83) (by decide),
    writes_sub_of_mem (y := main_v84) (by decide),
    writes_sub_of_mem (y := main_v85) (by decide),
    writes_sub_of_mem (y := main_cst_11) (by decide),
    writes_sub_of_mem (y := main_v86) (by decide),
    writes_sub_of_mem (y := main_v87) (by decide),
    writes_sub_of_mem (y := main_v88) (by decide),
    writes_sub_of_mem (y := main_v89) (by decide),
    writes_sub_of_mem (y := main_v90) (by decide),
    writes_sub_of_mem (y := main_v91) (by decide),
    writes_sub_of_mem (y := main_v92) (by decide),
    writes_sub_of_mem (y := main_v93) (by decide),
    writes_sub_of_mem (y := main_v94) (by decide),
    writes_sub_of_mem (y := main_v95) (by decide),
    writes_sub_of_mem (y := main_v96) (by decide),
    writes_sub_of_mem (y := main_v97) (by decide)⟩

/-- A buffer `A1` does not write keeps its contents through it. -/
theorem A1_keep (W : Valuation τ sig (Elt F)) (r : Ref sig .tc) (h : r ∉ A1_W) :
    after A1 W (no_index (Proc.devRef .tc r)) = W (Proc.devRef .tc r) :=
  after_of_writes_sub A1 W A1_writes h

set_option maxRecDepth 8192 in
set_option maxHeartbeats 2200000 in
theorem A1_z1 (W : Valuation τ sig (Elt F)) :
    after A1 W (no_index (Proc.devRef .tc main_v97)) = lin (addf (W (Proc.devRef .tc main_v78)) (agg (W (Proc.devRef .tc main_v78)) (srcColOf (W (Proc.devRef .tc main_v1))) (dstColOf (W (Proc.devRef .tc main_v3))))) (matAt (W (Proc.devRef .tc main_arg3)) 1 slices_S4x128x128_S1x128x128_1_0_0) (vecAt (W (Proc.devRef .tc main_arg4)) 1 slices_S4x128_S1x128_1_0) := by
  unfold A1
  after_results_simp <;> rfl

/-- Layer 1, second stretch: the inner normalization's scale and shift, and the column mean and variance. -/
def B1 : List (HloOp τ sig (Elt F)) :=
  [ StableHlo.unary main_arg7 main_v98 ((extractStridedSlice S1x128 ![1, 0] · slices_S4x128_S1x128_1_0) : (⟨S4x128, .f32⟩ : BufTy).Contents (Elt F) → (⟨S1x128, .f32⟩ : BufTy).Contents (Elt F)),
    StableHlo.reshape main_v98 main_v99 rfl shapeCasts_S1x128_S128,
    StableHlo.unary main_arg8 main_v100 ((extractStridedSlice S1x128 ![1, 0] · slices_S4x128_S1x128_1_0) : (⟨S4x128, .f32⟩ : BufTy).Contents (Elt F) → (⟨S1x128, .f32⟩ : BufTy).Contents (Elt F)),
    StableHlo.reshape main_v100 main_v101 rfl shapeCasts_S1x128_S128,
    StableHlo.nullary main_cst_12 (constant S_ .f32 0x00000000#32),
    StableHlo.binary main_v97 main_cst_12 main_v102 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v103 (broadcastInDim S128 ![] bcast_S_S128 : (⟨S_, .f32⟩ : BufTy).Contents (Elt F) → (⟨S128, .f32⟩ : BufTy).Contents (Elt F)),
    StableHlo.binary main_v102 main_v103 main_v104 (Host.divf : (⟨S128, .f32⟩ : BufTy).Contents (Elt F) → (⟨S128, .f32⟩ : BufTy).Contents (Elt F) → (⟨S128, .f32⟩ : BufTy).Contents (Elt F)),
    StableHlo.nullary main_c_14 (constantI S_ 32 0#32),
    StableHlo.TRef.nullary main_call4.cst (constant S_ .f32 0x00000000#32),
    StableHlo.TRef.binary (TRef.of (T := ⟨S50000x128, .f32⟩) main_v97) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (TRef.of (T := ⟨S50000x128, .f32⟩) main_v97) main_call4.v4 main_call4.v5 subf,
    StableHlo.TRef.binary main_call4.v5 main_call4.v5 main_call4.v6 mulf,
    StableHlo.TRef.unary (TRef.of (T := ⟨S_, .i32⟩) main_c_14) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]

/-- The buffers `B1`'s operations write. -/
abbrev B1_W : List (Ref sig .tc) := [main_v98, main_v99, main_v100, main_v101, main_cst_12, main_v102, main_cst_13, main_v103, main_v104, main_c_14, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref]

set_option maxRecDepth 8192 in
theorem B1_writes : (B1 : List (HloOp τ sig (Elt F))).Forall fun op =>
    op.writes ⊆ (B1_W.map (Proc.devRef (τ := τ) .tc)).toFinset := by
  unfold B1
  exact ⟨writes_sub_of_mem (y := main_v98) (by decide),
    writes_sub_of_mem (y := main_v99) (by decide),
    writes_sub_of_mem (y := main_v100) (by decide),
    writes_sub_of_mem (y := main_v101) (by decide),
    writes_sub_of_mem (y := main_cst_12) (by decide),
    writes_sub_of_mem (y := main_v102) (by decide),
    writes_sub_of_mem (y := main_cst_13) (by decide),
    writes_sub_of_mem (y := main_v103) (by decide),
    writes_sub_of_mem (y := main_v104) (by decide),
    writes_sub_of_mem (y := main_c_14) (by decide),
    writes_sub_of_mem (y := main_call4.cst.ref) (by decide),
    writes_sub_of_mem (y := main_call4.v0.ref) (by decide),
    writes_sub_of_mem (y := main_call4.v1.ref) (by decide),
    writes_sub_of_mem (y := main_call4.cst_0.ref) (by decide),
    writes_sub_of_mem (y := main_call4.v2.ref) (by decide),
    writes_sub_of_mem (y := main_call4.v3.ref) (by decide),
    writes_sub_of_mem (y := main_call4.v4.ref) (by decide),
    writes_sub_of_mem (y := main_call4.v5.ref) (by decide),
    writes_sub_of_mem (y := main_call4.v6.ref) (by decide),
    writes_sub_of_mem (y := main_call4.v7.ref) (by decide),
    writes_sub_of_mem (y := main_call4.cst_1.ref) (by decide),
    writes_sub_of_mem (y := main_call4.v8.ref) (by decide),
    writes_sub_of_mem (y := main_call4.cst_2.ref) (by decide),
    writes_sub_of_mem (y := main_call4.v9.ref) (by decide),
    writes_sub_of_mem (y := main_call4.v10.ref) (by decide),
    writes_sub_of_mem (y := main_call4.v11.ref) (by decide),
    writes_sub_of_mem (y := main_call4.cst_3.ref) (by decide),
    writes_sub_of_mem (y := main_call4.v12.ref) (by decide),
    writes_sub_of_mem (y := main_call4.cst_4.ref) (by decide),
    writes_sub_of_mem (y := main_call4.call0.v0.ref) (by decide),
    writes_sub_of_mem (y := main_call4.call0.v1.ref) (by decide),
    writes_sub_of_mem (y := main_call4.call0.v2.ref) (by decide)⟩

/-- A buffer `B1` does not write keeps its contents through it. -/
theorem B1_keep (W : Valuation τ sig (Elt F)) (r : Ref sig .tc) (h : r ∉ B1_W) :
    after B1 W (no_index (Proc.devRef .tc r)) = W (Proc.devRef .tc r) :=
  after_of_writes_sub B1 W B1_writes h

set_option maxRecDepth 8192 in
set_option maxHeartbeats 3200000 in
theorem B1_g (W : Valuation τ sig (Elt F)) :
    after B1 W (no_index (Proc.devRef .tc main_v99)) = vecAt (W (Proc.devRef .tc main_arg7)) 1 slices_S4x128_S1x128_1_0 := by
  unfold B1
  after_results_simp <;> rfl

set_option maxRecDepth 8192 in
set_option maxHeartbeats 3200000 in
theorem B1_b (W : Valuation τ sig (Elt F)) :
    after B1 W (no_index (Proc.devRef .tc main_v101)) = vecAt (W (Proc.devRef .tc main_arg8)) 1 slices_S4x128_S1x128_1_0 := by
  unfold B1
  after_results_simp <;> rfl

set_option maxRecDepth 8192 in
set_option maxHeartbeats 3200000 in
theorem B1_mean (W : Valuation τ sig (Elt F)) :
    after B1 W (no_index (Proc.devRef .tc main_v104)) = colMean (W (Proc.devRef .tc main_v97)) := by
  unfold B1
  after_results_simp <;> rfl

set_option maxRecDepth 8192 in
set_option maxHeartbeats 3200000 in
theorem B1_var (W : Valuation τ sig (Elt F)) :
    after B1 W (no_index (Proc.devRef .tc main_v105)) = colVar (W (Proc.devRef .tc main_v97)) := by
  unfold B1
  after_results_simp <;> rfl

/-- Layer 1, third stretch: the inner normalization with the positive part, and the second linear map. -/
def C1 : List (HloOp τ sig (Elt F)) :=
  [ StableHlo.unary main_v104 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S50000x128 ![0, 1] bcast_S1x128_S50000x128_0_1 : (⟨S1x128, .f32⟩ : BufTy).Contents (Elt F) → (⟨S50000x128, .f32⟩ : BufTy).Contents (Elt F)),
    StableHlo.binary main_v97 main_v107 main_v108 (subf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v109 (broadcastInDim S128 ![] bcast_S_S128 : (⟨S_, .f32⟩ : BufTy).Contents (Elt F) → (⟨S128, .f32⟩ : BufTy).Contents (Elt F)),
    StableHlo.binary main_v105 main_v109 main_v110 (addf : (⟨S128, .f32⟩ : BufTy).Contents (Elt F) → (⟨S128, .f32⟩ : BufTy).Contents (Elt F) → (⟨S128, .f32⟩ : BufTy).Contents (Elt F)),
    StableHlo.unary main_v110 main_v111 (Host.rsqrt : (⟨S128, .f32⟩ : BufTy).Contents (Elt F) → (⟨S128, .f32⟩ : BufTy).Contents (Elt F)),
    StableHlo.unary main_v111 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v108 main_v113 main_v114 (mulf : (⟨S50000x128, .f32⟩ : BufTy).Contents (Elt F) → (⟨S50000x128, .f32⟩ : BufTy).Contents (Elt F) → (⟨S50000x128, .f32⟩ : BufTy).Contents (Elt F)),
    StableHlo.unary main_v99 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v116 main_v117 (mulf : (⟨S50000x128, .f32⟩ : BufTy).Contents (Elt F) → (⟨S50000x128, .f32⟩ : BufTy).Contents (Elt F) → (⟨S50000x128, .f32⟩ : BufTy).Contents (Elt F)),
    StableHlo.unary main_v101 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v119 main_v120 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (TRef.of (T := ⟨S50000x128, .f32⟩) main_v120) main_call5.v0 main_call5.v1 maximumf,
    StableHlo.unary main_arg5 main_v122 ((extractStridedSlice S1x128x128 ![1, 0, 0] · slices_S4x128x128_S1x128x128_1_0_0) : (⟨S4x128x128, .f32⟩ : BufTy).Contents (Elt F) → (⟨S1x128x128, .f32⟩ : BufTy).Contents (Elt F)),
    StableHlo.reshape main_v122 main_v123 rfl shapeCasts_S1x128x128_S128x128,
    StableHlo.binary main_v121 main_v123 main_v124 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v125 ((extractStridedSlice S1x128 ![1, 0] · slices_S4x128_S1x128_1_0) : (⟨S4x128, .f32⟩ : BufTy).Contents (Elt F) → (⟨S1x128, .f32⟩ : BufTy).Contents (Elt F)),
    StableHlo.reshape main_v125 main_v126 rfl shapeCasts_S1x128_S128,
    StableHlo.unary main_v126 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v128 main_v129 (addf : (⟨S50000x128, .f32⟩ : BufTy).Contents (Elt F) → (⟨S50000x128, .f32⟩ : BufTy).Contents (Elt F) → (⟨S50000x128, .f32⟩ : BufTy).Contents (Elt F)) ]

/-- The buffers `C1`'s operations write. -/
abbrev C1_W : List (Ref sig .tc) := [main_v106, main_v107, main_v108, main_cst_15, main_v109, main_v110, main_v111, main_v112, main_v113, main_v114, main_v115, main_v116, main_v117, main_v118, main_v119, main_v120, main_call5.cst.ref, main_call5.v0.ref, main_call5.v1.ref, main_v122, main_v123, main_v124, main_v125, main_v126, main_v127, main_v128, main_v129]

set_option maxRecDepth 8192 in
theorem C1_writes : (C1 : List (HloOp τ sig (Elt F))).Forall fun op =>
    op.writes ⊆ (C1_W.map (Proc.devRef (τ := τ) .tc)).toFinset := by
  unfold C1
  exact ⟨writes_sub_of_mem (y := main_v106) (by decide),
    writes_sub_of_mem (y := main_v107) (by decide),
    writes_sub_of_mem (y := main_v108) (by decide),
    writes_sub_of_mem (y := main_cst_15) (by decide),
    writes_sub_of_mem (y := main_v109) (by decide),
    writes_sub_of_mem (y := main_v110) (by decide),
    writes_sub_of_mem (y := main_v111) (by decide),
    writes_sub_of_mem (y := main_v112) (by decide),
    writes_sub_of_mem (y := main_v113) (by decide),
    writes_sub_of_mem (y := main_v114) (by decide),
    writes_sub_of_mem (y := main_v115) (by decide),
    writes_sub_of_mem (y := main_v116) (by decide),
    writes_sub_of_mem (y := main_v117) (by decide),
    writes_sub_of_mem (y := main_v118) (by decide),
    writes_sub_of_mem (y := main_v119) (by decide),
    writes_sub_of_mem (y := main_v120) (by decide),
    writes_sub_of_mem (y := main_call5.cst.ref) (by decide),
    writes_sub_of_mem (y := main_call5.v0.ref) (by decide),
    writes_sub_of_mem (y := main_call5.v1.ref) (by decide),
    writes_sub_of_mem (y := main_v122) (by decide),
    writes_sub_of_mem (y := main_v123) (by decide),
    writes_sub_of_mem (y := main_v124) (by decide),
    writes_sub_of_mem (y := main_v125) (by decide),
    writes_sub_of_mem (y := main_v126) (by decide),
    writes_sub_of_mem (y := main_v127) (by decide),
    writes_sub_of_mem (y := main_v128) (by decide),
    writes_sub_of_mem (y := main_v129) (by decide)⟩

/-- A buffer `C1` does not write keeps its contents through it. -/
theorem C1_keep (W : Valuation τ sig (Elt F)) (r : Ref sig .tc) (h : r ∉ C1_W) :
    after C1 W (no_index (Proc.devRef .tc r)) = W (Proc.devRef .tc r) :=
  after_of_writes_sub C1 W C1_writes h

set_option maxRecDepth 8192 in
set_option maxHeartbeats 2700000 in
theorem C1_z2 (W : Valuation τ sig (Elt F)) :
    after C1 W (no_index (Proc.devRef .tc main_v129)) = lin (normRelu (W (Proc.devRef .tc main_v97)) (W (Proc.devRef .tc main_v104)) (W (Proc.devRef .tc main_v105)) (W (Proc.devRef .tc main_v99)) (W (Proc.devRef .tc main_v101))) (matAt (W (Proc.devRef .tc main_arg5)) 1 slices_S4x128x128_S1x128x128_1_0_0) (vecAt (W (Proc.devRef .tc main_arg6)) 1 slices_S4x128_S1x128_1_0) := by
  unfold C1
  after_results_simp <;> rfl

/-- Layer 1, fourth stretch: the outer normalization's scale and shift, and the column mean and variance. -/
def D1 : List (HloOp τ sig (Elt F)) :=
  [ StableHlo.unary main_arg9 main_v130 ((extractStridedSlice S1x128 ![1, 0] · slices_S4x128_S1x128_1_0) : (⟨S4x128, .f32⟩ : BufTy).Contents (Elt F) → (⟨S1x128, .f32⟩ : BufTy).Contents (Elt F)),
    StableHlo.reshape main_v130 main_v131 rfl shapeCasts_S1x128_S128,
    StableHlo.unary main_arg10 main_v132 ((extractStridedSlice S1x128 ![1, 0] · slices_S4x128_S1x128_1_0) : (⟨S4x128, .f32⟩ : BufTy).Contents (Elt F) → (⟨S1x128, .f32⟩ : BufTy).Contents (Elt F)),
    StableHlo.reshape main_v132 main_v133 rfl shapeCasts_S1x128_S128,
    StableHlo.nullary main_cst_16 (constant S_ .f32 0x00000000#32),
    StableHlo.binary main_v129 main_cst_16 main_v134 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_17 (constant S_ .f32 0x47435000#32),
    StableHlo.unary main_cst_17 main_v135 (broadcastInDim S128 ![] bcast_S_S128 : (⟨S_, .f32⟩ : BufTy).Contents (Elt F) → (⟨S128, .f32⟩ : BufTy).Contents (Elt F)),
    StableHlo.binary main_v134 main_v135 main_v136 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call6.cst (constant S_ .f32 0x00000000#32),
    StableHlo.TRef.binary (TRef.of (T := ⟨S50000x128, .f32⟩) main_v129) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (TRef.of (T := ⟨S50000x128, .f32⟩) main_v129) main_call6.v4 main_call6.v5 subf,
    StableHlo.TRef.binary main_call6.v5 main_call6.v5 main_call6.v6 mulf,
    StableHlo.TRef.unary (TRef.of (T := ⟨S_, .i32⟩) main_c_18) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b) ]

/-- The buffers `D1`'s operations write. -/
abbrev D1_W : List (Ref sig .tc) := [main_v130, main_v131, main_v132, main_v133, main_cst_16, main_v134, main_cst_17, main_v135, main_v136, main_c_18, main_call6.cst.ref, main_call6.v0.ref, main_call6.v1.ref, main_call6.cst_0.ref, main_call6.v2.ref, main_call6.v3.ref, main_call6.v4.ref, main_call6.v5.ref, main_call6.v6.ref, main_call6.v7.ref, main_call6.cst_1.ref, main_call6.v8.ref, main_call6.cst_2.ref, main_call6.v9.ref, main_call6.v10.ref, main_call6.v11.ref, main_call6.cst_3.ref, main_call6.v12.ref, main_call6.cst_4.ref, main_call6.call0.v0.ref, main_call6.call0.v1.ref, main_call6.call0.v2.ref]

set_option maxRecDepth 8192 in
theorem D1_writes : (D1 : List (HloOp τ sig (Elt F))).Forall fun op =>
    op.writes ⊆ (D1_W.map (Proc.devRef (τ := τ) .tc)).toFinset := by
  unfold D1
  exact ⟨writes_sub_of_mem (y := main_v130) (by decide),
    writes_sub_of_mem (y := main_v131) (by decide),
    writes_sub_of_mem (y := main_v132) (by decide),
    writes_sub_of_mem (y := main_v133) (by decide),
    writes_sub_of_mem (y := main_cst_16) (by decide),
    writes_sub_of_mem (y := main_v134) (by decide),
    writes_sub_of_mem (y := main_cst_17) (by decide),
    writes_sub_of_mem (y := main_v135) (by decide),
    writes_sub_of_mem (y := main_v136) (by decide),
    writes_sub_of_mem (y := main_c_18) (by decide),
    writes_sub_of_mem (y := main_call6.cst.ref) (by decide),
    writes_sub_of_mem (y := main_call6.v0.ref) (by decide),
    writes_sub_of_mem (y := main_call6.v1.ref) (by decide),
    writes_sub_of_mem (y := main_call6.cst_0.ref) (by decide),
    writes_sub_of_mem (y := main_call6.v2.ref) (by decide),
    writes_sub_of_mem (y := main_call6.v3.ref) (by decide),
    writes_sub_of_mem (y := main_call6.v4.ref) (by decide),
    writes_sub_of_mem (y := main_call6.v5.ref) (by decide),
    writes_sub_of_mem (y := main_call6.v6.ref) (by decide),
    writes_sub_of_mem (y := main_call6.v7.ref) (by decide),
    writes_sub_of_mem (y := main_call6.cst_1.ref) (by decide),
    writes_sub_of_mem (y := main_call6.v8.ref) (by decide),
    writes_sub_of_mem (y := main_call6.cst_2.ref) (by decide),
    writes_sub_of_mem (y := main_call6.v9.ref) (by decide),
    writes_sub_of_mem (y := main_call6.v10.ref) (by decide),
    writes_sub_of_mem (y := main_call6.v11.ref) (by decide),
    writes_sub_of_mem (y := main_call6.cst_3.ref) (by decide),
    writes_sub_of_mem (y := main_call6.v12.ref) (by decide),
    writes_sub_of_mem (y := main_call6.cst_4.ref) (by decide),
    writes_sub_of_mem (y := main_call6.call0.v0.ref) (by decide),
    writes_sub_of_mem (y := main_call6.call0.v1.ref) (by decide),
    writes_sub_of_mem (y := main_call6.call0.v2.ref) (by decide)⟩

/-- A buffer `D1` does not write keeps its contents through it. -/
theorem D1_keep (W : Valuation τ sig (Elt F)) (r : Ref sig .tc) (h : r ∉ D1_W) :
    after D1 W (no_index (Proc.devRef .tc r)) = W (Proc.devRef .tc r) :=
  after_of_writes_sub D1 W D1_writes h

set_option maxRecDepth 8192 in
set_option maxHeartbeats 3200000 in
theorem D1_g (W : Valuation τ sig (Elt F)) :
    after D1 W (no_index (Proc.devRef .tc main_v131)) = vecAt (W (Proc.devRef .tc main_arg9)) 1 slices_S4x128_S1x128_1_0 := by
  unfold D1
  after_results_simp <;> rfl

set_option maxRecDepth 8192 in
set_option maxHeartbeats 3200000 in
theorem D1_b (W : Valuation τ sig (Elt F)) :
    after D1 W (no_index (Proc.devRef .tc main_v133)) = vecAt (W (Proc.devRef .tc main_arg10)) 1 slices_S4x128_S1x128_1_0 := by
  unfold D1
  after_results_simp <;> rfl

set_option maxRecDepth 8192 in
set_option maxHeartbeats 3200000 in
theorem D1_mean (W : Valuation τ sig (Elt F)) :
    after D1 W (no_index (Proc.devRef .tc main_v136)) = colMean (W (Proc.devRef .tc main_v129)) := by
  unfold D1
  after_results_simp <;> rfl

set_option maxRecDepth 8192 in
set_option maxHeartbeats 3200000 in
theorem D1_var (W : Valuation τ sig (Elt F)) :
    after D1 W (no_index (Proc.devRef .tc main_v137)) = colVar (W (Proc.devRef .tc main_v129)) := by
  unfold D1
  after_results_simp <;> rfl

/-- Layer 1, fifth stretch: the outer normalization with the positive part. -/
def E1 : List (HloOp τ sig (Elt F)) :=
  [ StableHlo.unary main_v136 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v129 main_v139 main_v140 (subf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3727C5AC#32),
    StableHlo.unary main_cst_19 main_v141 (broadcastInDim S128 ![] bcast_S_S128 : (⟨S_, .f32⟩ : BufTy).Contents (Elt F) → (⟨S128, .f32⟩ : BufTy).Contents (Elt F)),
    StableHlo.binary main_v137 main_v141 main_v142 (addf : (⟨S128, .f32⟩ : BufTy).Contents (Elt F) → (⟨S128, .f32⟩ : BufTy).Contents (Elt F) → (⟨S128, .f32⟩ : BufTy).Contents (Elt F)),
    StableHlo.unary main_v142 main_v143 (Host.rsqrt : (⟨S128, .f32⟩ : BufTy).Contents (Elt F) → (⟨S128, .f32⟩ : BufTy).Contents (Elt F)),
    StableHlo.unary main_v143 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S50000x128 ![0, 1] bcast_S1x128_S50000x128_0_1 : (⟨S1x128, .f32⟩ : BufTy).Contents (Elt F) → (⟨S50000x128, .f32⟩ : BufTy).Contents (Elt F)),
    StableHlo.binary main_v140 main_v145 main_v146 (mulf : (⟨S50000x128, .f32⟩ : BufTy).Contents (Elt F) → (⟨S50000x128, .f32⟩ : BufTy).Contents (Elt F) → (⟨S50000x128, .f32⟩ : BufTy).Contents (Elt F)),
    StableHlo.unary main_v131 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S50000x128 ![0, 1] bcast_S1x128_S50000x128_0_1 : (⟨S1x128, .f32⟩ : BufTy).Contents (Elt F) → (⟨S50000x128, .f32⟩ : BufTy).Contents (Elt F)),
    StableHlo.binary main_v146 main_v148 main_v149 (mulf : (⟨S50000x128, .f32⟩ : BufTy).Contents (Elt F) → (⟨S50000x128, .f32⟩ : BufTy).Contents (Elt F) → (⟨S50000x128, .f32⟩ : BufTy).Contents (Elt F)),
    StableHlo.unary main_v133 main_v150 (broadcastInDim S1x128 ![1] bcast_S128_S1x128_1 : (⟨S128, .f32⟩ : BufTy).Contents (Elt F) → (⟨S1x128, .f32⟩ : BufTy).Contents (Elt F)),
    StableHlo.unary main_v150 main_v151 (broadcastInDim S50000x128 ![0, 1] bcast_S1x128_S50000x128_0_1 : (⟨S1x128, .f32⟩ : BufTy).Contents (Elt F) → (⟨S50000x128, .f32⟩ : BufTy).Contents (Elt F)),
    StableHlo.binary main_v149 main_v151 main_v152 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (TRef.of (T := ⟨S50000x128, .f32⟩) main_v152) main_call7.v0 main_call7.v1 maximumf ]

/-- The buffers `E1`'s operations write. -/
abbrev E1_W : List (Ref sig .tc) := [main_v138, main_v139, main_v140, main_cst_19, main_v141, main_v142, main_v143, main_v144, main_v145, main_v146, main_v147, main_v148, main_v149, main_v150, main_v151, main_v152, main_call7.cst.ref, main_call7.v0.ref, main_call7.v1.ref]

set_option maxRecDepth 8192 in
theorem E1_writes : (E1 : List (HloOp τ sig (Elt F))).Forall fun op =>
    op.writes ⊆ (E1_W.map (Proc.devRef (τ := τ) .tc)).toFinset := by
  unfold E1
  exact ⟨writes_sub_of_mem (y := main_v138) (by decide),
    writes_sub_of_mem (y := main_v139) (by decide),
    writes_sub_of_mem (y := main_v140) (by decide),
    writes_sub_of_mem (y := main_cst_19) (by decide),
    writes_sub_of_mem (y := main_v141) (by decide),
    writes_sub_of_mem (y := main_v142) (by decide),
    writes_sub_of_mem (y := main_v143) (by decide),
    writes_sub_of_mem (y := main_v144) (by decide),
    writes_sub_of_mem (y := main_v145) (by decide),
    writes_sub_of_mem (y := main_v146) (by decide),
    writes_sub_of_mem (y := main_v147) (by decide),
    writes_sub_of_mem (y := main_v148) (by decide),
    writes_sub_of_mem (y := main_v149) (by decide),
    writes_sub_of_mem (y := main_v150) (by decide),
    writes_sub_of_mem (y := main_v151) (by decide),
    writes_sub_of_mem (y := main_v152) (by decide),
    writes_sub_of_mem (y := main_call7.cst.ref) (by decide),
    writes_sub_of_mem (y := main_call7.v0.ref) (by decide),
    writes_sub_of_mem (y := main_call7.v1.ref) (by decide)⟩

/-- A buffer `E1` does not write keeps its contents through it. -/
theorem E1_keep (W : Valuation τ sig (Elt F)) (r : Ref sig .tc) (h : r ∉ E1_W) :
    after E1 W (no_index (Proc.devRef .tc r)) = W (Proc.devRef .tc r) :=
  after_of_writes_sub E1 W E1_writes h

set_option maxRecDepth 8192 in
set_option maxHeartbeats 1900000 in
theorem E1_h (W : Valuation τ sig (Elt F)) :
    after E1 W (no_index (Proc.devRef .tc main_v153)) = normRelu (W (Proc.devRef .tc main_v129)) (W (Proc.devRef .tc main_v136)) (W (Proc.devRef .tc main_v137)) (W (Proc.devRef .tc main_v131)) (W (Proc.devRef .tc main_v133)) := by
  unfold E1
  after_results_simp <;> rfl

set_option maxRecDepth 8192 in
set_option maxHeartbeats 1000000 in
/-- Layer 1's output is `refLayer` of its input, the edge columns and its slices of the parameter arrays, all as the layer
    finds them. -/
theorem layer1_h (W : Valuation τ sig (Elt F)) :
    after E1 (after D1 (after C1 (after B1 (after A1 W)))) (no_index (Proc.devRef .tc main_v153))
      = refLayer (W (Proc.devRef .tc main_v78)) (srcColOf (W (Proc.devRef .tc main_v1))) (dstColOf (W (Proc.devRef .tc main_v3)))
          (matAt (W (Proc.devRef .tc main_arg3)) 1 slices_S4x128x128_S1x128x128_1_0_0) (vecAt (W (Proc.devRef .tc main_arg4)) 1 slices_S4x128_S1x128_1_0)
          (matAt (W (Proc.devRef .tc main_arg5)) 1 slices_S4x128x128_S1x128x128_1_0_0) (vecAt (W (Proc.devRef .tc main_arg6)) 1 slices_S4x128_S1x128_1_0)
          (vecAt (W (Proc.devRef .tc main_arg7)) 1 slices_S4x128_S1x128_1_0) (vecAt (W (Proc.devRef .tc main_arg8)) 1 slices_S4x128_S1x128_1_0)
          (vecAt (W (Proc.devRef .tc main_arg9)) 1 slices_S4x128_S1x128_1_0) (vecAt (W (Proc.devRef .tc main_arg10)) 1 slices_S4x128_S1x128_1_0) := by
  simp (disch := decide) only [E1_h, D1_g, D1_b, D1_mean, D1_var, D1_keep, C1_z2, C1_keep,
    B1_g, B1_b, B1_mean, B1_var, B1_keep, A1_z1, A1_keep]
  rfl

end Cert.ReferenceIdeal.RefRun

end
-- ==== Proof.RefRun.Read.L2.lean ====
import proofs.«102976_j3633542332749_1_alg».proof.Proof.Gen.ReferenceIdeal
import Idealize.ShloMosaic.Lib.StableHlo.Run
import proofs.«102976_j3633542332749_1_alg».proof.Proof.RefRun.Base
import proofs.«102976_j3633542332749_1_alg».proof.Proof.RefRun.Value

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Layer 2 of the reference, read as pure functions: its operations in five consecutive stretches, what each leaves in
    the buffers later stretches read, and the layer's output as `refLayer` of what the layer finds. -/

/-- Layer 2, first stretch: the neighbour sum and the first linear map. -/
def A2 : List (HloOp τ sig (Elt F)) :=
  [ StableHlo.nullary main_c_20 (constantI S_ 32 0#32),
    StableHlo.unary main_c_20 main_v154 (broadcastInDim S600000 ![] bcast_S_S600000 : (⟨S_, .i32⟩ : BufTy).Contents (Elt F) → (⟨S600000, .i32⟩ : BufTy).Contents (Elt F)),
    StableHlo.binary main_v1 main_v154 main_v155 (cmpi .slt : (⟨S600000, .i32⟩ : BufTy).Contents (Elt F) → (⟨S600000, .i32⟩ : BufTy).Contents (Elt F) → (⟨S600000, .i1⟩ : BufTy).Contents (Elt F)),
    StableHlo.nullary main_c_21 (constantI S_ 32 50000#32),
    StableHlo.unary main_c_21 main_v156 (broadcastInDim S600000 ![] bcast_S_S600000 : (⟨S_, .i32⟩ : BufTy).Contents (Elt F) → (⟨S600000, .i32⟩ : BufTy).Contents (Elt F)),
    StableHlo.binary main_v1 main_v156 main_v157 (addi : (⟨S600000, .i32⟩ : BufTy).Contents (Elt F) → (⟨S600000, .i32⟩ : BufTy).Contents (Elt F) → (⟨S600000, .i32⟩ : BufTy).Contents (Elt F)),
    StableHlo.ternary main_v155 main_v157 main_v1 main_v158 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v158 main_v159 (broadcastInDim S600000x1 ![0] bcast_S600000_S600000x1_0 : (⟨S600000, .i32⟩ : BufTy).Contents (Elt F) → (⟨S600000x1, .i32⟩ : BufTy).Contents (Elt F)),
    StableHlo.binary main_v153 main_v159 main_v160 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_22 (constant S_ .f32 0x00000000#32),
    StableHlo.unary main_cst_22 main_v161 (broadcastInDim S50000x128 ![] bcast_S_S50000x128 : (⟨S_, .f32⟩ : BufTy).Contents (Elt F) → (⟨S50000x128, .f32⟩ : BufTy).Contents (Elt F)),
    StableHlo.unary main_v3 main_v162 (broadcastInDim S600000x1 ![0] bcast_S600000_S600000x1_0 : (⟨S600000, .i32⟩ : BufTy).Contents (Elt F) → (⟨S600000x1, .i32⟩ : BufTy).Contents (Elt F)),
    StableHlo.ternary main_v161 main_v162 main_v160 main_v163 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v153 main_v163 main_v164 (addf : (⟨S50000x128, .f32⟩ : BufTy).Contents (Elt F) → (⟨S50000x128, .f32⟩ : BufTy).Contents (Elt F) → (⟨S50000x128, .f32⟩ : BufTy).Contents (Elt F)),
    StableHlo.unary main_arg3 main_v165 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v165 main_v166 rfl shapeCasts_S1x128x128_S128x128,
    StableHlo.binary main_v164 main_v166 main_v167 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v168 ((extractStridedSlice S1x128 ![2, 0] · slices_S4x128_S1x128_2_0) : (⟨S4x128, .f32⟩ : BufTy).Contents (Elt F) → (⟨S1x128, .f32⟩ : BufTy).Contents (Elt F)),
    StableHlo.reshape main_v168 main_v169 rfl shapeCasts_S1x128_S128,
    StableHlo.unary main_v169 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S50000x128 ![0, 1] bcast_S1x128_S50000x128_0_1 : (⟨S1x128, .f32⟩ : BufTy).Contents (Elt F) → (⟨S50000x128, .f32⟩ : BufTy).Contents (Elt F)),
    StableHlo.binary main_v167 main_v171 main_v172 (addf : (⟨S50000x128, .f32⟩ : BufTy).Contents (Elt F) → (⟨S50000x128, .f32⟩ : BufTy).Contents (Elt F) → (⟨S50000x128, .f32⟩ : BufTy).Contents (Elt F)) ]

/-- The buffers `A2`'s operations write. -/
abbrev A2_W : List (Ref sig .tc) := [main_c_20, main_v154, main_v155, main_c_21, main_v156, main_v157, main_v158, main_v159, main_v160, main_cst_22, main_v161, main_v162, main_v163, main_v164, main_v165, main_v166, main_v167, main_v168, main_v169, main_v170, main_v171, main_v172]

set_option maxRecDepth 8192 in
theorem A2_writes : (A2 : List (HloOp τ sig (Elt F))).Forall fun op =>
    op.writes ⊆ (A2_W.map (Proc.devRef (τ := τ) .tc)).toFinset := by
  unfold A2
  exact ⟨writes_sub_of_mem (y := main_c_20) (by decide),
    writes_sub_of_mem (y := main_v154) (by decide),
    writes_sub_of_mem (y := main_v155) (by decide),
    writes_sub_of_mem (y := main_c_21) (by decide),
    writes_sub_of_mem (y := main_v156) (by decide),
    writes_sub_of_mem (y := main_v157) (by decide),
    writes_sub_of_mem (y := main_v158) (by decide),
    writes_sub_of_mem (y := main_v159) (by decide),
    writes_sub_of_mem (y := main_v160) (by decide),
    writes_sub_of_mem (y := main_cst_22) (by decide),
    writes_sub_of_mem (y := main_v161) (by decide),
    writes_sub_of_mem (y := main_v162) (by decide),
    writes_sub_of_mem (y := main_v163) (by decide),
    writes_sub_of_mem (y := main_v164) (by decide),
    writes_sub_of_mem (y := main_v165) (by decide),
    writes_sub_of_mem (y := main_v166) (by decide),
    writes_sub_of_mem (y := main_v167) (by decide),
    writes_sub_of_mem (y := main_v168) (by decide),
    writes_sub_of_mem (y := main_v169) (by decide),
    writes_sub_of_mem (y := main_v170) (by decide),
    writes_sub_of_mem (y := main_v171) (by decide),
    writes_sub_of_mem (y := main_v172) (by decide)⟩

/-- A buffer `A2` does not write keeps its contents through it. -/
theorem A2_keep (W : Valuation τ sig (Elt F)) (r : Ref sig .tc) (h : r ∉ A2_W) :
    after A2 W (no_index (Proc.devRef .tc r)) = W (Proc.devRef .tc r) :=
  after_of_writes_sub A2 W A2_writes h

set_option maxRecDepth 8192 in
set_option maxHeartbeats 2200000 in
theorem A2_z1 (W : Valuation τ sig (Elt F)) :
    after A2 W (no_index (Proc.devRef .tc main_v172)) = lin (addf (W (Proc.devRef .tc main_v153)) (agg (W (Proc.devRef .tc main_v153)) (srcColOf (W (Proc.devRef .tc main_v1))) (dstColOf (W (Proc.devRef .tc main_v3))))) (matAt (W (Proc.devRef .tc main_arg3)) 2 slices_S4x128x128_S1x128x128_2_0_0) (vecAt (W (Proc.devRef .tc main_arg4)) 2 slices_S4x128_S1x128_2_0) := by
  unfold A2
  after_results_simp <;> rfl

/-- Layer 2, second stretch: the inner normalization's scale and shift, and the column mean and variance. -/
def B2 : List (HloOp τ sig (Elt F)) :=
  [ StableHlo.unary main_arg7 main_v173 ((extractStridedSlice S1x128 ![2, 0] · slices_S4x128_S1x128_2_0) : (⟨S4x128, .f32⟩ : BufTy).Contents (Elt F) → (⟨S1x128, .f32⟩ : BufTy).Contents (Elt F)),
    StableHlo.reshape main_v173 main_v174 rfl shapeCasts_S1x128_S128,
    StableHlo.unary main_arg8 main_v175 ((extractStridedSlice S1x128 ![2, 0] · slices_S4x128_S1x128_2_0) : (⟨S4x128, .f32⟩ : BufTy).Contents (Elt F) → (⟨S1x128, .f32⟩ : BufTy).Contents (Elt F)),
    StableHlo.reshape main_v175 main_v176 rfl shapeCasts_S1x128_S128,
    StableHlo.nullary main_cst_23 (constant S_ .f32 0x00000000#32),
    StableHlo.binary main_v172 main_cst_23 main_v177 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_24 (constant S_ .f32 0x47435000#32),
    StableHlo.unary main_cst_24 main_v178 (broadcastInDim S128 ![] bcast_S_S128 : (⟨S_, .f32⟩ : BufTy).Contents (Elt F) → (⟨S128, .f32⟩ : BufTy).Contents (Elt F)),
    StableHlo.binary main_v177 main_v178 main_v179 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call8.cst (constant S_ .f32 0x00000000#32),
    StableHlo.TRef.binary (TRef.of (T := ⟨S50000x128, .f32⟩) main_v172) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (TRef.of (T := ⟨S50000x128, .f32⟩) main_v172) main_call8.v4 main_call8.v5 subf,
    StableHlo.TRef.binary main_call8.v5 main_call8.v5 main_call8.v6 mulf,
    StableHlo.TRef.unary (TRef.of (T := ⟨S_, .i32⟩) main_c_25) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b) ]

/-- The buffers `B2`'s operations write. -/
abbrev B2_W : List (Ref sig .tc) := [main_v173, main_v174, main_v175, main_v176, main_cst_23, main_v177, main_cst_24, main_v178, main_v179, main_c_25, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref]

set_option maxRecDepth 8192 in
theorem B2_writes : (B2 : List (HloOp τ sig (Elt F))).Forall fun op =>
    op.writes ⊆ (B2_W.map (Proc.devRef (τ := τ) .tc)).toFinset := by
  unfold B2
  exact ⟨writes_sub_of_mem (y := main_v173) (by decide),
    writes_sub_of_mem (y := main_v174) (by decide),
    writes_sub_of_mem (y := main_v175) (by decide),
    writes_sub_of_mem (y := main_v176) (by decide),
    writes_sub_of_mem (y := main_cst_23) (by decide),
    writes_sub_of_mem (y := main_v177) (by decide),
    writes_sub_of_mem (y := main_cst_24) (by decide),
    writes_sub_of_mem (y := main_v178) (by decide),
    writes_sub_of_mem (y := main_v179) (by decide),
    writes_sub_of_mem (y := main_c_25) (by decide),
    writes_sub_of_mem (y := main_call8.cst.ref) (by decide),
    writes_sub_of_mem (y := main_call8.v0.ref) (by decide),
    writes_sub_of_mem (y := main_call8.v1.ref) (by decide),
    writes_sub_of_mem (y := main_call8.cst_0.ref) (by decide),
    writes_sub_of_mem (y := main_call8.v2.ref) (by decide),
    writes_sub_of_mem (y := main_call8.v3.ref) (by decide),
    writes_sub_of_mem (y := main_call8.v4.ref) (by decide),
    writes_sub_of_mem (y := main_call8.v5.ref) (by decide),
    writes_sub_of_mem (y := main_call8.v6.ref) (by decide),
    writes_sub_of_mem (y := main_call8.v7.ref) (by decide),
    writes_sub_of_mem (y := main_call8.cst_1.ref) (by decide),
    writes_sub_of_mem (y := main_call8.v8.ref) (by decide),
    writes_sub_of_mem (y := main_call8.cst_2.ref) (by decide),
    writes_sub_of_mem (y := main_call8.v9.ref) (by decide),
    writes_sub_of_mem (y := main_call8.v10.ref) (by decide),
    writes_sub_of_mem (y := main_call8.v11.ref) (by decide),
    writes_sub_of_mem (y := main_call8.cst_3.ref) (by decide),
    writes_sub_of_mem (y := main_call8.v12.ref) (by decide),
    writes_sub_of_mem (y := main_call8.cst_4.ref) (by decide),
    writes_sub_of_mem (y := main_call8.call0.v0.ref) (by decide),
    writes_sub_of_mem (y := main_call8.call0.v1.ref) (by decide),
    writes_sub_of_mem (y := main_call8.call0.v2.ref) (by decide)⟩

/-- A buffer `B2` does not write keeps its contents through it. -/
theorem B2_keep (W : Valuation τ sig (Elt F)) (r : Ref sig .tc) (h : r ∉ B2_W) :
    after B2 W (no_index (Proc.devRef .tc r)) = W (Proc.devRef .tc r) :=
  after_of_writes_sub B2 W B2_writes h

set_option maxRecDepth 8192 in
set_option maxHeartbeats 3200000 in
theorem B2_g (W : Valuation τ sig (Elt F)) :
    after B2 W (no_index (Proc.devRef .tc main_v174)) = vecAt (W (Proc.devRef .tc main_arg7)) 2 slices_S4x128_S1x128_2_0 := by
  unfold B2
  after_results_simp <;> rfl

set_option maxRecDepth 8192 in
set_option maxHeartbeats 3200000 in
theorem B2_b (W : Valuation τ sig (Elt F)) :
    after B2 W (no_index (Proc.devRef .tc main_v176)) = vecAt (W (Proc.devRef .tc main_arg8)) 2 slices_S4x128_S1x128_2_0 := by
  unfold B2
  after_results_simp <;> rfl

set_option maxRecDepth 8192 in
set_option maxHeartbeats 3200000 in
theorem B2_mean (W : Valuation τ sig (Elt F)) :
    after B2 W (no_index (Proc.devRef .tc main_v179)) = colMean (W (Proc.devRef .tc main_v172)) := by
  unfold B2
  after_results_simp <;> rfl

set_option maxRecDepth 8192 in
set_option maxHeartbeats 3200000 in
theorem B2_var (W : Valuation τ sig (Elt F)) :
    after B2 W (no_index (Proc.devRef .tc main_v180)) = colVar (W (Proc.devRef .tc main_v172)) := by
  unfold B2
  after_results_simp <;> rfl

/-- Layer 2, third stretch: the inner normalization with the positive part, and the second linear map. -/
def C2 : List (HloOp τ sig (Elt F)) :=
  [ StableHlo.unary main_v179 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S50000x128 ![0, 1] bcast_S1x128_S50000x128_0_1 : (⟨S1x128, .f32⟩ : BufTy).Contents (Elt F) → (⟨S50000x128, .f32⟩ : BufTy).Contents (Elt F)),
    StableHlo.binary main_v172 main_v182 main_v183 (subf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3727C5AC#32),
    StableHlo.unary main_cst_26 main_v184 (broadcastInDim S128 ![] bcast_S_S128 : (⟨S_, .f32⟩ : BufTy).Contents (Elt F) → (⟨S128, .f32⟩ : BufTy).Contents (Elt F)),
    StableHlo.binary main_v180 main_v184 main_v185 (addf : (⟨S128, .f32⟩ : BufTy).Contents (Elt F) → (⟨S128, .f32⟩ : BufTy).Contents (Elt F) → (⟨S128, .f32⟩ : BufTy).Contents (Elt F)),
    StableHlo.unary main_v185 main_v186 (Host.rsqrt : (⟨S128, .f32⟩ : BufTy).Contents (Elt F) → (⟨S128, .f32⟩ : BufTy).Contents (Elt F)),
    StableHlo.unary main_v186 main_v187 (broadcastInDim S1x128 ![1] bcast_S128_S1x128_1 : (⟨S128, .f32⟩ : BufTy).Contents (Elt F) → (⟨S1x128, .f32⟩ : BufTy).Contents (Elt F)),
    StableHlo.unary main_v187 main_v188 (broadcastInDim S50000x128 ![0, 1] bcast_S1x128_S50000x128_0_1 : (⟨S1x128, .f32⟩ : BufTy).Contents (Elt F) → (⟨S50000x128, .f32⟩ : BufTy).Contents (Elt F)),
    StableHlo.binary main_v183 main_v188 main_v189 (mulf : (⟨S50000x128, .f32⟩ : BufTy).Contents (Elt F) → (⟨S50000x128, .f32⟩ : BufTy).Contents (Elt F) → (⟨S50000x128, .f32⟩ : BufTy).Contents (Elt F)),
    StableHlo.unary main_v174 main_v190 (broadcastInDim S1x128 ![1] bcast_S128_S1x128_1 : (⟨S128, .f32⟩ : BufTy).Contents (Elt F) → (⟨S1x128, .f32⟩ : BufTy).Contents (Elt F)),
    StableHlo.unary main_v190 main_v191 (broadcastInDim S50000x128 ![0, 1] bcast_S1x128_S50000x128_0_1 : (⟨S1x128, .f32⟩ : BufTy).Contents (Elt F) → (⟨S50000x128, .f32⟩ : BufTy).Contents (Elt F)),
    StableHlo.binary main_v189 main_v191 main_v192 (mulf : (⟨S50000x128, .f32⟩ : BufTy).Contents (Elt F) → (⟨S50000x128, .f32⟩ : BufTy).Contents (Elt F) → (⟨S50000x128, .f32⟩ : BufTy).Contents (Elt F)),
    StableHlo.unary main_v176 main_v193 (broadcastInDim S1x128 ![1] bcast_S128_S1x128_1 : (⟨S128, .f32⟩ : BufTy).Contents (Elt F) → (⟨S1x128, .f32⟩ : BufTy).Contents (Elt F)),
    StableHlo.unary main_v193 main_v194 (broadcastInDim S50000x128 ![0, 1] bcast_S1x128_S50000x128_0_1 : (⟨S1x128, .f32⟩ : BufTy).Contents (Elt F) → (⟨S50000x128, .f32⟩ : BufTy).Contents (Elt F)),
    StableHlo.binary main_v192 main_v194 main_v195 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (TRef.of (T := ⟨S50000x128, .f32⟩) main_v195) main_call9.v0 main_call9.v1 maximumf,
    StableHlo.unary main_arg5 main_v197 ((extractStridedSlice S1x128x128 ![2, 0, 0] · slices_S4x128x128_S1x128x128_2_0_0) : (⟨S4x128x128, .f32⟩ : BufTy).Contents (Elt F) → (⟨S1x128x128, .f32⟩ : BufTy).Contents (Elt F)),
    StableHlo.reshape main_v197 main_v198 rfl shapeCasts_S1x128x128_S128x128,
    StableHlo.binary main_v196 main_v198 main_v199 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v200 ((extractStridedSlice S1x128 ![2, 0] · slices_S4x128_S1x128_2_0) : (⟨S4x128, .f32⟩ : BufTy).Contents (Elt F) → (⟨S1x128, .f32⟩ : BufTy).Contents (Elt F)),
    StableHlo.reshape main_v200 main_v201 rfl shapeCasts_S1x128_S128,
    StableHlo.unary main_v201 main_v202 (broadcastInDim S1x128 ![1] bcast_S128_S1x128_1 : (⟨S128, .f32⟩ : BufTy).Contents (Elt F) → (⟨S1x128, .f32⟩ : BufTy).Contents (Elt F)),
    StableHlo.unary main_v202 main_v203 (broadcastInDim S50000x128 ![0, 1] bcast_S1x128_S50000x128_0_1 : (⟨S1x128, .f32⟩ : BufTy).Contents (Elt F) → (⟨S50000x128, .f32⟩ : BufTy).Contents (Elt F)),
    StableHlo.binary main_v199 main_v203 main_v204 (addf : (⟨S50000x128, .f32⟩ : BufTy).Contents (Elt F) → (⟨S50000x128, .f32⟩ : BufTy).Contents (Elt F) → (⟨S50000x128, .f32⟩ : BufTy).Contents (Elt F)) ]

/-- The buffers `C2`'s operations write. -/
abbrev C2_W : List (Ref sig .tc) := [main_v181, main_v182, main_v183, main_cst_26, main_v184, main_v185, main_v186, main_v187, main_v188, main_v189, main_v190, main_v191, main_v192, main_v193, main_v194, main_v195, main_call9.cst.ref, main_call9.v0.ref, main_call9.v1.ref, main_v197, main_v198, main_v199, main_v200, main_v201, main_v202, main_v203, main_v204]

set_option maxRecDepth 8192 in
theorem C2_writes : (C2 : List (HloOp τ sig (Elt F))).Forall fun op =>
    op.writes ⊆ (C2_W.map (Proc.devRef (τ := τ) .tc)).toFinset := by
  unfold C2
  exact ⟨writes_sub_of_mem (y := main_v181) (by decide),
    writes_sub_of_mem (y := main_v182) (by decide),
    writes_sub_of_mem (y := main_v183) (by decide),
    writes_sub_of_mem (y := main_cst_26) (by decide),
    writes_sub_of_mem (y := main_v184) (by decide),
    writes_sub_of_mem (y := main_v185) (by decide),
    writes_sub_of_mem (y := main_v186) (by decide),
    writes_sub_of_mem (y := main_v187) (by decide),
    writes_sub_of_mem (y := main_v188) (by decide),
    writes_sub_of_mem (y := main_v189) (by decide),
    writes_sub_of_mem (y := main_v190) (by decide),
    writes_sub_of_mem (y := main_v191) (by decide),
    writes_sub_of_mem (y := main_v192) (by decide),
    writes_sub_of_mem (y := main_v193) (by decide),
    writes_sub_of_mem (y := main_v194) (by decide),
    writes_sub_of_mem (y := main_v195) (by decide),
    writes_sub_of_mem (y := main_call9.cst.ref) (by decide),
    writes_sub_of_mem (y := main_call9.v0.ref) (by decide),
    writes_sub_of_mem (y := main_call9.v1.ref) (by decide),
    writes_sub_of_mem (y := main_v197) (by decide),
    writes_sub_of_mem (y := main_v198) (by decide),
    writes_sub_of_mem (y := main_v199) (by decide),
    writes_sub_of_mem (y := main_v200) (by decide),
    writes_sub_of_mem (y := main_v201) (by decide),
    writes_sub_of_mem (y := main_v202) (by decide),
    writes_sub_of_mem (y := main_v203) (by decide),
    writes_sub_of_mem (y := main_v204) (by decide)⟩

/-- A buffer `C2` does not write keeps its contents through it. -/
theorem C2_keep (W : Valuation τ sig (Elt F)) (r : Ref sig .tc) (h : r ∉ C2_W) :
    after C2 W (no_index (Proc.devRef .tc r)) = W (Proc.devRef .tc r) :=
  after_of_writes_sub C2 W C2_writes h

set_option maxRecDepth 8192 in
set_option maxHeartbeats 2700000 in
theorem C2_z2 (W : Valuation τ sig (Elt F)) :
    after C2 W (no_index (Proc.devRef .tc main_v204)) = lin (normRelu (W (Proc.devRef .tc main_v172)) (W (Proc.devRef .tc main_v179)) (W (Proc.devRef .tc main_v180)) (W (Proc.devRef .tc main_v174)) (W (Proc.devRef .tc main_v176))) (matAt (W (Proc.devRef .tc main_arg5)) 2 slices_S4x128x128_S1x128x128_2_0_0) (vecAt (W (Proc.devRef .tc main_arg6)) 2 slices_S4x128_S1x128_2_0) := by
  unfold C2
  after_results_simp <;> rfl

/-- Layer 2, fourth stretch: the outer normalization's scale and shift, and the column mean and variance. -/
def D2 : List (HloOp τ sig (Elt F)) :=
  [ StableHlo.unary main_arg9 main_v205 ((extractStridedSlice S1x128 ![2, 0] · slices_S4x128_S1x128_2_0) : (⟨S4x128, .f32⟩ : BufTy).Contents (Elt F) → (⟨S1x128, .f32⟩ : BufTy).Contents (Elt F)),
    StableHlo.reshape main_v205 main_v206 rfl shapeCasts_S1x128_S128,
    StableHlo.unary main_arg10 main_v207 ((extractStridedSlice S1x128 ![2, 0] · slices_S4x128_S1x128_2_0) : (⟨S4x128, .f32⟩ : BufTy).Contents (Elt F) → (⟨S1x128, .f32⟩ : BufTy).Contents (Elt F)),
    StableHlo.reshape main_v207 main_v208 rfl shapeCasts_S1x128_S128,
    StableHlo.nullary main_cst_27 (constant S_ .f32 0x00000000#32),
    StableHlo.binary main_v204 main_cst_27 main_v209 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_28 (constant S_ .f32 0x47435000#32),
    StableHlo.unary main_cst_28 main_v210 (broadcastInDim S128 ![] bcast_S_S128 : (⟨S_, .f32⟩ : BufTy).Contents (Elt F) → (⟨S128, .f32⟩ : BufTy).Contents (Elt F)),
    StableHlo.binary main_v209 main_v210 main_v211 (Host.divf : (⟨S128, .f32⟩ : BufTy).Contents (Elt F) → (⟨S128, .f32⟩ : BufTy).Contents (Elt F) → (⟨S128, .f32⟩ : BufTy).Contents (Elt F)),
    StableHlo.nullary main_c_29 (constantI S_ 32 0#32),
    StableHlo.TRef.nullary main_call10.cst (constant S_ .f32 0x00000000#32),
    StableHlo.TRef.binary (TRef.of (T := ⟨S50000x128, .f32⟩) main_v204) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (TRef.of (T := ⟨S50000x128, .f32⟩) main_v204) main_call10.v4 main_call10.v5 subf,
    StableHlo.TRef.binary main_call10.v5 main_call10.v5 main_call10.v6 mulf,
    StableHlo.TRef.unary (TRef.of (T := ⟨S_, .i32⟩) main_c_29) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b) ]

/-- The buffers `D2`'s operations write. -/
abbrev D2_W : List (Ref sig .tc) := [main_v205, main_v206, main_v207, main_v208, main_cst_27, main_v209, main_cst_28, main_v210, main_v211, main_c_29, main_call10.cst.ref, main_call10.v0.ref, main_call10.v1.ref, main_call10.cst_0.ref, main_call10.v2.ref, main_call10.v3.ref, main_call10.v4.ref, main_call10.v5.ref, main_call10.v6.ref, main_call10.v7.ref, main_call10.cst_1.ref, main_call10.v8.ref, main_call10.cst_2.ref, main_call10.v9.ref, main_call10.v10.ref, main_call10.v11.ref, main_call10.cst_3.ref, main_call10.v12.ref, main_call10.cst_4.ref, main_call10.call0.v0.ref, main_call10.call0.v1.ref, main_call10.call0.v2.ref]

set_option maxRecDepth 8192 in
theorem D2_writes : (D2 : List (HloOp τ sig (Elt F))).Forall fun op =>
    op.writes ⊆ (D2_W.map (Proc.devRef (τ := τ) .tc)).toFinset := by
  unfold D2
  exact ⟨writes_sub_of_mem (y := main_v205) (by decide),
    writes_sub_of_mem (y := main_v206) (by decide),
    writes_sub_of_mem (y := main_v207) (by decide),
    writes_sub_of_mem (y := main_v208) (by decide),
    writes_sub_of_mem (y := main_cst_27) (by decide),
    writes_sub_of_mem (y := main_v209) (by decide),
    writes_sub_of_mem (y := main_cst_28) (by decide),
    writes_sub_of_mem (y := main_v210) (by decide),
    writes_sub_of_mem (y := main_v211) (by decide),
    writes_sub_of_mem (y := main_c_29) (by decide),
    writes_sub_of_mem (y := main_call10.cst.ref) (by decide),
    writes_sub_of_mem (y := main_call10.v0.ref) (by decide),
    writes_sub_of_mem (y := main_call10.v1.ref) (by decide),
    writes_sub_of_mem (y := main_call10.cst_0.ref) (by decide),
    writes_sub_of_mem (y := main_call10.v2.ref) (by decide),
    writes_sub_of_mem (y := main_call10.v3.ref) (by decide),
    writes_sub_of_mem (y := main_call10.v4.ref) (by decide),
    writes_sub_of_mem (y := main_call10.v5.ref) (by decide),
    writes_sub_of_mem (y := main_call10.v6.ref) (by decide),
    writes_sub_of_mem (y := main_call10.v7.ref) (by decide),
    writes_sub_of_mem (y := main_call10.cst_1.ref) (by decide),
    writes_sub_of_mem (y := main_call10.v8.ref) (by decide),
    writes_sub_of_mem (y := main_call10.cst_2.ref) (by decide),
    writes_sub_of_mem (y := main_call10.v9.ref) (by decide),
    writes_sub_of_mem (y := main_call10.v10.ref) (by decide),
    writes_sub_of_mem (y := main_call10.v11.ref) (by decide),
    writes_sub_of_mem (y := main_call10.cst_3.ref) (by decide),
    writes_sub_of_mem (y := main_call10.v12.ref) (by decide),
    writes_sub_of_mem (y := main_call10.cst_4.ref) (by decide),
    writes_sub_of_mem (y := main_call10.call0.v0.ref) (by decide),
    writes_sub_of_mem (y := main_call10.call0.v1.ref) (by decide),
    writes_sub_of_mem (y := main_call10.call0.v2.ref) (by decide)⟩

/-- A buffer `D2` does not write keeps its contents through it. -/
theorem D2_keep (W : Valuation τ sig (Elt F)) (r : Ref sig .tc) (h : r ∉ D2_W) :
    after D2 W (no_index (Proc.devRef .tc r)) = W (Proc.devRef .tc r) :=
  after_of_writes_sub D2 W D2_writes h

set_option maxRecDepth 8192 in
set_option maxHeartbeats 3200000 in
theorem D2_g (W : Valuation τ sig (Elt F)) :
    after D2 W (no_index (Proc.devRef .tc main_v206)) = vecAt (W (Proc.devRef .tc main_arg9)) 2 slices_S4x128_S1x128_2_0 := by
  unfold D2
  after_results_simp <;> rfl

set_option maxRecDepth 8192 in
set_option maxHeartbeats 3200000 in
theorem D2_b (W : Valuation τ sig (Elt F)) :
    after D2 W (no_index (Proc.devRef .tc main_v208)) = vecAt (W (Proc.devRef .tc main_arg10)) 2 slices_S4x128_S1x128_2_0 := by
  unfold D2
  after_results_simp <;> rfl

set_option maxRecDepth 8192 in
set_option maxHeartbeats 3200000 in
theorem D2_mean (W : Valuation τ sig (Elt F)) :
    after D2 W (no_index (Proc.devRef .tc main_v211)) = colMean (W (Proc.devRef .tc main_v204)) := by
  unfold D2
  after_results_simp <;> rfl

set_option maxRecDepth 8192 in
set_option maxHeartbeats 3200000 in
theorem D2_var (W : Valuation τ sig (Elt F)) :
    after D2 W (no_index (Proc.devRef .tc main_v212)) = colVar (W (Proc.devRef .tc main_v204)) := by
  unfold D2
  after_results_simp <;> rfl

/-- Layer 2, fifth stretch: the outer normalization with the positive part. -/
def E2 : List (HloOp τ sig (Elt F)) :=
  [ StableHlo.unary main_v211 main_v213 (broadcastInDim S1x128 ![1] bcast_S128_S1x128_1 : (⟨S128, .f32⟩ : BufTy).Contents (Elt F) → (⟨S1x128, .f32⟩ : BufTy).Contents (Elt F)),
    StableHlo.unary main_v213 main_v214 (broadcastInDim S50000x128 ![0, 1] bcast_S1x128_S50000x128_0_1 : (⟨S1x128, .f32⟩ : BufTy).Contents (Elt F) → (⟨S50000x128, .f32⟩ : BufTy).Contents (Elt F)),
    StableHlo.binary main_v204 main_v214 main_v215 (subf : (⟨S50000x128, .f32⟩ : BufTy).Contents (Elt F) → (⟨S50000x128, .f32⟩ : BufTy).Contents (Elt F) → (⟨S50000x128, .f32⟩ : BufTy).Contents (Elt F)),
    StableHlo.nullary main_cst_30 (constant S_ .f32 0x3727C5AC#32),
    StableHlo.unary main_cst_30 main_v216 (broadcastInDim S128 ![] bcast_S_S128 : (⟨S_, .f32⟩ : BufTy).Contents (Elt F) → (⟨S128, .f32⟩ : BufTy).Contents (Elt F)),
    StableHlo.binary main_v212 main_v216 main_v217 (addf : (⟨S128, .f32⟩ : BufTy).Contents (Elt F) → (⟨S128, .f32⟩ : BufTy).Contents (Elt F) → (⟨S128, .f32⟩ : BufTy).Contents (Elt F)),
    StableHlo.unary main_v217 main_v218 (Host.rsqrt : (⟨S128, .f32⟩ : BufTy).Contents (Elt F) → (⟨S128, .f32⟩ : BufTy).Contents (Elt F)),
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S50000x128 ![0, 1] bcast_S1x128_S50000x128_0_1 : (⟨S1x128, .f32⟩ : BufTy).Contents (Elt F) → (⟨S50000x128, .f32⟩ : BufTy).Contents (Elt F)),
    StableHlo.binary main_v215 main_v220 main_v221 (mulf : (⟨S50000x128, .f32⟩ : BufTy).Contents (Elt F) → (⟨S50000x128, .f32⟩ : BufTy).Contents (Elt F) → (⟨S50000x128, .f32⟩ : BufTy).Contents (Elt F)),
    StableHlo.unary main_v206 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S50000x128 ![0, 1] bcast_S1x128_S50000x128_0_1 : (⟨S1x128, .f32⟩ : BufTy).Contents (Elt F) → (⟨S50000x128, .f32⟩ : BufTy).Contents (Elt F)),
    StableHlo.binary main_v221 main_v223 main_v224 (mulf : (⟨S50000x128, .f32⟩ : BufTy).Contents (Elt F) → (⟨S50000x128, .f32⟩ : BufTy).Contents (Elt F) → (⟨S50000x128, .f32⟩ : BufTy).Contents (Elt F)),
    StableHlo.unary main_v208 main_v225 (broadcastInDim S1x128 ![1] bcast_S128_S1x128_1 : (⟨S128, .f32⟩ : BufTy).Contents (Elt F) → (⟨S1x128, .f32⟩ : BufTy).Contents (Elt F)),
    StableHlo.unary main_v225 main_v226 (broadcastInDim S50000x128 ![0, 1] bcast_S1x128_S50000x128_0_1 : (⟨S1x128, .f32⟩ : BufTy).Contents (Elt F) → (⟨S50000x128, .f32⟩ : BufTy).Contents (Elt F)),
    StableHlo.binary main_v224 main_v226 main_v227 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (TRef.of (T := ⟨S50000x128, .f32⟩) main_v227) main_call11.v0 main_call11.v1 maximumf ]

/-- The buffers `E2`'s operations write. -/
abbrev E2_W : List (Ref sig .tc) := [main_v213, main_v214, main_v215, main_cst_30, main_v216, main_v217, main_v218, main_v219, main_v220, main_v221, main_v222, main_v223, main_v224, main_v225, main_v226, main_v227, main_call11.cst.ref, main_call11.v0.ref, main_call11.v1.ref]

set_option maxRecDepth 8192 in
theorem E2_writes : (E2 : List (HloOp τ sig (Elt F))).Forall fun op =>
    op.writes ⊆ (E2_W.map (Proc.devRef (τ := τ) .tc)).toFinset := by
  unfold E2
  exact ⟨writes_sub_of_mem (y := main_v213) (by decide),
    writes_sub_of_mem (y := main_v214) (by decide),
    writes_sub_of_mem (y := main_v215) (by decide),
    writes_sub_of_mem (y := main_cst_30) (by decide),
    writes_sub_of_mem (y := main_v216) (by decide),
    writes_sub_of_mem (y := main_v217) (by decide),
    writes_sub_of_mem (y := main_v218) (by decide),
    writes_sub_of_mem (y := main_v219) (by decide),
    writes_sub_of_mem (y := main_v220) (by decide),
    writes_sub_of_mem (y := main_v221) (by decide),
    writes_sub_of_mem (y := main_v222) (by decide),
    writes_sub_of_mem (y := main_v223) (by decide),
    writes_sub_of_mem (y := main_v224) (by decide),
    writes_sub_of_mem (y := main_v225) (by decide),
    writes_sub_of_mem (y := main_v226) (by decide),
    writes_sub_of_mem (y := main_v227) (by decide),
    writes_sub_of_mem (y := main_call11.cst.ref) (by decide),
    writes_sub_of_mem (y := main_call11.v0.ref) (by decide),
    writes_sub_of_mem (y := main_call11.v1.ref) (by decide)⟩

/-- A buffer `E2` does not write keeps its contents through it. -/
theorem E2_keep (W : Valuation τ sig (Elt F)) (r : Ref sig .tc) (h : r ∉ E2_W) :
    after E2 W (no_index (Proc.devRef .tc r)) = W (Proc.devRef .tc r) :=
  after_of_writes_sub E2 W E2_writes h

set_option maxRecDepth 8192 in
set_option maxHeartbeats 1900000 in
theorem E2_h (W : Valuation τ sig (Elt F)) :
    after E2 W (no_index (Proc.devRef .tc main_v228)) = normRelu (W (Proc.devRef .tc main_v204)) (W (Proc.devRef .tc main_v211)) (W (Proc.devRef .tc main_v212)) (W (Proc.devRef .tc main_v206)) (W (Proc.devRef .tc main_v208)) := by
  unfold E2
  after_results_simp <;> rfl

set_option maxRecDepth 8192 in
set_option maxHeartbeats 1000000 in
/-- Layer 2's output is `refLayer` of its input, the edge columns and its slices of the parameter arrays, all as the layer
    finds them. -/
theorem layer2_h (W : Valuation τ sig (Elt F)) :
    after E2 (after D2 (after C2 (after B2 (after A2 W)))) (no_index (Proc.devRef .tc main_v228))
      = refLayer (W (Proc.devRef .tc main_v153)) (srcColOf (W (Proc.devRef .tc main_v1))) (dstColOf (W (Proc.devRef .tc main_v3)))
          (matAt (W (Proc.devRef .tc main_arg3)) 2 slices_S4x128x128_S1x128x128_2_0_0) (vecAt (W (Proc.devRef .tc main_arg4)) 2 slices_S4x128_S1x128_2_0)
          (matAt (W (Proc.devRef .tc main_arg5)) 2 slices_S4x128x128_S1x128x128_2_0_0) (vecAt (W (Proc.devRef .tc main_arg6)) 2 slices_S4x128_S1x128_2_0)
          (vecAt (W (Proc.devRef .tc main_arg7)) 2 slices_S4x128_S1x128_2_0) (vecAt (W (Proc.devRef .tc main_arg8)) 2 slices_S4x128_S1x128_2_0)
          (vecAt (W (Proc.devRef .tc main_arg9)) 2 slices_S4x128_S1x128_2_0) (vecAt (W (Proc.devRef .tc main_arg10)) 2 slices_S4x128_S1x128_2_0) := by
  simp (disch := decide) only [E2_h, D2_g, D2_b, D2_mean, D2_var, D2_keep, C2_z2, C2_keep,
    B2_g, B2_b, B2_mean, B2_var, B2_keep, A2_z1, A2_keep]
  rfl

end Cert.ReferenceIdeal.RefRun

end
-- ==== Proof.RefRun.Read.L3.lean ====
import proofs.«102976_j3633542332749_1_alg».proof.Proof.Gen.ReferenceIdeal
import Idealize.ShloMosaic.Lib.StableHlo.Run
import proofs.«102976_j3633542332749_1_alg».proof.Proof.RefRun.Base
import proofs.«102976_j3633542332749_1_alg».proof.Proof.RefRun.Value

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Layer 3 of the reference, read as pure functions: its operations in five consecutive stretches, what each leaves in
    the buffers later stretches read, and the layer's output as `refLayer` of what the layer finds. -/

/-- Layer 3, first stretch: the neighbour sum and the first linear map. -/
def A3 : List (HloOp τ sig (Elt F)) :=
  [ StableHlo.nullary main_c_31 (constantI S_ 32 0#32),
    StableHlo.unary main_c_31 main_v229 (broadcastInDim S600000 ![] bcast_S_S600000 : (⟨S_, .i32⟩ : BufTy).Contents (Elt F) → (⟨S600000, .i32⟩ : BufTy).Contents (Elt F)),
    StableHlo.binary main_v1 main_v229 main_v230 (cmpi .slt : (⟨S600000, .i32⟩ : BufTy).Contents (Elt F) → (⟨S600000, .i32⟩ : BufTy).Contents (Elt F) → (⟨S600000, .i1⟩ : BufTy).Contents (Elt F)),
    StableHlo.nullary main_c_32 (constantI S_ 32 50000#32),
    StableHlo.unary main_c_32 main_v231 (broadcastInDim S600000 ![] bcast_S_S600000 : (⟨S_, .i32⟩ : BufTy).Contents (Elt F) → (⟨S600000, .i32⟩ : BufTy).Contents (Elt F)),
    StableHlo.binary main_v1 main_v231 main_v232 (addi : (⟨S600000, .i32⟩ : BufTy).Contents (Elt F) → (⟨S600000, .i32⟩ : BufTy).Contents (Elt F) → (⟨S600000, .i32⟩ : BufTy).Contents (Elt F)),
    StableHlo.ternary main_v230 main_v232 main_v1 main_v233 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v233 main_v234 (broadcastInDim S600000x1 ![0] bcast_S600000_S600000x1_0 : (⟨S600000, .i32⟩ : BufTy).Contents (Elt F) → (⟨S600000x1, .i32⟩ : BufTy).Contents (Elt F)),
    StableHlo.binary main_v228 main_v234 main_v235 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_33 (constant S_ .f32 0x00000000#32),
    StableHlo.unary main_cst_33 main_v236 (broadcastInDim S50000x128 ![] bcast_S_S50000x128 : (⟨S_, .f32⟩ : BufTy).Contents (Elt F) → (⟨S50000x128, .f32⟩ : BufTy).Contents (Elt F)),
    StableHlo.unary main_v3 main_v237 (broadcastInDim S600000x1 ![0] bcast_S600000_S600000x1_0 : (⟨S600000, .i32⟩ : BufTy).Contents (Elt F) → (⟨S600000x1, .i32⟩ : BufTy).Contents (Elt F)),
    StableHlo.ternary main_v236 main_v237 main_v235 main_v238 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v228 main_v238 main_v239 (addf : (⟨S50000x128, .f32⟩ : BufTy).Contents (Elt F) → (⟨S50000x128, .f32⟩ : BufTy).Contents (Elt F) → (⟨S50000x128, .f32⟩ : BufTy).Contents (Elt F)),
    StableHlo.unary main_arg3 main_v240 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v240 main_v241 rfl shapeCasts_S1x128x128_S128x128,
    StableHlo.binary main_v239 main_v241 main_v242 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v243 ((extractStridedSlice S1x128 ![3, 0] · slices_S4x128_S1x128_3_0) : (⟨S4x128, .f32⟩ : BufTy).Contents (Elt F) → (⟨S1x128, .f32⟩ : BufTy).Contents (Elt F)),
    StableHlo.reshape main_v243 main_v244 rfl shapeCasts_S1x128_S128,
    StableHlo.unary main_v244 main_v245 (broadcastInDim S1x128 ![1] bcast_S128_S1x128_1 : (⟨S128, .f32⟩ : BufTy).Contents (Elt F) → (⟨S1x128, .f32⟩ : BufTy).Contents (Elt F)),
    StableHlo.unary main_v245 main_v246 (broadcastInDim S50000x128 ![0, 1] bcast_S1x128_S50000x128_0_1 : (⟨S1x128, .f32⟩ : BufTy).Contents (Elt F) → (⟨S50000x128, .f32⟩ : BufTy).Contents (Elt F)),
    StableHlo.binary main_v242 main_v246 main_v247 (addf : (⟨S50000x128, .f32⟩ : BufTy).Contents (Elt F) → (⟨S50000x128, .f32⟩ : BufTy).Contents (Elt F) → (⟨S50000x128, .f32⟩ : BufTy).Contents (Elt F)) ]

/-- The buffers `A3`'s operations write. -/
abbrev A3_W : List (Ref sig .tc) := [main_c_31, main_v229, main_v230, main_c_32, main_v231, main_v232, main_v233, main_v234, main_v235, main_cst_33, main_v236, main_v237, main_v238, main_v239, main_v240, main_v241, main_v242, main_v243, main_v244, main_v245, main_v246, main_v247]

set_option maxRecDepth 8192 in
theorem A3_writes : (A3 : List (HloOp τ sig (Elt F))).Forall fun op =>
    op.writes ⊆ (A3_W.map (Proc.devRef (τ := τ) .tc)).toFinset := by
  unfold A3
  exact ⟨writes_sub_of_mem (y := main_c_31) (by decide),
    writes_sub_of_mem (y := main_v229) (by decide),
    writes_sub_of_mem (y := main_v230) (by decide),
    writes_sub_of_mem (y := main_c_32) (by decide),
    writes_sub_of_mem (y := main_v231) (by decide),
    writes_sub_of_mem (y := main_v232) (by decide),
    writes_sub_of_mem (y := main_v233) (by decide),
    writes_sub_of_mem (y := main_v234) (by decide),
    writes_sub_of_mem (y := main_v235) (by decide),
    writes_sub_of_mem (y := main_cst_33) (by decide),
    writes_sub_of_mem (y := main_v236) (by decide),
    writes_sub_of_mem (y := main_v237) (by decide),
    writes_sub_of_mem (y := main_v238) (by decide),
    writes_sub_of_mem (y := main_v239) (by decide),
    writes_sub_of_mem (y := main_v240) (by decide),
    writes_sub_of_mem (y := main_v241) (by decide),
    writes_sub_of_mem (y := main_v242) (by decide),
    writes_sub_of_mem (y := main_v243) (by decide),
    writes_sub_of_mem (y := main_v244) (by decide),
    writes_sub_of_mem (y := main_v245) (by decide),
    writes_sub_of_mem (y := main_v246) (by decide),
    writes_sub_of_mem (y := main_v247) (by decide)⟩

/-- A buffer `A3` does not write keeps its contents through it. -/
theorem A3_keep (W : Valuation τ sig (Elt F)) (r : Ref sig .tc) (h : r ∉ A3_W) :
    after A3 W (no_index (Proc.devRef .tc r)) = W (Proc.devRef .tc r) :=
  after_of_writes_sub A3 W A3_writes h

set_option maxRecDepth 8192 in
set_option maxHeartbeats 2200000 in
theorem A3_z1 (W : Valuation τ sig (Elt F)) :
    after A3 W (no_index (Proc.devRef .tc main_v247)) = lin (addf (W (Proc.devRef .tc main_v228)) (agg (W (Proc.devRef .tc main_v228)) (srcColOf (W (Proc.devRef .tc main_v1))) (dstColOf (W (Proc.devRef .tc main_v3))))) (matAt (W (Proc.devRef .tc main_arg3)) 3 slices_S4x128x128_S1x128x128_3_0_0) (vecAt (W (Proc.devRef .tc main_arg4)) 3 slices_S4x128_S1x128_3_0) := by
  unfold A3
  after_results_simp <;> rfl

/-- Layer 3, second stretch: the inner normalization's scale and shift, and the column mean and variance. -/
def B3 : List (HloOp τ sig (Elt F)) :=
  [ StableHlo.unary main_arg7 main_v248 ((extractStridedSlice S1x128 ![3, 0] · slices_S4x128_S1x128_3_0) : (⟨S4x128, .f32⟩ : BufTy).Contents (Elt F) → (⟨S1x128, .f32⟩ : BufTy).Contents (Elt F)),
    StableHlo.reshape main_v248 main_v249 rfl shapeCasts_S1x128_S128,
    StableHlo.unary main_arg8 main_v250 ((extractStridedSlice S1x128 ![3, 0] · slices_S4x128_S1x128_3_0) : (⟨S4x128, .f32⟩ : BufTy).Contents (Elt F) → (⟨S1x128, .f32⟩ : BufTy).Contents (Elt F)),
    StableHlo.reshape main_v250 main_v251 rfl shapeCasts_S1x128_S128,
    StableHlo.nullary main_cst_34 (constant S_ .f32 0x00000000#32),
    StableHlo.binary main_v247 main_cst_34 main_v252 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_35 (constant S_ .f32 0x47435000#32),
    StableHlo.unary main_cst_35 main_v253 (broadcastInDim S128 ![] bcast_S_S128 : (⟨S_, .f32⟩ : BufTy).Contents (Elt F) → (⟨S128, .f32⟩ : BufTy).Contents (Elt F)),
    StableHlo.binary main_v252 main_v253 main_v254 (Host.divf : (⟨S128, .f32⟩ : BufTy).Contents (Elt F) → (⟨S128, .f32⟩ : BufTy).Contents (Elt F) → (⟨S128, .f32⟩ : BufTy).Contents (Elt F)),
    StableHlo.nullary main_c_36 (constantI S_ 32 0#32),
    StableHlo.TRef.nullary main_call12.cst (constant S_ .f32 0x00000000#32),
    StableHlo.TRef.binary (TRef.of (T := ⟨S50000x128, .f32⟩) main_v247) main_call12.cst main_call12.v0 (fun x v => Host.reduceAdd x v reducesTo_S50000x128_S128_d0 h_S_),
    StableHlo.TRef.unary main_call12.v0 main_call12.v1 (broadcastInDim S1x128 ![1] bcast_S128_S1x128_1),
    StableHlo.TRef.nullary main_call12.cst_0 (constant S_ .f32 0x47435000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S50000x128 ![0, 1] bcast_S1x128_S50000x128_0_1),
    StableHlo.TRef.binary (TRef.of (T := ⟨S50000x128, .f32⟩) main_v247) main_call12.v4 main_call12.v5 subf,
    StableHlo.TRef.binary main_call12.v5 main_call12.v5 main_call12.v6 mulf,
    StableHlo.TRef.unary (TRef.of (T := ⟨S_, .i32⟩) main_c_36) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b) ]

/-- The buffers `B3`'s operations write. -/
abbrev B3_W : List (Ref sig .tc) := [main_v248, main_v249, main_v250, main_v251, main_cst_34, main_v252, main_cst_35, main_v253, main_v254, main_c_36, main_call12.cst.ref, main_call12.v0.ref, main_call12.v1.ref, main_call12.cst_0.ref, main_call12.v2.ref, main_call12.v3.ref, main_call12.v4.ref, main_call12.v5.ref, main_call12.v6.ref, main_call12.v7.ref, main_call12.cst_1.ref, main_call12.v8.ref, main_call12.cst_2.ref, main_call12.v9.ref, main_call12.v10.ref, main_call12.v11.ref, main_call12.cst_3.ref, main_call12.v12.ref, main_call12.cst_4.ref, main_call12.call0.v0.ref, main_call12.call0.v1.ref, main_call12.call0.v2.ref]

set_option maxRecDepth 8192 in
theorem B3_writes : (B3 : List (HloOp τ sig (Elt F))).Forall fun op =>
    op.writes ⊆ (B3_W.map (Proc.devRef (τ := τ) .tc)).toFinset := by
  unfold B3
  exact ⟨writes_sub_of_mem (y := main_v248) (by decide),
    writes_sub_of_mem (y := main_v249) (by decide),
    writes_sub_of_mem (y := main_v250) (by decide),
    writes_sub_of_mem (y := main_v251) (by decide),
    writes_sub_of_mem (y := main_cst_34) (by decide),
    writes_sub_of_mem (y := main_v252) (by decide),
    writes_sub_of_mem (y := main_cst_35) (by decide),
    writes_sub_of_mem (y := main_v253) (by decide),
    writes_sub_of_mem (y := main_v254) (by decide),
    writes_sub_of_mem (y := main_c_36) (by decide),
    writes_sub_of_mem (y := main_call12.cst.ref) (by decide),
    writes_sub_of_mem (y := main_call12.v0.ref) (by decide),
    writes_sub_of_mem (y := main_call12.v1.ref) (by decide),
    writes_sub_of_mem (y := main_call12.cst_0.ref) (by decide),
    writes_sub_of_mem (y := main_call12.v2.ref) (by decide),
    writes_sub_of_mem (y := main_call12.v3.ref) (by decide),
    writes_sub_of_mem (y := main_call12.v4.ref) (by decide),
    writes_sub_of_mem (y := main_call12.v5.ref) (by decide),
    writes_sub_of_mem (y := main_call12.v6.ref) (by decide),
    writes_sub_of_mem (y := main_call12.v7.ref) (by decide),
    writes_sub_of_mem (y := main_call12.cst_1.ref) (by decide),
    writes_sub_of_mem (y := main_call12.v8.ref) (by decide),
    writes_sub_of_mem (y := main_call12.cst_2.ref) (by decide),
    writes_sub_of_mem (y := main_call12.v9.ref) (by decide),
    writes_sub_of_mem (y := main_call12.v10.ref) (by decide),
    writes_sub_of_mem (y := main_call12.v11.ref) (by decide),
    writes_sub_of_mem (y := main_call12.cst_3.ref) (by decide),
    writes_sub_of_mem (y := main_call12.v12.ref) (by decide),
    writes_sub_of_mem (y := main_call12.cst_4.ref) (by decide),
    writes_sub_of_mem (y := main_call12.call0.v0.ref) (by decide),
    writes_sub_of_mem (y := main_call12.call0.v1.ref) (by decide),
    writes_sub_of_mem (y := main_call12.call0.v2.ref) (by decide)⟩

/-- A buffer `B3` does not write keeps its contents through it. -/
theorem B3_keep (W : Valuation τ sig (Elt F)) (r : Ref sig .tc) (h : r ∉ B3_W) :
    after B3 W (no_index (Proc.devRef .tc r)) = W (Proc.devRef .tc r) :=
  after_of_writes_sub B3 W B3_writes h

set_option maxRecDepth 8192 in
set_option maxHeartbeats 3200000 in
theorem B3_g (W : Valuation τ sig (Elt F)) :
    after B3 W (no_index (Proc.devRef .tc main_v249)) = vecAt (W (Proc.devRef .tc main_arg7)) 3 slices_S4x128_S1x128_3_0 := by
  unfold B3
  after_results_simp <;> rfl

set_option maxRecDepth 8192 in
set_option maxHeartbeats 3200000 in
theorem B3_b (W : Valuation τ sig (Elt F)) :
    after B3 W (no_index (Proc.devRef .tc main_v251)) = vecAt (W (Proc.devRef .tc main_arg8)) 3 slices_S4x128_S1x128_3_0 := by
  unfold B3
  after_results_simp <;> rfl

set_option maxRecDepth 8192 in
set_option maxHeartbeats 3200000 in
theorem B3_mean (W : Valuation τ sig (Elt F)) :
    after B3 W (no_index (Proc.devRef .tc main_v254)) = colMean (W (Proc.devRef .tc main_v247)) := by
  unfold B3
  after_results_simp <;> rfl

set_option maxRecDepth 8192 in
set_option maxHeartbeats 3200000 in
theorem B3_var (W : Valuation τ sig (Elt F)) :
    after B3 W (no_index (Proc.devRef .tc main_v255)) = colVar (W (Proc.devRef .tc main_v247)) := by
  unfold B3
  after_results_simp <;> rfl

/-- Layer 3, third stretch: the inner normalization with the positive part, and the second linear map. -/
def C3 : List (HloOp τ sig (Elt F)) :=
  [ StableHlo.unary main_v254 main_v256 (broadcastInDim S1x128 ![1] bcast_S128_S1x128_1 : (⟨S128, .f32⟩ : BufTy).Contents (Elt F) → (⟨S1x128, .f32⟩ : BufTy).Contents (Elt F)),
    StableHlo.unary main_v256 main_v257 (broadcastInDim S50000x128 ![0, 1] bcast_S1x128_S50000x128_0_1 : (⟨S1x128, .f32⟩ : BufTy).Contents (Elt F) → (⟨S50000x128, .f32⟩ : BufTy).Contents (Elt F)),
    StableHlo.binary main_v247 main_v257 main_v258 (subf : (⟨S50000x128, .f32⟩ : BufTy).Contents (Elt F) → (⟨S50000x128, .f32⟩ : BufTy).Contents (Elt F) → (⟨S50000x128, .f32⟩ : BufTy).Contents (Elt F)),
    StableHlo.nullary main_cst_37 (constant S_ .f32 0x3727C5AC#32),
    StableHlo.unary main_cst_37 main_v259 (broadcastInDim S128 ![] bcast_S_S128 : (⟨S_, .f32⟩ : BufTy).Contents (Elt F) → (⟨S128, .f32⟩ : BufTy).Contents (Elt F)),
    StableHlo.binary main_v255 main_v259 main_v260 (addf : (⟨S128, .f32⟩ : BufTy).Contents (Elt F) → (⟨S128, .f32⟩ : BufTy).Contents (Elt F) → (⟨S128, .f32⟩ : BufTy).Contents (Elt F)),
    StableHlo.unary main_v260 main_v261 (Host.rsqrt : (⟨S128, .f32⟩ : BufTy).Contents (Elt F) → (⟨S128, .f32⟩ : BufTy).Contents (Elt F)),
    StableHlo.unary main_v261 main_v262 (broadcastInDim S1x128 ![1] bcast_S128_S1x128_1 : (⟨S128, .f32⟩ : BufTy).Contents (Elt F) → (⟨S1x128, .f32⟩ : BufTy).Contents (Elt F)),
    StableHlo.unary main_v262 main_v263 (broadcastInDim S50000x128 ![0, 1] bcast_S1x128_S50000x128_0_1 : (⟨S1x128, .f32⟩ : BufTy).Contents (Elt F) → (⟨S50000x128, .f32⟩ : BufTy).Contents (Elt F)),
    StableHlo.binary main_v258 main_v263 main_v264 (mulf : (⟨S50000x128, .f32⟩ : BufTy).Contents (Elt F) → (⟨S50000x128, .f32⟩ : BufTy).Contents (Elt F) → (⟨S50000x128, .f32⟩ : BufTy).Contents (Elt F)),
    StableHlo.unary main_v249 main_v265 (broadcastInDim S1x128 ![1] bcast_S128_S1x128_1 : (⟨S128, .f32⟩ : BufTy).Contents (Elt F) → (⟨S1x128, .f32⟩ : BufTy).Contents (Elt F)),
    StableHlo.unary main_v265 main_v266 (broadcastInDim S50000x128 ![0, 1] bcast_S1x128_S50000x128_0_1 : (⟨S1x128, .f32⟩ : BufTy).Contents (Elt F) → (⟨S50000x128, .f32⟩ : BufTy).Contents (Elt F)),
    StableHlo.binary main_v264 main_v266 main_v267 (mulf : (⟨S50000x128, .f32⟩ : BufTy).Contents (Elt F) → (⟨S50000x128, .f32⟩ : BufTy).Contents (Elt F) → (⟨S50000x128, .f32⟩ : BufTy).Contents (Elt F)),
    StableHlo.unary main_v251 main_v268 (broadcastInDim S1x128 ![1] bcast_S128_S1x128_1 : (⟨S128, .f32⟩ : BufTy).Contents (Elt F) → (⟨S1x128, .f32⟩ : BufTy).Contents (Elt F)),
    StableHlo.unary main_v268 main_v269 (broadcastInDim S50000x128 ![0, 1] bcast_S1x128_S50000x128_0_1 : (⟨S1x128, .f32⟩ : BufTy).Contents (Elt F) → (⟨S50000x128, .f32⟩ : BufTy).Contents (Elt F)),
    StableHlo.binary main_v267 main_v269 main_v270 (addf : (⟨S50000x128, .f32⟩ : BufTy).Contents (Elt F) → (⟨S50000x128, .f32⟩ : BufTy).Contents (Elt F) → (⟨S50000x128, .f32⟩ : BufTy).Contents (Elt F)),
    StableHlo.TRef.nullary main_call13.cst (constant S_ .f32 0x00000000#32),
    StableHlo.TRef.unary main_call13.cst main_call13.v0 (broadcastInDim S50000x128 ![] bcast_S_S50000x128),
    StableHlo.TRef.binary (TRef.of (T := ⟨S50000x128, .f32⟩) main_v270) main_call13.v0 main_call13.v1 maximumf,
    StableHlo.unary main_arg5 main_v272 ((extractStridedSlice S1x128x128 ![3, 0, 0] · slices_S4x128x128_S1x128x128_3_0_0) : (⟨S4x128x128, .f32⟩ : BufTy).Contents (Elt F) → (⟨S1x128x128, .f32⟩ : BufTy).Contents (Elt F)),
    StableHlo.reshape main_v272 main_v273 rfl shapeCasts_S1x128x128_S128x128,
    StableHlo.binary main_v271 main_v273 main_v274 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v275 ((extractStridedSlice S1x128 ![3, 0] · slices_S4x128_S1x128_3_0) : (⟨S4x128, .f32⟩ : BufTy).Contents (Elt F) → (⟨S1x128, .f32⟩ : BufTy).Contents (Elt F)),
    StableHlo.reshape main_v275 main_v276 rfl shapeCasts_S1x128_S128,
    StableHlo.unary main_v276 main_v277 (broadcastInDim S1x128 ![1] bcast_S128_S1x128_1 : (⟨S128, .f32⟩ : BufTy).Contents (Elt F) → (⟨S1x128, .f32⟩ : BufTy).Contents (Elt F)),
    StableHlo.unary main_v277 main_v278 (broadcastInDim S50000x128 ![0, 1] bcast_S1x128_S50000x128_0_1 : (⟨S1x128, .f32⟩ : BufTy).Contents (Elt F) → (⟨S50000x128, .f32⟩ : BufTy).Contents (Elt F)),
    StableHlo.binary main_v274 main_v278 main_v279 (addf : (⟨S50000x128, .f32⟩ : BufTy).Contents (Elt F) → (⟨S50000x128, .f32⟩ : BufTy).Contents (Elt F) → (⟨S50000x128, .f32⟩ : BufTy).Contents (Elt F)) ]

/-- The buffers `C3`'s operations write. -/
abbrev C3_W : List (Ref sig .tc) := [main_v256, main_v257, main_v258, main_cst_37, main_v259, main_v260, main_v261, main_v262, main_v263, main_v264, main_v265, main_v266, main_v267, main_v268, main_v269, main_v270, main_call13.cst.ref, main_call13.v0.ref, main_call13.v1.ref, main_v272, main_v273, main_v274, main_v275, main_v276, main_v277, main_v278, main_v279]

set_option maxRecDepth 8192 in
theorem C3_writes : (C3 : List (HloOp τ sig (Elt F))).Forall fun op =>
    op.writes ⊆ (C3_W.map (Proc.devRef (τ := τ) .tc)).toFinset := by
  unfold C3
  exact ⟨writes_sub_of_mem (y := main_v256) (by decide),
    writes_sub_of_mem (y := main_v257) (by decide),
    writes_sub_of_mem (y := main_v258) (by decide),
    writes_sub_of_mem (y := main_cst_37) (by decide),
    writes_sub_of_mem (y := main_v259) (by decide),
    writes_sub_of_mem (y := main_v260) (by decide),
    writes_sub_of_mem (y := main_v261) (by decide),
    writes_sub_of_mem (y := main_v262) (by decide),
    writes_sub_of_mem (y := main_v263) (by decide),
    writes_sub_of_mem (y := main_v264) (by decide),
    writes_sub_of_mem (y := main_v265) (by decide),
    writes_sub_of_mem (y := main_v266) (by decide),
    writes_sub_of_mem (y := main_v267) (by decide),
    writes_sub_of_mem (y := main_v268) (by decide),
    writes_sub_of_mem (y := main_v269) (by decide),
    writes_sub_of_mem (y := main_v270) (by decide),
    writes_sub_of_mem (y := main_call13.cst.ref) (by decide),
    writes_sub_of_mem (y := main_call13.v0.ref) (by decide),
    writes_sub_of_mem (y := main_call13.v1.ref) (by decide),
    writes_sub_of_mem (y := main_v272) (by decide),
    writes_sub_of_mem (y := main_v273) (by decide),
    writes_sub_of_mem (y := main_v274) (by decide),
    writes_sub_of_mem (y := main_v275) (by decide),
    writes_sub_of_mem (y := main_v276) (by decide),
    writes_sub_of_mem (y := main_v277) (by decide),
    writes_sub_of_mem (y := main_v278) (by decide),
    writes_sub_of_mem (y := main_v279) (by decide)⟩

/-- A buffer `C3` does not write keeps its contents through it. -/
theorem C3_keep (W : Valuation τ sig (Elt F)) (r : Ref sig .tc) (h : r ∉ C3_W) :
    after C3 W (no_index (Proc.devRef .tc r)) = W (Proc.devRef .tc r) :=
  after_of_writes_sub C3 W C3_writes h

set_option maxRecDepth 8192 in
set_option maxHeartbeats 2700000 in
theorem C3_z2 (W : Valuation τ sig (Elt F)) :
    after C3 W (no_index (Proc.devRef .tc main_v279)) = lin (normRelu (W (Proc.devRef .tc main_v247)) (W (Proc.devRef .tc main_v254)) (W (Proc.devRef .tc main_v255)) (W (Proc.devRef .tc main_v249)) (W (Proc.devRef .tc main_v251))) (matAt (W (Proc.devRef .tc main_arg5)) 3 slices_S4x128x128_S1x128x128_3_0_0) (vecAt (W (Proc.devRef .tc main_arg6)) 3 slices_S4x128_S1x128_3_0) := by
  unfold C3
  after_results_simp <;> rfl

/-- Layer 3, fourth stretch: the outer normalization's scale and shift, and the column mean and variance. -/
def D3 : List (HloOp τ sig (Elt F)) :=
  [ StableHlo.unary main_arg9 main_v280 ((extractStridedSlice S1x128 ![3, 0] · slices_S4x128_S1x128_3_0) : (⟨S4x128, .f32⟩ : BufTy).Contents (Elt F) → (⟨S1x128, .f32⟩ : BufTy).Contents (Elt F)),
    StableHlo.reshape main_v280 main_v281 rfl shapeCasts_S1x128_S128,
    StableHlo.unary main_arg10 main_v282 ((extractStridedSlice S1x128 ![3, 0] · slices_S4x128_S1x128_3_0) : (⟨S4x128, .f32⟩ : BufTy).Contents (Elt F) → (⟨S1x128, .f32⟩ : BufTy).Contents (Elt F)),
    StableHlo.reshape main_v282 main_v283 rfl shapeCasts_S1x128_S128,
    StableHlo.nullary main_cst_38 (constant S_ .f32 0x00000000#32),
    StableHlo.binary main_v279 main_cst_38 main_v284 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_39 (constant S_ .f32 0x47435000#32),
    StableHlo.unary main_cst_39 main_v285 (broadcastInDim S128 ![] bcast_S_S128 : (⟨S_, .f32⟩ : BufTy).Contents (Elt F) → (⟨S128, .f32⟩ : BufTy).Contents (Elt F)),
    StableHlo.binary main_v284 main_v285 main_v286 (Host.divf : (⟨S128, .f32⟩ : BufTy).Contents (Elt F) → (⟨S128, .f32⟩ : BufTy).Contents (Elt F) → (⟨S128, .f32⟩ : BufTy).Contents (Elt F)),
    StableHlo.nullary main_c_40 (constantI S_ 32 0#32),
    StableHlo.TRef.nullary main_call14.cst (constant S_ .f32 0x00000000#32),
    StableHlo.TRef.binary (TRef.of (T := ⟨S50000x128, .f32⟩) main_v279) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (TRef.of (T := ⟨S50000x128, .f32⟩) main_v279) main_call14.v4 main_call14.v5 subf,
    StableHlo.TRef.binary main_call14.v5 main_call14.v5 main_call14.v6 mulf,
    StableHlo.TRef.unary (TRef.of (T := ⟨S_, .i32⟩) main_c_40) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b) ]

/-- The buffers `D3`'s operations write. -/
abbrev D3_W : List (Ref sig .tc) := [main_v280, main_v281, main_v282, main_v283, main_cst_38, main_v284, main_cst_39, main_v285, main_v286, main_c_40, main_call14.cst.ref, main_call14.v0.ref, main_call14.v1.ref, main_call14.cst_0.ref, main_call14.v2.ref, main_call14.v3.ref, main_call14.v4.ref, main_call14.v5.ref, main_call14.v6.ref, main_call14.v7.ref, main_call14.cst_1.ref, main_call14.v8.ref, main_call14.cst_2.ref, main_call14.v9.ref, main_call14.v10.ref, main_call14.v11.ref, main_call14.cst_3.ref, main_call14.v12.ref, main_call14.cst_4.ref, main_call14.call0.v0.ref, main_call14.call0.v1.ref, main_call14.call0.v2.ref]

set_option maxRecDepth 8192 in
theorem D3_writes : (D3 : List (HloOp τ sig (Elt F))).Forall fun op =>
    op.writes ⊆ (D3_W.map (Proc.devRef (τ := τ) .tc)).toFinset := by
  unfold D3
  exact ⟨writes_sub_of_mem (y := main_v280) (by decide),
    writes_sub_of_mem (y := main_v281) (by decide),
    writes_sub_of_mem (y := main_v282) (by decide),
    writes_sub_of_mem (y := main_v283) (by decide),
    writes_sub_of_mem (y := main_cst_38) (by decide),
    writes_sub_of_mem (y := main_v284) (by decide),
    writes_sub_of_mem (y := main_cst_39) (by decide),
    writes_sub_of_mem (y := main_v285) (by decide),
    writes_sub_of_mem (y := main_v286) (by decide),
    writes_sub_of_mem (y := main_c_40) (by decide),
    writes_sub_of_mem (y := main_call14.cst.ref) (by decide),
    writes_sub_of_mem (y := main_call14.v0.ref) (by decide),
    writes_sub_of_mem (y := main_call14.v1.ref) (by decide),
    writes_sub_of_mem (y := main_call14.cst_0.ref) (by decide),
    writes_sub_of_mem (y := main_call14.v2.ref) (by decide),
    writes_sub_of_mem (y := main_call14.v3.ref) (by decide),
    writes_sub_of_mem (y := main_call14.v4.ref) (by decide),
    writes_sub_of_mem (y := main_call14.v5.ref) (by decide),
    writes_sub_of_mem (y := main_call14.v6.ref) (by decide),
    writes_sub_of_mem (y := main_call14.v7.ref) (by decide),
    writes_sub_of_mem (y := main_call14.cst_1.ref) (by decide),
    writes_sub_of_mem (y := main_call14.v8.ref) (by decide),
    writes_sub_of_mem (y := main_call14.cst_2.ref) (by decide),
    writes_sub_of_mem (y := main_call14.v9.ref) (by decide),
    writes_sub_of_mem (y := main_call14.v10.ref) (by decide),
    writes_sub_of_mem (y := main_call14.v11.ref) (by decide),
    writes_sub_of_mem (y := main_call14.cst_3.ref) (by decide),
    writes_sub_of_mem (y := main_call14.v12.ref) (by decide),
    writes_sub_of_mem (y := main_call14.cst_4.ref) (by decide),
    writes_sub_of_mem (y := main_call14.call0.v0.ref) (by decide),
    writes_sub_of_mem (y := main_call14.call0.v1.ref) (by decide),
    writes_sub_of_mem (y := main_call14.call0.v2.ref) (by decide)⟩

/-- A buffer `D3` does not write keeps its contents through it. -/
theorem D3_keep (W : Valuation τ sig (Elt F)) (r : Ref sig .tc) (h : r ∉ D3_W) :
    after D3 W (no_index (Proc.devRef .tc r)) = W (Proc.devRef .tc r) :=
  after_of_writes_sub D3 W D3_writes h

set_option maxRecDepth 8192 in
set_option maxHeartbeats 3200000 in
theorem D3_g (W : Valuation τ sig (Elt F)) :
    after D3 W (no_index (Proc.devRef .tc main_v281)) = vecAt (W (Proc.devRef .tc main_arg9)) 3 slices_S4x128_S1x128_3_0 := by
  unfold D3
  after_results_simp <;> rfl

set_option maxRecDepth 8192 in
set_option maxHeartbeats 3200000 in
theorem D3_b (W : Valuation τ sig (Elt F)) :
    after D3 W (no_index (Proc.devRef .tc main_v283)) = vecAt (W (Proc.devRef .tc main_arg10)) 3 slices_S4x128_S1x128_3_0 := by
  unfold D3
  after_results_simp <;> rfl

set_option maxRecDepth 8192 in
set_option maxHeartbeats 3200000 in
theorem D3_mean (W : Valuation τ sig (Elt F)) :
    after D3 W (no_index (Proc.devRef .tc main_v286)) = colMean (W (Proc.devRef .tc main_v279)) := by
  unfold D3
  after_results_simp <;> rfl

set_option maxRecDepth 8192 in
set_option maxHeartbeats 3200000 in
theorem D3_var (W : Valuation τ sig (Elt F)) :
    after D3 W (no_index (Proc.devRef .tc main_v287)) = colVar (W (Proc.devRef .tc main_v279)) := by
  unfold D3
  after_results_simp <;> rfl

/-- Layer 3, fifth stretch: the outer normalization with the positive part. -/
def E3 : List (HloOp τ sig (Elt F)) :=
  [ StableHlo.unary main_v286 main_v288 (broadcastInDim S1x128 ![1] bcast_S128_S1x128_1 : (⟨S128, .f32⟩ : BufTy).Contents (Elt F) → (⟨S1x128, .f32⟩ : BufTy).Contents (Elt F)),
    StableHlo.unary main_v288 main_v289 (broadcastInDim S50000x128 ![0, 1] bcast_S1x128_S50000x128_0_1 : (⟨S1x128, .f32⟩ : BufTy).Contents (Elt F) → (⟨S50000x128, .f32⟩ : BufTy).Contents (Elt F)),
    StableHlo.binary main_v279 main_v289 main_v290 (subf : (⟨S50000x128, .f32⟩ : BufTy).Contents (Elt F) → (⟨S50000x128, .f32⟩ : BufTy).Contents (Elt F) → (⟨S50000x128, .f32⟩ : BufTy).Contents (Elt F)),
    StableHlo.nullary main_cst_41 (constant S_ .f32 0x3727C5AC#32),
    StableHlo.unary main_cst_41 main_v291 (broadcastInDim S128 ![] bcast_S_S128 : (⟨S_, .f32⟩ : BufTy).Contents (Elt F) → (⟨S128, .f32⟩ : BufTy).Contents (Elt F)),
    StableHlo.binary main_v287 main_v291 main_v292 (addf : (⟨S128, .f32⟩ : BufTy).Contents (Elt F) → (⟨S128, .f32⟩ : BufTy).Contents (Elt F) → (⟨S128, .f32⟩ : BufTy).Contents (Elt F)),
    StableHlo.unary main_v292 main_v293 (Host.rsqrt : (⟨S128, .f32⟩ : BufTy).Contents (Elt F) → (⟨S128, .f32⟩ : BufTy).Contents (Elt F)),
    StableHlo.unary main_v293 main_v294 (broadcastInDim S1x128 ![1] bcast_S128_S1x128_1 : (⟨S128, .f32⟩ : BufTy).Contents (Elt F) → (⟨S1x128, .f32⟩ : BufTy).Contents (Elt F)),
    StableHlo.unary main_v294 main_v295 (broadcastInDim S50000x128 ![0, 1] bcast_S1x128_S50000x128_0_1 : (⟨S1x128, .f32⟩ : BufTy).Contents (Elt F) → (⟨S50000x128, .f32⟩ : BufTy).Contents (Elt F)),
    StableHlo.binary main_v290 main_v295 main_v296 (mulf : (⟨S50000x128, .f32⟩ : BufTy).Contents (Elt F) → (⟨S50000x128, .f32⟩ : BufTy).Contents (Elt F) → (⟨S50000x128, .f32⟩ : BufTy).Contents (Elt F)),
    StableHlo.unary main_v281 main_v297 (broadcastInDim S1x128 ![1] bcast_S128_S1x128_1 : (⟨S128, .f32⟩ : BufTy).Contents (Elt F) → (⟨S1x128, .f32⟩ : BufTy).Contents (Elt F)),
    StableHlo.unary main_v297 main_v298 (broadcastInDim S50000x128 ![0, 1] bcast_S1x128_S50000x128_0_1 : (⟨S1x128, .f32⟩ : BufTy).Contents (Elt F) → (⟨S50000x128, .f32⟩ : BufTy).Contents (Elt F)),
    StableHlo.binary main_v296 main_v298 main_v299 (mulf : (⟨S50000x128, .f32⟩ : BufTy).Contents (Elt F) → (⟨S50000x128, .f32⟩ : BufTy).Contents (Elt F) → (⟨S50000x128, .f32⟩ : BufTy).Contents (Elt F)),
    StableHlo.unary main_v283 main_v300 (broadcastInDim S1x128 ![1] bcast_S128_S1x128_1 : (⟨S128, .f32⟩ : BufTy).Contents (Elt F) → (⟨S1x128, .f32⟩ : BufTy).Contents (Elt F)),
    StableHlo.unary main_v300 main_v301 (broadcastInDim S50000x128 ![0, 1] bcast_S1x128_S50000x128_0_1 : (⟨S1x128, .f32⟩ : BufTy).Contents (Elt F) → (⟨S50000x128, .f32⟩ : BufTy).Contents (Elt F)),
    StableHlo.binary main_v299 main_v301 main_v302 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (TRef.of (T := ⟨S50000x128, .f32⟩) main_v302) main_call15.v0 main_call15.v1 maximumf ]

/-- The buffers `E3`'s operations write. -/
abbrev E3_W : List (Ref sig .tc) := [main_v288, main_v289, main_v290, main_cst_41, main_v291, main_v292, main_v293, main_v294, main_v295, main_v296, main_v297, main_v298, main_v299, main_v300, main_v301, main_v302, main_call15.cst.ref, main_call15.v0.ref, main_call15.v1.ref]

set_option maxRecDepth 8192 in
theorem E3_writes : (E3 : List (HloOp τ sig (Elt F))).Forall fun op =>
    op.writes ⊆ (E3_W.map (Proc.devRef (τ := τ) .tc)).toFinset := by
  unfold E3
  exact ⟨writes_sub_of_mem (y := main_v288) (by decide),
    writes_sub_of_mem (y := main_v289) (by decide),
    writes_sub_of_mem (y := main_v290) (by decide),
    writes_sub_of_mem (y := main_cst_41) (by decide),
    writes_sub_of_mem (y := main_v291) (by decide),
    writes_sub_of_mem (y := main_v292) (by decide),
    writes_sub_of_mem (y := main_v293) (by decide),
    writes_sub_of_mem (y := main_v294) (by decide),
    writes_sub_of_mem (y := main_v295) (by decide),
    writes_sub_of_mem (y := main_v296) (by decide),
    writes_sub_of_mem (y := main_v297) (by decide),
    writes_sub_of_mem (y := main_v298) (by decide),
    writes_sub_of_mem (y := main_v299) (by decide),
    writes_sub_of_mem (y := main_v300) (by decide),
    writes_sub_of_mem (y := main_v301) (by decide),
    writes_sub_of_mem (y := main_v302) (by decide),
    writes_sub_of_mem (y := main_call15.cst.ref) (by decide),
    writes_sub_of_mem (y := main_call15.v0.ref) (by decide),
    writes_sub_of_mem (y := main_call15.v1.ref) (by decide)⟩

/-- A buffer `E3` does not write keeps its contents through it. -/
theorem E3_keep (W : Valuation τ sig (Elt F)) (r : Ref sig .tc) (h : r ∉ E3_W) :
    after E3 W (no_index (Proc.devRef .tc r)) = W (Proc.devRef .tc r) :=
  after_of_writes_sub E3 W E3_writes h

set_option maxRecDepth 8192 in
set_option maxHeartbeats 1900000 in
theorem E3_h (W : Valuation τ sig (Elt F)) :
    after E3 W (no_index (Proc.devRef .tc main_v303)) = normRelu (W (Proc.devRef .tc main_v279)) (W (Proc.devRef .tc main_v286)) (W (Proc.devRef .tc main_v287)) (W (Proc.devRef .tc main_v281)) (W (Proc.devRef .tc main_v283)) := by
  unfold E3
  after_results_simp <;> rfl

set_option maxRecDepth 8192 in
set_option maxHeartbeats 1000000 in
/-- Layer 3's output is `refLayer` of its input, the edge columns and its slices of the parameter arrays, all as the layer
    finds them. -/
theorem layer3_h (W : Valuation τ sig (Elt F)) :
    after E3 (after D3 (after C3 (after B3 (after A3 W)))) (no_index (Proc.devRef .tc main_v303))
      = refLayer (W (Proc.devRef .tc main_v228)) (srcColOf (W (Proc.devRef .tc main_v1))) (dstColOf (W (Proc.devRef .tc main_v3)))
          (matAt (W (Proc.devRef .tc main_arg3)) 3 slices_S4x128x128_S1x128x128_3_0_0) (vecAt (W (Proc.devRef .tc main_arg4)) 3 slices_S4x128_S1x128_3_0)
          (matAt (W (Proc.devRef .tc main_arg5)) 3 slices_S4x128x128_S1x128x128_3_0_0) (vecAt (W (Proc.devRef .tc main_arg6)) 3 slices_S4x128_S1x128_3_0)
          (vecAt (W (Proc.devRef .tc main_arg7)) 3 slices_S4x128_S1x128_3_0) (vecAt (W (Proc.devRef .tc main_arg8)) 3 slices_S4x128_S1x128_3_0)
          (vecAt (W (Proc.devRef .tc main_arg9)) 3 slices_S4x128_S1x128_3_0) (vecAt (W (Proc.devRef .tc main_arg10)) 3 slices_S4x128_S1x128_3_0) := by
  simp (disch := decide) only [E3_h, D3_g, D3_b, D3_mean, D3_var, D3_keep, C3_z2, C3_keep,
    B3_g, B3_b, B3_mean, B3_var, B3_keep, A3_z1, A3_keep]
  rfl

end Cert.ReferenceIdeal.RefRun

end
-- ==== Proof.RefRun.Read.PT.lean ====
import proofs.«102976_j3633542332749_1_alg».proof.Proof.Gen.ReferenceIdeal
import Idealize.ShloMosaic.Lib.StableHlo.Run
import proofs.«102976_j3633542332749_1_alg».proof.Proof.RefRun.Base
import proofs.«102976_j3633542332749_1_alg».proof.Proof.RefRun.Value

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The reference's first four operations (the two rows of the edge list) and its last eighty-two (the pooled classifier
    and the log-softmax), read as pure functions. -/

/-- The edge list's two rows as flat vectors. -/
def P : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000 ]

/-- The buffers `P`'s operations write. -/
abbrev P_W : List (Ref sig .tc) := [main_v0, main_v1, main_v2, main_v3]

set_option maxRecDepth 8192 in
theorem P_writes : (P : List (HloOp τ sig (Elt F))).Forall fun op =>
    op.writes ⊆ (P_W.map (Proc.devRef (τ := τ) .tc)).toFinset := by
  unfold P
  exact ⟨writes_sub_of_mem (y := main_v0) (by decide),
    writes_sub_of_mem (y := main_v1) (by decide),
    writes_sub_of_mem (y := main_v2) (by decide),
    writes_sub_of_mem (y := main_v3) (by decide)⟩

/-- A buffer `P` does not write keeps its contents through it. -/
theorem P_keep (W : Valuation τ sig (Elt F)) (r : Ref sig .tc) (h : r ∉ P_W) :
    after P W (no_index (Proc.devRef .tc r)) = W (Proc.devRef .tc r) :=
  after_of_writes_sub P W P_writes h

set_option maxRecDepth 8192 in
set_option maxHeartbeats 400000 in
theorem P_src (W : Valuation τ sig (Elt F)) :
    after P W (no_index (Proc.devRef .tc main_v1)) = edgeRow (W (Proc.devRef .tc main_arg1)) 0 slices_S2x600000_S1x600000_0_0 := by
  unfold P
  after_results_simp <;> rfl

set_option maxRecDepth 8192 in
set_option maxHeartbeats 400000 in
theorem P_dst (W : Valuation τ sig (Elt F)) :
    after P W (no_index (Proc.devRef .tc main_v3)) = edgeRow (W (Proc.devRef .tc main_arg1)) 1 slices_S2x600000_S1x600000_1_0 := by
  unfold P
  after_results_simp <;> rfl

/-- Classifier term 0: the per-graph sums of node array 0 through its matrix and bias, added to the running scores. -/
def T0 : List (HloOp τ sig (Elt F)) :=
  [ StableHlo.nullary main_cst_42 (constant S_ .f32 0x00000000#32),
    StableHlo.unary main_cst_42 main_v304 (broadcastInDim S512x10 ![] bcast_S_S512x10 : (⟨S_, .f32⟩ : BufTy).Contents (Elt F) → (⟨S512x10, .f32⟩ : BufTy).Contents (Elt F)),
    StableHlo.nullary main_cst_43 (constant S_ .f32 0x00000000#32),
    StableHlo.unary main_cst_43 main_v305 (broadcastInDim S512x128 ![] bcast_S_S512x128 : (⟨S_, .f32⟩ : BufTy).Contents (Elt F) → (⟨S512x128, .f32⟩ : BufTy).Contents (Elt F)),
    StableHlo.unary main_arg2 main_v306 (broadcastInDim S50000x1 ![0] bcast_S50000_S50000x1_0 : (⟨S50000, .i32⟩ : BufTy).Contents (Elt F) → (⟨S50000x1, .i32⟩ : BufTy).Contents (Elt F)),
    StableHlo.ternary main_v305 main_v306 main_arg0 main_v307 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_arg11 main_v308 ((extractStridedSlice S1x128x10 ![0, 0, 0] · slices_S5x128x10_S1x128x10_0_0_0) : (⟨S5x128x10, .f32⟩ : BufTy).Contents (Elt F) → (⟨S1x128x10, .f32⟩ : BufTy).Contents (Elt F)),
    StableHlo.reshape main_v308 main_v309 rfl shapeCasts_S1x128x10_S128x10,
    StableHlo.binary main_v307 main_v309 main_v310 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.binary main_v304 main_v310 main_v311 (addf : (⟨S512x10, .f32⟩ : BufTy).Contents (Elt F) → (⟨S512x10, .f32⟩ : BufTy).Contents (Elt F) → (⟨S512x10, .f32⟩ : BufTy).Contents (Elt F)),
    StableHlo.unary main_arg12 main_v312 ((extractStridedSlice S1x10 ![0, 0] · slices_S5x10_S1x10_0_0) : (⟨S5x10, .f32⟩ : BufTy).Contents (Elt F) → (⟨S1x10, .f32⟩ : BufTy).Contents (Elt F)),
    StableHlo.reshape main_v312 main_v313 rfl shapeCasts_S1x10_S10,
    StableHlo.unary main_v313 main_v314 (broadcastInDim S1x10 ![1] bcast_S10_S1x10_1 : (⟨S10, .f32⟩ : BufTy).Contents (Elt F) → (⟨S1x10, .f32⟩ : BufTy).Contents (Elt F)),
    StableHlo.unary main_v314 main_v315 (broadcastInDim S512x10 ![0, 1] bcast_S1x10_S512x10_0_1 : (⟨S1x10, .f32⟩ : BufTy).Contents (Elt F) → (⟨S512x10, .f32⟩ : BufTy).Contents (Elt F)),
    StableHlo.binary main_v311 main_v315 main_v316 (addf : (⟨S512x10, .f32⟩ : BufTy).Contents (Elt F) → (⟨S512x10, .f32⟩ : BufTy).Contents (Elt F) → (⟨S512x10, .f32⟩ : BufTy).Contents (Elt F)) ]

/-- The buffers `T0`'s operations write. -/
abbrev T0_W : List (Ref sig .tc) := [main_cst_42, main_v304, main_cst_43, main_v305, main_v306, main_v307, main_v308, main_v309, main_v310, main_v311, main_v312, main_v313, main_v314, main_v315, main_v316]

set_option maxRecDepth 8192 in
theorem T0_writes : (T0 : List (HloOp τ sig (Elt F))).Forall fun op =>
    op.writes ⊆ (T0_W.map (Proc.devRef (τ := τ) .tc)).toFinset := by
  unfold T0
  exact ⟨writes_sub_of_mem (y := main_cst_42) (by decide),
    writes_sub_of_mem (y := main_v304) (by decide),
    writes_sub_of_mem (y := main_cst_43) (by decide),
    writes_sub_of_mem (y := main_v305) (by decide),
    writes_sub_of_mem (y := main_v306) (by decide),
    writes_sub_of_mem (y := main_v307) (by decide),
    writes_sub_of_mem (y := main_v308) (by decide),
    writes_sub_of_mem (y := main_v309) (by decide),
    writes_sub_of_mem (y := main_v310) (by decide),
    writes_sub_of_mem (y := main_v311) (by decide),
    writes_sub_of_mem (y := main_v312) (by decide),
    writes_sub_of_mem (y := main_v313) (by decide),
    writes_sub_of_mem (y := main_v314) (by decide),
    writes_sub_of_mem (y := main_v315) (by decide),
    writes_sub_of_mem (y := main_v316) (by decide)⟩

/-- A buffer `T0` does not write keeps its contents through it. -/
theorem T0_keep (W : Valuation τ sig (Elt F)) (r : Ref sig .tc) (h : r ∉ T0_W) :
    after T0 W (no_index (Proc.devRef .tc r)) = W (Proc.devRef .tc r) :=
  after_of_writes_sub T0 W T0_writes h

set_option maxRecDepth 8192 in
set_option maxHeartbeats 1500000 in
theorem T0_acc (W : Valuation τ sig (Elt F)) :
    after T0 W (no_index (Proc.devRef .tc main_v316)) = cls zeroScores (pool (W (Proc.devRef .tc main_arg0)) (batchCol (W (Proc.devRef .tc main_arg2)))) (fcAt (W (Proc.devRef .tc main_arg11)) 0 slices_S5x128x10_S1x128x10_0_0_0) (fcbAt (W (Proc.devRef .tc main_arg12)) 0 slices_S5x10_S1x10_0_0) := by
  unfold T0
  after_results_simp <;> rfl

/-- Classifier term 1: the per-graph sums of node array 1 through its matrix and bias, added to the running scores. -/
def T1 : List (HloOp τ sig (Elt F)) :=
  [ StableHlo.nullary main_cst_44 (constant S_ .f32 0x00000000#32),
    StableHlo.unary main_cst_44 main_v317 (broadcastInDim S512x128 ![] bcast_S_S512x128 : (⟨S_, .f32⟩ : BufTy).Contents (Elt F) → (⟨S512x128, .f32⟩ : BufTy).Contents (Elt F)),
    StableHlo.unary main_arg2 main_v318 (broadcastInDim S50000x1 ![0] bcast_S50000_S50000x1_0 : (⟨S50000, .i32⟩ : BufTy).Contents (Elt F) → (⟨S50000x1, .i32⟩ : BufTy).Contents (Elt F)),
    StableHlo.ternary main_v317 main_v318 main_v78 main_v319 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_arg11 main_v320 ((extractStridedSlice S1x128x10 ![1, 0, 0] · slices_S5x128x10_S1x128x10_1_0_0) : (⟨S5x128x10, .f32⟩ : BufTy).Contents (Elt F) → (⟨S1x128x10, .f32⟩ : BufTy).Contents (Elt F)),
    StableHlo.reshape main_v320 main_v321 rfl shapeCasts_S1x128x10_S128x10,
    StableHlo.binary main_v319 main_v321 main_v322 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.binary main_v316 main_v322 main_v323 (addf : (⟨S512x10, .f32⟩ : BufTy).Contents (Elt F) → (⟨S512x10, .f32⟩ : BufTy).Contents (Elt F) → (⟨S512x10, .f32⟩ : BufTy).Contents (Elt F)),
    StableHlo.unary main_arg12 main_v324 ((extractStridedSlice S1x10 ![1, 0] · slices_S5x10_S1x10_1_0) : (⟨S5x10, .f32⟩ : BufTy).Contents (Elt F) → (⟨S1x10, .f32⟩ : BufTy).Contents (Elt F)),
    StableHlo.reshape main_v324 main_v325 rfl shapeCasts_S1x10_S10,
    StableHlo.unary main_v325 main_v326 (broadcastInDim S1x10 ![1] bcast_S10_S1x10_1 : (⟨S10, .f32⟩ : BufTy).Contents (Elt F) → (⟨S1x10, .f32⟩ : BufTy).Contents (Elt F)),
    StableHlo.unary main_v326 main_v327 (broadcastInDim S512x10 ![0, 1] bcast_S1x10_S512x10_0_1 : (⟨S1x10, .f32⟩ : BufTy).Contents (Elt F) → (⟨S512x10, .f32⟩ : BufTy).Contents (Elt F)),
    StableHlo.binary main_v323 main_v327 main_v328 (addf : (⟨S512x10, .f32⟩ : BufTy).Contents (Elt F) → (⟨S512x10, .f32⟩ : BufTy).Contents (Elt F) → (⟨S512x10, .f32⟩ : BufTy).Contents (Elt F)) ]

/-- The buffers `T1`'s operations write. -/
abbrev T1_W : List (Ref sig .tc) := [main_cst_44, main_v317, main_v318, main_v319, main_v320, main_v321, main_v322, main_v323, main_v324, main_v325, main_v326, main_v327, main_v328]

set_option maxRecDepth 8192 in
theorem T1_writes : (T1 : List (HloOp τ sig (Elt F))).Forall fun op =>
    op.writes ⊆ (T1_W.map (Proc.devRef (τ := τ) .tc)).toFinset := by
  unfold T1
  exact ⟨writes_sub_of_mem (y := main_cst_44) (by decide),
    writes_sub_of_mem (y := main_v317) (by decide),
    writes_sub_of_mem (y := main_v318) (by decide),
    writes_sub_of_mem (y := main_v319) (by decide),
    writes_sub_of_mem (y := main_v320) (by decide),
    writes_sub_of_mem (y := main_v321) (by decide),
    writes_sub_of_mem (y := main_v322) (by decide),
    writes_sub_of_mem (y := main_v323) (by decide),
    writes_sub_of_mem (y := main_v324) (by decide),
    writes_sub_of_mem (y := main_v325) (by decide),
    writes_sub_of_mem (y := main_v326) (by decide),
    writes_sub_of_mem (y := main_v327) (by decide),
    writes_sub_of_mem (y := main_v328) (by decide)⟩

/-- A buffer `T1` does not write keeps its contents through it. -/
theorem T1_keep (W : Valuation τ sig (Elt F)) (r : Ref sig .tc) (h : r ∉ T1_W) :
    after T1 W (no_index (Proc.devRef .tc r)) = W (Proc.devRef .tc r) :=
  after_of_writes_sub T1 W T1_writes h

set_option maxRecDepth 8192 in
set_option maxHeartbeats 1300000 in
theorem T1_acc (W : Valuation τ sig (Elt F)) :
    after T1 W (no_index (Proc.devRef .tc main_v328)) = cls (W (Proc.devRef .tc main_v316)) (pool (W (Proc.devRef .tc main_v78)) (batchCol (W (Proc.devRef .tc main_arg2)))) (fcAt (W (Proc.devRef .tc main_arg11)) 1 slices_S5x128x10_S1x128x10_1_0_0) (fcbAt (W (Proc.devRef .tc main_arg12)) 1 slices_S5x10_S1x10_1_0) := by
  unfold T1
  after_results_simp <;> rfl

/-- Classifier term 2: the per-graph sums of node array 2 through its matrix and bias, added to the running scores. -/
def T2 : List (HloOp τ sig (Elt F)) :=
  [ StableHlo.nullary main_cst_45 (constant S_ .f32 0x00000000#32),
    StableHlo.unary main_cst_45 main_v329 (broadcastInDim S512x128 ![] bcast_S_S512x128 : (⟨S_, .f32⟩ : BufTy).Contents (Elt F) → (⟨S512x128, .f32⟩ : BufTy).Contents (Elt F)),
    StableHlo.unary main_arg2 main_v330 (broadcastInDim S50000x1 ![0] bcast_S50000_S50000x1_0 : (⟨S50000, .i32⟩ : BufTy).Contents (Elt F) → (⟨S50000x1, .i32⟩ : BufTy).Contents (Elt F)),
    StableHlo.ternary main_v329 main_v330 main_v153 main_v331 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_arg11 main_v332 ((extractStridedSlice S1x128x10 ![2, 0, 0] · slices_S5x128x10_S1x128x10_2_0_0) : (⟨S5x128x10, .f32⟩ : BufTy).Contents (Elt F) → (⟨S1x128x10, .f32⟩ : BufTy).Contents (Elt F)),
    StableHlo.reshape main_v332 main_v333 rfl shapeCasts_S1x128x10_S128x10,
    StableHlo.binary main_v331 main_v333 main_v334 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.binary main_v328 main_v334 main_v335 (addf : (⟨S512x10, .f32⟩ : BufTy).Contents (Elt F) → (⟨S512x10, .f32⟩ : BufTy).Contents (Elt F) → (⟨S512x10, .f32⟩ : BufTy).Contents (Elt F)),
    StableHlo.unary main_arg12 main_v336 ((extractStridedSlice S1x10 ![2, 0] · slices_S5x10_S1x10_2_0) : (⟨S5x10, .f32⟩ : BufTy).Contents (Elt F) → (⟨S1x10, .f32⟩ : BufTy).Contents (Elt F)),
    StableHlo.reshape main_v336 main_v337 rfl shapeCasts_S1x10_S10,
    StableHlo.unary main_v337 main_v338 (broadcastInDim S1x10 ![1] bcast_S10_S1x10_1 : (⟨S10, .f32⟩ : BufTy).Contents (Elt F) → (⟨S1x10, .f32⟩ : BufTy).Contents (Elt F)),
    StableHlo.unary main_v338 main_v339 (broadcastInDim S512x10 ![0, 1] bcast_S1x10_S512x10_0_1 : (⟨S1x10, .f32⟩ : BufTy).Contents (Elt F) → (⟨S512x10, .f32⟩ : BufTy).Contents (Elt F)),
    StableHlo.binary main_v335 main_v339 main_v340 (addf : (⟨S512x10, .f32⟩ : BufTy).Contents (Elt F) → (⟨S512x10, .f32⟩ : BufTy).Contents (Elt F) → (⟨S512x10, .f32⟩ : BufTy).Contents (Elt F)) ]

/-- The buffers `T2`'s operations write. -/
abbrev T2_W : List (Ref sig .tc) := [main_cst_45, main_v329, main_v330, main_v331, main_v332, main_v333, main_v334, main_v335, main_v336, main_v337, main_v338, main_v339, main_v340]

set_option maxRecDepth 8192 in
theorem T2_writes : (T2 : List (HloOp τ sig (Elt F))).Forall fun op =>
    op.writes ⊆ (T2_W.map (Proc.devRef (τ := τ) .tc)).toFinset := by
  unfold T2
  exact ⟨writes_sub_of_mem (y := main_cst_45) (by decide),
    writes_sub_of_mem (y := main_v329) (by decide),
    writes_sub_of_mem (y := main_v330) (by decide),
    writes_sub_of_mem (y := main_v331) (by decide),
    writes_sub_of_mem (y := main_v332) (by decide),
    writes_sub_of_mem (y := main_v333) (by decide),
    writes_sub_of_mem (y := main_v334) (by decide),
    writes_sub_of_mem (y := main_v335) (by decide),
    writes_sub_of_mem (y := main_v336) (by decide),
    writes_sub_of_mem (y := main_v337) (by decide),
    writes_sub_of_mem (y := main_v338) (by decide),
    writes_sub_of_mem (y := main_v339) (by decide),
    writes_sub_of_mem (y := main_v340) (by decide)⟩

/-- A buffer `T2` does not write keeps its contents through it. -/
theorem T2_keep (W : Valuation τ sig (Elt F)) (r : Ref sig .tc) (h : r ∉ T2_W) :
    after T2 W (no_index (Proc.devRef .tc r)) = W (Proc.devRef .tc r) :=
  after_of_writes_sub T2 W T2_writes h

set_option maxRecDepth 8192 in
set_option maxHeartbeats 1300000 in
theorem T2_acc (W : Valuation τ sig (Elt F)) :
    after T2 W (no_index (Proc.devRef .tc main_v340)) = cls (W (Proc.devRef .tc main_v328)) (pool (W (Proc.devRef .tc main_v153)) (batchCol (W (Proc.devRef .tc main_arg2)))) (fcAt (W (Proc.devRef .tc main_arg11)) 2 slices_S5x128x10_S1x128x10_2_0_0) (fcbAt (W (Proc.devRef .tc main_arg12)) 2 slices_S5x10_S1x10_2_0) := by
  unfold T2
  after_results_simp <;> rfl

/-- Classifier term 3: the per-graph sums of node array 3 through its matrix and bias, added to the running scores. -/
def T3 : List (HloOp τ sig (Elt F)) :=
  [ StableHlo.nullary main_cst_46 (constant S_ .f32 0x00000000#32),
    StableHlo.unary main_cst_46 main_v341 (broadcastInDim S512x128 ![] bcast_S_S512x128 : (⟨S_, .f32⟩ : BufTy).Contents (Elt F) → (⟨S512x128, .f32⟩ : BufTy).Contents (Elt F)),
    StableHlo.unary main_arg2 main_v342 (broadcastInDim S50000x1 ![0] bcast_S50000_S50000x1_0 : (⟨S50000, .i32⟩ : BufTy).Contents (Elt F) → (⟨S50000x1, .i32⟩ : BufTy).Contents (Elt F)),
    StableHlo.ternary main_v341 main_v342 main_v228 main_v343 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_arg11 main_v344 ((extractStridedSlice S1x128x10 ![3, 0, 0] · slices_S5x128x10_S1x128x10_3_0_0) : (⟨S5x128x10, .f32⟩ : BufTy).Contents (Elt F) → (⟨S1x128x10, .f32⟩ : BufTy).Contents (Elt F)),
    StableHlo.reshape main_v344 main_v345 rfl shapeCasts_S1x128x10_S128x10,
    StableHlo.binary main_v343 main_v345 main_v346 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.binary main_v340 main_v346 main_v347 (addf : (⟨S512x10, .f32⟩ : BufTy).Contents (Elt F) → (⟨S512x10, .f32⟩ : BufTy).Contents (Elt F) → (⟨S512x10, .f32⟩ : BufTy).Contents (Elt F)),
    StableHlo.unary main_arg12 main_v348 ((extractStridedSlice S1x10 ![3, 0] · slices_S5x10_S1x10_3_0) : (⟨S5x10, .f32⟩ : BufTy).Contents (Elt F) → (⟨S1x10, .f32⟩ : BufTy).Contents (Elt F)),
    StableHlo.reshape main_v348 main_v349 rfl shapeCasts_S1x10_S10,
    StableHlo.unary main_v349 main_v350 (broadcastInDim S1x10 ![1] bcast_S10_S1x10_1 : (⟨S10, .f32⟩ : BufTy).Contents (Elt F) → (⟨S1x10, .f32⟩ : BufTy).Contents (Elt F)),
    StableHlo.unary main_v350 main_v351 (broadcastInDim S512x10 ![0, 1] bcast_S1x10_S512x10_0_1 : (⟨S1x10, .f32⟩ : BufTy).Contents (Elt F) → (⟨S512x10, .f32⟩ : BufTy).Contents (Elt F)),
    StableHlo.binary main_v347 main_v351 main_v352 (addf : (⟨S512x10, .f32⟩ : BufTy).Contents (Elt F) → (⟨S512x10, .f32⟩ : BufTy).Contents (Elt F) → (⟨S512x10, .f32⟩ : BufTy).Contents (Elt F)) ]

/-- The buffers `T3`'s operations write. -/
abbrev T3_W : List (Ref sig .tc) := [main_cst_46, main_v341, main_v342, main_v343, main_v344, main_v345, main_v346, main_v347, main_v348, main_v349, main_v350, main_v351, main_v352]

set_option maxRecDepth 8192 in
theorem T3_writes : (T3 : List (HloOp τ sig (Elt F))).Forall fun op =>
    op.writes ⊆ (T3_W.map (Proc.devRef (τ := τ) .tc)).toFinset := by
  unfold T3
  exact ⟨writes_sub_of_mem (y := main_cst_46) (by decide),
    writes_sub_of_mem (y := main_v341) (by decide),
    writes_sub_of_mem (y := main_v342) (by decide),
    writes_sub_of_mem (y := main_v343) (by decide),
    writes_sub_of_mem (y := main_v344) (by decide),
    writes_sub_of_mem (y := main_v345) (by decide),
    writes_sub_of_mem (y := main_v346) (by decide),
    writes_sub_of_mem (y := main_v347) (by decide),
    writes_sub_of_mem (y := main_v348) (by decide),
    writes_sub_of_mem (y := main_v349) (by decide),
    writes_sub_of_mem (y := main_v350) (by decide),
    writes_sub_of_mem (y := main_v351) (by decide),
    writes_sub_of_mem (y := main_v352) (by decide)⟩

/-- A buffer `T3` does not write keeps its contents through it. -/
theorem T3_keep (W : Valuation τ sig (Elt F)) (r : Ref sig .tc) (h : r ∉ T3_W) :
    after T3 W (no_index (Proc.devRef .tc r)) = W (Proc.devRef .tc r) :=
  after_of_writes_sub T3 W T3_writes h

set_option maxRecDepth 8192 in
set_option maxHeartbeats 1300000 in
theorem T3_acc (W : Valuation τ sig (Elt F)) :
    after T3 W (no_index (Proc.devRef .tc main_v352)) = cls (W (Proc.devRef .tc main_v340)) (pool (W (Proc.devRef .tc main_v228)) (batchCol (W (Proc.devRef .tc main_arg2)))) (fcAt (W (Proc.devRef .tc main_arg11)) 3 slices_S5x128x10_S1x128x10_3_0_0) (fcbAt (W (Proc.devRef .tc main_arg12)) 3 slices_S5x10_S1x10_3_0) := by
  unfold T3
  after_results_simp <;> rfl

/-- Classifier term 4: the per-graph sums of node array 4 through its matrix and bias, added to the running scores. -/
def T4 : List (HloOp τ sig (Elt F)) :=
  [ StableHlo.nullary main_cst_47 (constant S_ .f32 0x00000000#32),
    StableHlo.unary main_cst_47 main_v353 (broadcastInDim S512x128 ![] bcast_S_S512x128 : (⟨S_, .f32⟩ : BufTy).Contents (Elt F) → (⟨S512x128, .f32⟩ : BufTy).Contents (Elt F)),
    StableHlo.unary main_arg2 main_v354 (broadcastInDim S50000x1 ![0] bcast_S50000_S50000x1_0 : (⟨S50000, .i32⟩ : BufTy).Contents (Elt F) → (⟨S50000x1, .i32⟩ : BufTy).Contents (Elt F)),
    StableHlo.ternary main_v353 main_v354 main_v303 main_v355 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    StableHlo.unary main_arg11 main_v356 ((extractStridedSlice S1x128x10 ![4, 0, 0] · slices_S5x128x10_S1x128x10_4_0_0) : (⟨S5x128x10, .f32⟩ : BufTy).Contents (Elt F) → (⟨S1x128x10, .f32⟩ : BufTy).Contents (Elt F)),
    StableHlo.reshape main_v356 main_v357 rfl shapeCasts_S1x128x10_S128x10,
    StableHlo.binary main_v355 main_v357 main_v358 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    StableHlo.binary main_v352 main_v358 main_v359 (addf : (⟨S512x10, .f32⟩ : BufTy).Contents (Elt F) → (⟨S512x10, .f32⟩ : BufTy).Contents (Elt F) → (⟨S512x10, .f32⟩ : BufTy).Contents (Elt F)),
    StableHlo.unary main_arg12 main_v360 ((extractStridedSlice S1x10 ![4, 0] · slices_S5x10_S1x10_4_0) : (⟨S5x10, .f32⟩ : BufTy).Contents (Elt F) → (⟨S1x10, .f32⟩ : BufTy).Contents (Elt F)),
    StableHlo.reshape main_v360 main_v361 rfl shapeCasts_S1x10_S10,
    StableHlo.unary main_v361 main_v362 (broadcastInDim S1x10 ![1] bcast_S10_S1x10_1 : (⟨S10, .f32⟩ : BufTy).Contents (Elt F) → (⟨S1x10, .f32⟩ : BufTy).Contents (Elt F)),
    StableHlo.unary main_v362 main_v363 (broadcastInDim S512x10 ![0, 1] bcast_S1x10_S512x10_0_1 : (⟨S1x10, .f32⟩ : BufTy).Contents (Elt F) → (⟨S512x10, .f32⟩ : BufTy).Contents (Elt F)),
    StableHlo.binary main_v359 main_v363 main_v364 (addf : (⟨S512x10, .f32⟩ : BufTy).Contents (Elt F) → (⟨S512x10, .f32⟩ : BufTy).Contents (Elt F) → (⟨S512x10, .f32⟩ : BufTy).Contents (Elt F)) ]

/-- The buffers `T4`'s operations write. -/
abbrev T4_W : List (Ref sig .tc) := [main_cst_47, main_v353, main_v354, main_v355, main_v356, main_v357, main_v358, main_v359, main_v360, main_v361, main_v362, main_v363, main_v364]

set_option maxRecDepth 8192 in
theorem T4_writes : (T4 : List (HloOp τ sig (Elt F))).Forall fun op =>
    op.writes ⊆ (T4_W.map (Proc.devRef (τ := τ) .tc)).toFinset := by
  unfold T4
  exact ⟨writes_sub_of_mem (y := main_cst_47) (by decide),
    writes_sub_of_mem (y := main_v353) (by decide),
    writes_sub_of_mem (y := main_v354) (by decide),
    writes_sub_of_mem (y := main_v355) (by decide),
    writes_sub_of_mem (y := main_v356) (by decide),
    writes_sub_of_mem (y := main_v357) (by decide),
    writes_sub_of_mem (y := main_v358) (by decide),
    writes_sub_of_mem (y := main_v359) (by decide),
    writes_sub_of_mem (y := main_v360) (by decide),
    writes_sub_of_mem (y := main_v361) (by decide),
    writes_sub_of_mem (y := main_v362) (by decide),
    writes_sub_of_mem (y := main_v363) (by decide),
    writes_sub_of_mem (y := main_v364) (by decide)⟩

/-- A buffer `T4` does not write keeps its contents through it. -/
theorem T4_keep (W : Valuation τ sig (Elt F)) (r : Ref sig .tc) (h : r ∉ T4_W) :
    after T4 W (no_index (Proc.devRef .tc r)) = W (Proc.devRef .tc r) :=
  after_of_writes_sub T4 W T4_writes h

set_option maxRecDepth 8192 in
set_option maxHeartbeats 1300000 in
theorem T4_acc (W : Valuation τ sig (Elt F)) :
    after T4 W (no_index (Proc.devRef .tc main_v364)) = cls (W (Proc.devRef .tc main_v352)) (pool (W (Proc.devRef .tc main_v303)) (batchCol (W (Proc.devRef .tc main_arg2)))) (fcAt (W (Proc.devRef .tc main_arg11)) 4 slices_S5x128x10_S1x128x10_4_0_0) (fcbAt (W (Proc.devRef .tc main_arg12)) 4 slices_S5x10_S1x10_4_0) := by
  unfold T4
  after_results_simp <;> rfl

/-- The log-softmax of the scores. -/
def T5 : List (HloOp τ sig (Elt F)) :=
  [ StableHlo.TRef.nullary main_call16.cst (constant S_ .f32 0xFF800000#32),
    StableHlo.TRef.binary (TRef.of (T := ⟨S512x10, .f32⟩) main_v364) main_call16.cst main_call16.v0 (fun x v => Host.reduce FloatOps.maximumf x v reducesTo_S512x10_S512_d1 h_S_),
    StableHlo.TRef.nullary main_call16.cst_0 (constant S_ .f32 0xFF800000#32),
    StableHlo.TRef.unary main_call16.cst_0 main_call16.v1 (broadcastInDim S512 ![] bcast_S_S512),
    StableHlo.TRef.binary main_call16.v1 main_call16.v0 main_call16.v2 maximumf,
    StableHlo.TRef.unary main_call16.v2 main_call16.v3 (broadcastInDim S512x1 ![0] bcast_S512_S512x1_0),
    StableHlo.TRef.unary main_call16.v3 main_call16.v4 (broadcastInDim S512x10 ![0, 1] bcast_S512x1_S512x10_0_1),
    StableHlo.TRef.binary (TRef.of (T := ⟨S512x10, .f32⟩) main_v364) main_call16.v4 main_call16.v5 subf,
    StableHlo.TRef.unary main_call16.v5 main_call16.v6 Host.exp,
    StableHlo.TRef.nullary main_call16.cst_1 (constant S_ .f32 0x00000000#32),
    StableHlo.TRef.binary main_call16.v6 main_call16.cst_1 main_call16.v7 (fun x v => Host.reduceAdd x v reducesTo_S512x10_S512_d1 h_S_),
    StableHlo.TRef.unary main_call16.v7 main_call16.v8 (broadcastInDim S512x1 ![0] bcast_S512_S512x1_0),
    StableHlo.TRef.unary main_call16.v8 main_call16.v9 Host.log,
    StableHlo.TRef.unary main_call16.v9 main_call16.v10 (broadcastInDim S512x10 ![0, 1] bcast_S512x1_S512x10_0_1),
    StableHlo.TRef.binary main_call16.v5 main_call16.v10 main_call16.v11 subf ]

/-- The buffers `T5`'s operations write. -/
abbrev T5_W : List (Ref sig .tc) := [main_call16.cst.ref, main_call16.v0.ref, main_call16.cst_0.ref, main_call16.v1.ref, main_call16.v2.ref, main_call16.v3.ref, main_call16.v4.ref, main_call16.v5.ref, main_call16.v6.ref, main_call16.cst_1.ref, main_call16.v7.ref, main_call16.v8.ref, main_call16.v9.ref, main_call16.v10.ref, main_call16.v11.ref]

set_option maxRecDepth 8192 in
theorem T5_writes : (T5 : List (HloOp τ sig (Elt F))).Forall fun op =>
    op.writes ⊆ (T5_W.map (Proc.devRef (τ := τ) .tc)).toFinset := by
  unfold T5
  exact ⟨writes_sub_of_mem (y := main_call16.cst.ref) (by decide),
    writes_sub_of_mem (y := main_call16.v0.ref) (by decide),
    writes_sub_of_mem (y := main_call16.cst_0.ref) (by decide),
    writes_sub_of_mem (y := main_call16.v1.ref) (by decide),
    writes_sub_of_mem (y := main_call16.v2.ref) (by decide),
    writes_sub_of_mem (y := main_call16.v3.ref) (by decide),
    writes_sub_of_mem (y := main_call16.v4.ref) (by decide),
    writes_sub_of_mem (y := main_call16.v5.ref) (by decide),
    writes_sub_of_mem (y := main_call16.v6.ref) (by decide),
    writes_sub_of_mem (y := main_call16.cst_1.ref) (by decide),
    writes_sub_of_mem (y := main_call16.v7.ref) (by decide),
    writes_sub_of_mem (y := main_call16.v8.ref) (by decide),
    writes_sub_of_mem (y := main_call16.v9.ref) (by decide),
    writes_sub_of_mem (y := main_call16.v10.ref) (by decide),
    writes_sub_of_mem (y := main_call16.v11.ref) (by decide)⟩

/-- A buffer `T5` does not write keeps its contents through it. -/
theorem T5_keep (W : Valuation τ sig (Elt F)) (r : Ref sig .tc) (h : r ∉ T5_W) :
    after T5 W (no_index (Proc.devRef .tc r)) = W (Proc.devRef .tc r) :=
  after_of_writes_sub T5 W T5_writes h

set_option maxRecDepth 8192 in
set_option maxHeartbeats 1500000 in
theorem T5_out (W : Valuation τ sig (Elt F)) :
    after T5 W (no_index (Proc.devRef .tc main_v365)) = logSoftmax (W (Proc.devRef .tc main_v364)) := by
  unfold T5
  after_results_simp <;> rfl

set_option maxRecDepth 8192 in
set_option maxHeartbeats 1000000 in
/-- The result is `refTail` of the five node arrays, the graph numbers and the classifier's parameters, all as the last
    stretch finds them. -/
theorem tail_out (W : Valuation τ sig (Elt F)) :
    after T5 (after T4 (after T3 (after T2 (after T1 (after T0 W))))) (no_index (Proc.devRef .tc main_v365))
      = refTail (W (Proc.devRef .tc main_arg0)) (W (Proc.devRef .tc main_v78)) (W (Proc.devRef .tc main_v153)) (W (Proc.devRef .tc main_v228)) (W (Proc.devRef .tc main_v303)) (batchCol (W (Proc.devRef .tc main_arg2)))
          (fcAt (W (Proc.devRef .tc main_arg11)) 0 slices_S5x128x10_S1x128x10_0_0_0) (fcbAt (W (Proc.devRef .tc main_arg12)) 0 slices_S5x10_S1x10_0_0)
          (fcAt (W (Proc.devRef .tc main_arg11)) 1 slices_S5x128x10_S1x128x10_1_0_0) (fcbAt (W (Proc.devRef .tc main_arg12)) 1 slices_S5x10_S1x10_1_0)
          (fcAt (W (Proc.devRef .tc main_arg11)) 2 slices_S5x128x10_S1x128x10_2_0_0) (fcbAt (W (Proc.devRef .tc main_arg12)) 2 slices_S5x10_S1x10_2_0)
          (fcAt (W (Proc.devRef .tc main_arg11)) 3 slices_S5x128x10_S1x128x10_3_0_0) (fcbAt (W (Proc.devRef .tc main_arg12)) 3 slices_S5x10_S1x10_3_0)
          (fcAt (W (Proc.devRef .tc main_arg11)) 4 slices_S5x128x10_S1x128x10_4_0_0) (fcbAt (W (Proc.devRef .tc main_arg12)) 4 slices_S5x10_S1x10_4_0) := by
  simp (disch := decide) only [T5_out, T4_acc, T4_keep, T3_acc, T3_keep, T2_acc, T2_keep, T1_acc, T1_keep, T0_acc, T0_keep]
  rfl

end Cert.ReferenceIdeal.RefRun

end
-- ==== Proof.RefRun.Read.lean ====
import proofs.«102976_j3633542332749_1_alg».proof.Proof.Gen.ReferenceIdeal
import Idealize.ShloMosaic.Lib.StableHlo.Run
import proofs.«102976_j3633542332749_1_alg».proof.Proof.RefRun
import proofs.«102976_j3633542332749_1_alg».proof.Proof.RefRun.Read.L0
import proofs.«102976_j3633542332749_1_alg».proof.Proof.RefRun.Read.L1
import proofs.«102976_j3633542332749_1_alg».proof.Proof.RefRun.Read.L2
import proofs.«102976_j3633542332749_1_alg».proof.Proof.RefRun.Read.L3
import proofs.«102976_j3633542332749_1_alg».proof.Proof.RefRun.Read.PT

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The reference's result as pure functions of the argument contents: its 614 operations regrouped by what they
    compute, each layer's output as `refLayer` of the previous one, and the result as `refTail` of the five node arrays. -/

set_option maxRecDepth 65536 in
set_option maxHeartbeats 4000000 in
/-- The same operations in the same order, grouped as the edge rows, four layers of five stretches, and the classifier. -/
theorem ops_split : (ops : List (HloOp τ sig (Elt F))) = P ++ (A0 ++ (B0 ++ (C0 ++ (D0 ++ (E0 ++ (A1 ++ (B1 ++ (C1 ++ (D1 ++ (E1 ++ (A2 ++ (B2 ++ (C2 ++ (D2 ++ (E2 ++ (A3 ++ (B3 ++ (C3 ++ (D3 ++ (E3 ++ (T0 ++ (T1 ++ (T2 ++ (T3 ++ (T4 ++ (T5)))))))))))))))))))))))))) := rfl

/-- The contents after the whole program: the stretches' folds in order. -/
theorem after_ops (V : Valuation τ sig (Elt F)) :
    after ops V = after T5 (after T4 (after T3 (after T2 (after T1 (after T0 (after E3 (after D3 (after C3 (after B3 (after A3 (after E2 (after D2 (after C2 (after B2 (after A2 (after E1 (after D1 (after C1 (after B1 (after A1 (after E0 (after D0 (after C0 (after B0 (after A0 (after P (V))))))))))))))))))))))))))) := by
  rw [ops_split]
  simp only [after_append]

set_option maxRecDepth 8192 in
set_option maxHeartbeats 2000000 in
/-- After the whole program, layer 0's output buffer holds `refLayer` of the node features, the edge list's two columns and
    layer 0's slices of the parameter arrays. -/
theorem layer_out0 (V : Valuation τ sig (Elt F)) :
    after ops V (Proc.devRef .tc main_v78)
      = refLayer (V (Proc.devRef .tc main_arg0)) (srcCol (V (Proc.devRef .tc main_arg1))) (dstCol (V (Proc.devRef .tc main_arg1)))
          (matAt (V (Proc.devRef .tc main_arg3)) 0 slices_S4x128x128_S1x128x128_0_0_0) (vecAt (V (Proc.devRef .tc main_arg4)) 0 slices_S4x128_S1x128_0_0)
          (matAt (V (Proc.devRef .tc main_arg5)) 0 slices_S4x128x128_S1x128x128_0_0_0) (vecAt (V (Proc.devRef .tc main_arg6)) 0 slices_S4x128_S1x128_0_0)
          (vecAt (V (Proc.devRef .tc main_arg7)) 0 slices_S4x128_S1x128_0_0) (vecAt (V (Proc.devRef .tc main_arg8)) 0 slices_S4x128_S1x128_0_0)
          (vecAt (V (Proc.devRef .tc main_arg9)) 0 slices_S4x128_S1x128_0_0) (vecAt (V (Proc.devRef .tc main_arg10)) 0 slices_S4x128_S1x128_0_0) := by
  rw [after_ops]
  simp (disch := decide) only [T5_keep, T4_keep, T3_keep, T2_keep, T1_keep, T0_keep, E3_keep, D3_keep, C3_keep, B3_keep, A3_keep, E2_keep, D2_keep, C2_keep, B2_keep, A2_keep, E1_keep, D1_keep, C1_keep, B1_keep, A1_keep, E0_keep, D0_keep, C0_keep, B0_keep, A0_keep, P_keep, layer0_h, P_src, P_dst, srcCol, dstCol]

set_option maxRecDepth 8192 in
set_option maxHeartbeats 2000000 in
/-- After the whole program, layer 1's output buffer holds `refLayer` of layer 0's output, the edge list's two columns and
    layer 1's slices of the parameter arrays. -/
theorem layer_out1 (V : Valuation τ sig (Elt F)) :
    after ops V (Proc.devRef .tc main_v153)
      = refLayer (after ops V (Proc.devRef .tc main_v78)) (srcCol (V (Proc.devRef .tc main_arg1))) (dstCol (V (Proc.devRef .tc main_arg1)))
          (matAt (V (Proc.devRef .tc main_arg3)) 1 slices_S4x128x128_S1x128x128_1_0_0) (vecAt (V (Proc.devRef .tc main_arg4)) 1 slices_S4x128_S1x128_1_0)
          (matAt (V (Proc.devRef .tc main_arg5)) 1 slices_S4x128x128_S1x128x128_1_0_0) (vecAt (V (Proc.devRef .tc main_arg6)) 1 slices_S4x128_S1x128_1_0)
          (vecAt (V (Proc.devRef .tc main_arg7)) 1 slices_S4x128_S1x128_1_0) (vecAt (V (Proc.devRef .tc main_arg8)) 1 slices_S4x128_S1x128_1_0)
          (vecAt (V (Proc.devRef .tc main_arg9)) 1 slices_S4x128_S1x128_1_0) (vecAt (V (Proc.devRef .tc main_arg10)) 1 slices_S4x128_S1x128_1_0) := by
  rw [after_ops]
  simp (disch := decide) only [T5_keep, T4_keep, T3_keep, T2_keep, T1_keep, T0_keep, E3_keep, D3_keep, C3_keep, B3_keep, A3_keep, E2_keep, D2_keep, C2_keep, B2_keep, A2_keep, E1_keep, D1_keep, C1_keep, B1_keep, A1_keep, E0_keep, D0_keep, C0_keep, B0_keep, A0_keep, P_keep, layer1_h, P_src, P_dst, srcCol, dstCol]

set_option maxRecDepth 8192 in
set_option maxHeartbeats 2000000 in
/-- After the whole program, layer 2's output buffer holds `refLayer` of layer 1's output, the edge list's two columns and
    layer 2's slices of the parameter arrays. -/
theorem layer_out2 (V : Valuation τ sig (Elt F)) :
    after ops V (Proc.devRef .tc main_v228)
      = refLayer (after ops V (Proc.devRef .tc main_v153)) (srcCol (V (Proc.devRef .tc main_arg1))) (dstCol (V (Proc.devRef .tc main_arg1)))
          (matAt (V (Proc.devRef .tc main_arg3)) 2 slices_S4x128x128_S1x128x128_2_0_0) (vecAt (V (Proc.devRef .tc main_arg4)) 2 slices_S4x128_S1x128_2_0)
          (matAt (V (Proc.devRef .tc main_arg5)) 2 slices_S4x128x128_S1x128x128_2_0_0) (vecAt (V (Proc.devRef .tc main_arg6)) 2 slices_S4x128_S1x128_2_0)
          (vecAt (V (Proc.devRef .tc main_arg7)) 2 slices_S4x128_S1x128_2_0) (vecAt (V (Proc.devRef .tc main_arg8)) 2 slices_S4x128_S1x128_2_0)
          (vecAt (V (Proc.devRef .tc main_arg9)) 2 slices_S4x128_S1x128_2_0) (vecAt (V (Proc.devRef .tc main_arg10)) 2 slices_S4x128_S1x128_2_0) := by
  rw [after_ops]
  simp (disch := decide) only [T5_keep, T4_keep, T3_keep, T2_keep, T1_keep, T0_keep, E3_keep, D3_keep, C3_keep, B3_keep, A3_keep, E2_keep, D2_keep, C2_keep, B2_keep, A2_keep, E1_keep, D1_keep, C1_keep, B1_keep, A1_keep, E0_keep, D0_keep, C0_keep, B0_keep, A0_keep, P_keep, layer2_h, P_src, P_dst, srcCol, dstCol]

set_option maxRecDepth 8192 in
set_option maxHeartbeats 2000000 in
/-- After the whole program, layer 3's output buffer holds `refLayer` of layer 2's output, the edge list's two columns and
    layer 3's slices of the parameter arrays. -/
theorem layer_out3 (V : Valuation τ sig (Elt F)) :
    after ops V (Proc.devRef .tc main_v303)
      = refLayer (after ops V (Proc.devRef .tc main_v228)) (srcCol (V (Proc.devRef .tc main_arg1))) (dstCol (V (Proc.devRef .tc main_arg1)))
          (matAt (V (Proc.devRef .tc main_arg3)) 3 slices_S4x128x128_S1x128x128_3_0_0) (vecAt (V (Proc.devRef .tc main_arg4)) 3 slices_S4x128_S1x128_3_0)
          (matAt (V (Proc.devRef .tc main_arg5)) 3 slices_S4x128x128_S1x128x128_3_0_0) (vecAt (V (Proc.devRef .tc main_arg6)) 3 slices_S4x128_S1x128_3_0)
          (vecAt (V (Proc.devRef .tc main_arg7)) 3 slices_S4x128_S1x128_3_0) (vecAt (V (Proc.devRef .tc main_arg8)) 3 slices_S4x128_S1x128_3_0)
          (vecAt (V (Proc.devRef .tc main_arg9)) 3 slices_S4x128_S1x128_3_0) (vecAt (V (Proc.devRef .tc main_arg10)) 3 slices_S4x128_S1x128_3_0) := by
  rw [after_ops]
  simp (disch := decide) only [T5_keep, T4_keep, T3_keep, T2_keep, T1_keep, T0_keep, E3_keep, D3_keep, C3_keep, B3_keep, A3_keep, E2_keep, D2_keep, C2_keep, B2_keep, A2_keep, E1_keep, D1_keep, C1_keep, B1_keep, A1_keep, E0_keep, D0_keep, C0_keep, B0_keep, A0_keep, P_keep, layer3_h, P_src, P_dst, srcCol, dstCol]

set_option maxRecDepth 8192 in
set_option maxHeartbeats 2000000 in
/-- After the whole program the result buffer holds `refTail` of the node features, the four layers' outputs, the graph
    numbers and the classifier's parameter slices. -/
theorem out_eq (V : Valuation τ sig (Elt F)) :
    after ops V (Proc.devRef .tc main_v365)
      = refTail (V (Proc.devRef .tc main_arg0)) (after ops V (Proc.devRef .tc main_v78)) (after ops V (Proc.devRef .tc main_v153)) (after ops V (Proc.devRef .tc main_v228)) (after ops V (Proc.devRef .tc main_v303)) (batchCol (V (Proc.devRef .tc main_arg2)))
          (fcAt (V (Proc.devRef .tc main_arg11)) 0 slices_S5x128x10_S1x128x10_0_0_0) (fcbAt (V (Proc.devRef .tc main_arg12)) 0 slices_S5x10_S1x10_0_0)
          (fcAt (V (Proc.devRef .tc main_arg11)) 1 slices_S5x128x10_S1x128x10_1_0_0) (fcbAt (V (Proc.devRef .tc main_arg12)) 1 slices_S5x10_S1x10_1_0)
          (fcAt (V (Proc.devRef .tc main_arg11)) 2 slices_S5x128x10_S1x128x10_2_0_0) (fcbAt (V (Proc.devRef .tc main_arg12)) 2 slices_S5x10_S1x10_2_0)
          (fcAt (V (Proc.devRef .tc main_arg11)) 3 slices_S5x128x10_S1x128x10_3_0_0) (fcbAt (V (Proc.devRef .tc main_arg12)) 3 slices_S5x10_S1x10_3_0)
          (fcAt (V (Proc.devRef .tc main_arg11)) 4 slices_S5x128x10_S1x128x10_4_0_0) (fcbAt (V (Proc.devRef .tc main_arg12)) 4 slices_S5x10_S1x10_4_0) := by
  rw [after_ops]
  simp (disch := decide) only [T5_keep, T4_keep, T3_keep, T2_keep, T1_keep, T0_keep, E3_keep, D3_keep, C3_keep, B3_keep, A3_keep, E2_keep, D2_keep, C2_keep, B2_keep, A2_keep, E1_keep, D1_keep, C1_keep, B1_keep, A1_keep, E0_keep, D0_keep, C0_keep, B0_keep, A0_keep, P_keep, tail_out]

end Cert.ReferenceIdeal.RefRun

end
-- ==== Proof.LibLayerNorm.lean ====
/-
  Layer normalisation over the extended reals.

  A layer norm centres a row, divides the sum of the squared deviations by the row length to get a variance,
  adds a positive constant and normalises. One program normalises by DIVIDING by the square root, another by
  MULTIPLYING with the reciprocal square root. On the extended reals the two agree at every numerator as soon
  as the radicand is positive (a positive real or plus infinity): off that set they differ (at a zero or negative
  radicand, and at minus infinity), so what makes the law usable is that a sum of squares is never negative —
  the square of either infinity is plus infinity — and stays so after division by a positive real, hence the
  radicand "variance + positive constant" is always positive. No finiteness of the data is needed.
-/
import Idealize.ShloMosaic.PureOps.Ideal

noncomputable section

namespace Cert.Lib

open Idealize.ShloMosaic

/-- A square is never negative on the extended reals: the square of either infinity is plus infinity. -/
theorem ereal_mul_self_nonneg (x : EReal) : 0 ≤ x * x := by
  induction x using EReal.rec with
  | bot => rw [EReal.bot_mul_bot]; exact le_top
  | coe r => rw [← EReal.coe_mul]; exact_mod_cast mul_self_nonneg r
  | top => rw [EReal.top_mul_top]; exact le_top

/-- So a finite sum of squares is never negative. -/
theorem sum_mul_self_nonneg {ι : Type*} (s : Finset ι) (d : ι → EReal) : 0 ≤ ∑ k ∈ s, d k * d k :=
  Finset.sum_nonneg fun k _ => ereal_mul_self_nonneg (d k)

/-- Dividing a nonnegative extended real by a positive real leaves it nonnegative. -/
theorem div_coe_nonneg {x : EReal} (hx : 0 ≤ x) {c : ℝ} (hc : 0 < c) : 0 ≤ Ideal.div x (c : EReal) := by
  rw [Ideal.div_coe hc.ne']
  exact mul_nonneg hx (by exact_mod_cast (one_div_pos.mpr hc).le)

/-- At a positive radicand — a positive real or plus infinity — dividing by the square root is multiplying by
    the reciprocal square root, whatever the numerator. -/
theorem div_sqrt_eq_mul_rsqrt {s : EReal} (hs : 0 < s) (y : EReal) :
    Ideal.div y (Ideal.sqrt s) = y * Ideal.rsqrt s := by
  induction s using EReal.rec with
  | bot => exact absurd hs (not_lt.mpr bot_le)
  | coe r =>
    have hr : 0 < r := by exact_mod_cast hs
    have hsq : 0 < Real.sqrt r := Real.sqrt_pos.mpr hr
    rw [Ideal.sqrt_coe, if_neg (not_lt.mpr hr.le), Ideal.rsqrt_coe, if_neg (not_lt.mpr hr.le), if_neg hr.ne',
      Ideal.div, if_neg (by exact_mod_cast hsq.ne'), EReal.coe_inv]
  | top =>
    rw [Ideal.sqrt_top, Ideal.rsqrt_top, Ideal.div, if_neg EReal.top_ne_zero, EReal.inv_top]

/-- A variance — a sum of squares over a positive real count — plus a positive real is positive. -/
theorem variance_add_pos {ι : Type*} (s : Finset ι) (d : ι → EReal) {c ε : ℝ} (hc : 0 < c) (hε : 0 < ε) :
    0 < Ideal.div (∑ k ∈ s, d k * d k) (c : EReal) + (ε : EReal) :=
  lt_of_lt_of_le (by exact_mod_cast hε : (0 : EReal) < (ε : EReal))
    (le_add_of_nonneg_left (div_coe_nonneg (sum_mul_self_nonneg s d) hc))

/-- The normalisation step of a layer norm: with the radicand "variance + positive constant", the quotient by
    the square root is the product with the reciprocal square root, at every numerator. -/
theorem layerNorm_div_eq_mul {ι : Type*} (s : Finset ι) (d : ι → EReal) {c ε : ℝ} (hc : 0 < c) (hε : 0 < ε)
    (y : EReal) :
    Ideal.div y (Ideal.sqrt (Ideal.div (∑ k ∈ s, d k * d k) (c : EReal) + (ε : EReal)))
      = y * Ideal.rsqrt (Ideal.div (∑ k ∈ s, d k * d k) (c : EReal) + (ε : EReal)) :=
  div_sqrt_eq_mul_rsqrt (variance_add_pos s d hc hε) y

/-- The single-precision word `0x44400000` denotes the real 768. -/
theorem ofBits_f32_768 : Ideal.ofBits .f32 0x44400000#32 = ((768 : ℝ) : EReal) := by
  simp [Ideal.ofBits, Ideal.ieee, -EReal.coe_mul]; norm_num

/-- The single-precision word `0x3727C5AC` (the nearest single to 1e-5) denotes the real 2748779 / 2^38. -/
theorem ofBits_f32_eps : Ideal.ofBits .f32 0x3727C5AC#32 = ((2748779 / 274877906944 : ℝ) : EReal) := by
  simp [Ideal.ofBits, Ideal.ieee, -EReal.coe_mul]; norm_num

end Cert.Lib

end
-- ==== Proof.LibBatchNorm.lean ====
/-
  Batch normalisation of a real column, on the extended reals.

  A batch norm takes a column `z` of `n` entries, its mean `m = (Σ z) / n` and its (biased) variance, adds a positive
  constant `ε`, and maps an entry `x` to `(x - m) · (1/√(var + ε)) · g + b`. One program computes the variance from the
  centred column, `var = (Σ (z - m)²) / n`, and normalises entry by entry in that order; another computes it from the
  two raw sums, `var = (Σ z²) / n - m · m`, folds the normalisation into one scale `g · (1/√(var + ε))` and one shift
  `b - m · scale` per column, and maps `x` to `x · scale + shift`. Over the reals the two variances are equal (expand
  the square and use that the column has exactly `n` entries), both are nonnegative, so the radicand is positive and
  the reciprocal square root is an ordinary positive real, and the two maps agree by distributivity.

  Distributivity and cancellation fail at the infinities of the extended reals, so the law is stated for REAL data:
  every entry of the column is (the coercion of) a real. Then every intermediate value of either program is the
  coercion of the corresponding real expression, and the two results are the same real, in particular neither
  infinity; so is its maximum with zero.
-/
import Idealize.ShloMosaic.PureOps.Ideal
import proofs.«102976_j3633542332749_1_alg».proof.Proof.LibLayerNorm

noncomputable section

namespace Cert.Lib.BatchNorm

open Idealize.ShloMosaic

variable {ι : Type*} [Fintype ι]

/-! ## Over the reals -/

/-- The mean of a real column `z` over the count `n`. -/
def mean (z : ι → ℝ) (n : ℝ) : ℝ := (∑ r, z r) / n

/-- The variance from the centred column: the mean of the squared deviations. -/
def varC (z : ι → ℝ) (n : ℝ) : ℝ := (∑ r, (z r - mean z n) * (z r - mean z n)) / n

/-- The variance from the raw sums: the mean of the squares minus the square of the mean. -/
def varU (z : ι → ℝ) (n : ℝ) : ℝ := (∑ r, z r * z r) / n - mean z n * mean z n

/-- The normalised entry: centre, multiply by the reciprocal root of "variance + ε", scale by `g`, shift by `b`. -/
def normed (z : ι → ℝ) (n ε g b x : ℝ) : ℝ := (x - mean z n) * (Real.sqrt (varC z n + ε))⁻¹ * g + b

/-- The two variances agree when `n` is the number of entries: `Σ (z - m)² = Σ z² - 2 m Σ z + n m²` and `Σ z = n m`. -/
theorem varU_eq_varC (z : ι → ℝ) {n : ℝ} (hcard : (Fintype.card ι : ℝ) = n) (hn : 0 < n) : varU z n = varC z n := by
  have hn0 : n ≠ 0 := hn.ne'
  have hexp : ∑ r, (z r - mean z n) * (z r - mean z n)
      = (∑ r, z r * z r) - 2 * mean z n * (∑ r, z r) + n * (mean z n * mean z n) := by
    have h1 : ∀ r, (z r - mean z n) * (z r - mean z n) = z r * z r - 2 * mean z n * z r + mean z n * mean z n :=
      fun r => by ring
    simp only [h1, Finset.sum_add_distrib, Finset.sum_sub_distrib, ← Finset.mul_sum, Finset.sum_const,
      Finset.card_univ, nsmul_eq_mul, hcard]
    ring
  unfold varU varC
  rw [hexp]
  unfold mean
  field_simp
  ring

/-- The centred variance is a mean of squares, so it is not negative. -/
theorem varC_nonneg (z : ι → ℝ) {n : ℝ} (hn : 0 < n) : 0 ≤ varC z n :=
  div_nonneg (Finset.sum_nonneg fun r _ => mul_self_nonneg _) hn.le

/-- So "variance + ε" is positive for a positive `ε`, -/
theorem varC_add_pos (z : ι → ℝ) {n ε : ℝ} (hn : 0 < n) (hε : 0 < ε) : 0 < varC z n + ε :=
  add_pos_of_nonneg_of_pos (varC_nonneg z hn) hε

/-- for the variance from the raw sums too. -/
theorem varU_add_pos (z : ι → ℝ) {n ε : ℝ} (hcard : (Fintype.card ι : ℝ) = n) (hn : 0 < n) (hε : 0 < ε) :
    0 < varU z n + ε := by
  rw [varU_eq_varC z hcard hn]; exact varC_add_pos z hn hε

/-- The reciprocal root of the radicand is a positive real. -/
theorem inv_sqrt_pos (z : ι → ℝ) {n ε : ℝ} (hn : 0 < n) (hε : 0 < ε) : 0 < (Real.sqrt (varC z n + ε))⁻¹ :=
  inv_pos.mpr (Real.sqrt_pos.mpr (varC_add_pos z hn hε))

/-- The folded map `x · scale + shift`, with `scale = g · ρ` and `shift = b - m · scale`, is the centred one. -/
theorem folded_eq_centred (m ρ g b x : ℝ) : x * (g * ρ) + (b - m * (g * ρ)) = (x - m) * ρ * g + b := by ring

/-- The folded map with the variance from the raw sums is the normalised entry. -/
theorem folded_eq_normed (z : ι → ℝ) {n : ℝ} (hcard : (Fintype.card ι : ℝ) = n) (hn : 0 < n) (ε g b x : ℝ) :
    x * (g * (Real.sqrt (varU z n + ε))⁻¹) + (b - mean z n * (g * (Real.sqrt (varU z n + ε))⁻¹))
      = normed z n ε g b x := by
  rw [varU_eq_varC z hcard hn]; unfold normed; ring

/-! ## Real expressions inside the extended reals -/

/-- The coercion of a finite real sum is the sum of the coercions. -/
theorem coe_sum {κ : Type*} (t : Finset κ) (f : κ → ℝ) : ((∑ r ∈ t, f r : ℝ) : EReal) = ∑ r ∈ t, (f r : EReal) := by
  classical
  refine Finset.induction_on t (by simp) fun a t ha ih => ?_
  rw [Finset.sum_insert ha, Finset.sum_insert ha, EReal.coe_add, ih]

/-- A sum of extended reals that are all real is the real sum. -/
theorem sum_eq_coe {κ : Type*} (t : Finset κ) (Z : κ → EReal) (z : κ → ℝ) (hZ : ∀ r, Z r = (z r : EReal)) :
    ∑ r ∈ t, Z r = ((∑ r ∈ t, z r : ℝ) : EReal) := by
  rw [coe_sum]; exact Finset.sum_congr rfl fun r _ => hZ r

/-- The coercion of a maximum of reals is the maximum of the coercions. -/
theorem coe_max (a b : ℝ) : ((max a b : ℝ) : EReal) = max (a : EReal) (b : EReal) :=
  EReal.coe_strictMono.monotone.map_max

/-- The quotient of two reals by the program's division, the divisor not zero, is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The reciprocal square root of a positive real is the real `1/√r`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The maximum of a real with zero is a real. -/
theorem max_coe_zero (a : ℝ) : max (a : EReal) 0 = ((max a 0 : ℝ) : EReal) := by
  rw [coe_max, EReal.coe_zero]

/-- The single-precision word `0x47435000` denotes the real 50000. -/
theorem ofBits_f32_50000 : Ideal.ofBits .f32 0x47435000#32 = ((50000 : ℝ) : EReal) := by
  simp [Ideal.ofBits, Ideal.ieee, -EReal.coe_mul]; norm_num

/-- The single-precision zero word denotes zero. -/
theorem ofBits_f32_zero : Ideal.ofBits .f32 0x00000000#32 = 0 := by simp [Ideal.ofBits, Ideal.ieee]

/-- The count as the centred program holds it — the word for 50000 minus the conversion of the signed integer word
    zero — is the real 50000. -/
theorem count_sub_zero :
    Ideal.ofBits .f32 0x47435000#32 - (((0#32 : BitVec 32).toInt : ℝ) : EReal) = ((50000 : ℝ) : EReal) := by
  rw [ofBits_f32_50000]; simp

/-- That count compares greater than the zero word: the guard on the centred program's variance is on. -/
theorem count_gt_zero : Ideal.cmp .ogt ((50000 : ℝ) : EReal) (Ideal.ofBits .f32 0x00000000#32) = 1#1 := by
  rw [ofBits_f32_zero]
  have h : (0 : EReal) < ((50000 : ℝ) : EReal) := by exact_mod_cast (by norm_num : (0 : ℝ) < 50000)
  simp [Ideal.cmp, h]

/-- The single-precision word nearest to 1e-5 denotes a positive real. -/
theorem eps_pos : (0 : ℝ) < 2748779 / 274877906944 := by norm_num

/-! ## The two programs at a real column

`Z` is the column as the programs hold it, `z` its real entries (`hZ`); `N` and `E` are the count and the constant as the
programs hold them, `n` and `ε` the reals they denote. -/

section Programs

variable (Z : ι → EReal) (z : ι → ℝ) (hZ : ∀ r, Z r = (z r : EReal))
variable {n ε : ℝ} (hcard : (Fintype.card ι : ℝ) = n) (hn : 0 < n) (hε : 0 < ε)
variable {N E : EReal} (hN : N = (n : EReal)) (hE : E = (ε : EReal))

include hZ hn hN in
/-- The mean either program computes, `(Σ Z) / N`, is the real mean. -/
theorem mean_coe {s : EReal} (hs : s = ∑ r, Z r) : Ideal.div s N = ((mean z n : ℝ) : EReal) := by
  rw [hs, hN, sum_eq_coe _ Z z hZ, div_coe_coe _ hn.ne']; rfl

include hZ hn hN in
/-- The mean of the squares, `(Σ Z·Z) / N`, is the real one. -/
theorem meanSq_coe {q : EReal} (hq : q = ∑ r, Z r * Z r) :
    Ideal.div q N = (((∑ r, z r * z r) / n : ℝ) : EReal) := by
  rw [hq, hN, sum_eq_coe _ (fun r => Z r * Z r) (fun r => z r * z r) (fun r => by rw [hZ r, EReal.coe_mul]),
    div_coe_coe _ hn.ne']

include hZ hcard hn hN in
/-- The variance from the raw sums, `(Σ Z·Z) / N - mean · mean`, is the real centred variance. -/
theorem varU_coe {s q : EReal} (hs : s = ∑ r, Z r) (hq : q = ∑ r, Z r * Z r) :
    Ideal.div q N - Ideal.div s N * Ideal.div s N = ((varC z n : ℝ) : EReal) := by
  rw [mean_coe Z z hZ hn hN hs, meanSq_coe Z z hZ hn hN hq, ← EReal.coe_mul, ← EReal.coe_sub,
    show (∑ r, z r * z r) / n - mean z n * mean z n = varU z n from rfl, varU_eq_varC z hcard hn]

include hZ hn hN in
/-- The variance from the centred column, `(Σ (Z - mean)·(Z - mean)) / D` with `D` the count again, is the real
    centred variance. -/
theorem varC_coe {s S D : EReal} (hs : s = ∑ r, Z r)
    (hS : S = ∑ r, (Z r - Ideal.div s N) * (Z r - Ideal.div s N)) (hD : D = (n : EReal)) :
    Ideal.div S D = ((varC z n : ℝ) : EReal) := by
  rw [hS, hD, sum_eq_coe _ (fun r => (Z r - Ideal.div s N) * (Z r - Ideal.div s N))
      (fun r => (z r - mean z n) * (z r - mean z n))
      (fun r => by rw [mean_coe Z z hZ hn hN hs, hZ r, ← EReal.coe_sub, ← EReal.coe_mul]),
    div_coe_coe _ hn.ne']; rfl

include hZ hcard hn hε hN hE in
/-- The folded program's scale, `g · rsqrt (varU + E)`, is the real `g / √(var + ε)`. -/
theorem scale_coe (g : ℝ) {s q : EReal} (hs : s = ∑ r, Z r) (hq : q = ∑ r, Z r * Z r) :
    (g : EReal) * Ideal.rsqrt (Ideal.div q N - Ideal.div s N * Ideal.div s N + E)
      = ((g * (Real.sqrt (varC z n + ε))⁻¹ : ℝ) : EReal) := by
  rw [varU_coe Z z hZ hcard hn hN hs hq, hE, ← EReal.coe_add, rsqrt_coe_pos (varC_add_pos z hn hε), ← EReal.coe_mul]

include hZ hcard hn hε hN hE in
/-- The folded program's shift, `b - mean · scale`, is the real `b - m · g / √(var + ε)`. -/
theorem shift_coe (g b : ℝ) {s q : EReal} (hs : s = ∑ r, Z r) (hq : q = ∑ r, Z r * Z r) :
    (b : EReal) - Ideal.div s N * ((g : EReal) * Ideal.rsqrt (Ideal.div q N - Ideal.div s N * Ideal.div s N + E))
      = ((b - mean z n * (g * (Real.sqrt (varC z n + ε))⁻¹) : ℝ) : EReal) := by
  rw [scale_coe Z z hZ hcard hn hε hN hE g hs hq, mean_coe Z z hZ hn hN hs, ← EReal.coe_mul, ← EReal.coe_sub]

/-- A real entry through a real scale and shift, then the maximum with zero, is a real. -/
theorem apply_coe (x sc sh : ℝ) :
    max ((x : EReal) * (sc : EReal) + (sh : EReal)) 0 = ((max (x * sc + sh) 0 : ℝ) : EReal) := by
  rw [← EReal.coe_mul, ← EReal.coe_add, max_coe_zero]

include hZ hcard hn hε hN hE in
/-- THE FOLDED PROGRAM at a real entry `x`: scale and shift from the raw sums, `x · scale + shift`, maximum with zero —
    is the real normalised entry's maximum with zero. -/
theorem folded_coe (g b x : ℝ) {s q : EReal} (hs : s = ∑ r, Z r) (hq : q = ∑ r, Z r * Z r) :
    max ((x : EReal) * ((g : EReal) * Ideal.rsqrt (Ideal.div q N - Ideal.div s N * Ideal.div s N + E))
        + ((b : EReal) - Ideal.div s N * ((g : EReal) * Ideal.rsqrt (Ideal.div q N - Ideal.div s N * Ideal.div s N + E)))) 0
      = ((max (normed z n ε g b x) 0 : ℝ) : EReal) := by
  rw [shift_coe Z z hZ hcard hn hε hN hE g b hs hq, scale_coe Z z hZ hcard hn hε hN hE g hs hq, apply_coe,
    folded_eq_centred]; rfl

include hZ hn hε hN hE in
/-- THE CENTRED PROGRAM at a real entry `x`: the variance from the centred column over the count `D`,
    `(x - mean) · rsqrt (var + E) · g + b`, maximum with zero — is the same real. -/
theorem centred_coe (g b x : ℝ) {s S D : EReal} (hs : s = ∑ r, Z r)
    (hS : S = ∑ r, (Z r - Ideal.div s N) * (Z r - Ideal.div s N)) (hD : D = (n : EReal)) :
    max (((x : EReal) - Ideal.div s N) * Ideal.rsqrt (Ideal.div S D + E) * (g : EReal) + (b : EReal)) 0
      = ((max (normed z n ε g b x) 0 : ℝ) : EReal) := by
  rw [varC_coe Z z hZ hn hN hs hS hD, mean_coe Z z hZ hn hN hs, hE, ← EReal.coe_add,
    rsqrt_coe_pos (varC_add_pos z hn hε), ← EReal.coe_sub, ← EReal.coe_mul, ← EReal.coe_mul, ← EReal.coe_add,
    max_coe_zero]; rfl

include hZ hcard hn hε hN hE in
/-- The two programs agree at a real column and a real entry. -/
theorem folded_eq_centred_coe (g b x : ℝ) {s q S D : EReal} (hs : s = ∑ r, Z r) (hq : q = ∑ r, Z r * Z r)
    (hS : S = ∑ r, (Z r - Ideal.div s N) * (Z r - Ideal.div s N)) (hD : D = (n : EReal)) :
    max ((x : EReal) * ((g : EReal) * Ideal.rsqrt (Ideal.div q N - Ideal.div s N * Ideal.div s N + E))
        + ((b : EReal) - Ideal.div s N * ((g : EReal) * Ideal.rsqrt (Ideal.div q N - Ideal.div s N * Ideal.div s N + E)))) 0
      = max (((x : EReal) - Ideal.div s N) * Ideal.rsqrt (Ideal.div S D + E) * (g : EReal) + (b : EReal)) 0 :=
  (folded_coe Z z hZ hcard hn hε hN hE g b x hs hq).trans (centred_coe Z z hZ hn hε hN hE g b x hs hS hD).symm

end Programs

/-- The coercion of a real is neither infinity. -/
theorem coe_real (a : ℝ) : (a : EReal) ≠ ⊤ ∧ (a : EReal) ≠ ⊥ := ⟨EReal.coe_ne_top a, EReal.coe_ne_bot a⟩

end Cert.Lib.BatchNorm

end
-- ==== Proof.RefRun.Apply.lean ====
import proofs.«102976_j3633542332749_1_alg».proof.Proof.RefRun.Value
import proofs.«102976_j3633542332749_1_alg».proof.Proof.Spec
import proofs.«102976_j3633542332749_1_alg».proof.Proof.LibPlainDot
import proofs.«102976_j3633542332749_1_alg».proof.Proof.LibBatchNorm
import Idealize.ShloMosaic.Lib.IdealHost
import Idealize.ShloMosaic.Lib.Pipeline.Value

noncomputable section

namespace Cert.ReferenceIdeal.RefRun

open Cert.ReferenceIdeal Cert.ReferenceIdeal.Gen Idealize.ShloMosaic Idealize.ShloMosaic.ValueIdx
open scoped BigOperators

/-! One layer of the reference read entry by entry on the extended reals: each host operation at an index, then the
    layer as the centred normalisation of a dense map of the centred normalisation of the first dense map. -/

/-- The row count as the programs hold it: the word for 50000. -/
abbrev cntN : EReal := Ideal.ofBits .f32 0x47435000#32
/-- The variance's divisor as the reference holds it: the word for 50000 less the signed integer word zero, converted. -/
abbrev cntD : EReal := Ideal.ofBits .f32 0x47435000#32 - (((0#32 : BitVec 32).toInt : ℝ) : EReal)
/-- The variance offset: the word nearest 1e-5. -/
abbrev epsE : EReal := Ideal.ofBits .f32 0x3727C5AC#32

/-- A dense map at row R, column j: row R of Y against column j of W, plus the bias. -/
def dense (Y : Fin 50000 → Fin 128 → EReal) (W : Fin 128 → Fin 128 → EReal) (B : Fin 128 → EReal)
    (R : Fin 50000) (j : Fin 128) : EReal :=
  (∑ k : Fin 128, Y R k * W k j) + B j

/-- A vector laid along every row reads its entry at the column. -/
theorem rows_apply (v : FVec Ideal S128 .f32) (R : Fin 50000) (j : Fin 128) : rows v (ix2 R j) = v (ix1 j) := by
  unfold rows
  rw [broadcastInDim_apply _ _ _ _ (ix2 (0 : Fin 1) j) (by intro a; fin_cases a <;> rfl),
    broadcastInDim_apply _ _ _ _ (ix1 j) (by intro a; fin_cases a <;> rfl)]

/-- The array of zeros reads zero. -/
theorem zeros_apply (i : S50000x128.Idx) : zeros (F := Ideal) i = 0 := by
  unfold zeros
  rw [broadcastInDim_scalar_apply]
  exact Ideal.ofBits_zero_f32

/-- The linear map at an entry: the row against the column, plus the bias. -/
theorem lin_apply (x : FVec Ideal S50000x128 .f32) (W : FVec Ideal S128x128 .f32) (b : FVec Ideal S128 .f32)
    (R : Fin 50000) (j : Fin 128) :
    lin x W b (ix2 R j) = (∑ k : Fin 128, x (ix2 R k) * W (ix2 k j)) + b (ix1 j) := by
  unfold lin
  rw [addf_apply, Cert.LibPlainDot.dotGeneral_plain_apply dot_S50000x128_S128x128_S50000x128_1_0_0_1_n_n rfl, rows_apply]

/-- The reduced index j with row R put back is (R, j). -/
theorem lift_rows (h : S50000x128.Reduces [0] S128) (j : Fin 128) (R : Fin (S50000x128.size 0)) :
    h.lift (ix1 j) R = ix2 (R : Fin 50000) j := by
  funext c; apply Fin.ext
  fin_cases c <;> rfl

/-- A sum over the rows from zero, at a column: the sum of the column's entries. -/
theorem sumRows_apply (x : FVec Ideal S50000x128 .f32) (j : Fin 128) :
    Host.reduceAdd x (constant S_ .f32 0x00000000#32) reducesTo_S50000x128_S128_d0 h_S_ (ix1 j)
      = ∑ R : Fin 50000, x (ix2 R j) := by
  have h : S50000x128.Reduces [0] S128 :=
    ⟨reducesTo_S50000x128_S128_d0.1, Nat.one_pos, reducesTo_S50000x128_S128_d0.2⟩
  rw [hostReduceAdd_apply, Ideal.hostReduceAdd_single reducesTo_S50000x128_S128_d0 h, constant_apply,
    Ideal.ofBits_zero_f32, zero_add]
  exact Finset.sum_congr rfl fun R _ => congrArg x (lift_rows h j R)

theorem colSum_apply (z : FVec Ideal S50000x128 .f32) (j : Fin 128) :
    colSum z (ix1 j) = ∑ R : Fin 50000, z (ix2 R j) := by
  unfold colSum; exact sumRows_apply z j

theorem colMean_apply (z : FVec Ideal S50000x128 .f32) (j : Fin 128) :
    colMean z (ix1 j) = Ideal.div (∑ R : Fin 50000, z (ix2 R j)) cntN := by
  unfold colMean
  rw [hostDivf_apply, colSum_apply, broadcastInDim_scalar_apply, constant_apply]

theorem varCount_apply : varCount (F := Ideal) ix0 = cntD := rfl

theorem centred_apply (z : FVec Ideal S50000x128 .f32) (R : Fin 50000) (j : Fin 128) :
    centred z (ix2 R j) = z (ix2 R j) - Ideal.div (∑ R' : Fin 50000, z (ix2 R' j)) cntN := by
  unfold centred
  rw [subf_apply, broadcastInDim_apply _ _ _ _ (ix2 (0 : Fin 1) j) (by intro a; fin_cases a <;> rfl),
    hostDivf_apply, broadcastInDim_apply _ _ _ _ (ix1 j) (by intro a; fin_cases a <;> rfl), colSum_apply,
    broadcastInDim_scalar_apply, constant_apply]

/-- The guard of the reference's variance is on: its divisor, 50000, is greater than zero. -/
theorem cntD_gt_zero : Ideal.cmp .ogt cntD (Ideal.ofBits .f32 0x00000000#32) = 1#1 := by
  show Ideal.cmp .ogt (Ideal.ofBits .f32 0x47435000#32 - (((0#32 : BitVec 32).toInt : ℝ) : EReal)) _ = _
  rw [Cert.Lib.BatchNorm.count_sub_zero]
  exact Cert.Lib.BatchNorm.count_gt_zero

theorem colVar_apply (z : FVec Ideal S50000x128 .f32) (j : Fin 128) :
    colVar z (ix1 j)
      = Ideal.div (∑ R : Fin 50000, (z (ix2 R j) - Ideal.div (∑ R' : Fin 50000, z (ix2 R' j)) cntN)
          * (z (ix2 R j) - Ideal.div (∑ R' : Fin 50000, z (ix2 R' j)) cntN)) cntD := by
  unfold colVar
  rw [select_apply, broadcastInDim_scalar_apply, cmpf_apply, varCount_apply, constant_apply, Ideal.cmpf_def, cntD_gt_zero,
    select_one, hostDivf_apply, sumRows_apply, broadcastInDim_scalar_apply, varCount_apply]
  simp only [mulf_apply, centred_apply]

theorem normRelu_apply (z : FVec Ideal S50000x128 .f32) (mean var g b : FVec Ideal S128 .f32) (R : Fin 50000) (j : Fin 128) :
    normRelu z mean var g b (ix2 R j)
      = max ((z (ix2 R j) - mean (ix1 j)) * Ideal.rsqrt (var (ix1 j) + epsE) * g (ix1 j) + b (ix1 j)) 0 := by
  unfold normRelu
  rw [maximumf_apply, addf_apply, mulf_apply, mulf_apply, subf_apply, rows_apply, rows_apply, rows_apply, rows_apply,
    zeros_apply]
  show max ((z (ix2 R j) - mean (ix1 j))
      * Ideal.rsqrt (var (ix1 j) + broadcastInDim S128 ![] bcast_S_S128 (constant (F := Ideal) S_ .f32 0x3727C5AC#32) (ix1 j))
      * g (ix1 j) + b (ix1 j)) 0 = _
  rw [broadcastInDim_scalar_apply, constant_apply]

/-- Batch normalisation with the positive part, at an entry: the centred arrangement of the column. -/
theorem bnRelu_apply (z : FVec Ideal S50000x128 .f32) (g b : FVec Ideal S128 .f32) (R : Fin 50000) (j : Fin 128) :
    bnRelu z g b (ix2 R j)
      = Cert.Spec.normC (fun R k => z (ix2 R k)) (fun k => g (ix1 k)) (fun k => b (ix1 k)) cntN cntD epsE R j := by
  unfold bnRelu
  rw [normRelu_apply, colMean_apply, colVar_apply]
  rfl

/-- ONE LAYER at an entry. With X the input's entries, G the neighbour sums' (the gather and scatter-add kept whole),
    z1 the first dense map of X + G, y1 its centred normalisation with the positive part, z2 the dense map of y1:
    the layer's output at (R, j) is the centred normalisation of z2 with the positive part, there. -/
theorem refLayer_apply (h : FVec Ideal S50000x128 .f32) (sc dc : IVec S600000x1 32)
    (W1 : FVec Ideal S128x128 .f32) (b1 : FVec Ideal S128 .f32) (W2 : FVec Ideal S128x128 .f32) (b2 : FVec Ideal S128 .f32)
    (gmid bmid gout bout : FVec Ideal S128 .f32) (R : Fin 50000) (j : Fin 128) :
    refLayer h sc dc W1 b1 W2 b2 gmid bmid gout bout (ix2 R j)
      = Cert.Spec.normC
          (dense
            (Cert.Spec.normC
              (Cert.Spec.dense1 (fun R k => h (ix2 R k)) (fun R k => agg h sc dc (ix2 R k))
                (fun k j => W1 (ix2 k j)) (fun j => b1 (ix1 j)))
              (fun k => gmid (ix1 k)) (fun k => bmid (ix1 k)) cntN cntD epsE)
            (fun k j => W2 (ix2 k j)) (fun j => b2 (ix1 j)))
          (fun k => gout (ix1 k)) (fun k => bout (ix1 k)) cntN cntD epsE R j := by
  have e1 : (fun R k => lin (addf h (agg h sc dc)) W1 b1 (ix2 R k))
      = Cert.Spec.dense1 (fun R k => h (ix2 R k)) (fun R k => agg h sc dc (ix2 R k))
          (fun k j => W1 (ix2 k j)) (fun j => b1 (ix1 j)) := by
    funext R k
    rw [lin_apply]
    rfl
  have e2 : (fun R k => lin (bnRelu (lin (addf h (agg h sc dc)) W1 b1) gmid bmid) W2 b2 (ix2 R k))
      = dense (Cert.Spec.normC
              (Cert.Spec.dense1 (fun R k => h (ix2 R k)) (fun R k => agg h sc dc (ix2 R k))
                (fun k j => W1 (ix2 k j)) (fun j => b1 (ix1 j)))
              (fun k => gmid (ix1 k)) (fun k => bmid (ix1 k)) cntN cntD epsE)
            (fun k j => W2 (ix2 k j)) (fun j => b2 (ix1 j)) := by
    funext R k
    rw [lin_apply]
    simp only [bnRelu_apply, e1]
    rfl
  unfold refLayer
  rw [bnRelu_apply, e2]

end Cert.ReferenceIdeal.RefRun

end
-- ==== Proof.RefRun.Layers.lean ====
import proofs.«102976_j3633542332749_1_alg».proof.Proof.RefRun.Read
import proofs.«102976_j3633542332749_1_alg».proof.Proof.RefRun.Apply

noncomputable section

namespace Cert.ReferenceIdeal.RefRun

open Cert.ReferenceIdeal Cert.ReferenceIdeal.Gen Idealize.ShloMosaic Idealize.ShloMosaic.TcCoe Idealize.SL.Sem
open Idealize.ShloMosaic.StableHlo Idealize.ShloMosaic.ValueIdx
open scoped BigOperators

/-! The four layers of the reference at an entry, over the entries of the argument arrays as the program finds them. -/

variable {F : FTy → Type} [FloatOps F]

/-- Matrix `i` of a stack of four, at (k, j), is the stack at (i, k, j). -/
theorem matAt_apply (A : FVec F S4x128x128 .f32) (i : Fin 4) (h : S4x128x128.Slices ![(i : ℕ), 0, 0] S1x128x128)
    (k j : Fin 128) : matAt A i h (ix2 k j) = A (ix3 i k j) := by
  unfold matAt
  refine (shapeCast_apply _ _ (ix2 k j) (ix3 0 k j) (by
    rw [Shape.rowMajor_val_two, Shape.rowMajor_val_three]
    show (0 * 128 + k.val) * 128 + j.val = k.val * 128 + j.val; omega)).trans ?_
  exact extractStridedSlice_apply _ A h (ix3 0 k j) (ix3 i k j) fun a => by
    match a with
    | ⟨0, _⟩ => show i.val = i.val + 0; omega
    | ⟨1, _⟩ => show k.val = 0 + k.val; omega
    | ⟨2, _⟩ => show j.val = 0 + j.val; omega

/-- Vector `i` of a stack of four, at j, is the stack at (i, j). -/
theorem vecAt_apply (A : FVec F S4x128 .f32) (i : Fin 4) (h : S4x128.Slices ![(i : ℕ), 0] S1x128) (j : Fin 128) :
    vecAt A i h (ix1 j) = A (ix2 i j) := by
  unfold vecAt
  refine (shapeCast_apply _ _ (ix1 j) (ix2 0 j) (by
    rw [Shape.rowMajor_val_two, Shape.rowMajor_val_one]
    show 0 * 128 + j.val = j.val; omega)).trans ?_
  exact extractStridedSlice_apply _ A h (ix2 0 j) (ix2 i j) fun a => by
    match a with
    | ⟨0, _⟩ => show i.val = i.val + 0; omega
    | ⟨1, _⟩ => show j.val = 0 + j.val; omega

/-- The row count's word denotes 50000, -/
theorem cntN_eq : cntN = ((50000 : ℝ) : EReal) := Cert.Lib.BatchNorm.ofBits_f32_50000
/-- so does the variance's divisor, -/
theorem cntD_eq : cntD = ((50000 : ℝ) : EReal) := Cert.Lib.BatchNorm.count_sub_zero
/-- and the variance offset's word denotes 2748779 / 2^38. -/
theorem epsE_eq : epsE = ((2748779 / 274877906944 : ℝ) : EReal) := Cert.Lib.ofBits_f32_eps

/-- Layer 0's output at an entry, over the argument arrays' entries: the centred normalisation of the dense map of the
    centred normalisation of the first dense map of the node features plus its neighbour sums. -/
theorem ref_layer0 (V : Valuation τ sig (Elt Ideal)) (R : Fin 50000) (j : Fin 128) :
    (after ops V (Proc.devRef .tc main_v78) : S50000x128.Idx → EReal) (ix2 R j)
      = Cert.Spec.normC
          (dense
            (Cert.Spec.normC
              (Cert.Spec.dense1 (fun R k => (V (Proc.devRef .tc main_arg0) : S50000x128.Idx → EReal) (ix2 R k))
                (fun R k => agg (F := Ideal) (V (Proc.devRef .tc main_arg0)) (srcCol (V (Proc.devRef .tc main_arg1))) (dstCol (V (Proc.devRef .tc main_arg1))) (ix2 R k))
                (fun k j => (V (Proc.devRef .tc main_arg3) : S4x128x128.Idx → EReal) (ix3 (0 : Fin 4) k j)) (fun j => (V (Proc.devRef .tc main_arg4) : S4x128.Idx → EReal) (ix2 (0 : Fin 4) j)))
              (fun k => (V (Proc.devRef .tc main_arg7) : S4x128.Idx → EReal) (ix2 (0 : Fin 4) k)) (fun k => (V (Proc.devRef .tc main_arg8) : S4x128.Idx → EReal) (ix2 (0 : Fin 4) k)) cntN cntD epsE)
            (fun k j => (V (Proc.devRef .tc main_arg5) : S4x128x128.Idx → EReal) (ix3 (0 : Fin 4) k j)) (fun j => (V (Proc.devRef .tc main_arg6) : S4x128.Idx → EReal) (ix2 (0 : Fin 4) j)))
          (fun k => (V (Proc.devRef .tc main_arg9) : S4x128.Idx → EReal) (ix2 (0 : Fin 4) k)) (fun k => (V (Proc.devRef .tc main_arg10) : S4x128.Idx → EReal) (ix2 (0 : Fin 4) k)) cntN cntD epsE R j := by
  have m3 : ∀ k j : Fin 128, matAt (F := Ideal) (V (Proc.devRef .tc main_arg3)) 0 slices_S4x128x128_S1x128x128_0_0_0 (ix2 k j) = (V (Proc.devRef .tc main_arg3) : S4x128x128.Idx → EReal) (ix3 (0 : Fin 4) k j) :=
    fun k j => matAt_apply (F := Ideal) (V (Proc.devRef .tc main_arg3)) (0 : Fin 4) slices_S4x128x128_S1x128x128_0_0_0 k j
  have m5 : ∀ k j : Fin 128, matAt (F := Ideal) (V (Proc.devRef .tc main_arg5)) 0 slices_S4x128x128_S1x128x128_0_0_0 (ix2 k j) = (V (Proc.devRef .tc main_arg5) : S4x128x128.Idx → EReal) (ix3 (0 : Fin 4) k j) :=
    fun k j => matAt_apply (F := Ideal) (V (Proc.devRef .tc main_arg5)) (0 : Fin 4) slices_S4x128x128_S1x128x128_0_0_0 k j
  have v4 : ∀ j : Fin 128, vecAt (F := Ideal) (V (Proc.devRef .tc main_arg4)) 0 slices_S4x128_S1x128_0_0 (ix1 j) = (V (Proc.devRef .tc main_arg4) : S4x128.Idx → EReal) (ix2 (0 : Fin 4) j) :=
    fun j => vecAt_apply (F := Ideal) (V (Proc.devRef .tc main_arg4)) (0 : Fin 4) slices_S4x128_S1x128_0_0 j
  have v6 : ∀ j : Fin 128, vecAt (F := Ideal) (V (Proc.devRef .tc main_arg6)) 0 slices_S4x128_S1x128_0_0 (ix1 j) = (V (Proc.devRef .tc main_arg6) : S4x128.Idx → EReal) (ix2 (0 : Fin 4) j) :=
    fun j => vecAt_apply (F := Ideal) (V (Proc.devRef .tc main_arg6)) (0 : Fin 4) slices_S4x128_S1x128_0_0 j
  have v7 : ∀ j : Fin 128, vecAt (F := Ideal) (V (Proc.devRef .tc main_arg7)) 0 slices_S4x128_S1x128_0_0 (ix1 j) = (V (Proc.devRef .tc main_arg7) : S4x128.Idx → EReal) (ix2 (0 : Fin 4) j) :=
    fun j => vecAt_apply (F := Ideal) (V (Proc.devRef .tc main_arg7)) (0 : Fin 4) slices_S4x128_S1x128_0_0 j
  have v8 : ∀ j : Fin 128, vecAt (F := Ideal) (V (Proc.devRef .tc main_arg8)) 0 slices_S4x128_S1x128_0_0 (ix1 j) = (V (Proc.devRef .tc main_arg8) : S4x128.Idx → EReal) (ix2 (0 : Fin 4) j) :=
    fun j => vecAt_apply (F := Ideal) (V (Proc.devRef .tc main_arg8)) (0 : Fin 4) slices_S4x128_S1x128_0_0 j
  have v9 : ∀ j : Fin 128, vecAt (F := Ideal) (V (Proc.devRef .tc main_arg9)) 0 slices_S4x128_S1x128_0_0 (ix1 j) = (V (Proc.devRef .tc main_arg9) : S4x128.Idx → EReal) (ix2 (0 : Fin 4) j) :=
    fun j => vecAt_apply (F := Ideal) (V (Proc.devRef .tc main_arg9)) (0 : Fin 4) slices_S4x128_S1x128_0_0 j
  have v10 : ∀ j : Fin 128, vecAt (F := Ideal) (V (Proc.devRef .tc main_arg10)) 0 slices_S4x128_S1x128_0_0 (ix1 j) = (V (Proc.devRef .tc main_arg10) : S4x128.Idx → EReal) (ix2 (0 : Fin 4) j) :=
    fun j => vecAt_apply (F := Ideal) (V (Proc.devRef .tc main_arg10)) (0 : Fin 4) slices_S4x128_S1x128_0_0 j
  rw [layer_out0 V, refLayer_apply]
  simp only [m3, m5, v4, v6, v7, v8, v9, v10]

/-- Layer 1's output at an entry, over the argument arrays' entries: the centred normalisation of the dense map of the
    centred normalisation of the first dense map of layer 0's output plus its neighbour sums. -/
theorem ref_layer1 (V : Valuation τ sig (Elt Ideal)) (R : Fin 50000) (j : Fin 128) :
    (after ops V (Proc.devRef .tc main_v153) : S50000x128.Idx → EReal) (ix2 R j)
      = Cert.Spec.normC
          (dense
            (Cert.Spec.normC
              (Cert.Spec.dense1 (fun R k => (after ops V (Proc.devRef .tc main_v78) : S50000x128.Idx → EReal) (ix2 R k))
                (fun R k => agg (F := Ideal) (after ops V (Proc.devRef .tc main_v78)) (srcCol (V (Proc.devRef .tc main_arg1))) (dstCol (V (Proc.devRef .tc main_arg1))) (ix2 R k))
                (fun k j => (V (Proc.devRef .tc main_arg3) : S4x128x128.Idx → EReal) (ix3 (1 : Fin 4) k j)) (fun j => (V (Proc.devRef .tc main_arg4) : S4x128.Idx → EReal) (ix2 (1 : Fin 4) j)))
              (fun k => (V (Proc.devRef .tc main_arg7) : S4x128.Idx → EReal) (ix2 (1 : Fin 4) k)) (fun k => (V (Proc.devRef .tc main_arg8) : S4x128.Idx → EReal) (ix2 (1 : Fin 4) k)) cntN cntD epsE)
            (fun k j => (V (Proc.devRef .tc main_arg5) : S4x128x128.Idx → EReal) (ix3 (1 : Fin 4) k j)) (fun j => (V (Proc.devRef .tc main_arg6) : S4x128.Idx → EReal) (ix2 (1 : Fin 4) j)))
          (fun k => (V (Proc.devRef .tc main_arg9) : S4x128.Idx → EReal) (ix2 (1 : Fin 4) k)) (fun k => (V (Proc.devRef .tc main_arg10) : S4x128.Idx → EReal) (ix2 (1 : Fin 4) k)) cntN cntD epsE R j := by
  have m3 : ∀ k j : Fin 128, matAt (F := Ideal) (V (Proc.devRef .tc main_arg3)) 1 slices_S4x128x128_S1x128x128_1_0_0 (ix2 k j) = (V (Proc.devRef .tc main_arg3) : S4x128x128.Idx → EReal) (ix3 (1 : Fin 4) k j) :=
    fun k j => matAt_apply (F := Ideal) (V (Proc.devRef .tc main_arg3)) (1 : Fin 4) slices_S4x128x128_S1x128x128_1_0_0 k j
  have m5 : ∀ k j : Fin 128, matAt (F := Ideal) (V (Proc.devRef .tc main_arg5)) 1 slices_S4x128x128_S1x128x128_1_0_0 (ix2 k j) = (V (Proc.devRef .tc main_arg5) : S4x128x128.Idx → EReal) (ix3 (1 : Fin 4) k j) :=
    fun k j => matAt_apply (F := Ideal) (V (Proc.devRef .tc main_arg5)) (1 : Fin 4) slices_S4x128x128_S1x128x128_1_0_0 k j
  have v4 : ∀ j : Fin 128, vecAt (F := Ideal) (V (Proc.devRef .tc main_arg4)) 1 slices_S4x128_S1x128_1_0 (ix1 j) = (V (Proc.devRef .tc main_arg4) : S4x128.Idx → EReal) (ix2 (1 : Fin 4) j) :=
    fun j => vecAt_apply (F := Ideal) (V (Proc.devRef .tc main_arg4)) (1 : Fin 4) slices_S4x128_S1x128_1_0 j
  have v6 : ∀ j : Fin 128, vecAt (F := Ideal) (V (Proc.devRef .tc main_arg6)) 1 slices_S4x128_S1x128_1_0 (ix1 j) = (V (Proc.devRef .tc main_arg6) : S4x128.Idx → EReal) (ix2 (1 : Fin 4) j) :=
    fun j => vecAt_apply (F := Ideal) (V (Proc.devRef .tc main_arg6)) (1 : Fin 4) slices_S4x128_S1x128_1_0 j
  have v7 : ∀ j : Fin 128, vecAt (F := Ideal) (V (Proc.devRef .tc main_arg7)) 1 slices_S4x128_S1x128_1_0 (ix1 j) = (V (Proc.devRef .tc main_arg7) : S4x128.Idx → EReal) (ix2 (1 : Fin 4) j) :=
    fun j => vecAt_apply (F := Ideal) (V (Proc.devRef .tc main_arg7)) (1 : Fin 4) slices_S4x128_S1x128_1_0 j
  have v8 : ∀ j : Fin 128, vecAt (F := Ideal) (V (Proc.devRef .tc main_arg8)) 1 slices_S4x128_S1x128_1_0 (ix1 j) = (V (Proc.devRef .tc main_arg8) : S4x128.Idx → EReal) (ix2 (1 : Fin 4) j) :=
    fun j => vecAt_apply (F := Ideal) (V (Proc.devRef .tc main_arg8)) (1 : Fin 4) slices_S4x128_S1x128_1_0 j
  have v9 : ∀ j : Fin 128, vecAt (F := Ideal) (V (Proc.devRef .tc main_arg9)) 1 slices_S4x128_S1x128_1_0 (ix1 j) = (V (Proc.devRef .tc main_arg9) : S4x128.Idx → EReal) (ix2 (1 : Fin 4) j) :=
    fun j => vecAt_apply (F := Ideal) (V (Proc.devRef .tc main_arg9)) (1 : Fin 4) slices_S4x128_S1x128_1_0 j
  have v10 : ∀ j : Fin 128, vecAt (F := Ideal) (V (Proc.devRef .tc main_arg10)) 1 slices_S4x128_S1x128_1_0 (ix1 j) = (V (Proc.devRef .tc main_arg10) : S4x128.Idx → EReal) (ix2 (1 : Fin 4) j) :=
    fun j => vecAt_apply (F := Ideal) (V (Proc.devRef .tc main_arg10)) (1 : Fin 4) slices_S4x128_S1x128_1_0 j
  rw [layer_out1 V, refLayer_apply]
  simp only [m3, m5, v4, v6, v7, v8, v9, v10]

/-- Layer 2's output at an entry, over the argument arrays' entries: the centred normalisation of the dense map of the
    centred normalisation of the first dense map of layer 1's output plus its neighbour sums. -/
theorem ref_layer2 (V : Valuation τ sig (Elt Ideal)) (R : Fin 50000) (j : Fin 128) :
    (after ops V (Proc.devRef .tc main_v228) : S50000x128.Idx → EReal) (ix2 R j)
      = Cert.Spec.normC
          (dense
            (Cert.Spec.normC
              (Cert.Spec.dense1 (fun R k => (after ops V (Proc.devRef .tc main_v153) : S50000x128.Idx → EReal) (ix2 R k))
                (fun R k => agg (F := Ideal) (after ops V (Proc.devRef .tc main_v153)) (srcCol (V (Proc.devRef .tc main_arg1))) (dstCol (V (Proc.devRef .tc main_arg1))) (ix2 R k))
                (fun k j => (V (Proc.devRef .tc main_arg3) : S4x128x128.Idx → EReal) (ix3 (2 : Fin 4) k j)) (fun j => (V (Proc.devRef .tc main_arg4) : S4x128.Idx → EReal) (ix2 (2 : Fin 4) j)))
              (fun k => (V (Proc.devRef .tc main_arg7) : S4x128.Idx → EReal) (ix2 (2 : Fin 4) k)) (fun k => (V (Proc.devRef .tc main_arg8) : S4x128.Idx → EReal) (ix2 (2 : Fin 4) k)) cntN cntD epsE)
            (fun k j => (V (Proc.devRef .tc main_arg5) : S4x128x128.Idx → EReal) (ix3 (2 : Fin 4) k j)) (fun j => (V (Proc.devRef .tc main_arg6) : S4x128.Idx → EReal) (ix2 (2 : Fin 4) j)))
          (fun k => (V (Proc.devRef .tc main_arg9) : S4x128.Idx → EReal) (ix2 (2 : Fin 4) k)) (fun k => (V (Proc.devRef .tc main_arg10) : S4x128.Idx → EReal) (ix2 (2 : Fin 4) k)) cntN cntD epsE R j := by
  have m3 : ∀ k j : Fin 128, matAt (F := Ideal) (V (Proc.devRef .tc main_arg3)) 2 slices_S4x128x128_S1x128x128_2_0_0 (ix2 k j) = (V (Proc.devRef .tc main_arg3) : S4x128x128.Idx → EReal) (ix3 (2 : Fin 4) k j) :=
    fun k j => matAt_apply (F := Ideal) (V (Proc.devRef .tc main_arg3)) (2 : Fin 4) slices_S4x128x128_S1x128x128_2_0_0 k j
  have m5 : ∀ k j : Fin 128, matAt (F := Ideal) (V (Proc.devRef .tc main_arg5)) 2 slices_S4x128x128_S1x128x128_2_0_0 (ix2 k j) = (V (Proc.devRef .tc main_arg5) : S4x128x128.Idx → EReal) (ix3 (2 : Fin 4) k j) :=
    fun k j => matAt_apply (F := Ideal) (V (Proc.devRef .tc main_arg5)) (2 : Fin 4) slices_S4x128x128_S1x128x128_2_0_0 k j
  have v4 : ∀ j : Fin 128, vecAt (F := Ideal) (V (Proc.devRef .tc main_arg4)) 2 slices_S4x128_S1x128_2_0 (ix1 j) = (V (Proc.devRef .tc main_arg4) : S4x128.Idx → EReal) (ix2 (2 : Fin 4) j) :=
    fun j => vecAt_apply (F := Ideal) (V (Proc.devRef .tc main_arg4)) (2 : Fin 4) slices_S4x128_S1x128_2_0 j
  have v6 : ∀ j : Fin 128, vecAt (F := Ideal) (V (Proc.devRef .tc main_arg6)) 2 slices_S4x128_S1x128_2_0 (ix1 j) = (V (Proc.devRef .tc main_arg6) : S4x128.Idx → EReal) (ix2 (2 : Fin 4) j) :=
    fun j => vecAt_apply (F := Ideal) (V (Proc.devRef .tc main_arg6)) (2 : Fin 4) slices_S4x128_S1x128_2_0 j
  have v7 : ∀ j : Fin 128, vecAt (F := Ideal) (V (Proc.devRef .tc main_arg7)) 2 slices_S4x128_S1x128_2_0 (ix1 j) = (V (Proc.devRef .tc main_arg7) : S4x128.Idx → EReal) (ix2 (2 : Fin 4) j) :=
    fun j => vecAt_apply (F := Ideal) (V (Proc.devRef .tc main_arg7)) (2 : Fin 4) slices_S4x128_S1x128_2_0 j
  have v8 : ∀ j : Fin 128, vecAt (F := Ideal) (V (Proc.devRef .tc main_arg8)) 2 slices_S4x128_S1x128_2_0 (ix1 j) = (V (Proc.devRef .tc main_arg8) : S4x128.Idx → EReal) (ix2 (2 : Fin 4) j) :=
    fun j => vecAt_apply (F := Ideal) (V (Proc.devRef .tc main_arg8)) (2 : Fin 4) slices_S4x128_S1x128_2_0 j
  have v9 : ∀ j : Fin 128, vecAt (F := Ideal) (V (Proc.devRef .tc main_arg9)) 2 slices_S4x128_S1x128_2_0 (ix1 j) = (V (Proc.devRef .tc main_arg9) : S4x128.Idx → EReal) (ix2 (2 : Fin 4) j) :=
    fun j => vecAt_apply (F := Ideal) (V (Proc.devRef .tc main_arg9)) (2 : Fin 4) slices_S4x128_S1x128_2_0 j
  have v10 : ∀ j : Fin 128, vecAt (F := Ideal) (V (Proc.devRef .tc main_arg10)) 2 slices_S4x128_S1x128_2_0 (ix1 j) = (V (Proc.devRef .tc main_arg10) : S4x128.Idx → EReal) (ix2 (2 : Fin 4) j) :=
    fun j => vecAt_apply (F := Ideal) (V (Proc.devRef .tc main_arg10)) (2 : Fin 4) slices_S4x128_S1x128_2_0 j
  rw [layer_out2 V, refLayer_apply]
  simp only [m3, m5, v4, v6, v7, v8, v9, v10]

/-- Layer 3's output at an entry, over the argument arrays' entries: the centred normalisation of the dense map of the
    centred normalisation of the first dense map of layer 2's output plus its neighbour sums. -/
theorem ref_layer3 (V : Valuation τ sig (Elt Ideal)) (R : Fin 50000) (j : Fin 128) :
    (after ops V (Proc.devRef .tc main_v303) : S50000x128.Idx → EReal) (ix2 R j)
      = Cert.Spec.normC
          (dense
            (Cert.Spec.normC
              (Cert.Spec.dense1 (fun R k => (after ops V (Proc.devRef .tc main_v228) : S50000x128.Idx → EReal) (ix2 R k))
                (fun R k => agg (F := Ideal) (after ops V (Proc.devRef .tc main_v228)) (srcCol (V (Proc.devRef .tc main_arg1))) (dstCol (V (Proc.devRef .tc main_arg1))) (ix2 R k))
                (fun k j => (V (Proc.devRef .tc main_arg3) : S4x128x128.Idx → EReal) (ix3 (3 : Fin 4) k j)) (fun j => (V (Proc.devRef .tc main_arg4) : S4x128.Idx → EReal) (ix2 (3 : Fin 4) j)))
              (fun k => (V (Proc.devRef .tc main_arg7) : S4x128.Idx → EReal) (ix2 (3 : Fin 4) k)) (fun k => (V (Proc.devRef .tc main_arg8) : S4x128.Idx → EReal) (ix2 (3 : Fin 4) k)) cntN cntD epsE)
            (fun k j => (V (Proc.devRef .tc main_arg5) : S4x128x128.Idx → EReal) (ix3 (3 : Fin 4) k j)) (fun j => (V (Proc.devRef .tc main_arg6) : S4x128.Idx → EReal) (ix2 (3 : Fin 4) j)))
          (fun k => (V (Proc.devRef .tc main_arg9) : S4x128.Idx → EReal) (ix2 (3 : Fin 4) k)) (fun k => (V (Proc.devRef .tc main_arg10) : S4x128.Idx → EReal) (ix2 (3 : Fin 4) k)) cntN cntD epsE R j := by
  have m3 : ∀ k j : Fin 128, matAt (F := Ideal) (V (Proc.devRef .tc main_arg3)) 3 slices_S4x128x128_S1x128x128_3_0_0 (ix2 k j) = (V (Proc.devRef .tc main_arg3) : S4x128x128.Idx → EReal) (ix3 (3 : Fin 4) k j) :=
    fun k j => matAt_apply (F := Ideal) (V (Proc.devRef .tc main_arg3)) (3 : Fin 4) slices_S4x128x128_S1x128x128_3_0_0 k j
  have m5 : ∀ k j : Fin 128, matAt (F := Ideal) (V (Proc.devRef .tc main_arg5)) 3 slices_S4x128x128_S1x128x128_3_0_0 (ix2 k j) = (V (Proc.devRef .tc main_arg5) : S4x128x128.Idx → EReal) (ix3 (3 : Fin 4) k j) :=
    fun k j => matAt_apply (F := Ideal) (V (Proc.devRef .tc main_arg5)) (3 : Fin 4) slices_S4x128x128_S1x128x128_3_0_0 k j
  have v4 : ∀ j : Fin 128, vecAt (F := Ideal) (V (Proc.devRef .tc main_arg4)) 3 slices_S4x128_S1x128_3_0 (ix1 j) = (V (Proc.devRef .tc main_arg4) : S4x128.Idx → EReal) (ix2 (3 : Fin 4) j) :=
    fun j => vecAt_apply (F := Ideal) (V (Proc.devRef .tc main_arg4)) (3 : Fin 4) slices_S4x128_S1x128_3_0 j
  have v6 : ∀ j : Fin 128, vecAt (F := Ideal) (V (Proc.devRef .tc main_arg6)) 3 slices_S4x128_S1x128_3_0 (ix1 j) = (V (Proc.devRef .tc main_arg6) : S4x128.Idx → EReal) (ix2 (3 : Fin 4) j) :=
    fun j => vecAt_apply (F := Ideal) (V (Proc.devRef .tc main_arg6)) (3 : Fin 4) slices_S4x128_S1x128_3_0 j
  have v7 : ∀ j : Fin 128, vecAt (F := Ideal) (V (Proc.devRef .tc main_arg7)) 3 slices_S4x128_S1x128_3_0 (ix1 j) = (V (Proc.devRef .tc main_arg7) : S4x128.Idx → EReal) (ix2 (3 : Fin 4) j) :=
    fun j => vecAt_apply (F := Ideal) (V (Proc.devRef .tc main_arg7)) (3 : Fin 4) slices_S4x128_S1x128_3_0 j
  have v8 : ∀ j : Fin 128, vecAt (F := Ideal) (V (Proc.devRef .tc main_arg8)) 3 slices_S4x128_S1x128_3_0 (ix1 j) = (V (Proc.devRef .tc main_arg8) : S4x128.Idx → EReal) (ix2 (3 : Fin 4) j) :=
    fun j => vecAt_apply (F := Ideal) (V (Proc.devRef .tc main_arg8)) (3 : Fin 4) slices_S4x128_S1x128_3_0 j
  have v9 : ∀ j : Fin 128, vecAt (F := Ideal) (V (Proc.devRef .tc main_arg9)) 3 slices_S4x128_S1x128_3_0 (ix1 j) = (V (Proc.devRef .tc main_arg9) : S4x128.Idx → EReal) (ix2 (3 : Fin 4) j) :=
    fun j => vecAt_apply (F := Ideal) (V (Proc.devRef .tc main_arg9)) (3 : Fin 4) slices_S4x128_S1x128_3_0 j
  have v10 : ∀ j : Fin 128, vecAt (F := Ideal) (V (Proc.devRef .tc main_arg10)) 3 slices_S4x128_S1x128_3_0 (ix1 j) = (V (Proc.devRef .tc main_arg10) : S4x128.Idx → EReal) (ix2 (3 : Fin 4) j) :=
    fun j => vecAt_apply (F := Ideal) (V (Proc.devRef .tc main_arg10)) (3 : Fin 4) slices_S4x128_S1x128_3_0 j
  rw [layer_out3 V, refLayer_apply]
  simp only [m3, m5, v4, v6, v7, v8, v9, v10]

end Cert.ReferenceIdeal.RefRun

end
-- ==== Proof.Agree.lean ====
/-
  The two programs spell the neighbour sum, the two index columns of the edge list, and the whole closing part (pooling
  by segment sums, the five classifier products with their biases, the log-softmax) with the same host operations over
  the same shapes: the kernel program's terms and the reference's are one and the same function.
-/
import proofs.«102976_j3633542332749_1_alg».proof.Proof.KI.Stages2
import proofs.«102976_j3633542332749_1_alg».proof.Proof.RefRun.Value
set_option maxRecDepth 16384
noncomputable section
namespace Cert.Bridge
open Idealize.ShloMosaic
variable {F : FTy → Type} [FloatOps F]
theorem agg_agree (h : FVec F Cert.KernelIdeal.S50000x128 .f32) (sc dc : IVec Cert.KernelIdeal.S600000x1 32) :
    Cert.KernelIdeal.Hand.aggOf h sc dc = Cert.ReferenceIdeal.RefRun.agg h sc dc := rfl
theorem srcCol_agree (e : IVec Cert.KernelIdeal.S2x600000 32) :
    Cert.KernelIdeal.Hand.srcColOf (Cert.KernelIdeal.Hand.edgeRow e 0 Cert.KernelIdeal.Gen.slices_S2x600000_S1x600000_0_0) = Cert.ReferenceIdeal.RefRun.srcCol e := rfl
theorem dstCol_agree (e : IVec Cert.KernelIdeal.S2x600000 32) :
    Cert.KernelIdeal.Hand.dstColOf (Cert.KernelIdeal.Hand.edgeRow e 1 Cert.KernelIdeal.Gen.slices_S2x600000_S1x600000_1_0) = Cert.ReferenceIdeal.RefRun.dstCol e := rfl
theorem tail_agree (h0 h1 h2 h3 h4 : FVec F Cert.KernelIdeal.S50000x128 .f32) (b : IVec Cert.KernelIdeal.S50000 32)
    (fcW : FVec F Cert.KernelIdeal.S5x128x10 .f32) (fcb : FVec F Cert.KernelIdeal.S5x10 .f32) :
    Cert.KernelIdeal.Hand.tailOf h0 h1 h2 h3 h4 b fcW fcb
      = Cert.ReferenceIdeal.RefRun.refTail h0 h1 h2 h3 h4 (Cert.ReferenceIdeal.RefRun.batchCol b)
          (Cert.ReferenceIdeal.RefRun.fcAt fcW 0 Cert.ReferenceIdeal.Gen.slices_S5x128x10_S1x128x10_0_0_0) (Cert.ReferenceIdeal.RefRun.fcbAt fcb 0 Cert.ReferenceIdeal.Gen.slices_S5x10_S1x10_0_0)
          (Cert.ReferenceIdeal.RefRun.fcAt fcW 1 Cert.ReferenceIdeal.Gen.slices_S5x128x10_S1x128x10_1_0_0) (Cert.ReferenceIdeal.RefRun.fcbAt fcb 1 Cert.ReferenceIdeal.Gen.slices_S5x10_S1x10_1_0)
          (Cert.ReferenceIdeal.RefRun.fcAt fcW 2 Cert.ReferenceIdeal.Gen.slices_S5x128x10_S1x128x10_2_0_0) (Cert.ReferenceIdeal.RefRun.fcbAt fcb 2 Cert.ReferenceIdeal.Gen.slices_S5x10_S1x10_2_0)
          (Cert.ReferenceIdeal.RefRun.fcAt fcW 3 Cert.ReferenceIdeal.Gen.slices_S5x128x10_S1x128x10_3_0_0) (Cert.ReferenceIdeal.RefRun.fcbAt fcb 3 Cert.ReferenceIdeal.Gen.slices_S5x10_S1x10_3_0)
          (Cert.ReferenceIdeal.RefRun.fcAt fcW 4 Cert.ReferenceIdeal.Gen.slices_S5x128x10_S1x128x10_4_0_0) (Cert.ReferenceIdeal.RefRun.fcbAt fcb 4 Cert.ReferenceIdeal.Gen.slices_S5x10_S1x10_4_0) := rfl
end Cert.Bridge
end
-- ==== Proof.LayerMath.lean ====
/-
  One layer of the network, carried from the folded arrangement to the centred one, at real data.

  Both arrangements (the module of index-by-index formulas states them) are built from sums, products, differences, a
  division by the positive count, a reciprocal square root of "variance + ε" and a maximum with zero. When every input
  entry is a real, every intermediate value of either arrangement is a real — the only partial steps, the division and
  the reciprocal square root, are taken at a nonzero count and at a positive radicand — and the two normalisations
  agree by the batch-normalisation law over the reals. So a whole layer in the folded arrangement equals the same layer
  in the centred arrangement, entry by entry, and its result is again real: that is what lets the next layer start
  from real data.
-/
import proofs.«102976_j3633542332749_1_alg».proof.Proof.Spec
import proofs.«102976_j3633542332749_1_alg».proof.Proof.LibBatchNorm

noncomputable section

namespace Cert.LayerMath

open Cert.Spec Cert.Lib.BatchNorm Idealize.ShloMosaic

/-! ## Real values among the extended reals -/

/-- An extended real that is (the coercion of) a real. -/
abbrev IsReal (x : EReal) : Prop := ∃ r : ℝ, x = (r : EReal)

/-- A real is neither infinity. -/
theorem isReal_ne {x : EReal} (hx : IsReal x) : x ≠ ⊤ ∧ x ≠ ⊥ := by
  obtain ⟨a, rfl⟩ := hx; exact coe_real a

/-- Sums, products and differences of reals are real; -/
theorem isReal_add {x y : EReal} (hx : IsReal x) (hy : IsReal y) : IsReal (x + y) := by
  obtain ⟨a, rfl⟩ := hx; obtain ⟨b, rfl⟩ := hy; exact ⟨a + b, (EReal.coe_add a b).symm⟩
theorem isReal_mul {x y : EReal} (hx : IsReal x) (hy : IsReal y) : IsReal (x * y) := by
  obtain ⟨a, rfl⟩ := hx; obtain ⟨b, rfl⟩ := hy; exact ⟨a * b, (EReal.coe_mul a b).symm⟩
theorem isReal_sub {x y : EReal} (hx : IsReal x) (hy : IsReal y) : IsReal (x - y) := by
  obtain ⟨a, rfl⟩ := hx; obtain ⟨b, rfl⟩ := hy; exact ⟨a - b, (EReal.coe_sub a b).symm⟩
/-- so is a finite sum of reals, -/
theorem isReal_sum {κ : Type*} (t : Finset κ) (f : κ → EReal) (h : ∀ k, IsReal (f k)) : IsReal (∑ k ∈ t, f k) := by
  choose g hg using h
  exact ⟨∑ k ∈ t, g k, sum_eq_coe t f g hg⟩
/-- and the maximum of a real with zero. -/
theorem isReal_max_zero {x : EReal} (hx : IsReal x) : IsReal (max x 0) := by
  obtain ⟨a, rfl⟩ := hx; exact ⟨max a 0, max_coe_zero a⟩

/-! ## The dense layers of reals are real -/

/-- A dense layer at row `R`, column `j`: the row of `Y` against column `j` of `W`, plus the bias. -/
def dense (Y : Fin 50000 → Fin 128 → EReal) (W : Fin 128 → Fin 128 → EReal) (B : Fin 128 → EReal)
    (R : Fin 50000) (j : Fin 128) : EReal :=
  (∑ k : Fin 128, Y R k * W k j) + B j

theorem dense_real {Y : Fin 50000 → Fin 128 → EReal} {W : Fin 128 → Fin 128 → EReal} {B : Fin 128 → EReal}
    (hY : ∀ R k, IsReal (Y R k)) (hW : ∀ k j, IsReal (W k j)) (hB : ∀ j, IsReal (B j)) (R : Fin 50000) (j : Fin 128) :
    IsReal (dense Y W B R j) :=
  isReal_add (isReal_sum _ _ fun k => isReal_mul (hY R k) (hW k j)) (hB j)

theorem dense1_real {H G : Fin 50000 → Fin 128 → EReal} {W : Fin 128 → Fin 128 → EReal} {B : Fin 128 → EReal}
    (hH : ∀ R k, IsReal (H R k)) (hG : ∀ R k, IsReal (G R k)) (hW : ∀ k j, IsReal (W k j)) (hB : ∀ j, IsReal (B j))
    (R : Fin 50000) (j : Fin 128) : IsReal (dense1 H G W B R j) :=
  isReal_add (isReal_sum _ _ fun k => isReal_mul (isReal_add (hH R k) (hG R k)) (hW k j)) (hB j)

theorem dense2_real {Z : Fin 50000 → Fin 128 → EReal} {S T : Fin 128 → EReal} {W : Fin 128 → Fin 128 → EReal}
    {B : Fin 128 → EReal} (hZ : ∀ R k, IsReal (Z R k)) (hS : ∀ k, IsReal (S k)) (hT : ∀ k, IsReal (T k))
    (hW : ∀ k j, IsReal (W k j)) (hB : ∀ j, IsReal (B j)) (R : Fin 50000) (j : Fin 128) :
    IsReal (dense2 Z S T W B R j) :=
  isReal_add (isReal_sum _ _ fun k =>
    isReal_mul (isReal_max_zero (isReal_add (isReal_mul (hZ R k) (hS k)) (hT k))) (hW k j)) (hB j)

/-! ## One normalisation: folded is centred, at a real column -/

section Norm

variable {Z : Fin 50000 → Fin 128 → EReal} {g b : Fin 128 → EReal} {N D E : EReal} {ε : ℝ}

/-- The count of rows, as a real. -/
theorem card_rows : (Fintype.card (Fin 50000) : ℝ) = 50000 := by simp

/-- THE NORMALISATION LAW at real data: the folded form `max (z · scale + shift) 0` is the centred form, and the
    common value is the maximum with zero of the real normalised entry. -/
theorem folded_eq_normC_coe (hZ : ∀ R k, IsReal (Z R k)) (hg : ∀ k, IsReal (g k)) (hb : ∀ k, IsReal (b k))
    (hN : N = ((50000 : ℝ) : EReal)) (hD : D = ((50000 : ℝ) : EReal)) (hE : E = (ε : EReal)) (hε : 0 < ε)
    (R : Fin 50000) (k : Fin 128) :
    ∃ r : ℝ, max (Z R k * scaleF Z g N E k + shiftF Z g b N E k) 0 = (r : EReal)
      ∧ normC Z g b N D E R k = (r : EReal) := by
  choose z hz using hZ
  obtain ⟨γ, hγ⟩ := hg k
  obtain ⟨β, hβ⟩ := hb k
  have hn : (0 : ℝ) < 50000 := by norm_num
  refine ⟨max (normed (fun R' => z R' k) 50000 ε γ β (z R k)) 0, ?_, ?_⟩
  · have h := folded_coe (fun R' => Z R' k) (fun R' => z R' k) (fun R' => hz R' k) card_rows hn hε hN hE γ β (z R k)
      (s := colSum Z k) (q := colSumSq Z k) rfl rfl
    unfold scaleF shiftF scaleF
    rw [hγ, hβ, hz R k]
    exact h
  · have h := centred_coe (fun R' => Z R' k) (fun R' => z R' k) (fun R' => hz R' k) hn hε hN hE γ β (z R k)
      (s := colSum Z k) (S := ∑ R' : Fin 50000, (Z R' k - Ideal.div (colSum Z k) N) * (Z R' k - Ideal.div (colSum Z k) N))
      (D := D) rfl rfl hD
    unfold normC
    rw [hγ, hβ, hz R k]
    exact h

/-- The folded form equals the centred form, -/
theorem folded_eq_normC (hZ : ∀ R k, IsReal (Z R k)) (hg : ∀ k, IsReal (g k)) (hb : ∀ k, IsReal (b k))
    (hN : N = ((50000 : ℝ) : EReal)) (hD : D = ((50000 : ℝ) : EReal)) (hE : E = (ε : EReal)) (hε : 0 < ε)
    (R : Fin 50000) (k : Fin 128) :
    max (Z R k * scaleF Z g N E k + shiftF Z g b N E k) 0 = normC Z g b N D E R k := by
  obtain ⟨r, h1, h2⟩ := folded_eq_normC_coe hZ hg hb hN hD hE hε R k
  rw [h1, h2]

/-- and it is real. -/
theorem normC_real (hZ : ∀ R k, IsReal (Z R k)) (hg : ∀ k, IsReal (g k)) (hb : ∀ k, IsReal (b k))
    (hN : N = ((50000 : ℝ) : EReal)) (hD : D = ((50000 : ℝ) : EReal)) (hE : E = (ε : EReal)) (hε : 0 < ε)
    (R : Fin 50000) (k : Fin 128) : IsReal (normC Z g b N D E R k) := by
  obtain ⟨r, -, h2⟩ := folded_eq_normC_coe hZ hg hb hN hD hE hε R k
  exact ⟨r, h2⟩

end Norm

/-! ## One layer: folded is centred, at real data -/

section Layer

variable {H G : Fin 50000 → Fin 128 → EReal} {W1 W2 : Fin 128 → Fin 128 → EReal} {B1 B2 gm bm go bo : Fin 128 → EReal}
variable {N D E : EReal} {ε : ℝ}

/-- The second pre-activation in the centred arrangement: the first normalisation, centred, against the second
    weight matrix, plus the bias. -/
def z2c (H G : Fin 50000 → Fin 128 → EReal) (W1 : Fin 128 → Fin 128 → EReal) (B1 : Fin 128 → EReal)
    (W2 : Fin 128 → Fin 128 → EReal) (B2 gm bm : Fin 128 → EReal) (N D E : EReal) (R : Fin 50000) (j : Fin 128) : EReal :=
  (∑ k : Fin 128, normC (dense1 H G W1 B1) gm bm N D E R k * W2 k j) + B2 j

variable (hH : ∀ R k, IsReal (H R k)) (hG : ∀ R k, IsReal (G R k))
variable (hW1 : ∀ k j, IsReal (W1 k j)) (hB1 : ∀ j, IsReal (B1 j)) (hW2 : ∀ k j, IsReal (W2 k j)) (hB2 : ∀ j, IsReal (B2 j))
variable (hgm : ∀ k, IsReal (gm k)) (hbm : ∀ k, IsReal (bm k)) (hgo : ∀ k, IsReal (go k)) (hbo : ∀ k, IsReal (bo k))
variable (hN : N = ((50000 : ℝ) : EReal)) (hD : D = ((50000 : ℝ) : EReal)) (hE : E = (ε : EReal)) (hε : 0 < ε)

include hH hG hW1 hB1 hgm hbm hN hD hE hε in
/-- The folded arrangement's second pre-activation IS the centred one's, as functions. -/
theorem dense2_eq_z2c :
    dense2 (dense1 H G W1 B1) (scaleF (dense1 H G W1 B1) gm N E) (shiftF (dense1 H G W1 B1) gm bm N E) W2 B2
      = z2c H G W1 B1 W2 B2 gm bm N D E := by
  funext R j
  unfold dense2 z2c
  congr 1
  refine Finset.sum_congr rfl fun k _ => ?_
  rw [folded_eq_normC (dense1_real hH hG hW1 hB1) hgm hbm hN hD hE hε R k]

include hH hG hW1 hB1 hW2 hB2 hgm hbm hN hD hE hε in
/-- The centred second pre-activation is real. -/
theorem z2c_real (R : Fin 50000) (j : Fin 128) : IsReal (z2c H G W1 B1 W2 B2 gm bm N D E R j) :=
  isReal_add (isReal_sum _ _ fun k =>
    isReal_mul (normC_real (dense1_real hH hG hW1 hB1) hgm hbm hN hD hE hε R k) (hW2 k j)) (hB2 j)

include hH hG hW1 hB1 hW2 hB2 hgm hbm hgo hbo hN hD hE hε in
/-- A WHOLE LAYER: the folded arrangement equals the centred one, entry by entry, -/
theorem layerF_eq_normC (R : Fin 50000) (j : Fin 128) :
    layerF H G W1 B1 W2 B2 gm bm go bo N E R j = normC (z2c H G W1 B1 W2 B2 gm bm N D E) go bo N D E R j := by
  show max (dense2 (dense1 H G W1 B1) (scaleF (dense1 H G W1 B1) gm N E) (shiftF (dense1 H G W1 B1) gm bm N E) W2 B2 R j
      * scaleF (dense2 (dense1 H G W1 B1) (scaleF (dense1 H G W1 B1) gm N E) (shiftF (dense1 H G W1 B1) gm bm N E) W2 B2) go N E j
      + shiftF (dense2 (dense1 H G W1 B1) (scaleF (dense1 H G W1 B1) gm N E) (shiftF (dense1 H G W1 B1) gm bm N E) W2 B2) go bo N E j) 0 = _
  rw [dense2_eq_z2c (D := D) hH hG hW1 hB1 hgm hbm hN hD hE hε]
  exact folded_eq_normC (z2c_real hH hG hW1 hB1 hW2 hB2 hgm hbm hN hD hE hε) hgo hbo hN hD hE hε R j

include hH hG hW1 hB1 hW2 hB2 hgm hbm hgo hbo hN hD hE hε in
/-- and the layer's result is real. -/
theorem layerF_real (R : Fin 50000) (j : Fin 128) : IsReal (layerF H G W1 B1 W2 B2 gm bm go bo N E R j) := by
  rw [layerF_eq_normC (D := D) hH hG hW1 hB1 hW2 hB2 hgm hbm hgo hbo hN hD hE hε R j]
  exact normC_real (z2c_real hH hG hW1 hB1 hW2 hB2 hgm hbm hN hD hE hε) hgo hbo hN hD hE hε R j

end Layer

end Cert.LayerMath

end
-- ==== Proof.Step.lean ====
/-
  One layer of the comparison between the two programs, as a step of an induction over the layers.

  Both programs hold the activations as a 50000 by 128 array. If the two arrays going into a layer are equal and real,
  and so are the two arrays of neighbour sums, and the layer's parameters are real, then: the first program's output,
  which is the layer in the folded arrangement, and the second program's output, which is the layer in the centred
  arrangement (its count spelled as "the count minus the integer zero"), are equal — by the batch-normalisation law,
  applied twice — and real again, so the next layer starts from the same hypotheses.
-/
import proofs.«102976_j3633542332749_1_alg».proof.Proof.Spec
import proofs.«102976_j3633542332749_1_alg».proof.Proof.LayerMath
import proofs.«102976_j3633542332749_1_alg».proof.Proof.LibBatchNorm
import proofs.«102976_j3633542332749_1_alg».proof.Proof.LibLayerNorm
import Idealize.ShloMosaic.Lib.ValueIdx

noncomputable section

namespace Cert.Bridge

open Cert.Spec Cert.LayerMath Cert.Lib.BatchNorm Idealize.ShloMosaic Idealize.ShloMosaic.ValueIdx

/-- The index type of a 50000 by 128 array. -/
abbrev Idx2 : Type := (⟨2, ![50000, 128]⟩ : Shape).Idx

/-- THE STEP: equal real inputs and neighbour sums, real parameters; the folded layer and the centred layer then give
    equal, real outputs. -/
theorem step (hK hR outK outR aggK aggR : Idx2 → EReal) (w1 w2 : Fin 128 → Fin 128 → EReal)
    (b1 b2 gm bm go bo : Fin 128 → EReal)
    (heq : hK = hR) (hagg : aggK = aggR) (hreal : ∀ i, IsReal (hK i)) (haggreal : ∀ i, IsReal (aggK i))
    (hw1 : ∀ k j, IsReal (w1 k j)) (hb1 : ∀ j, IsReal (b1 j)) (hw2 : ∀ k j, IsReal (w2 k j)) (hb2 : ∀ j, IsReal (b2 j))
    (hgm : ∀ k, IsReal (gm k)) (hbm : ∀ k, IsReal (bm k)) (hgo : ∀ k, IsReal (go k)) (hbo : ∀ k, IsReal (bo k))
    (hKv : ∀ (R : Fin 50000) (j : Fin 128), outK (ix2 R j)
      = layerF (fun R k => hK (ix2 R k)) (fun R k => aggK (ix2 R k)) w1 b1 w2 b2 gm bm go bo
          (Ideal.ofBits .f32 0x47435000#32) (Ideal.ofBits .f32 0x3727C5AC#32) R j)
    (hRv : ∀ (R : Fin 50000) (j : Fin 128), outR (ix2 R j)
      = normC (dense (normC (dense1 (fun R k => hR (ix2 R k)) (fun R k => aggR (ix2 R k)) w1 b1) gm bm
            (Ideal.ofBits .f32 0x47435000#32)
            (Ideal.ofBits .f32 0x47435000#32 - (((0#32 : BitVec 32).toInt : ℝ) : EReal))
            (Ideal.ofBits .f32 0x3727C5AC#32)) w2 b2) go bo
          (Ideal.ofBits .f32 0x47435000#32)
          (Ideal.ofBits .f32 0x47435000#32 - (((0#32 : BitVec 32).toInt : ℝ) : EReal))
          (Ideal.ofBits .f32 0x3727C5AC#32) R j) :
    outK = outR ∧ ∀ i, IsReal (outK i) := by
  subst heq hagg
  have hH : ∀ (R : Fin 50000) (k : Fin 128), IsReal (hK (ix2 R k)) := fun R k => hreal _
  have hG : ∀ (R : Fin 50000) (k : Fin 128), IsReal (aggK (ix2 R k)) := fun R k => haggreal _
  have key : ∀ (R : Fin 50000) (j : Fin 128), outK (ix2 R j) = outR (ix2 R j) := fun R j => by
    rw [hKv, hRv, layerF_eq_normC (D := Ideal.ofBits .f32 0x47435000#32 - (((0#32 : BitVec 32).toInt : ℝ) : EReal))
      hH hG hw1 hb1 hw2 hb2 hgm hbm hgo hbo ofBits_f32_50000 count_sub_zero Cert.Lib.ofBits_f32_eps eps_pos R j]
    rfl
  refine ⟨funext fun i => ?_, fun i => ?_⟩
  · obtain ⟨R, j, rfl⟩ : ∃ (R : Fin 50000) (j : Fin 128), i = ix2 R j := ⟨i 0, i 1, eq_ix2 i⟩
    exact key R j
  · obtain ⟨R, j, rfl⟩ : ∃ (R : Fin 50000) (j : Fin 128), i = ix2 R j := ⟨i 0, i 1, eq_ix2 i⟩
    rw [hKv]
    exact layerF_real (D := Ideal.ofBits .f32 0x47435000#32 - (((0#32 : BitVec 32).toInt : ℝ) : EReal))
      hH hG hw1 hb1 hw2 hb2 hgm hbm hgo hbo ofBits_f32_50000 count_sub_zero Cert.Lib.ofBits_f32_eps eps_pos R j

end Cert.Bridge

end
-- ==== Proof.Bridge.lean ====
/-
  The bridge between the two programs at the extended reals. Layer by layer the kernel program's activations (the
  folded arrangement of batch normalisation, read through its kernel regions) and the reference's (the centred
  arrangement) are the same array and hold real numbers: the step is the identity E[z²] − E[z]² = E[(z − E z)²] and the
  distributive law, both of which need the entries to be real, which the precondition gives for the inputs and every
  layer hands to the next. The closing part (pooling, classifier, log-softmax) is one and the same function of the five
  activation arrays in both programs.
-/
import proofs.«102976_j3633542332749_1_alg».proof.Proof.KI.Layer0
import proofs.«102976_j3633542332749_1_alg».proof.Proof.KI.Layer1
import proofs.«102976_j3633542332749_1_alg».proof.Proof.KI.Layer2
import proofs.«102976_j3633542332749_1_alg».proof.Proof.KI.Layer3
import proofs.«102976_j3633542332749_1_alg».proof.Proof.KI.Finite
import proofs.«102976_j3633542332749_1_alg».proof.Proof.KI.AggReal
import proofs.«102976_j3633542332749_1_alg».proof.Proof.RefRun.Layers
import proofs.«102976_j3633542332749_1_alg».proof.Proof.Agree
import proofs.«102976_j3633542332749_1_alg».proof.Proof.Step

set_option maxRecDepth 16384

noncomputable section

namespace Cert.Bridge

open Idealize.ShloMosaic Idealize.ShloMosaic.TcCoe Idealize.SL.Sem
open Idealize.ShloMosaic.ValueIdx
open Cert.LayerMath (IsReal)

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (hpre : Cert.Pre_KernelIdeal m) (c : Dev Cert.KernelIdeal.nD)

/-- The two memories agree on the thirteen argument arrays. -/
def Agrees : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧
  m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧
  m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧
  m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧
  m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧
  m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧
  m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧
  m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧
  m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧
  m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9) ∧
  m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10) ∧
  m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11) ∧
  m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

/-- The reference's buffers at launch. -/
abbrev V' : Valuation Cert.ReferenceIdeal.τ Cert.ReferenceIdeal.sig (Elt Ideal) := StableHlo.launchContents m' c

/-- The activation arrays of the two programs, layer by layer. -/
abbrev hK0 : Cert.KernelIdeal.S50000x128.Idx → EReal := m ((c.tc : Thread Cert.KernelIdeal.nD Cert.KernelIdeal.τ).loc Cert.KernelIdeal.main_arg0)
abbrev hK1 : Cert.KernelIdeal.S50000x128.Idx → EReal := Cert.KernelIdeal.Hand.W6 m ρ c (Proc.devRef .tc Cert.KernelIdeal.main_v62)
abbrev hK2 : Cert.KernelIdeal.S50000x128.Idx → EReal := Cert.KernelIdeal.Hand.W12 m ρ c (Proc.devRef .tc Cert.KernelIdeal.main_v121)
abbrev hK3 : Cert.KernelIdeal.S50000x128.Idx → EReal := Cert.KernelIdeal.Hand.W18 m ρ c (Proc.devRef .tc Cert.KernelIdeal.main_v180)
abbrev hK4 : Cert.KernelIdeal.S50000x128.Idx → EReal := Cert.KernelIdeal.Hand.W24 m ρ c (Proc.devRef .tc Cert.KernelIdeal.main_v239)
abbrev hR0 : Cert.ReferenceIdeal.S50000x128.Idx → EReal := V' m' c (Proc.devRef .tc Cert.ReferenceIdeal.main_arg0)
abbrev hR1 : Cert.ReferenceIdeal.S50000x128.Idx → EReal := StableHlo.after Cert.ReferenceIdeal.RefRun.ops (V' m' c) (Proc.devRef .tc Cert.ReferenceIdeal.main_v78)
abbrev hR2 : Cert.ReferenceIdeal.S50000x128.Idx → EReal := StableHlo.after Cert.ReferenceIdeal.RefRun.ops (V' m' c) (Proc.devRef .tc Cert.ReferenceIdeal.main_v153)
abbrev hR3 : Cert.ReferenceIdeal.S50000x128.Idx → EReal := StableHlo.after Cert.ReferenceIdeal.RefRun.ops (V' m' c) (Proc.devRef .tc Cert.ReferenceIdeal.main_v228)
abbrev hR4 : Cert.ReferenceIdeal.S50000x128.Idx → EReal := StableHlo.after Cert.ReferenceIdeal.RefRun.ops (V' m' c) (Proc.devRef .tc Cert.ReferenceIdeal.main_v303)

variable {m m' c} in
theorem arg_of (hag : Agrees m m' c) :
    (V' m' c (Proc.devRef .tc Cert.ReferenceIdeal.main_arg0) = m ((c.tc : Thread Cert.KernelIdeal.nD Cert.KernelIdeal.τ).loc Cert.KernelIdeal.main_arg0)) ∧
    (V' m' c (Proc.devRef .tc Cert.ReferenceIdeal.main_arg1) = m ((c.tc : Thread Cert.KernelIdeal.nD Cert.KernelIdeal.τ).loc Cert.KernelIdeal.main_arg1)) ∧
    (V' m' c (Proc.devRef .tc Cert.ReferenceIdeal.main_arg2) = m ((c.tc : Thread Cert.KernelIdeal.nD Cert.KernelIdeal.τ).loc Cert.KernelIdeal.main_arg2)) ∧
    (V' m' c (Proc.devRef .tc Cert.ReferenceIdeal.main_arg3) = m ((c.tc : Thread Cert.KernelIdeal.nD Cert.KernelIdeal.τ).loc Cert.KernelIdeal.main_arg3)) ∧
    (V' m' c (Proc.devRef .tc Cert.ReferenceIdeal.main_arg4) = m ((c.tc : Thread Cert.KernelIdeal.nD Cert.KernelIdeal.τ).loc Cert.KernelIdeal.main_arg4)) ∧
    (V' m' c (Proc.devRef .tc Cert.ReferenceIdeal.main_arg5) = m ((c.tc : Thread Cert.KernelIdeal.nD Cert.KernelIdeal.τ).loc Cert.KernelIdeal.main_arg5)) ∧
    (V' m' c (Proc.devRef .tc Cert.ReferenceIdeal.main_arg6) = m ((c.tc : Thread Cert.KernelIdeal.nD Cert.KernelIdeal.τ).loc Cert.KernelIdeal.main_arg6)) ∧
    (V' m' c (Proc.devRef .tc Cert.ReferenceIdeal.main_arg7) = m ((c.tc : Thread Cert.KernelIdeal.nD Cert.KernelIdeal.τ).loc Cert.KernelIdeal.main_arg7)) ∧
    (V' m' c (Proc.devRef .tc Cert.ReferenceIdeal.main_arg8) = m ((c.tc : Thread Cert.KernelIdeal.nD Cert.KernelIdeal.τ).loc Cert.KernelIdeal.main_arg8)) ∧
    (V' m' c (Proc.devRef .tc Cert.ReferenceIdeal.main_arg9) = m ((c.tc : Thread Cert.KernelIdeal.nD Cert.KernelIdeal.τ).loc Cert.KernelIdeal.main_arg9)) ∧
    (V' m' c (Proc.devRef .tc Cert.ReferenceIdeal.main_arg10) = m ((c.tc : Thread Cert.KernelIdeal.nD Cert.KernelIdeal.τ).loc Cert.KernelIdeal.main_arg10)) ∧
    (V' m' c (Proc.devRef .tc Cert.ReferenceIdeal.main_arg11) = m ((c.tc : Thread Cert.KernelIdeal.nD Cert.KernelIdeal.τ).loc Cert.KernelIdeal.main_arg11)) ∧
    (V' m' c (Proc.devRef .tc Cert.ReferenceIdeal.main_arg12) = m ((c.tc : Thread Cert.KernelIdeal.nD Cert.KernelIdeal.τ).loc Cert.KernelIdeal.main_arg12)) := hag

/-- The neighbour sums agree once the activations do. -/
theorem agg_eq (hag : Agrees m m' c) (hK : Cert.KernelIdeal.S50000x128.Idx → EReal) (hR : Cert.ReferenceIdeal.S50000x128.Idx → EReal) (h : hK = hR) :
    (Cert.KernelIdeal.Hand.aggOf (F := Ideal) hK (Cert.KernelIdeal.Hand.srcCol m c) (Cert.KernelIdeal.Hand.dstCol m c) : Cert.KernelIdeal.S50000x128.Idx → EReal)
      = Cert.ReferenceIdeal.RefRun.agg (F := Ideal) hR (Cert.ReferenceIdeal.RefRun.srcCol (V' m' c (Proc.devRef .tc Cert.ReferenceIdeal.main_arg1))) (Cert.ReferenceIdeal.RefRun.dstCol (V' m' c (Proc.devRef .tc Cert.ReferenceIdeal.main_arg1))) := by
  subst h
  rw [show V' m' c (Proc.devRef .tc Cert.ReferenceIdeal.main_arg1) = m ((c.tc : Thread Cert.KernelIdeal.nD Cert.KernelIdeal.τ).loc Cert.KernelIdeal.main_arg1) from hag.2.1]
  exact agg_agree _ _ _

include hpre in
/-- One layer carries "the same array, of real numbers" from its input to its output. -/
theorem layer_step (hag : Agrees m m' c) (i : Fin 4)
    (hK hR outK outR : Cert.KernelIdeal.S50000x128.Idx → EReal) (heq : hK = hR) (hreal : ∀ x, IsReal (hK x))
    (hKv : ∀ R j, outK (ix2 R j) = Cert.Spec.layerF (fun R k => hK (ix2 R k))
        (fun R k => (Cert.KernelIdeal.Hand.aggOf (F := Ideal) hK (Cert.KernelIdeal.Hand.srcCol m c) (Cert.KernelIdeal.Hand.dstCol m c) : Cert.KernelIdeal.S50000x128.Idx → EReal) (ix2 R k))
        (Cert.KernelIdeal.Hand.w1At m c i) (Cert.KernelIdeal.Hand.b1At m c i) (Cert.KernelIdeal.Hand.w2At m c i) (Cert.KernelIdeal.Hand.b2At m c i)
        (Cert.KernelIdeal.Hand.gmAt m c i) (Cert.KernelIdeal.Hand.bmAt m c i) (Cert.KernelIdeal.Hand.goAt m c i) (Cert.KernelIdeal.Hand.boAt m c i)
        (Ideal.ofBits .f32 0x47435000#32) (Ideal.ofBits .f32 0x3727C5AC#32) R j)
    (hRv : ∀ R j, outR (ix2 R j) = Cert.Spec.normC (Cert.ReferenceIdeal.RefRun.dense (Cert.Spec.normC (Cert.Spec.dense1 (fun R k => hR (ix2 R k))
        (fun R k => Cert.ReferenceIdeal.RefRun.agg (F := Ideal) hR (Cert.ReferenceIdeal.RefRun.srcCol (V' m' c (Proc.devRef .tc Cert.ReferenceIdeal.main_arg1))) (Cert.ReferenceIdeal.RefRun.dstCol (V' m' c (Proc.devRef .tc Cert.ReferenceIdeal.main_arg1))) (ix2 R k))
        (Cert.KernelIdeal.Hand.w1At m c i) (Cert.KernelIdeal.Hand.b1At m c i)) (Cert.KernelIdeal.Hand.gmAt m c i) (Cert.KernelIdeal.Hand.bmAt m c i) Cert.ReferenceIdeal.RefRun.cntN Cert.ReferenceIdeal.RefRun.cntD Cert.ReferenceIdeal.RefRun.epsE)
        (Cert.KernelIdeal.Hand.w2At m c i) (Cert.KernelIdeal.Hand.b2At m c i)) (Cert.KernelIdeal.Hand.goAt m c i) (Cert.KernelIdeal.Hand.boAt m c i) Cert.ReferenceIdeal.RefRun.cntN Cert.ReferenceIdeal.RefRun.cntD Cert.ReferenceIdeal.RefRun.epsE R j) :
    outK = outR ∧ ∀ x, IsReal (outK x) :=
  Cert.Bridge.step hK hR outK outR _ _ _ _ _ _ _ _ _ _ heq (agg_eq m m' c hag hK hR heq) hreal
    (Cert.KernelIdeal.Hand.aggOf_real hK _ _ hreal)
    (fun k j => Cert.KernelIdeal.Hand.real_arg3 m hpre c (ix3 i k j)) (fun j => Cert.KernelIdeal.Hand.real_arg4 m hpre c (ix2 i j))
    (fun k j => Cert.KernelIdeal.Hand.real_arg5 m hpre c (ix3 i k j)) (fun j => Cert.KernelIdeal.Hand.real_arg6 m hpre c (ix2 i j))
    (fun j => Cert.KernelIdeal.Hand.real_arg7 m hpre c (ix2 i j)) (fun j => Cert.KernelIdeal.Hand.real_arg8 m hpre c (ix2 i j))
    (fun j => Cert.KernelIdeal.Hand.real_arg9 m hpre c (ix2 i j)) (fun j => Cert.KernelIdeal.Hand.real_arg10 m hpre c (ix2 i j))
    hKv hRv

/-- The reference's layer i, its parameters rewritten over the kernel program's memory. -/
theorem ref_value0 (hag : Agrees m m' c) (R : Fin 50000) (j : Fin 128) :
    hR1 m' c (ix2 R j) = Cert.Spec.normC (Cert.ReferenceIdeal.RefRun.dense (Cert.Spec.normC (Cert.Spec.dense1 (fun R k => hR0 m' c (ix2 R k))
        (fun R k => Cert.ReferenceIdeal.RefRun.agg (F := Ideal) (hR0 m' c) (Cert.ReferenceIdeal.RefRun.srcCol (V' m' c (Proc.devRef .tc Cert.ReferenceIdeal.main_arg1))) (Cert.ReferenceIdeal.RefRun.dstCol (V' m' c (Proc.devRef .tc Cert.ReferenceIdeal.main_arg1))) (ix2 R k))
        (Cert.KernelIdeal.Hand.w1At m c 0) (Cert.KernelIdeal.Hand.b1At m c 0)) (Cert.KernelIdeal.Hand.gmAt m c 0) (Cert.KernelIdeal.Hand.bmAt m c 0) Cert.ReferenceIdeal.RefRun.cntN Cert.ReferenceIdeal.RefRun.cntD Cert.ReferenceIdeal.RefRun.epsE)
        (Cert.KernelIdeal.Hand.w2At m c 0) (Cert.KernelIdeal.Hand.b2At m c 0)) (Cert.KernelIdeal.Hand.goAt m c 0) (Cert.KernelIdeal.Hand.boAt m c 0) Cert.ReferenceIdeal.RefRun.cntN Cert.ReferenceIdeal.RefRun.cntD Cert.ReferenceIdeal.RefRun.epsE R j := by
  refine (Cert.ReferenceIdeal.RefRun.ref_layer0 (V' m' c) R j).trans ?_
  obtain ⟨-, -, -, e3, e4, e5, e6, e7, e8, e9, e10, -, -⟩ := arg_of hag
  rw [e3, e4, e5, e6, e7, e8, e9, e10]
  rfl
theorem ref_value1 (hag : Agrees m m' c) (R : Fin 50000) (j : Fin 128) :
    hR2 m' c (ix2 R j) = Cert.Spec.normC (Cert.ReferenceIdeal.RefRun.dense (Cert.Spec.normC (Cert.Spec.dense1 (fun R k => hR1 m' c (ix2 R k))
        (fun R k => Cert.ReferenceIdeal.RefRun.agg (F := Ideal) (hR1 m' c) (Cert.ReferenceIdeal.RefRun.srcCol (V' m' c (Proc.devRef .tc Cert.ReferenceIdeal.main_arg1))) (Cert.ReferenceIdeal.RefRun.dstCol (V' m' c (Proc.devRef .tc Cert.ReferenceIdeal.main_arg1))) (ix2 R k))
        (Cert.KernelIdeal.Hand.w1At m c 1) (Cert.KernelIdeal.Hand.b1At m c 1)) (Cert.KernelIdeal.Hand.gmAt m c 1) (Cert.KernelIdeal.Hand.bmAt m c 1) Cert.ReferenceIdeal.RefRun.cntN Cert.ReferenceIdeal.RefRun.cntD Cert.ReferenceIdeal.RefRun.epsE)
        (Cert.KernelIdeal.Hand.w2At m c 1) (Cert.KernelIdeal.Hand.b2At m c 1)) (Cert.KernelIdeal.Hand.goAt m c 1) (Cert.KernelIdeal.Hand.boAt m c 1) Cert.ReferenceIdeal.RefRun.cntN Cert.ReferenceIdeal.RefRun.cntD Cert.ReferenceIdeal.RefRun.epsE R j := by
  refine (Cert.ReferenceIdeal.RefRun.ref_layer1 (V' m' c) R j).trans ?_
  obtain ⟨-, -, -, e3, e4, e5, e6, e7, e8, e9, e10, -, -⟩ := arg_of hag
  rw [e3, e4, e5, e6, e7, e8, e9, e10]
  rfl
theorem ref_value2 (hag : Agrees m m' c) (R : Fin 50000) (j : Fin 128) :
    hR3 m' c (ix2 R j) = Cert.Spec.normC (Cert.ReferenceIdeal.RefRun.dense (Cert.Spec.normC (Cert.Spec.dense1 (fun R k => hR2 m' c (ix2 R k))
        (fun R k => Cert.ReferenceIdeal.RefRun.agg (F := Ideal) (hR2 m' c) (Cert.ReferenceIdeal.RefRun.srcCol (V' m' c (Proc.devRef .tc Cert.ReferenceIdeal.main_arg1))) (Cert.ReferenceIdeal.RefRun.dstCol (V' m' c (Proc.devRef .tc Cert.ReferenceIdeal.main_arg1))) (ix2 R k))
        (Cert.KernelIdeal.Hand.w1At m c 2) (Cert.KernelIdeal.Hand.b1At m c 2)) (Cert.KernelIdeal.Hand.gmAt m c 2) (Cert.KernelIdeal.Hand.bmAt m c 2) Cert.ReferenceIdeal.RefRun.cntN Cert.ReferenceIdeal.RefRun.cntD Cert.ReferenceIdeal.RefRun.epsE)
        (Cert.KernelIdeal.Hand.w2At m c 2) (Cert.KernelIdeal.Hand.b2At m c 2)) (Cert.KernelIdeal.Hand.goAt m c 2) (Cert.KernelIdeal.Hand.boAt m c 2) Cert.ReferenceIdeal.RefRun.cntN Cert.ReferenceIdeal.RefRun.cntD Cert.ReferenceIdeal.RefRun.epsE R j := by
  refine (Cert.ReferenceIdeal.RefRun.ref_layer2 (V' m' c) R j).trans ?_
  obtain ⟨-, -, -, e3, e4, e5, e6, e7, e8, e9, e10, -, -⟩ := arg_of hag
  rw [e3, e4, e5, e6, e7, e8, e9, e10]
  rfl
theorem ref_value3 (hag : Agrees m m' c) (R : Fin 50000) (j : Fin 128) :
    hR4 m' c (ix2 R j) = Cert.Spec.normC (Cert.ReferenceIdeal.RefRun.dense (Cert.Spec.normC (Cert.Spec.dense1 (fun R k => hR3 m' c (ix2 R k))
        (fun R k => Cert.ReferenceIdeal.RefRun.agg (F := Ideal) (hR3 m' c) (Cert.ReferenceIdeal.RefRun.srcCol (V' m' c (Proc.devRef .tc Cert.ReferenceIdeal.main_arg1))) (Cert.ReferenceIdeal.RefRun.dstCol (V' m' c (Proc.devRef .tc Cert.ReferenceIdeal.main_arg1))) (ix2 R k))
        (Cert.KernelIdeal.Hand.w1At m c 3) (Cert.KernelIdeal.Hand.b1At m c 3)) (Cert.KernelIdeal.Hand.gmAt m c 3) (Cert.KernelIdeal.Hand.bmAt m c 3) Cert.ReferenceIdeal.RefRun.cntN Cert.ReferenceIdeal.RefRun.cntD Cert.ReferenceIdeal.RefRun.epsE)
        (Cert.KernelIdeal.Hand.w2At m c 3) (Cert.KernelIdeal.Hand.b2At m c 3)) (Cert.KernelIdeal.Hand.goAt m c 3) (Cert.KernelIdeal.Hand.boAt m c 3) Cert.ReferenceIdeal.RefRun.cntN Cert.ReferenceIdeal.RefRun.cntD Cert.ReferenceIdeal.RefRun.epsE R j := by
  refine (Cert.ReferenceIdeal.RefRun.ref_layer3 (V' m' c) R j).trans ?_
  obtain ⟨-, -, -, e3, e4, e5, e6, e7, e8, e9, e10, -, -⟩ := arg_of hag
  rw [e3, e4, e5, e6, e7, e8, e9, e10]
  rfl

include hpre in
/-- The five activation arrays agree and are real. -/
theorem acts (hag : Agrees m m' c) :
    (hK0 m c = hR0 m' c ∧ ∀ x, IsReal (hK0 m c x)) ∧ (hK1 m ρ c = hR1 m' c ∧ ∀ x, IsReal (hK1 m ρ c x)) ∧ (hK2 m ρ c = hR2 m' c ∧ ∀ x, IsReal (hK2 m ρ c x)) ∧ (hK3 m ρ c = hR3 m' c ∧ ∀ x, IsReal (hK3 m ρ c x)) ∧ (hK4 m ρ c = hR4 m' c ∧ ∀ x, IsReal (hK4 m ρ c x)) := by
  have p0 : hK0 m c = hR0 m' c ∧ ∀ x, IsReal (hK0 m c x) := ⟨(arg_of hag).1.symm, Cert.KernelIdeal.Hand.real_arg0 m hpre c⟩
  have p1 := layer_step m m' hpre c hag 0 (hK0 m c) (hR0 m' c) (hK1 m ρ c) (hR1 m' c) p0.1 p0.2 (Cert.KernelIdeal.Hand.layer0_value m ρ c) (ref_value0 m m' c hag)
  have p2 := layer_step m m' hpre c hag 1 (hK1 m ρ c) (hR1 m' c) (hK2 m ρ c) (hR2 m' c) p1.1 p1.2 (Cert.KernelIdeal.Hand.layer1_value m ρ c) (ref_value1 m m' c hag)
  have p3 := layer_step m m' hpre c hag 2 (hK2 m ρ c) (hR2 m' c) (hK3 m ρ c) (hR3 m' c) p2.1 p2.2 (Cert.KernelIdeal.Hand.layer2_value m ρ c) (ref_value2 m m' c hag)
  have p4 := layer_step m m' hpre c hag 3 (hK3 m ρ c) (hR3 m' c) (hK4 m ρ c) (hR4 m' c) p3.1 p3.2 (Cert.KernelIdeal.Hand.layer3_value m ρ c) (ref_value3 m m' c hag)
  exact ⟨p0, p1, p2, p3, p4⟩

include hpre in
/-- THE BRIDGE: the reference's result buffer holds what the kernel program's does. -/
theorem result_eq (hag : Agrees m m' c) :
    StableHlo.after Cert.ReferenceIdeal.RefRun.ops (V' m' c) (Proc.devRef .tc Cert.ReferenceIdeal.main_v365)
      = Cert.KernelIdeal.Hand.W26 m ρ c (Proc.devRef .tc Cert.KernelIdeal.main_v301) := by
  obtain ⟨⟨e0, -⟩, ⟨e1, -⟩, ⟨e2, -⟩, ⟨e3, -⟩, ⟨e4, -⟩⟩ := acts m ρ m' hpre c hag
  obtain ⟨a0, -, a2, -, -, -, -, -, -, -, -, a11, a12⟩ := arg_of hag
  rw [Cert.ReferenceIdeal.RefRun.out_eq (V' m' c)]
  refine Eq.trans ?_ (Cert.KernelIdeal.Hand.out_after (F := Ideal) (Cert.KernelIdeal.Hand.W24 m ρ c)).symm
  rw [Cert.KernelIdeal.Hand.W24_arg m ρ c Cert.KernelIdeal.main_arg0 (by decide), Cert.KernelIdeal.Hand.W24_arg m ρ c Cert.KernelIdeal.main_arg2 (by decide),
    Cert.KernelIdeal.Hand.W24_arg m ρ c Cert.KernelIdeal.main_arg11 (by decide), Cert.KernelIdeal.Hand.W24_arg m ρ c Cert.KernelIdeal.main_arg12 (by decide),
    Cert.KernelIdeal.Hand.W24_h1 m ρ c, Cert.KernelIdeal.Hand.W24_h2 m ρ c, Cert.KernelIdeal.Hand.W24_h3 m ρ c, tail_agree]
  rw [a0, a2, a11, a12]
  have e1' : Cert.KernelIdeal.Hand.W6 m ρ c (Proc.devRef .tc Cert.KernelIdeal.main_v62) = StableHlo.after Cert.ReferenceIdeal.RefRun.ops (V' m' c) (Proc.devRef .tc Cert.ReferenceIdeal.main_v78) := e1
  have e2' : Cert.KernelIdeal.Hand.W12 m ρ c (Proc.devRef .tc Cert.KernelIdeal.main_v121) = StableHlo.after Cert.ReferenceIdeal.RefRun.ops (V' m' c) (Proc.devRef .tc Cert.ReferenceIdeal.main_v153) := e2
  have e3' : Cert.KernelIdeal.Hand.W18 m ρ c (Proc.devRef .tc Cert.KernelIdeal.main_v180) = StableHlo.after Cert.ReferenceIdeal.RefRun.ops (V' m' c) (Proc.devRef .tc Cert.ReferenceIdeal.main_v228) := e3
  have e4' : Cert.KernelIdeal.Hand.W24 m ρ c (Proc.devRef .tc Cert.KernelIdeal.main_v239) = StableHlo.after Cert.ReferenceIdeal.RefRun.ops (V' m' c) (Proc.devRef .tc Cert.ReferenceIdeal.main_v303) := e4
  rw [e1', e2', e3', e4']

end Cert.Bridge

end
-- ==== Proof.lean ====
/-
  The certificate of a four-layer graph isomorphism network on 50000 nodes with 128 features: per layer the neighbour sum
  (a gather and a scatter-add on the host), two dense layers each followed by batch normalisation over the node axis
  and a rectifier, then a segment-sum pooling of every layer's activations into a 512 × 10 classifier and a
  log-softmax. The kernel program computes the dense layers in three blocked kernels per layer (5000 rows a block, ten
  blocks): the first and second accumulate the column sums of their output and of its square across the blocks, from
  which the host computes mean, variance (mean of squares minus squared mean) and the folded affine map
  z ↦ z · (γ · rsqrt(var + ε)) + (β − mean · γ · rsqrt(var + ε)); the reference computes the centred form
  (z − mean) · rsqrt(var + ε) · γ + β with the variance as the mean of squared deviations.
  The bridge: layer by layer both arrangements are one array of real numbers (the variance identity and the distributive
  law hold on reals; the precondition makes the inputs real and each layer hands realness on), and the closing pooling,
  classifier and log-softmax are the same function in both programs.
  The three frames: each kernel program is run item by item (fourteen host stretches, twelve kernel regions) with every
  argument array carried through; the reference is a straight line of host operations.
-/
import proofs.«102976_j3633542332749_1_alg».proof.Defs
import proofs.«102976_j3633542332749_1_alg».proof.Proof.Gen.Kernel
import proofs.«102976_j3633542332749_1_alg».proof.Proof.Gen.KernelIdeal
import proofs.«102976_j3633542332749_1_alg».proof.Proof.Gen.ReferenceIdeal
import proofs.«102976_j3633542332749_1_alg».proof.Proof.Gen.Pre_finite_inputs
import proofs.«102976_j3633542332749_1_alg».proof.Proof.K.Run
import proofs.«102976_j3633542332749_1_alg».proof.Proof.KI.Run
import proofs.«102976_j3633542332749_1_alg».proof.Proof.RefRun
import proofs.«102976_j3633542332749_1_alg».proof.Proof.RefRun.Post
import proofs.«102976_j3633542332749_1_alg».proof.Proof.Bridge
import Idealize.ShloMosaic.Adequacy
import Idealize.ShloMosaic.Init

noncomputable section

namespace Cert.Proof

open Idealize.ShloMosaic Idealize.SL.Sem

/-- The word-level kernel program runs to the end, nothing faulting, its thirteen argument arrays unchanged. -/
theorem frame_k : Cert.frame_Kernel := fun m ρ _ =>
  (θ_run Cert.Kernel.defs _ _).mono (fun _ h c => (h c).2) (Cert.Kernel.Hand.run (F := Bits) m ρ)

/-- The same of the kernel program read over the extended reals. -/
theorem frame_ki : Cert.frame_KernelIdeal := fun m ρ _ =>
  (θ_run Cert.KernelIdeal.defs _ _).mono (fun _ h c => (h c).2) (Cert.KernelIdeal.Hand.run (F := Ideal) m ρ)

/-- The reference, a straight line of host operations, runs to the end with its arguments unchanged. -/
theorem frame_ri : Cert.frame_ReferenceIdeal := Cert.ReferenceIdeal.RefRun.frame_ri

/-- The ideal pass rewrote no operation of the kernel program: nothing to preserve. -/
theorem preserves : Cert.preserves_Kernel_KernelIdeal := trivial

/-- Run from memories that agree on the arguments, the two programs read over the extended reals end with the same result
    array: the kernel program's run names its result buffer's final contents, and the reference's are those (the bridge). -/
theorem algebraic : Cert.algebraic_KernelIdeal_ReferenceIdeal := by
  intro m ρ m' ρ' hpre hagree
  refine ⟨fun c => Cert.KernelIdeal.Hand.W26 m ρ c (Proc.devRef .tc Cert.KernelIdeal.main_v301),
    Cert.KernelIdeal.Hand.run (F := Ideal) m ρ, ?_⟩
  exact Cert.ReferenceIdeal.RefRun.run_post m' ρ' _ (fun c => Cert.Bridge.result_eq m ρ m' hpre c (hagree c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
